-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 999999#32
  let main_v18 : IVec S16384 32 := broadcastInDim S16384 ![] bcast_S_S16384 main_c_6
  let main_v19 : IVec S16384 1 := cmpi .sle main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : IVec S16384 32) (main_arg1 : IVec S16384 32) (main_arg2 : FVec F S1000000x64 .f32) (main_arg3 : FVec F S1000000x64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg3
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 999999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S16384 : Shape := ⟨1, ![16384]⟩
abbrev S1000000x64 : Shape := ⟨2, ![1000000, 64]⟩
abbrev S125000x8x64 : Shape := ⟨3, ![125000, 8, 64]⟩
abbrev S512 : Shape := ⟨1, ![512]⟩
abbrev S16x8x64 : Shape := ⟨3, ![16, 8, 64]⟩
abbrev S_ : Shape := ⟨0, ![]⟩
abbrev S16 : Shape := ⟨1, ![16]⟩
abbrev S1 : Shape := ⟨1, ![1]⟩
abbrev S1x8x64 : Shape := ⟨3, ![1, 8, 64]⟩
abbrev S8x64 : Shape := ⟨2, ![8, 64]⟩

abbrev nBuf : Table → Nat
  | .hbm => 7
  | .local .scVector .vmem => 7
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S125000x8x64, .f32⟩
  | .hbm, ⟨5, _⟩ => ⟨S125000x8x64, .f32⟩
  | .hbm, ⟨6, _⟩ => ⟨S16384, .f32⟩
  | .local .scVector .vmem, ⟨0, _⟩ => ⟨S512, .i32⟩
  | .local .scVector .vmem, ⟨1, _⟩ => ⟨S512, .i32⟩
  | .local .scVector .vmem, ⟨2, _⟩ => ⟨S16x8x64, .f32⟩
  | .local .scVector .vmem, ⟨3, _⟩ => ⟨S16x8x64, .f32⟩
  | .local .scVector .vmem, ⟨4, _⟩ => ⟨S16x8x64, .f32⟩
  | .local .scVector .vmem, ⟨5, _⟩ => ⟨S16x8x64, .f32⟩
  | .local .scVector .vmem, ⟨6, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (v10 : BitVec 32) : Fin 3 → Nat :=
  let c0_i32_4 : BitVec 32 := 0#32
  let c0_i32_5 : BitVec 32 := 0#32
  ![v10.toNat, 0, 0]

def k0_chk1 (v10 : BitVec 32) : Prop :=
  (∀ a, (k0_off2 v10) a + S1x8x64.size a ≤ S125000x8x64.size a)
instance k0_chk1.dec : ∀ (v10 : BitVec 32), Decidable (k0_chk1 v10) := fun v10 => decidable_of_iff' _ (Iff.of_eq (k0_chk1.eq_1 v10))
theorem k0_off2_inb : ∀ (v10 : BitVec 32) (k0_hw1 : k0_chk1 v10), ∀ a, (k0_off2 v10) a + S1x8x64.size a ≤ S125000x8x64.size a := fun v10 k0_hw1 => k0_hw1

def k0_off3 (v20 : BitVec 32) : Fin 3 → Nat :=
  let c0_i32_13 : BitVec 32 := 0#32
  let c0_i32_14 : BitVec 32 := 0#32
  ![v20.toNat, 0, 0]

def k0_chk2 (v20 : BitVec 32) : Prop :=
  (∀ a, (k0_off3 v20) a + S1x8x64.size a ≤ S125000x8x64.size a)
instance k0_chk2.dec : ∀ (v20 : BitVec 32), Decidable (k0_chk2 v20) := fun v20 => decidable_of_iff' _ (Iff.of_eq (k0_chk2.eq_1 v20))
theorem k0_off3_inb : ∀ (v20 : BitVec 32) (k0_hw2 : k0_chk2 v20), ∀ a, (k0_off3 v20) a + S1x8x64.size a ≤ S125000x8x64.size a := fun v20 k0_hw2 => k0_hw2

def k0_off4 (v30 : BitVec 32) : Fin 3 → Nat :=
  let c0_i32_21 : BitVec 32 := 0#32
  let c0_i32_22 : BitVec 32 := 0#32
  ![v30.toNat, 0, 0]

def k0_chk3 (v30 : BitVec 32) : Prop :=
  (∀ a, (k0_off4 v30) a + S1x8x64.size a ≤ S125000x8x64.size a)
instance k0_chk3.dec : ∀ (v30 : BitVec 32), Decidable (k0_chk3 v30) := fun v30 => decidable_of_iff' _ (Iff.of_eq (k0_chk3.eq_1 v30))
theorem k0_off4_inb : ∀ (v30 : BitVec 32) (k0_hw3 : k0_chk3 v30), ∀ a, (k0_off4 v30) a + S1x8x64.size a ≤ S125000x8x64.size a := fun v30 k0_hw3 => k0_hw3

def k0_off5 (v40 : BitVec 32) : Fin 3 → Nat :=
  let c0_i32_30 : BitVec 32 := 0#32
  let c0_i32_31 : BitVec 32 := 0#32
  ![v40.toNat, 0, 0]

def k0_chk4 (v40 : BitVec 32) : Prop :=
  (∀ a, (k0_off5 v40) a + S1x8x64.size a ≤ S125000x8x64.size a)
instance k0_chk4.dec : ∀ (v40 : BitVec 32), Decidable (k0_chk4 v40) := fun v40 => decidable_of_iff' _ (Iff.of_eq (k0_chk4.eq_1 v40))
theorem k0_off5_inb : ∀ (v40 : BitVec 32) (k0_hw4 : k0_chk4 v40), ∀ a, (k0_off5 v40) a + S1x8x64.size a ≤ S125000x8x64.size a := fun v40 k0_hw4 => k0_hw4

def k0_off6 (v50 : BitVec 32) : Fin 3 → Nat :=
  let c0_i32_39 : BitVec 32 := 0#32
  let c0_i32_40 : BitVec 32 := 0#32
  ![v50.toNat, 0, 0]

def k0_chk5 (v50 : BitVec 32) : Prop :=
  (∀ a, (k0_off6 v50) a + S1x8x64.size a ≤ S125000x8x64.size a)
instance k0_chk5.dec : ∀ (v50 : BitVec 32), Decidable (k0_chk5 v50) := fun v50 => decidable_of_iff' _ (Iff.of_eq (k0_chk5.eq_1 v50))
theorem k0_off6_inb : ∀ (v50 : BitVec 32) (k0_hw5 : k0_chk5 v50), ∀ a, (k0_off6 v50) a + S1x8x64.size a ≤ S125000x8x64.size a := fun v50 k0_hw5 => k0_hw5

def k0_off7 (v60 : BitVec 32) : Fin 3 → Nat :=
  let c0_i32_48 : BitVec 32 := 0#32
  let c0_i32_49 : BitVec 32 := 0#32
  ![v60.toNat, 0, 0]

def k0_chk6 (v60 : BitVec 32) : Prop :=
  (∀ a, (k0_off7 v60) a + S1x8x64.size a ≤ S125000x8x64.size a)
instance k0_chk6.dec : ∀ (v60 : BitVec 32), Decidable (k0_chk6 v60) := fun v60 => decidable_of_iff' _ (Iff.of_eq (k0_chk6.eq_1 v60))
theorem k0_off7_inb : ∀ (v60 : BitVec 32) (k0_hw6 : k0_chk6 v60), ∀ a, (k0_off7 v60) a + S1x8x64.size a ≤ S125000x8x64.size a := fun v60 k0_hw6 => k0_hw6

def k0_off8 (v70 : BitVec 32) : Fin 3 → Nat :=
  let c0_i32_57 : BitVec 32 := 0#32
  let c0_i32_58 : BitVec 32 := 0#32
  ![v70.toNat, 0, 0]

def k0_chk7 (v70 : BitVec 32) : Prop :=
  (∀ a, (k0_off8 v70) a + S1x8x64.size a ≤ S125000x8x64.size a)
instance k0_chk7.dec : ∀ (v70 : BitVec 32), Decidable (k0_chk7 v70) := fun v70 => decidable_of_iff' _ (Iff.of_eq (k0_chk7.eq_1 v70))
theorem k0_off8_inb : ∀ (v70 : BitVec 32) (k0_hw7 : k0_chk7 v70), ∀ a, (k0_off8 v70) a + S1x8x64.size a ≤ S125000x8x64.size a := fun v70 k0_hw7 => k0_hw7

def k0_off9 (v80 : BitVec 32) : Fin 3 → Nat :=
  let c0_i32_66 : BitVec 32 := 0#32
  let c0_i32_67 : BitVec 32 := 0#32
  ![v80.toNat, 0, 0]

def k0_chk8 (v80 : BitVec 32) : Prop :=
  (∀ a, (k0_off9 v80) a + S1x8x64.size a ≤ S125000x8x64.size a)
instance k0_chk8.dec : ∀ (v80 : BitVec 32), Decidable (k0_chk8 v80) := fun v80 => decidable_of_iff' _ (Iff.of_eq (k0_chk8.eq_1 v80))
theorem k0_off9_inb : ∀ (v80 : BitVec 32) (k0_hw8 : k0_chk8 v80), ∀ a, (k0_off9 v80) a + S1x8x64.size a ≤ S125000x8x64.size a := fun v80 k0_hw8 => k0_hw8

def k0_off10 (v90 : BitVec 32) : Fin 3 → Nat :=
  let c0_i32_74 : BitVec 32 := 0#32
  let c0_i32_75 : BitVec 32 := 0#32
  ![v90.toNat, 0, 0]

def k0_chk9 (v90 : BitVec 32) : Prop :=
  (∀ a, (k0_off10 v90) a + S1x8x64.size a ≤ S125000x8x64.size a)
instance k0_chk9.dec : ∀ (v90 : BitVec 32), Decidable (k0_chk9 v90) := fun v90 => decidable_of_iff' _ (Iff.of_eq (k0_chk9.eq_1 v90))
theorem k0_off10_inb : ∀ (v90 : BitVec 32) (k0_hw9 : k0_chk9 v90), ∀ a, (k0_off10 v90) a + S1x8x64.size a ≤ S125000x8x64.size a := fun v90 k0_hw9 => k0_hw9

def k0_off11 (v100 : BitVec 32) : Fin 3 → Nat :=
  let c0_i32_83 : BitVec 32 := 0#32
  let c0_i32_84 : BitVec 32 := 0#32
  ![v100.toNat, 0, 0]

def k0_chk10 (v100 : BitVec 32) : Prop :=
  (∀ a, (k0_off11 v100) a + S1x8x64.size a ≤ S125000x8x64.size a)
instance k0_chk10.dec : ∀ (v100 : BitVec 32), Decidable (k0_chk10 v100) := fun v100 => decidable_of_iff' _ (Iff.of_eq (k0_chk10.eq_1 v100))
theorem k0_off11_inb : ∀ (v100 : BitVec 32) (k0_hw10 : k0_chk10 v100), ∀ a, (k0_off11 v100) a + S1x8x64.size a ≤ S125000x8x64.size a := fun v100 k0_hw10 => k0_hw10

def k0_off12 (v110 : BitVec 32) : Fin 3 → Nat :=
  let c0_i32_91 : BitVec 32 := 0#32
  let c0_i32_92 : BitVec 32 := 0#32
  ![v110.toNat, 0, 0]

def k0_chk11 (v110 : BitVec 32) : Prop :=
  (∀ a, (k0_off12 v110) a + S1x8x64.size a ≤ S125000x8x64.size a)
instance k0_chk11.dec : ∀ (v110 : BitVec 32), Decidable (k0_chk11 v110) := fun v110 => decidable_of_iff' _ (Iff.of_eq (k0_chk11.eq_1 v110))
theorem k0_off12_inb : ∀ (v110 : BitVec 32) (k0_hw11 : k0_chk11 v110), ∀ a, (k0_off12 v110) a + S1x8x64.size a ≤ S125000x8x64.size a := fun v110 k0_hw11 => k0_hw11

def k0_off13 (v120 : BitVec 32) : Fin 3 → Nat :=
  let c0_i32_100 : BitVec 32 := 0#32
  let c0_i32_101 : BitVec 32 := 0#32
  ![v120.toNat, 0, 0]

def k0_chk12 (v120 : BitVec 32) : Prop :=
  (∀ a, (k0_off13 v120) a + S1x8x64.size a ≤ S125000x8x64.size a)
instance k0_chk12.dec : ∀ (v120 : BitVec 32), Decidable (k0_chk12 v120) := fun v120 => decidable_of_iff' _ (Iff.of_eq (k0_chk12.eq_1 v120))
theorem k0_off13_inb : ∀ (v120 : BitVec 32) (k0_hw12 : k0_chk12 v120), ∀ a, (k0_off13 v120) a + S1x8x64.size a ≤ S125000x8x64.size a := fun v120 k0_hw12 => k0_hw12

def k0_off14 (v130 : BitVec 32) : Fin 3 → Nat :=
  let c0_i32_108 : BitVec 32 := 0#32
  let c0_i32_109 : BitVec 32 := 0#32
  ![v130.toNat, 0, 0]

def k0_chk13 (v130 : BitVec 32) : Prop :=
  (∀ a, (k0_off14 v130) a + S1x8x64.size a ≤ S125000x8x64.size a)
instance k0_chk13.dec : ∀ (v130 : BitVec 32), Decidable (k0_chk13 v130) := fun v130 => decidable_of_iff' _ (Iff.of_eq (k0_chk13.eq_1 v130))
theorem k0_off14_inb : ∀ (v130 : BitVec 32) (k0_hw13 : k0_chk13 v130), ∀ a, (k0_off14 v130) a + S1x8x64.size a ≤ S125000x8x64.size a := fun v130 k0_hw13 => k0_hw13

def k0_off15 (v140 : BitVec 32) : Fin 3 → Nat :=
  let c0_i32_117 : BitVec 32 := 0#32
  let c0_i32_118 : BitVec 32 := 0#32
  ![v140.toNat, 0, 0]

def k0_chk14 (v140 : BitVec 32) : Prop :=
  (∀ a, (k0_off15 v140) a + S1x8x64.size a ≤ S125000x8x64.size a)
instance k0_chk14.dec : ∀ (v140 : BitVec 32), Decidable (k0_chk14 v140) := fun v140 => decidable_of_iff' _ (Iff.of_eq (k0_chk14.eq_1 v140))
theorem k0_off15_inb : ∀ (v140 : BitVec 32) (k0_hw14 : k0_chk14 v140), ∀ a, (k0_off15 v140) a + S1x8x64.size a ≤ S125000x8x64.size a := fun v140 k0_hw14 => k0_hw14

def k0_off16 (v150 : BitVec 32) : Fin 3 → Nat :=
  let c0_i32_125 : BitVec 32 := 0#32
  let c0_i32_126 : BitVec 32 := 0#32
  ![v150.toNat, 0, 0]

def k0_chk15 (v150 : BitVec 32) : Prop :=
  (∀ a, (k0_off16 v150) a + S1x8x64.size a ≤ S125000x8x64.size a)
instance k0_chk15.dec : ∀ (v150 : BitVec 32), Decidable (k0_chk15 v150) := fun v150 => decidable_of_iff' _ (Iff.of_eq (k0_chk15.eq_1 v150))
theorem k0_off16_inb : ∀ (v150 : BitVec 32) (k0_hw15 : k0_chk15 v150), ∀ a, (k0_off16 v150) a + S1x8x64.size a ≤ S125000x8x64.size a := fun v150 k0_hw15 => k0_hw15

def k0_off17 (v160 : BitVec 32) : Fin 3 → Nat :=
  let c0_i32_134 : BitVec 32 := 0#32
  let c0_i32_135 : BitVec 32 := 0#32
  ![v160.toNat, 0, 0]

def k0_chk16 (v160 : BitVec 32) : Prop :=
  (∀ a, (k0_off17 v160) a + S1x8x64.size a ≤ S125000x8x64.size a)
instance k0_chk16.dec : ∀ (v160 : BitVec 32), Decidable (k0_chk16 v160) := fun v160 => decidable_of_iff' _ (Iff.of_eq (k0_chk16.eq_1 v160))
theorem k0_off17_inb : ∀ (v160 : BitVec 32) (k0_hw16 : k0_chk16 v160), ∀ a, (k0_off17 v160) a + S1x8x64.size a ≤ S125000x8x64.size a := fun v160 k0_hw16 => k0_hw16

def k0_off18 (v170 : BitVec 32) : Fin 3 → Nat :=
  let c0_i32_142 : BitVec 32 := 0#32
  let c0_i32_143 : BitVec 32 := 0#32
  ![v170.toNat, 0, 0]

def k0_chk17 (v170 : BitVec 32) : Prop :=
  (∀ a, (k0_off18 v170) a + S1x8x64.size a ≤ S125000x8x64.size a)
instance k0_chk17.dec : ∀ (v170 : BitVec 32), Decidable (k0_chk17 v170) := fun v170 => decidable_of_iff' _ (Iff.of_eq (k0_chk17.eq_1 v170))
theorem k0_off18_inb : ∀ (v170 : BitVec 32) (k0_hw17 : k0_chk17 v170), ∀ a, (k0_off18 v170) a + S1x8x64.size a ≤ S125000x8x64.size a := fun v170 k0_hw17 => k0_hw17

def k0_off19 (v180 : BitVec 32) : Fin 3 → Nat :=
  let c0_i32_151 : BitVec 32 := 0#32
  let c0_i32_152 : BitVec 32 := 0#32
  ![v180.toNat, 0, 0]

def k0_chk18 (v180 : BitVec 32) : Prop :=
  (∀ a, (k0_off19 v180) a + S1x8x64.size a ≤ S125000x8x64.size a)
instance k0_chk18.dec : ∀ (v180 : BitVec 32), Decidable (k0_chk18 v180) := fun v180 => decidable_of_iff' _ (Iff.of_eq (k0_chk18.eq_1 v180))
theorem k0_off19_inb : ∀ (v180 : BitVec 32) (k0_hw18 : k0_chk18 v180), ∀ a, (k0_off19 v180) a + S1x8x64.size a ≤ S125000x8x64.size a := fun v180 k0_hw18 => k0_hw18

def k0_off20 (v190 : BitVec 32) : Fin 3 → Nat :=
  let c0_i32_159 : BitVec 32 := 0#32
  let c0_i32_160 : BitVec 32 := 0#32
  ![v190.toNat, 0, 0]

def k0_chk19 (v190 : BitVec 32) : Prop :=
  (∀ a, (k0_off20 v190) a + S1x8x64.size a ≤ S125000x8x64.size a)
instance k0_chk19.dec : ∀ (v190 : BitVec 32), Decidable (k0_chk19 v190) := fun v190 => decidable_of_iff' _ (Iff.of_eq (k0_chk19.eq_1 v190))
theorem k0_off20_inb : ∀ (v190 : BitVec 32) (k0_hw19 : k0_chk19 v190), ∀ a, (k0_off20 v190) a + S1x8x64.size a ≤ S125000x8x64.size a := fun v190 k0_hw19 => k0_hw19

def k0_off21 (v200 : BitVec 32) : Fin 3 → Nat :=
  let c0_i32_168 : BitVec 32 := 0#32
  let c0_i32_169 : BitVec 32 := 0#32
  ![v200.toNat, 0, 0]

def k0_chk20 (v200 : BitVec 32) : Prop :=
  (∀ a, (k0_off21 v200) a + S1x8x64.size a ≤ S125000x8x64.size a)
instance k0_chk20.dec : ∀ (v200 : BitVec 32), Decidable (k0_chk20 v200) := fun v200 => decidable_of_iff' _ (Iff.of_eq (k0_chk20.eq_1 v200))
theorem k0_off21_inb : ∀ (v200 : BitVec 32) (k0_hw20 : k0_chk20 v200), ∀ a, (k0_off21 v200) a + S1x8x64.size a ≤ S125000x8x64.size a := fun v200 k0_hw20 => k0_hw20

def k0_off22 (v210 : BitVec 32) : Fin 3 → Nat :=
  let c0_i32_176 : BitVec 32 := 0#32
  let c0_i32_177 : BitVec 32 := 0#32
  ![v210.toNat, 0, 0]

def k0_chk21 (v210 : BitVec 32) : Prop :=
  (∀ a, (k0_off22 v210) a + S1x8x64.size a ≤ S125000x8x64.size a)
instance k0_chk21.dec : ∀ (v210 : BitVec 32), Decidable (k0_chk21 v210) := fun v210 => decidable_of_iff' _ (Iff.of_eq (k0_chk21.eq_1 v210))
theorem k0_off22_inb : ∀ (v210 : BitVec 32) (k0_hw21 : k0_chk21 v210), ∀ a, (k0_off22 v210) a + S1x8x64.size a ≤ S125000x8x64.size a := fun v210 k0_hw21 => k0_hw21

def k0_off23 (v220 : BitVec 32) : Fin 3 → Nat :=
  let c0_i32_185 : BitVec 32 := 0#32
  let c0_i32_186 : BitVec 32 := 0#32
  ![v220.toNat, 0, 0]

def k0_chk22 (v220 : BitVec 32) : Prop :=
  (∀ a, (k0_off23 v220) a + S1x8x64.size a ≤ S125000x8x64.size a)
instance k0_chk22.dec : ∀ (v220 : BitVec 32), Decidable (k0_chk22 v220) := fun v220 => decidable_of_iff' _ (Iff.of_eq (k0_chk22.eq_1 v220))
theorem k0_off23_inb : ∀ (v220 : BitVec 32) (k0_hw22 : k0_chk22 v220), ∀ a, (k0_off23 v220) a + S1x8x64.size a ≤ S125000x8x64.size a := fun v220 k0_hw22 => k0_hw22

def k0_off24 (v230 : BitVec 32) : Fin 3 → Nat :=
  let c0_i32_193 : BitVec 32 := 0#32
  let c0_i32_194 : BitVec 32 := 0#32
  ![v230.toNat, 0, 0]

def k0_chk23 (v230 : BitVec 32) : Prop :=
  (∀ a, (k0_off24 v230) a + S1x8x64.size a ≤ S125000x8x64.size a)
instance k0_chk23.dec : ∀ (v230 : BitVec 32), Decidable (k0_chk23 v230) := fun v230 => decidable_of_iff' _ (Iff.of_eq (k0_chk23.eq_1 v230))
theorem k0_off24_inb : ∀ (v230 : BitVec 32) (k0_hw23 : k0_chk23 v230), ∀ a, (k0_off24 v230) a + S1x8x64.size a ≤ S125000x8x64.size a := fun v230 k0_hw23 => k0_hw23

def k0_off25 (v240 : BitVec 32) : Fin 3 → Nat :=
  let c0_i32_202 : BitVec 32 := 0#32
  let c0_i32_203 : BitVec 32 := 0#32
  ![v240.toNat, 0, 0]

def k0_chk24 (v240 : BitVec 32) : Prop :=
  (∀ a, (k0_off25 v240) a + S1x8x64.size a ≤ S125000x8x64.size a)
instance k0_chk24.dec : ∀ (v240 : BitVec 32), Decidable (k0_chk24 v240) := fun v240 => decidable_of_iff' _ (Iff.of_eq (k0_chk24.eq_1 v240))
theorem k0_off25_inb : ∀ (v240 : BitVec 32) (k0_hw24 : k0_chk24 v240), ∀ a, (k0_off25 v240) a + S1x8x64.size a ≤ S125000x8x64.size a := fun v240 k0_hw24 => k0_hw24

def k0_off26 (v250 : BitVec 32) : Fin 3 → Nat :=
  let c0_i32_210 : BitVec 32 := 0#32
  let c0_i32_211 : BitVec 32 := 0#32
  ![v250.toNat, 0, 0]

def k0_chk25 (v250 : BitVec 32) : Prop :=
  (∀ a, (k0_off26 v250) a + S1x8x64.size a ≤ S125000x8x64.size a)
instance k0_chk25.dec : ∀ (v250 : BitVec 32), Decidable (k0_chk25 v250) := fun v250 => decidable_of_iff' _ (Iff.of_eq (k0_chk25.eq_1 v250))
theorem k0_off26_inb : ∀ (v250 : BitVec 32) (k0_hw25 : k0_chk25 v250), ∀ a, (k0_off26 v250) a + S1x8x64.size a ≤ S125000x8x64.size a := fun v250 k0_hw25 => k0_hw25

def k0_off27 (v260 : BitVec 32) : Fin 3 → Nat :=
  let c0_i32_219 : BitVec 32 := 0#32
  let c0_i32_220 : BitVec 32 := 0#32
  ![v260.toNat, 0, 0]

def k0_chk26 (v260 : BitVec 32) : Prop :=
  (∀ a, (k0_off27 v260) a + S1x8x64.size a ≤ S125000x8x64.size a)
instance k0_chk26.dec : ∀ (v260 : BitVec 32), Decidable (k0_chk26 v260) := fun v260 => decidable_of_iff' _ (Iff.of_eq (k0_chk26.eq_1 v260))
theorem k0_off27_inb : ∀ (v260 : BitVec 32) (k0_hw26 : k0_chk26 v260), ∀ a, (k0_off27 v260) a + S1x8x64.size a ≤ S125000x8x64.size a := fun v260 k0_hw26 => k0_hw26

def k0_off28 (v270 : BitVec 32) : Fin 3 → Nat :=
  let c0_i32_227 : BitVec 32 := 0#32
  let c0_i32_228 : BitVec 32 := 0#32
  ![v270.toNat, 0, 0]

def k0_chk27 (v270 : BitVec 32) : Prop :=
  (∀ a, (k0_off28 v270) a + S1x8x64.size a ≤ S125000x8x64.size a)
instance k0_chk27.dec : ∀ (v270 : BitVec 32), Decidable (k0_chk27 v270) := fun v270 => decidable_of_iff' _ (Iff.of_eq (k0_chk27.eq_1 v270))
theorem k0_off28_inb : ∀ (v270 : BitVec 32) (k0_hw27 : k0_chk27 v270), ∀ a, (k0_off28 v270) a + S1x8x64.size a ≤ S125000x8x64.size a := fun v270 k0_hw27 => k0_hw27

def k0_off29 (v280 : BitVec 32) : Fin 3 → Nat :=
  let c0_i32_236 : BitVec 32 := 0#32
  let c0_i32_237 : BitVec 32 := 0#32
  ![v280.toNat, 0, 0]

def k0_chk28 (v280 : BitVec 32) : Prop :=
  (∀ a, (k0_off29 v280) a + S1x8x64.size a ≤ S125000x8x64.size a)
instance k0_chk28.dec : ∀ (v280 : BitVec 32), Decidable (k0_chk28 v280) := fun v280 => decidable_of_iff' _ (Iff.of_eq (k0_chk28.eq_1 v280))
theorem k0_off29_inb : ∀ (v280 : BitVec 32) (k0_hw28 : k0_chk28 v280), ∀ a, (k0_off29 v280) a + S1x8x64.size a ≤ S125000x8x64.size a := fun v280 k0_hw28 => k0_hw28

def k0_off30 (v290 : BitVec 32) : Fin 3 → Nat :=
  let c0_i32_244 : BitVec 32 := 0#32
  let c0_i32_245 : BitVec 32 := 0#32
  ![v290.toNat, 0, 0]

def k0_chk29 (v290 : BitVec 32) : Prop :=
  (∀ a, (k0_off30 v290) a + S1x8x64.size a ≤ S125000x8x64.size a)
instance k0_chk29.dec : ∀ (v290 : BitVec 32), Decidable (k0_chk29 v290) := fun v290 => decidable_of_iff' _ (Iff.of_eq (k0_chk29.eq_1 v290))
theorem k0_off30_inb : ∀ (v290 : BitVec 32) (k0_hw29 : k0_chk29 v290), ∀ a, (k0_off30 v290) a + S1x8x64.size a ≤ S125000x8x64.size a := fun v290 k0_hw29 => k0_hw29

def k0_off31 (v300 : BitVec 32) : Fin 3 → Nat :=
  let c0_i32_253 : BitVec 32 := 0#32
  let c0_i32_254 : BitVec 32 := 0#32
  ![v300.toNat, 0, 0]

def k0_chk30 (v300 : BitVec 32) : Prop :=
  (∀ a, (k0_off31 v300) a + S1x8x64.size a ≤ S125000x8x64.size a)
instance k0_chk30.dec : ∀ (v300 : BitVec 32), Decidable (k0_chk30 v300) := fun v300 => decidable_of_iff' _ (Iff.of_eq (k0_chk30.eq_1 v300))
theorem k0_off31_inb : ∀ (v300 : BitVec 32) (k0_hw30 : k0_chk30 v300), ∀ a, (k0_off31 v300) a + S1x8x64.size a ≤ S125000x8x64.size a := fun v300 k0_hw30 => k0_hw30

def k0_off32 (v310 : BitVec 32) : Fin 3 → Nat :=
  let c0_i32_261 : BitVec 32 := 0#32
  let c0_i32_262 : BitVec 32 := 0#32
  ![v310.toNat, 0, 0]

def k0_chk31 (v310 : BitVec 32) : Prop :=
  (∀ a, (k0_off32 v310) a + S1x8x64.size a ≤ S125000x8x64.size a)
instance k0_chk31.dec : ∀ (v310 : BitVec 32), Decidable (k0_chk31 v310) := fun v310 => decidable_of_iff' _ (Iff.of_eq (k0_chk31.eq_1 v310))
theorem k0_off32_inb : ∀ (v310 : BitVec 32) (k0_hw31 : k0_chk31 v310), ∀ a, (k0_off32 v310) a + S1x8x64.size a ≤ S125000x8x64.size a := fun v310 k0_hw31 => k0_hw31

def k0_off33 (v320 : BitVec 32) : Fin 3 → Nat :=
  let c0_i32_270 : BitVec 32 := 0#32
  let c0_i32_271 : BitVec 32 := 0#32
  ![v320.toNat, 0, 0]

def k0_chk32 (v320 : BitVec 32) : Prop :=
  (∀ a, (k0_off33 v320) a + S1x8x64.size a ≤ S125000x8x64.size a)
instance k0_chk32.dec : ∀ (v320 : BitVec 32), Decidable (k0_chk32 v320) := fun v320 => decidable_of_iff' _ (Iff.of_eq (k0_chk32.eq_1 v320))
theorem k0_off33_inb : ∀ (v320 : BitVec 32) (k0_hw32 : k0_chk32 v320), ∀ a, (k0_off33 v320) a + S1x8x64.size a ≤ S125000x8x64.size a := fun v320 k0_hw32 => k0_hw32

@[reducible] def k0_t1_loop : Scf.Loop 32 :=
  let c0_i32_277 : BitVec 32 := 0#32
  let c16_i32 : BitVec 32 := 16#32
  let v329 : BitVec 32 := Scalar.addi c0_i32_277 c16_i32
  let c1_i32_278 : BitVec 32 := 1#32
  ⟨c0_i32_277, v329, c1_i32_278⟩
def k0_off34 (k0_t1 : Fin k0_t1_loop.trips) : Fin 1 → Nat :=
  let c0_i32_277 : BitVec 32 := 0#32
  let c1_i32_278 : BitVec 32 := 1#32
  let arg18 : BitVec 32 := Scf.iv c0_i32_277 c1_i32_278 k0_t1
  let c2_i32_280 : BitVec 32 := 2#32
  let v330 : BitVec 32 := Scalar.muli arg18 c2_i32_280
  let c1_i32_281 : BitVec 32 := 1#32
  let v331 : BitVec 32 := Scalar.addi v330 c1_i32_281
  let c16_i32_282 : BitVec 32 := 16#32
  let v332 : BitVec 32 := Scalar.muli v331 c16_i32_282
  let c0_i32_283 : BitVec 32 := 0#32
  let v333 : BitVec 32 := Scalar.addi v332 c0_i32_283
  let v334 : Index := Scalar.indexCast v333
  ![v334.toNat]
def k0_off35 (v343 : BitVec 32) : Fin 3 → Nat :=
  let c0_i32_289 : BitVec 32 := 0#32
  let c0_i32_290 : BitVec 32 := 0#32
  ![v343.toNat, 0, 0]

def k0_chk33 (v343 : BitVec 32) : Prop :=
  (∀ a, (k0_off35 v343) a + S1x8x64.size a ≤ S125000x8x64.size a)
instance k0_chk33.dec : ∀ (v343 : BitVec 32), Decidable (k0_chk33 v343) := fun v343 => decidable_of_iff' _ (Iff.of_eq (k0_chk33.eq_1 v343))
theorem k0_off35_inb : ∀ (v343 : BitVec 32) (k0_hw33 : k0_chk33 v343), ∀ a, (k0_off35 v343) a + S1x8x64.size a ≤ S125000x8x64.size a := fun v343 k0_hw33 => k0_hw33

def k0_off36 (v353 : BitVec 32) : Fin 3 → Nat :=
  let c0_i32_298 : BitVec 32 := 0#32
  let c0_i32_299 : BitVec 32 := 0#32
  ![v353.toNat, 0, 0]

def k0_chk34 (v353 : BitVec 32) : Prop :=
  (∀ a, (k0_off36 v353) a + S1x8x64.size a ≤ S125000x8x64.size a)
instance k0_chk34.dec : ∀ (v353 : BitVec 32), Decidable (k0_chk34 v353) := fun v353 => decidable_of_iff' _ (Iff.of_eq (k0_chk34.eq_1 v353))
theorem k0_off36_inb : ∀ (v353 : BitVec 32) (k0_hw34 : k0_chk34 v353), ∀ a, (k0_off36 v353) a + S1x8x64.size a ≤ S125000x8x64.size a := fun v353 k0_hw34 => k0_hw34

def k0_off37 (v363 : BitVec 32) : Fin 3 → Nat :=
  let c0_i32_307 : BitVec 32 := 0#32
  let c0_i32_308 : BitVec 32 := 0#32
  ![v363.toNat, 0, 0]

def k0_chk35 (v363 : BitVec 32) : Prop :=
  (∀ a, (k0_off37 v363) a + S1x8x64.size a ≤ S125000x8x64.size a)
instance k0_chk35.dec : ∀ (v363 : BitVec 32), Decidable (k0_chk35 v363) := fun v363 => decidable_of_iff' _ (Iff.of_eq (k0_chk35.eq_1 v363))
theorem k0_off37_inb : ∀ (v363 : BitVec 32) (k0_hw35 : k0_chk35 v363), ∀ a, (k0_off37 v363) a + S1x8x64.size a ≤ S125000x8x64.size a := fun v363 k0_hw35 => k0_hw35

def k0_off38 (v373 : BitVec 32) : Fin 3 → Nat :=
  let c0_i32_316 : BitVec 32 := 0#32
  let c0_i32_317 : BitVec 32 := 0#32
  ![v373.toNat, 0, 0]

def k0_chk36 (v373 : BitVec 32) : Prop :=
  (∀ a, (k0_off38 v373) a + S1x8x64.size a ≤ S125000x8x64.size a)
instance k0_chk36.dec : ∀ (v373 : BitVec 32), Decidable (k0_chk36 v373) := fun v373 => decidable_of_iff' _ (Iff.of_eq (k0_chk36.eq_1 v373))
theorem k0_off38_inb : ∀ (v373 : BitVec 32) (k0_hw36 : k0_chk36 v373), ∀ a, (k0_off38 v373) a + S1x8x64.size a ≤ S125000x8x64.size a := fun v373 k0_hw36 => k0_hw36

def k0_off39 (v383 : BitVec 32) : Fin 3 → Nat :=
  let c0_i32_325 : BitVec 32 := 0#32
  let c0_i32_326 : BitVec 32 := 0#32
  ![v383.toNat, 0, 0]

def k0_chk37 (v383 : BitVec 32) : Prop :=
  (∀ a, (k0_off39 v383) a + S1x8x64.size a ≤ S125000x8x64.size a)
instance k0_chk37.dec : ∀ (v383 : BitVec 32), Decidable (k0_chk37 v383) := fun v383 => decidable_of_iff' _ (Iff.of_eq (k0_chk37.eq_1 v383))
theorem k0_off39_inb : ∀ (v383 : BitVec 32) (k0_hw37 : k0_chk37 v383), ∀ a, (k0_off39 v383) a + S1x8x64.size a ≤ S125000x8x64.size a := fun v383 k0_hw37 => k0_hw37

def k0_off40 (v393 : BitVec 32) : Fin 3 → Nat :=
  let c0_i32_334 : BitVec 32 := 0#32
  let c0_i32_335 : BitVec 32 := 0#32
  ![v393.toNat, 0, 0]

def k0_chk38 (v393 : BitVec 32) : Prop :=
  (∀ a, (k0_off40 v393) a + S1x8x64.size a ≤ S125000x8x64.size a)
instance k0_chk38.dec : ∀ (v393 : BitVec 32), Decidable (k0_chk38 v393) := fun v393 => decidable_of_iff' _ (Iff.of_eq (k0_chk38.eq_1 v393))
theorem k0_off40_inb : ∀ (v393 : BitVec 32) (k0_hw38 : k0_chk38 v393), ∀ a, (k0_off40 v393) a + S1x8x64.size a ≤ S125000x8x64.size a := fun v393 k0_hw38 => k0_hw38

def k0_off41 (v403 : BitVec 32) : Fin 3 → Nat :=
  let c0_i32_343 : BitVec 32 := 0#32
  let c0_i32_344 : BitVec 32 := 0#32
  ![v403.toNat, 0, 0]

def k0_chk39 (v403 : BitVec 32) : Prop :=
  (∀ a, (k0_off41 v403) a + S1x8x64.size a ≤ S125000x8x64.size a)
instance k0_chk39.dec : ∀ (v403 : BitVec 32), Decidable (k0_chk39 v403) := fun v403 => decidable_of_iff' _ (Iff.of_eq (k0_chk39.eq_1 v403))
theorem k0_off41_inb : ∀ (v403 : BitVec 32) (k0_hw39 : k0_chk39 v403), ∀ a, (k0_off41 v403) a + S1x8x64.size a ≤ S125000x8x64.size a := fun v403 k0_hw39 => k0_hw39

def k0_off42 (v413 : BitVec 32) : Fin 3 → Nat :=
  let c0_i32_352 : BitVec 32 := 0#32
  let c0_i32_353 : BitVec 32 := 0#32
  ![v413.toNat, 0, 0]

def k0_chk40 (v413 : BitVec 32) : Prop :=
  (∀ a, (k0_off42 v413) a + S1x8x64.size a ≤ S125000x8x64.size a)
instance k0_chk40.dec : ∀ (v413 : BitVec 32), Decidable (k0_chk40 v413) := fun v413 => decidable_of_iff' _ (Iff.of_eq (k0_chk40.eq_1 v413))
theorem k0_off42_inb : ∀ (v413 : BitVec 32) (k0_hw40 : k0_chk40 v413), ∀ a, (k0_off42 v413) a + S1x8x64.size a ≤ S125000x8x64.size a := fun v413 k0_hw40 => k0_hw40

def k0_off43 (v423 : BitVec 32) : Fin 3 → Nat :=
  let c0_i32_361 : BitVec 32 := 0#32
  let c0_i32_362 : BitVec 32 := 0#32
  ![v423.toNat, 0, 0]

def k0_chk41 (v423 : BitVec 32) : Prop :=
  (∀ a, (k0_off43 v423) a + S1x8x64.size a ≤ S125000x8x64.size a)
instance k0_chk41.dec : ∀ (v423 : BitVec 32), Decidable (k0_chk41 v423) := fun v423 => decidable_of_iff' _ (Iff.of_eq (k0_chk41.eq_1 v423))
theorem k0_off43_inb : ∀ (v423 : BitVec 32) (k0_hw41 : k0_chk41 v423), ∀ a, (k0_off43 v423) a + S1x8x64.size a ≤ S125000x8x64.size a := fun v423 k0_hw41 => k0_hw41

def k0_off44 (v433 : BitVec 32) : Fin 3 → Nat :=
  let c0_i32_370 : BitVec 32 := 0#32
  let c0_i32_371 : BitVec 32 := 0#32
  ![v433.toNat, 0, 0]

def k0_chk42 (v433 : BitVec 32) : Prop :=
  (∀ a, (k0_off44 v433) a + S1x8x64.size a ≤ S125000x8x64.size a)
instance k0_chk42.dec : ∀ (v433 : BitVec 32), Decidable (k0_chk42 v433) := fun v433 => decidable_of_iff' _ (Iff.of_eq (k0_chk42.eq_1 v433))
theorem k0_off44_inb : ∀ (v433 : BitVec 32) (k0_hw42 : k0_chk42 v433), ∀ a, (k0_off44 v433) a + S1x8x64.size a ≤ S125000x8x64.size a := fun v433 k0_hw42 => k0_hw42

def k0_off45 (v443 : BitVec 32) : Fin 3 → Nat :=
  let c0_i32_379 : BitVec 32 := 0#32
  let c0_i32_380 : BitVec 32 := 0#32
  ![v443.toNat, 0, 0]

def k0_chk43 (v443 : BitVec 32) : Prop :=
  (∀ a, (k0_off45 v443) a + S1x8x64.size a ≤ S125000x8x64.size a)
instance k0_chk43.dec : ∀ (v443 : BitVec 32), Decidable (k0_chk43 v443) := fun v443 => decidable_of_iff' _ (Iff.of_eq (k0_chk43.eq_1 v443))
theorem k0_off45_inb : ∀ (v443 : BitVec 32) (k0_hw43 : k0_chk43 v443), ∀ a, (k0_off45 v443) a + S1x8x64.size a ≤ S125000x8x64.size a := fun v443 k0_hw43 => k0_hw43

def k0_off46 (v453 : BitVec 32) : Fin 3 → Nat :=
  let c0_i32_388 : BitVec 32 := 0#32
  let c0_i32_389 : BitVec 32 := 0#32
  ![v453.toNat, 0, 0]

def k0_chk44 (v453 : BitVec 32) : Prop :=
  (∀ a, (k0_off46 v453) a + S1x8x64.size a ≤ S125000x8x64.size a)
instance k0_chk44.dec : ∀ (v453 : BitVec 32), Decidable (k0_chk44 v453) := fun v453 => decidable_of_iff' _ (Iff.of_eq (k0_chk44.eq_1 v453))
theorem k0_off46_inb : ∀ (v453 : BitVec 32) (k0_hw44 : k0_chk44 v453), ∀ a, (k0_off46 v453) a + S1x8x64.size a ≤ S125000x8x64.size a := fun v453 k0_hw44 => k0_hw44

def k0_off47 (v463 : BitVec 32) : Fin 3 → Nat :=
  let c0_i32_397 : BitVec 32 := 0#32
  let c0_i32_398 : BitVec 32 := 0#32
  ![v463.toNat, 0, 0]

def k0_chk45 (v463 : BitVec 32) : Prop :=
  (∀ a, (k0_off47 v463) a + S1x8x64.size a ≤ S125000x8x64.size a)
instance k0_chk45.dec : ∀ (v463 : BitVec 32), Decidable (k0_chk45 v463) := fun v463 => decidable_of_iff' _ (Iff.of_eq (k0_chk45.eq_1 v463))
theorem k0_off47_inb : ∀ (v463 : BitVec 32) (k0_hw45 : k0_chk45 v463), ∀ a, (k0_off47 v463) a + S1x8x64.size a ≤ S125000x8x64.size a := fun v463 k0_hw45 => k0_hw45

def k0_off48 (v473 : BitVec 32) : Fin 3 → Nat :=
  let c0_i32_406 : BitVec 32 := 0#32
  let c0_i32_407 : BitVec 32 := 0#32
  ![v473.toNat, 0, 0]

def k0_chk46 (v473 : BitVec 32) : Prop :=
  (∀ a, (k0_off48 v473) a + S1x8x64.size a ≤ S125000x8x64.size a)
instance k0_chk46.dec : ∀ (v473 : BitVec 32), Decidable (k0_chk46 v473) := fun v473 => decidable_of_iff' _ (Iff.of_eq (k0_chk46.eq_1 v473))
theorem k0_off48_inb : ∀ (v473 : BitVec 32) (k0_hw46 : k0_chk46 v473), ∀ a, (k0_off48 v473) a + S1x8x64.size a ≤ S125000x8x64.size a := fun v473 k0_hw46 => k0_hw46

def k0_off49 (v483 : BitVec 32) : Fin 3 → Nat :=
  let c0_i32_415 : BitVec 32 := 0#32
  let c0_i32_416 : BitVec 32 := 0#32
  ![v483.toNat, 0, 0]

def k0_chk47 (v483 : BitVec 32) : Prop :=
  (∀ a, (k0_off49 v483) a + S1x8x64.size a ≤ S125000x8x64.size a)
instance k0_chk47.dec : ∀ (v483 : BitVec 32), Decidable (k0_chk47 v483) := fun v483 => decidable_of_iff' _ (Iff.of_eq (k0_chk47.eq_1 v483))
theorem k0_off49_inb : ∀ (v483 : BitVec 32) (k0_hw47 : k0_chk47 v483), ∀ a, (k0_off49 v483) a + S1x8x64.size a ≤ S125000x8x64.size a := fun v483 k0_hw47 => k0_hw47

def k0_off50 (v493 : BitVec 32) : Fin 3 → Nat :=
  let c0_i32_424 : BitVec 32 := 0#32
  let c0_i32_425 : BitVec 32 := 0#32
  ![v493.toNat, 0, 0]

def k0_chk48 (v493 : BitVec 32) : Prop :=
  (∀ a, (k0_off50 v493) a + S1x8x64.size a ≤ S125000x8x64.size a)
instance k0_chk48.dec : ∀ (v493 : BitVec 32), Decidable (k0_chk48 v493) := fun v493 => decidable_of_iff' _ (Iff.of_eq (k0_chk48.eq_1 v493))
theorem k0_off50_inb : ∀ (v493 : BitVec 32) (k0_hw48 : k0_chk48 v493), ∀ a, (k0_off50 v493) a + S1x8x64.size a ≤ S125000x8x64.size a := fun v493 k0_hw48 => k0_hw48

def k0_off51 (v503 : BitVec 32) : Fin 3 → Nat :=
  let c0_i32_433 : BitVec 32 := 0#32
  let c0_i32_434 : BitVec 32 := 0#32
  ![v503.toNat, 0, 0]

def k0_chk49 (v503 : BitVec 32) : Prop :=
  (∀ a, (k0_off51 v503) a + S1x8x64.size a ≤ S125000x8x64.size a)
instance k0_chk49.dec : ∀ (v503 : BitVec 32), Decidable (k0_chk49 v503) := fun v503 => decidable_of_iff' _ (Iff.of_eq (k0_chk49.eq_1 v503))
theorem k0_off51_inb : ∀ (v503 : BitVec 32) (k0_hw49 : k0_chk49 v503), ∀ a, (k0_off51 v503) a + S1x8x64.size a ≤ S125000x8x64.size a := fun v503 k0_hw49 => k0_hw49

def k0_off52 (v513 : BitVec 32) : Fin 3 → Nat :=
  let c0_i32_442 : BitVec 32 := 0#32
  let c0_i32_443 : BitVec 32 := 0#32
  ![v513.toNat, 0, 0]

def k0_chk50 (v513 : BitVec 32) : Prop :=
  (∀ a, (k0_off52 v513) a + S1x8x64.size a ≤ S125000x8x64.size a)
instance k0_chk50.dec : ∀ (v513 : BitVec 32), Decidable (k0_chk50 v513) := fun v513 => decidable_of_iff' _ (Iff.of_eq (k0_chk50.eq_1 v513))
theorem k0_off52_inb : ∀ (v513 : BitVec 32) (k0_hw50 : k0_chk50 v513), ∀ a, (k0_off52 v513) a + S1x8x64.size a ≤ S125000x8x64.size a := fun v513 k0_hw50 => k0_hw50

def k0_off53 (v523 : BitVec 32) : Fin 3 → Nat :=
  let c0_i32_451 : BitVec 32 := 0#32
  let c0_i32_452 : BitVec 32 := 0#32
  ![v523.toNat, 0, 0]

def k0_chk51 (v523 : BitVec 32) : Prop :=
  (∀ a, (k0_off53 v523) a + S1x8x64.size a ≤ S125000x8x64.size a)
instance k0_chk51.dec : ∀ (v523 : BitVec 32), Decidable (k0_chk51 v523) := fun v523 => decidable_of_iff' _ (Iff.of_eq (k0_chk51.eq_1 v523))
theorem k0_off53_inb : ∀ (v523 : BitVec 32) (k0_hw51 : k0_chk51 v523), ∀ a, (k0_off53 v523) a + S1x8x64.size a ≤ S125000x8x64.size a := fun v523 k0_hw51 => k0_hw51

def k0_off54 (v533 : BitVec 32) : Fin 3 → Nat :=
  let c0_i32_460 : BitVec 32 := 0#32
  let c0_i32_461 : BitVec 32 := 0#32
  ![v533.toNat, 0, 0]

def k0_chk52 (v533 : BitVec 32) : Prop :=
  (∀ a, (k0_off54 v533) a + S1x8x64.size a ≤ S125000x8x64.size a)
instance k0_chk52.dec : ∀ (v533 : BitVec 32), Decidable (k0_chk52 v533) := fun v533 => decidable_of_iff' _ (Iff.of_eq (k0_chk52.eq_1 v533))
theorem k0_off54_inb : ∀ (v533 : BitVec 32) (k0_hw52 : k0_chk52 v533), ∀ a, (k0_off54 v533) a + S1x8x64.size a ≤ S125000x8x64.size a := fun v533 k0_hw52 => k0_hw52

def k0_off55 (v543 : BitVec 32) : Fin 3 → Nat :=
  let c0_i32_469 : BitVec 32 := 0#32
  let c0_i32_470 : BitVec 32 := 0#32
  ![v543.toNat, 0, 0]

def k0_chk53 (v543 : BitVec 32) : Prop :=
  (∀ a, (k0_off55 v543) a + S1x8x64.size a ≤ S125000x8x64.size a)
instance k0_chk53.dec : ∀ (v543 : BitVec 32), Decidable (k0_chk53 v543) := fun v543 => decidable_of_iff' _ (Iff.of_eq (k0_chk53.eq_1 v543))
theorem k0_off55_inb : ∀ (v543 : BitVec 32) (k0_hw53 : k0_chk53 v543), ∀ a, (k0_off55 v543) a + S1x8x64.size a ≤ S125000x8x64.size a := fun v543 k0_hw53 => k0_hw53

def k0_off56 (v553 : BitVec 32) : Fin 3 → Nat :=
  let c0_i32_478 : BitVec 32 := 0#32
  let c0_i32_479 : BitVec 32 := 0#32
  ![v553.toNat, 0, 0]

def k0_chk54 (v553 : BitVec 32) : Prop :=
  (∀ a, (k0_off56 v553) a + S1x8x64.size a ≤ S125000x8x64.size a)
instance k0_chk54.dec : ∀ (v553 : BitVec 32), Decidable (k0_chk54 v553) := fun v553 => decidable_of_iff' _ (Iff.of_eq (k0_chk54.eq_1 v553))
theorem k0_off56_inb : ∀ (v553 : BitVec 32) (k0_hw54 : k0_chk54 v553), ∀ a, (k0_off56 v553) a + S1x8x64.size a ≤ S125000x8x64.size a := fun v553 k0_hw54 => k0_hw54

def k0_off57 (v563 : BitVec 32) : Fin 3 → Nat :=
  let c0_i32_487 : BitVec 32 := 0#32
  let c0_i32_488 : BitVec 32 := 0#32
  ![v563.toNat, 0, 0]

def k0_chk55 (v563 : BitVec 32) : Prop :=
  (∀ a, (k0_off57 v563) a + S1x8x64.size a ≤ S125000x8x64.size a)
instance k0_chk55.dec : ∀ (v563 : BitVec 32), Decidable (k0_chk55 v563) := fun v563 => decidable_of_iff' _ (Iff.of_eq (k0_chk55.eq_1 v563))
theorem k0_off57_inb : ∀ (v563 : BitVec 32) (k0_hw55 : k0_chk55 v563), ∀ a, (k0_off57 v563) a + S1x8x64.size a ≤ S125000x8x64.size a := fun v563 k0_hw55 => k0_hw55

def k0_off58 (v573 : BitVec 32) : Fin 3 → Nat :=
  let c0_i32_496 : BitVec 32 := 0#32
  let c0_i32_497 : BitVec 32 := 0#32
  ![v573.toNat, 0, 0]

def k0_chk56 (v573 : BitVec 32) : Prop :=
  (∀ a, (k0_off58 v573) a + S1x8x64.size a ≤ S125000x8x64.size a)
instance k0_chk56.dec : ∀ (v573 : BitVec 32), Decidable (k0_chk56 v573) := fun v573 => decidable_of_iff' _ (Iff.of_eq (k0_chk56.eq_1 v573))
theorem k0_off58_inb : ∀ (v573 : BitVec 32) (k0_hw56 : k0_chk56 v573), ∀ a, (k0_off58 v573) a + S1x8x64.size a ≤ S125000x8x64.size a := fun v573 k0_hw56 => k0_hw56

def k0_off59 (v583 : BitVec 32) : Fin 3 → Nat :=
  let c0_i32_505 : BitVec 32 := 0#32
  let c0_i32_506 : BitVec 32 := 0#32
  ![v583.toNat, 0, 0]

def k0_chk57 (v583 : BitVec 32) : Prop :=
  (∀ a, (k0_off59 v583) a + S1x8x64.size a ≤ S125000x8x64.size a)
instance k0_chk57.dec : ∀ (v583 : BitVec 32), Decidable (k0_chk57 v583) := fun v583 => decidable_of_iff' _ (Iff.of_eq (k0_chk57.eq_1 v583))
theorem k0_off59_inb : ∀ (v583 : BitVec 32) (k0_hw57 : k0_chk57 v583), ∀ a, (k0_off59 v583) a + S1x8x64.size a ≤ S125000x8x64.size a := fun v583 k0_hw57 => k0_hw57

def k0_off60 (v593 : BitVec 32) : Fin 3 → Nat :=
  let c0_i32_514 : BitVec 32 := 0#32
  let c0_i32_515 : BitVec 32 := 0#32
  ![v593.toNat, 0, 0]

def k0_chk58 (v593 : BitVec 32) : Prop :=
  (∀ a, (k0_off60 v593) a + S1x8x64.size a ≤ S125000x8x64.size a)
instance k0_chk58.dec : ∀ (v593 : BitVec 32), Decidable (k0_chk58 v593) := fun v593 => decidable_of_iff' _ (Iff.of_eq (k0_chk58.eq_1 v593))
theorem k0_off60_inb : ∀ (v593 : BitVec 32) (k0_hw58 : k0_chk58 v593), ∀ a, (k0_off60 v593) a + S1x8x64.size a ≤ S125000x8x64.size a := fun v593 k0_hw58 => k0_hw58

def k0_off61 (v603 : BitVec 32) : Fin 3 → Nat :=
  let c0_i32_523 : BitVec 32 := 0#32
  let c0_i32_524 : BitVec 32 := 0#32
  ![v603.toNat, 0, 0]

def k0_chk59 (v603 : BitVec 32) : Prop :=
  (∀ a, (k0_off61 v603) a + S1x8x64.size a ≤ S125000x8x64.size a)
instance k0_chk59.dec : ∀ (v603 : BitVec 32), Decidable (k0_chk59 v603) := fun v603 => decidable_of_iff' _ (Iff.of_eq (k0_chk59.eq_1 v603))
theorem k0_off61_inb : ∀ (v603 : BitVec 32) (k0_hw59 : k0_chk59 v603), ∀ a, (k0_off61 v603) a + S1x8x64.size a ≤ S125000x8x64.size a := fun v603 k0_hw59 => k0_hw59

def k0_off62 (v613 : BitVec 32) : Fin 3 → Nat :=
  let c0_i32_532 : BitVec 32 := 0#32
  let c0_i32_533 : BitVec 32 := 0#32
  ![v613.toNat, 0, 0]

def k0_chk60 (v613 : BitVec 32) : Prop :=
  (∀ a, (k0_off62 v613) a + S1x8x64.size a ≤ S125000x8x64.size a)
instance k0_chk60.dec : ∀ (v613 : BitVec 32), Decidable (k0_chk60 v613) := fun v613 => decidable_of_iff' _ (Iff.of_eq (k0_chk60.eq_1 v613))
theorem k0_off62_inb : ∀ (v613 : BitVec 32) (k0_hw60 : k0_chk60 v613), ∀ a, (k0_off62 v613) a + S1x8x64.size a ≤ S125000x8x64.size a := fun v613 k0_hw60 => k0_hw60

def k0_off63 (v623 : BitVec 32) : Fin 3 → Nat :=
  let c0_i32_541 : BitVec 32 := 0#32
  let c0_i32_542 : BitVec 32 := 0#32
  ![v623.toNat, 0, 0]

def k0_chk61 (v623 : BitVec 32) : Prop :=
  (∀ a, (k0_off63 v623) a + S1x8x64.size a ≤ S125000x8x64.size a)
instance k0_chk61.dec : ∀ (v623 : BitVec 32), Decidable (k0_chk61 v623) := fun v623 => decidable_of_iff' _ (Iff.of_eq (k0_chk61.eq_1 v623))
theorem k0_off63_inb : ∀ (v623 : BitVec 32) (k0_hw61 : k0_chk61 v623), ∀ a, (k0_off63 v623) a + S1x8x64.size a ≤ S125000x8x64.size a := fun v623 k0_hw61 => k0_hw61

def k0_off64 (v633 : BitVec 32) : Fin 3 → Nat :=
  let c0_i32_550 : BitVec 32 := 0#32
  let c0_i32_551 : BitVec 32 := 0#32
  ![v633.toNat, 0, 0]

def k0_chk62 (v633 : BitVec 32) : Prop :=
  (∀ a, (k0_off64 v633) a + S1x8x64.size a ≤ S125000x8x64.size a)
instance k0_chk62.dec : ∀ (v633 : BitVec 32), Decidable (k0_chk62 v633) := fun v633 => decidable_of_iff' _ (Iff.of_eq (k0_chk62.eq_1 v633))
theorem k0_off64_inb : ∀ (v633 : BitVec 32) (k0_hw62 : k0_chk62 v633), ∀ a, (k0_off64 v633) a + S1x8x64.size a ≤ S125000x8x64.size a := fun v633 k0_hw62 => k0_hw62

def k0_off65 (v643 : BitVec 32) : Fin 3 → Nat :=
  let c0_i32_559 : BitVec 32 := 0#32
  let c0_i32_560 : BitVec 32 := 0#32
  ![v643.toNat, 0, 0]

def k0_chk63 (v643 : BitVec 32) : Prop :=
  (∀ a, (k0_off65 v643) a + S1x8x64.size a ≤ S125000x8x64.size a)
instance k0_chk63.dec : ∀ (v643 : BitVec 32), Decidable (k0_chk63 v643) := fun v643 => decidable_of_iff' _ (Iff.of_eq (k0_chk63.eq_1 v643))
theorem k0_off65_inb : ∀ (v643 : BitVec 32) (k0_hw63 : k0_chk63 v643), ∀ a, (k0_off65 v643) a + S1x8x64.size a ≤ S125000x8x64.size a := fun v643 k0_hw63 => k0_hw63

def k0_off66 (v653 : BitVec 32) : Fin 3 → Nat :=
  let c0_i32_568 : BitVec 32 := 0#32
  let c0_i32_569 : BitVec 32 := 0#32
  ![v653.toNat, 0, 0]

def k0_chk64 (v653 : BitVec 32) : Prop :=
  (∀ a, (k0_off66 v653) a + S1x8x64.size a ≤ S125000x8x64.size a)
instance k0_chk64.dec : ∀ (v653 : BitVec 32), Decidable (k0_chk64 v653) := fun v653 => decidable_of_iff' _ (Iff.of_eq (k0_chk64.eq_1 v653))
theorem k0_off66_inb : ∀ (v653 : BitVec 32) (k0_hw64 : k0_chk64 v653), ∀ a, (k0_off66 v653) a + S1x8x64.size a ≤ S125000x8x64.size a := fun v653 k0_hw64 => k0_hw64

def k0_off67 (k0_t1 : Fin k0_t1_loop.trips) : Fin 1 → Nat :=
  let c0_i32_277 : BitVec 32 := 0#32
  let c1_i32_278 : BitVec 32 := 1#32
  let arg18 : BitVec 32 := Scf.iv c0_i32_277 c1_i32_278 k0_t1
  let c2_i32_280 : BitVec 32 := 2#32
  let v330 : BitVec 32 := Scalar.muli arg18 c2_i32_280
  let c16_i32_586 : BitVec 32 := 16#32
  let v666 : BitVec 32 := Scalar.muli v330 c16_i32_586
  let c0_i32_587 : BitVec 32 := 0#32
  let v667 : BitVec 32 := Scalar.addi v666 c0_i32_587
  let v668 : Index := Scalar.indexCast v667
  ![v668.toNat]

def k0_chk65 (v671 : IVec S16 32) (v675 : IVec S16 32) (v678 : IVec S16 32) (v680 : IVec S16 32) : Prop :=
  (∀ a x, ((![v678, v671, v680] : Fin 3 → IVec S16 32) a x).toNat < S16x8x64.size a) ∧
  (∀ a x, ((![v678, v675, v680] : Fin 3 → IVec S16 32) a x).toNat < S16x8x64.size a)
instance k0_chk65.dec : ∀ (v671 : IVec S16 32) (v675 : IVec S16 32) (v678 : IVec S16 32) (v680 : IVec S16 32), Decidable (k0_chk65 v671 v675 v678 v680) := fun v671 v675 v678 v680 => decidable_of_iff' _ (Iff.of_eq (k0_chk65.eq_1 v671 v675 v678 v680))
theorem k0_idx1_inb : ∀ (v671 : IVec S16 32) (v675 : IVec S16 32) (v678 : IVec S16 32) (v680 : IVec S16 32) (k0_hw65 : k0_chk65 v671 v675 v678 v680), ∀ a x, ((![v678, v671, v680] : Fin 3 → IVec S16 32) a x).toNat < S16x8x64.size a := fun v671 v675 v678 v680 k0_hw65 => k0_hw65.1
theorem k0_idx2_inb : ∀ (v671 : IVec S16 32) (v675 : IVec S16 32) (v678 : IVec S16 32) (v680 : IVec S16 32) (k0_hw65 : k0_chk65 v671 v675 v678 v680), ∀ a x, ((![v678, v675, v680] : Fin 3 → IVec S16 32) a x).toNat < S16x8x64.size a := fun v671 v675 v678 v680 k0_hw65 => k0_hw65.2

def k0_chk66 (v671 : IVec S16 32) (v675 : IVec S16 32) (v678 : IVec S16 32) (v685 : IVec S16 32) : Prop :=
  (∀ a x, ((![v678, v671, v685] : Fin 3 → IVec S16 32) a x).toNat < S16x8x64.size a) ∧
  (∀ a x, ((![v678, v675, v685] : Fin 3 → IVec S16 32) a x).toNat < S16x8x64.size a)
instance k0_chk66.dec : ∀ (v671 : IVec S16 32) (v675 : IVec S16 32) (v678 : IVec S16 32) (v685 : IVec S16 32), Decidable (k0_chk66 v671 v675 v678 v685) := fun v671 v675 v678 v685 => decidable_of_iff' _ (Iff.of_eq (k0_chk66.eq_1 v671 v675 v678 v685))
theorem k0_idx3_inb : ∀ (v671 : IVec S16 32) (v675 : IVec S16 32) (v678 : IVec S16 32) (v685 : IVec S16 32) (k0_hw66 : k0_chk66 v671 v675 v678 v685), ∀ a x, ((![v678, v671, v685] : Fin 3 → IVec S16 32) a x).toNat < S16x8x64.size a := fun v671 v675 v678 v685 k0_hw66 => k0_hw66.1
theorem k0_idx4_inb : ∀ (v671 : IVec S16 32) (v675 : IVec S16 32) (v678 : IVec S16 32) (v685 : IVec S16 32) (k0_hw66 : k0_chk66 v671 v675 v678 v685), ∀ a x, ((![v678, v675, v685] : Fin 3 → IVec S16 32) a x).toNat < S16x8x64.size a := fun v671 v675 v678 v685 k0_hw66 => k0_hw66.2

def k0_chk67 (v671 : IVec S16 32) (v675 : IVec S16 32) (v678 : IVec S16 32) (v690 : IVec S16 32) : Prop :=
  (∀ a x, ((![v678, v671, v690] : Fin 3 → IVec S16 32) a x).toNat < S16x8x64.size a) ∧
  (∀ a x, ((![v678, v675, v690] : Fin 3 → IVec S16 32) a x).toNat < S16x8x64.size a)
instance k0_chk67.dec : ∀ (v671 : IVec S16 32) (v675 : IVec S16 32) (v678 : IVec S16 32) (v690 : IVec S16 32), Decidable (k0_chk67 v671 v675 v678 v690) := fun v671 v675 v678 v690 => decidable_of_iff' _ (Iff.of_eq (k0_chk67.eq_1 v671 v675 v678 v690))
theorem k0_idx5_inb : ∀ (v671 : IVec S16 32) (v675 : IVec S16 32) (v678 : IVec S16 32) (v690 : IVec S16 32) (k0_hw67 : k0_chk67 v671 v675 v678 v690), ∀ a x, ((![v678, v671, v690] : Fin 3 → IVec S16 32) a x).toNat < S16x8x64.size a := fun v671 v675 v678 v690 k0_hw67 => k0_hw67.1
theorem k0_idx6_inb : ∀ (v671 : IVec S16 32) (v675 : IVec S16 32) (v678 : IVec S16 32) (v690 : IVec S16 32) (k0_hw67 : k0_chk67 v671 v675 v678 v690), ∀ a x, ((![v678, v675, v690] : Fin 3 → IVec S16 32) a x).toNat < S16x8x64.size a := fun v671 v675 v678 v690 k0_hw67 => k0_hw67.2

def k0_chk68 (v671 : IVec S16 32) (v675 : IVec S16 32) (v678 : IVec S16 32) (v695 : IVec S16 32) : Prop :=
  (∀ a x, ((![v678, v671, v695] : Fin 3 → IVec S16 32) a x).toNat < S16x8x64.size a) ∧
  (∀ a x, ((![v678, v675, v695] : Fin 3 → IVec S16 32) a x).toNat < S16x8x64.size a)
instance k0_chk68.dec : ∀ (v671 : IVec S16 32) (v675 : IVec S16 32) (v678 : IVec S16 32) (v695 : IVec S16 32), Decidable (k0_chk68 v671 v675 v678 v695) := fun v671 v675 v678 v695 => decidable_of_iff' _ (Iff.of_eq (k0_chk68.eq_1 v671 v675 v678 v695))
theorem k0_idx7_inb : ∀ (v671 : IVec S16 32) (v675 : IVec S16 32) (v678 : IVec S16 32) (v695 : IVec S16 32) (k0_hw68 : k0_chk68 v671 v675 v678 v695), ∀ a x, ((![v678, v671, v695] : Fin 3 → IVec S16 32) a x).toNat < S16x8x64.size a := fun v671 v675 v678 v695 k0_hw68 => k0_hw68.1
theorem k0_idx8_inb : ∀ (v671 : IVec S16 32) (v675 : IVec S16 32) (v678 : IVec S16 32) (v695 : IVec S16 32) (k0_hw68 : k0_chk68 v671 v675 v678 v695), ∀ a x, ((![v678, v675, v695] : Fin 3 → IVec S16 32) a x).toNat < S16x8x64.size a := fun v671 v675 v678 v695 k0_hw68 => k0_hw68.2

def k0_chk69 (v671 : IVec S16 32) (v675 : IVec S16 32) (v678 : IVec S16 32) (v700 : IVec S16 32) : Prop :=
  (∀ a x, ((![v678, v671, v700] : Fin 3 → IVec S16 32) a x).toNat < S16x8x64.size a) ∧
  (∀ a x, ((![v678, v675, v700] : Fin 3 → IVec S16 32) a x).toNat < S16x8x64.size a)
instance k0_chk69.dec : ∀ (v671 : IVec S16 32) (v675 : IVec S16 32) (v678 : IVec S16 32) (v700 : IVec S16 32), Decidable (k0_chk69 v671 v675 v678 v700) := fun v671 v675 v678 v700 => decidable_of_iff' _ (Iff.of_eq (k0_chk69.eq_1 v671 v675 v678 v700))
theorem k0_idx9_inb : ∀ (v671 : IVec S16 32) (v675 : IVec S16 32) (v678 : IVec S16 32) (v700 : IVec S16 32) (k0_hw69 : k0_chk69 v671 v675 v678 v700), ∀ a x, ((![v678, v671, v700] : Fin 3 → IVec S16 32) a x).toNat < S16x8x64.size a := fun v671 v675 v678 v700 k0_hw69 => k0_hw69.1
theorem k0_idx10_inb : ∀ (v671 : IVec S16 32) (v675 : IVec S16 32) (v678 : IVec S16 32) (v700 : IVec S16 32) (k0_hw69 : k0_chk69 v671 v675 v678 v700), ∀ a x, ((![v678, v675, v700] : Fin 3 → IVec S16 32) a x).toNat < S16x8x64.size a := fun v671 v675 v678 v700 k0_hw69 => k0_hw69.2

def k0_chk70 (v671 : IVec S16 32) (v675 : IVec S16 32) (v678 : IVec S16 32) (v705 : IVec S16 32) : Prop :=
  (∀ a x, ((![v678, v671, v705] : Fin 3 → IVec S16 32) a x).toNat < S16x8x64.size a) ∧
  (∀ a x, ((![v678, v675, v705] : Fin 3 → IVec S16 32) a x).toNat < S16x8x64.size a)
instance k0_chk70.dec : ∀ (v671 : IVec S16 32) (v675 : IVec S16 32) (v678 : IVec S16 32) (v705 : IVec S16 32), Decidable (k0_chk70 v671 v675 v678 v705) := fun v671 v675 v678 v705 => decidable_of_iff' _ (Iff.of_eq (k0_chk70.eq_1 v671 v675 v678 v705))
theorem k0_idx11_inb : ∀ (v671 : IVec S16 32) (v675 : IVec S16 32) (v678 : IVec S16 32) (v705 : IVec S16 32) (k0_hw70 : k0_chk70 v671 v675 v678 v705), ∀ a x, ((![v678, v671, v705] : Fin 3 → IVec S16 32) a x).toNat < S16x8x64.size a := fun v671 v675 v678 v705 k0_hw70 => k0_hw70.1
theorem k0_idx12_inb : ∀ (v671 : IVec S16 32) (v675 : IVec S16 32) (v678 : IVec S16 32) (v705 : IVec S16 32) (k0_hw70 : k0_chk70 v671 v675 v678 v705), ∀ a x, ((![v678, v675, v705] : Fin 3 → IVec S16 32) a x).toNat < S16x8x64.size a := fun v671 v675 v678 v705 k0_hw70 => k0_hw70.2

def k0_chk71 (v671 : IVec S16 32) (v675 : IVec S16 32) (v678 : IVec S16 32) (v710 : IVec S16 32) : Prop :=
  (∀ a x, ((![v678, v671, v710] : Fin 3 → IVec S16 32) a x).toNat < S16x8x64.size a) ∧
  (∀ a x, ((![v678, v675, v710] : Fin 3 → IVec S16 32) a x).toNat < S16x8x64.size a)
instance k0_chk71.dec : ∀ (v671 : IVec S16 32) (v675 : IVec S16 32) (v678 : IVec S16 32) (v710 : IVec S16 32), Decidable (k0_chk71 v671 v675 v678 v710) := fun v671 v675 v678 v710 => decidable_of_iff' _ (Iff.of_eq (k0_chk71.eq_1 v671 v675 v678 v710))
theorem k0_idx13_inb : ∀ (v671 : IVec S16 32) (v675 : IVec S16 32) (v678 : IVec S16 32) (v710 : IVec S16 32) (k0_hw71 : k0_chk71 v671 v675 v678 v710), ∀ a x, ((![v678, v671, v710] : Fin 3 → IVec S16 32) a x).toNat < S16x8x64.size a := fun v671 v675 v678 v710 k0_hw71 => k0_hw71.1
theorem k0_idx14_inb : ∀ (v671 : IVec S16 32) (v675 : IVec S16 32) (v678 : IVec S16 32) (v710 : IVec S16 32) (k0_hw71 : k0_chk71 v671 v675 v678 v710), ∀ a x, ((![v678, v675, v710] : Fin 3 → IVec S16 32) a x).toNat < S16x8x64.size a := fun v671 v675 v678 v710 k0_hw71 => k0_hw71.2

def k0_chk72 (v671 : IVec S16 32) (v675 : IVec S16 32) (v678 : IVec S16 32) (v715 : IVec S16 32) : Prop :=
  (∀ a x, ((![v678, v671, v715] : Fin 3 → IVec S16 32) a x).toNat < S16x8x64.size a) ∧
  (∀ a x, ((![v678, v675, v715] : Fin 3 → IVec S16 32) a x).toNat < S16x8x64.size a)
instance k0_chk72.dec : ∀ (v671 : IVec S16 32) (v675 : IVec S16 32) (v678 : IVec S16 32) (v715 : IVec S16 32), Decidable (k0_chk72 v671 v675 v678 v715) := fun v671 v675 v678 v715 => decidable_of_iff' _ (Iff.of_eq (k0_chk72.eq_1 v671 v675 v678 v715))
theorem k0_idx15_inb : ∀ (v671 : IVec S16 32) (v675 : IVec S16 32) (v678 : IVec S16 32) (v715 : IVec S16 32) (k0_hw72 : k0_chk72 v671 v675 v678 v715), ∀ a x, ((![v678, v671, v715] : Fin 3 → IVec S16 32) a x).toNat < S16x8x64.size a := fun v671 v675 v678 v715 k0_hw72 => k0_hw72.1
theorem k0_idx16_inb : ∀ (v671 : IVec S16 32) (v675 : IVec S16 32) (v678 : IVec S16 32) (v715 : IVec S16 32) (k0_hw72 : k0_chk72 v671 v675 v678 v715), ∀ a x, ((![v678, v675, v715] : Fin 3 → IVec S16 32) a x).toNat < S16x8x64.size a := fun v671 v675 v678 v715 k0_hw72 => k0_hw72.2

def k0_chk73 (v671 : IVec S16 32) (v675 : IVec S16 32) (v678 : IVec S16 32) (v720 : IVec S16 32) : Prop :=
  (∀ a x, ((![v678, v671, v720] : Fin 3 → IVec S16 32) a x).toNat < S16x8x64.size a) ∧
  (∀ a x, ((![v678, v675, v720] : Fin 3 → IVec S16 32) a x).toNat < S16x8x64.size a)
instance k0_chk73.dec : ∀ (v671 : IVec S16 32) (v675 : IVec S16 32) (v678 : IVec S16 32) (v720 : IVec S16 32), Decidable (k0_chk73 v671 v675 v678 v720) := fun v671 v675 v678 v720 => decidable_of_iff' _ (Iff.of_eq (k0_chk73.eq_1 v671 v675 v678 v720))
theorem k0_idx17_inb : ∀ (v671 : IVec S16 32) (v675 : IVec S16 32) (v678 : IVec S16 32) (v720 : IVec S16 32) (k0_hw73 : k0_chk73 v671 v675 v678 v720), ∀ a x, ((![v678, v671, v720] : Fin 3 → IVec S16 32) a x).toNat < S16x8x64.size a := fun v671 v675 v678 v720 k0_hw73 => k0_hw73.1
theorem k0_idx18_inb : ∀ (v671 : IVec S16 32) (v675 : IVec S16 32) (v678 : IVec S16 32) (v720 : IVec S16 32) (k0_hw73 : k0_chk73 v671 v675 v678 v720), ∀ a x, ((![v678, v675, v720] : Fin 3 → IVec S16 32) a x).toNat < S16x8x64.size a := fun v671 v675 v678 v720 k0_hw73 => k0_hw73.2

def k0_chk74 (v671 : IVec S16 32) (v675 : IVec S16 32) (v678 : IVec S16 32) (v725 : IVec S16 32) : Prop :=
  (∀ a x, ((![v678, v671, v725] : Fin 3 → IVec S16 32) a x).toNat < S16x8x64.size a) ∧
  (∀ a x, ((![v678, v675, v725] : Fin 3 → IVec S16 32) a x).toNat < S16x8x64.size a)
instance k0_chk74.dec : ∀ (v671 : IVec S16 32) (v675 : IVec S16 32) (v678 : IVec S16 32) (v725 : IVec S16 32), Decidable (k0_chk74 v671 v675 v678 v725) := fun v671 v675 v678 v725 => decidable_of_iff' _ (Iff.of_eq (k0_chk74.eq_1 v671 v675 v678 v725))
theorem k0_idx19_inb : ∀ (v671 : IVec S16 32) (v675 : IVec S16 32) (v678 : IVec S16 32) (v725 : IVec S16 32) (k0_hw74 : k0_chk74 v671 v675 v678 v725), ∀ a x, ((![v678, v671, v725] : Fin 3 → IVec S16 32) a x).toNat < S16x8x64.size a := fun v671 v675 v678 v725 k0_hw74 => k0_hw74.1
theorem k0_idx20_inb : ∀ (v671 : IVec S16 32) (v675 : IVec S16 32) (v678 : IVec S16 32) (v725 : IVec S16 32) (k0_hw74 : k0_chk74 v671 v675 v678 v725), ∀ a x, ((![v678, v675, v725] : Fin 3 → IVec S16 32) a x).toNat < S16x8x64.size a := fun v671 v675 v678 v725 k0_hw74 => k0_hw74.2

def k0_chk75 (v671 : IVec S16 32) (v675 : IVec S16 32) (v678 : IVec S16 32) (v730 : IVec S16 32) : Prop :=
  (∀ a x, ((![v678, v671, v730] : Fin 3 → IVec S16 32) a x).toNat < S16x8x64.size a) ∧
  (∀ a x, ((![v678, v675, v730] : Fin 3 → IVec S16 32) a x).toNat < S16x8x64.size a)
instance k0_chk75.dec : ∀ (v671 : IVec S16 32) (v675 : IVec S16 32) (v678 : IVec S16 32) (v730 : IVec S16 32), Decidable (k0_chk75 v671 v675 v678 v730) := fun v671 v675 v678 v730 => decidable_of_iff' _ (Iff.of_eq (k0_chk75.eq_1 v671 v675 v678 v730))
theorem k0_idx21_inb : ∀ (v671 : IVec S16 32) (v675 : IVec S16 32) (v678 : IVec S16 32) (v730 : IVec S16 32) (k0_hw75 : k0_chk75 v671 v675 v678 v730), ∀ a x, ((![v678, v671, v730] : Fin 3 → IVec S16 32) a x).toNat < S16x8x64.size a := fun v671 v675 v678 v730 k0_hw75 => k0_hw75.1
theorem k0_idx22_inb : ∀ (v671 : IVec S16 32) (v675 : IVec S16 32) (v678 : IVec S16 32) (v730 : IVec S16 32) (k0_hw75 : k0_chk75 v671 v675 v678 v730), ∀ a x, ((![v678, v675, v730] : Fin 3 → IVec S16 32) a x).toNat < S16x8x64.size a := fun v671 v675 v678 v730 k0_hw75 => k0_hw75.2

def k0_chk76 (v671 : IVec S16 32) (v675 : IVec S16 32) (v678 : IVec S16 32) (v735 : IVec S16 32) : Prop :=
  (∀ a x, ((![v678, v671, v735] : Fin 3 → IVec S16 32) a x).toNat < S16x8x64.size a) ∧
  (∀ a x, ((![v678, v675, v735] : Fin 3 → IVec S16 32) a x).toNat < S16x8x64.size a)
instance k0_chk76.dec : ∀ (v671 : IVec S16 32) (v675 : IVec S16 32) (v678 : IVec S16 32) (v735 : IVec S16 32), Decidable (k0_chk76 v671 v675 v678 v735) := fun v671 v675 v678 v735 => decidable_of_iff' _ (Iff.of_eq (k0_chk76.eq_1 v671 v675 v678 v735))
theorem k0_idx23_inb : ∀ (v671 : IVec S16 32) (v675 : IVec S16 32) (v678 : IVec S16 32) (v735 : IVec S16 32) (k0_hw76 : k0_chk76 v671 v675 v678 v735), ∀ a x, ((![v678, v671, v735] : Fin 3 → IVec S16 32) a x).toNat < S16x8x64.size a := fun v671 v675 v678 v735 k0_hw76 => k0_hw76.1
theorem k0_idx24_inb : ∀ (v671 : IVec S16 32) (v675 : IVec S16 32) (v678 : IVec S16 32) (v735 : IVec S16 32) (k0_hw76 : k0_chk76 v671 v675 v678 v735), ∀ a x, ((![v678, v675, v735] : Fin 3 → IVec S16 32) a x).toNat < S16x8x64.size a := fun v671 v675 v678 v735 k0_hw76 => k0_hw76.2

def k0_chk77 (v671 : IVec S16 32) (v675 : IVec S16 32) (v678 : IVec S16 32) (v740 : IVec S16 32) : Prop :=
  (∀ a x, ((![v678, v671, v740] : Fin 3 → IVec S16 32) a x).toNat < S16x8x64.size a) ∧
  (∀ a x, ((![v678, v675, v740] : Fin 3 → IVec S16 32) a x).toNat < S16x8x64.size a)
instance k0_chk77.dec : ∀ (v671 : IVec S16 32) (v675 : IVec S16 32) (v678 : IVec S16 32) (v740 : IVec S16 32), Decidable (k0_chk77 v671 v675 v678 v740) := fun v671 v675 v678 v740 => decidable_of_iff' _ (Iff.of_eq (k0_chk77.eq_1 v671 v675 v678 v740))
theorem k0_idx25_inb : ∀ (v671 : IVec S16 32) (v675 : IVec S16 32) (v678 : IVec S16 32) (v740 : IVec S16 32) (k0_hw77 : k0_chk77 v671 v675 v678 v740), ∀ a x, ((![v678, v671, v740] : Fin 3 → IVec S16 32) a x).toNat < S16x8x64.size a := fun v671 v675 v678 v740 k0_hw77 => k0_hw77.1
theorem k0_idx26_inb : ∀ (v671 : IVec S16 32) (v675 : IVec S16 32) (v678 : IVec S16 32) (v740 : IVec S16 32) (k0_hw77 : k0_chk77 v671 v675 v678 v740), ∀ a x, ((![v678, v675, v740] : Fin 3 → IVec S16 32) a x).toNat < S16x8x64.size a := fun v671 v675 v678 v740 k0_hw77 => k0_hw77.2

def k0_chk78 (v671 : IVec S16 32) (v675 : IVec S16 32) (v678 : IVec S16 32) (v745 : IVec S16 32) : Prop :=
  (∀ a x, ((![v678, v671, v745] : Fin 3 → IVec S16 32) a x).toNat < S16x8x64.size a) ∧
  (∀ a x, ((![v678, v675, v745] : Fin 3 → IVec S16 32) a x).toNat < S16x8x64.size a)
instance k0_chk78.dec : ∀ (v671 : IVec S16 32) (v675 : IVec S16 32) (v678 : IVec S16 32) (v745 : IVec S16 32), Decidable (k0_chk78 v671 v675 v678 v745) := fun v671 v675 v678 v745 => decidable_of_iff' _ (Iff.of_eq (k0_chk78.eq_1 v671 v675 v678 v745))
theorem k0_idx27_inb : ∀ (v671 : IVec S16 32) (v675 : IVec S16 32) (v678 : IVec S16 32) (v745 : IVec S16 32) (k0_hw78 : k0_chk78 v671 v675 v678 v745), ∀ a x, ((![v678, v671, v745] : Fin 3 → IVec S16 32) a x).toNat < S16x8x64.size a := fun v671 v675 v678 v745 k0_hw78 => k0_hw78.1
theorem k0_idx28_inb : ∀ (v671 : IVec S16 32) (v675 : IVec S16 32) (v678 : IVec S16 32) (v745 : IVec S16 32) (k0_hw78 : k0_chk78 v671 v675 v678 v745), ∀ a x, ((![v678, v675, v745] : Fin 3 → IVec S16 32) a x).toNat < S16x8x64.size a := fun v671 v675 v678 v745 k0_hw78 => k0_hw78.2

def k0_chk79 (v671 : IVec S16 32) (v675 : IVec S16 32) (v678 : IVec S16 32) (v750 : IVec S16 32) : Prop :=
  (∀ a x, ((![v678, v671, v750] : Fin 3 → IVec S16 32) a x).toNat < S16x8x64.size a) ∧
  (∀ a x, ((![v678, v675, v750] : Fin 3 → IVec S16 32) a x).toNat < S16x8x64.size a)
instance k0_chk79.dec : ∀ (v671 : IVec S16 32) (v675 : IVec S16 32) (v678 : IVec S16 32) (v750 : IVec S16 32), Decidable (k0_chk79 v671 v675 v678 v750) := fun v671 v675 v678 v750 => decidable_of_iff' _ (Iff.of_eq (k0_chk79.eq_1 v671 v675 v678 v750))
theorem k0_idx29_inb : ∀ (v671 : IVec S16 32) (v675 : IVec S16 32) (v678 : IVec S16 32) (v750 : IVec S16 32) (k0_hw79 : k0_chk79 v671 v675 v678 v750), ∀ a x, ((![v678, v671, v750] : Fin 3 → IVec S16 32) a x).toNat < S16x8x64.size a := fun v671 v675 v678 v750 k0_hw79 => k0_hw79.1
theorem k0_idx30_inb : ∀ (v671 : IVec S16 32) (v675 : IVec S16 32) (v678 : IVec S16 32) (v750 : IVec S16 32) (k0_hw79 : k0_chk79 v671 v675 v678 v750), ∀ a x, ((![v678, v675, v750] : Fin 3 → IVec S16 32) a x).toNat < S16x8x64.size a := fun v671 v675 v678 v750 k0_hw79 => k0_hw79.2

def k0_chk80 (v671 : IVec S16 32) (v675 : IVec S16 32) (v678 : IVec S16 32) (v755 : IVec S16 32) : Prop :=
  (∀ a x, ((![v678, v671, v755] : Fin 3 → IVec S16 32) a x).toNat < S16x8x64.size a) ∧
  (∀ a x, ((![v678, v675, v755] : Fin 3 → IVec S16 32) a x).toNat < S16x8x64.size a)
instance k0_chk80.dec : ∀ (v671 : IVec S16 32) (v675 : IVec S16 32) (v678 : IVec S16 32) (v755 : IVec S16 32), Decidable (k0_chk80 v671 v675 v678 v755) := fun v671 v675 v678 v755 => decidable_of_iff' _ (Iff.of_eq (k0_chk80.eq_1 v671 v675 v678 v755))
theorem k0_idx31_inb : ∀ (v671 : IVec S16 32) (v675 : IVec S16 32) (v678 : IVec S16 32) (v755 : IVec S16 32) (k0_hw80 : k0_chk80 v671 v675 v678 v755), ∀ a x, ((![v678, v671, v755] : Fin 3 → IVec S16 32) a x).toNat < S16x8x64.size a := fun v671 v675 v678 v755 k0_hw80 => k0_hw80.1
theorem k0_idx32_inb : ∀ (v671 : IVec S16 32) (v675 : IVec S16 32) (v678 : IVec S16 32) (v755 : IVec S16 32) (k0_hw80 : k0_chk80 v671 v675 v678 v755), ∀ a x, ((![v678, v675, v755] : Fin 3 → IVec S16 32) a x).toNat < S16x8x64.size a := fun v671 v675 v678 v755 k0_hw80 => k0_hw80.2

def k0_chk81 (v671 : IVec S16 32) (v675 : IVec S16 32) (v678 : IVec S16 32) (v760 : IVec S16 32) : Prop :=
  (∀ a x, ((![v678, v671, v760] : Fin 3 → IVec S16 32) a x).toNat < S16x8x64.size a) ∧
  (∀ a x, ((![v678, v675, v760] : Fin 3 → IVec S16 32) a x).toNat < S16x8x64.size a)
instance k0_chk81.dec : ∀ (v671 : IVec S16 32) (v675 : IVec S16 32) (v678 : IVec S16 32) (v760 : IVec S16 32), Decidable (k0_chk81 v671 v675 v678 v760) := fun v671 v675 v678 v760 => decidable_of_iff' _ (Iff.of_eq (k0_chk81.eq_1 v671 v675 v678 v760))
theorem k0_idx33_inb : ∀ (v671 : IVec S16 32) (v675 : IVec S16 32) (v678 : IVec S16 32) (v760 : IVec S16 32) (k0_hw81 : k0_chk81 v671 v675 v678 v760), ∀ a x, ((![v678, v671, v760] : Fin 3 → IVec S16 32) a x).toNat < S16x8x64.size a := fun v671 v675 v678 v760 k0_hw81 => k0_hw81.1
theorem k0_idx34_inb : ∀ (v671 : IVec S16 32) (v675 : IVec S16 32) (v678 : IVec S16 32) (v760 : IVec S16 32) (k0_hw81 : k0_chk81 v671 v675 v678 v760), ∀ a x, ((![v678, v675, v760] : Fin 3 → IVec S16 32) a x).toNat < S16x8x64.size a := fun v671 v675 v678 v760 k0_hw81 => k0_hw81.2

def k0_chk82 (v671 : IVec S16 32) (v675 : IVec S16 32) (v678 : IVec S16 32) (v765 : IVec S16 32) : Prop :=
  (∀ a x, ((![v678, v671, v765] : Fin 3 → IVec S16 32) a x).toNat < S16x8x64.size a) ∧
  (∀ a x, ((![v678, v675, v765] : Fin 3 → IVec S16 32) a x).toNat < S16x8x64.size a)
instance k0_chk82.dec : ∀ (v671 : IVec S16 32) (v675 : IVec S16 32) (v678 : IVec S16 32) (v765 : IVec S16 32), Decidable (k0_chk82 v671 v675 v678 v765) := fun v671 v675 v678 v765 => decidable_of_iff' _ (Iff.of_eq (k0_chk82.eq_1 v671 v675 v678 v765))
theorem k0_idx35_inb : ∀ (v671 : IVec S16 32) (v675 : IVec S16 32) (v678 : IVec S16 32) (v765 : IVec S16 32) (k0_hw82 : k0_chk82 v671 v675 v678 v765), ∀ a x, ((![v678, v671, v765] : Fin 3 → IVec S16 32) a x).toNat < S16x8x64.size a := fun v671 v675 v678 v765 k0_hw82 => k0_hw82.1
theorem k0_idx36_inb : ∀ (v671 : IVec S16 32) (v675 : IVec S16 32) (v678 : IVec S16 32) (v765 : IVec S16 32) (k0_hw82 : k0_chk82 v671 v675 v678 v765), ∀ a x, ((![v678, v675, v765] : Fin 3 → IVec S16 32) a x).toNat < S16x8x64.size a := fun v671 v675 v678 v765 k0_hw82 => k0_hw82.2

def k0_chk83 (v671 : IVec S16 32) (v675 : IVec S16 32) (v678 : IVec S16 32) (v770 : IVec S16 32) : Prop :=
  (∀ a x, ((![v678, v671, v770] : Fin 3 → IVec S16 32) a x).toNat < S16x8x64.size a) ∧
  (∀ a x, ((![v678, v675, v770] : Fin 3 → IVec S16 32) a x).toNat < S16x8x64.size a)
instance k0_chk83.dec : ∀ (v671 : IVec S16 32) (v675 : IVec S16 32) (v678 : IVec S16 32) (v770 : IVec S16 32), Decidable (k0_chk83 v671 v675 v678 v770) := fun v671 v675 v678 v770 => decidable_of_iff' _ (Iff.of_eq (k0_chk83.eq_1 v671 v675 v678 v770))
theorem k0_idx37_inb : ∀ (v671 : IVec S16 32) (v675 : IVec S16 32) (v678 : IVec S16 32) (v770 : IVec S16 32) (k0_hw83 : k0_chk83 v671 v675 v678 v770), ∀ a x, ((![v678, v671, v770] : Fin 3 → IVec S16 32) a x).toNat < S16x8x64.size a := fun v671 v675 v678 v770 k0_hw83 => k0_hw83.1
theorem k0_idx38_inb : ∀ (v671 : IVec S16 32) (v675 : IVec S16 32) (v678 : IVec S16 32) (v770 : IVec S16 32) (k0_hw83 : k0_chk83 v671 v675 v678 v770), ∀ a x, ((![v678, v675, v770] : Fin 3 → IVec S16 32) a x).toNat < S16x8x64.size a := fun v671 v675 v678 v770 k0_hw83 => k0_hw83.2

def k0_chk84 (v671 : IVec S16 32) (v675 : IVec S16 32) (v678 : IVec S16 32) (v775 : IVec S16 32) : Prop :=
  (∀ a x, ((![v678, v671, v775] : Fin 3 → IVec S16 32) a x).toNat < S16x8x64.size a) ∧
  (∀ a x, ((![v678, v675, v775] : Fin 3 → IVec S16 32) a x).toNat < S16x8x64.size a)
instance k0_chk84.dec : ∀ (v671 : IVec S16 32) (v675 : IVec S16 32) (v678 : IVec S16 32) (v775 : IVec S16 32), Decidable (k0_chk84 v671 v675 v678 v775) := fun v671 v675 v678 v775 => decidable_of_iff' _ (Iff.of_eq (k0_chk84.eq_1 v671 v675 v678 v775))
theorem k0_idx39_inb : ∀ (v671 : IVec S16 32) (v675 : IVec S16 32) (v678 : IVec S16 32) (v775 : IVec S16 32) (k0_hw84 : k0_chk84 v671 v675 v678 v775), ∀ a x, ((![v678, v671, v775] : Fin 3 → IVec S16 32) a x).toNat < S16x8x64.size a := fun v671 v675 v678 v775 k0_hw84 => k0_hw84.1
theorem k0_idx40_inb : ∀ (v671 : IVec S16 32) (v675 : IVec S16 32) (v678 : IVec S16 32) (v775 : IVec S16 32) (k0_hw84 : k0_chk84 v671 v675 v678 v775), ∀ a x, ((![v678, v675, v775] : Fin 3 → IVec S16 32) a x).toNat < S16x8x64.size a := fun v671 v675 v678 v775 k0_hw84 => k0_hw84.2

def k0_chk85 (v671 : IVec S16 32) (v675 : IVec S16 32) (v678 : IVec S16 32) (v780 : IVec S16 32) : Prop :=
  (∀ a x, ((![v678, v671, v780] : Fin 3 → IVec S16 32) a x).toNat < S16x8x64.size a) ∧
  (∀ a x, ((![v678, v675, v780] : Fin 3 → IVec S16 32) a x).toNat < S16x8x64.size a)
instance k0_chk85.dec : ∀ (v671 : IVec S16 32) (v675 : IVec S16 32) (v678 : IVec S16 32) (v780 : IVec S16 32), Decidable (k0_chk85 v671 v675 v678 v780) := fun v671 v675 v678 v780 => decidable_of_iff' _ (Iff.of_eq (k0_chk85.eq_1 v671 v675 v678 v780))
theorem k0_idx41_inb : ∀ (v671 : IVec S16 32) (v675 : IVec S16 32) (v678 : IVec S16 32) (v780 : IVec S16 32) (k0_hw85 : k0_chk85 v671 v675 v678 v780), ∀ a x, ((![v678, v671, v780] : Fin 3 → IVec S16 32) a x).toNat < S16x8x64.size a := fun v671 v675 v678 v780 k0_hw85 => k0_hw85.1
theorem k0_idx42_inb : ∀ (v671 : IVec S16 32) (v675 : IVec S16 32) (v678 : IVec S16 32) (v780 : IVec S16 32) (k0_hw85 : k0_chk85 v671 v675 v678 v780), ∀ a x, ((![v678, v675, v780] : Fin 3 → IVec S16 32) a x).toNat < S16x8x64.size a := fun v671 v675 v678 v780 k0_hw85 => k0_hw85.2

def k0_chk86 (v671 : IVec S16 32) (v675 : IVec S16 32) (v678 : IVec S16 32) (v785 : IVec S16 32) : Prop :=
  (∀ a x, ((![v678, v671, v785] : Fin 3 → IVec S16 32) a x).toNat < S16x8x64.size a) ∧
  (∀ a x, ((![v678, v675, v785] : Fin 3 → IVec S16 32) a x).toNat < S16x8x64.size a)
instance k0_chk86.dec : ∀ (v671 : IVec S16 32) (v675 : IVec S16 32) (v678 : IVec S16 32) (v785 : IVec S16 32), Decidable (k0_chk86 v671 v675 v678 v785) := fun v671 v675 v678 v785 => decidable_of_iff' _ (Iff.of_eq (k0_chk86.eq_1 v671 v675 v678 v785))
theorem k0_idx43_inb : ∀ (v671 : IVec S16 32) (v675 : IVec S16 32) (v678 : IVec S16 32) (v785 : IVec S16 32) (k0_hw86 : k0_chk86 v671 v675 v678 v785), ∀ a x, ((![v678, v671, v785] : Fin 3 → IVec S16 32) a x).toNat < S16x8x64.size a := fun v671 v675 v678 v785 k0_hw86 => k0_hw86.1
theorem k0_idx44_inb : ∀ (v671 : IVec S16 32) (v675 : IVec S16 32) (v678 : IVec S16 32) (v785 : IVec S16 32) (k0_hw86 : k0_chk86 v671 v675 v678 v785), ∀ a x, ((![v678, v675, v785] : Fin 3 → IVec S16 32) a x).toNat < S16x8x64.size a := fun v671 v675 v678 v785 k0_hw86 => k0_hw86.2

def k0_chk87 (v671 : IVec S16 32) (v675 : IVec S16 32) (v678 : IVec S16 32) (v790 : IVec S16 32) : Prop :=
  (∀ a x, ((![v678, v671, v790] : Fin 3 → IVec S16 32) a x).toNat < S16x8x64.size a) ∧
  (∀ a x, ((![v678, v675, v790] : Fin 3 → IVec S16 32) a x).toNat < S16x8x64.size a)
instance k0_chk87.dec : ∀ (v671 : IVec S16 32) (v675 : IVec S16 32) (v678 : IVec S16 32) (v790 : IVec S16 32), Decidable (k0_chk87 v671 v675 v678 v790) := fun v671 v675 v678 v790 => decidable_of_iff' _ (Iff.of_eq (k0_chk87.eq_1 v671 v675 v678 v790))
theorem k0_idx45_inb : ∀ (v671 : IVec S16 32) (v675 : IVec S16 32) (v678 : IVec S16 32) (v790 : IVec S16 32) (k0_hw87 : k0_chk87 v671 v675 v678 v790), ∀ a x, ((![v678, v671, v790] : Fin 3 → IVec S16 32) a x).toNat < S16x8x64.size a := fun v671 v675 v678 v790 k0_hw87 => k0_hw87.1
theorem k0_idx46_inb : ∀ (v671 : IVec S16 32) (v675 : IVec S16 32) (v678 : IVec S16 32) (v790 : IVec S16 32) (k0_hw87 : k0_chk87 v671 v675 v678 v790), ∀ a x, ((![v678, v675, v790] : Fin 3 → IVec S16 32) a x).toNat < S16x8x64.size a := fun v671 v675 v678 v790 k0_hw87 => k0_hw87.2

def k0_chk88 (v671 : IVec S16 32) (v675 : IVec S16 32) (v678 : IVec S16 32) (v795 : IVec S16 32) : Prop :=
  (∀ a x, ((![v678, v671, v795] : Fin 3 → IVec S16 32) a x).toNat < S16x8x64.size a) ∧
  (∀ a x, ((![v678, v675, v795] : Fin 3 → IVec S16 32) a x).toNat < S16x8x64.size a)
instance k0_chk88.dec : ∀ (v671 : IVec S16 32) (v675 : IVec S16 32) (v678 : IVec S16 32) (v795 : IVec S16 32), Decidable (k0_chk88 v671 v675 v678 v795) := fun v671 v675 v678 v795 => decidable_of_iff' _ (Iff.of_eq (k0_chk88.eq_1 v671 v675 v678 v795))
theorem k0_idx47_inb : ∀ (v671 : IVec S16 32) (v675 : IVec S16 32) (v678 : IVec S16 32) (v795 : IVec S16 32) (k0_hw88 : k0_chk88 v671 v675 v678 v795), ∀ a x, ((![v678, v671, v795] : Fin 3 → IVec S16 32) a x).toNat < S16x8x64.size a := fun v671 v675 v678 v795 k0_hw88 => k0_hw88.1
theorem k0_idx48_inb : ∀ (v671 : IVec S16 32) (v675 : IVec S16 32) (v678 : IVec S16 32) (v795 : IVec S16 32) (k0_hw88 : k0_chk88 v671 v675 v678 v795), ∀ a x, ((![v678, v675, v795] : Fin 3 → IVec S16 32) a x).toNat < S16x8x64.size a := fun v671 v675 v678 v795 k0_hw88 => k0_hw88.2

def k0_chk89 (v671 : IVec S16 32) (v675 : IVec S16 32) (v678 : IVec S16 32) (v800 : IVec S16 32) : Prop :=
  (∀ a x, ((![v678, v671, v800] : Fin 3 → IVec S16 32) a x).toNat < S16x8x64.size a) ∧
  (∀ a x, ((![v678, v675, v800] : Fin 3 → IVec S16 32) a x).toNat < S16x8x64.size a)
instance k0_chk89.dec : ∀ (v671 : IVec S16 32) (v675 : IVec S16 32) (v678 : IVec S16 32) (v800 : IVec S16 32), Decidable (k0_chk89 v671 v675 v678 v800) := fun v671 v675 v678 v800 => decidable_of_iff' _ (Iff.of_eq (k0_chk89.eq_1 v671 v675 v678 v800))
theorem k0_idx49_inb : ∀ (v671 : IVec S16 32) (v675 : IVec S16 32) (v678 : IVec S16 32) (v800 : IVec S16 32) (k0_hw89 : k0_chk89 v671 v675 v678 v800), ∀ a x, ((![v678, v671, v800] : Fin 3 → IVec S16 32) a x).toNat < S16x8x64.size a := fun v671 v675 v678 v800 k0_hw89 => k0_hw89.1
theorem k0_idx50_inb : ∀ (v671 : IVec S16 32) (v675 : IVec S16 32) (v678 : IVec S16 32) (v800 : IVec S16 32) (k0_hw89 : k0_chk89 v671 v675 v678 v800), ∀ a x, ((![v678, v675, v800] : Fin 3 → IVec S16 32) a x).toNat < S16x8x64.size a := fun v671 v675 v678 v800 k0_hw89 => k0_hw89.2

def k0_chk90 (v671 : IVec S16 32) (v675 : IVec S16 32) (v678 : IVec S16 32) (v805 : IVec S16 32) : Prop :=
  (∀ a x, ((![v678, v671, v805] : Fin 3 → IVec S16 32) a x).toNat < S16x8x64.size a) ∧
  (∀ a x, ((![v678, v675, v805] : Fin 3 → IVec S16 32) a x).toNat < S16x8x64.size a)
instance k0_chk90.dec : ∀ (v671 : IVec S16 32) (v675 : IVec S16 32) (v678 : IVec S16 32) (v805 : IVec S16 32), Decidable (k0_chk90 v671 v675 v678 v805) := fun v671 v675 v678 v805 => decidable_of_iff' _ (Iff.of_eq (k0_chk90.eq_1 v671 v675 v678 v805))
theorem k0_idx51_inb : ∀ (v671 : IVec S16 32) (v675 : IVec S16 32) (v678 : IVec S16 32) (v805 : IVec S16 32) (k0_hw90 : k0_chk90 v671 v675 v678 v805), ∀ a x, ((![v678, v671, v805] : Fin 3 → IVec S16 32) a x).toNat < S16x8x64.size a := fun v671 v675 v678 v805 k0_hw90 => k0_hw90.1
theorem k0_idx52_inb : ∀ (v671 : IVec S16 32) (v675 : IVec S16 32) (v678 : IVec S16 32) (v805 : IVec S16 32) (k0_hw90 : k0_chk90 v671 v675 v678 v805), ∀ a x, ((![v678, v675, v805] : Fin 3 → IVec S16 32) a x).toNat < S16x8x64.size a := fun v671 v675 v678 v805 k0_hw90 => k0_hw90.2

def k0_chk91 (v671 : IVec S16 32) (v675 : IVec S16 32) (v678 : IVec S16 32) (v810 : IVec S16 32) : Prop :=
  (∀ a x, ((![v678, v671, v810] : Fin 3 → IVec S16 32) a x).toNat < S16x8x64.size a) ∧
  (∀ a x, ((![v678, v675, v810] : Fin 3 → IVec S16 32) a x).toNat < S16x8x64.size a)
instance k0_chk91.dec : ∀ (v671 : IVec S16 32) (v675 : IVec S16 32) (v678 : IVec S16 32) (v810 : IVec S16 32), Decidable (k0_chk91 v671 v675 v678 v810) := fun v671 v675 v678 v810 => decidable_of_iff' _ (Iff.of_eq (k0_chk91.eq_1 v671 v675 v678 v810))
theorem k0_idx53_inb : ∀ (v671 : IVec S16 32) (v675 : IVec S16 32) (v678 : IVec S16 32) (v810 : IVec S16 32) (k0_hw91 : k0_chk91 v671 v675 v678 v810), ∀ a x, ((![v678, v671, v810] : Fin 3 → IVec S16 32) a x).toNat < S16x8x64.size a := fun v671 v675 v678 v810 k0_hw91 => k0_hw91.1
theorem k0_idx54_inb : ∀ (v671 : IVec S16 32) (v675 : IVec S16 32) (v678 : IVec S16 32) (v810 : IVec S16 32) (k0_hw91 : k0_chk91 v671 v675 v678 v810), ∀ a x, ((![v678, v675, v810] : Fin 3 → IVec S16 32) a x).toNat < S16x8x64.size a := fun v671 v675 v678 v810 k0_hw91 => k0_hw91.2

def k0_chk92 (v671 : IVec S16 32) (v675 : IVec S16 32) (v678 : IVec S16 32) (v815 : IVec S16 32) : Prop :=
  (∀ a x, ((![v678, v671, v815] : Fin 3 → IVec S16 32) a x).toNat < S16x8x64.size a) ∧
  (∀ a x, ((![v678, v675, v815] : Fin 3 → IVec S16 32) a x).toNat < S16x8x64.size a)
instance k0_chk92.dec : ∀ (v671 : IVec S16 32) (v675 : IVec S16 32) (v678 : IVec S16 32) (v815 : IVec S16 32), Decidable (k0_chk92 v671 v675 v678 v815) := fun v671 v675 v678 v815 => decidable_of_iff' _ (Iff.of_eq (k0_chk92.eq_1 v671 v675 v678 v815))
theorem k0_idx55_inb : ∀ (v671 : IVec S16 32) (v675 : IVec S16 32) (v678 : IVec S16 32) (v815 : IVec S16 32) (k0_hw92 : k0_chk92 v671 v675 v678 v815), ∀ a x, ((![v678, v671, v815] : Fin 3 → IVec S16 32) a x).toNat < S16x8x64.size a := fun v671 v675 v678 v815 k0_hw92 => k0_hw92.1
theorem k0_idx56_inb : ∀ (v671 : IVec S16 32) (v675 : IVec S16 32) (v678 : IVec S16 32) (v815 : IVec S16 32) (k0_hw92 : k0_chk92 v671 v675 v678 v815), ∀ a x, ((![v678, v675, v815] : Fin 3 → IVec S16 32) a x).toNat < S16x8x64.size a := fun v671 v675 v678 v815 k0_hw92 => k0_hw92.2

def k0_chk93 (v671 : IVec S16 32) (v675 : IVec S16 32) (v678 : IVec S16 32) (v820 : IVec S16 32) : Prop :=
  (∀ a x, ((![v678, v671, v820] : Fin 3 → IVec S16 32) a x).toNat < S16x8x64.size a) ∧
  (∀ a x, ((![v678, v675, v820] : Fin 3 → IVec S16 32) a x).toNat < S16x8x64.size a)
instance k0_chk93.dec : ∀ (v671 : IVec S16 32) (v675 : IVec S16 32) (v678 : IVec S16 32) (v820 : IVec S16 32), Decidable (k0_chk93 v671 v675 v678 v820) := fun v671 v675 v678 v820 => decidable_of_iff' _ (Iff.of_eq (k0_chk93.eq_1 v671 v675 v678 v820))
theorem k0_idx57_inb : ∀ (v671 : IVec S16 32) (v675 : IVec S16 32) (v678 : IVec S16 32) (v820 : IVec S16 32) (k0_hw93 : k0_chk93 v671 v675 v678 v820), ∀ a x, ((![v678, v671, v820] : Fin 3 → IVec S16 32) a x).toNat < S16x8x64.size a := fun v671 v675 v678 v820 k0_hw93 => k0_hw93.1
theorem k0_idx58_inb : ∀ (v671 : IVec S16 32) (v675 : IVec S16 32) (v678 : IVec S16 32) (v820 : IVec S16 32) (k0_hw93 : k0_chk93 v671 v675 v678 v820), ∀ a x, ((![v678, v675, v820] : Fin 3 → IVec S16 32) a x).toNat < S16x8x64.size a := fun v671 v675 v678 v820 k0_hw93 => k0_hw93.2

def k0_chk94 (v671 : IVec S16 32) (v675 : IVec S16 32) (v678 : IVec S16 32) (v825 : IVec S16 32) : Prop :=
  (∀ a x, ((![v678, v671, v825] : Fin 3 → IVec S16 32) a x).toNat < S16x8x64.size a) ∧
  (∀ a x, ((![v678, v675, v825] : Fin 3 → IVec S16 32) a x).toNat < S16x8x64.size a)
instance k0_chk94.dec : ∀ (v671 : IVec S16 32) (v675 : IVec S16 32) (v678 : IVec S16 32) (v825 : IVec S16 32), Decidable (k0_chk94 v671 v675 v678 v825) := fun v671 v675 v678 v825 => decidable_of_iff' _ (Iff.of_eq (k0_chk94.eq_1 v671 v675 v678 v825))
theorem k0_idx59_inb : ∀ (v671 : IVec S16 32) (v675 : IVec S16 32) (v678 : IVec S16 32) (v825 : IVec S16 32) (k0_hw94 : k0_chk94 v671 v675 v678 v825), ∀ a x, ((![v678, v671, v825] : Fin 3 → IVec S16 32) a x).toNat < S16x8x64.size a := fun v671 v675 v678 v825 k0_hw94 => k0_hw94.1
theorem k0_idx60_inb : ∀ (v671 : IVec S16 32) (v675 : IVec S16 32) (v678 : IVec S16 32) (v825 : IVec S16 32) (k0_hw94 : k0_chk94 v671 v675 v678 v825), ∀ a x, ((![v678, v675, v825] : Fin 3 → IVec S16 32) a x).toNat < S16x8x64.size a := fun v671 v675 v678 v825 k0_hw94 => k0_hw94.2

def k0_chk95 (v671 : IVec S16 32) (v675 : IVec S16 32) (v678 : IVec S16 32) (v830 : IVec S16 32) : Prop :=
  (∀ a x, ((![v678, v671, v830] : Fin 3 → IVec S16 32) a x).toNat < S16x8x64.size a) ∧
  (∀ a x, ((![v678, v675, v830] : Fin 3 → IVec S16 32) a x).toNat < S16x8x64.size a)
instance k0_chk95.dec : ∀ (v671 : IVec S16 32) (v675 : IVec S16 32) (v678 : IVec S16 32) (v830 : IVec S16 32), Decidable (k0_chk95 v671 v675 v678 v830) := fun v671 v675 v678 v830 => decidable_of_iff' _ (Iff.of_eq (k0_chk95.eq_1 v671 v675 v678 v830))
theorem k0_idx61_inb : ∀ (v671 : IVec S16 32) (v675 : IVec S16 32) (v678 : IVec S16 32) (v830 : IVec S16 32) (k0_hw95 : k0_chk95 v671 v675 v678 v830), ∀ a x, ((![v678, v671, v830] : Fin 3 → IVec S16 32) a x).toNat < S16x8x64.size a := fun v671 v675 v678 v830 k0_hw95 => k0_hw95.1
theorem k0_idx62_inb : ∀ (v671 : IVec S16 32) (v675 : IVec S16 32) (v678 : IVec S16 32) (v830 : IVec S16 32) (k0_hw95 : k0_chk95 v671 v675 v678 v830), ∀ a x, ((![v678, v675, v830] : Fin 3 → IVec S16 32) a x).toNat < S16x8x64.size a := fun v671 v675 v678 v830 k0_hw95 => k0_hw95.2

def k0_chk96 (v671 : IVec S16 32) (v675 : IVec S16 32) (v678 : IVec S16 32) (v835 : IVec S16 32) : Prop :=
  (∀ a x, ((![v678, v671, v835] : Fin 3 → IVec S16 32) a x).toNat < S16x8x64.size a) ∧
  (∀ a x, ((![v678, v675, v835] : Fin 3 → IVec S16 32) a x).toNat < S16x8x64.size a)
instance k0_chk96.dec : ∀ (v671 : IVec S16 32) (v675 : IVec S16 32) (v678 : IVec S16 32) (v835 : IVec S16 32), Decidable (k0_chk96 v671 v675 v678 v835) := fun v671 v675 v678 v835 => decidable_of_iff' _ (Iff.of_eq (k0_chk96.eq_1 v671 v675 v678 v835))
theorem k0_idx63_inb : ∀ (v671 : IVec S16 32) (v675 : IVec S16 32) (v678 : IVec S16 32) (v835 : IVec S16 32) (k0_hw96 : k0_chk96 v671 v675 v678 v835), ∀ a x, ((![v678, v671, v835] : Fin 3 → IVec S16 32) a x).toNat < S16x8x64.size a := fun v671 v675 v678 v835 k0_hw96 => k0_hw96.1
theorem k0_idx64_inb : ∀ (v671 : IVec S16 32) (v675 : IVec S16 32) (v678 : IVec S16 32) (v835 : IVec S16 32) (k0_hw96 : k0_chk96 v671 v675 v678 v835), ∀ a x, ((![v678, v675, v835] : Fin 3 → IVec S16 32) a x).toNat < S16x8x64.size a := fun v671 v675 v678 v835 k0_hw96 => k0_hw96.2

def k0_chk97 (v671 : IVec S16 32) (v675 : IVec S16 32) (v678 : IVec S16 32) (v840 : IVec S16 32) : Prop :=
  (∀ a x, ((![v678, v671, v840] : Fin 3 → IVec S16 32) a x).toNat < S16x8x64.size a) ∧
  (∀ a x, ((![v678, v675, v840] : Fin 3 → IVec S16 32) a x).toNat < S16x8x64.size a)
instance k0_chk97.dec : ∀ (v671 : IVec S16 32) (v675 : IVec S16 32) (v678 : IVec S16 32) (v840 : IVec S16 32), Decidable (k0_chk97 v671 v675 v678 v840) := fun v671 v675 v678 v840 => decidable_of_iff' _ (Iff.of_eq (k0_chk97.eq_1 v671 v675 v678 v840))
theorem k0_idx65_inb : ∀ (v671 : IVec S16 32) (v675 : IVec S16 32) (v678 : IVec S16 32) (v840 : IVec S16 32) (k0_hw97 : k0_chk97 v671 v675 v678 v840), ∀ a x, ((![v678, v671, v840] : Fin 3 → IVec S16 32) a x).toNat < S16x8x64.size a := fun v671 v675 v678 v840 k0_hw97 => k0_hw97.1
theorem k0_idx66_inb : ∀ (v671 : IVec S16 32) (v675 : IVec S16 32) (v678 : IVec S16 32) (v840 : IVec S16 32) (k0_hw97 : k0_chk97 v671 v675 v678 v840), ∀ a x, ((![v678, v675, v840] : Fin 3 → IVec S16 32) a x).toNat < S16x8x64.size a := fun v671 v675 v678 v840 k0_hw97 => k0_hw97.2

def k0_chk98 (v671 : IVec S16 32) (v675 : IVec S16 32) (v678 : IVec S16 32) (v845 : IVec S16 32) : Prop :=
  (∀ a x, ((![v678, v671, v845] : Fin 3 → IVec S16 32) a x).toNat < S16x8x64.size a) ∧
  (∀ a x, ((![v678, v675, v845] : Fin 3 → IVec S16 32) a x).toNat < S16x8x64.size a)
instance k0_chk98.dec : ∀ (v671 : IVec S16 32) (v675 : IVec S16 32) (v678 : IVec S16 32) (v845 : IVec S16 32), Decidable (k0_chk98 v671 v675 v678 v845) := fun v671 v675 v678 v845 => decidable_of_iff' _ (Iff.of_eq (k0_chk98.eq_1 v671 v675 v678 v845))
theorem k0_idx67_inb : ∀ (v671 : IVec S16 32) (v675 : IVec S16 32) (v678 : IVec S16 32) (v845 : IVec S16 32) (k0_hw98 : k0_chk98 v671 v675 v678 v845), ∀ a x, ((![v678, v671, v845] : Fin 3 → IVec S16 32) a x).toNat < S16x8x64.size a := fun v671 v675 v678 v845 k0_hw98 => k0_hw98.1
theorem k0_idx68_inb : ∀ (v671 : IVec S16 32) (v675 : IVec S16 32) (v678 : IVec S16 32) (v845 : IVec S16 32) (k0_hw98 : k0_chk98 v671 v675 v678 v845), ∀ a x, ((![v678, v675, v845] : Fin 3 → IVec S16 32) a x).toNat < S16x8x64.size a := fun v671 v675 v678 v845 k0_hw98 => k0_hw98.2

def k0_chk99 (v671 : IVec S16 32) (v675 : IVec S16 32) (v678 : IVec S16 32) (v850 : IVec S16 32) : Prop :=
  (∀ a x, ((![v678, v671, v850] : Fin 3 → IVec S16 32) a x).toNat < S16x8x64.size a) ∧
  (∀ a x, ((![v678, v675, v850] : Fin 3 → IVec S16 32) a x).toNat < S16x8x64.size a)
instance k0_chk99.dec : ∀ (v671 : IVec S16 32) (v675 : IVec S16 32) (v678 : IVec S16 32) (v850 : IVec S16 32), Decidable (k0_chk99 v671 v675 v678 v850) := fun v671 v675 v678 v850 => decidable_of_iff' _ (Iff.of_eq (k0_chk99.eq_1 v671 v675 v678 v850))
theorem k0_idx69_inb : ∀ (v671 : IVec S16 32) (v675 : IVec S16 32) (v678 : IVec S16 32) (v850 : IVec S16 32) (k0_hw99 : k0_chk99 v671 v675 v678 v850), ∀ a x, ((![v678, v671, v850] : Fin 3 → IVec S16 32) a x).toNat < S16x8x64.size a := fun v671 v675 v678 v850 k0_hw99 => k0_hw99.1
theorem k0_idx70_inb : ∀ (v671 : IVec S16 32) (v675 : IVec S16 32) (v678 : IVec S16 32) (v850 : IVec S16 32) (k0_hw99 : k0_chk99 v671 v675 v678 v850), ∀ a x, ((![v678, v675, v850] : Fin 3 → IVec S16 32) a x).toNat < S16x8x64.size a := fun v671 v675 v678 v850 k0_hw99 => k0_hw99.2

def k0_chk100 (v671 : IVec S16 32) (v675 : IVec S16 32) (v678 : IVec S16 32) (v855 : IVec S16 32) : Prop :=
  (∀ a x, ((![v678, v671, v855] : Fin 3 → IVec S16 32) a x).toNat < S16x8x64.size a) ∧
  (∀ a x, ((![v678, v675, v855] : Fin 3 → IVec S16 32) a x).toNat < S16x8x64.size a)
instance k0_chk100.dec : ∀ (v671 : IVec S16 32) (v675 : IVec S16 32) (v678 : IVec S16 32) (v855 : IVec S16 32), Decidable (k0_chk100 v671 v675 v678 v855) := fun v671 v675 v678 v855 => decidable_of_iff' _ (Iff.of_eq (k0_chk100.eq_1 v671 v675 v678 v855))
theorem k0_idx71_inb : ∀ (v671 : IVec S16 32) (v675 : IVec S16 32) (v678 : IVec S16 32) (v855 : IVec S16 32) (k0_hw100 : k0_chk100 v671 v675 v678 v855), ∀ a x, ((![v678, v671, v855] : Fin 3 → IVec S16 32) a x).toNat < S16x8x64.size a := fun v671 v675 v678 v855 k0_hw100 => k0_hw100.1
theorem k0_idx72_inb : ∀ (v671 : IVec S16 32) (v675 : IVec S16 32) (v678 : IVec S16 32) (v855 : IVec S16 32) (k0_hw100 : k0_chk100 v671 v675 v678 v855), ∀ a x, ((![v678, v675, v855] : Fin 3 → IVec S16 32) a x).toNat < S16x8x64.size a := fun v671 v675 v678 v855 k0_hw100 => k0_hw100.2

def k0_chk101 (v671 : IVec S16 32) (v675 : IVec S16 32) (v678 : IVec S16 32) (v860 : IVec S16 32) : Prop :=
  (∀ a x, ((![v678, v671, v860] : Fin 3 → IVec S16 32) a x).toNat < S16x8x64.size a) ∧
  (∀ a x, ((![v678, v675, v860] : Fin 3 → IVec S16 32) a x).toNat < S16x8x64.size a)
instance k0_chk101.dec : ∀ (v671 : IVec S16 32) (v675 : IVec S16 32) (v678 : IVec S16 32) (v860 : IVec S16 32), Decidable (k0_chk101 v671 v675 v678 v860) := fun v671 v675 v678 v860 => decidable_of_iff' _ (Iff.of_eq (k0_chk101.eq_1 v671 v675 v678 v860))
theorem k0_idx73_inb : ∀ (v671 : IVec S16 32) (v675 : IVec S16 32) (v678 : IVec S16 32) (v860 : IVec S16 32) (k0_hw101 : k0_chk101 v671 v675 v678 v860), ∀ a x, ((![v678, v671, v860] : Fin 3 → IVec S16 32) a x).toNat < S16x8x64.size a := fun v671 v675 v678 v860 k0_hw101 => k0_hw101.1
theorem k0_idx74_inb : ∀ (v671 : IVec S16 32) (v675 : IVec S16 32) (v678 : IVec S16 32) (v860 : IVec S16 32) (k0_hw101 : k0_chk101 v671 v675 v678 v860), ∀ a x, ((![v678, v675, v860] : Fin 3 → IVec S16 32) a x).toNat < S16x8x64.size a := fun v671 v675 v678 v860 k0_hw101 => k0_hw101.2

def k0_chk102 (v671 : IVec S16 32) (v675 : IVec S16 32) (v678 : IVec S16 32) (v865 : IVec S16 32) : Prop :=
  (∀ a x, ((![v678, v671, v865] : Fin 3 → IVec S16 32) a x).toNat < S16x8x64.size a) ∧
  (∀ a x, ((![v678, v675, v865] : Fin 3 → IVec S16 32) a x).toNat < S16x8x64.size a)
instance k0_chk102.dec : ∀ (v671 : IVec S16 32) (v675 : IVec S16 32) (v678 : IVec S16 32) (v865 : IVec S16 32), Decidable (k0_chk102 v671 v675 v678 v865) := fun v671 v675 v678 v865 => decidable_of_iff' _ (Iff.of_eq (k0_chk102.eq_1 v671 v675 v678 v865))
theorem k0_idx75_inb : ∀ (v671 : IVec S16 32) (v675 : IVec S16 32) (v678 : IVec S16 32) (v865 : IVec S16 32) (k0_hw102 : k0_chk102 v671 v675 v678 v865), ∀ a x, ((![v678, v671, v865] : Fin 3 → IVec S16 32) a x).toNat < S16x8x64.size a := fun v671 v675 v678 v865 k0_hw102 => k0_hw102.1
theorem k0_idx76_inb : ∀ (v671 : IVec S16 32) (v675 : IVec S16 32) (v678 : IVec S16 32) (v865 : IVec S16 32) (k0_hw102 : k0_chk102 v671 v675 v678 v865), ∀ a x, ((![v678, v675, v865] : Fin 3 → IVec S16 32) a x).toNat < S16x8x64.size a := fun v671 v675 v678 v865 k0_hw102 => k0_hw102.2

def k0_chk103 (v671 : IVec S16 32) (v675 : IVec S16 32) (v678 : IVec S16 32) (v870 : IVec S16 32) : Prop :=
  (∀ a x, ((![v678, v671, v870] : Fin 3 → IVec S16 32) a x).toNat < S16x8x64.size a) ∧
  (∀ a x, ((![v678, v675, v870] : Fin 3 → IVec S16 32) a x).toNat < S16x8x64.size a)
instance k0_chk103.dec : ∀ (v671 : IVec S16 32) (v675 : IVec S16 32) (v678 : IVec S16 32) (v870 : IVec S16 32), Decidable (k0_chk103 v671 v675 v678 v870) := fun v671 v675 v678 v870 => decidable_of_iff' _ (Iff.of_eq (k0_chk103.eq_1 v671 v675 v678 v870))
theorem k0_idx77_inb : ∀ (v671 : IVec S16 32) (v675 : IVec S16 32) (v678 : IVec S16 32) (v870 : IVec S16 32) (k0_hw103 : k0_chk103 v671 v675 v678 v870), ∀ a x, ((![v678, v671, v870] : Fin 3 → IVec S16 32) a x).toNat < S16x8x64.size a := fun v671 v675 v678 v870 k0_hw103 => k0_hw103.1
theorem k0_idx78_inb : ∀ (v671 : IVec S16 32) (v675 : IVec S16 32) (v678 : IVec S16 32) (v870 : IVec S16 32) (k0_hw103 : k0_chk103 v671 v675 v678 v870), ∀ a x, ((![v678, v675, v870] : Fin 3 → IVec S16 32) a x).toNat < S16x8x64.size a := fun v671 v675 v678 v870 k0_hw103 => k0_hw103.2

def k0_chk104 (v671 : IVec S16 32) (v675 : IVec S16 32) (v678 : IVec S16 32) (v875 : IVec S16 32) : Prop :=
  (∀ a x, ((![v678, v671, v875] : Fin 3 → IVec S16 32) a x).toNat < S16x8x64.size a) ∧
  (∀ a x, ((![v678, v675, v875] : Fin 3 → IVec S16 32) a x).toNat < S16x8x64.size a)
instance k0_chk104.dec : ∀ (v671 : IVec S16 32) (v675 : IVec S16 32) (v678 : IVec S16 32) (v875 : IVec S16 32), Decidable (k0_chk104 v671 v675 v678 v875) := fun v671 v675 v678 v875 => decidable_of_iff' _ (Iff.of_eq (k0_chk104.eq_1 v671 v675 v678 v875))
theorem k0_idx79_inb : ∀ (v671 : IVec S16 32) (v675 : IVec S16 32) (v678 : IVec S16 32) (v875 : IVec S16 32) (k0_hw104 : k0_chk104 v671 v675 v678 v875), ∀ a x, ((![v678, v671, v875] : Fin 3 → IVec S16 32) a x).toNat < S16x8x64.size a := fun v671 v675 v678 v875 k0_hw104 => k0_hw104.1
theorem k0_idx80_inb : ∀ (v671 : IVec S16 32) (v675 : IVec S16 32) (v678 : IVec S16 32) (v875 : IVec S16 32) (k0_hw104 : k0_chk104 v671 v675 v678 v875), ∀ a x, ((![v678, v675, v875] : Fin 3 → IVec S16 32) a x).toNat < S16x8x64.size a := fun v671 v675 v678 v875 k0_hw104 => k0_hw104.2

def k0_chk105 (v671 : IVec S16 32) (v675 : IVec S16 32) (v678 : IVec S16 32) (v880 : IVec S16 32) : Prop :=
  (∀ a x, ((![v678, v671, v880] : Fin 3 → IVec S16 32) a x).toNat < S16x8x64.size a) ∧
  (∀ a x, ((![v678, v675, v880] : Fin 3 → IVec S16 32) a x).toNat < S16x8x64.size a)
instance k0_chk105.dec : ∀ (v671 : IVec S16 32) (v675 : IVec S16 32) (v678 : IVec S16 32) (v880 : IVec S16 32), Decidable (k0_chk105 v671 v675 v678 v880) := fun v671 v675 v678 v880 => decidable_of_iff' _ (Iff.of_eq (k0_chk105.eq_1 v671 v675 v678 v880))
theorem k0_idx81_inb : ∀ (v671 : IVec S16 32) (v675 : IVec S16 32) (v678 : IVec S16 32) (v880 : IVec S16 32) (k0_hw105 : k0_chk105 v671 v675 v678 v880), ∀ a x, ((![v678, v671, v880] : Fin 3 → IVec S16 32) a x).toNat < S16x8x64.size a := fun v671 v675 v678 v880 k0_hw105 => k0_hw105.1
theorem k0_idx82_inb : ∀ (v671 : IVec S16 32) (v675 : IVec S16 32) (v678 : IVec S16 32) (v880 : IVec S16 32) (k0_hw105 : k0_chk105 v671 v675 v678 v880), ∀ a x, ((![v678, v675, v880] : Fin 3 → IVec S16 32) a x).toNat < S16x8x64.size a := fun v671 v675 v678 v880 k0_hw105 => k0_hw105.2

def k0_chk106 (v671 : IVec S16 32) (v675 : IVec S16 32) (v678 : IVec S16 32) (v885 : IVec S16 32) : Prop :=
  (∀ a x, ((![v678, v671, v885] : Fin 3 → IVec S16 32) a x).toNat < S16x8x64.size a) ∧
  (∀ a x, ((![v678, v675, v885] : Fin 3 → IVec S16 32) a x).toNat < S16x8x64.size a)
instance k0_chk106.dec : ∀ (v671 : IVec S16 32) (v675 : IVec S16 32) (v678 : IVec S16 32) (v885 : IVec S16 32), Decidable (k0_chk106 v671 v675 v678 v885) := fun v671 v675 v678 v885 => decidable_of_iff' _ (Iff.of_eq (k0_chk106.eq_1 v671 v675 v678 v885))
theorem k0_idx83_inb : ∀ (v671 : IVec S16 32) (v675 : IVec S16 32) (v678 : IVec S16 32) (v885 : IVec S16 32) (k0_hw106 : k0_chk106 v671 v675 v678 v885), ∀ a x, ((![v678, v671, v885] : Fin 3 → IVec S16 32) a x).toNat < S16x8x64.size a := fun v671 v675 v678 v885 k0_hw106 => k0_hw106.1
theorem k0_idx84_inb : ∀ (v671 : IVec S16 32) (v675 : IVec S16 32) (v678 : IVec S16 32) (v885 : IVec S16 32) (k0_hw106 : k0_chk106 v671 v675 v678 v885), ∀ a x, ((![v678, v675, v885] : Fin 3 → IVec S16 32) a x).toNat < S16x8x64.size a := fun v671 v675 v678 v885 k0_hw106 => k0_hw106.2

def k0_chk107 (v671 : IVec S16 32) (v675 : IVec S16 32) (v678 : IVec S16 32) (v890 : IVec S16 32) : Prop :=
  (∀ a x, ((![v678, v671, v890] : Fin 3 → IVec S16 32) a x).toNat < S16x8x64.size a) ∧
  (∀ a x, ((![v678, v675, v890] : Fin 3 → IVec S16 32) a x).toNat < S16x8x64.size a)
instance k0_chk107.dec : ∀ (v671 : IVec S16 32) (v675 : IVec S16 32) (v678 : IVec S16 32) (v890 : IVec S16 32), Decidable (k0_chk107 v671 v675 v678 v890) := fun v671 v675 v678 v890 => decidable_of_iff' _ (Iff.of_eq (k0_chk107.eq_1 v671 v675 v678 v890))
theorem k0_idx85_inb : ∀ (v671 : IVec S16 32) (v675 : IVec S16 32) (v678 : IVec S16 32) (v890 : IVec S16 32) (k0_hw107 : k0_chk107 v671 v675 v678 v890), ∀ a x, ((![v678, v671, v890] : Fin 3 → IVec S16 32) a x).toNat < S16x8x64.size a := fun v671 v675 v678 v890 k0_hw107 => k0_hw107.1
theorem k0_idx86_inb : ∀ (v671 : IVec S16 32) (v675 : IVec S16 32) (v678 : IVec S16 32) (v890 : IVec S16 32) (k0_hw107 : k0_chk107 v671 v675 v678 v890), ∀ a x, ((![v678, v675, v890] : Fin 3 → IVec S16 32) a x).toNat < S16x8x64.size a := fun v671 v675 v678 v890 k0_hw107 => k0_hw107.2

def k0_chk108 (v671 : IVec S16 32) (v675 : IVec S16 32) (v678 : IVec S16 32) (v895 : IVec S16 32) : Prop :=
  (∀ a x, ((![v678, v671, v895] : Fin 3 → IVec S16 32) a x).toNat < S16x8x64.size a) ∧
  (∀ a x, ((![v678, v675, v895] : Fin 3 → IVec S16 32) a x).toNat < S16x8x64.size a)
instance k0_chk108.dec : ∀ (v671 : IVec S16 32) (v675 : IVec S16 32) (v678 : IVec S16 32) (v895 : IVec S16 32), Decidable (k0_chk108 v671 v675 v678 v895) := fun v671 v675 v678 v895 => decidable_of_iff' _ (Iff.of_eq (k0_chk108.eq_1 v671 v675 v678 v895))
theorem k0_idx87_inb : ∀ (v671 : IVec S16 32) (v675 : IVec S16 32) (v678 : IVec S16 32) (v895 : IVec S16 32) (k0_hw108 : k0_chk108 v671 v675 v678 v895), ∀ a x, ((![v678, v671, v895] : Fin 3 → IVec S16 32) a x).toNat < S16x8x64.size a := fun v671 v675 v678 v895 k0_hw108 => k0_hw108.1
theorem k0_idx88_inb : ∀ (v671 : IVec S16 32) (v675 : IVec S16 32) (v678 : IVec S16 32) (v895 : IVec S16 32) (k0_hw108 : k0_chk108 v671 v675 v678 v895), ∀ a x, ((![v678, v675, v895] : Fin 3 → IVec S16 32) a x).toNat < S16x8x64.size a := fun v671 v675 v678 v895 k0_hw108 => k0_hw108.2

def k0_chk109 (v671 : IVec S16 32) (v675 : IVec S16 32) (v678 : IVec S16 32) (v900 : IVec S16 32) : Prop :=
  (∀ a x, ((![v678, v671, v900] : Fin 3 → IVec S16 32) a x).toNat < S16x8x64.size a) ∧
  (∀ a x, ((![v678, v675, v900] : Fin 3 → IVec S16 32) a x).toNat < S16x8x64.size a)
instance k0_chk109.dec : ∀ (v671 : IVec S16 32) (v675 : IVec S16 32) (v678 : IVec S16 32) (v900 : IVec S16 32), Decidable (k0_chk109 v671 v675 v678 v900) := fun v671 v675 v678 v900 => decidable_of_iff' _ (Iff.of_eq (k0_chk109.eq_1 v671 v675 v678 v900))
theorem k0_idx89_inb : ∀ (v671 : IVec S16 32) (v675 : IVec S16 32) (v678 : IVec S16 32) (v900 : IVec S16 32) (k0_hw109 : k0_chk109 v671 v675 v678 v900), ∀ a x, ((![v678, v671, v900] : Fin 3 → IVec S16 32) a x).toNat < S16x8x64.size a := fun v671 v675 v678 v900 k0_hw109 => k0_hw109.1
theorem k0_idx90_inb : ∀ (v671 : IVec S16 32) (v675 : IVec S16 32) (v678 : IVec S16 32) (v900 : IVec S16 32) (k0_hw109 : k0_chk109 v671 v675 v678 v900), ∀ a x, ((![v678, v675, v900] : Fin 3 → IVec S16 32) a x).toNat < S16x8x64.size a := fun v671 v675 v678 v900 k0_hw109 => k0_hw109.2

def k0_chk110 (v671 : IVec S16 32) (v675 : IVec S16 32) (v678 : IVec S16 32) (v905 : IVec S16 32) : Prop :=
  (∀ a x, ((![v678, v671, v905] : Fin 3 → IVec S16 32) a x).toNat < S16x8x64.size a) ∧
  (∀ a x, ((![v678, v675, v905] : Fin 3 → IVec S16 32) a x).toNat < S16x8x64.size a)
instance k0_chk110.dec : ∀ (v671 : IVec S16 32) (v675 : IVec S16 32) (v678 : IVec S16 32) (v905 : IVec S16 32), Decidable (k0_chk110 v671 v675 v678 v905) := fun v671 v675 v678 v905 => decidable_of_iff' _ (Iff.of_eq (k0_chk110.eq_1 v671 v675 v678 v905))
theorem k0_idx91_inb : ∀ (v671 : IVec S16 32) (v675 : IVec S16 32) (v678 : IVec S16 32) (v905 : IVec S16 32) (k0_hw110 : k0_chk110 v671 v675 v678 v905), ∀ a x, ((![v678, v671, v905] : Fin 3 → IVec S16 32) a x).toNat < S16x8x64.size a := fun v671 v675 v678 v905 k0_hw110 => k0_hw110.1
theorem k0_idx92_inb : ∀ (v671 : IVec S16 32) (v675 : IVec S16 32) (v678 : IVec S16 32) (v905 : IVec S16 32) (k0_hw110 : k0_chk110 v671 v675 v678 v905), ∀ a x, ((![v678, v675, v905] : Fin 3 → IVec S16 32) a x).toNat < S16x8x64.size a := fun v671 v675 v678 v905 k0_hw110 => k0_hw110.2

def k0_chk111 (v671 : IVec S16 32) (v675 : IVec S16 32) (v678 : IVec S16 32) (v910 : IVec S16 32) : Prop :=
  (∀ a x, ((![v678, v671, v910] : Fin 3 → IVec S16 32) a x).toNat < S16x8x64.size a) ∧
  (∀ a x, ((![v678, v675, v910] : Fin 3 → IVec S16 32) a x).toNat < S16x8x64.size a)
instance k0_chk111.dec : ∀ (v671 : IVec S16 32) (v675 : IVec S16 32) (v678 : IVec S16 32) (v910 : IVec S16 32), Decidable (k0_chk111 v671 v675 v678 v910) := fun v671 v675 v678 v910 => decidable_of_iff' _ (Iff.of_eq (k0_chk111.eq_1 v671 v675 v678 v910))
theorem k0_idx93_inb : ∀ (v671 : IVec S16 32) (v675 : IVec S16 32) (v678 : IVec S16 32) (v910 : IVec S16 32) (k0_hw111 : k0_chk111 v671 v675 v678 v910), ∀ a x, ((![v678, v671, v910] : Fin 3 → IVec S16 32) a x).toNat < S16x8x64.size a := fun v671 v675 v678 v910 k0_hw111 => k0_hw111.1
theorem k0_idx94_inb : ∀ (v671 : IVec S16 32) (v675 : IVec S16 32) (v678 : IVec S16 32) (v910 : IVec S16 32) (k0_hw111 : k0_chk111 v671 v675 v678 v910), ∀ a x, ((![v678, v675, v910] : Fin 3 → IVec S16 32) a x).toNat < S16x8x64.size a := fun v671 v675 v678 v910 k0_hw111 => k0_hw111.2

def k0_chk112 (v671 : IVec S16 32) (v675 : IVec S16 32) (v678 : IVec S16 32) (v915 : IVec S16 32) : Prop :=
  (∀ a x, ((![v678, v671, v915] : Fin 3 → IVec S16 32) a x).toNat < S16x8x64.size a) ∧
  (∀ a x, ((![v678, v675, v915] : Fin 3 → IVec S16 32) a x).toNat < S16x8x64.size a)
instance k0_chk112.dec : ∀ (v671 : IVec S16 32) (v675 : IVec S16 32) (v678 : IVec S16 32) (v915 : IVec S16 32), Decidable (k0_chk112 v671 v675 v678 v915) := fun v671 v675 v678 v915 => decidable_of_iff' _ (Iff.of_eq (k0_chk112.eq_1 v671 v675 v678 v915))
theorem k0_idx95_inb : ∀ (v671 : IVec S16 32) (v675 : IVec S16 32) (v678 : IVec S16 32) (v915 : IVec S16 32) (k0_hw112 : k0_chk112 v671 v675 v678 v915), ∀ a x, ((![v678, v671, v915] : Fin 3 → IVec S16 32) a x).toNat < S16x8x64.size a := fun v671 v675 v678 v915 k0_hw112 => k0_hw112.1
theorem k0_idx96_inb : ∀ (v671 : IVec S16 32) (v675 : IVec S16 32) (v678 : IVec S16 32) (v915 : IVec S16 32) (k0_hw112 : k0_chk112 v671 v675 v678 v915), ∀ a x, ((![v678, v675, v915] : Fin 3 → IVec S16 32) a x).toNat < S16x8x64.size a := fun v671 v675 v678 v915 k0_hw112 => k0_hw112.2

def k0_chk113 (v671 : IVec S16 32) (v675 : IVec S16 32) (v678 : IVec S16 32) (v920 : IVec S16 32) : Prop :=
  (∀ a x, ((![v678, v671, v920] : Fin 3 → IVec S16 32) a x).toNat < S16x8x64.size a) ∧
  (∀ a x, ((![v678, v675, v920] : Fin 3 → IVec S16 32) a x).toNat < S16x8x64.size a)
instance k0_chk113.dec : ∀ (v671 : IVec S16 32) (v675 : IVec S16 32) (v678 : IVec S16 32) (v920 : IVec S16 32), Decidable (k0_chk113 v671 v675 v678 v920) := fun v671 v675 v678 v920 => decidable_of_iff' _ (Iff.of_eq (k0_chk113.eq_1 v671 v675 v678 v920))
theorem k0_idx97_inb : ∀ (v671 : IVec S16 32) (v675 : IVec S16 32) (v678 : IVec S16 32) (v920 : IVec S16 32) (k0_hw113 : k0_chk113 v671 v675 v678 v920), ∀ a x, ((![v678, v671, v920] : Fin 3 → IVec S16 32) a x).toNat < S16x8x64.size a := fun v671 v675 v678 v920 k0_hw113 => k0_hw113.1
theorem k0_idx98_inb : ∀ (v671 : IVec S16 32) (v675 : IVec S16 32) (v678 : IVec S16 32) (v920 : IVec S16 32) (k0_hw113 : k0_chk113 v671 v675 v678 v920), ∀ a x, ((![v678, v675, v920] : Fin 3 → IVec S16 32) a x).toNat < S16x8x64.size a := fun v671 v675 v678 v920 k0_hw113 => k0_hw113.2

def k0_chk114 (v671 : IVec S16 32) (v675 : IVec S16 32) (v678 : IVec S16 32) (v925 : IVec S16 32) : Prop :=
  (∀ a x, ((![v678, v671, v925] : Fin 3 → IVec S16 32) a x).toNat < S16x8x64.size a) ∧
  (∀ a x, ((![v678, v675, v925] : Fin 3 → IVec S16 32) a x).toNat < S16x8x64.size a)
instance k0_chk114.dec : ∀ (v671 : IVec S16 32) (v675 : IVec S16 32) (v678 : IVec S16 32) (v925 : IVec S16 32), Decidable (k0_chk114 v671 v675 v678 v925) := fun v671 v675 v678 v925 => decidable_of_iff' _ (Iff.of_eq (k0_chk114.eq_1 v671 v675 v678 v925))
theorem k0_idx99_inb : ∀ (v671 : IVec S16 32) (v675 : IVec S16 32) (v678 : IVec S16 32) (v925 : IVec S16 32) (k0_hw114 : k0_chk114 v671 v675 v678 v925), ∀ a x, ((![v678, v671, v925] : Fin 3 → IVec S16 32) a x).toNat < S16x8x64.size a := fun v671 v675 v678 v925 k0_hw114 => k0_hw114.1
theorem k0_idx100_inb : ∀ (v671 : IVec S16 32) (v675 : IVec S16 32) (v678 : IVec S16 32) (v925 : IVec S16 32) (k0_hw114 : k0_chk114 v671 v675 v678 v925), ∀ a x, ((![v678, v675, v925] : Fin 3 → IVec S16 32) a x).toNat < S16x8x64.size a := fun v671 v675 v678 v925 k0_hw114 => k0_hw114.2

def k0_chk115 (v671 : IVec S16 32) (v675 : IVec S16 32) (v678 : IVec S16 32) (v930 : IVec S16 32) : Prop :=
  (∀ a x, ((![v678, v671, v930] : Fin 3 → IVec S16 32) a x).toNat < S16x8x64.size a) ∧
  (∀ a x, ((![v678, v675, v930] : Fin 3 → IVec S16 32) a x).toNat < S16x8x64.size a)
instance k0_chk115.dec : ∀ (v671 : IVec S16 32) (v675 : IVec S16 32) (v678 : IVec S16 32) (v930 : IVec S16 32), Decidable (k0_chk115 v671 v675 v678 v930) := fun v671 v675 v678 v930 => decidable_of_iff' _ (Iff.of_eq (k0_chk115.eq_1 v671 v675 v678 v930))
theorem k0_idx101_inb : ∀ (v671 : IVec S16 32) (v675 : IVec S16 32) (v678 : IVec S16 32) (v930 : IVec S16 32) (k0_hw115 : k0_chk115 v671 v675 v678 v930), ∀ a x, ((![v678, v671, v930] : Fin 3 → IVec S16 32) a x).toNat < S16x8x64.size a := fun v671 v675 v678 v930 k0_hw115 => k0_hw115.1
theorem k0_idx102_inb : ∀ (v671 : IVec S16 32) (v675 : IVec S16 32) (v678 : IVec S16 32) (v930 : IVec S16 32) (k0_hw115 : k0_chk115 v671 v675 v678 v930), ∀ a x, ((![v678, v675, v930] : Fin 3 → IVec S16 32) a x).toNat < S16x8x64.size a := fun v671 v675 v678 v930 k0_hw115 => k0_hw115.2

def k0_chk116 (v671 : IVec S16 32) (v675 : IVec S16 32) (v678 : IVec S16 32) (v935 : IVec S16 32) : Prop :=
  (∀ a x, ((![v678, v671, v935] : Fin 3 → IVec S16 32) a x).toNat < S16x8x64.size a) ∧
  (∀ a x, ((![v678, v675, v935] : Fin 3 → IVec S16 32) a x).toNat < S16x8x64.size a)
instance k0_chk116.dec : ∀ (v671 : IVec S16 32) (v675 : IVec S16 32) (v678 : IVec S16 32) (v935 : IVec S16 32), Decidable (k0_chk116 v671 v675 v678 v935) := fun v671 v675 v678 v935 => decidable_of_iff' _ (Iff.of_eq (k0_chk116.eq_1 v671 v675 v678 v935))
theorem k0_idx103_inb : ∀ (v671 : IVec S16 32) (v675 : IVec S16 32) (v678 : IVec S16 32) (v935 : IVec S16 32) (k0_hw116 : k0_chk116 v671 v675 v678 v935), ∀ a x, ((![v678, v671, v935] : Fin 3 → IVec S16 32) a x).toNat < S16x8x64.size a := fun v671 v675 v678 v935 k0_hw116 => k0_hw116.1
theorem k0_idx104_inb : ∀ (v671 : IVec S16 32) (v675 : IVec S16 32) (v678 : IVec S16 32) (v935 : IVec S16 32) (k0_hw116 : k0_chk116 v671 v675 v678 v935), ∀ a x, ((![v678, v675, v935] : Fin 3 → IVec S16 32) a x).toNat < S16x8x64.size a := fun v671 v675 v678 v935 k0_hw116 => k0_hw116.2

def k0_chk117 (v671 : IVec S16 32) (v675 : IVec S16 32) (v678 : IVec S16 32) (v940 : IVec S16 32) : Prop :=
  (∀ a x, ((![v678, v671, v940] : Fin 3 → IVec S16 32) a x).toNat < S16x8x64.size a) ∧
  (∀ a x, ((![v678, v675, v940] : Fin 3 → IVec S16 32) a x).toNat < S16x8x64.size a)
instance k0_chk117.dec : ∀ (v671 : IVec S16 32) (v675 : IVec S16 32) (v678 : IVec S16 32) (v940 : IVec S16 32), Decidable (k0_chk117 v671 v675 v678 v940) := fun v671 v675 v678 v940 => decidable_of_iff' _ (Iff.of_eq (k0_chk117.eq_1 v671 v675 v678 v940))
theorem k0_idx105_inb : ∀ (v671 : IVec S16 32) (v675 : IVec S16 32) (v678 : IVec S16 32) (v940 : IVec S16 32) (k0_hw117 : k0_chk117 v671 v675 v678 v940), ∀ a x, ((![v678, v671, v940] : Fin 3 → IVec S16 32) a x).toNat < S16x8x64.size a := fun v671 v675 v678 v940 k0_hw117 => k0_hw117.1
theorem k0_idx106_inb : ∀ (v671 : IVec S16 32) (v675 : IVec S16 32) (v678 : IVec S16 32) (v940 : IVec S16 32) (k0_hw117 : k0_chk117 v671 v675 v678 v940), ∀ a x, ((![v678, v675, v940] : Fin 3 → IVec S16 32) a x).toNat < S16x8x64.size a := fun v671 v675 v678 v940 k0_hw117 => k0_hw117.2

def k0_chk118 (v671 : IVec S16 32) (v675 : IVec S16 32) (v678 : IVec S16 32) (v945 : IVec S16 32) : Prop :=
  (∀ a x, ((![v678, v671, v945] : Fin 3 → IVec S16 32) a x).toNat < S16x8x64.size a) ∧
  (∀ a x, ((![v678, v675, v945] : Fin 3 → IVec S16 32) a x).toNat < S16x8x64.size a)
instance k0_chk118.dec : ∀ (v671 : IVec S16 32) (v675 : IVec S16 32) (v678 : IVec S16 32) (v945 : IVec S16 32), Decidable (k0_chk118 v671 v675 v678 v945) := fun v671 v675 v678 v945 => decidable_of_iff' _ (Iff.of_eq (k0_chk118.eq_1 v671 v675 v678 v945))
theorem k0_idx107_inb : ∀ (v671 : IVec S16 32) (v675 : IVec S16 32) (v678 : IVec S16 32) (v945 : IVec S16 32) (k0_hw118 : k0_chk118 v671 v675 v678 v945), ∀ a x, ((![v678, v671, v945] : Fin 3 → IVec S16 32) a x).toNat < S16x8x64.size a := fun v671 v675 v678 v945 k0_hw118 => k0_hw118.1
theorem k0_idx108_inb : ∀ (v671 : IVec S16 32) (v675 : IVec S16 32) (v678 : IVec S16 32) (v945 : IVec S16 32) (k0_hw118 : k0_chk118 v671 v675 v678 v945), ∀ a x, ((![v678, v675, v945] : Fin 3 → IVec S16 32) a x).toNat < S16x8x64.size a := fun v671 v675 v678 v945 k0_hw118 => k0_hw118.2

def k0_chk119 (v671 : IVec S16 32) (v675 : IVec S16 32) (v678 : IVec S16 32) (v950 : IVec S16 32) : Prop :=
  (∀ a x, ((![v678, v671, v950] : Fin 3 → IVec S16 32) a x).toNat < S16x8x64.size a) ∧
  (∀ a x, ((![v678, v675, v950] : Fin 3 → IVec S16 32) a x).toNat < S16x8x64.size a)
instance k0_chk119.dec : ∀ (v671 : IVec S16 32) (v675 : IVec S16 32) (v678 : IVec S16 32) (v950 : IVec S16 32), Decidable (k0_chk119 v671 v675 v678 v950) := fun v671 v675 v678 v950 => decidable_of_iff' _ (Iff.of_eq (k0_chk119.eq_1 v671 v675 v678 v950))
theorem k0_idx109_inb : ∀ (v671 : IVec S16 32) (v675 : IVec S16 32) (v678 : IVec S16 32) (v950 : IVec S16 32) (k0_hw119 : k0_chk119 v671 v675 v678 v950), ∀ a x, ((![v678, v671, v950] : Fin 3 → IVec S16 32) a x).toNat < S16x8x64.size a := fun v671 v675 v678 v950 k0_hw119 => k0_hw119.1
theorem k0_idx110_inb : ∀ (v671 : IVec S16 32) (v675 : IVec S16 32) (v678 : IVec S16 32) (v950 : IVec S16 32) (k0_hw119 : k0_chk119 v671 v675 v678 v950), ∀ a x, ((![v678, v675, v950] : Fin 3 → IVec S16 32) a x).toNat < S16x8x64.size a := fun v671 v675 v678 v950 k0_hw119 => k0_hw119.2

def k0_chk120 (v671 : IVec S16 32) (v675 : IVec S16 32) (v678 : IVec S16 32) (v955 : IVec S16 32) : Prop :=
  (∀ a x, ((![v678, v671, v955] : Fin 3 → IVec S16 32) a x).toNat < S16x8x64.size a) ∧
  (∀ a x, ((![v678, v675, v955] : Fin 3 → IVec S16 32) a x).toNat < S16x8x64.size a)
instance k0_chk120.dec : ∀ (v671 : IVec S16 32) (v675 : IVec S16 32) (v678 : IVec S16 32) (v955 : IVec S16 32), Decidable (k0_chk120 v671 v675 v678 v955) := fun v671 v675 v678 v955 => decidable_of_iff' _ (Iff.of_eq (k0_chk120.eq_1 v671 v675 v678 v955))
theorem k0_idx111_inb : ∀ (v671 : IVec S16 32) (v675 : IVec S16 32) (v678 : IVec S16 32) (v955 : IVec S16 32) (k0_hw120 : k0_chk120 v671 v675 v678 v955), ∀ a x, ((![v678, v671, v955] : Fin 3 → IVec S16 32) a x).toNat < S16x8x64.size a := fun v671 v675 v678 v955 k0_hw120 => k0_hw120.1
theorem k0_idx112_inb : ∀ (v671 : IVec S16 32) (v675 : IVec S16 32) (v678 : IVec S16 32) (v955 : IVec S16 32) (k0_hw120 : k0_chk120 v671 v675 v678 v955), ∀ a x, ((![v678, v675, v955] : Fin 3 → IVec S16 32) a x).toNat < S16x8x64.size a := fun v671 v675 v678 v955 k0_hw120 => k0_hw120.2

def k0_chk121 (v671 : IVec S16 32) (v675 : IVec S16 32) (v678 : IVec S16 32) (v960 : IVec S16 32) : Prop :=
  (∀ a x, ((![v678, v671, v960] : Fin 3 → IVec S16 32) a x).toNat < S16x8x64.size a) ∧
  (∀ a x, ((![v678, v675, v960] : Fin 3 → IVec S16 32) a x).toNat < S16x8x64.size a)
instance k0_chk121.dec : ∀ (v671 : IVec S16 32) (v675 : IVec S16 32) (v678 : IVec S16 32) (v960 : IVec S16 32), Decidable (k0_chk121 v671 v675 v678 v960) := fun v671 v675 v678 v960 => decidable_of_iff' _ (Iff.of_eq (k0_chk121.eq_1 v671 v675 v678 v960))
theorem k0_idx113_inb : ∀ (v671 : IVec S16 32) (v675 : IVec S16 32) (v678 : IVec S16 32) (v960 : IVec S16 32) (k0_hw121 : k0_chk121 v671 v675 v678 v960), ∀ a x, ((![v678, v671, v960] : Fin 3 → IVec S16 32) a x).toNat < S16x8x64.size a := fun v671 v675 v678 v960 k0_hw121 => k0_hw121.1
theorem k0_idx114_inb : ∀ (v671 : IVec S16 32) (v675 : IVec S16 32) (v678 : IVec S16 32) (v960 : IVec S16 32) (k0_hw121 : k0_chk121 v671 v675 v678 v960), ∀ a x, ((![v678, v675, v960] : Fin 3 → IVec S16 32) a x).toNat < S16x8x64.size a := fun v671 v675 v678 v960 k0_hw121 => k0_hw121.2

def k0_chk122 (v671 : IVec S16 32) (v675 : IVec S16 32) (v678 : IVec S16 32) (v965 : IVec S16 32) : Prop :=
  (∀ a x, ((![v678, v671, v965] : Fin 3 → IVec S16 32) a x).toNat < S16x8x64.size a) ∧
  (∀ a x, ((![v678, v675, v965] : Fin 3 → IVec S16 32) a x).toNat < S16x8x64.size a)
instance k0_chk122.dec : ∀ (v671 : IVec S16 32) (v675 : IVec S16 32) (v678 : IVec S16 32) (v965 : IVec S16 32), Decidable (k0_chk122 v671 v675 v678 v965) := fun v671 v675 v678 v965 => decidable_of_iff' _ (Iff.of_eq (k0_chk122.eq_1 v671 v675 v678 v965))
theorem k0_idx115_inb : ∀ (v671 : IVec S16 32) (v675 : IVec S16 32) (v678 : IVec S16 32) (v965 : IVec S16 32) (k0_hw122 : k0_chk122 v671 v675 v678 v965), ∀ a x, ((![v678, v671, v965] : Fin 3 → IVec S16 32) a x).toNat < S16x8x64.size a := fun v671 v675 v678 v965 k0_hw122 => k0_hw122.1
theorem k0_idx116_inb : ∀ (v671 : IVec S16 32) (v675 : IVec S16 32) (v678 : IVec S16 32) (v965 : IVec S16 32) (k0_hw122 : k0_chk122 v671 v675 v678 v965), ∀ a x, ((![v678, v675, v965] : Fin 3 → IVec S16 32) a x).toNat < S16x8x64.size a := fun v671 v675 v678 v965 k0_hw122 => k0_hw122.2

def k0_chk123 (v671 : IVec S16 32) (v675 : IVec S16 32) (v678 : IVec S16 32) (v970 : IVec S16 32) : Prop :=
  (∀ a x, ((![v678, v671, v970] : Fin 3 → IVec S16 32) a x).toNat < S16x8x64.size a) ∧
  (∀ a x, ((![v678, v675, v970] : Fin 3 → IVec S16 32) a x).toNat < S16x8x64.size a)
instance k0_chk123.dec : ∀ (v671 : IVec S16 32) (v675 : IVec S16 32) (v678 : IVec S16 32) (v970 : IVec S16 32), Decidable (k0_chk123 v671 v675 v678 v970) := fun v671 v675 v678 v970 => decidable_of_iff' _ (Iff.of_eq (k0_chk123.eq_1 v671 v675 v678 v970))
theorem k0_idx117_inb : ∀ (v671 : IVec S16 32) (v675 : IVec S16 32) (v678 : IVec S16 32) (v970 : IVec S16 32) (k0_hw123 : k0_chk123 v671 v675 v678 v970), ∀ a x, ((![v678, v671, v970] : Fin 3 → IVec S16 32) a x).toNat < S16x8x64.size a := fun v671 v675 v678 v970 k0_hw123 => k0_hw123.1
theorem k0_idx118_inb : ∀ (v671 : IVec S16 32) (v675 : IVec S16 32) (v678 : IVec S16 32) (v970 : IVec S16 32) (k0_hw123 : k0_chk123 v671 v675 v678 v970), ∀ a x, ((![v678, v675, v970] : Fin 3 → IVec S16 32) a x).toNat < S16x8x64.size a := fun v671 v675 v678 v970 k0_hw123 => k0_hw123.2

def k0_chk124 (v671 : IVec S16 32) (v675 : IVec S16 32) (v678 : IVec S16 32) (v975 : IVec S16 32) : Prop :=
  (∀ a x, ((![v678, v671, v975] : Fin 3 → IVec S16 32) a x).toNat < S16x8x64.size a) ∧
  (∀ a x, ((![v678, v675, v975] : Fin 3 → IVec S16 32) a x).toNat < S16x8x64.size a)
instance k0_chk124.dec : ∀ (v671 : IVec S16 32) (v675 : IVec S16 32) (v678 : IVec S16 32) (v975 : IVec S16 32), Decidable (k0_chk124 v671 v675 v678 v975) := fun v671 v675 v678 v975 => decidable_of_iff' _ (Iff.of_eq (k0_chk124.eq_1 v671 v675 v678 v975))
theorem k0_idx119_inb : ∀ (v671 : IVec S16 32) (v675 : IVec S16 32) (v678 : IVec S16 32) (v975 : IVec S16 32) (k0_hw124 : k0_chk124 v671 v675 v678 v975), ∀ a x, ((![v678, v671, v975] : Fin 3 → IVec S16 32) a x).toNat < S16x8x64.size a := fun v671 v675 v678 v975 k0_hw124 => k0_hw124.1
theorem k0_idx120_inb : ∀ (v671 : IVec S16 32) (v675 : IVec S16 32) (v678 : IVec S16 32) (v975 : IVec S16 32) (k0_hw124 : k0_chk124 v671 v675 v678 v975), ∀ a x, ((![v678, v675, v975] : Fin 3 → IVec S16 32) a x).toNat < S16x8x64.size a := fun v671 v675 v678 v975 k0_hw124 => k0_hw124.2

def k0_chk125 (v671 : IVec S16 32) (v675 : IVec S16 32) (v678 : IVec S16 32) (v980 : IVec S16 32) : Prop :=
  (∀ a x, ((![v678, v671, v980] : Fin 3 → IVec S16 32) a x).toNat < S16x8x64.size a) ∧
  (∀ a x, ((![v678, v675, v980] : Fin 3 → IVec S16 32) a x).toNat < S16x8x64.size a)
instance k0_chk125.dec : ∀ (v671 : IVec S16 32) (v675 : IVec S16 32) (v678 : IVec S16 32) (v980 : IVec S16 32), Decidable (k0_chk125 v671 v675 v678 v980) := fun v671 v675 v678 v980 => decidable_of_iff' _ (Iff.of_eq (k0_chk125.eq_1 v671 v675 v678 v980))
theorem k0_idx121_inb : ∀ (v671 : IVec S16 32) (v675 : IVec S16 32) (v678 : IVec S16 32) (v980 : IVec S16 32) (k0_hw125 : k0_chk125 v671 v675 v678 v980), ∀ a x, ((![v678, v671, v980] : Fin 3 → IVec S16 32) a x).toNat < S16x8x64.size a := fun v671 v675 v678 v980 k0_hw125 => k0_hw125.1
theorem k0_idx122_inb : ∀ (v671 : IVec S16 32) (v675 : IVec S16 32) (v678 : IVec S16 32) (v980 : IVec S16 32) (k0_hw125 : k0_chk125 v671 v675 v678 v980), ∀ a x, ((![v678, v675, v980] : Fin 3 → IVec S16 32) a x).toNat < S16x8x64.size a := fun v671 v675 v678 v980 k0_hw125 => k0_hw125.2

def k0_chk126 (v671 : IVec S16 32) (v675 : IVec S16 32) (v678 : IVec S16 32) (v985 : IVec S16 32) : Prop :=
  (∀ a x, ((![v678, v671, v985] : Fin 3 → IVec S16 32) a x).toNat < S16x8x64.size a) ∧
  (∀ a x, ((![v678, v675, v985] : Fin 3 → IVec S16 32) a x).toNat < S16x8x64.size a)
instance k0_chk126.dec : ∀ (v671 : IVec S16 32) (v675 : IVec S16 32) (v678 : IVec S16 32) (v985 : IVec S16 32), Decidable (k0_chk126 v671 v675 v678 v985) := fun v671 v675 v678 v985 => decidable_of_iff' _ (Iff.of_eq (k0_chk126.eq_1 v671 v675 v678 v985))
theorem k0_idx123_inb : ∀ (v671 : IVec S16 32) (v675 : IVec S16 32) (v678 : IVec S16 32) (v985 : IVec S16 32) (k0_hw126 : k0_chk126 v671 v675 v678 v985), ∀ a x, ((![v678, v671, v985] : Fin 3 → IVec S16 32) a x).toNat < S16x8x64.size a := fun v671 v675 v678 v985 k0_hw126 => k0_hw126.1
theorem k0_idx124_inb : ∀ (v671 : IVec S16 32) (v675 : IVec S16 32) (v678 : IVec S16 32) (v985 : IVec S16 32) (k0_hw126 : k0_chk126 v671 v675 v678 v985), ∀ a x, ((![v678, v675, v985] : Fin 3 → IVec S16 32) a x).toNat < S16x8x64.size a := fun v671 v675 v678 v985 k0_hw126 => k0_hw126.2

def k0_chk127 (v671 : IVec S16 32) (v675 : IVec S16 32) (v678 : IVec S16 32) (v990 : IVec S16 32) : Prop :=
  (∀ a x, ((![v678, v671, v990] : Fin 3 → IVec S16 32) a x).toNat < S16x8x64.size a) ∧
  (∀ a x, ((![v678, v675, v990] : Fin 3 → IVec S16 32) a x).toNat < S16x8x64.size a)
instance k0_chk127.dec : ∀ (v671 : IVec S16 32) (v675 : IVec S16 32) (v678 : IVec S16 32) (v990 : IVec S16 32), Decidable (k0_chk127 v671 v675 v678 v990) := fun v671 v675 v678 v990 => decidable_of_iff' _ (Iff.of_eq (k0_chk127.eq_1 v671 v675 v678 v990))
theorem k0_idx125_inb : ∀ (v671 : IVec S16 32) (v675 : IVec S16 32) (v678 : IVec S16 32) (v990 : IVec S16 32) (k0_hw127 : k0_chk127 v671 v675 v678 v990), ∀ a x, ((![v678, v671, v990] : Fin 3 → IVec S16 32) a x).toNat < S16x8x64.size a := fun v671 v675 v678 v990 k0_hw127 => k0_hw127.1
theorem k0_idx126_inb : ∀ (v671 : IVec S16 32) (v675 : IVec S16 32) (v678 : IVec S16 32) (v990 : IVec S16 32) (k0_hw127 : k0_chk127 v671 v675 v678 v990), ∀ a x, ((![v678, v675, v990] : Fin 3 → IVec S16 32) a x).toNat < S16x8x64.size a := fun v671 v675 v678 v990 k0_hw127 => k0_hw127.2

def k0_chk128 (v671 : IVec S16 32) (v675 : IVec S16 32) (v678 : IVec S16 32) (v995 : IVec S16 32) : Prop :=
  (∀ a x, ((![v678, v671, v995] : Fin 3 → IVec S16 32) a x).toNat < S16x8x64.size a) ∧
  (∀ a x, ((![v678, v675, v995] : Fin 3 → IVec S16 32) a x).toNat < S16x8x64.size a)
instance k0_chk128.dec : ∀ (v671 : IVec S16 32) (v675 : IVec S16 32) (v678 : IVec S16 32) (v995 : IVec S16 32), Decidable (k0_chk128 v671 v675 v678 v995) := fun v671 v675 v678 v995 => decidable_of_iff' _ (Iff.of_eq (k0_chk128.eq_1 v671 v675 v678 v995))
theorem k0_idx127_inb : ∀ (v671 : IVec S16 32) (v675 : IVec S16 32) (v678 : IVec S16 32) (v995 : IVec S16 32) (k0_hw128 : k0_chk128 v671 v675 v678 v995), ∀ a x, ((![v678, v671, v995] : Fin 3 → IVec S16 32) a x).toNat < S16x8x64.size a := fun v671 v675 v678 v995 k0_hw128 => k0_hw128.1
theorem k0_idx128_inb : ∀ (v671 : IVec S16 32) (v675 : IVec S16 32) (v678 : IVec S16 32) (v995 : IVec S16 32) (k0_hw128 : k0_chk128 v671 v675 v678 v995), ∀ a x, ((![v678, v675, v995] : Fin 3 → IVec S16 32) a x).toNat < S16x8x64.size a := fun v671 v675 v678 v995 k0_hw128 => k0_hw128.2
def k0_off68 (k0_t1 : Fin k0_t1_loop.trips) : Fin 1 → Nat :=
  let c0_i32_277 : BitVec 32 := 0#32
  let c1_i32_278 : BitVec 32 := 1#32
  let arg18 : BitVec 32 := Scf.iv c0_i32_277 c1_i32_278 k0_t1
  let c2_i32_280 : BitVec 32 := 2#32
  let v330 : BitVec 32 := Scalar.muli arg18 c2_i32_280
  let c16_i32_608 : BitVec 32 := 16#32
  let v1000 : BitVec 32 := Scalar.muli v330 c16_i32_608
  let c0_i32_609 : BitVec 32 := 0#32
  let v1001 : BitVec 32 := Scalar.addi v1000 c0_i32_609
  let v1002 : Index := Scalar.indexCast v1001
  ![v1002.toNat]
def k0_cond1 (k0_t1 : Fin k0_t1_loop.trips) : BitVec 1 :=
  let c0_i32_277 : BitVec 32 := 0#32
  let c1_i32_278 : BitVec 32 := 1#32
  let arg18 : BitVec 32 := Scf.iv c0_i32_277 c1_i32_278 k0_t1
  let c15_i32_610 : BitVec 32 := 15#32
  let v1004 : BitVec 1 := Scalar.cmpi .slt arg18 c15_i32_610
  let v1005 : BitVec 32 := Scalar.extui v1004
  let c0_i32_611 : BitVec 32 := 0#32
  let v1006 : BitVec 1 := Scalar.cmpi .ne v1005 c0_i32_611
  v1006

def k0_off69 (k0_t1 : Fin k0_t1_loop.trips) : Fin 1 → Nat :=
  let c0_i32_277 : BitVec 32 := 0#32
  let c1_i32_278 : BitVec 32 := 1#32
  let arg18 : BitVec 32 := Scf.iv c0_i32_277 c1_i32_278 k0_t1
  let c2_i32_280 : BitVec 32 := 2#32
  let v330 : BitVec 32 := Scalar.muli arg18 c2_i32_280
  let c2_i32_697 : BitVec 32 := 2#32
  let v1350 : BitVec 32 := Scalar.addi v330 c2_i32_697
  let c16_i32_698 : BitVec 32 := 16#32
  let v1351 : BitVec 32 := Scalar.muli v1350 c16_i32_698
  let c0_i32_699 : BitVec 32 := 0#32
  let v1352 : BitVec 32 := Scalar.addi v1351 c0_i32_699
  let v1353 : Index := Scalar.indexCast v1352
  ![v1353.toNat]
def k0_off70 (v1362 : BitVec 32) : Fin 3 → Nat :=
  let c0_i32_705 : BitVec 32 := 0#32
  let c0_i32_706 : BitVec 32 := 0#32
  ![v1362.toNat, 0, 0]

def k0_chk129 (k0_t1 : Fin k0_t1_loop.trips) (v1362 : BitVec 32) : Prop :=
  (∀ (k0_h1 : k0_cond1 k0_t1 = 1#1), ∀ a, (k0_off70 v1362) a + S1x8x64.size a ≤ S125000x8x64.size a)
instance k0_chk129.dec : ∀ (k0_t1 : Fin k0_t1_loop.trips) (v1362 : BitVec 32), Decidable (k0_chk129 k0_t1 v1362) := fun k0_t1 v1362 => decidable_of_iff' _ (Iff.of_eq (k0_chk129.eq_1 k0_t1 v1362))
theorem k0_off70_inb : ∀ (k0_t1 : Fin k0_t1_loop.trips) (v1362 : BitVec 32) (k0_hw129 : k0_chk129 k0_t1 v1362), ∀ (k0_h1 : k0_cond1 k0_t1 = 1#1), ∀ a, (k0_off70 v1362) a + S1x8x64.size a ≤ S125000x8x64.size a := fun k0_t1 v1362 k0_hw129 k0_h1 => k0_hw129 k0_h1

def k0_off71 (v1372 : BitVec 32) : Fin 3 → Nat :=
  let c0_i32_714 : BitVec 32 := 0#32
  let c0_i32_715 : BitVec 32 := 0#32
  ![v1372.toNat, 0, 0]

def k0_chk130 (k0_t1 : Fin k0_t1_loop.trips) (v1372 : BitVec 32) : Prop :=
  (∀ (k0_h1 : k0_cond1 k0_t1 = 1#1), ∀ a, (k0_off71 v1372) a + S1x8x64.size a ≤ S125000x8x64.size a)
instance k0_chk130.dec : ∀ (k0_t1 : Fin k0_t1_loop.trips) (v1372 : BitVec 32), Decidable (k0_chk130 k0_t1 v1372) := fun k0_t1 v1372 => decidable_of_iff' _ (Iff.of_eq (k0_chk130.eq_1 k0_t1 v1372))
theorem k0_off71_inb : ∀ (k0_t1 : Fin k0_t1_loop.trips) (v1372 : BitVec 32) (k0_hw130 : k0_chk130 k0_t1 v1372), ∀ (k0_h1 : k0_cond1 k0_t1 = 1#1), ∀ a, (k0_off71 v1372) a + S1x8x64.size a ≤ S125000x8x64.size a := fun k0_t1 v1372 k0_hw130 k0_h1 => k0_hw130 k0_h1

def k0_off72 (v1382 : BitVec 32) : Fin 3 → Nat :=
  let c0_i32_723 : BitVec 32 := 0#32
  let c0_i32_724 : BitVec 32 := 0#32
  ![v1382.toNat, 0, 0]

def k0_chk131 (k0_t1 : Fin k0_t1_loop.trips) (v1382 : BitVec 32) : Prop :=
  (∀ (k0_h1 : k0_cond1 k0_t1 = 1#1), ∀ a, (k0_off72 v1382) a + S1x8x64.size a ≤ S125000x8x64.size a)
instance k0_chk131.dec : ∀ (k0_t1 : Fin k0_t1_loop.trips) (v1382 : BitVec 32), Decidable (k0_chk131 k0_t1 v1382) := fun k0_t1 v1382 => decidable_of_iff' _ (Iff.of_eq (k0_chk131.eq_1 k0_t1 v1382))
theorem k0_off72_inb : ∀ (k0_t1 : Fin k0_t1_loop.trips) (v1382 : BitVec 32) (k0_hw131 : k0_chk131 k0_t1 v1382), ∀ (k0_h1 : k0_cond1 k0_t1 = 1#1), ∀ a, (k0_off72 v1382) a + S1x8x64.size a ≤ S125000x8x64.size a := fun k0_t1 v1382 k0_hw131 k0_h1 => k0_hw131 k0_h1

def k0_off73 (v1392 : BitVec 32) : Fin 3 → Nat :=
  let c0_i32_732 : BitVec 32 := 0#32
  let c0_i32_733 : BitVec 32 := 0#32
  ![v1392.toNat, 0, 0]

def k0_chk132 (k0_t1 : Fin k0_t1_loop.trips) (v1392 : BitVec 32) : Prop :=
  (∀ (k0_h1 : k0_cond1 k0_t1 = 1#1), ∀ a, (k0_off73 v1392) a + S1x8x64.size a ≤ S125000x8x64.size a)
instance k0_chk132.dec : ∀ (k0_t1 : Fin k0_t1_loop.trips) (v1392 : BitVec 32), Decidable (k0_chk132 k0_t1 v1392) := fun k0_t1 v1392 => decidable_of_iff' _ (Iff.of_eq (k0_chk132.eq_1 k0_t1 v1392))
theorem k0_off73_inb : ∀ (k0_t1 : Fin k0_t1_loop.trips) (v1392 : BitVec 32) (k0_hw132 : k0_chk132 k0_t1 v1392), ∀ (k0_h1 : k0_cond1 k0_t1 = 1#1), ∀ a, (k0_off73 v1392) a + S1x8x64.size a ≤ S125000x8x64.size a := fun k0_t1 v1392 k0_hw132 k0_h1 => k0_hw132 k0_h1

def k0_off74 (v1402 : BitVec 32) : Fin 3 → Nat :=
  let c0_i32_741 : BitVec 32 := 0#32
  let c0_i32_742 : BitVec 32 := 0#32
  ![v1402.toNat, 0, 0]

def k0_chk133 (k0_t1 : Fin k0_t1_loop.trips) (v1402 : BitVec 32) : Prop :=
  (∀ (k0_h1 : k0_cond1 k0_t1 = 1#1), ∀ a, (k0_off74 v1402) a + S1x8x64.size a ≤ S125000x8x64.size a)
instance k0_chk133.dec : ∀ (k0_t1 : Fin k0_t1_loop.trips) (v1402 : BitVec 32), Decidable (k0_chk133 k0_t1 v1402) := fun k0_t1 v1402 => decidable_of_iff' _ (Iff.of_eq (k0_chk133.eq_1 k0_t1 v1402))
theorem k0_off74_inb : ∀ (k0_t1 : Fin k0_t1_loop.trips) (v1402 : BitVec 32) (k0_hw133 : k0_chk133 k0_t1 v1402), ∀ (k0_h1 : k0_cond1 k0_t1 = 1#1), ∀ a, (k0_off74 v1402) a + S1x8x64.size a ≤ S125000x8x64.size a := fun k0_t1 v1402 k0_hw133 k0_h1 => k0_hw133 k0_h1

def k0_off75 (v1412 : BitVec 32) : Fin 3 → Nat :=
  let c0_i32_750 : BitVec 32 := 0#32
  let c0_i32_751 : BitVec 32 := 0#32
  ![v1412.toNat, 0, 0]

def k0_chk134 (k0_t1 : Fin k0_t1_loop.trips) (v1412 : BitVec 32) : Prop :=
  (∀ (k0_h1 : k0_cond1 k0_t1 = 1#1), ∀ a, (k0_off75 v1412) a + S1x8x64.size a ≤ S125000x8x64.size a)
instance k0_chk134.dec : ∀ (k0_t1 : Fin k0_t1_loop.trips) (v1412 : BitVec 32), Decidable (k0_chk134 k0_t1 v1412) := fun k0_t1 v1412 => decidable_of_iff' _ (Iff.of_eq (k0_chk134.eq_1 k0_t1 v1412))
theorem k0_off75_inb : ∀ (k0_t1 : Fin k0_t1_loop.trips) (v1412 : BitVec 32) (k0_hw134 : k0_chk134 k0_t1 v1412), ∀ (k0_h1 : k0_cond1 k0_t1 = 1#1), ∀ a, (k0_off75 v1412) a + S1x8x64.size a ≤ S125000x8x64.size a := fun k0_t1 v1412 k0_hw134 k0_h1 => k0_hw134 k0_h1

def k0_off76 (v1422 : BitVec 32) : Fin 3 → Nat :=
  let c0_i32_759 : BitVec 32 := 0#32
  let c0_i32_760 : BitVec 32 := 0#32
  ![v1422.toNat, 0, 0]

def k0_chk135 (k0_t1 : Fin k0_t1_loop.trips) (v1422 : BitVec 32) : Prop :=
  (∀ (k0_h1 : k0_cond1 k0_t1 = 1#1), ∀ a, (k0_off76 v1422) a + S1x8x64.size a ≤ S125000x8x64.size a)
instance k0_chk135.dec : ∀ (k0_t1 : Fin k0_t1_loop.trips) (v1422 : BitVec 32), Decidable (k0_chk135 k0_t1 v1422) := fun k0_t1 v1422 => decidable_of_iff' _ (Iff.of_eq (k0_chk135.eq_1 k0_t1 v1422))
theorem k0_off76_inb : ∀ (k0_t1 : Fin k0_t1_loop.trips) (v1422 : BitVec 32) (k0_hw135 : k0_chk135 k0_t1 v1422), ∀ (k0_h1 : k0_cond1 k0_t1 = 1#1), ∀ a, (k0_off76 v1422) a + S1x8x64.size a ≤ S125000x8x64.size a := fun k0_t1 v1422 k0_hw135 k0_h1 => k0_hw135 k0_h1

def k0_off77 (v1432 : BitVec 32) : Fin 3 → Nat :=
  let c0_i32_768 : BitVec 32 := 0#32
  let c0_i32_769 : BitVec 32 := 0#32
  ![v1432.toNat, 0, 0]

def k0_chk136 (k0_t1 : Fin k0_t1_loop.trips) (v1432 : BitVec 32) : Prop :=
  (∀ (k0_h1 : k0_cond1 k0_t1 = 1#1), ∀ a, (k0_off77 v1432) a + S1x8x64.size a ≤ S125000x8x64.size a)
instance k0_chk136.dec : ∀ (k0_t1 : Fin k0_t1_loop.trips) (v1432 : BitVec 32), Decidable (k0_chk136 k0_t1 v1432) := fun k0_t1 v1432 => decidable_of_iff' _ (Iff.of_eq (k0_chk136.eq_1 k0_t1 v1432))
theorem k0_off77_inb : ∀ (k0_t1 : Fin k0_t1_loop.trips) (v1432 : BitVec 32) (k0_hw136 : k0_chk136 k0_t1 v1432), ∀ (k0_h1 : k0_cond1 k0_t1 = 1#1), ∀ a, (k0_off77 v1432) a + S1x8x64.size a ≤ S125000x8x64.size a := fun k0_t1 v1432 k0_hw136 k0_h1 => k0_hw136 k0_h1

def k0_off78 (v1442 : BitVec 32) : Fin 3 → Nat :=
  let c0_i32_777 : BitVec 32 := 0#32
  let c0_i32_778 : BitVec 32 := 0#32
  ![v1442.toNat, 0, 0]

def k0_chk137 (k0_t1 : Fin k0_t1_loop.trips) (v1442 : BitVec 32) : Prop :=
  (∀ (k0_h1 : k0_cond1 k0_t1 = 1#1), ∀ a, (k0_off78 v1442) a + S1x8x64.size a ≤ S125000x8x64.size a)
instance k0_chk137.dec : ∀ (k0_t1 : Fin k0_t1_loop.trips) (v1442 : BitVec 32), Decidable (k0_chk137 k0_t1 v1442) := fun k0_t1 v1442 => decidable_of_iff' _ (Iff.of_eq (k0_chk137.eq_1 k0_t1 v1442))
theorem k0_off78_inb : ∀ (k0_t1 : Fin k0_t1_loop.trips) (v1442 : BitVec 32) (k0_hw137 : k0_chk137 k0_t1 v1442), ∀ (k0_h1 : k0_cond1 k0_t1 = 1#1), ∀ a, (k0_off78 v1442) a + S1x8x64.size a ≤ S125000x8x64.size a := fun k0_t1 v1442 k0_hw137 k0_h1 => k0_hw137 k0_h1

def k0_off79 (v1452 : BitVec 32) : Fin 3 → Nat :=
  let c0_i32_786 : BitVec 32 := 0#32
  let c0_i32_787 : BitVec 32 := 0#32
  ![v1452.toNat, 0, 0]

def k0_chk138 (k0_t1 : Fin k0_t1_loop.trips) (v1452 : BitVec 32) : Prop :=
  (∀ (k0_h1 : k0_cond1 k0_t1 = 1#1), ∀ a, (k0_off79 v1452) a + S1x8x64.size a ≤ S125000x8x64.size a)
instance k0_chk138.dec : ∀ (k0_t1 : Fin k0_t1_loop.trips) (v1452 : BitVec 32), Decidable (k0_chk138 k0_t1 v1452) := fun k0_t1 v1452 => decidable_of_iff' _ (Iff.of_eq (k0_chk138.eq_1 k0_t1 v1452))
theorem k0_off79_inb : ∀ (k0_t1 : Fin k0_t1_loop.trips) (v1452 : BitVec 32) (k0_hw138 : k0_chk138 k0_t1 v1452), ∀ (k0_h1 : k0_cond1 k0_t1 = 1#1), ∀ a, (k0_off79 v1452) a + S1x8x64.size a ≤ S125000x8x64.size a := fun k0_t1 v1452 k0_hw138 k0_h1 => k0_hw138 k0_h1

def k0_off80 (v1462 : BitVec 32) : Fin 3 → Nat :=
  let c0_i32_795 : BitVec 32 := 0#32
  let c0_i32_796 : BitVec 32 := 0#32
  ![v1462.toNat, 0, 0]

def k0_chk139 (k0_t1 : Fin k0_t1_loop.trips) (v1462 : BitVec 32) : Prop :=
  (∀ (k0_h1 : k0_cond1 k0_t1 = 1#1), ∀ a, (k0_off80 v1462) a + S1x8x64.size a ≤ S125000x8x64.size a)
instance k0_chk139.dec : ∀ (k0_t1 : Fin k0_t1_loop.trips) (v1462 : BitVec 32), Decidable (k0_chk139 k0_t1 v1462) := fun k0_t1 v1462 => decidable_of_iff' _ (Iff.of_eq (k0_chk139.eq_1 k0_t1 v1462))
theorem k0_off80_inb : ∀ (k0_t1 : Fin k0_t1_loop.trips) (v1462 : BitVec 32) (k0_hw139 : k0_chk139 k0_t1 v1462), ∀ (k0_h1 : k0_cond1 k0_t1 = 1#1), ∀ a, (k0_off80 v1462) a + S1x8x64.size a ≤ S125000x8x64.size a := fun k0_t1 v1462 k0_hw139 k0_h1 => k0_hw139 k0_h1

def k0_off81 (v1472 : BitVec 32) : Fin 3 → Nat :=
  let c0_i32_804 : BitVec 32 := 0#32
  let c0_i32_805 : BitVec 32 := 0#32
  ![v1472.toNat, 0, 0]

def k0_chk140 (k0_t1 : Fin k0_t1_loop.trips) (v1472 : BitVec 32) : Prop :=
  (∀ (k0_h1 : k0_cond1 k0_t1 = 1#1), ∀ a, (k0_off81 v1472) a + S1x8x64.size a ≤ S125000x8x64.size a)
instance k0_chk140.dec : ∀ (k0_t1 : Fin k0_t1_loop.trips) (v1472 : BitVec 32), Decidable (k0_chk140 k0_t1 v1472) := fun k0_t1 v1472 => decidable_of_iff' _ (Iff.of_eq (k0_chk140.eq_1 k0_t1 v1472))
theorem k0_off81_inb : ∀ (k0_t1 : Fin k0_t1_loop.trips) (v1472 : BitVec 32) (k0_hw140 : k0_chk140 k0_t1 v1472), ∀ (k0_h1 : k0_cond1 k0_t1 = 1#1), ∀ a, (k0_off81 v1472) a + S1x8x64.size a ≤ S125000x8x64.size a := fun k0_t1 v1472 k0_hw140 k0_h1 => k0_hw140 k0_h1

def k0_off82 (v1482 : BitVec 32) : Fin 3 → Nat :=
  let c0_i32_813 : BitVec 32 := 0#32
  let c0_i32_814 : BitVec 32 := 0#32
  ![v1482.toNat, 0, 0]

def k0_chk141 (k0_t1 : Fin k0_t1_loop.trips) (v1482 : BitVec 32) : Prop :=
  (∀ (k0_h1 : k0_cond1 k0_t1 = 1#1), ∀ a, (k0_off82 v1482) a + S1x8x64.size a ≤ S125000x8x64.size a)
instance k0_chk141.dec : ∀ (k0_t1 : Fin k0_t1_loop.trips) (v1482 : BitVec 32), Decidable (k0_chk141 k0_t1 v1482) := fun k0_t1 v1482 => decidable_of_iff' _ (Iff.of_eq (k0_chk141.eq_1 k0_t1 v1482))
theorem k0_off82_inb : ∀ (k0_t1 : Fin k0_t1_loop.trips) (v1482 : BitVec 32) (k0_hw141 : k0_chk141 k0_t1 v1482), ∀ (k0_h1 : k0_cond1 k0_t1 = 1#1), ∀ a, (k0_off82 v1482) a + S1x8x64.size a ≤ S125000x8x64.size a := fun k0_t1 v1482 k0_hw141 k0_h1 => k0_hw141 k0_h1

def k0_off83 (v1492 : BitVec 32) : Fin 3 → Nat :=
  let c0_i32_822 : BitVec 32 := 0#32
  let c0_i32_823 : BitVec 32 := 0#32
  ![v1492.toNat, 0, 0]

def k0_chk142 (k0_t1 : Fin k0_t1_loop.trips) (v1492 : BitVec 32) : Prop :=
  (∀ (k0_h1 : k0_cond1 k0_t1 = 1#1), ∀ a, (k0_off83 v1492) a + S1x8x64.size a ≤ S125000x8x64.size a)
instance k0_chk142.dec : ∀ (k0_t1 : Fin k0_t1_loop.trips) (v1492 : BitVec 32), Decidable (k0_chk142 k0_t1 v1492) := fun k0_t1 v1492 => decidable_of_iff' _ (Iff.of_eq (k0_chk142.eq_1 k0_t1 v1492))
theorem k0_off83_inb : ∀ (k0_t1 : Fin k0_t1_loop.trips) (v1492 : BitVec 32) (k0_hw142 : k0_chk142 k0_t1 v1492), ∀ (k0_h1 : k0_cond1 k0_t1 = 1#1), ∀ a, (k0_off83 v1492) a + S1x8x64.size a ≤ S125000x8x64.size a := fun k0_t1 v1492 k0_hw142 k0_h1 => k0_hw142 k0_h1

def k0_off84 (v1502 : BitVec 32) : Fin 3 → Nat :=
  let c0_i32_831 : BitVec 32 := 0#32
  let c0_i32_832 : BitVec 32 := 0#32
  ![v1502.toNat, 0, 0]

def k0_chk143 (k0_t1 : Fin k0_t1_loop.trips) (v1502 : BitVec 32) : Prop :=
  (∀ (k0_h1 : k0_cond1 k0_t1 = 1#1), ∀ a, (k0_off84 v1502) a + S1x8x64.size a ≤ S125000x8x64.size a)
instance k0_chk143.dec : ∀ (k0_t1 : Fin k0_t1_loop.trips) (v1502 : BitVec 32), Decidable (k0_chk143 k0_t1 v1502) := fun k0_t1 v1502 => decidable_of_iff' _ (Iff.of_eq (k0_chk143.eq_1 k0_t1 v1502))
theorem k0_off84_inb : ∀ (k0_t1 : Fin k0_t1_loop.trips) (v1502 : BitVec 32) (k0_hw143 : k0_chk143 k0_t1 v1502), ∀ (k0_h1 : k0_cond1 k0_t1 = 1#1), ∀ a, (k0_off84 v1502) a + S1x8x64.size a ≤ S125000x8x64.size a := fun k0_t1 v1502 k0_hw143 k0_h1 => k0_hw143 k0_h1

def k0_off85 (v1512 : BitVec 32) : Fin 3 → Nat :=
  let c0_i32_840 : BitVec 32 := 0#32
  let c0_i32_841 : BitVec 32 := 0#32
  ![v1512.toNat, 0, 0]

def k0_chk144 (k0_t1 : Fin k0_t1_loop.trips) (v1512 : BitVec 32) : Prop :=
  (∀ (k0_h1 : k0_cond1 k0_t1 = 1#1), ∀ a, (k0_off85 v1512) a + S1x8x64.size a ≤ S125000x8x64.size a)
instance k0_chk144.dec : ∀ (k0_t1 : Fin k0_t1_loop.trips) (v1512 : BitVec 32), Decidable (k0_chk144 k0_t1 v1512) := fun k0_t1 v1512 => decidable_of_iff' _ (Iff.of_eq (k0_chk144.eq_1 k0_t1 v1512))
theorem k0_off85_inb : ∀ (k0_t1 : Fin k0_t1_loop.trips) (v1512 : BitVec 32) (k0_hw144 : k0_chk144 k0_t1 v1512), ∀ (k0_h1 : k0_cond1 k0_t1 = 1#1), ∀ a, (k0_off85 v1512) a + S1x8x64.size a ≤ S125000x8x64.size a := fun k0_t1 v1512 k0_hw144 k0_h1 => k0_hw144 k0_h1

def k0_off86 (v1522 : BitVec 32) : Fin 3 → Nat :=
  let c0_i32_849 : BitVec 32 := 0#32
  let c0_i32_850 : BitVec 32 := 0#32
  ![v1522.toNat, 0, 0]

def k0_chk145 (k0_t1 : Fin k0_t1_loop.trips) (v1522 : BitVec 32) : Prop :=
  (∀ (k0_h1 : k0_cond1 k0_t1 = 1#1), ∀ a, (k0_off86 v1522) a + S1x8x64.size a ≤ S125000x8x64.size a)
instance k0_chk145.dec : ∀ (k0_t1 : Fin k0_t1_loop.trips) (v1522 : BitVec 32), Decidable (k0_chk145 k0_t1 v1522) := fun k0_t1 v1522 => decidable_of_iff' _ (Iff.of_eq (k0_chk145.eq_1 k0_t1 v1522))
theorem k0_off86_inb : ∀ (k0_t1 : Fin k0_t1_loop.trips) (v1522 : BitVec 32) (k0_hw145 : k0_chk145 k0_t1 v1522), ∀ (k0_h1 : k0_cond1 k0_t1 = 1#1), ∀ a, (k0_off86 v1522) a + S1x8x64.size a ≤ S125000x8x64.size a := fun k0_t1 v1522 k0_hw145 k0_h1 => k0_hw145 k0_h1

def k0_off87 (v1532 : BitVec 32) : Fin 3 → Nat :=
  let c0_i32_858 : BitVec 32 := 0#32
  let c0_i32_859 : BitVec 32 := 0#32
  ![v1532.toNat, 0, 0]

def k0_chk146 (k0_t1 : Fin k0_t1_loop.trips) (v1532 : BitVec 32) : Prop :=
  (∀ (k0_h1 : k0_cond1 k0_t1 = 1#1), ∀ a, (k0_off87 v1532) a + S1x8x64.size a ≤ S125000x8x64.size a)
instance k0_chk146.dec : ∀ (k0_t1 : Fin k0_t1_loop.trips) (v1532 : BitVec 32), Decidable (k0_chk146 k0_t1 v1532) := fun k0_t1 v1532 => decidable_of_iff' _ (Iff.of_eq (k0_chk146.eq_1 k0_t1 v1532))
theorem k0_off87_inb : ∀ (k0_t1 : Fin k0_t1_loop.trips) (v1532 : BitVec 32) (k0_hw146 : k0_chk146 k0_t1 v1532), ∀ (k0_h1 : k0_cond1 k0_t1 = 1#1), ∀ a, (k0_off87 v1532) a + S1x8x64.size a ≤ S125000x8x64.size a := fun k0_t1 v1532 k0_hw146 k0_h1 => k0_hw146 k0_h1

def k0_off88 (v1542 : BitVec 32) : Fin 3 → Nat :=
  let c0_i32_867 : BitVec 32 := 0#32
  let c0_i32_868 : BitVec 32 := 0#32
  ![v1542.toNat, 0, 0]

def k0_chk147 (k0_t1 : Fin k0_t1_loop.trips) (v1542 : BitVec 32) : Prop :=
  (∀ (k0_h1 : k0_cond1 k0_t1 = 1#1), ∀ a, (k0_off88 v1542) a + S1x8x64.size a ≤ S125000x8x64.size a)
instance k0_chk147.dec : ∀ (k0_t1 : Fin k0_t1_loop.trips) (v1542 : BitVec 32), Decidable (k0_chk147 k0_t1 v1542) := fun k0_t1 v1542 => decidable_of_iff' _ (Iff.of_eq (k0_chk147.eq_1 k0_t1 v1542))
theorem k0_off88_inb : ∀ (k0_t1 : Fin k0_t1_loop.trips) (v1542 : BitVec 32) (k0_hw147 : k0_chk147 k0_t1 v1542), ∀ (k0_h1 : k0_cond1 k0_t1 = 1#1), ∀ a, (k0_off88 v1542) a + S1x8x64.size a ≤ S125000x8x64.size a := fun k0_t1 v1542 k0_hw147 k0_h1 => k0_hw147 k0_h1

def k0_off89 (v1552 : BitVec 32) : Fin 3 → Nat :=
  let c0_i32_876 : BitVec 32 := 0#32
  let c0_i32_877 : BitVec 32 := 0#32
  ![v1552.toNat, 0, 0]

def k0_chk148 (k0_t1 : Fin k0_t1_loop.trips) (v1552 : BitVec 32) : Prop :=
  (∀ (k0_h1 : k0_cond1 k0_t1 = 1#1), ∀ a, (k0_off89 v1552) a + S1x8x64.size a ≤ S125000x8x64.size a)
instance k0_chk148.dec : ∀ (k0_t1 : Fin k0_t1_loop.trips) (v1552 : BitVec 32), Decidable (k0_chk148 k0_t1 v1552) := fun k0_t1 v1552 => decidable_of_iff' _ (Iff.of_eq (k0_chk148.eq_1 k0_t1 v1552))
theorem k0_off89_inb : ∀ (k0_t1 : Fin k0_t1_loop.trips) (v1552 : BitVec 32) (k0_hw148 : k0_chk148 k0_t1 v1552), ∀ (k0_h1 : k0_cond1 k0_t1 = 1#1), ∀ a, (k0_off89 v1552) a + S1x8x64.size a ≤ S125000x8x64.size a := fun k0_t1 v1552 k0_hw148 k0_h1 => k0_hw148 k0_h1

def k0_off90 (v1562 : BitVec 32) : Fin 3 → Nat :=
  let c0_i32_885 : BitVec 32 := 0#32
  let c0_i32_886 : BitVec 32 := 0#32
  ![v1562.toNat, 0, 0]

def k0_chk149 (k0_t1 : Fin k0_t1_loop.trips) (v1562 : BitVec 32) : Prop :=
  (∀ (k0_h1 : k0_cond1 k0_t1 = 1#1), ∀ a, (k0_off90 v1562) a + S1x8x64.size a ≤ S125000x8x64.size a)
instance k0_chk149.dec : ∀ (k0_t1 : Fin k0_t1_loop.trips) (v1562 : BitVec 32), Decidable (k0_chk149 k0_t1 v1562) := fun k0_t1 v1562 => decidable_of_iff' _ (Iff.of_eq (k0_chk149.eq_1 k0_t1 v1562))
theorem k0_off90_inb : ∀ (k0_t1 : Fin k0_t1_loop.trips) (v1562 : BitVec 32) (k0_hw149 : k0_chk149 k0_t1 v1562), ∀ (k0_h1 : k0_cond1 k0_t1 = 1#1), ∀ a, (k0_off90 v1562) a + S1x8x64.size a ≤ S125000x8x64.size a := fun k0_t1 v1562 k0_hw149 k0_h1 => k0_hw149 k0_h1

def k0_off91 (v1572 : BitVec 32) : Fin 3 → Nat :=
  let c0_i32_894 : BitVec 32 := 0#32
  let c0_i32_895 : BitVec 32 := 0#32
  ![v1572.toNat, 0, 0]

def k0_chk150 (k0_t1 : Fin k0_t1_loop.trips) (v1572 : BitVec 32) : Prop :=
  (∀ (k0_h1 : k0_cond1 k0_t1 = 1#1), ∀ a, (k0_off91 v1572) a + S1x8x64.size a ≤ S125000x8x64.size a)
instance k0_chk150.dec : ∀ (k0_t1 : Fin k0_t1_loop.trips) (v1572 : BitVec 32), Decidable (k0_chk150 k0_t1 v1572) := fun k0_t1 v1572 => decidable_of_iff' _ (Iff.of_eq (k0_chk150.eq_1 k0_t1 v1572))
theorem k0_off91_inb : ∀ (k0_t1 : Fin k0_t1_loop.trips) (v1572 : BitVec 32) (k0_hw150 : k0_chk150 k0_t1 v1572), ∀ (k0_h1 : k0_cond1 k0_t1 = 1#1), ∀ a, (k0_off91 v1572) a + S1x8x64.size a ≤ S125000x8x64.size a := fun k0_t1 v1572 k0_hw150 k0_h1 => k0_hw150 k0_h1

def k0_off92 (v1582 : BitVec 32) : Fin 3 → Nat :=
  let c0_i32_903 : BitVec 32 := 0#32
  let c0_i32_904 : BitVec 32 := 0#32
  ![v1582.toNat, 0, 0]

def k0_chk151 (k0_t1 : Fin k0_t1_loop.trips) (v1582 : BitVec 32) : Prop :=
  (∀ (k0_h1 : k0_cond1 k0_t1 = 1#1), ∀ a, (k0_off92 v1582) a + S1x8x64.size a ≤ S125000x8x64.size a)
instance k0_chk151.dec : ∀ (k0_t1 : Fin k0_t1_loop.trips) (v1582 : BitVec 32), Decidable (k0_chk151 k0_t1 v1582) := fun k0_t1 v1582 => decidable_of_iff' _ (Iff.of_eq (k0_chk151.eq_1 k0_t1 v1582))
theorem k0_off92_inb : ∀ (k0_t1 : Fin k0_t1_loop.trips) (v1582 : BitVec 32) (k0_hw151 : k0_chk151 k0_t1 v1582), ∀ (k0_h1 : k0_cond1 k0_t1 = 1#1), ∀ a, (k0_off92 v1582) a + S1x8x64.size a ≤ S125000x8x64.size a := fun k0_t1 v1582 k0_hw151 k0_h1 => k0_hw151 k0_h1

def k0_off93 (v1592 : BitVec 32) : Fin 3 → Nat :=
  let c0_i32_912 : BitVec 32 := 0#32
  let c0_i32_913 : BitVec 32 := 0#32
  ![v1592.toNat, 0, 0]

def k0_chk152 (k0_t1 : Fin k0_t1_loop.trips) (v1592 : BitVec 32) : Prop :=
  (∀ (k0_h1 : k0_cond1 k0_t1 = 1#1), ∀ a, (k0_off93 v1592) a + S1x8x64.size a ≤ S125000x8x64.size a)
instance k0_chk152.dec : ∀ (k0_t1 : Fin k0_t1_loop.trips) (v1592 : BitVec 32), Decidable (k0_chk152 k0_t1 v1592) := fun k0_t1 v1592 => decidable_of_iff' _ (Iff.of_eq (k0_chk152.eq_1 k0_t1 v1592))
theorem k0_off93_inb : ∀ (k0_t1 : Fin k0_t1_loop.trips) (v1592 : BitVec 32) (k0_hw152 : k0_chk152 k0_t1 v1592), ∀ (k0_h1 : k0_cond1 k0_t1 = 1#1), ∀ a, (k0_off93 v1592) a + S1x8x64.size a ≤ S125000x8x64.size a := fun k0_t1 v1592 k0_hw152 k0_h1 => k0_hw152 k0_h1

def k0_off94 (v1602 : BitVec 32) : Fin 3 → Nat :=
  let c0_i32_921 : BitVec 32 := 0#32
  let c0_i32_922 : BitVec 32 := 0#32
  ![v1602.toNat, 0, 0]

def k0_chk153 (k0_t1 : Fin k0_t1_loop.trips) (v1602 : BitVec 32) : Prop :=
  (∀ (k0_h1 : k0_cond1 k0_t1 = 1#1), ∀ a, (k0_off94 v1602) a + S1x8x64.size a ≤ S125000x8x64.size a)
instance k0_chk153.dec : ∀ (k0_t1 : Fin k0_t1_loop.trips) (v1602 : BitVec 32), Decidable (k0_chk153 k0_t1 v1602) := fun k0_t1 v1602 => decidable_of_iff' _ (Iff.of_eq (k0_chk153.eq_1 k0_t1 v1602))
theorem k0_off94_inb : ∀ (k0_t1 : Fin k0_t1_loop.trips) (v1602 : BitVec 32) (k0_hw153 : k0_chk153 k0_t1 v1602), ∀ (k0_h1 : k0_cond1 k0_t1 = 1#1), ∀ a, (k0_off94 v1602) a + S1x8x64.size a ≤ S125000x8x64.size a := fun k0_t1 v1602 k0_hw153 k0_h1 => k0_hw153 k0_h1

def k0_off95 (v1612 : BitVec 32) : Fin 3 → Nat :=
  let c0_i32_930 : BitVec 32 := 0#32
  let c0_i32_931 : BitVec 32 := 0#32
  ![v1612.toNat, 0, 0]

def k0_chk154 (k0_t1 : Fin k0_t1_loop.trips) (v1612 : BitVec 32) : Prop :=
  (∀ (k0_h1 : k0_cond1 k0_t1 = 1#1), ∀ a, (k0_off95 v1612) a + S1x8x64.size a ≤ S125000x8x64.size a)
instance k0_chk154.dec : ∀ (k0_t1 : Fin k0_t1_loop.trips) (v1612 : BitVec 32), Decidable (k0_chk154 k0_t1 v1612) := fun k0_t1 v1612 => decidable_of_iff' _ (Iff.of_eq (k0_chk154.eq_1 k0_t1 v1612))
theorem k0_off95_inb : ∀ (k0_t1 : Fin k0_t1_loop.trips) (v1612 : BitVec 32) (k0_hw154 : k0_chk154 k0_t1 v1612), ∀ (k0_h1 : k0_cond1 k0_t1 = 1#1), ∀ a, (k0_off95 v1612) a + S1x8x64.size a ≤ S125000x8x64.size a := fun k0_t1 v1612 k0_hw154 k0_h1 => k0_hw154 k0_h1

def k0_off96 (v1622 : BitVec 32) : Fin 3 → Nat :=
  let c0_i32_939 : BitVec 32 := 0#32
  let c0_i32_940 : BitVec 32 := 0#32
  ![v1622.toNat, 0, 0]

def k0_chk155 (k0_t1 : Fin k0_t1_loop.trips) (v1622 : BitVec 32) : Prop :=
  (∀ (k0_h1 : k0_cond1 k0_t1 = 1#1), ∀ a, (k0_off96 v1622) a + S1x8x64.size a ≤ S125000x8x64.size a)
instance k0_chk155.dec : ∀ (k0_t1 : Fin k0_t1_loop.trips) (v1622 : BitVec 32), Decidable (k0_chk155 k0_t1 v1622) := fun k0_t1 v1622 => decidable_of_iff' _ (Iff.of_eq (k0_chk155.eq_1 k0_t1 v1622))
theorem k0_off96_inb : ∀ (k0_t1 : Fin k0_t1_loop.trips) (v1622 : BitVec 32) (k0_hw155 : k0_chk155 k0_t1 v1622), ∀ (k0_h1 : k0_cond1 k0_t1 = 1#1), ∀ a, (k0_off96 v1622) a + S1x8x64.size a ≤ S125000x8x64.size a := fun k0_t1 v1622 k0_hw155 k0_h1 => k0_hw155 k0_h1

def k0_off97 (v1632 : BitVec 32) : Fin 3 → Nat :=
  let c0_i32_948 : BitVec 32 := 0#32
  let c0_i32_949 : BitVec 32 := 0#32
  ![v1632.toNat, 0, 0]

def k0_chk156 (k0_t1 : Fin k0_t1_loop.trips) (v1632 : BitVec 32) : Prop :=
  (∀ (k0_h1 : k0_cond1 k0_t1 = 1#1), ∀ a, (k0_off97 v1632) a + S1x8x64.size a ≤ S125000x8x64.size a)
instance k0_chk156.dec : ∀ (k0_t1 : Fin k0_t1_loop.trips) (v1632 : BitVec 32), Decidable (k0_chk156 k0_t1 v1632) := fun k0_t1 v1632 => decidable_of_iff' _ (Iff.of_eq (k0_chk156.eq_1 k0_t1 v1632))
theorem k0_off97_inb : ∀ (k0_t1 : Fin k0_t1_loop.trips) (v1632 : BitVec 32) (k0_hw156 : k0_chk156 k0_t1 v1632), ∀ (k0_h1 : k0_cond1 k0_t1 = 1#1), ∀ a, (k0_off97 v1632) a + S1x8x64.size a ≤ S125000x8x64.size a := fun k0_t1 v1632 k0_hw156 k0_h1 => k0_hw156 k0_h1

def k0_off98 (v1642 : BitVec 32) : Fin 3 → Nat :=
  let c0_i32_957 : BitVec 32 := 0#32
  let c0_i32_958 : BitVec 32 := 0#32
  ![v1642.toNat, 0, 0]

def k0_chk157 (k0_t1 : Fin k0_t1_loop.trips) (v1642 : BitVec 32) : Prop :=
  (∀ (k0_h1 : k0_cond1 k0_t1 = 1#1), ∀ a, (k0_off98 v1642) a + S1x8x64.size a ≤ S125000x8x64.size a)
instance k0_chk157.dec : ∀ (k0_t1 : Fin k0_t1_loop.trips) (v1642 : BitVec 32), Decidable (k0_chk157 k0_t1 v1642) := fun k0_t1 v1642 => decidable_of_iff' _ (Iff.of_eq (k0_chk157.eq_1 k0_t1 v1642))
theorem k0_off98_inb : ∀ (k0_t1 : Fin k0_t1_loop.trips) (v1642 : BitVec 32) (k0_hw157 : k0_chk157 k0_t1 v1642), ∀ (k0_h1 : k0_cond1 k0_t1 = 1#1), ∀ a, (k0_off98 v1642) a + S1x8x64.size a ≤ S125000x8x64.size a := fun k0_t1 v1642 k0_hw157 k0_h1 => k0_hw157 k0_h1

def k0_off99 (v1652 : BitVec 32) : Fin 3 → Nat :=
  let c0_i32_966 : BitVec 32 := 0#32
  let c0_i32_967 : BitVec 32 := 0#32
  ![v1652.toNat, 0, 0]

def k0_chk158 (k0_t1 : Fin k0_t1_loop.trips) (v1652 : BitVec 32) : Prop :=
  (∀ (k0_h1 : k0_cond1 k0_t1 = 1#1), ∀ a, (k0_off99 v1652) a + S1x8x64.size a ≤ S125000x8x64.size a)
instance k0_chk158.dec : ∀ (k0_t1 : Fin k0_t1_loop.trips) (v1652 : BitVec 32), Decidable (k0_chk158 k0_t1 v1652) := fun k0_t1 v1652 => decidable_of_iff' _ (Iff.of_eq (k0_chk158.eq_1 k0_t1 v1652))
theorem k0_off99_inb : ∀ (k0_t1 : Fin k0_t1_loop.trips) (v1652 : BitVec 32) (k0_hw158 : k0_chk158 k0_t1 v1652), ∀ (k0_h1 : k0_cond1 k0_t1 = 1#1), ∀ a, (k0_off99 v1652) a + S1x8x64.size a ≤ S125000x8x64.size a := fun k0_t1 v1652 k0_hw158 k0_h1 => k0_hw158 k0_h1

def k0_off100 (v1662 : BitVec 32) : Fin 3 → Nat :=
  let c0_i32_975 : BitVec 32 := 0#32
  let c0_i32_976 : BitVec 32 := 0#32
  ![v1662.toNat, 0, 0]

def k0_chk159 (k0_t1 : Fin k0_t1_loop.trips) (v1662 : BitVec 32) : Prop :=
  (∀ (k0_h1 : k0_cond1 k0_t1 = 1#1), ∀ a, (k0_off100 v1662) a + S1x8x64.size a ≤ S125000x8x64.size a)
instance k0_chk159.dec : ∀ (k0_t1 : Fin k0_t1_loop.trips) (v1662 : BitVec 32), Decidable (k0_chk159 k0_t1 v1662) := fun k0_t1 v1662 => decidable_of_iff' _ (Iff.of_eq (k0_chk159.eq_1 k0_t1 v1662))
theorem k0_off100_inb : ∀ (k0_t1 : Fin k0_t1_loop.trips) (v1662 : BitVec 32) (k0_hw159 : k0_chk159 k0_t1 v1662), ∀ (k0_h1 : k0_cond1 k0_t1 = 1#1), ∀ a, (k0_off100 v1662) a + S1x8x64.size a ≤ S125000x8x64.size a := fun k0_t1 v1662 k0_hw159 k0_h1 => k0_hw159 k0_h1

def k0_off101 (v1672 : BitVec 32) : Fin 3 → Nat :=
  let c0_i32_984 : BitVec 32 := 0#32
  let c0_i32_985 : BitVec 32 := 0#32
  ![v1672.toNat, 0, 0]

def k0_chk160 (k0_t1 : Fin k0_t1_loop.trips) (v1672 : BitVec 32) : Prop :=
  (∀ (k0_h1 : k0_cond1 k0_t1 = 1#1), ∀ a, (k0_off101 v1672) a + S1x8x64.size a ≤ S125000x8x64.size a)
instance k0_chk160.dec : ∀ (k0_t1 : Fin k0_t1_loop.trips) (v1672 : BitVec 32), Decidable (k0_chk160 k0_t1 v1672) := fun k0_t1 v1672 => decidable_of_iff' _ (Iff.of_eq (k0_chk160.eq_1 k0_t1 v1672))
theorem k0_off101_inb : ∀ (k0_t1 : Fin k0_t1_loop.trips) (v1672 : BitVec 32) (k0_hw160 : k0_chk160 k0_t1 v1672), ∀ (k0_h1 : k0_cond1 k0_t1 = 1#1), ∀ a, (k0_off101 v1672) a + S1x8x64.size a ≤ S125000x8x64.size a := fun k0_t1 v1672 k0_hw160 k0_h1 => k0_hw160 k0_h1

def k0_off102 (k0_t1 : Fin k0_t1_loop.trips) : Fin 1 → Nat :=
  let c0_i32_277 : BitVec 32 := 0#32
  let c1_i32_278 : BitVec 32 := 1#32
  let arg18 : BitVec 32 := Scf.iv c0_i32_277 c1_i32_278 k0_t1
  let c2_i32_280 : BitVec 32 := 2#32
  let v330 : BitVec 32 := Scalar.muli arg18 c2_i32_280
  let c1_i32_624 : BitVec 32 := 1#32
  let v1011 : BitVec 32 := Scalar.addi v330 c1_i32_624
  let c16_i32_625 : BitVec 32 := 16#32
  let v1012 : BitVec 32 := Scalar.muli v1011 c16_i32_625
  let c0_i32_626 : BitVec 32 := 0#32
  let v1013 : BitVec 32 := Scalar.addi v1012 c0_i32_626
  let v1014 : Index := Scalar.indexCast v1013
  ![v1014.toNat]

def k0_chk161 (v1017 : IVec S16 32) (v1021 : IVec S16 32) (v1024 : IVec S16 32) (v1026 : IVec S16 32) : Prop :=
  (∀ a x, ((![v1024, v1017, v1026] : Fin 3 → IVec S16 32) a x).toNat < S16x8x64.size a) ∧
  (∀ a x, ((![v1024, v1021, v1026] : Fin 3 → IVec S16 32) a x).toNat < S16x8x64.size a)
instance k0_chk161.dec : ∀ (v1017 : IVec S16 32) (v1021 : IVec S16 32) (v1024 : IVec S16 32) (v1026 : IVec S16 32), Decidable (k0_chk161 v1017 v1021 v1024 v1026) := fun v1017 v1021 v1024 v1026 => decidable_of_iff' _ (Iff.of_eq (k0_chk161.eq_1 v1017 v1021 v1024 v1026))
theorem k0_idx129_inb : ∀ (v1017 : IVec S16 32) (v1021 : IVec S16 32) (v1024 : IVec S16 32) (v1026 : IVec S16 32) (k0_hw161 : k0_chk161 v1017 v1021 v1024 v1026), ∀ a x, ((![v1024, v1017, v1026] : Fin 3 → IVec S16 32) a x).toNat < S16x8x64.size a := fun v1017 v1021 v1024 v1026 k0_hw161 => k0_hw161.1
theorem k0_idx130_inb : ∀ (v1017 : IVec S16 32) (v1021 : IVec S16 32) (v1024 : IVec S16 32) (v1026 : IVec S16 32) (k0_hw161 : k0_chk161 v1017 v1021 v1024 v1026), ∀ a x, ((![v1024, v1021, v1026] : Fin 3 → IVec S16 32) a x).toNat < S16x8x64.size a := fun v1017 v1021 v1024 v1026 k0_hw161 => k0_hw161.2

def k0_chk162 (v1017 : IVec S16 32) (v1021 : IVec S16 32) (v1024 : IVec S16 32) (v1031 : IVec S16 32) : Prop :=
  (∀ a x, ((![v1024, v1017, v1031] : Fin 3 → IVec S16 32) a x).toNat < S16x8x64.size a) ∧
  (∀ a x, ((![v1024, v1021, v1031] : Fin 3 → IVec S16 32) a x).toNat < S16x8x64.size a)
instance k0_chk162.dec : ∀ (v1017 : IVec S16 32) (v1021 : IVec S16 32) (v1024 : IVec S16 32) (v1031 : IVec S16 32), Decidable (k0_chk162 v1017 v1021 v1024 v1031) := fun v1017 v1021 v1024 v1031 => decidable_of_iff' _ (Iff.of_eq (k0_chk162.eq_1 v1017 v1021 v1024 v1031))
theorem k0_idx131_inb : ∀ (v1017 : IVec S16 32) (v1021 : IVec S16 32) (v1024 : IVec S16 32) (v1031 : IVec S16 32) (k0_hw162 : k0_chk162 v1017 v1021 v1024 v1031), ∀ a x, ((![v1024, v1017, v1031] : Fin 3 → IVec S16 32) a x).toNat < S16x8x64.size a := fun v1017 v1021 v1024 v1031 k0_hw162 => k0_hw162.1
theorem k0_idx132_inb : ∀ (v1017 : IVec S16 32) (v1021 : IVec S16 32) (v1024 : IVec S16 32) (v1031 : IVec S16 32) (k0_hw162 : k0_chk162 v1017 v1021 v1024 v1031), ∀ a x, ((![v1024, v1021, v1031] : Fin 3 → IVec S16 32) a x).toNat < S16x8x64.size a := fun v1017 v1021 v1024 v1031 k0_hw162 => k0_hw162.2

def k0_chk163 (v1017 : IVec S16 32) (v1021 : IVec S16 32) (v1024 : IVec S16 32) (v1036 : IVec S16 32) : Prop :=
  (∀ a x, ((![v1024, v1017, v1036] : Fin 3 → IVec S16 32) a x).toNat < S16x8x64.size a) ∧
  (∀ a x, ((![v1024, v1021, v1036] : Fin 3 → IVec S16 32) a x).toNat < S16x8x64.size a)
instance k0_chk163.dec : ∀ (v1017 : IVec S16 32) (v1021 : IVec S16 32) (v1024 : IVec S16 32) (v1036 : IVec S16 32), Decidable (k0_chk163 v1017 v1021 v1024 v1036) := fun v1017 v1021 v1024 v1036 => decidable_of_iff' _ (Iff.of_eq (k0_chk163.eq_1 v1017 v1021 v1024 v1036))
theorem k0_idx133_inb : ∀ (v1017 : IVec S16 32) (v1021 : IVec S16 32) (v1024 : IVec S16 32) (v1036 : IVec S16 32) (k0_hw163 : k0_chk163 v1017 v1021 v1024 v1036), ∀ a x, ((![v1024, v1017, v1036] : Fin 3 → IVec S16 32) a x).toNat < S16x8x64.size a := fun v1017 v1021 v1024 v1036 k0_hw163 => k0_hw163.1
theorem k0_idx134_inb : ∀ (v1017 : IVec S16 32) (v1021 : IVec S16 32) (v1024 : IVec S16 32) (v1036 : IVec S16 32) (k0_hw163 : k0_chk163 v1017 v1021 v1024 v1036), ∀ a x, ((![v1024, v1021, v1036] : Fin 3 → IVec S16 32) a x).toNat < S16x8x64.size a := fun v1017 v1021 v1024 v1036 k0_hw163 => k0_hw163.2

def k0_chk164 (v1017 : IVec S16 32) (v1021 : IVec S16 32) (v1024 : IVec S16 32) (v1041 : IVec S16 32) : Prop :=
  (∀ a x, ((![v1024, v1017, v1041] : Fin 3 → IVec S16 32) a x).toNat < S16x8x64.size a) ∧
  (∀ a x, ((![v1024, v1021, v1041] : Fin 3 → IVec S16 32) a x).toNat < S16x8x64.size a)
instance k0_chk164.dec : ∀ (v1017 : IVec S16 32) (v1021 : IVec S16 32) (v1024 : IVec S16 32) (v1041 : IVec S16 32), Decidable (k0_chk164 v1017 v1021 v1024 v1041) := fun v1017 v1021 v1024 v1041 => decidable_of_iff' _ (Iff.of_eq (k0_chk164.eq_1 v1017 v1021 v1024 v1041))
theorem k0_idx135_inb : ∀ (v1017 : IVec S16 32) (v1021 : IVec S16 32) (v1024 : IVec S16 32) (v1041 : IVec S16 32) (k0_hw164 : k0_chk164 v1017 v1021 v1024 v1041), ∀ a x, ((![v1024, v1017, v1041] : Fin 3 → IVec S16 32) a x).toNat < S16x8x64.size a := fun v1017 v1021 v1024 v1041 k0_hw164 => k0_hw164.1
theorem k0_idx136_inb : ∀ (v1017 : IVec S16 32) (v1021 : IVec S16 32) (v1024 : IVec S16 32) (v1041 : IVec S16 32) (k0_hw164 : k0_chk164 v1017 v1021 v1024 v1041), ∀ a x, ((![v1024, v1021, v1041] : Fin 3 → IVec S16 32) a x).toNat < S16x8x64.size a := fun v1017 v1021 v1024 v1041 k0_hw164 => k0_hw164.2

def k0_chk165 (v1017 : IVec S16 32) (v1021 : IVec S16 32) (v1024 : IVec S16 32) (v1046 : IVec S16 32) : Prop :=
  (∀ a x, ((![v1024, v1017, v1046] : Fin 3 → IVec S16 32) a x).toNat < S16x8x64.size a) ∧
  (∀ a x, ((![v1024, v1021, v1046] : Fin 3 → IVec S16 32) a x).toNat < S16x8x64.size a)
instance k0_chk165.dec : ∀ (v1017 : IVec S16 32) (v1021 : IVec S16 32) (v1024 : IVec S16 32) (v1046 : IVec S16 32), Decidable (k0_chk165 v1017 v1021 v1024 v1046) := fun v1017 v1021 v1024 v1046 => decidable_of_iff' _ (Iff.of_eq (k0_chk165.eq_1 v1017 v1021 v1024 v1046))
theorem k0_idx137_inb : ∀ (v1017 : IVec S16 32) (v1021 : IVec S16 32) (v1024 : IVec S16 32) (v1046 : IVec S16 32) (k0_hw165 : k0_chk165 v1017 v1021 v1024 v1046), ∀ a x, ((![v1024, v1017, v1046] : Fin 3 → IVec S16 32) a x).toNat < S16x8x64.size a := fun v1017 v1021 v1024 v1046 k0_hw165 => k0_hw165.1
theorem k0_idx138_inb : ∀ (v1017 : IVec S16 32) (v1021 : IVec S16 32) (v1024 : IVec S16 32) (v1046 : IVec S16 32) (k0_hw165 : k0_chk165 v1017 v1021 v1024 v1046), ∀ a x, ((![v1024, v1021, v1046] : Fin 3 → IVec S16 32) a x).toNat < S16x8x64.size a := fun v1017 v1021 v1024 v1046 k0_hw165 => k0_hw165.2

def k0_chk166 (v1017 : IVec S16 32) (v1021 : IVec S16 32) (v1024 : IVec S16 32) (v1051 : IVec S16 32) : Prop :=
  (∀ a x, ((![v1024, v1017, v1051] : Fin 3 → IVec S16 32) a x).toNat < S16x8x64.size a) ∧
  (∀ a x, ((![v1024, v1021, v1051] : Fin 3 → IVec S16 32) a x).toNat < S16x8x64.size a)
instance k0_chk166.dec : ∀ (v1017 : IVec S16 32) (v1021 : IVec S16 32) (v1024 : IVec S16 32) (v1051 : IVec S16 32), Decidable (k0_chk166 v1017 v1021 v1024 v1051) := fun v1017 v1021 v1024 v1051 => decidable_of_iff' _ (Iff.of_eq (k0_chk166.eq_1 v1017 v1021 v1024 v1051))
theorem k0_idx139_inb : ∀ (v1017 : IVec S16 32) (v1021 : IVec S16 32) (v1024 : IVec S16 32) (v1051 : IVec S16 32) (k0_hw166 : k0_chk166 v1017 v1021 v1024 v1051), ∀ a x, ((![v1024, v1017, v1051] : Fin 3 → IVec S16 32) a x).toNat < S16x8x64.size a := fun v1017 v1021 v1024 v1051 k0_hw166 => k0_hw166.1
theorem k0_idx140_inb : ∀ (v1017 : IVec S16 32) (v1021 : IVec S16 32) (v1024 : IVec S16 32) (v1051 : IVec S16 32) (k0_hw166 : k0_chk166 v1017 v1021 v1024 v1051), ∀ a x, ((![v1024, v1021, v1051] : Fin 3 → IVec S16 32) a x).toNat < S16x8x64.size a := fun v1017 v1021 v1024 v1051 k0_hw166 => k0_hw166.2

def k0_chk167 (v1017 : IVec S16 32) (v1021 : IVec S16 32) (v1024 : IVec S16 32) (v1056 : IVec S16 32) : Prop :=
  (∀ a x, ((![v1024, v1017, v1056] : Fin 3 → IVec S16 32) a x).toNat < S16x8x64.size a) ∧
  (∀ a x, ((![v1024, v1021, v1056] : Fin 3 → IVec S16 32) a x).toNat < S16x8x64.size a)
instance k0_chk167.dec : ∀ (v1017 : IVec S16 32) (v1021 : IVec S16 32) (v1024 : IVec S16 32) (v1056 : IVec S16 32), Decidable (k0_chk167 v1017 v1021 v1024 v1056) := fun v1017 v1021 v1024 v1056 => decidable_of_iff' _ (Iff.of_eq (k0_chk167.eq_1 v1017 v1021 v1024 v1056))
theorem k0_idx141_inb : ∀ (v1017 : IVec S16 32) (v1021 : IVec S16 32) (v1024 : IVec S16 32) (v1056 : IVec S16 32) (k0_hw167 : k0_chk167 v1017 v1021 v1024 v1056), ∀ a x, ((![v1024, v1017, v1056] : Fin 3 → IVec S16 32) a x).toNat < S16x8x64.size a := fun v1017 v1021 v1024 v1056 k0_hw167 => k0_hw167.1
theorem k0_idx142_inb : ∀ (v1017 : IVec S16 32) (v1021 : IVec S16 32) (v1024 : IVec S16 32) (v1056 : IVec S16 32) (k0_hw167 : k0_chk167 v1017 v1021 v1024 v1056), ∀ a x, ((![v1024, v1021, v1056] : Fin 3 → IVec S16 32) a x).toNat < S16x8x64.size a := fun v1017 v1021 v1024 v1056 k0_hw167 => k0_hw167.2

def k0_chk168 (v1017 : IVec S16 32) (v1021 : IVec S16 32) (v1024 : IVec S16 32) (v1061 : IVec S16 32) : Prop :=
  (∀ a x, ((![v1024, v1017, v1061] : Fin 3 → IVec S16 32) a x).toNat < S16x8x64.size a) ∧
  (∀ a x, ((![v1024, v1021, v1061] : Fin 3 → IVec S16 32) a x).toNat < S16x8x64.size a)
instance k0_chk168.dec : ∀ (v1017 : IVec S16 32) (v1021 : IVec S16 32) (v1024 : IVec S16 32) (v1061 : IVec S16 32), Decidable (k0_chk168 v1017 v1021 v1024 v1061) := fun v1017 v1021 v1024 v1061 => decidable_of_iff' _ (Iff.of_eq (k0_chk168.eq_1 v1017 v1021 v1024 v1061))
theorem k0_idx143_inb : ∀ (v1017 : IVec S16 32) (v1021 : IVec S16 32) (v1024 : IVec S16 32) (v1061 : IVec S16 32) (k0_hw168 : k0_chk168 v1017 v1021 v1024 v1061), ∀ a x, ((![v1024, v1017, v1061] : Fin 3 → IVec S16 32) a x).toNat < S16x8x64.size a := fun v1017 v1021 v1024 v1061 k0_hw168 => k0_hw168.1
theorem k0_idx144_inb : ∀ (v1017 : IVec S16 32) (v1021 : IVec S16 32) (v1024 : IVec S16 32) (v1061 : IVec S16 32) (k0_hw168 : k0_chk168 v1017 v1021 v1024 v1061), ∀ a x, ((![v1024, v1021, v1061] : Fin 3 → IVec S16 32) a x).toNat < S16x8x64.size a := fun v1017 v1021 v1024 v1061 k0_hw168 => k0_hw168.2

def k0_chk169 (v1017 : IVec S16 32) (v1021 : IVec S16 32) (v1024 : IVec S16 32) (v1066 : IVec S16 32) : Prop :=
  (∀ a x, ((![v1024, v1017, v1066] : Fin 3 → IVec S16 32) a x).toNat < S16x8x64.size a) ∧
  (∀ a x, ((![v1024, v1021, v1066] : Fin 3 → IVec S16 32) a x).toNat < S16x8x64.size a)
instance k0_chk169.dec : ∀ (v1017 : IVec S16 32) (v1021 : IVec S16 32) (v1024 : IVec S16 32) (v1066 : IVec S16 32), Decidable (k0_chk169 v1017 v1021 v1024 v1066) := fun v1017 v1021 v1024 v1066 => decidable_of_iff' _ (Iff.of_eq (k0_chk169.eq_1 v1017 v1021 v1024 v1066))
theorem k0_idx145_inb : ∀ (v1017 : IVec S16 32) (v1021 : IVec S16 32) (v1024 : IVec S16 32) (v1066 : IVec S16 32) (k0_hw169 : k0_chk169 v1017 v1021 v1024 v1066), ∀ a x, ((![v1024, v1017, v1066] : Fin 3 → IVec S16 32) a x).toNat < S16x8x64.size a := fun v1017 v1021 v1024 v1066 k0_hw169 => k0_hw169.1
theorem k0_idx146_inb : ∀ (v1017 : IVec S16 32) (v1021 : IVec S16 32) (v1024 : IVec S16 32) (v1066 : IVec S16 32) (k0_hw169 : k0_chk169 v1017 v1021 v1024 v1066), ∀ a x, ((![v1024, v1021, v1066] : Fin 3 → IVec S16 32) a x).toNat < S16x8x64.size a := fun v1017 v1021 v1024 v1066 k0_hw169 => k0_hw169.2

def k0_chk170 (v1017 : IVec S16 32) (v1021 : IVec S16 32) (v1024 : IVec S16 32) (v1071 : IVec S16 32) : Prop :=
  (∀ a x, ((![v1024, v1017, v1071] : Fin 3 → IVec S16 32) a x).toNat < S16x8x64.size a) ∧
  (∀ a x, ((![v1024, v1021, v1071] : Fin 3 → IVec S16 32) a x).toNat < S16x8x64.size a)
instance k0_chk170.dec : ∀ (v1017 : IVec S16 32) (v1021 : IVec S16 32) (v1024 : IVec S16 32) (v1071 : IVec S16 32), Decidable (k0_chk170 v1017 v1021 v1024 v1071) := fun v1017 v1021 v1024 v1071 => decidable_of_iff' _ (Iff.of_eq (k0_chk170.eq_1 v1017 v1021 v1024 v1071))
theorem k0_idx147_inb : ∀ (v1017 : IVec S16 32) (v1021 : IVec S16 32) (v1024 : IVec S16 32) (v1071 : IVec S16 32) (k0_hw170 : k0_chk170 v1017 v1021 v1024 v1071), ∀ a x, ((![v1024, v1017, v1071] : Fin 3 → IVec S16 32) a x).toNat < S16x8x64.size a := fun v1017 v1021 v1024 v1071 k0_hw170 => k0_hw170.1
theorem k0_idx148_inb : ∀ (v1017 : IVec S16 32) (v1021 : IVec S16 32) (v1024 : IVec S16 32) (v1071 : IVec S16 32) (k0_hw170 : k0_chk170 v1017 v1021 v1024 v1071), ∀ a x, ((![v1024, v1021, v1071] : Fin 3 → IVec S16 32) a x).toNat < S16x8x64.size a := fun v1017 v1021 v1024 v1071 k0_hw170 => k0_hw170.2

def k0_chk171 (v1017 : IVec S16 32) (v1021 : IVec S16 32) (v1024 : IVec S16 32) (v1076 : IVec S16 32) : Prop :=
  (∀ a x, ((![v1024, v1017, v1076] : Fin 3 → IVec S16 32) a x).toNat < S16x8x64.size a) ∧
  (∀ a x, ((![v1024, v1021, v1076] : Fin 3 → IVec S16 32) a x).toNat < S16x8x64.size a)
instance k0_chk171.dec : ∀ (v1017 : IVec S16 32) (v1021 : IVec S16 32) (v1024 : IVec S16 32) (v1076 : IVec S16 32), Decidable (k0_chk171 v1017 v1021 v1024 v1076) := fun v1017 v1021 v1024 v1076 => decidable_of_iff' _ (Iff.of_eq (k0_chk171.eq_1 v1017 v1021 v1024 v1076))
theorem k0_idx149_inb : ∀ (v1017 : IVec S16 32) (v1021 : IVec S16 32) (v1024 : IVec S16 32) (v1076 : IVec S16 32) (k0_hw171 : k0_chk171 v1017 v1021 v1024 v1076), ∀ a x, ((![v1024, v1017, v1076] : Fin 3 → IVec S16 32) a x).toNat < S16x8x64.size a := fun v1017 v1021 v1024 v1076 k0_hw171 => k0_hw171.1
theorem k0_idx150_inb : ∀ (v1017 : IVec S16 32) (v1021 : IVec S16 32) (v1024 : IVec S16 32) (v1076 : IVec S16 32) (k0_hw171 : k0_chk171 v1017 v1021 v1024 v1076), ∀ a x, ((![v1024, v1021, v1076] : Fin 3 → IVec S16 32) a x).toNat < S16x8x64.size a := fun v1017 v1021 v1024 v1076 k0_hw171 => k0_hw171.2

def k0_chk172 (v1017 : IVec S16 32) (v1021 : IVec S16 32) (v1024 : IVec S16 32) (v1081 : IVec S16 32) : Prop :=
  (∀ a x, ((![v1024, v1017, v1081] : Fin 3 → IVec S16 32) a x).toNat < S16x8x64.size a) ∧
  (∀ a x, ((![v1024, v1021, v1081] : Fin 3 → IVec S16 32) a x).toNat < S16x8x64.size a)
instance k0_chk172.dec : ∀ (v1017 : IVec S16 32) (v1021 : IVec S16 32) (v1024 : IVec S16 32) (v1081 : IVec S16 32), Decidable (k0_chk172 v1017 v1021 v1024 v1081) := fun v1017 v1021 v1024 v1081 => decidable_of_iff' _ (Iff.of_eq (k0_chk172.eq_1 v1017 v1021 v1024 v1081))
theorem k0_idx151_inb : ∀ (v1017 : IVec S16 32) (v1021 : IVec S16 32) (v1024 : IVec S16 32) (v1081 : IVec S16 32) (k0_hw172 : k0_chk172 v1017 v1021 v1024 v1081), ∀ a x, ((![v1024, v1017, v1081] : Fin 3 → IVec S16 32) a x).toNat < S16x8x64.size a := fun v1017 v1021 v1024 v1081 k0_hw172 => k0_hw172.1
theorem k0_idx152_inb : ∀ (v1017 : IVec S16 32) (v1021 : IVec S16 32) (v1024 : IVec S16 32) (v1081 : IVec S16 32) (k0_hw172 : k0_chk172 v1017 v1021 v1024 v1081), ∀ a x, ((![v1024, v1021, v1081] : Fin 3 → IVec S16 32) a x).toNat < S16x8x64.size a := fun v1017 v1021 v1024 v1081 k0_hw172 => k0_hw172.2

def k0_chk173 (v1017 : IVec S16 32) (v1021 : IVec S16 32) (v1024 : IVec S16 32) (v1086 : IVec S16 32) : Prop :=
  (∀ a x, ((![v1024, v1017, v1086] : Fin 3 → IVec S16 32) a x).toNat < S16x8x64.size a) ∧
  (∀ a x, ((![v1024, v1021, v1086] : Fin 3 → IVec S16 32) a x).toNat < S16x8x64.size a)
instance k0_chk173.dec : ∀ (v1017 : IVec S16 32) (v1021 : IVec S16 32) (v1024 : IVec S16 32) (v1086 : IVec S16 32), Decidable (k0_chk173 v1017 v1021 v1024 v1086) := fun v1017 v1021 v1024 v1086 => decidable_of_iff' _ (Iff.of_eq (k0_chk173.eq_1 v1017 v1021 v1024 v1086))
theorem k0_idx153_inb : ∀ (v1017 : IVec S16 32) (v1021 : IVec S16 32) (v1024 : IVec S16 32) (v1086 : IVec S16 32) (k0_hw173 : k0_chk173 v1017 v1021 v1024 v1086), ∀ a x, ((![v1024, v1017, v1086] : Fin 3 → IVec S16 32) a x).toNat < S16x8x64.size a := fun v1017 v1021 v1024 v1086 k0_hw173 => k0_hw173.1
theorem k0_idx154_inb : ∀ (v1017 : IVec S16 32) (v1021 : IVec S16 32) (v1024 : IVec S16 32) (v1086 : IVec S16 32) (k0_hw173 : k0_chk173 v1017 v1021 v1024 v1086), ∀ a x, ((![v1024, v1021, v1086] : Fin 3 → IVec S16 32) a x).toNat < S16x8x64.size a := fun v1017 v1021 v1024 v1086 k0_hw173 => k0_hw173.2

def k0_chk174 (v1017 : IVec S16 32) (v1021 : IVec S16 32) (v1024 : IVec S16 32) (v1091 : IVec S16 32) : Prop :=
  (∀ a x, ((![v1024, v1017, v1091] : Fin 3 → IVec S16 32) a x).toNat < S16x8x64.size a) ∧
  (∀ a x, ((![v1024, v1021, v1091] : Fin 3 → IVec S16 32) a x).toNat < S16x8x64.size a)
instance k0_chk174.dec : ∀ (v1017 : IVec S16 32) (v1021 : IVec S16 32) (v1024 : IVec S16 32) (v1091 : IVec S16 32), Decidable (k0_chk174 v1017 v1021 v1024 v1091) := fun v1017 v1021 v1024 v1091 => decidable_of_iff' _ (Iff.of_eq (k0_chk174.eq_1 v1017 v1021 v1024 v1091))
theorem k0_idx155_inb : ∀ (v1017 : IVec S16 32) (v1021 : IVec S16 32) (v1024 : IVec S16 32) (v1091 : IVec S16 32) (k0_hw174 : k0_chk174 v1017 v1021 v1024 v1091), ∀ a x, ((![v1024, v1017, v1091] : Fin 3 → IVec S16 32) a x).toNat < S16x8x64.size a := fun v1017 v1021 v1024 v1091 k0_hw174 => k0_hw174.1
theorem k0_idx156_inb : ∀ (v1017 : IVec S16 32) (v1021 : IVec S16 32) (v1024 : IVec S16 32) (v1091 : IVec S16 32) (k0_hw174 : k0_chk174 v1017 v1021 v1024 v1091), ∀ a x, ((![v1024, v1021, v1091] : Fin 3 → IVec S16 32) a x).toNat < S16x8x64.size a := fun v1017 v1021 v1024 v1091 k0_hw174 => k0_hw174.2

def k0_chk175 (v1017 : IVec S16 32) (v1021 : IVec S16 32) (v1024 : IVec S16 32) (v1096 : IVec S16 32) : Prop :=
  (∀ a x, ((![v1024, v1017, v1096] : Fin 3 → IVec S16 32) a x).toNat < S16x8x64.size a) ∧
  (∀ a x, ((![v1024, v1021, v1096] : Fin 3 → IVec S16 32) a x).toNat < S16x8x64.size a)
instance k0_chk175.dec : ∀ (v1017 : IVec S16 32) (v1021 : IVec S16 32) (v1024 : IVec S16 32) (v1096 : IVec S16 32), Decidable (k0_chk175 v1017 v1021 v1024 v1096) := fun v1017 v1021 v1024 v1096 => decidable_of_iff' _ (Iff.of_eq (k0_chk175.eq_1 v1017 v1021 v1024 v1096))
theorem k0_idx157_inb : ∀ (v1017 : IVec S16 32) (v1021 : IVec S16 32) (v1024 : IVec S16 32) (v1096 : IVec S16 32) (k0_hw175 : k0_chk175 v1017 v1021 v1024 v1096), ∀ a x, ((![v1024, v1017, v1096] : Fin 3 → IVec S16 32) a x).toNat < S16x8x64.size a := fun v1017 v1021 v1024 v1096 k0_hw175 => k0_hw175.1
theorem k0_idx158_inb : ∀ (v1017 : IVec S16 32) (v1021 : IVec S16 32) (v1024 : IVec S16 32) (v1096 : IVec S16 32) (k0_hw175 : k0_chk175 v1017 v1021 v1024 v1096), ∀ a x, ((![v1024, v1021, v1096] : Fin 3 → IVec S16 32) a x).toNat < S16x8x64.size a := fun v1017 v1021 v1024 v1096 k0_hw175 => k0_hw175.2

def k0_chk176 (v1017 : IVec S16 32) (v1021 : IVec S16 32) (v1024 : IVec S16 32) (v1101 : IVec S16 32) : Prop :=
  (∀ a x, ((![v1024, v1017, v1101] : Fin 3 → IVec S16 32) a x).toNat < S16x8x64.size a) ∧
  (∀ a x, ((![v1024, v1021, v1101] : Fin 3 → IVec S16 32) a x).toNat < S16x8x64.size a)
instance k0_chk176.dec : ∀ (v1017 : IVec S16 32) (v1021 : IVec S16 32) (v1024 : IVec S16 32) (v1101 : IVec S16 32), Decidable (k0_chk176 v1017 v1021 v1024 v1101) := fun v1017 v1021 v1024 v1101 => decidable_of_iff' _ (Iff.of_eq (k0_chk176.eq_1 v1017 v1021 v1024 v1101))
theorem k0_idx159_inb : ∀ (v1017 : IVec S16 32) (v1021 : IVec S16 32) (v1024 : IVec S16 32) (v1101 : IVec S16 32) (k0_hw176 : k0_chk176 v1017 v1021 v1024 v1101), ∀ a x, ((![v1024, v1017, v1101] : Fin 3 → IVec S16 32) a x).toNat < S16x8x64.size a := fun v1017 v1021 v1024 v1101 k0_hw176 => k0_hw176.1
theorem k0_idx160_inb : ∀ (v1017 : IVec S16 32) (v1021 : IVec S16 32) (v1024 : IVec S16 32) (v1101 : IVec S16 32) (k0_hw176 : k0_chk176 v1017 v1021 v1024 v1101), ∀ a x, ((![v1024, v1021, v1101] : Fin 3 → IVec S16 32) a x).toNat < S16x8x64.size a := fun v1017 v1021 v1024 v1101 k0_hw176 => k0_hw176.2

def k0_chk177 (v1017 : IVec S16 32) (v1021 : IVec S16 32) (v1024 : IVec S16 32) (v1106 : IVec S16 32) : Prop :=
  (∀ a x, ((![v1024, v1017, v1106] : Fin 3 → IVec S16 32) a x).toNat < S16x8x64.size a) ∧
  (∀ a x, ((![v1024, v1021, v1106] : Fin 3 → IVec S16 32) a x).toNat < S16x8x64.size a)
instance k0_chk177.dec : ∀ (v1017 : IVec S16 32) (v1021 : IVec S16 32) (v1024 : IVec S16 32) (v1106 : IVec S16 32), Decidable (k0_chk177 v1017 v1021 v1024 v1106) := fun v1017 v1021 v1024 v1106 => decidable_of_iff' _ (Iff.of_eq (k0_chk177.eq_1 v1017 v1021 v1024 v1106))
theorem k0_idx161_inb : ∀ (v1017 : IVec S16 32) (v1021 : IVec S16 32) (v1024 : IVec S16 32) (v1106 : IVec S16 32) (k0_hw177 : k0_chk177 v1017 v1021 v1024 v1106), ∀ a x, ((![v1024, v1017, v1106] : Fin 3 → IVec S16 32) a x).toNat < S16x8x64.size a := fun v1017 v1021 v1024 v1106 k0_hw177 => k0_hw177.1
theorem k0_idx162_inb : ∀ (v1017 : IVec S16 32) (v1021 : IVec S16 32) (v1024 : IVec S16 32) (v1106 : IVec S16 32) (k0_hw177 : k0_chk177 v1017 v1021 v1024 v1106), ∀ a x, ((![v1024, v1021, v1106] : Fin 3 → IVec S16 32) a x).toNat < S16x8x64.size a := fun v1017 v1021 v1024 v1106 k0_hw177 => k0_hw177.2

def k0_chk178 (v1017 : IVec S16 32) (v1021 : IVec S16 32) (v1024 : IVec S16 32) (v1111 : IVec S16 32) : Prop :=
  (∀ a x, ((![v1024, v1017, v1111] : Fin 3 → IVec S16 32) a x).toNat < S16x8x64.size a) ∧
  (∀ a x, ((![v1024, v1021, v1111] : Fin 3 → IVec S16 32) a x).toNat < S16x8x64.size a)
instance k0_chk178.dec : ∀ (v1017 : IVec S16 32) (v1021 : IVec S16 32) (v1024 : IVec S16 32) (v1111 : IVec S16 32), Decidable (k0_chk178 v1017 v1021 v1024 v1111) := fun v1017 v1021 v1024 v1111 => decidable_of_iff' _ (Iff.of_eq (k0_chk178.eq_1 v1017 v1021 v1024 v1111))
theorem k0_idx163_inb : ∀ (v1017 : IVec S16 32) (v1021 : IVec S16 32) (v1024 : IVec S16 32) (v1111 : IVec S16 32) (k0_hw178 : k0_chk178 v1017 v1021 v1024 v1111), ∀ a x, ((![v1024, v1017, v1111] : Fin 3 → IVec S16 32) a x).toNat < S16x8x64.size a := fun v1017 v1021 v1024 v1111 k0_hw178 => k0_hw178.1
theorem k0_idx164_inb : ∀ (v1017 : IVec S16 32) (v1021 : IVec S16 32) (v1024 : IVec S16 32) (v1111 : IVec S16 32) (k0_hw178 : k0_chk178 v1017 v1021 v1024 v1111), ∀ a x, ((![v1024, v1021, v1111] : Fin 3 → IVec S16 32) a x).toNat < S16x8x64.size a := fun v1017 v1021 v1024 v1111 k0_hw178 => k0_hw178.2

def k0_chk179 (v1017 : IVec S16 32) (v1021 : IVec S16 32) (v1024 : IVec S16 32) (v1116 : IVec S16 32) : Prop :=
  (∀ a x, ((![v1024, v1017, v1116] : Fin 3 → IVec S16 32) a x).toNat < S16x8x64.size a) ∧
  (∀ a x, ((![v1024, v1021, v1116] : Fin 3 → IVec S16 32) a x).toNat < S16x8x64.size a)
instance k0_chk179.dec : ∀ (v1017 : IVec S16 32) (v1021 : IVec S16 32) (v1024 : IVec S16 32) (v1116 : IVec S16 32), Decidable (k0_chk179 v1017 v1021 v1024 v1116) := fun v1017 v1021 v1024 v1116 => decidable_of_iff' _ (Iff.of_eq (k0_chk179.eq_1 v1017 v1021 v1024 v1116))
theorem k0_idx165_inb : ∀ (v1017 : IVec S16 32) (v1021 : IVec S16 32) (v1024 : IVec S16 32) (v1116 : IVec S16 32) (k0_hw179 : k0_chk179 v1017 v1021 v1024 v1116), ∀ a x, ((![v1024, v1017, v1116] : Fin 3 → IVec S16 32) a x).toNat < S16x8x64.size a := fun v1017 v1021 v1024 v1116 k0_hw179 => k0_hw179.1
theorem k0_idx166_inb : ∀ (v1017 : IVec S16 32) (v1021 : IVec S16 32) (v1024 : IVec S16 32) (v1116 : IVec S16 32) (k0_hw179 : k0_chk179 v1017 v1021 v1024 v1116), ∀ a x, ((![v1024, v1021, v1116] : Fin 3 → IVec S16 32) a x).toNat < S16x8x64.size a := fun v1017 v1021 v1024 v1116 k0_hw179 => k0_hw179.2

def k0_chk180 (v1017 : IVec S16 32) (v1021 : IVec S16 32) (v1024 : IVec S16 32) (v1121 : IVec S16 32) : Prop :=
  (∀ a x, ((![v1024, v1017, v1121] : Fin 3 → IVec S16 32) a x).toNat < S16x8x64.size a) ∧
  (∀ a x, ((![v1024, v1021, v1121] : Fin 3 → IVec S16 32) a x).toNat < S16x8x64.size a)
instance k0_chk180.dec : ∀ (v1017 : IVec S16 32) (v1021 : IVec S16 32) (v1024 : IVec S16 32) (v1121 : IVec S16 32), Decidable (k0_chk180 v1017 v1021 v1024 v1121) := fun v1017 v1021 v1024 v1121 => decidable_of_iff' _ (Iff.of_eq (k0_chk180.eq_1 v1017 v1021 v1024 v1121))
theorem k0_idx167_inb : ∀ (v1017 : IVec S16 32) (v1021 : IVec S16 32) (v1024 : IVec S16 32) (v1121 : IVec S16 32) (k0_hw180 : k0_chk180 v1017 v1021 v1024 v1121), ∀ a x, ((![v1024, v1017, v1121] : Fin 3 → IVec S16 32) a x).toNat < S16x8x64.size a := fun v1017 v1021 v1024 v1121 k0_hw180 => k0_hw180.1
theorem k0_idx168_inb : ∀ (v1017 : IVec S16 32) (v1021 : IVec S16 32) (v1024 : IVec S16 32) (v1121 : IVec S16 32) (k0_hw180 : k0_chk180 v1017 v1021 v1024 v1121), ∀ a x, ((![v1024, v1021, v1121] : Fin 3 → IVec S16 32) a x).toNat < S16x8x64.size a := fun v1017 v1021 v1024 v1121 k0_hw180 => k0_hw180.2

def k0_chk181 (v1017 : IVec S16 32) (v1021 : IVec S16 32) (v1024 : IVec S16 32) (v1126 : IVec S16 32) : Prop :=
  (∀ a x, ((![v1024, v1017, v1126] : Fin 3 → IVec S16 32) a x).toNat < S16x8x64.size a) ∧
  (∀ a x, ((![v1024, v1021, v1126] : Fin 3 → IVec S16 32) a x).toNat < S16x8x64.size a)
instance k0_chk181.dec : ∀ (v1017 : IVec S16 32) (v1021 : IVec S16 32) (v1024 : IVec S16 32) (v1126 : IVec S16 32), Decidable (k0_chk181 v1017 v1021 v1024 v1126) := fun v1017 v1021 v1024 v1126 => decidable_of_iff' _ (Iff.of_eq (k0_chk181.eq_1 v1017 v1021 v1024 v1126))
theorem k0_idx169_inb : ∀ (v1017 : IVec S16 32) (v1021 : IVec S16 32) (v1024 : IVec S16 32) (v1126 : IVec S16 32) (k0_hw181 : k0_chk181 v1017 v1021 v1024 v1126), ∀ a x, ((![v1024, v1017, v1126] : Fin 3 → IVec S16 32) a x).toNat < S16x8x64.size a := fun v1017 v1021 v1024 v1126 k0_hw181 => k0_hw181.1
theorem k0_idx170_inb : ∀ (v1017 : IVec S16 32) (v1021 : IVec S16 32) (v1024 : IVec S16 32) (v1126 : IVec S16 32) (k0_hw181 : k0_chk181 v1017 v1021 v1024 v1126), ∀ a x, ((![v1024, v1021, v1126] : Fin 3 → IVec S16 32) a x).toNat < S16x8x64.size a := fun v1017 v1021 v1024 v1126 k0_hw181 => k0_hw181.2

def k0_chk182 (v1017 : IVec S16 32) (v1021 : IVec S16 32) (v1024 : IVec S16 32) (v1131 : IVec S16 32) : Prop :=
  (∀ a x, ((![v1024, v1017, v1131] : Fin 3 → IVec S16 32) a x).toNat < S16x8x64.size a) ∧
  (∀ a x, ((![v1024, v1021, v1131] : Fin 3 → IVec S16 32) a x).toNat < S16x8x64.size a)
instance k0_chk182.dec : ∀ (v1017 : IVec S16 32) (v1021 : IVec S16 32) (v1024 : IVec S16 32) (v1131 : IVec S16 32), Decidable (k0_chk182 v1017 v1021 v1024 v1131) := fun v1017 v1021 v1024 v1131 => decidable_of_iff' _ (Iff.of_eq (k0_chk182.eq_1 v1017 v1021 v1024 v1131))
theorem k0_idx171_inb : ∀ (v1017 : IVec S16 32) (v1021 : IVec S16 32) (v1024 : IVec S16 32) (v1131 : IVec S16 32) (k0_hw182 : k0_chk182 v1017 v1021 v1024 v1131), ∀ a x, ((![v1024, v1017, v1131] : Fin 3 → IVec S16 32) a x).toNat < S16x8x64.size a := fun v1017 v1021 v1024 v1131 k0_hw182 => k0_hw182.1
theorem k0_idx172_inb : ∀ (v1017 : IVec S16 32) (v1021 : IVec S16 32) (v1024 : IVec S16 32) (v1131 : IVec S16 32) (k0_hw182 : k0_chk182 v1017 v1021 v1024 v1131), ∀ a x, ((![v1024, v1021, v1131] : Fin 3 → IVec S16 32) a x).toNat < S16x8x64.size a := fun v1017 v1021 v1024 v1131 k0_hw182 => k0_hw182.2

def k0_chk183 (v1017 : IVec S16 32) (v1021 : IVec S16 32) (v1024 : IVec S16 32) (v1136 : IVec S16 32) : Prop :=
  (∀ a x, ((![v1024, v1017, v1136] : Fin 3 → IVec S16 32) a x).toNat < S16x8x64.size a) ∧
  (∀ a x, ((![v1024, v1021, v1136] : Fin 3 → IVec S16 32) a x).toNat < S16x8x64.size a)
instance k0_chk183.dec : ∀ (v1017 : IVec S16 32) (v1021 : IVec S16 32) (v1024 : IVec S16 32) (v1136 : IVec S16 32), Decidable (k0_chk183 v1017 v1021 v1024 v1136) := fun v1017 v1021 v1024 v1136 => decidable_of_iff' _ (Iff.of_eq (k0_chk183.eq_1 v1017 v1021 v1024 v1136))
theorem k0_idx173_inb : ∀ (v1017 : IVec S16 32) (v1021 : IVec S16 32) (v1024 : IVec S16 32) (v1136 : IVec S16 32) (k0_hw183 : k0_chk183 v1017 v1021 v1024 v1136), ∀ a x, ((![v1024, v1017, v1136] : Fin 3 → IVec S16 32) a x).toNat < S16x8x64.size a := fun v1017 v1021 v1024 v1136 k0_hw183 => k0_hw183.1
theorem k0_idx174_inb : ∀ (v1017 : IVec S16 32) (v1021 : IVec S16 32) (v1024 : IVec S16 32) (v1136 : IVec S16 32) (k0_hw183 : k0_chk183 v1017 v1021 v1024 v1136), ∀ a x, ((![v1024, v1021, v1136] : Fin 3 → IVec S16 32) a x).toNat < S16x8x64.size a := fun v1017 v1021 v1024 v1136 k0_hw183 => k0_hw183.2

def k0_chk184 (v1017 : IVec S16 32) (v1021 : IVec S16 32) (v1024 : IVec S16 32) (v1141 : IVec S16 32) : Prop :=
  (∀ a x, ((![v1024, v1017, v1141] : Fin 3 → IVec S16 32) a x).toNat < S16x8x64.size a) ∧
  (∀ a x, ((![v1024, v1021, v1141] : Fin 3 → IVec S16 32) a x).toNat < S16x8x64.size a)
instance k0_chk184.dec : ∀ (v1017 : IVec S16 32) (v1021 : IVec S16 32) (v1024 : IVec S16 32) (v1141 : IVec S16 32), Decidable (k0_chk184 v1017 v1021 v1024 v1141) := fun v1017 v1021 v1024 v1141 => decidable_of_iff' _ (Iff.of_eq (k0_chk184.eq_1 v1017 v1021 v1024 v1141))
theorem k0_idx175_inb : ∀ (v1017 : IVec S16 32) (v1021 : IVec S16 32) (v1024 : IVec S16 32) (v1141 : IVec S16 32) (k0_hw184 : k0_chk184 v1017 v1021 v1024 v1141), ∀ a x, ((![v1024, v1017, v1141] : Fin 3 → IVec S16 32) a x).toNat < S16x8x64.size a := fun v1017 v1021 v1024 v1141 k0_hw184 => k0_hw184.1
theorem k0_idx176_inb : ∀ (v1017 : IVec S16 32) (v1021 : IVec S16 32) (v1024 : IVec S16 32) (v1141 : IVec S16 32) (k0_hw184 : k0_chk184 v1017 v1021 v1024 v1141), ∀ a x, ((![v1024, v1021, v1141] : Fin 3 → IVec S16 32) a x).toNat < S16x8x64.size a := fun v1017 v1021 v1024 v1141 k0_hw184 => k0_hw184.2

def k0_chk185 (v1017 : IVec S16 32) (v1021 : IVec S16 32) (v1024 : IVec S16 32) (v1146 : IVec S16 32) : Prop :=
  (∀ a x, ((![v1024, v1017, v1146] : Fin 3 → IVec S16 32) a x).toNat < S16x8x64.size a) ∧
  (∀ a x, ((![v1024, v1021, v1146] : Fin 3 → IVec S16 32) a x).toNat < S16x8x64.size a)
instance k0_chk185.dec : ∀ (v1017 : IVec S16 32) (v1021 : IVec S16 32) (v1024 : IVec S16 32) (v1146 : IVec S16 32), Decidable (k0_chk185 v1017 v1021 v1024 v1146) := fun v1017 v1021 v1024 v1146 => decidable_of_iff' _ (Iff.of_eq (k0_chk185.eq_1 v1017 v1021 v1024 v1146))
theorem k0_idx177_inb : ∀ (v1017 : IVec S16 32) (v1021 : IVec S16 32) (v1024 : IVec S16 32) (v1146 : IVec S16 32) (k0_hw185 : k0_chk185 v1017 v1021 v1024 v1146), ∀ a x, ((![v1024, v1017, v1146] : Fin 3 → IVec S16 32) a x).toNat < S16x8x64.size a := fun v1017 v1021 v1024 v1146 k0_hw185 => k0_hw185.1
theorem k0_idx178_inb : ∀ (v1017 : IVec S16 32) (v1021 : IVec S16 32) (v1024 : IVec S16 32) (v1146 : IVec S16 32) (k0_hw185 : k0_chk185 v1017 v1021 v1024 v1146), ∀ a x, ((![v1024, v1021, v1146] : Fin 3 → IVec S16 32) a x).toNat < S16x8x64.size a := fun v1017 v1021 v1024 v1146 k0_hw185 => k0_hw185.2

def k0_chk186 (v1017 : IVec S16 32) (v1021 : IVec S16 32) (v1024 : IVec S16 32) (v1151 : IVec S16 32) : Prop :=
  (∀ a x, ((![v1024, v1017, v1151] : Fin 3 → IVec S16 32) a x).toNat < S16x8x64.size a) ∧
  (∀ a x, ((![v1024, v1021, v1151] : Fin 3 → IVec S16 32) a x).toNat < S16x8x64.size a)
instance k0_chk186.dec : ∀ (v1017 : IVec S16 32) (v1021 : IVec S16 32) (v1024 : IVec S16 32) (v1151 : IVec S16 32), Decidable (k0_chk186 v1017 v1021 v1024 v1151) := fun v1017 v1021 v1024 v1151 => decidable_of_iff' _ (Iff.of_eq (k0_chk186.eq_1 v1017 v1021 v1024 v1151))
theorem k0_idx179_inb : ∀ (v1017 : IVec S16 32) (v1021 : IVec S16 32) (v1024 : IVec S16 32) (v1151 : IVec S16 32) (k0_hw186 : k0_chk186 v1017 v1021 v1024 v1151), ∀ a x, ((![v1024, v1017, v1151] : Fin 3 → IVec S16 32) a x).toNat < S16x8x64.size a := fun v1017 v1021 v1024 v1151 k0_hw186 => k0_hw186.1
theorem k0_idx180_inb : ∀ (v1017 : IVec S16 32) (v1021 : IVec S16 32) (v1024 : IVec S16 32) (v1151 : IVec S16 32) (k0_hw186 : k0_chk186 v1017 v1021 v1024 v1151), ∀ a x, ((![v1024, v1021, v1151] : Fin 3 → IVec S16 32) a x).toNat < S16x8x64.size a := fun v1017 v1021 v1024 v1151 k0_hw186 => k0_hw186.2

def k0_chk187 (v1017 : IVec S16 32) (v1021 : IVec S16 32) (v1024 : IVec S16 32) (v1156 : IVec S16 32) : Prop :=
  (∀ a x, ((![v1024, v1017, v1156] : Fin 3 → IVec S16 32) a x).toNat < S16x8x64.size a) ∧
  (∀ a x, ((![v1024, v1021, v1156] : Fin 3 → IVec S16 32) a x).toNat < S16x8x64.size a)
instance k0_chk187.dec : ∀ (v1017 : IVec S16 32) (v1021 : IVec S16 32) (v1024 : IVec S16 32) (v1156 : IVec S16 32), Decidable (k0_chk187 v1017 v1021 v1024 v1156) := fun v1017 v1021 v1024 v1156 => decidable_of_iff' _ (Iff.of_eq (k0_chk187.eq_1 v1017 v1021 v1024 v1156))
theorem k0_idx181_inb : ∀ (v1017 : IVec S16 32) (v1021 : IVec S16 32) (v1024 : IVec S16 32) (v1156 : IVec S16 32) (k0_hw187 : k0_chk187 v1017 v1021 v1024 v1156), ∀ a x, ((![v1024, v1017, v1156] : Fin 3 → IVec S16 32) a x).toNat < S16x8x64.size a := fun v1017 v1021 v1024 v1156 k0_hw187 => k0_hw187.1
theorem k0_idx182_inb : ∀ (v1017 : IVec S16 32) (v1021 : IVec S16 32) (v1024 : IVec S16 32) (v1156 : IVec S16 32) (k0_hw187 : k0_chk187 v1017 v1021 v1024 v1156), ∀ a x, ((![v1024, v1021, v1156] : Fin 3 → IVec S16 32) a x).toNat < S16x8x64.size a := fun v1017 v1021 v1024 v1156 k0_hw187 => k0_hw187.2

def k0_chk188 (v1017 : IVec S16 32) (v1021 : IVec S16 32) (v1024 : IVec S16 32) (v1161 : IVec S16 32) : Prop :=
  (∀ a x, ((![v1024, v1017, v1161] : Fin 3 → IVec S16 32) a x).toNat < S16x8x64.size a) ∧
  (∀ a x, ((![v1024, v1021, v1161] : Fin 3 → IVec S16 32) a x).toNat < S16x8x64.size a)
instance k0_chk188.dec : ∀ (v1017 : IVec S16 32) (v1021 : IVec S16 32) (v1024 : IVec S16 32) (v1161 : IVec S16 32), Decidable (k0_chk188 v1017 v1021 v1024 v1161) := fun v1017 v1021 v1024 v1161 => decidable_of_iff' _ (Iff.of_eq (k0_chk188.eq_1 v1017 v1021 v1024 v1161))
theorem k0_idx183_inb : ∀ (v1017 : IVec S16 32) (v1021 : IVec S16 32) (v1024 : IVec S16 32) (v1161 : IVec S16 32) (k0_hw188 : k0_chk188 v1017 v1021 v1024 v1161), ∀ a x, ((![v1024, v1017, v1161] : Fin 3 → IVec S16 32) a x).toNat < S16x8x64.size a := fun v1017 v1021 v1024 v1161 k0_hw188 => k0_hw188.1
theorem k0_idx184_inb : ∀ (v1017 : IVec S16 32) (v1021 : IVec S16 32) (v1024 : IVec S16 32) (v1161 : IVec S16 32) (k0_hw188 : k0_chk188 v1017 v1021 v1024 v1161), ∀ a x, ((![v1024, v1021, v1161] : Fin 3 → IVec S16 32) a x).toNat < S16x8x64.size a := fun v1017 v1021 v1024 v1161 k0_hw188 => k0_hw188.2

def k0_chk189 (v1017 : IVec S16 32) (v1021 : IVec S16 32) (v1024 : IVec S16 32) (v1166 : IVec S16 32) : Prop :=
  (∀ a x, ((![v1024, v1017, v1166] : Fin 3 → IVec S16 32) a x).toNat < S16x8x64.size a) ∧
  (∀ a x, ((![v1024, v1021, v1166] : Fin 3 → IVec S16 32) a x).toNat < S16x8x64.size a)
instance k0_chk189.dec : ∀ (v1017 : IVec S16 32) (v1021 : IVec S16 32) (v1024 : IVec S16 32) (v1166 : IVec S16 32), Decidable (k0_chk189 v1017 v1021 v1024 v1166) := fun v1017 v1021 v1024 v1166 => decidable_of_iff' _ (Iff.of_eq (k0_chk189.eq_1 v1017 v1021 v1024 v1166))
theorem k0_idx185_inb : ∀ (v1017 : IVec S16 32) (v1021 : IVec S16 32) (v1024 : IVec S16 32) (v1166 : IVec S16 32) (k0_hw189 : k0_chk189 v1017 v1021 v1024 v1166), ∀ a x, ((![v1024, v1017, v1166] : Fin 3 → IVec S16 32) a x).toNat < S16x8x64.size a := fun v1017 v1021 v1024 v1166 k0_hw189 => k0_hw189.1
theorem k0_idx186_inb : ∀ (v1017 : IVec S16 32) (v1021 : IVec S16 32) (v1024 : IVec S16 32) (v1166 : IVec S16 32) (k0_hw189 : k0_chk189 v1017 v1021 v1024 v1166), ∀ a x, ((![v1024, v1021, v1166] : Fin 3 → IVec S16 32) a x).toNat < S16x8x64.size a := fun v1017 v1021 v1024 v1166 k0_hw189 => k0_hw189.2

def k0_chk190 (v1017 : IVec S16 32) (v1021 : IVec S16 32) (v1024 : IVec S16 32) (v1171 : IVec S16 32) : Prop :=
  (∀ a x, ((![v1024, v1017, v1171] : Fin 3 → IVec S16 32) a x).toNat < S16x8x64.size a) ∧
  (∀ a x, ((![v1024, v1021, v1171] : Fin 3 → IVec S16 32) a x).toNat < S16x8x64.size a)
instance k0_chk190.dec : ∀ (v1017 : IVec S16 32) (v1021 : IVec S16 32) (v1024 : IVec S16 32) (v1171 : IVec S16 32), Decidable (k0_chk190 v1017 v1021 v1024 v1171) := fun v1017 v1021 v1024 v1171 => decidable_of_iff' _ (Iff.of_eq (k0_chk190.eq_1 v1017 v1021 v1024 v1171))
theorem k0_idx187_inb : ∀ (v1017 : IVec S16 32) (v1021 : IVec S16 32) (v1024 : IVec S16 32) (v1171 : IVec S16 32) (k0_hw190 : k0_chk190 v1017 v1021 v1024 v1171), ∀ a x, ((![v1024, v1017, v1171] : Fin 3 → IVec S16 32) a x).toNat < S16x8x64.size a := fun v1017 v1021 v1024 v1171 k0_hw190 => k0_hw190.1
theorem k0_idx188_inb : ∀ (v1017 : IVec S16 32) (v1021 : IVec S16 32) (v1024 : IVec S16 32) (v1171 : IVec S16 32) (k0_hw190 : k0_chk190 v1017 v1021 v1024 v1171), ∀ a x, ((![v1024, v1021, v1171] : Fin 3 → IVec S16 32) a x).toNat < S16x8x64.size a := fun v1017 v1021 v1024 v1171 k0_hw190 => k0_hw190.2

def k0_chk191 (v1017 : IVec S16 32) (v1021 : IVec S16 32) (v1024 : IVec S16 32) (v1176 : IVec S16 32) : Prop :=
  (∀ a x, ((![v1024, v1017, v1176] : Fin 3 → IVec S16 32) a x).toNat < S16x8x64.size a) ∧
  (∀ a x, ((![v1024, v1021, v1176] : Fin 3 → IVec S16 32) a x).toNat < S16x8x64.size a)
instance k0_chk191.dec : ∀ (v1017 : IVec S16 32) (v1021 : IVec S16 32) (v1024 : IVec S16 32) (v1176 : IVec S16 32), Decidable (k0_chk191 v1017 v1021 v1024 v1176) := fun v1017 v1021 v1024 v1176 => decidable_of_iff' _ (Iff.of_eq (k0_chk191.eq_1 v1017 v1021 v1024 v1176))
theorem k0_idx189_inb : ∀ (v1017 : IVec S16 32) (v1021 : IVec S16 32) (v1024 : IVec S16 32) (v1176 : IVec S16 32) (k0_hw191 : k0_chk191 v1017 v1021 v1024 v1176), ∀ a x, ((![v1024, v1017, v1176] : Fin 3 → IVec S16 32) a x).toNat < S16x8x64.size a := fun v1017 v1021 v1024 v1176 k0_hw191 => k0_hw191.1
theorem k0_idx190_inb : ∀ (v1017 : IVec S16 32) (v1021 : IVec S16 32) (v1024 : IVec S16 32) (v1176 : IVec S16 32) (k0_hw191 : k0_chk191 v1017 v1021 v1024 v1176), ∀ a x, ((![v1024, v1021, v1176] : Fin 3 → IVec S16 32) a x).toNat < S16x8x64.size a := fun v1017 v1021 v1024 v1176 k0_hw191 => k0_hw191.2

def k0_chk192 (v1017 : IVec S16 32) (v1021 : IVec S16 32) (v1024 : IVec S16 32) (v1181 : IVec S16 32) : Prop :=
  (∀ a x, ((![v1024, v1017, v1181] : Fin 3 → IVec S16 32) a x).toNat < S16x8x64.size a) ∧
  (∀ a x, ((![v1024, v1021, v1181] : Fin 3 → IVec S16 32) a x).toNat < S16x8x64.size a)
instance k0_chk192.dec : ∀ (v1017 : IVec S16 32) (v1021 : IVec S16 32) (v1024 : IVec S16 32) (v1181 : IVec S16 32), Decidable (k0_chk192 v1017 v1021 v1024 v1181) := fun v1017 v1021 v1024 v1181 => decidable_of_iff' _ (Iff.of_eq (k0_chk192.eq_1 v1017 v1021 v1024 v1181))
theorem k0_idx191_inb : ∀ (v1017 : IVec S16 32) (v1021 : IVec S16 32) (v1024 : IVec S16 32) (v1181 : IVec S16 32) (k0_hw192 : k0_chk192 v1017 v1021 v1024 v1181), ∀ a x, ((![v1024, v1017, v1181] : Fin 3 → IVec S16 32) a x).toNat < S16x8x64.size a := fun v1017 v1021 v1024 v1181 k0_hw192 => k0_hw192.1
theorem k0_idx192_inb : ∀ (v1017 : IVec S16 32) (v1021 : IVec S16 32) (v1024 : IVec S16 32) (v1181 : IVec S16 32) (k0_hw192 : k0_chk192 v1017 v1021 v1024 v1181), ∀ a x, ((![v1024, v1021, v1181] : Fin 3 → IVec S16 32) a x).toNat < S16x8x64.size a := fun v1017 v1021 v1024 v1181 k0_hw192 => k0_hw192.2

def k0_chk193 (v1017 : IVec S16 32) (v1021 : IVec S16 32) (v1024 : IVec S16 32) (v1186 : IVec S16 32) : Prop :=
  (∀ a x, ((![v1024, v1017, v1186] : Fin 3 → IVec S16 32) a x).toNat < S16x8x64.size a) ∧
  (∀ a x, ((![v1024, v1021, v1186] : Fin 3 → IVec S16 32) a x).toNat < S16x8x64.size a)
instance k0_chk193.dec : ∀ (v1017 : IVec S16 32) (v1021 : IVec S16 32) (v1024 : IVec S16 32) (v1186 : IVec S16 32), Decidable (k0_chk193 v1017 v1021 v1024 v1186) := fun v1017 v1021 v1024 v1186 => decidable_of_iff' _ (Iff.of_eq (k0_chk193.eq_1 v1017 v1021 v1024 v1186))
theorem k0_idx193_inb : ∀ (v1017 : IVec S16 32) (v1021 : IVec S16 32) (v1024 : IVec S16 32) (v1186 : IVec S16 32) (k0_hw193 : k0_chk193 v1017 v1021 v1024 v1186), ∀ a x, ((![v1024, v1017, v1186] : Fin 3 → IVec S16 32) a x).toNat < S16x8x64.size a := fun v1017 v1021 v1024 v1186 k0_hw193 => k0_hw193.1
theorem k0_idx194_inb : ∀ (v1017 : IVec S16 32) (v1021 : IVec S16 32) (v1024 : IVec S16 32) (v1186 : IVec S16 32) (k0_hw193 : k0_chk193 v1017 v1021 v1024 v1186), ∀ a x, ((![v1024, v1021, v1186] : Fin 3 → IVec S16 32) a x).toNat < S16x8x64.size a := fun v1017 v1021 v1024 v1186 k0_hw193 => k0_hw193.2

def k0_chk194 (v1017 : IVec S16 32) (v1021 : IVec S16 32) (v1024 : IVec S16 32) (v1191 : IVec S16 32) : Prop :=
  (∀ a x, ((![v1024, v1017, v1191] : Fin 3 → IVec S16 32) a x).toNat < S16x8x64.size a) ∧
  (∀ a x, ((![v1024, v1021, v1191] : Fin 3 → IVec S16 32) a x).toNat < S16x8x64.size a)
instance k0_chk194.dec : ∀ (v1017 : IVec S16 32) (v1021 : IVec S16 32) (v1024 : IVec S16 32) (v1191 : IVec S16 32), Decidable (k0_chk194 v1017 v1021 v1024 v1191) := fun v1017 v1021 v1024 v1191 => decidable_of_iff' _ (Iff.of_eq (k0_chk194.eq_1 v1017 v1021 v1024 v1191))
theorem k0_idx195_inb : ∀ (v1017 : IVec S16 32) (v1021 : IVec S16 32) (v1024 : IVec S16 32) (v1191 : IVec S16 32) (k0_hw194 : k0_chk194 v1017 v1021 v1024 v1191), ∀ a x, ((![v1024, v1017, v1191] : Fin 3 → IVec S16 32) a x).toNat < S16x8x64.size a := fun v1017 v1021 v1024 v1191 k0_hw194 => k0_hw194.1
theorem k0_idx196_inb : ∀ (v1017 : IVec S16 32) (v1021 : IVec S16 32) (v1024 : IVec S16 32) (v1191 : IVec S16 32) (k0_hw194 : k0_chk194 v1017 v1021 v1024 v1191), ∀ a x, ((![v1024, v1021, v1191] : Fin 3 → IVec S16 32) a x).toNat < S16x8x64.size a := fun v1017 v1021 v1024 v1191 k0_hw194 => k0_hw194.2

def k0_chk195 (v1017 : IVec S16 32) (v1021 : IVec S16 32) (v1024 : IVec S16 32) (v1196 : IVec S16 32) : Prop :=
  (∀ a x, ((![v1024, v1017, v1196] : Fin 3 → IVec S16 32) a x).toNat < S16x8x64.size a) ∧
  (∀ a x, ((![v1024, v1021, v1196] : Fin 3 → IVec S16 32) a x).toNat < S16x8x64.size a)
instance k0_chk195.dec : ∀ (v1017 : IVec S16 32) (v1021 : IVec S16 32) (v1024 : IVec S16 32) (v1196 : IVec S16 32), Decidable (k0_chk195 v1017 v1021 v1024 v1196) := fun v1017 v1021 v1024 v1196 => decidable_of_iff' _ (Iff.of_eq (k0_chk195.eq_1 v1017 v1021 v1024 v1196))
theorem k0_idx197_inb : ∀ (v1017 : IVec S16 32) (v1021 : IVec S16 32) (v1024 : IVec S16 32) (v1196 : IVec S16 32) (k0_hw195 : k0_chk195 v1017 v1021 v1024 v1196), ∀ a x, ((![v1024, v1017, v1196] : Fin 3 → IVec S16 32) a x).toNat < S16x8x64.size a := fun v1017 v1021 v1024 v1196 k0_hw195 => k0_hw195.1
theorem k0_idx198_inb : ∀ (v1017 : IVec S16 32) (v1021 : IVec S16 32) (v1024 : IVec S16 32) (v1196 : IVec S16 32) (k0_hw195 : k0_chk195 v1017 v1021 v1024 v1196), ∀ a x, ((![v1024, v1021, v1196] : Fin 3 → IVec S16 32) a x).toNat < S16x8x64.size a := fun v1017 v1021 v1024 v1196 k0_hw195 => k0_hw195.2

def k0_chk196 (v1017 : IVec S16 32) (v1021 : IVec S16 32) (v1024 : IVec S16 32) (v1201 : IVec S16 32) : Prop :=
  (∀ a x, ((![v1024, v1017, v1201] : Fin 3 → IVec S16 32) a x).toNat < S16x8x64.size a) ∧
  (∀ a x, ((![v1024, v1021, v1201] : Fin 3 → IVec S16 32) a x).toNat < S16x8x64.size a)
instance k0_chk196.dec : ∀ (v1017 : IVec S16 32) (v1021 : IVec S16 32) (v1024 : IVec S16 32) (v1201 : IVec S16 32), Decidable (k0_chk196 v1017 v1021 v1024 v1201) := fun v1017 v1021 v1024 v1201 => decidable_of_iff' _ (Iff.of_eq (k0_chk196.eq_1 v1017 v1021 v1024 v1201))
theorem k0_idx199_inb : ∀ (v1017 : IVec S16 32) (v1021 : IVec S16 32) (v1024 : IVec S16 32) (v1201 : IVec S16 32) (k0_hw196 : k0_chk196 v1017 v1021 v1024 v1201), ∀ a x, ((![v1024, v1017, v1201] : Fin 3 → IVec S16 32) a x).toNat < S16x8x64.size a := fun v1017 v1021 v1024 v1201 k0_hw196 => k0_hw196.1
theorem k0_idx200_inb : ∀ (v1017 : IVec S16 32) (v1021 : IVec S16 32) (v1024 : IVec S16 32) (v1201 : IVec S16 32) (k0_hw196 : k0_chk196 v1017 v1021 v1024 v1201), ∀ a x, ((![v1024, v1021, v1201] : Fin 3 → IVec S16 32) a x).toNat < S16x8x64.size a := fun v1017 v1021 v1024 v1201 k0_hw196 => k0_hw196.2

def k0_chk197 (v1017 : IVec S16 32) (v1021 : IVec S16 32) (v1024 : IVec S16 32) (v1206 : IVec S16 32) : Prop :=
  (∀ a x, ((![v1024, v1017, v1206] : Fin 3 → IVec S16 32) a x).toNat < S16x8x64.size a) ∧
  (∀ a x, ((![v1024, v1021, v1206] : Fin 3 → IVec S16 32) a x).toNat < S16x8x64.size a)
instance k0_chk197.dec : ∀ (v1017 : IVec S16 32) (v1021 : IVec S16 32) (v1024 : IVec S16 32) (v1206 : IVec S16 32), Decidable (k0_chk197 v1017 v1021 v1024 v1206) := fun v1017 v1021 v1024 v1206 => decidable_of_iff' _ (Iff.of_eq (k0_chk197.eq_1 v1017 v1021 v1024 v1206))
theorem k0_idx201_inb : ∀ (v1017 : IVec S16 32) (v1021 : IVec S16 32) (v1024 : IVec S16 32) (v1206 : IVec S16 32) (k0_hw197 : k0_chk197 v1017 v1021 v1024 v1206), ∀ a x, ((![v1024, v1017, v1206] : Fin 3 → IVec S16 32) a x).toNat < S16x8x64.size a := fun v1017 v1021 v1024 v1206 k0_hw197 => k0_hw197.1
theorem k0_idx202_inb : ∀ (v1017 : IVec S16 32) (v1021 : IVec S16 32) (v1024 : IVec S16 32) (v1206 : IVec S16 32) (k0_hw197 : k0_chk197 v1017 v1021 v1024 v1206), ∀ a x, ((![v1024, v1021, v1206] : Fin 3 → IVec S16 32) a x).toNat < S16x8x64.size a := fun v1017 v1021 v1024 v1206 k0_hw197 => k0_hw197.2

def k0_chk198 (v1017 : IVec S16 32) (v1021 : IVec S16 32) (v1024 : IVec S16 32) (v1211 : IVec S16 32) : Prop :=
  (∀ a x, ((![v1024, v1017, v1211] : Fin 3 → IVec S16 32) a x).toNat < S16x8x64.size a) ∧
  (∀ a x, ((![v1024, v1021, v1211] : Fin 3 → IVec S16 32) a x).toNat < S16x8x64.size a)
instance k0_chk198.dec : ∀ (v1017 : IVec S16 32) (v1021 : IVec S16 32) (v1024 : IVec S16 32) (v1211 : IVec S16 32), Decidable (k0_chk198 v1017 v1021 v1024 v1211) := fun v1017 v1021 v1024 v1211 => decidable_of_iff' _ (Iff.of_eq (k0_chk198.eq_1 v1017 v1021 v1024 v1211))
theorem k0_idx203_inb : ∀ (v1017 : IVec S16 32) (v1021 : IVec S16 32) (v1024 : IVec S16 32) (v1211 : IVec S16 32) (k0_hw198 : k0_chk198 v1017 v1021 v1024 v1211), ∀ a x, ((![v1024, v1017, v1211] : Fin 3 → IVec S16 32) a x).toNat < S16x8x64.size a := fun v1017 v1021 v1024 v1211 k0_hw198 => k0_hw198.1
theorem k0_idx204_inb : ∀ (v1017 : IVec S16 32) (v1021 : IVec S16 32) (v1024 : IVec S16 32) (v1211 : IVec S16 32) (k0_hw198 : k0_chk198 v1017 v1021 v1024 v1211), ∀ a x, ((![v1024, v1021, v1211] : Fin 3 → IVec S16 32) a x).toNat < S16x8x64.size a := fun v1017 v1021 v1024 v1211 k0_hw198 => k0_hw198.2

def k0_chk199 (v1017 : IVec S16 32) (v1021 : IVec S16 32) (v1024 : IVec S16 32) (v1216 : IVec S16 32) : Prop :=
  (∀ a x, ((![v1024, v1017, v1216] : Fin 3 → IVec S16 32) a x).toNat < S16x8x64.size a) ∧
  (∀ a x, ((![v1024, v1021, v1216] : Fin 3 → IVec S16 32) a x).toNat < S16x8x64.size a)
instance k0_chk199.dec : ∀ (v1017 : IVec S16 32) (v1021 : IVec S16 32) (v1024 : IVec S16 32) (v1216 : IVec S16 32), Decidable (k0_chk199 v1017 v1021 v1024 v1216) := fun v1017 v1021 v1024 v1216 => decidable_of_iff' _ (Iff.of_eq (k0_chk199.eq_1 v1017 v1021 v1024 v1216))
theorem k0_idx205_inb : ∀ (v1017 : IVec S16 32) (v1021 : IVec S16 32) (v1024 : IVec S16 32) (v1216 : IVec S16 32) (k0_hw199 : k0_chk199 v1017 v1021 v1024 v1216), ∀ a x, ((![v1024, v1017, v1216] : Fin 3 → IVec S16 32) a x).toNat < S16x8x64.size a := fun v1017 v1021 v1024 v1216 k0_hw199 => k0_hw199.1
theorem k0_idx206_inb : ∀ (v1017 : IVec S16 32) (v1021 : IVec S16 32) (v1024 : IVec S16 32) (v1216 : IVec S16 32) (k0_hw199 : k0_chk199 v1017 v1021 v1024 v1216), ∀ a x, ((![v1024, v1021, v1216] : Fin 3 → IVec S16 32) a x).toNat < S16x8x64.size a := fun v1017 v1021 v1024 v1216 k0_hw199 => k0_hw199.2

def k0_chk200 (v1017 : IVec S16 32) (v1021 : IVec S16 32) (v1024 : IVec S16 32) (v1221 : IVec S16 32) : Prop :=
  (∀ a x, ((![v1024, v1017, v1221] : Fin 3 → IVec S16 32) a x).toNat < S16x8x64.size a) ∧
  (∀ a x, ((![v1024, v1021, v1221] : Fin 3 → IVec S16 32) a x).toNat < S16x8x64.size a)
instance k0_chk200.dec : ∀ (v1017 : IVec S16 32) (v1021 : IVec S16 32) (v1024 : IVec S16 32) (v1221 : IVec S16 32), Decidable (k0_chk200 v1017 v1021 v1024 v1221) := fun v1017 v1021 v1024 v1221 => decidable_of_iff' _ (Iff.of_eq (k0_chk200.eq_1 v1017 v1021 v1024 v1221))
theorem k0_idx207_inb : ∀ (v1017 : IVec S16 32) (v1021 : IVec S16 32) (v1024 : IVec S16 32) (v1221 : IVec S16 32) (k0_hw200 : k0_chk200 v1017 v1021 v1024 v1221), ∀ a x, ((![v1024, v1017, v1221] : Fin 3 → IVec S16 32) a x).toNat < S16x8x64.size a := fun v1017 v1021 v1024 v1221 k0_hw200 => k0_hw200.1
theorem k0_idx208_inb : ∀ (v1017 : IVec S16 32) (v1021 : IVec S16 32) (v1024 : IVec S16 32) (v1221 : IVec S16 32) (k0_hw200 : k0_chk200 v1017 v1021 v1024 v1221), ∀ a x, ((![v1024, v1021, v1221] : Fin 3 → IVec S16 32) a x).toNat < S16x8x64.size a := fun v1017 v1021 v1024 v1221 k0_hw200 => k0_hw200.2

def k0_chk201 (v1017 : IVec S16 32) (v1021 : IVec S16 32) (v1024 : IVec S16 32) (v1226 : IVec S16 32) : Prop :=
  (∀ a x, ((![v1024, v1017, v1226] : Fin 3 → IVec S16 32) a x).toNat < S16x8x64.size a) ∧
  (∀ a x, ((![v1024, v1021, v1226] : Fin 3 → IVec S16 32) a x).toNat < S16x8x64.size a)
instance k0_chk201.dec : ∀ (v1017 : IVec S16 32) (v1021 : IVec S16 32) (v1024 : IVec S16 32) (v1226 : IVec S16 32), Decidable (k0_chk201 v1017 v1021 v1024 v1226) := fun v1017 v1021 v1024 v1226 => decidable_of_iff' _ (Iff.of_eq (k0_chk201.eq_1 v1017 v1021 v1024 v1226))
theorem k0_idx209_inb : ∀ (v1017 : IVec S16 32) (v1021 : IVec S16 32) (v1024 : IVec S16 32) (v1226 : IVec S16 32) (k0_hw201 : k0_chk201 v1017 v1021 v1024 v1226), ∀ a x, ((![v1024, v1017, v1226] : Fin 3 → IVec S16 32) a x).toNat < S16x8x64.size a := fun v1017 v1021 v1024 v1226 k0_hw201 => k0_hw201.1
theorem k0_idx210_inb : ∀ (v1017 : IVec S16 32) (v1021 : IVec S16 32) (v1024 : IVec S16 32) (v1226 : IVec S16 32) (k0_hw201 : k0_chk201 v1017 v1021 v1024 v1226), ∀ a x, ((![v1024, v1021, v1226] : Fin 3 → IVec S16 32) a x).toNat < S16x8x64.size a := fun v1017 v1021 v1024 v1226 k0_hw201 => k0_hw201.2

def k0_chk202 (v1017 : IVec S16 32) (v1021 : IVec S16 32) (v1024 : IVec S16 32) (v1231 : IVec S16 32) : Prop :=
  (∀ a x, ((![v1024, v1017, v1231] : Fin 3 → IVec S16 32) a x).toNat < S16x8x64.size a) ∧
  (∀ a x, ((![v1024, v1021, v1231] : Fin 3 → IVec S16 32) a x).toNat < S16x8x64.size a)
instance k0_chk202.dec : ∀ (v1017 : IVec S16 32) (v1021 : IVec S16 32) (v1024 : IVec S16 32) (v1231 : IVec S16 32), Decidable (k0_chk202 v1017 v1021 v1024 v1231) := fun v1017 v1021 v1024 v1231 => decidable_of_iff' _ (Iff.of_eq (k0_chk202.eq_1 v1017 v1021 v1024 v1231))
theorem k0_idx211_inb : ∀ (v1017 : IVec S16 32) (v1021 : IVec S16 32) (v1024 : IVec S16 32) (v1231 : IVec S16 32) (k0_hw202 : k0_chk202 v1017 v1021 v1024 v1231), ∀ a x, ((![v1024, v1017, v1231] : Fin 3 → IVec S16 32) a x).toNat < S16x8x64.size a := fun v1017 v1021 v1024 v1231 k0_hw202 => k0_hw202.1
theorem k0_idx212_inb : ∀ (v1017 : IVec S16 32) (v1021 : IVec S16 32) (v1024 : IVec S16 32) (v1231 : IVec S16 32) (k0_hw202 : k0_chk202 v1017 v1021 v1024 v1231), ∀ a x, ((![v1024, v1021, v1231] : Fin 3 → IVec S16 32) a x).toNat < S16x8x64.size a := fun v1017 v1021 v1024 v1231 k0_hw202 => k0_hw202.2

def k0_chk203 (v1017 : IVec S16 32) (v1021 : IVec S16 32) (v1024 : IVec S16 32) (v1236 : IVec S16 32) : Prop :=
  (∀ a x, ((![v1024, v1017, v1236] : Fin 3 → IVec S16 32) a x).toNat < S16x8x64.size a) ∧
  (∀ a x, ((![v1024, v1021, v1236] : Fin 3 → IVec S16 32) a x).toNat < S16x8x64.size a)
instance k0_chk203.dec : ∀ (v1017 : IVec S16 32) (v1021 : IVec S16 32) (v1024 : IVec S16 32) (v1236 : IVec S16 32), Decidable (k0_chk203 v1017 v1021 v1024 v1236) := fun v1017 v1021 v1024 v1236 => decidable_of_iff' _ (Iff.of_eq (k0_chk203.eq_1 v1017 v1021 v1024 v1236))
theorem k0_idx213_inb : ∀ (v1017 : IVec S16 32) (v1021 : IVec S16 32) (v1024 : IVec S16 32) (v1236 : IVec S16 32) (k0_hw203 : k0_chk203 v1017 v1021 v1024 v1236), ∀ a x, ((![v1024, v1017, v1236] : Fin 3 → IVec S16 32) a x).toNat < S16x8x64.size a := fun v1017 v1021 v1024 v1236 k0_hw203 => k0_hw203.1
theorem k0_idx214_inb : ∀ (v1017 : IVec S16 32) (v1021 : IVec S16 32) (v1024 : IVec S16 32) (v1236 : IVec S16 32) (k0_hw203 : k0_chk203 v1017 v1021 v1024 v1236), ∀ a x, ((![v1024, v1021, v1236] : Fin 3 → IVec S16 32) a x).toNat < S16x8x64.size a := fun v1017 v1021 v1024 v1236 k0_hw203 => k0_hw203.2

def k0_chk204 (v1017 : IVec S16 32) (v1021 : IVec S16 32) (v1024 : IVec S16 32) (v1241 : IVec S16 32) : Prop :=
  (∀ a x, ((![v1024, v1017, v1241] : Fin 3 → IVec S16 32) a x).toNat < S16x8x64.size a) ∧
  (∀ a x, ((![v1024, v1021, v1241] : Fin 3 → IVec S16 32) a x).toNat < S16x8x64.size a)
instance k0_chk204.dec : ∀ (v1017 : IVec S16 32) (v1021 : IVec S16 32) (v1024 : IVec S16 32) (v1241 : IVec S16 32), Decidable (k0_chk204 v1017 v1021 v1024 v1241) := fun v1017 v1021 v1024 v1241 => decidable_of_iff' _ (Iff.of_eq (k0_chk204.eq_1 v1017 v1021 v1024 v1241))
theorem k0_idx215_inb : ∀ (v1017 : IVec S16 32) (v1021 : IVec S16 32) (v1024 : IVec S16 32) (v1241 : IVec S16 32) (k0_hw204 : k0_chk204 v1017 v1021 v1024 v1241), ∀ a x, ((![v1024, v1017, v1241] : Fin 3 → IVec S16 32) a x).toNat < S16x8x64.size a := fun v1017 v1021 v1024 v1241 k0_hw204 => k0_hw204.1
theorem k0_idx216_inb : ∀ (v1017 : IVec S16 32) (v1021 : IVec S16 32) (v1024 : IVec S16 32) (v1241 : IVec S16 32) (k0_hw204 : k0_chk204 v1017 v1021 v1024 v1241), ∀ a x, ((![v1024, v1021, v1241] : Fin 3 → IVec S16 32) a x).toNat < S16x8x64.size a := fun v1017 v1021 v1024 v1241 k0_hw204 => k0_hw204.2

def k0_chk205 (v1017 : IVec S16 32) (v1021 : IVec S16 32) (v1024 : IVec S16 32) (v1246 : IVec S16 32) : Prop :=
  (∀ a x, ((![v1024, v1017, v1246] : Fin 3 → IVec S16 32) a x).toNat < S16x8x64.size a) ∧
  (∀ a x, ((![v1024, v1021, v1246] : Fin 3 → IVec S16 32) a x).toNat < S16x8x64.size a)
instance k0_chk205.dec : ∀ (v1017 : IVec S16 32) (v1021 : IVec S16 32) (v1024 : IVec S16 32) (v1246 : IVec S16 32), Decidable (k0_chk205 v1017 v1021 v1024 v1246) := fun v1017 v1021 v1024 v1246 => decidable_of_iff' _ (Iff.of_eq (k0_chk205.eq_1 v1017 v1021 v1024 v1246))
theorem k0_idx217_inb : ∀ (v1017 : IVec S16 32) (v1021 : IVec S16 32) (v1024 : IVec S16 32) (v1246 : IVec S16 32) (k0_hw205 : k0_chk205 v1017 v1021 v1024 v1246), ∀ a x, ((![v1024, v1017, v1246] : Fin 3 → IVec S16 32) a x).toNat < S16x8x64.size a := fun v1017 v1021 v1024 v1246 k0_hw205 => k0_hw205.1
theorem k0_idx218_inb : ∀ (v1017 : IVec S16 32) (v1021 : IVec S16 32) (v1024 : IVec S16 32) (v1246 : IVec S16 32) (k0_hw205 : k0_chk205 v1017 v1021 v1024 v1246), ∀ a x, ((![v1024, v1021, v1246] : Fin 3 → IVec S16 32) a x).toNat < S16x8x64.size a := fun v1017 v1021 v1024 v1246 k0_hw205 => k0_hw205.2

def k0_chk206 (v1017 : IVec S16 32) (v1021 : IVec S16 32) (v1024 : IVec S16 32) (v1251 : IVec S16 32) : Prop :=
  (∀ a x, ((![v1024, v1017, v1251] : Fin 3 → IVec S16 32) a x).toNat < S16x8x64.size a) ∧
  (∀ a x, ((![v1024, v1021, v1251] : Fin 3 → IVec S16 32) a x).toNat < S16x8x64.size a)
instance k0_chk206.dec : ∀ (v1017 : IVec S16 32) (v1021 : IVec S16 32) (v1024 : IVec S16 32) (v1251 : IVec S16 32), Decidable (k0_chk206 v1017 v1021 v1024 v1251) := fun v1017 v1021 v1024 v1251 => decidable_of_iff' _ (Iff.of_eq (k0_chk206.eq_1 v1017 v1021 v1024 v1251))
theorem k0_idx219_inb : ∀ (v1017 : IVec S16 32) (v1021 : IVec S16 32) (v1024 : IVec S16 32) (v1251 : IVec S16 32) (k0_hw206 : k0_chk206 v1017 v1021 v1024 v1251), ∀ a x, ((![v1024, v1017, v1251] : Fin 3 → IVec S16 32) a x).toNat < S16x8x64.size a := fun v1017 v1021 v1024 v1251 k0_hw206 => k0_hw206.1
theorem k0_idx220_inb : ∀ (v1017 : IVec S16 32) (v1021 : IVec S16 32) (v1024 : IVec S16 32) (v1251 : IVec S16 32) (k0_hw206 : k0_chk206 v1017 v1021 v1024 v1251), ∀ a x, ((![v1024, v1021, v1251] : Fin 3 → IVec S16 32) a x).toNat < S16x8x64.size a := fun v1017 v1021 v1024 v1251 k0_hw206 => k0_hw206.2

def k0_chk207 (v1017 : IVec S16 32) (v1021 : IVec S16 32) (v1024 : IVec S16 32) (v1256 : IVec S16 32) : Prop :=
  (∀ a x, ((![v1024, v1017, v1256] : Fin 3 → IVec S16 32) a x).toNat < S16x8x64.size a) ∧
  (∀ a x, ((![v1024, v1021, v1256] : Fin 3 → IVec S16 32) a x).toNat < S16x8x64.size a)
instance k0_chk207.dec : ∀ (v1017 : IVec S16 32) (v1021 : IVec S16 32) (v1024 : IVec S16 32) (v1256 : IVec S16 32), Decidable (k0_chk207 v1017 v1021 v1024 v1256) := fun v1017 v1021 v1024 v1256 => decidable_of_iff' _ (Iff.of_eq (k0_chk207.eq_1 v1017 v1021 v1024 v1256))
theorem k0_idx221_inb : ∀ (v1017 : IVec S16 32) (v1021 : IVec S16 32) (v1024 : IVec S16 32) (v1256 : IVec S16 32) (k0_hw207 : k0_chk207 v1017 v1021 v1024 v1256), ∀ a x, ((![v1024, v1017, v1256] : Fin 3 → IVec S16 32) a x).toNat < S16x8x64.size a := fun v1017 v1021 v1024 v1256 k0_hw207 => k0_hw207.1
theorem k0_idx222_inb : ∀ (v1017 : IVec S16 32) (v1021 : IVec S16 32) (v1024 : IVec S16 32) (v1256 : IVec S16 32) (k0_hw207 : k0_chk207 v1017 v1021 v1024 v1256), ∀ a x, ((![v1024, v1021, v1256] : Fin 3 → IVec S16 32) a x).toNat < S16x8x64.size a := fun v1017 v1021 v1024 v1256 k0_hw207 => k0_hw207.2

def k0_chk208 (v1017 : IVec S16 32) (v1021 : IVec S16 32) (v1024 : IVec S16 32) (v1261 : IVec S16 32) : Prop :=
  (∀ a x, ((![v1024, v1017, v1261] : Fin 3 → IVec S16 32) a x).toNat < S16x8x64.size a) ∧
  (∀ a x, ((![v1024, v1021, v1261] : Fin 3 → IVec S16 32) a x).toNat < S16x8x64.size a)
instance k0_chk208.dec : ∀ (v1017 : IVec S16 32) (v1021 : IVec S16 32) (v1024 : IVec S16 32) (v1261 : IVec S16 32), Decidable (k0_chk208 v1017 v1021 v1024 v1261) := fun v1017 v1021 v1024 v1261 => decidable_of_iff' _ (Iff.of_eq (k0_chk208.eq_1 v1017 v1021 v1024 v1261))
theorem k0_idx223_inb : ∀ (v1017 : IVec S16 32) (v1021 : IVec S16 32) (v1024 : IVec S16 32) (v1261 : IVec S16 32) (k0_hw208 : k0_chk208 v1017 v1021 v1024 v1261), ∀ a x, ((![v1024, v1017, v1261] : Fin 3 → IVec S16 32) a x).toNat < S16x8x64.size a := fun v1017 v1021 v1024 v1261 k0_hw208 => k0_hw208.1
theorem k0_idx224_inb : ∀ (v1017 : IVec S16 32) (v1021 : IVec S16 32) (v1024 : IVec S16 32) (v1261 : IVec S16 32) (k0_hw208 : k0_chk208 v1017 v1021 v1024 v1261), ∀ a x, ((![v1024, v1021, v1261] : Fin 3 → IVec S16 32) a x).toNat < S16x8x64.size a := fun v1017 v1021 v1024 v1261 k0_hw208 => k0_hw208.2

def k0_chk209 (v1017 : IVec S16 32) (v1021 : IVec S16 32) (v1024 : IVec S16 32) (v1266 : IVec S16 32) : Prop :=
  (∀ a x, ((![v1024, v1017, v1266] : Fin 3 → IVec S16 32) a x).toNat < S16x8x64.size a) ∧
  (∀ a x, ((![v1024, v1021, v1266] : Fin 3 → IVec S16 32) a x).toNat < S16x8x64.size a)
instance k0_chk209.dec : ∀ (v1017 : IVec S16 32) (v1021 : IVec S16 32) (v1024 : IVec S16 32) (v1266 : IVec S16 32), Decidable (k0_chk209 v1017 v1021 v1024 v1266) := fun v1017 v1021 v1024 v1266 => decidable_of_iff' _ (Iff.of_eq (k0_chk209.eq_1 v1017 v1021 v1024 v1266))
theorem k0_idx225_inb : ∀ (v1017 : IVec S16 32) (v1021 : IVec S16 32) (v1024 : IVec S16 32) (v1266 : IVec S16 32) (k0_hw209 : k0_chk209 v1017 v1021 v1024 v1266), ∀ a x, ((![v1024, v1017, v1266] : Fin 3 → IVec S16 32) a x).toNat < S16x8x64.size a := fun v1017 v1021 v1024 v1266 k0_hw209 => k0_hw209.1
theorem k0_idx226_inb : ∀ (v1017 : IVec S16 32) (v1021 : IVec S16 32) (v1024 : IVec S16 32) (v1266 : IVec S16 32) (k0_hw209 : k0_chk209 v1017 v1021 v1024 v1266), ∀ a x, ((![v1024, v1021, v1266] : Fin 3 → IVec S16 32) a x).toNat < S16x8x64.size a := fun v1017 v1021 v1024 v1266 k0_hw209 => k0_hw209.2

def k0_chk210 (v1017 : IVec S16 32) (v1021 : IVec S16 32) (v1024 : IVec S16 32) (v1271 : IVec S16 32) : Prop :=
  (∀ a x, ((![v1024, v1017, v1271] : Fin 3 → IVec S16 32) a x).toNat < S16x8x64.size a) ∧
  (∀ a x, ((![v1024, v1021, v1271] : Fin 3 → IVec S16 32) a x).toNat < S16x8x64.size a)
instance k0_chk210.dec : ∀ (v1017 : IVec S16 32) (v1021 : IVec S16 32) (v1024 : IVec S16 32) (v1271 : IVec S16 32), Decidable (k0_chk210 v1017 v1021 v1024 v1271) := fun v1017 v1021 v1024 v1271 => decidable_of_iff' _ (Iff.of_eq (k0_chk210.eq_1 v1017 v1021 v1024 v1271))
theorem k0_idx227_inb : ∀ (v1017 : IVec S16 32) (v1021 : IVec S16 32) (v1024 : IVec S16 32) (v1271 : IVec S16 32) (k0_hw210 : k0_chk210 v1017 v1021 v1024 v1271), ∀ a x, ((![v1024, v1017, v1271] : Fin 3 → IVec S16 32) a x).toNat < S16x8x64.size a := fun v1017 v1021 v1024 v1271 k0_hw210 => k0_hw210.1
theorem k0_idx228_inb : ∀ (v1017 : IVec S16 32) (v1021 : IVec S16 32) (v1024 : IVec S16 32) (v1271 : IVec S16 32) (k0_hw210 : k0_chk210 v1017 v1021 v1024 v1271), ∀ a x, ((![v1024, v1021, v1271] : Fin 3 → IVec S16 32) a x).toNat < S16x8x64.size a := fun v1017 v1021 v1024 v1271 k0_hw210 => k0_hw210.2

def k0_chk211 (v1017 : IVec S16 32) (v1021 : IVec S16 32) (v1024 : IVec S16 32) (v1276 : IVec S16 32) : Prop :=
  (∀ a x, ((![v1024, v1017, v1276] : Fin 3 → IVec S16 32) a x).toNat < S16x8x64.size a) ∧
  (∀ a x, ((![v1024, v1021, v1276] : Fin 3 → IVec S16 32) a x).toNat < S16x8x64.size a)
instance k0_chk211.dec : ∀ (v1017 : IVec S16 32) (v1021 : IVec S16 32) (v1024 : IVec S16 32) (v1276 : IVec S16 32), Decidable (k0_chk211 v1017 v1021 v1024 v1276) := fun v1017 v1021 v1024 v1276 => decidable_of_iff' _ (Iff.of_eq (k0_chk211.eq_1 v1017 v1021 v1024 v1276))
theorem k0_idx229_inb : ∀ (v1017 : IVec S16 32) (v1021 : IVec S16 32) (v1024 : IVec S16 32) (v1276 : IVec S16 32) (k0_hw211 : k0_chk211 v1017 v1021 v1024 v1276), ∀ a x, ((![v1024, v1017, v1276] : Fin 3 → IVec S16 32) a x).toNat < S16x8x64.size a := fun v1017 v1021 v1024 v1276 k0_hw211 => k0_hw211.1
theorem k0_idx230_inb : ∀ (v1017 : IVec S16 32) (v1021 : IVec S16 32) (v1024 : IVec S16 32) (v1276 : IVec S16 32) (k0_hw211 : k0_chk211 v1017 v1021 v1024 v1276), ∀ a x, ((![v1024, v1021, v1276] : Fin 3 → IVec S16 32) a x).toNat < S16x8x64.size a := fun v1017 v1021 v1024 v1276 k0_hw211 => k0_hw211.2

def k0_chk212 (v1017 : IVec S16 32) (v1021 : IVec S16 32) (v1024 : IVec S16 32) (v1281 : IVec S16 32) : Prop :=
  (∀ a x, ((![v1024, v1017, v1281] : Fin 3 → IVec S16 32) a x).toNat < S16x8x64.size a) ∧
  (∀ a x, ((![v1024, v1021, v1281] : Fin 3 → IVec S16 32) a x).toNat < S16x8x64.size a)
instance k0_chk212.dec : ∀ (v1017 : IVec S16 32) (v1021 : IVec S16 32) (v1024 : IVec S16 32) (v1281 : IVec S16 32), Decidable (k0_chk212 v1017 v1021 v1024 v1281) := fun v1017 v1021 v1024 v1281 => decidable_of_iff' _ (Iff.of_eq (k0_chk212.eq_1 v1017 v1021 v1024 v1281))
theorem k0_idx231_inb : ∀ (v1017 : IVec S16 32) (v1021 : IVec S16 32) (v1024 : IVec S16 32) (v1281 : IVec S16 32) (k0_hw212 : k0_chk212 v1017 v1021 v1024 v1281), ∀ a x, ((![v1024, v1017, v1281] : Fin 3 → IVec S16 32) a x).toNat < S16x8x64.size a := fun v1017 v1021 v1024 v1281 k0_hw212 => k0_hw212.1
theorem k0_idx232_inb : ∀ (v1017 : IVec S16 32) (v1021 : IVec S16 32) (v1024 : IVec S16 32) (v1281 : IVec S16 32) (k0_hw212 : k0_chk212 v1017 v1021 v1024 v1281), ∀ a x, ((![v1024, v1021, v1281] : Fin 3 → IVec S16 32) a x).toNat < S16x8x64.size a := fun v1017 v1021 v1024 v1281 k0_hw212 => k0_hw212.2

def k0_chk213 (v1017 : IVec S16 32) (v1021 : IVec S16 32) (v1024 : IVec S16 32) (v1286 : IVec S16 32) : Prop :=
  (∀ a x, ((![v1024, v1017, v1286] : Fin 3 → IVec S16 32) a x).toNat < S16x8x64.size a) ∧
  (∀ a x, ((![v1024, v1021, v1286] : Fin 3 → IVec S16 32) a x).toNat < S16x8x64.size a)
instance k0_chk213.dec : ∀ (v1017 : IVec S16 32) (v1021 : IVec S16 32) (v1024 : IVec S16 32) (v1286 : IVec S16 32), Decidable (k0_chk213 v1017 v1021 v1024 v1286) := fun v1017 v1021 v1024 v1286 => decidable_of_iff' _ (Iff.of_eq (k0_chk213.eq_1 v1017 v1021 v1024 v1286))
theorem k0_idx233_inb : ∀ (v1017 : IVec S16 32) (v1021 : IVec S16 32) (v1024 : IVec S16 32) (v1286 : IVec S16 32) (k0_hw213 : k0_chk213 v1017 v1021 v1024 v1286), ∀ a x, ((![v1024, v1017, v1286] : Fin 3 → IVec S16 32) a x).toNat < S16x8x64.size a := fun v1017 v1021 v1024 v1286 k0_hw213 => k0_hw213.1
theorem k0_idx234_inb : ∀ (v1017 : IVec S16 32) (v1021 : IVec S16 32) (v1024 : IVec S16 32) (v1286 : IVec S16 32) (k0_hw213 : k0_chk213 v1017 v1021 v1024 v1286), ∀ a x, ((![v1024, v1021, v1286] : Fin 3 → IVec S16 32) a x).toNat < S16x8x64.size a := fun v1017 v1021 v1024 v1286 k0_hw213 => k0_hw213.2

def k0_chk214 (v1017 : IVec S16 32) (v1021 : IVec S16 32) (v1024 : IVec S16 32) (v1291 : IVec S16 32) : Prop :=
  (∀ a x, ((![v1024, v1017, v1291] : Fin 3 → IVec S16 32) a x).toNat < S16x8x64.size a) ∧
  (∀ a x, ((![v1024, v1021, v1291] : Fin 3 → IVec S16 32) a x).toNat < S16x8x64.size a)
instance k0_chk214.dec : ∀ (v1017 : IVec S16 32) (v1021 : IVec S16 32) (v1024 : IVec S16 32) (v1291 : IVec S16 32), Decidable (k0_chk214 v1017 v1021 v1024 v1291) := fun v1017 v1021 v1024 v1291 => decidable_of_iff' _ (Iff.of_eq (k0_chk214.eq_1 v1017 v1021 v1024 v1291))
theorem k0_idx235_inb : ∀ (v1017 : IVec S16 32) (v1021 : IVec S16 32) (v1024 : IVec S16 32) (v1291 : IVec S16 32) (k0_hw214 : k0_chk214 v1017 v1021 v1024 v1291), ∀ a x, ((![v1024, v1017, v1291] : Fin 3 → IVec S16 32) a x).toNat < S16x8x64.size a := fun v1017 v1021 v1024 v1291 k0_hw214 => k0_hw214.1
theorem k0_idx236_inb : ∀ (v1017 : IVec S16 32) (v1021 : IVec S16 32) (v1024 : IVec S16 32) (v1291 : IVec S16 32) (k0_hw214 : k0_chk214 v1017 v1021 v1024 v1291), ∀ a x, ((![v1024, v1021, v1291] : Fin 3 → IVec S16 32) a x).toNat < S16x8x64.size a := fun v1017 v1021 v1024 v1291 k0_hw214 => k0_hw214.2

def k0_chk215 (v1017 : IVec S16 32) (v1021 : IVec S16 32) (v1024 : IVec S16 32) (v1296 : IVec S16 32) : Prop :=
  (∀ a x, ((![v1024, v1017, v1296] : Fin 3 → IVec S16 32) a x).toNat < S16x8x64.size a) ∧
  (∀ a x, ((![v1024, v1021, v1296] : Fin 3 → IVec S16 32) a x).toNat < S16x8x64.size a)
instance k0_chk215.dec : ∀ (v1017 : IVec S16 32) (v1021 : IVec S16 32) (v1024 : IVec S16 32) (v1296 : IVec S16 32), Decidable (k0_chk215 v1017 v1021 v1024 v1296) := fun v1017 v1021 v1024 v1296 => decidable_of_iff' _ (Iff.of_eq (k0_chk215.eq_1 v1017 v1021 v1024 v1296))
theorem k0_idx237_inb : ∀ (v1017 : IVec S16 32) (v1021 : IVec S16 32) (v1024 : IVec S16 32) (v1296 : IVec S16 32) (k0_hw215 : k0_chk215 v1017 v1021 v1024 v1296), ∀ a x, ((![v1024, v1017, v1296] : Fin 3 → IVec S16 32) a x).toNat < S16x8x64.size a := fun v1017 v1021 v1024 v1296 k0_hw215 => k0_hw215.1
theorem k0_idx238_inb : ∀ (v1017 : IVec S16 32) (v1021 : IVec S16 32) (v1024 : IVec S16 32) (v1296 : IVec S16 32) (k0_hw215 : k0_chk215 v1017 v1021 v1024 v1296), ∀ a x, ((![v1024, v1021, v1296] : Fin 3 → IVec S16 32) a x).toNat < S16x8x64.size a := fun v1017 v1021 v1024 v1296 k0_hw215 => k0_hw215.2

def k0_chk216 (v1017 : IVec S16 32) (v1021 : IVec S16 32) (v1024 : IVec S16 32) (v1301 : IVec S16 32) : Prop :=
  (∀ a x, ((![v1024, v1017, v1301] : Fin 3 → IVec S16 32) a x).toNat < S16x8x64.size a) ∧
  (∀ a x, ((![v1024, v1021, v1301] : Fin 3 → IVec S16 32) a x).toNat < S16x8x64.size a)
instance k0_chk216.dec : ∀ (v1017 : IVec S16 32) (v1021 : IVec S16 32) (v1024 : IVec S16 32) (v1301 : IVec S16 32), Decidable (k0_chk216 v1017 v1021 v1024 v1301) := fun v1017 v1021 v1024 v1301 => decidable_of_iff' _ (Iff.of_eq (k0_chk216.eq_1 v1017 v1021 v1024 v1301))
theorem k0_idx239_inb : ∀ (v1017 : IVec S16 32) (v1021 : IVec S16 32) (v1024 : IVec S16 32) (v1301 : IVec S16 32) (k0_hw216 : k0_chk216 v1017 v1021 v1024 v1301), ∀ a x, ((![v1024, v1017, v1301] : Fin 3 → IVec S16 32) a x).toNat < S16x8x64.size a := fun v1017 v1021 v1024 v1301 k0_hw216 => k0_hw216.1
theorem k0_idx240_inb : ∀ (v1017 : IVec S16 32) (v1021 : IVec S16 32) (v1024 : IVec S16 32) (v1301 : IVec S16 32) (k0_hw216 : k0_chk216 v1017 v1021 v1024 v1301), ∀ a x, ((![v1024, v1021, v1301] : Fin 3 → IVec S16 32) a x).toNat < S16x8x64.size a := fun v1017 v1021 v1024 v1301 k0_hw216 => k0_hw216.2

def k0_chk217 (v1017 : IVec S16 32) (v1021 : IVec S16 32) (v1024 : IVec S16 32) (v1306 : IVec S16 32) : Prop :=
  (∀ a x, ((![v1024, v1017, v1306] : Fin 3 → IVec S16 32) a x).toNat < S16x8x64.size a) ∧
  (∀ a x, ((![v1024, v1021, v1306] : Fin 3 → IVec S16 32) a x).toNat < S16x8x64.size a)
instance k0_chk217.dec : ∀ (v1017 : IVec S16 32) (v1021 : IVec S16 32) (v1024 : IVec S16 32) (v1306 : IVec S16 32), Decidable (k0_chk217 v1017 v1021 v1024 v1306) := fun v1017 v1021 v1024 v1306 => decidable_of_iff' _ (Iff.of_eq (k0_chk217.eq_1 v1017 v1021 v1024 v1306))
theorem k0_idx241_inb : ∀ (v1017 : IVec S16 32) (v1021 : IVec S16 32) (v1024 : IVec S16 32) (v1306 : IVec S16 32) (k0_hw217 : k0_chk217 v1017 v1021 v1024 v1306), ∀ a x, ((![v1024, v1017, v1306] : Fin 3 → IVec S16 32) a x).toNat < S16x8x64.size a := fun v1017 v1021 v1024 v1306 k0_hw217 => k0_hw217.1
theorem k0_idx242_inb : ∀ (v1017 : IVec S16 32) (v1021 : IVec S16 32) (v1024 : IVec S16 32) (v1306 : IVec S16 32) (k0_hw217 : k0_chk217 v1017 v1021 v1024 v1306), ∀ a x, ((![v1024, v1021, v1306] : Fin 3 → IVec S16 32) a x).toNat < S16x8x64.size a := fun v1017 v1021 v1024 v1306 k0_hw217 => k0_hw217.2

def k0_chk218 (v1017 : IVec S16 32) (v1021 : IVec S16 32) (v1024 : IVec S16 32) (v1311 : IVec S16 32) : Prop :=
  (∀ a x, ((![v1024, v1017, v1311] : Fin 3 → IVec S16 32) a x).toNat < S16x8x64.size a) ∧
  (∀ a x, ((![v1024, v1021, v1311] : Fin 3 → IVec S16 32) a x).toNat < S16x8x64.size a)
instance k0_chk218.dec : ∀ (v1017 : IVec S16 32) (v1021 : IVec S16 32) (v1024 : IVec S16 32) (v1311 : IVec S16 32), Decidable (k0_chk218 v1017 v1021 v1024 v1311) := fun v1017 v1021 v1024 v1311 => decidable_of_iff' _ (Iff.of_eq (k0_chk218.eq_1 v1017 v1021 v1024 v1311))
theorem k0_idx243_inb : ∀ (v1017 : IVec S16 32) (v1021 : IVec S16 32) (v1024 : IVec S16 32) (v1311 : IVec S16 32) (k0_hw218 : k0_chk218 v1017 v1021 v1024 v1311), ∀ a x, ((![v1024, v1017, v1311] : Fin 3 → IVec S16 32) a x).toNat < S16x8x64.size a := fun v1017 v1021 v1024 v1311 k0_hw218 => k0_hw218.1
theorem k0_idx244_inb : ∀ (v1017 : IVec S16 32) (v1021 : IVec S16 32) (v1024 : IVec S16 32) (v1311 : IVec S16 32) (k0_hw218 : k0_chk218 v1017 v1021 v1024 v1311), ∀ a x, ((![v1024, v1021, v1311] : Fin 3 → IVec S16 32) a x).toNat < S16x8x64.size a := fun v1017 v1021 v1024 v1311 k0_hw218 => k0_hw218.2

def k0_chk219 (v1017 : IVec S16 32) (v1021 : IVec S16 32) (v1024 : IVec S16 32) (v1316 : IVec S16 32) : Prop :=
  (∀ a x, ((![v1024, v1017, v1316] : Fin 3 → IVec S16 32) a x).toNat < S16x8x64.size a) ∧
  (∀ a x, ((![v1024, v1021, v1316] : Fin 3 → IVec S16 32) a x).toNat < S16x8x64.size a)
instance k0_chk219.dec : ∀ (v1017 : IVec S16 32) (v1021 : IVec S16 32) (v1024 : IVec S16 32) (v1316 : IVec S16 32), Decidable (k0_chk219 v1017 v1021 v1024 v1316) := fun v1017 v1021 v1024 v1316 => decidable_of_iff' _ (Iff.of_eq (k0_chk219.eq_1 v1017 v1021 v1024 v1316))
theorem k0_idx245_inb : ∀ (v1017 : IVec S16 32) (v1021 : IVec S16 32) (v1024 : IVec S16 32) (v1316 : IVec S16 32) (k0_hw219 : k0_chk219 v1017 v1021 v1024 v1316), ∀ a x, ((![v1024, v1017, v1316] : Fin 3 → IVec S16 32) a x).toNat < S16x8x64.size a := fun v1017 v1021 v1024 v1316 k0_hw219 => k0_hw219.1
theorem k0_idx246_inb : ∀ (v1017 : IVec S16 32) (v1021 : IVec S16 32) (v1024 : IVec S16 32) (v1316 : IVec S16 32) (k0_hw219 : k0_chk219 v1017 v1021 v1024 v1316), ∀ a x, ((![v1024, v1021, v1316] : Fin 3 → IVec S16 32) a x).toNat < S16x8x64.size a := fun v1017 v1021 v1024 v1316 k0_hw219 => k0_hw219.2

def k0_chk220 (v1017 : IVec S16 32) (v1021 : IVec S16 32) (v1024 : IVec S16 32) (v1321 : IVec S16 32) : Prop :=
  (∀ a x, ((![v1024, v1017, v1321] : Fin 3 → IVec S16 32) a x).toNat < S16x8x64.size a) ∧
  (∀ a x, ((![v1024, v1021, v1321] : Fin 3 → IVec S16 32) a x).toNat < S16x8x64.size a)
instance k0_chk220.dec : ∀ (v1017 : IVec S16 32) (v1021 : IVec S16 32) (v1024 : IVec S16 32) (v1321 : IVec S16 32), Decidable (k0_chk220 v1017 v1021 v1024 v1321) := fun v1017 v1021 v1024 v1321 => decidable_of_iff' _ (Iff.of_eq (k0_chk220.eq_1 v1017 v1021 v1024 v1321))
theorem k0_idx247_inb : ∀ (v1017 : IVec S16 32) (v1021 : IVec S16 32) (v1024 : IVec S16 32) (v1321 : IVec S16 32) (k0_hw220 : k0_chk220 v1017 v1021 v1024 v1321), ∀ a x, ((![v1024, v1017, v1321] : Fin 3 → IVec S16 32) a x).toNat < S16x8x64.size a := fun v1017 v1021 v1024 v1321 k0_hw220 => k0_hw220.1
theorem k0_idx248_inb : ∀ (v1017 : IVec S16 32) (v1021 : IVec S16 32) (v1024 : IVec S16 32) (v1321 : IVec S16 32) (k0_hw220 : k0_chk220 v1017 v1021 v1024 v1321), ∀ a x, ((![v1024, v1021, v1321] : Fin 3 → IVec S16 32) a x).toNat < S16x8x64.size a := fun v1017 v1021 v1024 v1321 k0_hw220 => k0_hw220.2

def k0_chk221 (v1017 : IVec S16 32) (v1021 : IVec S16 32) (v1024 : IVec S16 32) (v1326 : IVec S16 32) : Prop :=
  (∀ a x, ((![v1024, v1017, v1326] : Fin 3 → IVec S16 32) a x).toNat < S16x8x64.size a) ∧
  (∀ a x, ((![v1024, v1021, v1326] : Fin 3 → IVec S16 32) a x).toNat < S16x8x64.size a)
instance k0_chk221.dec : ∀ (v1017 : IVec S16 32) (v1021 : IVec S16 32) (v1024 : IVec S16 32) (v1326 : IVec S16 32), Decidable (k0_chk221 v1017 v1021 v1024 v1326) := fun v1017 v1021 v1024 v1326 => decidable_of_iff' _ (Iff.of_eq (k0_chk221.eq_1 v1017 v1021 v1024 v1326))
theorem k0_idx249_inb : ∀ (v1017 : IVec S16 32) (v1021 : IVec S16 32) (v1024 : IVec S16 32) (v1326 : IVec S16 32) (k0_hw221 : k0_chk221 v1017 v1021 v1024 v1326), ∀ a x, ((![v1024, v1017, v1326] : Fin 3 → IVec S16 32) a x).toNat < S16x8x64.size a := fun v1017 v1021 v1024 v1326 k0_hw221 => k0_hw221.1
theorem k0_idx250_inb : ∀ (v1017 : IVec S16 32) (v1021 : IVec S16 32) (v1024 : IVec S16 32) (v1326 : IVec S16 32) (k0_hw221 : k0_chk221 v1017 v1021 v1024 v1326), ∀ a x, ((![v1024, v1021, v1326] : Fin 3 → IVec S16 32) a x).toNat < S16x8x64.size a := fun v1017 v1021 v1024 v1326 k0_hw221 => k0_hw221.2

def k0_chk222 (v1017 : IVec S16 32) (v1021 : IVec S16 32) (v1024 : IVec S16 32) (v1331 : IVec S16 32) : Prop :=
  (∀ a x, ((![v1024, v1017, v1331] : Fin 3 → IVec S16 32) a x).toNat < S16x8x64.size a) ∧
  (∀ a x, ((![v1024, v1021, v1331] : Fin 3 → IVec S16 32) a x).toNat < S16x8x64.size a)
instance k0_chk222.dec : ∀ (v1017 : IVec S16 32) (v1021 : IVec S16 32) (v1024 : IVec S16 32) (v1331 : IVec S16 32), Decidable (k0_chk222 v1017 v1021 v1024 v1331) := fun v1017 v1021 v1024 v1331 => decidable_of_iff' _ (Iff.of_eq (k0_chk222.eq_1 v1017 v1021 v1024 v1331))
theorem k0_idx251_inb : ∀ (v1017 : IVec S16 32) (v1021 : IVec S16 32) (v1024 : IVec S16 32) (v1331 : IVec S16 32) (k0_hw222 : k0_chk222 v1017 v1021 v1024 v1331), ∀ a x, ((![v1024, v1017, v1331] : Fin 3 → IVec S16 32) a x).toNat < S16x8x64.size a := fun v1017 v1021 v1024 v1331 k0_hw222 => k0_hw222.1
theorem k0_idx252_inb : ∀ (v1017 : IVec S16 32) (v1021 : IVec S16 32) (v1024 : IVec S16 32) (v1331 : IVec S16 32) (k0_hw222 : k0_chk222 v1017 v1021 v1024 v1331), ∀ a x, ((![v1024, v1021, v1331] : Fin 3 → IVec S16 32) a x).toNat < S16x8x64.size a := fun v1017 v1021 v1024 v1331 k0_hw222 => k0_hw222.2

def k0_chk223 (v1017 : IVec S16 32) (v1021 : IVec S16 32) (v1024 : IVec S16 32) (v1336 : IVec S16 32) : Prop :=
  (∀ a x, ((![v1024, v1017, v1336] : Fin 3 → IVec S16 32) a x).toNat < S16x8x64.size a) ∧
  (∀ a x, ((![v1024, v1021, v1336] : Fin 3 → IVec S16 32) a x).toNat < S16x8x64.size a)
instance k0_chk223.dec : ∀ (v1017 : IVec S16 32) (v1021 : IVec S16 32) (v1024 : IVec S16 32) (v1336 : IVec S16 32), Decidable (k0_chk223 v1017 v1021 v1024 v1336) := fun v1017 v1021 v1024 v1336 => decidable_of_iff' _ (Iff.of_eq (k0_chk223.eq_1 v1017 v1021 v1024 v1336))
theorem k0_idx253_inb : ∀ (v1017 : IVec S16 32) (v1021 : IVec S16 32) (v1024 : IVec S16 32) (v1336 : IVec S16 32) (k0_hw223 : k0_chk223 v1017 v1021 v1024 v1336), ∀ a x, ((![v1024, v1017, v1336] : Fin 3 → IVec S16 32) a x).toNat < S16x8x64.size a := fun v1017 v1021 v1024 v1336 k0_hw223 => k0_hw223.1
theorem k0_idx254_inb : ∀ (v1017 : IVec S16 32) (v1021 : IVec S16 32) (v1024 : IVec S16 32) (v1336 : IVec S16 32) (k0_hw223 : k0_chk223 v1017 v1021 v1024 v1336), ∀ a x, ((![v1024, v1021, v1336] : Fin 3 → IVec S16 32) a x).toNat < S16x8x64.size a := fun v1017 v1021 v1024 v1336 k0_hw223 => k0_hw223.2

def k0_chk224 (v1017 : IVec S16 32) (v1021 : IVec S16 32) (v1024 : IVec S16 32) (v1341 : IVec S16 32) : Prop :=
  (∀ a x, ((![v1024, v1017, v1341] : Fin 3 → IVec S16 32) a x).toNat < S16x8x64.size a) ∧
  (∀ a x, ((![v1024, v1021, v1341] : Fin 3 → IVec S16 32) a x).toNat < S16x8x64.size a)
instance k0_chk224.dec : ∀ (v1017 : IVec S16 32) (v1021 : IVec S16 32) (v1024 : IVec S16 32) (v1341 : IVec S16 32), Decidable (k0_chk224 v1017 v1021 v1024 v1341) := fun v1017 v1021 v1024 v1341 => decidable_of_iff' _ (Iff.of_eq (k0_chk224.eq_1 v1017 v1021 v1024 v1341))
theorem k0_idx255_inb : ∀ (v1017 : IVec S16 32) (v1021 : IVec S16 32) (v1024 : IVec S16 32) (v1341 : IVec S16 32) (k0_hw224 : k0_chk224 v1017 v1021 v1024 v1341), ∀ a x, ((![v1024, v1017, v1341] : Fin 3 → IVec S16 32) a x).toNat < S16x8x64.size a := fun v1017 v1021 v1024 v1341 k0_hw224 => k0_hw224.1
theorem k0_idx256_inb : ∀ (v1017 : IVec S16 32) (v1021 : IVec S16 32) (v1024 : IVec S16 32) (v1341 : IVec S16 32) (k0_hw224 : k0_chk224 v1017 v1021 v1024 v1341), ∀ a x, ((![v1024, v1021, v1341] : Fin 3 → IVec S16 32) a x).toNat < S16x8x64.size a := fun v1017 v1021 v1024 v1341 k0_hw224 => k0_hw224.2
def k0_off103 (k0_t1 : Fin k0_t1_loop.trips) : Fin 1 → Nat :=
  let c0_i32_277 : BitVec 32 := 0#32
  let c1_i32_278 : BitVec 32 := 1#32
  let arg18 : BitVec 32 := Scf.iv c0_i32_277 c1_i32_278 k0_t1
  let c2_i32_280 : BitVec 32 := 2#32
  let v330 : BitVec 32 := Scalar.muli arg18 c2_i32_280
  let c1_i32_624 : BitVec 32 := 1#32
  let v1011 : BitVec 32 := Scalar.addi v330 c1_i32_624
  let c16_i32_695 : BitVec 32 := 16#32
  let v1346 : BitVec 32 := Scalar.muli v1011 c16_i32_695
  let c0_i32_696 : BitVec 32 := 0#32
  let v1347 : BitVec 32 := Scalar.addi v1346 c0_i32_696
  let v1348 : Index := Scalar.indexCast v1347
  ![v1348.toNat]
def k0_off104 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x64_S125000x8x64 : S1000000x64.ShapeCasts S125000x8x64
  inb_S512_S16_0 : ∀ a, (![0] : Fin 1 → Nat) a + S16.size a ≤ S512.size a
  h_S16 : 0 < S16.numel
  slices_S16_o0_S1 : S16.Slices ![0] S1
  inpos_S1_p0 : ∀ a, (![0] : Fin 1 → Nat) a < S1.size a
  inb_S16x8x64_S1x8x64_0_0_0 : ∀ a, (![0, 0, 0] : Fin 3 → Nat) a + S1x8x64.size a ≤ S16x8x64.size a
  squeezes_S1x8x64_S8x64 : S1x8x64.Squeezes S8x64
  slices_S16_o1_S1 : S16.Slices ![1] S1
  inb_S16x8x64_S1x8x64_1_0_0 : ∀ a, (![1, 0, 0] : Fin 3 → Nat) a + S1x8x64.size a ≤ S16x8x64.size a
  slices_S16_o2_S1 : S16.Slices ![2] S1
  inb_S16x8x64_S1x8x64_2_0_0 : ∀ a, (![2, 0, 0] : Fin 3 → Nat) a + S1x8x64.size a ≤ S16x8x64.size a
  slices_S16_o3_S1 : S16.Slices ![3] S1
  inb_S16x8x64_S1x8x64_3_0_0 : ∀ a, (![3, 0, 0] : Fin 3 → Nat) a + S1x8x64.size a ≤ S16x8x64.size a
  slices_S16_o4_S1 : S16.Slices ![4] S1
  inb_S16x8x64_S1x8x64_4_0_0 : ∀ a, (![4, 0, 0] : Fin 3 → Nat) a + S1x8x64.size a ≤ S16x8x64.size a
  slices_S16_o5_S1 : S16.Slices ![5] S1
  inb_S16x8x64_S1x8x64_5_0_0 : ∀ a, (![5, 0, 0] : Fin 3 → Nat) a + S1x8x64.size a ≤ S16x8x64.size a
  slices_S16_o6_S1 : S16.Slices ![6] S1
  inb_S16x8x64_S1x8x64_6_0_0 : ∀ a, (![6, 0, 0] : Fin 3 → Nat) a + S1x8x64.size a ≤ S16x8x64.size a
  slices_S16_o7_S1 : S16.Slices ![7] S1
  inb_S16x8x64_S1x8x64_7_0_0 : ∀ a, (![7, 0, 0] : Fin 3 → Nat) a + S1x8x64.size a ≤ S16x8x64.size a
  slices_S16_o8_S1 : S16.Slices ![8] S1
  inb_S16x8x64_S1x8x64_8_0_0 : ∀ a, (![8, 0, 0] : Fin 3 → Nat) a + S1x8x64.size a ≤ S16x8x64.size a
  slices_S16_o9_S1 : S16.Slices ![9] S1
  inb_S16x8x64_S1x8x64_9_0_0 : ∀ a, (![9, 0, 0] : Fin 3 → Nat) a + S1x8x64.size a ≤ S16x8x64.size a
  slices_S16_o10_S1 : S16.Slices ![10] S1
  inb_S16x8x64_S1x8x64_10_0_0 : ∀ a, (![10, 0, 0] : Fin 3 → Nat) a + S1x8x64.size a ≤ S16x8x64.size a
  slices_S16_o11_S1 : S16.Slices ![11] S1
  inb_S16x8x64_S1x8x64_11_0_0 : ∀ a, (![11, 0, 0] : Fin 3 → Nat) a + S1x8x64.size a ≤ S16x8x64.size a
  slices_S16_o12_S1 : S16.Slices ![12] S1
  inb_S16x8x64_S1x8x64_12_0_0 : ∀ a, (![12, 0, 0] : Fin 3 → Nat) a + S1x8x64.size a ≤ S16x8x64.size a
  slices_S16_o13_S1 : S16.Slices ![13] S1
  inb_S16x8x64_S1x8x64_13_0_0 : ∀ a, (![13, 0, 0] : Fin 3 → Nat) a + S1x8x64.size a ≤ S16x8x64.size a
  slices_S16_o14_S1 : S16.Slices ![14] S1
  inb_S16x8x64_S1x8x64_14_0_0 : ∀ a, (![14, 0, 0] : Fin 3 → Nat) a + S1x8x64.size a ≤ S16x8x64.size a
  slices_S16_o15_S1 : S16.Slices ![15] S1
  inb_S16x8x64_S1x8x64_15_0_0 : ∀ a, (![15, 0, 0] : Fin 3 → Nat) a + S1x8x64.size a ≤ S16x8x64.size a
  inb_S125000x8x64_S16x8x64_0_0_0 : ∀ a, (![0, 0, 0] : Fin 3 → Nat) a + S16x8x64.size a ≤ S125000x8x64.size a
  iota_S16_d0_w32_scVector : S16.Iotas .scVector 32 [0]
  h_S16x8x64 : 0 < S16x8x64.numel
  hcc0_scratch7 : 0 + S_.numel ≤ 7
  hcc0_scratch8 : 1 + S_.numel ≤ 7
  hcc0_scratch9 : 2 + S_.numel ≤ 7
  hcc0_scratch10 : 3 + S_.numel ≤ 7
  hcc0_scoped0 : 4 + S_.numel ≤ 7
  hcc0_scoped1 : 5 + S_.numel ≤ 7
  hcc0_scoped2 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off34_inb : ∀ k0_t1 : Fin k0_t1_loop.trips, ∀ a, (k0_off34 k0_t1) a + S16.size a ≤ S512.size a
  k0_off67_inb : ∀ k0_t1 : Fin k0_t1_loop.trips, ∀ a, (k0_off67 k0_t1) a + S16.size a ≤ S512.size a
  k0_off68_inb : ∀ k0_t1 : Fin k0_t1_loop.trips, ∀ a, (k0_off68 k0_t1) a + S16.size a ≤ S512.size a
  k0_off69_inb : ∀ k0_t1 : Fin k0_t1_loop.trips, ∀ (k0_h1 : k0_cond1 k0_t1 = 1#1), ∀ a, (k0_off69 k0_t1) a + S16.size a ≤ S512.size a
  k0_off102_inb : ∀ k0_t1 : Fin k0_t1_loop.trips, ∀ a, (k0_off102 k0_t1) a + S16.size a ≤ S512.size a
  k0_off103_inb : ∀ k0_t1 : Fin k0_t1_loop.trips, ∀ a, (k0_off103 k0_t1) a + S16.size a ≤ S512.size a
  k0_off104_inb : ∀ i : grid0.Coords, ∀ a, (k0_off104 i) a + S512.size a ≤ S16384.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2

class Facts : Prop extends Facts₀ where

variable [Facts]
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 53
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x64, .f32⟩
  | .hbm, ⟨23, _⟩ => ⟨S16384x64, .i1⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x64, .f32⟩
  | .hbm, ⟨46, _⟩ => ⟨S16384x64, .i1⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S_, .f32⟩
  | .hbm, ⟨52, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  reducesTo_S16384x64_S16384_d1 : S16384x64.ReducesTo [1] S16384
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.Spec.lean ====
/-
  The specification, stated once and shared by both sides.

  Each batch position `k` carries a user index `u k` and an item index `i k`; the result at `k` is the inner
  product, over the 64 features, of row `u k` of the user table and row `i k` of the item table.

  `dotAcc` is that inner product accumulated feature by feature from a starting value, in the order the
  kernel adds (`((z + a0*b0) + a1*b1) + …`), over any float instance.  `outF` reads the two tables in their
  blocked form `[125000, 8, 64]` (block `v / 8`, row-in-block `v % 8`), which is how the kernel addresses them.
  `G` is the same value at the ideal instance as a finite sum over the un-blocked tables `[1000000, 64]`.
-/
import Idealize.ShloMosaic.PureOps
import Idealize.ShloMosaic.PureOps.Ideal
import Idealize.ShloMosaic.Lib.ValueIdx

noncomputable section

namespace Cert.Spec

open Idealize.ShloMosaic

abbrev SB : Shape := ⟨1, ![16384]⟩
abbrev ST : Shape := ⟨2, ![1000000, 64]⟩
abbrev ST3 : Shape := ⟨3, ![125000, 8, 64]⟩

variable {F : FTy → Type} [FloatOps F]

/-- `z + a 0 * b 0 + … + a (n-1) * b (n-1)`, added left to right. -/
def dotAcc (z : F .f32) (a b : ℕ → F .f32) : ℕ → F .f32
  | 0 => z
  | n + 1 => FloatOps.addf (dotAcc z a b n) (FloatOps.mulf (a n) (b n))

/-- The blocked address of feature `f` of table row `v`: block `v >>> 3`, row `v &&& 7` of the block. (Total: each
    coordinate is reduced modulo its extent, which changes nothing for a row number below 1000000.) -/
def blk3 (v : BitVec 32) (f : ℕ) : ST3.Idx :=
  ValueIdx.ix3 (n0 := 125000) (n1 := 8) (n2 := 64)
    ⟨(v >>> 3).toNat % 125000, Nat.mod_lt _ (by decide)⟩ ⟨(v &&& 7#32).toNat % 8, Nat.mod_lt _ (by decide)⟩ ⟨f % 64, Nat.mod_lt _ (by decide)⟩

/-- The kernel's result over any float instance: position `k` holds the accumulated inner product of the two blocked
    rows its indices name, started from `z`. -/
def outF (z : F .f32) (u i : IVec SB 32) (uw3 iw3 : FVec F ST3 .f32) : FVec F SB .f32 :=
  fun k => dotAcc z (fun f => uw3 (blk3 (u k) f)) (fun f => iw3 (blk3 (i k) f)) 64

/-- Table row `v` (total: reduced modulo the number of rows). -/
def rowOf (v : BitVec 32) : Fin 1000000 := ⟨v.toNat % 1000000, Nat.mod_lt _ (by decide)⟩

/-- The result at the ideal instance: the inner product as a finite sum of extended reals. -/
def G (u i : IVec SB 32) (uw iw : FVec Ideal ST .f32) : FVec Ideal SB .f32 :=
  fun k => ∑ f : Fin 64, uw (ValueIdx.ix2 (n0 := 1000000) (n1 := 64) (rowOf (u k)) f) * iw (ValueIdx.ix2 (n0 := 1000000) (n1 := 64) (rowOf (i k)) f)

end Cert.Spec

end
-- ==== Proof.PreFacts.lean ====
/-
  The integer half of the precondition.

  The precondition is a conjunction of four "all entries satisfy …" tests; two of them say that every user
  index and every item index `v` satisfies `0 ≤ v` and `v ≤ 999999` as a signed 32-bit word.  Such a word is
  its own unsigned value, below 1000000.  The statement holds over any float instance: the two float tests are
  not used.
-/
import proofs.«203884_g41704132444582_cont_8to1_b_1290_16_alg».proof.Pre_input_domain
import Idealize.ShloMosaic.Lib.ReduceAll
import Idealize.ShloMosaic.Lib.Affine
import Idealize.ShloMosaic.Lib.ValueIdx

noncomputable section

namespace Cert.Proof.PreFacts

open Idealize.ShloMosaic Cert.Pre_input_domain

/-- The rank-0 shape has one index. -/
instance : Subsingleton S_.Idx := ⟨fun a b => funext fun d => d.elim0⟩

/-- A signed word between 0 and 999999 is its own unsigned value, below 1000000. -/
theorem word_lt (v : BitVec 32)
    (h : IntOp.andi (IntOp.cmpi .sge v 0#32) (IntOp.cmpi .sle v 999999#32) = 1#1) : v.toNat < 1000000 := by
  rw [IntOp.andi_eq_one, IntOp.cmpi_sge, IntOp.cmpi_sle] at h
  have h0 : (0#32 : BitVec 32).toInt = 0 := by decide
  have h1 : (999999#32 : BitVec 32).toInt = 999999 := by decide
  rw [h0, h1, BitVec.toInt_eq_toNat_cond] at h
  have := v.isLt
  omega

theorem idx_ok {F : FTy → Type} [FloatOps F] [Cert.Pre_input_domain.Facts] (u i : IVec S16384 32)
    (uw iw : FVec F S1000000x64 .f32) (h : Cert.Pre_input_domain.fn (F := F) u i uw iw = fun _ => 1#1) :
    ∀ k : S16384.Idx, (u k).toNat < 1000000 ∧ (i k).toNat < 1000000 := by
  have e := congrFun h ValueIdx.ix0
  dsimp only [Cert.Pre_input_domain.fn, Cert.Pre_input_domain.fn_part1] at e
  simp only [andi, IntOp.andi_eq_one] at e
  obtain ⟨⟨_, eu⟩, ei⟩ := e
  intro k
  have hu := Host.reduce_andi_all _ _ _ _ _ eu k
  have hi := Host.reduce_andi_all _ _ _ _ _ ei k
  simp only [andi, cmpi, broadcastInDim, constantI] at hu hi
  exact ⟨word_lt _ hu, word_lt _ hi⟩

end Cert.Proof.PreFacts

end
-- ==== Proof.Bridge.lean ====
/-
  The two forms of the specification agree at the ideal instance.

  A table of shape `[1000000, 64]` re-laid row-major as `[125000, 8, 64]` has, at `(v / 8, v % 8, f)`, the
  entry `(v, f)` of the table: `((v / 8) * 8 + v % 8) * 64 + f = v * 64 + f`.  For a 32-bit word `v` below
  1000000, `v >>> 3` is `v / 8` (below 125000) and `v &&& 7` is `v % 8`.  At the ideal instance addition and
  multiplication are those of the extended reals, a commutative monoid under addition, so the left-to-right
  accumulation from zero is the finite sum.
-/
import proofs.«203884_g41704132444582_cont_8to1_b_1290_16_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.Proof.Bridge

open Idealize.ShloMosaic Cert.Spec

/-- At the ideal instance the accumulated inner product is the starting value plus the finite sum. -/
theorem dotAcc_ideal (z : Ideal .f32) (a b : ℕ → Ideal .f32) (n : ℕ) :
    dotAcc (F := Ideal) z a b n = z + ∑ j ∈ Finset.range n, a j * b j := by
  induction n with
  | zero => simp [dotAcc]
  | succ n ih => rw [dotAcc, ih, Finset.sum_range_succ, Ideal.addf_def, Ideal.mulf_def, add_assoc]

/-- The low three bits and the rest of a 32-bit word. -/
theorem shr3_toNat (v : BitVec 32) : (v >>> 3).toNat = v.toNat / 8 := by
  rw [BitVec.toNat_ushiftRight, Nat.shiftRight_eq_div_pow]

theorem and7_toNat (v : BitVec 32) : (v &&& 7#32).toNat = v.toNat % 8 := by
  rw [BitVec.toNat_and]
  exact Nat.and_two_pow_sub_one_eq_mod v.toNat 3

/-- The blocked table at the blocked address of `(v, f)` is the table at `(v, f)`. -/
theorem blocked_read (w : FVec Ideal ST .f32) (hc : ST.ShapeCasts ST3) (v : BitVec 32) (hv : v.toNat < 1000000)
    (f : Fin 64) :
    shapeCast ST3 w hc (blk3 v f.val) = w (ValueIdx.ix2 (n0 := 1000000) (n1 := 64) (rowOf v) f) := by
  refine shapeCast_apply w hc _ _ ?_
  rw [Shape.rowMajor_val_two, Shape.rowMajor_val_three]
  have hf := f.isLt
  show (v.toNat % 1000000) * 64 + f.val
    = (((v >>> 3).toNat % 125000) * 8 + (v &&& 7#32).toNat % 8) * 64 + f.val % 64
  rw [shr3_toNat, and7_toNat]
  omega

theorem outF_eq_G (u i : IVec SB 32) (uw iw : FVec Ideal ST .f32) (hc : ST.ShapeCasts ST3)
    (hu : ∀ k, (u k).toNat < 1000000) (hi : ∀ k, (i k).toNat < 1000000) :
    outF (F := Ideal) (FloatOps.ofBits .f32 0x00000000#32) u i (shapeCast ST3 uw hc) (shapeCast ST3 iw hc)
      = G u i uw iw := by
  funext k
  unfold outF G
  rw [dotAcc_ideal, Ideal.ofBits_def, Ideal.ofBits_zero_f32, zero_add, ← Fin.sum_univ_eq_sum_range (fun j => shapeCast ST3 uw hc (blk3 (u k) j) * shapeCast ST3 iw hc (blk3 (i k) j)) 64]
  refine Finset.sum_congr rfl fun f _ => ?_
  rw [blocked_read uw hc (u k) (hu k) f, blocked_read iw hc (i k) (hi k) f]

end Cert.Proof.Bridge

end
-- ==== Proof.KI.Setup.lean ====
/-
  The launch-side vocabulary of the tile program KernelIdeal: the configuration the launch theorem is applied at, the ghost
  state (the handshakes' rounds beside the transfers' counters), the arrays as locations of a device, what each tile is
  handed and hands back, and the statement of one tile's task.

  A tile with coordinates `(c, s)` owns the 512 consecutive batch positions starting at `1024 s + 512 c`.  It reads the
  two index arrays and the two blocked tables (held at read shares: every tile reads them) and writes its own 512
  positions of the result, each at the accumulated inner product `Spec.outF` of the rows its indices name.
-/
import proofs.«203884_g41704132444582_cont_8to1_b_1290_16_alg».proof.Defs
import proofs.«203884_g41704132444582_cont_8to1_b_1290_16_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«203884_g41704132444582_cont_8to1_b_1290_16_alg».proof.Proof.Gen.KernelIdeal
import proofs.«203884_g41704132444582_cont_8to1_b_1290_16_alg».proof.Proof.Gen.KernelIdeal.Skeleton

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

abbrev uLoc (d : Dev nD) : Loc nD τ sig := (SparseCore.T d).loc main_arg0
abbrev iLoc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev uwLoc (d : Dev nD) : Loc nD τ sig := (SparseCore.T d).loc main_v0
abbrev iwLoc (d : Dev nD) : Loc nD τ sig := (SparseCore.T d).loc main_v1
abbrev oLoc (d : Dev nD) : Loc nD τ sig := (SparseCore.T d).loc main_v2

abbrev uV : Memref sig .scVector .hbm S16384 .i32 := Memref.whole main_arg0_scv
abbrev iV : Memref sig .scVector .hbm S16384 .i32 := Memref.whole main_arg1_scv
abbrev uwV : Memref sig .scVector .hbm S125000x8x64 .f32 := Memref.whole main_v0_scv
abbrev iwV : Memref sig .scVector .hbm S125000x8x64 .f32 := Memref.whole main_v1_scv
abbrev oV : Memref sig .scVector .hbm S16384 .f32 := Memref.whole main_v2_scv
abbrev sU : Memref sig .scVector .vmem S512 .i32 := Memref.whole cc0_scratch0
abbrev sI : Memref sig .scVector .vmem S512 .i32 := Memref.whole cc0_scratch1
abbrev sUA : Memref sig .scVector .vmem S16x8x64 .f32 := Memref.whole cc0_scratch2
abbrev sIA : Memref sig .scVector .vmem S16x8x64 .f32 := Memref.whole cc0_scratch3
abbrev sUB : Memref sig .scVector .vmem S16x8x64 .f32 := Memref.whole cc0_scratch4
abbrev sIB : Memref sig .scVector .vmem S16x8x64 .f32 := Memref.whole cc0_scratch5
abbrev sO : Memref sig .scVector .vmem S512 .f32 := Memref.whole cc0_scratch6

variable [FloatOps F]

/-- The kernel's starting value of every accumulator: the float zero word. -/
abbrev zeroF : F .f32 := FloatOps.ofBits .f32 0x00000000#32

variable (m : (ℓ : Loc nD τ sig) → Buf (Elt F) ℓ) (ρ : Dev nD → PrngReg)

/-- The blocked tables as @main's two reshapes leave them: the tables' elements in row-major order at `[125000, 8, 64]`. -/
def W0 (d : Dev nD) : Buf (Elt F) (uwLoc d) := shapeCast S125000x8x64 (m (a2Loc d)) shapeCasts_S1000000x64_S125000x8x64
def W1 (d : Dev nD) : Buf (Elt F) (iwLoc d) := shapeCast S125000x8x64 (m (a3Loc d)) shapeCasts_S1000000x64_S125000x8x64

/-- The whole result array the tiles leave, as one function of the launch memory. -/
def Gout (d : Dev nD) : Buf (Elt F) (oLoc d) :=
  Cert.Spec.outF (F := F) zeroF (m (uLoc d)) (m (iLoc d)) (W0 m d) (W1 m d)

/-- What the proof asks of the launch memory: every index names a table row. -/
def PreOK : Prop := ∀ (d : Dev nD) (k : S16384.Idx), (m (uLoc d) k).toNat < 1000000 ∧ (m (iLoc d) k).toNat < 1000000

/-! ## A tile's place and its piece of the result -/

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The tile's 512 positions of the result, as the program slices them for the write-out. -/
abbrev oRect (L : grid0.Coords) : Rect S16384 := Rect.unit (s := S16384) (k0_off104 L) S512.size (k0_off104_inb L)
abbrev oSlice (L : grid0.Coords) : Memref sig .scVector .hbm S512 .f32 := (oV : Memref sig .scVector .hbm S16384 .f32).slice (oRect L) (fun _ => rfl)
abbrev tileSet (L : grid0.Coords) : Finset S16384.Idx := (oSlice L).view.set

/-- What tile `L` is handed: read shares of the two index arrays and of the two blocked tables, and its own positions
    of the result. -/
def goRes (q : PosShare TreeShare) (d : Dev nD) (L : grid0.Coords) : sProp (MT nD τ sig (HIx 1) (Elt F) ℕ UU ℕ) :=
  iprop((uLoc d ↦{q} m (uLoc d)) ∗ (iLoc d ↦{q} m (iLoc d)) ∗ (uwLoc d ↦{q} W0 m d) ∗ (iwLoc d ↦{q} W1 m d)
    ∗ (oLoc d ↦[tileSet L]{fullShare} m (oLoc d)))

/-- What it hands back: its positions of the result at the specified values. -/
def tdRes (d : Dev nD) (L : grid0.Coords) : sProp (MT nD τ sig (HIx 1) (Elt F) ℕ UU ℕ) :=
  iprop(oLoc d ↦[tileSet L]{fullShare} Gout m d)

/-! ## One tile's task, over its own scratch and semaphores held outright -/

abbrev thrV (d : Dev nD) (L : grid0.Coords) : Thread nD τ := V d (cV L) (jV L)

/-- The statement of one tile's task: from what the tile is handed (`goRes`), its seven scratch buffers at any contents,
    its seven DMA semaphores at zero, what it owes the launch (`owes`, with the evidence that it may wait meanwhile),
    the kernel function runs to its end and leaves the tile's positions of the result at their specified values
    (`tdRes`), the scratch at some contents, the semaphores at zero again, and owes what it owed. -/
def TileCore : Prop :=
  ∀ (d : Dev nD) (L : grid0.Coords) (q : PosShare TreeShare) (O : CellTallies nD τ sig (HIx 1)) (W : Waits sig (HIx 1))
    (f0 : Buf (Elt F) ((thrV d L).loc cc0_scratch0)) (f1 : Buf (Elt F) ((thrV d L).loc cc0_scratch1))
    (f2 : Buf (Elt F) ((thrV d L).loc cc0_scratch2)) (f3 : Buf (Elt F) ((thrV d L).loc cc0_scratch3))
    (f4 : Buf (Elt F) ((thrV d L).loc cc0_scratch4)) (f5 : Buf (Elt F) ((thrV d L).loc cc0_scratch5))
    (f6 : Buf (Elt F) ((thrV d L).loc cc0_scratch6)),
    (iprop(Transfers.MayWaits (thrV d L) (none : HIx 1) O
        ∗ goRes m q d L
        ∗ ((thrV d L).loc cc0_scratch0 ↦{fullShare} f0) ∗ ((thrV d L).loc cc0_scratch1 ↦{fullShare} f1)
        ∗ ((thrV d L).loc cc0_scratch2 ↦{fullShare} f2) ∗ ((thrV d L).loc cc0_scratch3 ↦{fullShare} f3)
        ∗ ((thrV d L).loc cc0_scratch4 ↦{fullShare} f4) ∗ ((thrV d L).loc cc0_scratch5 ↦{fullShare} f5)
        ∗ ((thrV d L).loc cc0_scratch6 ↦{fullShare} f6)
        ∗ semVal (thrV d L, SemLoc.dma cc0_scratch7.sem) 0 ∗ semVal (thrV d L, SemLoc.dma cc0_scratch8.sem) 0
        ∗ semVal (thrV d L, SemLoc.dma cc0_scratch9.sem) 0 ∗ semVal (thrV d L, SemLoc.dma cc0_scratch10.sem) 0
        ∗ semVal (thrV d L, SemLoc.dma cc0_scoped0.sem) 0 ∗ semVal (thrV d L, SemLoc.dma cc0_scoped1.sem) 0
        ∗ semVal (thrV d L, SemLoc.dma cc0_scoped2.sem) 0
        ∗ owes (thrV d L) O W) : sProp (MT nD τ sig (HIx 1) (Elt F) ℕ UU ℕ))
      ⊢ wp frame (wpE (defs₀ (F := F)) 𝒱₀ (thrV d L) none) Set.univ
          (cc0__bprmf_sc L uV (Memref.isWhole_whole _) iV (Memref.isWhole_whole _) uwV (Memref.isWhole_whole _) iwV (Memref.isWhole_whole _)
            oV (Memref.isWhole_whole _) sU (Memref.isWhole_whole _) sI (Memref.isWhole_whole _) sUA (Memref.isWhole_whole _)
            sIA (Memref.isWhole_whole _) sUB (Memref.isWhole_whole _) sIB (Memref.isWhole_whole _) sO (Memref.isWhole_whole _)
            cc0_scratch7 cc0_scratch8 cc0_scratch9 cc0_scratch10 cc0_scoped0 cc0_scoped1 cc0_scoped2)
          fun _ => iprop(tdRes m d L
            ∗ (∃ f, (thrV d L).loc cc0_scratch0 ↦{fullShare} f) ∗ (∃ f, (thrV d L).loc cc0_scratch1 ↦{fullShare} f)
            ∗ (∃ f, (thrV d L).loc cc0_scratch2 ↦{fullShare} f) ∗ (∃ f, (thrV d L).loc cc0_scratch3 ↦{fullShare} f)
            ∗ (∃ f, (thrV d L).loc cc0_scratch4 ↦{fullShare} f) ∗ (∃ f, (thrV d L).loc cc0_scratch5 ↦{fullShare} f)
            ∗ (∃ f, (thrV d L).loc cc0_scratch6 ↦{fullShare} f)
            ∗ semVal (thrV d L, SemLoc.dma cc0_scratch7.sem) 0 ∗ semVal (thrV d L, SemLoc.dma cc0_scratch8.sem) 0
            ∗ semVal (thrV d L, SemLoc.dma cc0_scratch9.sem) 0 ∗ semVal (thrV d L, SemLoc.dma cc0_scratch10.sem) 0
            ∗ semVal (thrV d L, SemLoc.dma cc0_scoped0.sem) 0 ∗ semVal (thrV d L, SemLoc.dma cc0_scoped1.sem) 0
            ∗ semVal (thrV d L, SemLoc.dma cc0_scoped2.sem) 0
            ∗ ∃ W', ⌜∀ p ∈ W', p ∈ W ∨ p.2 = none⌝ ∗ owes (thrV d L) O W')

end Cert.Proof.KernelIdeal

end
-- ==== Proof.K.Setup.lean ====
/-
  The launch-side vocabulary of the tile program Kernel: the configuration the launch theorem is applied at, the ghost
  state (the handshakes' rounds beside the transfers' counters), the arrays as locations of a device, what each tile is
  handed and hands back, and the statement of one tile's task.

  A tile with coordinates `(c, s)` owns the 512 consecutive batch positions starting at `1024 s + 512 c`.  It reads the
  two index arrays and the two blocked tables (held at read shares: every tile reads them) and writes its own 512
  positions of the result, each at the accumulated inner product `Spec.outF` of the rows its indices name.
-/
import proofs.«203884_g41704132444582_cont_8to1_b_1290_16_alg».proof.Defs
import proofs.«203884_g41704132444582_cont_8to1_b_1290_16_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«203884_g41704132444582_cont_8to1_b_1290_16_alg».proof.Proof.Gen.Kernel
import proofs.«203884_g41704132444582_cont_8to1_b_1290_16_alg».proof.Proof.Gen.Kernel.Skeleton

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

abbrev uLoc (d : Dev nD) : Loc nD τ sig := (SparseCore.T d).loc main_arg0
abbrev iLoc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev uwLoc (d : Dev nD) : Loc nD τ sig := (SparseCore.T d).loc main_v0
abbrev iwLoc (d : Dev nD) : Loc nD τ sig := (SparseCore.T d).loc main_v1
abbrev oLoc (d : Dev nD) : Loc nD τ sig := (SparseCore.T d).loc main_v2

abbrev uV : Memref sig .scVector .hbm S16384 .i32 := Memref.whole main_arg0_scv
abbrev iV : Memref sig .scVector .hbm S16384 .i32 := Memref.whole main_arg1_scv
abbrev uwV : Memref sig .scVector .hbm S125000x8x64 .f32 := Memref.whole main_v0_scv
abbrev iwV : Memref sig .scVector .hbm S125000x8x64 .f32 := Memref.whole main_v1_scv
abbrev oV : Memref sig .scVector .hbm S16384 .f32 := Memref.whole main_v2_scv
abbrev sU : Memref sig .scVector .vmem S512 .i32 := Memref.whole cc0_scratch0
abbrev sI : Memref sig .scVector .vmem S512 .i32 := Memref.whole cc0_scratch1
abbrev sUA : Memref sig .scVector .vmem S16x8x64 .f32 := Memref.whole cc0_scratch2
abbrev sIA : Memref sig .scVector .vmem S16x8x64 .f32 := Memref.whole cc0_scratch3
abbrev sUB : Memref sig .scVector .vmem S16x8x64 .f32 := Memref.whole cc0_scratch4
abbrev sIB : Memref sig .scVector .vmem S16x8x64 .f32 := Memref.whole cc0_scratch5
abbrev sO : Memref sig .scVector .vmem S512 .f32 := Memref.whole cc0_scratch6

variable [FloatOps F]

/-- The kernel's starting value of every accumulator: the float zero word. -/
abbrev zeroF : F .f32 := FloatOps.ofBits .f32 0x00000000#32

variable (m : (ℓ : Loc nD τ sig) → Buf (Elt F) ℓ) (ρ : Dev nD → PrngReg)

/-- The blocked tables as @main's two reshapes leave them: the tables' elements in row-major order at `[125000, 8, 64]`. -/
def W0 (d : Dev nD) : Buf (Elt F) (uwLoc d) := shapeCast S125000x8x64 (m (a2Loc d)) shapeCasts_S1000000x64_S125000x8x64
def W1 (d : Dev nD) : Buf (Elt F) (iwLoc d) := shapeCast S125000x8x64 (m (a3Loc d)) shapeCasts_S1000000x64_S125000x8x64

/-- The whole result array the tiles leave, as one function of the launch memory. -/
def Gout (d : Dev nD) : Buf (Elt F) (oLoc d) :=
  Cert.Spec.outF (F := F) zeroF (m (uLoc d)) (m (iLoc d)) (W0 m d) (W1 m d)

/-- What the proof asks of the launch memory: every index names a table row. -/
def PreOK : Prop := ∀ (d : Dev nD) (k : S16384.Idx), (m (uLoc d) k).toNat < 1000000 ∧ (m (iLoc d) k).toNat < 1000000

/-! ## A tile's place and its piece of the result -/

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The tile's 512 positions of the result, as the program slices them for the write-out. -/
abbrev oRect (L : grid0.Coords) : Rect S16384 := Rect.unit (s := S16384) (k0_off104 L) S512.size (k0_off104_inb L)
abbrev oSlice (L : grid0.Coords) : Memref sig .scVector .hbm S512 .f32 := (oV : Memref sig .scVector .hbm S16384 .f32).slice (oRect L) (fun _ => rfl)
abbrev tileSet (L : grid0.Coords) : Finset S16384.Idx := (oSlice L).view.set

/-- What tile `L` is handed: read shares of the two index arrays and of the two blocked tables, and its own positions
    of the result. -/
def goRes (q : PosShare TreeShare) (d : Dev nD) (L : grid0.Coords) : sProp (MT nD τ sig (HIx 1) (Elt F) ℕ UU ℕ) :=
  iprop((uLoc d ↦{q} m (uLoc d)) ∗ (iLoc d ↦{q} m (iLoc d)) ∗ (uwLoc d ↦{q} W0 m d) ∗ (iwLoc d ↦{q} W1 m d)
    ∗ (oLoc d ↦[tileSet L]{fullShare} m (oLoc d)))

/-- What it hands back: its positions of the result at the specified values. -/
def tdRes (d : Dev nD) (L : grid0.Coords) : sProp (MT nD τ sig (HIx 1) (Elt F) ℕ UU ℕ) :=
  iprop(oLoc d ↦[tileSet L]{fullShare} Gout m d)

/-! ## One tile's task, over its own scratch and semaphores held outright -/

abbrev thrV (d : Dev nD) (L : grid0.Coords) : Thread nD τ := V d (cV L) (jV L)

/-- The statement of one tile's task: from what the tile is handed (`goRes`), its seven scratch buffers at any contents,
    its seven DMA semaphores at zero, what it owes the launch (`owes`, with the evidence that it may wait meanwhile),
    the kernel function runs to its end and leaves the tile's positions of the result at their specified values
    (`tdRes`), the scratch at some contents, the semaphores at zero again, and owes what it owed. -/
def TileCore : Prop :=
  ∀ (d : Dev nD) (L : grid0.Coords) (q : PosShare TreeShare) (O : CellTallies nD τ sig (HIx 1)) (W : Waits sig (HIx 1))
    (f0 : Buf (Elt F) ((thrV d L).loc cc0_scratch0)) (f1 : Buf (Elt F) ((thrV d L).loc cc0_scratch1))
    (f2 : Buf (Elt F) ((thrV d L).loc cc0_scratch2)) (f3 : Buf (Elt F) ((thrV d L).loc cc0_scratch3))
    (f4 : Buf (Elt F) ((thrV d L).loc cc0_scratch4)) (f5 : Buf (Elt F) ((thrV d L).loc cc0_scratch5))
    (f6 : Buf (Elt F) ((thrV d L).loc cc0_scratch6)),
    (iprop(Transfers.MayWaits (thrV d L) (none : HIx 1) O
        ∗ goRes m q d L
        ∗ ((thrV d L).loc cc0_scratch0 ↦{fullShare} f0) ∗ ((thrV d L).loc cc0_scratch1 ↦{fullShare} f1)
        ∗ ((thrV d L).loc cc0_scratch2 ↦{fullShare} f2) ∗ ((thrV d L).loc cc0_scratch3 ↦{fullShare} f3)
        ∗ ((thrV d L).loc cc0_scratch4 ↦{fullShare} f4) ∗ ((thrV d L).loc cc0_scratch5 ↦{fullShare} f5)
        ∗ ((thrV d L).loc cc0_scratch6 ↦{fullShare} f6)
        ∗ semVal (thrV d L, SemLoc.dma cc0_scratch7.sem) 0 ∗ semVal (thrV d L, SemLoc.dma cc0_scratch8.sem) 0
        ∗ semVal (thrV d L, SemLoc.dma cc0_scratch9.sem) 0 ∗ semVal (thrV d L, SemLoc.dma cc0_scratch10.sem) 0
        ∗ semVal (thrV d L, SemLoc.dma cc0_scoped0.sem) 0 ∗ semVal (thrV d L, SemLoc.dma cc0_scoped1.sem) 0
        ∗ semVal (thrV d L, SemLoc.dma cc0_scoped2.sem) 0
        ∗ owes (thrV d L) O W) : sProp (MT nD τ sig (HIx 1) (Elt F) ℕ UU ℕ))
      ⊢ wp frame (wpE (defs₀ (F := F)) 𝒱₀ (thrV d L) none) Set.univ
          (cc0__bprmf_sc L uV (Memref.isWhole_whole _) iV (Memref.isWhole_whole _) uwV (Memref.isWhole_whole _) iwV (Memref.isWhole_whole _)
            oV (Memref.isWhole_whole _) sU (Memref.isWhole_whole _) sI (Memref.isWhole_whole _) sUA (Memref.isWhole_whole _)
            sIA (Memref.isWhole_whole _) sUB (Memref.isWhole_whole _) sIB (Memref.isWhole_whole _) sO (Memref.isWhole_whole _)
            cc0_scratch7 cc0_scratch8 cc0_scratch9 cc0_scratch10 cc0_scoped0 cc0_scoped1 cc0_scoped2)
          fun _ => iprop(tdRes m d L
            ∗ (∃ f, (thrV d L).loc cc0_scratch0 ↦{fullShare} f) ∗ (∃ f, (thrV d L).loc cc0_scratch1 ↦{fullShare} f)
            ∗ (∃ f, (thrV d L).loc cc0_scratch2 ↦{fullShare} f) ∗ (∃ f, (thrV d L).loc cc0_scratch3 ↦{fullShare} f)
            ∗ (∃ f, (thrV d L).loc cc0_scratch4 ↦{fullShare} f) ∗ (∃ f, (thrV d L).loc cc0_scratch5 ↦{fullShare} f)
            ∗ (∃ f, (thrV d L).loc cc0_scratch6 ↦{fullShare} f)
            ∗ semVal (thrV d L, SemLoc.dma cc0_scratch7.sem) 0 ∗ semVal (thrV d L, SemLoc.dma cc0_scratch8.sem) 0
            ∗ semVal (thrV d L, SemLoc.dma cc0_scratch9.sem) 0 ∗ semVal (thrV d L, SemLoc.dma cc0_scratch10.sem) 0
            ∗ semVal (thrV d L, SemLoc.dma cc0_scoped0.sem) 0 ∗ semVal (thrV d L, SemLoc.dma cc0_scoped1.sem) 0
            ∗ semVal (thrV d L, SemLoc.dma cc0_scoped2.sem) 0
            ∗ ∃ W', ⌜∀ p ∈ W', p ∈ W ∨ p.2 = none⌝ ∗ owes (thrV d L) O W')

end Cert.Proof.Kernel

end
-- ==== Proof.Assemble.lean ====
/-
  The assembly of the claim.

  The three runs — of the tile program at the ideal instance, of the same program at the word instance, and of
  the reference at the ideal instance — are taken here as hypotheses of fixed shapes, and the five conjuncts of
  the claim are concluded from them.  The precondition gives what the runs ask of the launch memory (every index
  names a table row); under it the kernel's result, an accumulated inner product over the blocked tables, is the
  specification's finite sum, which is also what the reference leaves.
-/
import proofs.«203884_g41704132444582_cont_8to1_b_1290_16_alg».proof.Defs
import proofs.«203884_g41704132444582_cont_8to1_b_1290_16_alg».proof.Proof.Spec
import proofs.«203884_g41704132444582_cont_8to1_b_1290_16_alg».proof.Proof.PreFacts
import proofs.«203884_g41704132444582_cont_8to1_b_1290_16_alg».proof.Proof.Bridge
import proofs.«203884_g41704132444582_cont_8to1_b_1290_16_alg».proof.Proof.KI.Setup
import proofs.«203884_g41704132444582_cont_8to1_b_1290_16_alg».proof.Proof.K.Setup
import proofs.«203884_g41704132444582_cont_8to1_b_1290_16_alg».proof.Proof.Gen.Kernel
import proofs.«203884_g41704132444582_cont_8to1_b_1290_16_alg».proof.Proof.Gen.KernelIdeal
import proofs.«203884_g41704132444582_cont_8to1_b_1290_16_alg».proof.Proof.Gen.ReferenceIdeal
import proofs.«203884_g41704132444582_cont_8to1_b_1290_16_alg».proof.Proof.Gen.Pre_input_domain

noncomputable section

namespace Cert.Proof.Assemble

open Idealize.ShloMosaic Idealize.SL.Sem

/-! ## What the precondition gives -/

theorem preOK_KI (m : (ℓ : Loc Cert.KernelIdeal.nD Cert.KernelIdeal.τ Cert.KernelIdeal.sig) → Buf (Elt Ideal) ℓ)
    (h : Cert.Pre_KernelIdeal m) : Cert.Proof.KernelIdeal.PreOK (F := Ideal) m :=
  fun d k => Cert.Proof.PreFacts.idx_ok (F := Ideal) _ _ _ _ (h d) k

theorem preOK_K (m : (ℓ : Loc Cert.Kernel.nD Cert.Kernel.τ Cert.Kernel.sig) → Buf (Elt Bits) ℓ)
    (h : Cert.Pre_Kernel m) : Cert.Proof.Kernel.PreOK (F := Bits) m :=
  fun d k => Cert.Proof.PreFacts.idx_ok (F := Bits) _ _ _ _ (h d) k

/-- Under the precondition's integer half the kernel's result is the specification's finite sum. -/
theorem gout_eq_of_ok (m : (ℓ : Loc Cert.KernelIdeal.nD Cert.KernelIdeal.τ Cert.KernelIdeal.sig) → Buf (Elt Ideal) ℓ)
    (hok : Cert.Proof.KernelIdeal.PreOK (F := Ideal) m) (c : Dev Cert.KernelIdeal.nD) :
    Cert.Proof.KernelIdeal.Gout (F := Ideal) m c
      = Cert.Spec.G (m (Cert.Proof.KernelIdeal.uLoc c)) (m (Cert.Proof.KernelIdeal.iLoc c))
          (m (Cert.Proof.KernelIdeal.a2Loc c)) (m (Cert.Proof.KernelIdeal.a3Loc c)) := by
  unfold Cert.Proof.KernelIdeal.Gout Cert.Proof.KernelIdeal.W0 Cert.Proof.KernelIdeal.W1
  exact Cert.Proof.Bridge.outF_eq_G _ _ _ _ _ (fun k => (hok c k).1) (fun k => (hok c k).2)

theorem gout_eq (m : (ℓ : Loc Cert.KernelIdeal.nD Cert.KernelIdeal.τ Cert.KernelIdeal.sig) → Buf (Elt Ideal) ℓ)
    (h : Cert.Pre_KernelIdeal m) (c : Dev Cert.KernelIdeal.nD) :
    Cert.Proof.KernelIdeal.Gout (F := Ideal) m c
      = Cert.Spec.G (m (Cert.Proof.KernelIdeal.uLoc c)) (m (Cert.Proof.KernelIdeal.iLoc c))
          (m (Cert.Proof.KernelIdeal.a2Loc c)) (m (Cert.Proof.KernelIdeal.a3Loc c)) :=
  gout_eq_of_ok m (preOK_KI m h) c

/-! ## The three runs, as hypotheses -/

/-- The tile program's run at the ideal instance: from a launch memory whose indices name table rows, it ends
    with the result array at `Gout` and the four arguments unchanged. -/
abbrev HRunKI : Prop :=
  ∀ (m : (ℓ : Loc Cert.KernelIdeal.nD Cert.KernelIdeal.τ Cert.KernelIdeal.sig) → Buf (Elt Ideal) ℓ)
    (ρ : Dev Cert.KernelIdeal.nD → PrngReg), Cert.Proof.KernelIdeal.PreOK (F := Ideal) m →
    θ_run (Cert.KernelIdeal.defs (F := Ideal)) (Cert.KernelIdeal.threads (F := Ideal)) ⟨m, fun _ => 0, ρ⟩
      (fun r => ∀ c : Dev Cert.KernelIdeal.nD,
        r.2.mem (Cert.Proof.KernelIdeal.oLoc c) = Cert.Proof.KernelIdeal.Gout m c
        ∧ r.2.mem (Cert.Proof.KernelIdeal.uLoc c) = m (Cert.Proof.KernelIdeal.uLoc c)
        ∧ r.2.mem (Cert.Proof.KernelIdeal.iLoc c) = m (Cert.Proof.KernelIdeal.iLoc c)
        ∧ r.2.mem (Cert.Proof.KernelIdeal.a2Loc c) = m (Cert.Proof.KernelIdeal.a2Loc c)
        ∧ r.2.mem (Cert.Proof.KernelIdeal.a3Loc c) = m (Cert.Proof.KernelIdeal.a3Loc c))

/-- The same run at the word instance. -/
abbrev HRunK : Prop :=
  ∀ (m : (ℓ : Loc Cert.Kernel.nD Cert.Kernel.τ Cert.Kernel.sig) → Buf (Elt Bits) ℓ)
    (ρ : Dev Cert.Kernel.nD → PrngReg), Cert.Proof.Kernel.PreOK (F := Bits) m →
    θ_run (Cert.Kernel.defs (F := Bits)) (Cert.Kernel.threads (F := Bits)) ⟨m, fun _ => 0, ρ⟩
      (fun r => ∀ c : Dev Cert.Kernel.nD,
        r.2.mem (Cert.Proof.Kernel.oLoc c) = Cert.Proof.Kernel.Gout m c
        ∧ r.2.mem (Cert.Proof.Kernel.uLoc c) = m (Cert.Proof.Kernel.uLoc c)
        ∧ r.2.mem (Cert.Proof.Kernel.iLoc c) = m (Cert.Proof.Kernel.iLoc c)
        ∧ r.2.mem (Cert.Proof.Kernel.a2Loc c) = m (Cert.Proof.Kernel.a2Loc c)
        ∧ r.2.mem (Cert.Proof.Kernel.a3Loc c) = m (Cert.Proof.Kernel.a3Loc c))

/-- The reference's run at the ideal instance: from a memory whose indices name table rows, it ends with its result
    array at the specification's finite sum and the four arguments unchanged. -/
abbrev HRunR : Prop :=
  ∀ (m : (ℓ : Loc Cert.ReferenceIdeal.nD Cert.ReferenceIdeal.τ Cert.ReferenceIdeal.sig) → Buf (Elt Ideal) ℓ)
    (g : Dev Cert.ReferenceIdeal.nD → PrngReg),
    (∀ (c : Dev Cert.ReferenceIdeal.nD) (k : Cert.ReferenceIdeal.S16384.Idx),
      (m ((c.tc : Thread Cert.ReferenceIdeal.nD Cert.ReferenceIdeal.τ).loc Cert.ReferenceIdeal.main_arg0) k).toNat < 1000000 ∧ (m ((c.tc : Thread Cert.ReferenceIdeal.nD Cert.ReferenceIdeal.τ).loc Cert.ReferenceIdeal.main_arg1) k).toNat < 1000000) →
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v3) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

/-! ## The five conjuncts -/

theorem frame_K (hK : HRunK) : Cert.frame_Kernel := fun m g hpre =>
  (θ_run Cert.Kernel.defs _ _).mono (fun _ h c => (h c).2) (hK m g (preOK_K m hpre))

theorem frame_KI (hKI : HRunKI) : Cert.frame_KernelIdeal := fun m g hpre =>
  (θ_run Cert.KernelIdeal.defs _ _).mono (fun _ h c => (h c).2) (hKI m g (preOK_KI m hpre))

/-- The reference's precondition is the same function of its own arguments. -/
theorem preOK_R (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) (k : Cert.ReferenceIdeal.S16384.Idx) :
    (m ((c.tc : Thread Cert.ReferenceIdeal.nD Cert.ReferenceIdeal.τ).loc Cert.ReferenceIdeal.main_arg0) k).toNat < 1000000 ∧ (m ((c.tc : Thread Cert.ReferenceIdeal.nD Cert.ReferenceIdeal.τ).loc Cert.ReferenceIdeal.main_arg1) k).toNat < 1000000 :=
  Cert.Proof.PreFacts.idx_ok (F := Ideal) _ _ _ _ (h c) k

theorem frame_R (hR : HRunR) : Cert.frame_ReferenceIdeal := fun m g hpre =>
  (θ_run Cert.ReferenceIdeal.defs _ _).mono (fun _ h c => (h c).2) (hR m g (preOK_R m hpre))

theorem preserves : Cert.preserves_Kernel_KernelIdeal := trivial

theorem algebraic (hKI : HRunKI) (hR : HRunR) : Cert.algebraic_KernelIdeal_ReferenceIdeal := by
  intro m g m' g' hpre hagree
  have hok := preOK_KI m hpre
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    (θ_run Cert.KernelIdeal.defs _ _).mono (fun _ h c => ⟨(h c).1.trans (gout_eq_of_ok m hok c), (h c).2⟩) (hKI m g hok), ?_⟩
  have hin : ∀ (c : Dev Cert.ReferenceIdeal.nD) (k : Cert.ReferenceIdeal.S16384.Idx),
      (m' ((c.tc : Thread Cert.ReferenceIdeal.nD Cert.ReferenceIdeal.τ).loc Cert.ReferenceIdeal.main_arg0) k).toNat < 1000000 ∧ (m' ((c.tc : Thread Cert.ReferenceIdeal.nD Cert.ReferenceIdeal.τ).loc Cert.ReferenceIdeal.main_arg1) k).toNat < 1000000 := by
    intro c k
    rw [(hagree c).1, (hagree c).2.1]
    exact hok c k
  refine (θ_run Cert.ReferenceIdeal.defs _ _).mono (fun _ h c => ⟨(h c).1.trans ?_, (h c).2⟩) (hR m' g' hin)
  rw [(hagree c).1, (hagree c).2.1, (hagree c).2.2.1, (hagree c).2.2.2]

theorem claim_of (hK : HRunK) (hKI : HRunKI) (hR : HRunR) : Cert.Claim :=
  ⟨Cert.Kernel.Gen.facts, Cert.KernelIdeal.Gen.facts, Cert.ReferenceIdeal.Gen.facts, Cert.Pre_input_domain.Gen.facts,
    frame_K hK, frame_KI hKI, frame_R hR, preserves, algebraic hKI hR⟩

end Cert.Proof.Assemble

end
-- ==== Proof.RefOps.lean ====
/-
  The reference program's @main as one straight line of host operations, and its run.

  @main calls the outlined row-lookup function twice (once per table), multiplies the two looked-up arrays
  elementwise, and sums the product over the feature axis from a zero constant. A call executes the callee's body on
  the operands, so @main is the callee's twenty-three operations over the first call's buffers, the same
  twenty-three over the second call's, and then its own three. `ops` lists them; `main_eq` unfolds the calls;
  `run_ops` is the run: every buffer ends at the fold of the operations over the launch contents.
-/
import proofs.«203884_g41704132444582_cont_8to1_b_1290_16_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- @main's forty-nine operations in order, the two calls unfolded. One row lookup `take(table, idx)` is twenty-three:
    the index wrapped when negative (`idx < 0 ? idx + 1000000 : idx`: the zero, its broadcast, the comparison, the row
    count, its broadcast, the sum, the select), the wrapped index as a column `[16384, 1]`, the in-range test
    (`0 ≤ · ≤ 999999`, and-reduced over the column's one entry), the gather of the rows at the column, and the select
    between the gathered row and the fill value where the test fails. -/
abbrev ops : List (HloOp τ sig (Elt F)) :=
  [
    TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S1000000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select,
    binary main_v0 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)) ]

-- forty-nine binds re-associated: the rewrite under the chain recurses once per statement
set_option maxRecDepth 2048 in
/-- @main is that straight line: the functions' definitions unfolded at their calls and the records at their fields,
    both sides are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub ..⟩

/-- At the compiled mesh, for any float values, from any memory with zero counters: every weakly fair execution of
    @main terminates, and every final state has each buffer at the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefDefs.lean ====
/-
  What the reference program computes, as one pure term of its four arguments.

  `wrapIdx`, `colIdx`, `inRangeCol`, `inRange` and `takeF` are the row lookup's stages composed (the index wrapped when
  negative, laid out as a column, tested against the table's rows, and the gathered rows with the fill value where the
  test fails); `refOut` is @main's: the two lookups multiplied elementwise and summed over the features from zero.
-/
import proofs.«203884_g41704132444582_cont_8to1_b_1290_16_alg».proof.Proof.Gen.ReferenceIdeal

noncomputable section

namespace Cert.Proof.Ref

open Cert.ReferenceIdeal Cert.ReferenceIdeal.Gen Idealize.ShloMosaic

variable {F : FTy → Type} [FloatOps F]

/-- The index with a negative value wrapped once: `idx < 0 ? idx + 1000000 : idx`. -/
def wrapIdx (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The wrapped index as a column `[16384, 1]`: the start indices of the gather. -/
def colIdx (idx : IVec S16384 32) : IVec S16384x1 32 :=
  broadcastInDim S16384x1 ![0] bcast_S16384_S16384x1_0 (wrapIdx idx)

/-- The column's entries tested `0 ≤ · ≤ 999999`, one bit per entry. -/
def inRangeCol (idx : IVec S16384 32) : IVec S16384x1 1 :=
  andi (cmpi .sge (colIdx idx) (broadcastInDim S16384x1 ![] bcast_S_S16384x1 (constantI S_ 32 0#32)))
    (cmpi .sle (colIdx idx)
      (broadcastInDim S16384x1 ![0, 1] bcast_S1x1_S16384x1_0_1 (broadcastInDim S1x1 ![1] bcast_S1_S1x1_1 (constantI S1 32 999999#32))))

/-- The test and-reduced over the column's one entry: one bit per batch position. -/
def inRange (idx : IVec S16384 32) : IVec S16384 1 :=
  Host.reduce IntOp.andi (inRangeCol idx) (constantI S_ 1 1#1) reducesTo_S16384x1_S16384_d1 h_S_

/-- One row lookup: the table's rows gathered at the column, the fill value where the index is out of range. -/
def takeF (x : FVec F S1000000x64 .f32) (idx : IVec S16384 32) : FVec F S16384x64 .f32 :=
  select (broadcastInDim S16384x64 ![0] bcast_S16384_S16384x64_0 (inRange idx))
    (Host.gather gather_S1000000x64_S16384x1_S16384x64_1_0_n_n_0_1_164 x (colIdx idx))
    (broadcastInDim S16384x64 ![] bcast_S_S16384x64 (constant S_ .f32 0x7FC00000#32))

/-- @main's result: the two lookups multiplied elementwise, summed over the feature axis from zero. -/
def refOut (u i : IVec S16384 32) (uw iw : FVec F S1000000x64 .f32) : FVec F S16384 .f32 :=
  Host.reduceAdd (mulf (takeF uw u) (takeF iw i)) (constant S_ .f32 0x00000000#32) reducesTo_S16384x64_S16384_d1 h_S_

end Cert.Proof.Ref

end
-- ==== Proof.RefTerm.lean ====
/-
  The reference's run with its result as one pure term of the arguments: `out_eq` reads the operations' fold at the
  result buffer as the composed term `refOut`, the `argK_eq` that no operation writes an argument, and `run_term` is the
  run stated with them.
-/
import proofs.«203884_g41704132444582_cont_8to1_b_1290_16_alg».proof.Proof.RefOps
import proofs.«203884_g41704132444582_cont_8to1_b_1290_16_alg».proof.Proof.RefDefs

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather Host.reduceAdd in
set_option maxRecDepth 8192 in
set_option maxHeartbeats 2000000 in
/-- The fold at the result buffer is `refOut` by computation: the fold unrolled, each operation's result rewritten at its own buffer to its function's
    value and at any other buffer to what was there, and the typed references' casts the identity at these literal
    references. The reductions and the gather are kept folded meanwhile: the equation never looks inside them. -/
theorem out_eq (V : Valuation τ sig (Elt F)) :
    after ops V (main_v3 : DevRef τ sig)
      = refOut (V (main_arg0 : DevRef τ sig)) (V (main_arg1 : DevRef τ sig)) (V (main_arg2 : DevRef τ sig))
          (V (main_arg3 : DevRef τ sig)) := by
  after_results_simp <;> rfl

set_option maxRecDepth 8192 in
set_option maxHeartbeats 2000000 in
theorem arg0_eq (V : Valuation τ sig (Elt F)) :
    after ops V (main_arg0 : DevRef τ sig) = V (main_arg0 : DevRef τ sig) := by
  after_results_simp <;> rfl

set_option maxRecDepth 8192 in
set_option maxHeartbeats 2000000 in
theorem arg1_eq (V : Valuation τ sig (Elt F)) :
    after ops V (main_arg1 : DevRef τ sig) = V (main_arg1 : DevRef τ sig) := by
  after_results_simp <;> rfl

set_option maxRecDepth 8192 in
set_option maxHeartbeats 2000000 in
theorem arg2_eq (V : Valuation τ sig (Elt F)) :
    after ops V (main_arg2 : DevRef τ sig) = V (main_arg2 : DevRef τ sig) := by
  after_results_simp <;> rfl

set_option maxRecDepth 8192 in
set_option maxHeartbeats 2000000 in
theorem arg3_eq (V : Valuation τ sig (Elt F)) :
    after ops V (main_arg3 : DevRef τ sig) = V (main_arg3 : DevRef τ sig) := by
  after_results_simp <;> rfl

/-- The run with the result as the composed term: every weakly fair execution of @main terminates with the result
    buffer at `refOut` of the arguments' launch contents and the four arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v3).trans (out_eq _), (h c main_arg0).trans (arg0_eq _),
      (h c main_arg1).trans (arg1_eq _), (h c main_arg2).trans (arg2_eq _), (h c main_arg3).trans (arg3_eq _)⟩)
    (run_ops m ρ)

end Cert.Proof.Ref

end
-- ==== Proof.RefRead.lean ====
/-
  The reference's composed term read at an index, under the precondition that every index is a row number.

  With `(idx k).toNat < 1000000` for every batch position `k`: the wrap leaves the index alone (it is not negative as a
  signed word), the range test holds at every entry of the column, so its and-reduction is the bit `1` everywhere and the
  select keeps the gathered row; the gather's clamp into `[0, 999999]` is the identity, so element `(k, f)` of a lookup
  is feature `f` of table row `idx k`. The sum over the feature axis from the zero word is then the finite sum of the
  products: the specification's `G`.
-/
import proofs.«203884_g41704132444582_cont_8to1_b_1290_16_alg».proof.Proof.Spec
import proofs.«203884_g41704132444582_cont_8to1_b_1290_16_alg».proof.Proof.RefDefs
import Idealize.ShloMosaic.Lib.ValueIdx
import Idealize.ShloMosaic.PureOps.Ideal.Laws

noncomputable section

open scoped BigOperators

namespace Cert.Proof.Ref

open Cert.ReferenceIdeal Cert.ReferenceIdeal.Gen Idealize.ShloMosaic Idealize.ShloMosaic.ValueIdx

/-! ## Words: a row number as a signed 32-bit word -/

/-- A word below 1000000 is its own value read signed. -/
theorem toInt_of_lt {x : BitVec 32} (h : x.toNat < 1000000) : x.toInt = (x.toNat : Int) :=
  BitVec.toInt_eq_toNat_of_lt (by omega)

/-- It is not negative … -/
theorem slt_zero_of_lt {x : BitVec 32} (h : x.toNat < 1000000) : IntOp.cmpi .slt x 0#32 = 0#1 := by
  have hx := toInt_of_lt h
  have : x.slt 0#32 = false := by
    rw [BitVec.slt, hx, BitVec.toInt_zero]; exact decide_eq_false (by omega)
  simp only [IntOp.cmpi, this]; rfl

/-- … it is at least zero … -/
theorem sge_zero_of_lt {x : BitVec 32} (h : x.toNat < 1000000) : IntOp.cmpi .sge x 0#32 = 1#1 := by
  have hx := toInt_of_lt h
  have : (0#32 : BitVec 32).sle x = true := by
    rw [BitVec.sle, hx, BitVec.toInt_zero]; exact decide_eq_true (by omega)
  simp only [IntOp.cmpi, this]; rfl

/-- … and at most the last row. -/
theorem sle_last_of_lt {x : BitVec 32} (h : x.toNat < 1000000) : IntOp.cmpi .sle x 999999#32 = 1#1 := by
  have hx := toInt_of_lt h
  have h9 : (999999#32 : BitVec 32).toInt = 999999 := by decide
  have : x.sle 999999#32 = true := by
    rw [BitVec.sle, hx, h9]; exact decide_eq_true (by omega)
  simp only [IntOp.cmpi, this]; rfl

/-- An and-fold of bits that are all `1`, from `1`, is `1`. -/
theorem foldl_andi_one {ι : Type} (g : ι → BitVec 1) (h : ∀ n, g n = 1#1) (l : List ι) :
    l.foldl (fun r n => IntOp.andi r (g n)) 1#1 = 1#1 := by
  induction l with
  | nil => rfl
  | cons a l ih =>
    rw [List.foldl_cons, h a, show IntOp.andi 1#1 1#1 = 1#1 from by decide]
    exact ih

/-! ## The lookup's stages at an index -/

/-- The wrap leaves a row number alone. -/
theorem wrapIdx_apply (idx : IVec S16384 32) (k : S16384.Idx) (h : (idx k).toNat < 1000000) : wrapIdx idx k = idx k := by
  show Scalar.select (IntOp.cmpi .slt (idx k) 0#32) _ (idx k) = idx k
  rw [slt_zero_of_lt h, select_zero]

/-- Entry `(r, 0)` of the index column is the wrapped index at `r`. -/
theorem colIdx_apply (idx : IVec S16384 32) (j : S16384x1.Idx) : colIdx idx j = wrapIdx idx (ix1 (n := 16384) (j 0)) := by
  unfold colIdx broadcastInDim
  congr 1
  funext a
  match a with
  | ⟨0, _⟩ => rfl

/-- … so, the indices being row numbers, the index itself. -/
theorem colIdx_apply_of_lt (idx : IVec S16384 32) (h : ∀ k, (idx k).toNat < 1000000) (j : S16384x1.Idx) :
    colIdx idx j = idx (ix1 (n := 16384) (j 0)) := by
  rw [colIdx_apply, wrapIdx_apply _ _ (h _)]

/-- The range test holds at every entry of the column. -/
theorem inRangeCol_apply (idx : IVec S16384 32) (h : ∀ k, (idx k).toNat < 1000000) (j : S16384x1.Idx) :
    inRangeCol idx j = 1#1 := by
  show IntOp.andi (IntOp.cmpi .sge (colIdx idx j) 0#32) (IntOp.cmpi .sle (colIdx idx j) 999999#32) = 1#1
  rw [colIdx_apply_of_lt idx h, sge_zero_of_lt (h _), sle_last_of_lt (h _)]
  decide

/-- Its and-reduction over the column's one entry is the bit `1` at every batch position. -/
theorem inRange_apply (idx : IVec S16384 32) (h : ∀ k, (idx k).toNat < 1000000) (k : S16384.Idx) : inRange idx k = 1#1 := by
  unfold inRange Host.reduce
  exact foldl_andi_one _ (fun n => inRangeCol_apply idx h _) _

/-- THE GATHER OF ROWS READ AT `(r, f)`: the table at the row the column names at `(r, 0)`, read signed and clamped into
    `[0, 999999]`, and at feature `f`. -/
theorem gather_rows_apply {α : Type} {w : Nat} (x : S1000000x64.Idx → α) (idx : IVec S16384x1 w) (j : S16384x64.Idx) :
    Host.gather gather_S1000000x64_S16384x1_S16384x64_1_0_n_n_0_1_164 x idx j
      = x (ix2 (n0 := 1000000) (n1 := 64)
          ⟨min (idx (ix2 (n0 := 16384) (n1 := 1) (j 0) 0)).toInt.toNat 999999, by omega⟩ (j 1)) := by
  unfold Host.gather
  congr 1
  funext a
  refine Fin.ext ?_
  have ha : a = (0 : Fin 2) ∨ a = (1 : Fin 2) := by
    match a with
    | ⟨0, _⟩ => exact Or.inl rfl
    | ⟨1, _⟩ => exact Or.inr rfl
  rcases ha with rfl | rfl
  · show gather_S1000000x64_S16384x1_S16384x64_1_0_n_n_0_1_164.start j idx (0 : Fin 2) + gather_S1000000x64_S16384x1_S16384x64_1_0_n_n_0_1_164.batchCoord j (0 : Fin 2) + gather_S1000000x64_S16384x1_S16384x64_1_0_n_n_0_1_164.offCoord j (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x64_S16384x1_S16384x64_1_0_n_n_0_1_164.startIndexMap from List.mem_singleton.mpr rfl)]
    have hsi : gather_S1000000x64_S16384x1_S16384x64_1_0_n_n_0_1_164.siIdx j
        ⟨List.idxOf (0 : Fin 2) gather_S1000000x64_S16384x1_S16384x64_1_0_n_n_0_1_164.startIndexMap,
          List.idxOf_lt_length_iff.2 (List.mem_singleton.mpr rfl)⟩ = ix2 (n0 := 16384) (n1 := 1) (j 0) 0 := by
      funext b; refine Fin.ext ?_
      match b with
      | ⟨0, _⟩ => rfl
      | ⟨1, _⟩ => rfl
    rw [hsi]
    rfl
  · show gather_S1000000x64_S16384x1_S16384x64_1_0_n_n_0_1_164.start j idx (1 : Fin 2) + gather_S1000000x64_S16384x1_S16384x64_1_0_n_n_0_1_164.batchCoord j (1 : Fin 2) + gather_S1000000x64_S16384x1_S16384x64_1_0_n_n_0_1_164.offCoord j (1 : Fin 2) = _
    rw [GatherDims.batchCoord_eq_zero _ _ _ List.not_mem_nil]
    unfold GatherDims.start
    rw [dif_neg (show (1 : Fin 2) ∉ gather_S1000000x64_S16384x1_S16384x64_1_0_n_n_0_1_164.startIndexMap from by decide)]
    unfold GatherDims.offCoord
    rw [dif_pos (show (1 : Fin 2) ∈ gather_S1000000x64_S16384x1_S16384x64_1_0_n_n_0_1_164.sKept from by decide)]
    simp only [Nat.zero_add, Nat.add_zero]
    rfl

/-- ONE LOOKUP AT `(k, f)`: feature `f` of table row `idx k`. -/
theorem takeF_apply {F : FTy → Type} [FloatOps F] (x : FVec F S1000000x64 .f32) (idx : IVec S16384 32)
    (h : ∀ k, (idx k).toNat < 1000000) (k : S16384.Idx) (f : Fin 64) :
    takeF x idx (ix2 (n0 := 16384) (n1 := 64) (k 0) f)
      = x (ix2 (n0 := 1000000) (n1 := 64) (Cert.Spec.rowOf (idx k)) f) := by
  unfold takeF
  rw [select_apply]
  rw [show broadcastInDim S16384x64 ![0] bcast_S16384_S16384x64_0 (inRange idx) (ix2 (n0 := 16384) (n1 := 64) (k 0) f) = 1#1
    from inRange_apply idx h _, select_one, gather_rows_apply]
  congr 1
  have hk : idx (ix1 (n := 16384) (k 0)) = idx k := congrArg idx (eq_ix1 k).symm
  have hlt := h k
  have hc : colIdx idx (ix2 (n0 := 16384) (n1 := 1) (k 0) 0) = idx k := by
    rw [colIdx_apply_of_lt idx h]; exact hk
  funext a
  match a with
  | ⟨0, _⟩ =>
    refine Fin.ext ?_
    show min (colIdx idx (ix2 (n0 := 16384) (n1 := 1) (k 0) 0)).toInt.toNat 999999 = (idx k).toNat % 1000000
    rw [hc, toInt_of_lt hlt, Int.toNat_natCast, Nat.mod_eq_of_lt hlt]
    omega
  | ⟨1, _⟩ => rfl

/-! ## The whole term -/

/-- The reference's result is the specification's `G`: at every batch position the finite sum, over the 64 features, of the
    products of the two rows the indices name. -/
theorem refOut_eq_G (u i : IVec S16384 32) (uw iw : FVec Ideal S1000000x64 .f32)
    (hu : ∀ k, (u k).toNat < 1000000) (hi : ∀ k, (i k).toNat < 1000000) :
    refOut u i uw iw = Cert.Spec.G u i uw iw := by
  funext k
  have hR : S16384x64.Reduces [1] S16384 := by decide
  unfold refOut Host.reduceAdd
  rw [Ideal.hostReduceAdd_def, Ideal.hostReduceAdd_single reducesTo_S16384x64_S16384_d1 hR]
  show Ideal.ofBits .f32 0x00000000#32 + _ = _
  rw [Ideal.ofBits_zero_f32, zero_add]
  unfold Cert.Spec.G
  show ∑ f : Fin 64, _ = ∑ f : Fin 64, _
  refine Finset.sum_congr rfl fun f _ => ?_
  have hl : hR.lift k f = ix2 (n0 := 16384) (n1 := 64) (k 0) f := by
    funext a
    match a with
    | ⟨0, _⟩ => exact Fin.ext rfl
    | ⟨1, _⟩ => exact Fin.ext rfl
  rw [hl, mulf_apply, takeF_apply uw u hu k f, takeF_apply iw i hi k f]

end Cert.Proof.Ref

end
-- ==== Proof.RefRun.lean ====
/-
  The reference program's run, against the specification: from any memory with zero counters in which every index is a
  row number, every weakly fair execution of the reference's @main terminates with the result buffer at the
  specification's `G` of the four arguments' launch contents, and the four arguments unchanged.

  `run_term` is the run with the result as the operations' composed term; `refOut_eq_G` reads that term, index by index,
  as `G` under the bound on the indices.
-/
import proofs.«203884_g41704132444582_cont_8to1_b_1290_16_alg».proof.Defs
import proofs.«203884_g41704132444582_cont_8to1_b_1290_16_alg».proof.Proof.Spec
import proofs.«203884_g41704132444582_cont_8to1_b_1290_16_alg».proof.Proof.Gen.ReferenceIdeal
import proofs.«203884_g41704132444582_cont_8to1_b_1290_16_alg».proof.Proof.RefTerm
import proofs.«203884_g41704132444582_cont_8to1_b_1290_16_alg».proof.Proof.RefRead

noncomputable section

namespace Cert.Proof.Ref

open Idealize.ShloMosaic Idealize.SL.Sem

theorem run (m : (ℓ : Loc Cert.ReferenceIdeal.nD Cert.ReferenceIdeal.τ Cert.ReferenceIdeal.sig) → Buf (Elt Ideal) ℓ) (g : Dev Cert.ReferenceIdeal.nD → PrngReg)
    (hin : ∀ (c : Dev Cert.ReferenceIdeal.nD) (k : Cert.ReferenceIdeal.S16384.Idx),
        (m ((c.tc : Thread Cert.ReferenceIdeal.nD Cert.ReferenceIdeal.τ).loc Cert.ReferenceIdeal.main_arg0) k).toNat < 1000000
        ∧ (m ((c.tc : Thread Cert.ReferenceIdeal.nD Cert.ReferenceIdeal.τ).loc Cert.ReferenceIdeal.main_arg1) k).toNat < 1000000) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread Cert.ReferenceIdeal.nD Cert.ReferenceIdeal.τ).loc Cert.ReferenceIdeal.main_v3)
            = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run _ _ _).mono (fun _ h c => by
      obtain ⟨h0, h1, h2, h3, h4⟩ := h c
      refine ⟨?_, h1, h2, h3, h4⟩
      rw [h0]
      exact refOut_eq_G _ _ _ _ (fun k => (hin c k).1) (fun k => (hin c k).2))
    (run_term m g)

end Cert.Proof.Ref

end
-- ==== Proof.KI.Launch.lean ====
/-
  The launch of the tile program.  What the handshakes carry between @main, the two SparseCores and the sixteen tiles of
  each: read shares of the four arrays every tile reads, and each tile's own 512 positions of the result.  The 32 tile
  pieces are the consecutive blocks of 512 positions starting at `1024 s + 512 c`: pairwise disjoint, and together all of
  the 16384 positions.  From the statement of one tile's task follow the launch theorem's obligations, @main's run on the
  TensorCore (its two reshapes, then the call), and the program's run with the result named as a function of the arguments.
-/
import proofs.«203884_g41704132444582_cont_8to1_b_1290_16_alg».proof.Proof.KI.Setup

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks_split)
open Idealize.ShloMosaic.StableHlo (held held_split held_sdiff_result wp_hlo_within)
open Idealize.ShloMosaic.Tactic

variable {F : FTy → Type}

local notation "𝕄" => MT nD τ sig (HIx 1) (Elt F) ℕ UU ℕ

/-! ## The tiles' pieces of the result: disjoint, and all of it -/

theorem bound_zero : grid0.bound 0 = 2 := rfl
theorem bound_one : grid0.bound 1 = 16 := rfl

/-- Tile `i` of SparseCore `c`, as grid coordinates. -/
abbrev tileOf (c : Fin 2) (i : Fin 16) : grid0.Coords := coordsV (Fin.cast bound_zero.symm c) (Fin.cast bound_one.symm i)

theorem tileSet_eq (L : grid0.Coords) : tileSet L = (oRect L).set := by
  show ((View.whole (main_v2_scv : Ref sig .scVector)).slice (oRect L)).set = _
  exact View.set_slice_whole _ _

/-- A position is tile `L`'s when it lies in the 512 from `1024 (L 1) + 512 (L 0)`. -/
theorem mem_tileSet (L : grid0.Coords) (k : S16384.Idx) :
    k ∈ tileSet L ↔ 1024 * (L 1).val + 512 * (L 0).val ≤ (k 0).val ∧ (k 0).val < 1024 * (L 1).val + 512 * (L 0).val + 512 := by
  rw [tileSet_eq, Rect.mem_set_unit, k0_off104_eq]
  exact Fin.forall_fin_one

theorem tiles_disjoint {c c' : Fin 2} {i i' : Fin 16} (h : c ≠ c' ∨ i ≠ i') :
    Disjoint (tileSet (tileOf c i)) (tileSet (tileOf c' i')) := by
  rw [Finset.disjoint_left]; intro k h1 h2
  rw [mem_tileSet] at h1 h2
  have e0 : (tileOf c i 0).val = c.val := rfl
  have e1 : (tileOf c i 1).val = i.val := rfl
  have e0' : (tileOf c' i' 0).val = c'.val := rfl
  have e1' : (tileOf c' i' 1).val = i'.val := rfl
  rw [e0, e1] at h1; rw [e0', e1'] at h2
  have hc := c.isLt; have hc' := c'.isLt
  have hne : c.val ≠ c'.val ∨ i.val ≠ i'.val := h.imp (fun h e => h (Fin.ext e)) (fun h e => h (Fin.ext e))
  omega

theorem tiles_cover (k : S16384.Idx) : ∃ c : Fin 2, ∃ i : Fin 16, k ∈ tileSet (tileOf c i) := by
  have hk : (k 0).val < 16384 := (k 0).isLt
  refine ⟨⟨((k 0).val % 1024) / 512, by omega⟩, ⟨(k 0).val / 1024, by omega⟩, ?_⟩
  rw [mem_tileSet]
  show 1024 * ((k 0).val / 1024) + 512 * (((k 0).val % 1024) / 512) ≤ (k 0).val
    ∧ (k 0).val < 1024 * ((k 0).val / 1024) + 512 * (((k 0).val % 1024) / 512) + 512
  omega

/-- The positions of SparseCore `c`'s sixteen tiles. -/
def coreSet (c : Fin 2) : Finset S16384.Idx := (Finset.univ : Finset (Fin 16)).biUnion fun i => tileSet (tileOf c i)

theorem coreTiles_disjoint (c : Fin 2) : ∀ i ∈ (Finset.univ : Finset (Fin 16)), ∀ j ∈ (Finset.univ : Finset (Fin 16)), i ≠ j →
    Disjoint (tileSet (tileOf c i)) (tileSet (tileOf c j)) :=
  fun _ _ _ _ h => tiles_disjoint (.inr h)

theorem cores_disjoint : ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]; intro i _
  rw [Finset.disjoint_biUnion_right]; intro j _
  exact tiles_disjoint (.inl h)

theorem cores_cover : (Finset.univ : Finset (Fin 2)).biUnion coreSet = Finset.univ := by
  ext k
  simp only [Finset.mem_biUnion, Finset.mem_univ, true_and, iff_true, coreSet]
  exact tiles_cover k

/-- The whole result is the two SparseCores' positions, -/
theorem oPts_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]; try rfl

/-- and a SparseCore's positions are its sixteen tiles'. -/
theorem oPts_tiles (d : Dev nD) (c : Fin 2) (f : Buf (Elt F) (oLoc d)) :
    (oLoc d ↦[coreSet c]{fullShare} f : sProp 𝕄) = bigSep Finset.univ fun i : Fin 16 => oLoc d ↦[tileSet (tileOf c i)]{fullShare} f :=
  pointsTo_biUnion Finset.univ (ℓ := oLoc d) (fun i => tileSet (tileOf c i)) (coreTiles_disjoint c)

/-! ## The read shares -/

/-- SparseCore `c`'s read share of an array, tile `i`'s share of that, and what @main keeps. -/
abbrev qC (c : Fin 2) : PosShare TreeShare := shareTok fullShare 2 c
abbrev qT (c : Fin 2) (i : Fin 16) : PosShare TreeShare := shareTok (qC c) 16 i
abbrev qKeep : PosShare TreeShare := shareDrop fullShare 2

variable [FloatOps F]

variable (m : (ℓ : Loc nD τ sig) → Buf (Elt F) ℓ) (ρ : Dev nD → PrngReg)

/-! ## What the handshakes carry -/

/-- What SparseCore `c` is handed: its read shares of the two index arrays and of the two blocked tables, and the
    positions of the result its sixteen tiles write. -/
def stRes (d : Dev nD) (c : Fin 2) : sProp 𝕄 :=
  iprop((uLoc d ↦{qC c} m (uLoc d)) ∗ (iLoc d ↦{qC c} m (iLoc d)) ∗ (uwLoc d ↦{qC c} W0 m d) ∗ (iwLoc d ↦{qC c} W1 m d)
    ∗ (oLoc d ↦[coreSet c]{fullShare} m (oLoc d)))

/-- What it hands back: those positions at the specified values. -/
def dnRes (d : Dev nD) (c : Fin 2) : sProp 𝕄 := iprop(oLoc d ↦[coreSet c]{fullShare} Gout m d)

instance stRes_storable (d : Dev nD) (c : Fin 2) : BI.Storable (upEmb : UEmb _ 𝕄) (stRes m d c) := by
  unfold stRes; infer_instance
instance dnRes_storable (d : Dev nD) (c : Fin 2) : BI.Storable (upEmb : UEmb _ 𝕄) (dnRes m d c) := by
  unfold dnRes; infer_instance
instance goRes_storable (q : PosShare TreeShare) (d : Dev nD) (L : grid0.Coords) : BI.Storable (upEmb : UEmb _ 𝕄) (goRes m q d L) := by
  unfold goRes; infer_instance
instance tdRes_storable (d : Dev nD) (L : grid0.Coords) : BI.Storable (upEmb : UEmb _ 𝕄) (tdRes m d L) := by
  unfold tdRes; infer_instance

/-- The one call: each SparseCore its shares and its positions, each tile its share of those and its own positions; the
    positions come back at the specified values.  The kernel keeps no ghost state of its own. -/
def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with
    | 0 => goRes m (qT (Fin.cast nCore_zero c) (Fin.cast nSub_zero i)) d (tileOf (Fin.cast nCore_zero c) (Fin.cast nSub_zero i))
  td := fun q d c i => match q with | 0 => tdRes m d (tileOf (Fin.cast nCore_zero c) (Fin.cast nSub_zero i))
  x := fun _ _ => iprop(emp)

instance P_storable : (P (F := F) m).IsStorable where
  st q d c := match q with | 0 => stRes_storable m d _
  dn q d c := match q with | 0 => dnRes_storable m d _
  go q d c i := match q with | 0 => goRes_storable m _ d _
  td q d c i := match q with | 0 => tdRes_storable m d _

/-! ## A SparseCore's operands among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show stRes m d (Fin.cast nCore_zero c) ⊢ |={Set.univ}=> iprop(
      (bigSep Finset.univ fun i : Fin ((K (F := F)).nSub 0) =>
        goRes m (qT (Fin.cast nCore_zero c) (Fin.cast nSub_zero i)) d (tileOf (Fin.cast nCore_zero c) (Fin.cast nSub_zero i)))
      ∗ ((bigSep Finset.univ fun i : Fin ((K (F := F)).nSub 0) => tdRes m d (tileOf (Fin.cast nCore_zero c) (Fin.cast nSub_zero i)))
          -∗ dnRes m d (Fin.cast nCore_zero c)))
  generalize Fin.cast nCore_zero c = c'
  rw [bigSep_tasks (F := F) (fun i => goRes m (qT c' i) d (tileOf c' i)), bigSep_tasks (F := F) (fun i => tdRes m d (tileOf c' i))]
  unfold stRes dnRes goRes tdRes
  rw [bigSep_sep', bigSep_sep', bigSep_sep', bigSep_sep', oPts_tiles, oPts_tiles]
  iintro ⟨Hu, Hi, Huw, Hiw, Ho⟩
  ihave Hu' := (pointsTo_toks_split (qC c') 16) $$ Hu
  icases Hu' with ⟨-, Hu⟩
  ihave Hi' := (pointsTo_toks_split (qC c') 16) $$ Hi
  icases Hi' with ⟨-, Hi⟩
  ihave Huw' := (pointsTo_toks_split (qC c') 16) $$ Huw
  icases Huw' with ⟨-, Huw⟩
  ihave Hiw' := (pointsTo_toks_split (qC c') 16) $$ Hiw
  icases Hiw' with ⟨-, Hiw⟩
  imodintro
  isplitl [Hu Hi Huw Hiw Ho]
  · isplitl [Hu]; · iexact Hu
    isplitl [Hi]; · iexact Hi
    isplitl [Huw]; · iexact Huw
    isplitl [Hiw]; · iexact Hiw
    iexact Ho
  iintro H; iexact H

/-! ## One tile's task as the launch theorem asks it -/

section Tile

variable (d : Dev nD) (L : grid0.Coords)

/-- The tile's seven DMA semaphores, -/
abbrev kSems : Finset (SemLoc sig) :=
  {.dma cc0_scratch7.sem, .dma cc0_scratch8.sem, .dma cc0_scratch9.sem, .dma cc0_scratch10.sem,
    .dma cc0_scoped0.sem, .dma cc0_scoped1.sem, .dma cc0_scoped2.sem}
/-- as cells of a thread; -/
def kCellsOf (thr : Thread nD τ) : Finset (GSem nD τ sig) := kSems.map ⟨fun sm => (thr, sm), fun _ _ e => (Prod.mk.inj e).2⟩

/-- its seven scratch buffers, -/
abbrev kRefs : Finset (Ref sig .scVector) :=
  {cc0_scratch0, cc0_scratch1, cc0_scratch2, cc0_scratch3, cc0_scratch4, cc0_scratch5, cc0_scratch6}
/-- as buffers of a vector subcore. -/
def kRefsOf (c : Fin τ.nSC) (j : Fin τ.nSub) : Finset (DevRef τ sig) :=
  kRefs.map ⟨(Proc.scVector c j).devRef (sig := sig), Proc.devRef_injective _⟩

omit [FloatOps F] in
theorem kCellsOf_sub (c : Fin τ.nSC) (j : Fin τ.nSub) : kCellsOf (V d c j) ⊆ ownCells (V d c j) := by
  intro g hg
  obtain ⟨sm, hsm, rfl⟩ := Finset.mem_map.mp hg
  exact mem_ownCells.mpr ⟨rfl, (by decide : ∀ sm ∈ kSems, (sm : SemLoc sig).isScoped .scVector = true) sm hsm⟩

theorem kRefsOf_sub (c : Fin τ.nSC) (j : Fin τ.nSub) : kRefsOf c j ⊆ ownRefs (τ := τ) (sig := sig) (.scVector c j) := by
  intro b hb
  obtain ⟨r, hr, rfl⟩ := Finset.mem_map.mp hb
  simp only [kRefs, Finset.mem_insert, Finset.mem_singleton] at hr
  rcases hr with rfl | rfl | rfl | rfl | rfl | rfl | rfl <;> exact SparseCore.Cfg.mem_ownRefs_of_owner rfl

omit [FloatOps F] in
/-- The seven DMA semaphores are among the tile's own scoped cells: they are them, at zero, and the rest. -/
theorem ownSems0_V :
    (ownSems0 (thrV d L) : sProp 𝕄)
      = iprop((semVal (thrV d L, SemLoc.dma cc0_scratch7.sem) 0 ∗ semVal (thrV d L, SemLoc.dma cc0_scratch8.sem) 0
          ∗ semVal (thrV d L, SemLoc.dma cc0_scratch9.sem) 0 ∗ semVal (thrV d L, SemLoc.dma cc0_scratch10.sem) 0
          ∗ semVal (thrV d L, SemLoc.dma cc0_scoped0.sem) 0 ∗ semVal (thrV d L, SemLoc.dma cc0_scoped1.sem) 0
          ∗ semVal (thrV d L, SemLoc.dma cc0_scoped2.sem) 0)
          ∗ bigSep (ownCells (thrV d L) \ kCellsOf (thrV d L)) fun g => semVal g 0) := by
  unfold SparseCore.Cfg.ownSems0
  refine (SparseCore.bigSep_sdiff_split' (kCellsOf_sub d (cV L) (jV L))).trans ?_
  unfold kCellsOf
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
/-- The seven scratch buffers are among the tile's own: they are them, at some contents, and the rest. -/
theorem ownBufs_V :
    (ownBufs (thrV d L) : sProp 𝕄)
      = iprop(((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f) ∗ (∃ f, (thrV d L).loc cc0_scratch5 ↦{fullShare} f)
          ∗ (∃ f, (thrV d L).loc cc0_scratch6 ↦{fullShare} f))
          ∗ bigSep (ownRefs (τ := τ) (.scVector (cV L) (jV L)) \ kRefsOf (cV L) (jV L))
              fun b => iprop(∃ f, ((d, b) : Loc nD τ sig) ↦{fullShare} f)) := by
  unfold SparseCore.Cfg.ownBufs
  refine (SparseCore.bigSep_sdiff_split' (kRefsOf_sub (cV L) (jV L))).trans ?_
  unfold kRefsOf
  rw [bigSep_map, SparseCore.bigSep_insert' (show (cc0_scratch0 : Ref sig .scVector) ∉ ({cc0_scratch1, cc0_scratch2, cc0_scratch3, cc0_scratch4, cc0_scratch5, cc0_scratch6} : Finset (Ref sig .scVector)) by decide),
    SparseCore.bigSep_insert' (show (cc0_scratch1 : Ref sig .scVector) ∉ ({cc0_scratch2, cc0_scratch3, cc0_scratch4, cc0_scratch5, cc0_scratch6} : Finset (Ref sig .scVector)) by decide),
    SparseCore.bigSep_insert' (show (cc0_scratch2 : Ref sig .scVector) ∉ ({cc0_scratch3, cc0_scratch4, cc0_scratch5, cc0_scratch6} : Finset (Ref sig .scVector)) by decide),
    SparseCore.bigSep_insert' (show (cc0_scratch3 : Ref sig .scVector) ∉ ({cc0_scratch4, cc0_scratch5, cc0_scratch6} : Finset (Ref sig .scVector)) by decide),
    SparseCore.bigSep_insert' (show (cc0_scratch4 : Ref sig .scVector) ∉ ({cc0_scratch5, cc0_scratch6} : Finset (Ref sig .scVector)) by decide),
    SparseCore.bigSep_insert' (show (cc0_scratch5 : Ref sig .scVector) ∉ ({cc0_scratch6} : Finset (Ref sig .scVector)) by decide), bigSep_singleton]
  rfl

/-- A proved task, with what it does not touch carried along and the post regrouped. -/
theorem wrap {α : Type} {thr : Thread nD τ} {p : Prog (TpuEff nD τ sig (Elt F) Λ₀ thr.2) α} {A R : sProp 𝕄} {Q Q' : α → sProp 𝕄}
    (h : A ⊢ wp frame (wpE (defs₀ (F := F)) 𝒱₀ thr none) Set.univ p Q) (hQ : ∀ a, iprop(Q a ∗ R) ⊢ Q' a) :
    iprop(A ∗ R) ⊢ wp frame (wpE (defs₀ (F := F)) 𝒱₀ thr none) Set.univ p Q' :=
  ((sep_mono_left h).trans (wp_frame_r _ _ _)).trans (wp_mono _ _ _ hQ)

omit [FloatOps F] in
theorem regroup {X A0 A1 A2 A3 A4 A5 A6 B0 B1 B2 B3 B4 B5 B6 Y RA RB : sProp 𝕄} :
    iprop((X ∗ A0 ∗ A1 ∗ A2 ∗ A3 ∗ A4 ∗ A5 ∗ A6 ∗ B0 ∗ B1 ∗ B2 ∗ B3 ∗ B4 ∗ B5 ∗ B6 ∗ Y) ∗ (RA ∗ RB))
      ⊢ iprop(X ∗ ((A0 ∗ A1 ∗ A2 ∗ A3 ∗ A4 ∗ A5 ∗ A6) ∗ RA) ∗ ((B0 ∗ B1 ∗ B2 ∗ B3 ∗ B4 ∗ B5 ∗ B6) ∗ RB) ∗ Y) := by
  iintro ⟨⟨HX, HA0, HA1, HA2, HA3, HA4, HA5, HA6, HB0, HB1, HB2, HB3, HB4, HB5, HB6, HY⟩, HRA, HRB⟩
  isplitl [HX]; · iexact HX
  isplitl [HA0 HA1 HA2 HA3 HA4 HA5 HA6 HRA]
  · isplitr [HRA]
    · isplitl [HA0]; · iexact HA0
      isplitl [HA1]; · iexact HA1
      isplitl [HA2]; · iexact HA2
      isplitl [HA3]; · iexact HA3
      isplitl [HA4]; · iexact HA4
      isplitl [HA5]; · iexact HA5
      iexact HA6
    · iexact HRA
  isplitl [HB0 HB1 HB2 HB3 HB4 HB5 HB6 HRB]
  · isplitr [HRB]
    · isplitl [HB0]; · iexact HB0
      isplitl [HB1]; · iexact HB1
      isplitl [HB2]; · iexact HB2
      isplitl [HB3]; · iexact HB3
      isplitl [HB4]; · iexact HB4
      isplitl [HB5]; · iexact HB5
      iexact HB6
    · iexact HRB
  iexact HY

/-- One tile's task over the tile's scoped storage as the launch hands it over: its seven scratch buffers and seven DMA
    semaphores are taken out of the tile's own, the task runs over them, and they go back with the rest. -/
theorem tile_body (hcore : TileCore (F := F) m) (q : PosShare TreeShare) (O : CellTallies nD τ sig (HIx 1)) (W : Waits sig (HIx 1))
    (hO : ∀ g, O g none = 0) :
    iprop(levAts (K (F := F)).L (K (F := F)).lev ∗ emp ∗ goRes m q d L
        ∗ scopedBufs (thrV d L) ∗ scopedSems0 (thrV d L) ∗ owes (thrV d L) O W)
      ⊢ wp frame (wpE (defs₀ (F := F)) 𝒱₀ (thrV d L) none) Set.univ
          (cc0__bprmf_sc L uV (Memref.isWhole_whole _) iV (Memref.isWhole_whole _) uwV (Memref.isWhole_whole _) iwV (Memref.isWhole_whole _)
            oV (Memref.isWhole_whole _) sU (Memref.isWhole_whole _) sI (Memref.isWhole_whole _) sUA (Memref.isWhole_whole _)
            sIA (Memref.isWhole_whole _) sUB (Memref.isWhole_whole _) sIB (Memref.isWhole_whole _) sO (Memref.isWhole_whole _)
            cc0_scratch7 cc0_scratch8 cc0_scratch9 cc0_scratch10 cc0_scoped0 cc0_scoped1 cc0_scoped2)
          fun _ => iprop(tdRes m d L ∗ scopedBufs (thrV d L) ∗ scopedSems0 (thrV d L)
            ∗ ∃ W', ⌜∀ p ∈ W', p ∈ W ∨ p.2 = none⌝ ∗ owes (thrV d L) O W') := by
  rw [(K (F := F)).scopedBufs_V facts d (cV L) (jV L), SparseCore.Cfg.scopedSems0_V (Val := Elt F) d (cV L) (jV L), ownSems0_V, ownBufs_V]
  iintro ⟨#Hlv, -, Hgo, ⟨⟨⟨%f0, H0⟩, ⟨%f1, H1⟩, ⟨%f2, H2⟩, ⟨%f3, H3⟩, ⟨%f4, H4⟩, ⟨%f5, H5⟩, ⟨%f6, H6⟩⟩, Hbufs⟩,
    ⟨⟨S7, S8, S9, S10, T0, T1, T2⟩, Hsems⟩, HO⟩
  ihave Hmw := ((K (F := F)).mayWaits_none (thr := thrV d L) hO) $$ Hlv
  iapply (wrap (hcore d L q O W f0 f1 f2 f3 f4 f5 f6) (fun _ => regroup)) $$ [Hmw Hgo H0 H1 H2 H3 H4 H5 H6 Hbufs S7 S8 S9 S10 T0 T1 T2 Hsems HO]
  isplitr [Hbufs Hsems]
  · isplitl [Hmw]; · iexact Hmw
    isplitl [Hgo]; · iexact Hgo
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S7]; · iexact S7
    isplitl [S8]; · iexact S8
    isplitl [S9]; · iexact S9
    isplitl [S10]; · iexact S10
    isplitl [T0]; · iexact T0
    isplitl [T1]; · iexact T1
    isplitl [T2]; · iexact T2
    iexact HO
  · isplitl [Hbufs]; · iexact Hbufs
    iexact Hsems

end Tile

/-! ## The launch theorem's obligations -/

theorem defs₀_vector (c : Fin τ.nSC) (s : Fin τ.nSub) :
    defs₀ (F := F) (.scVector c s) 0 ()
      = SparseCore.onTile hcore0 hsub0 (fun c s => cc0__bprmf_sc (coordsV c s)
          uV (Memref.isWhole_whole _) iV (Memref.isWhole_whole _) uwV (Memref.isWhole_whole _) iwV (Memref.isWhole_whole _)
            oV (Memref.isWhole_whole _) sU (Memref.isWhole_whole _) sI (Memref.isWhole_whole _) sUA (Memref.isWhole_whole _)
            sIA (Memref.isWhole_whole _) sUB (Memref.isWhole_whole _) sIB (Memref.isWhole_whole _) sO (Memref.isWhole_whole _)
            cc0_scratch7 cc0_scratch8 cc0_scratch9 cc0_scratch10 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hcore : TileCore (F := F) m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hcore _ O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- @main's two reshapes: each table's elements in row-major order at the blocked shape. -/
abbrev op0 : HloOp τ sig (Elt F) := StableHlo.reshape main_arg2 main_v0 rfl shapeCasts_S1000000x64_S125000x8x64
abbrev op1 : HloOp τ sig (Elt F) := StableHlo.reshape main_arg3 main_v1 rfl shapeCasts_S1000000x64_S125000x8x64

/-- The TensorCore's arrays, all unscoped. -/
abbrev S7 : Finset (DevRef τ sig) := {a0', a1', a2', a3', v0', v1', v2'}

omit [FloatOps F] in
theorem held_S7 (d : Dev nD) (W : Valuation τ sig (Elt F)) :
    (held (T d) S7 W : sProp 𝕄) = iprop((uLoc d ↦{fullShare} W a0') ∗ (iLoc d ↦{fullShare} W a1') ∗ (a2Loc d ↦{fullShare} W a2')
      ∗ (a3Loc d ↦{fullShare} W a3') ∗ (uwLoc d ↦{fullShare} W v0') ∗ (iwLoc d ↦{fullShare} W v1') ∗ (oLoc d ↦{fullShare} W v2')) := by
  unfold held S7
  rw [SparseCore.bigSep_insert' (show a0' ∉ ({a1', a2', a3', v0', v1', v2'} : Finset (DevRef τ sig)) by decide),
    SparseCore.bigSep_insert' (show a1' ∉ ({a2', a3', v0', v1', v2'} : Finset (DevRef τ sig)) by decide),
    SparseCore.bigSep_insert' (show a2' ∉ ({a3', v0', v1', v2'} : Finset (DevRef τ sig)) by decide),
    SparseCore.bigSep_insert' (show a3' ∉ ({v0', v1', v2'} : Finset (DevRef τ sig)) by decide),
    SparseCore.bigSep_insert' (show v0' ∉ ({v1', v2'} : Finset (DevRef τ sig)) by decide),
    SparseCore.bigSep_insert' (show v1' ∉ ({v2'} : Finset (DevRef τ sig)) by decide), bigSep_singleton]

omit [FloatOps F] in
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1) ∗ (a2Loc d ↦{fullShare} W main_arg2)
      ∗ (a3Loc d ↦{fullShare} W main_arg3) ∗ (uwLoc d ↦{fullShare} W main_v0) ∗ (iwLoc d ↦{fullShare} W main_v1) ∗ (oLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (show (main_arg0 : Ref sig .tc) ∉ ({main_arg1, main_arg2, main_arg3, main_v0, main_v1, main_v2} : Finset (Ref sig .tc)) by decide),
    SparseCore.bigSep_insert' (show (main_arg1 : Ref sig .tc) ∉ ({main_arg2, main_arg3, main_v0, main_v1, main_v2} : Finset (Ref sig .tc)) by decide),
    SparseCore.bigSep_insert' (show (main_arg2 : Ref sig .tc) ∉ ({main_arg3, main_v0, main_v1, main_v2} : Finset (Ref sig .tc)) by decide),
    SparseCore.bigSep_insert' (show (main_arg3 : Ref sig .tc) ∉ ({main_v0, main_v1, main_v2} : Finset (Ref sig .tc)) by decide),
    SparseCore.bigSep_insert' (show (main_v0 : Ref sig .tc) ∉ ({main_v1, main_v2} : Finset (Ref sig .tc)) by decide),
    SparseCore.bigSep_insert' (show (main_v1 : Ref sig .tc) ∉ ({main_v2} : Finset (Ref sig .tc)) by decide), bigSep_singleton]

/-- The launch valuation of device `d`'s arrays, and the valuations after the first and the second reshape. -/
def V0 (d : Dev nD) : Valuation τ sig (Elt F) := fun b => m (d, b)
def V1 (d : Dev nD) : Valuation τ sig (Elt F) := (op0 (F := F)).result (V0 m d)
def V2 (d : Dev nD) : Valuation τ sig (Elt F) := (op1 (F := F)).result (V1 m d)

theorem unscoped_held (d : Dev nD) : (unscopedBufs d (fun b => m ((SparseCore.T d).loc b)) : sProp 𝕄) = held (T d) S7 (V0 m d) := by
  rw [unscopedBufs_eq, held_S7]; rfl

theorem V2_keep (d : Dev nD) {b : DevRef τ sig} (h0 : b ∉ ({v0'} : Finset (DevRef τ sig))) (h1 : b ∉ ({v1'} : Finset (DevRef τ sig))) : V2 m d b = V0 m d b :=
  ((op1 (F := F)).result_of_not_mem (V1 m d) h1).trans ((op0 (F := F)).result_of_not_mem (V0 m d) h0)

theorem V2_v0 (d : Dev nD) : V2 m d v0' = W0 m d :=
  ((op1 (F := F)).result_of_not_mem (V1 m d) (show v0' ∉ ({v1'} : Finset (DevRef τ sig)) by decide)).trans
    (StableHlo.reshape_result main_arg2 main_v0 rfl shapeCasts_S1000000x64_S125000x8x64 ⟨by decide, rfl⟩ ⟨by decide, rfl⟩ (V0 m d))

theorem V2_v1 (d : Dev nD) : V2 m d v1' = W1 m d := by
  refine (StableHlo.reshape_result main_arg3 main_v1 rfl shapeCasts_S1000000x64_S125000x8x64 ⟨by decide, rfl⟩ ⟨by decide, rfl⟩ (V1 m d)).trans ?_
  have e : V1 m d a3' = V0 m d a3' := (op0 (F := F)).result_of_not_mem (V0 m d) (show a3' ∉ ({v0'} : Finset (DevRef τ sig)) by decide)
  show (fun i => shapeCast S125000x8x64 (V1 m d a3') shapeCasts_S1000000x64_S125000x8x64 i) = _
  rw [e]; rfl

/-- After the two reshapes: the arguments and the result array as launched, the blocked tables in place. -/
theorem held_V2 (d : Dev nD) :
    (held (T d) S7 (V2 m d) : sProp 𝕄) = iprop((uLoc d ↦{fullShare} m (uLoc d)) ∗ (iLoc d ↦{fullShare} m (iLoc d)) ∗ (a2Loc d ↦{fullShare} m (a2Loc d))
      ∗ (a3Loc d ↦{fullShare} m (a3Loc d)) ∗ (uwLoc d ↦{fullShare} W0 m d) ∗ (iwLoc d ↦{fullShare} W1 m d) ∗ (oLoc d ↦{fullShare} m (oLoc d))) := by
  rw [held_S7, V2_v0, V2_v1,
    V2_keep m d (b := a0') (by decide) (by decide), V2_keep m d (b := a1') (by decide) (by decide),
    V2_keep m d (b := a2') (by decide) (by decide), V2_keep m d (b := a3') (by decide) (by decide),
    V2_keep m d (b := v2') (by decide) (by decide)]
  rfl

theorem held_V2' (d : Dev nD) :
    (held (T d) S7 ((op1 (F := F)).result (V1 m d)) : sProp 𝕄) = iprop((uLoc d ↦{fullShare} m (uLoc d)) ∗ (iLoc d ↦{fullShare} m (iLoc d)) ∗ (a2Loc d ↦{fullShare} m (a2Loc d))
      ∗ (a3Loc d ↦{fullShare} m (a3Loc d)) ∗ (uwLoc d ↦{fullShare} W0 m d) ∗ (iwLoc d ↦{fullShare} W1 m d) ∗ (oLoc d ↦{fullShare} m (oLoc d))) := held_V2 m d

theorem hop0 : (op0 (F := F)).bufs ⊆ S7 := show ({a2', v0'} : Finset (DevRef τ sig)) ⊆ S7 by decide
theorem hop1 : (op1 (F := F)).bufs ⊆ S7 := show ({a3', v1'} : Finset (DevRef τ sig)) ⊆ S7 by decide

/-- What the call takes for the two SparseCores, -/
theorem st0_eq (d : Dev nD) : (bigSep Finset.univ fun c : Fin ((K (F := F)).nCore 0) => (P m).st 0 d c)
    = iprop((bigSep Finset.univ fun c : Fin 2 => uLoc d ↦{qC c} m (uLoc d)) ∗ (bigSep Finset.univ fun c : Fin 2 => iLoc d ↦{qC c} m (iLoc d))
      ∗ (bigSep Finset.univ fun c : Fin 2 => uwLoc d ↦{qC c} W0 m d) ∗ (bigSep Finset.univ fun c : Fin 2 => iwLoc d ↦{qC c} W1 m d)
      ∗ (oLoc d ↦{fullShare} m (oLoc d))) := by
  show (bigSep Finset.univ fun c : Fin ((K (F := F)).nCore 0) => stRes m d (Fin.cast nCore_zero c)) = _
  rw [bigSep_cores (F := F) (fun c => stRes m d c), oPts_cores]
  unfold stRes
  rw [bigSep_sep', bigSep_sep', bigSep_sep', bigSep_sep']

/-- and what it hands back: the whole result at the specified values. -/
theorem dn0_eq (d : Dev nD) : (bigSep Finset.univ fun c : Fin ((K (F := F)).nCore 0) => (P m).dn 0 d c) = iprop(oLoc d ↦{fullShare} Gout m d) := by
  show (bigSep Finset.univ fun c : Fin ((K (F := F)).nCore 0) => dnRes m d (Fin.cast nCore_zero c)) = _
  rw [bigSep_cores (F := F) (fun c => dnRes m d c), oPts_cores]
  rfl

/-- What @main leaves the claim: the index arrays at the share it kept, the tables whole, the result at its specified values. -/
abbrev FIN (d : Dev nD) : sProp 𝕄 :=
  iprop((uLoc d ↦{qKeep} m (uLoc d)) ∗ (iLoc d ↦{qKeep} m (iLoc d)) ∗ (a2Loc d ↦{fullShare} m (a2Loc d)) ∗ (a3Loc d ↦{fullShare} m (a3Loc d))
    ∗ (oLoc d ↦{fullShare} Gout m d))

/-- @main on device `d`'s TensorCore: the two reshapes, over the TensorCore's arrays; then the call, each SparseCore
    handed a read share of the index arrays and of the blocked tables and its positions of the result; @main keeps a
    share of the index arrays and the tables whole, and takes the result back at its specified values. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape
  iapply (wp_hlo_within 𝒱 (SparseCore.T d) none Set.univ (op := op0) (S := S7) hop0 (V := V0 m d)) $$ [Hb Hheld]
  · isplitl [Hb]; · iexact Hb
    iexact Hheld
  iintro ⟨Hb, Hheld⟩
  rw [wp_ret]; imodintro
  -- the second
  iapply (wp_hlo_within 𝒱 (SparseCore.T d) none Set.univ (op := op1) (S := S7) hop1 (V := V1 m d)) $$ [Hb Hheld]
  · isplitl [Hb]; · iexact Hb
    iexact Hheld
  iintro ⟨Hb, Hheld⟩
  rw [wp_ret]; imodintro
  ihave Hh := (Entails.of_eq (held_V2' m d)) $$ Hheld
  icases Hh with ⟨Hu, Hi, Ha2, Ha3, Huw, Hiw, Ho⟩
  -- a read share of each of the four arrays per SparseCore; of the index arrays @main keeps the remainder
  ihave Hu' := (pointsTo_toks_split fullShare 2) $$ Hu
  icases Hu' with ⟨Hu0, Hu⟩
  ihave Hi' := (pointsTo_toks_split fullShare 2) $$ Hi
  icases Hi' with ⟨Hi0, Hi⟩
  ihave Huw' := (pointsTo_toks_split fullShare 2) $$ Huw
  icases Huw' with ⟨-, Huw⟩
  ihave Hiw' := (pointsTo_toks_split fullShare 2) $$ Hiw
  icases Hiw' with ⟨-, Hiw⟩
  -- the call
  iapply ((K (F := F)).wp_run (D (F := F)) 𝒱 (EH := EH) (P := P m) κ d 0) $$ [Hst Hu Hi Huw Hiw Ho Hu0 Hi0 Ha2 Ha3]
  isplitr; · iexact Hctx
  isplitl [Hst]; · iexact Hst
  isplitl [Hu Hi Huw Hiw Ho]
  · rw [st0_eq]
    isplitl [Hu]; · iexact Hu
    isplitl [Hi]; · iexact Hi
    isplitl [Huw]; · iexact Huw
    isplitl [Hiw]; · iexact Hiw
    iexact Ho
  iintro ⟨Hst, Hdn⟩
  ihave Ho := (Entails.of_eq (dn0_eq m d)) $$ Hdn
  imodintro
  isplitl [Hst]; · iexact Hst
  isplitl [Hu0]; · iexact Hu0
  isplitl [Hi0]; · iexact Hi0
  isplitl [Ha2]; · iexact Ha2
  isplitl [Ha3]; · iexact Ha3
  iexact Ho

/-! ## The final memory -/

def fq (d : Dev nD) (s' : Phys nD τ sig (Elt F)) : Prop :=
  s'.mem.mem (oLoc d) = Gout m d ∧ s'.mem.mem (uLoc d) = m (uLoc d) ∧ s'.mem.mem (iLoc d) = m (iLoc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨Hu, Hi, Ha2, Ha3, Ho⟩, HSI⟩
  ihave H := (persistent_entails_right (SI_pointsTo_agree (st := s') (ℓ := uLoc d) (I := Finset.univ) (q := qKeep) (f := m (uLoc d)))) $$ [HSI Hu]
  · isplitl [HSI] <;> iassumption
  icases H with ⟨%h1, HSI, -⟩
  ihave H := (persistent_entails_right (SI_pointsTo_agree (st := s') (ℓ := iLoc d) (I := Finset.univ) (q := qKeep) (f := m (iLoc d)))) $$ [HSI Hi]
  · isplitl [HSI] <;> iassumption
  icases H with ⟨%h2, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h3, HSI, -⟩
  ihave H := (persistent_entails_right (SI_pointsTo_agree (st := s') (ℓ := a3Loc d) (I := Finset.univ) (q := fullShare) (f := m (a3Loc d)))) $$ [HSI Ha3]
  · isplitl [HSI] <;> iassumption
  icases H with ⟨%h4, HSI, -⟩
  ihave H := (SI_pointsTo_agree (st := s') (ℓ := oLoc d) (I := Finset.univ) (q := fullShare) (f := Gout m d)) $$ [HSI Ho]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The program's run -/

/-- Every weakly fair execution of the device's threads terminates, nothing faulting, no handshake unanswered; the result
    array ends at its specified values and the four arguments unchanged — given one tile's task. -/
theorem run_main [∀ e, Nonempty (Elt F e)] (hcore : TileCore (F := F) m) :
    θ_run (Cert.KernelIdeal.defs (F := F)) (Cert.KernelIdeal.threads (F := F)) ⟨m, fun _ => 0, ρ⟩
      (fun r => ∀ c : Dev nD, r.2.mem (oLoc c) = Gout m c ∧ r.2.mem (uLoc c) = m (uLoc c) ∧ r.2.mem (iLoc c) = m (iLoc c)
        ∧ r.2.mem (a2Loc c) = m (a2Loc c) ∧ r.2.mem (a3Loc c) = m (a3Loc c)) :=
  SparseCore.Cfg.θ_run_sc (K := K (F := F)) (D := D (F := F)) (𝒱 := 𝒱) (EH := EH) (P := P m) facts v₀
    (fun q hq => match q with | 0 => nomatch hq)
    (fun q _ => match q with | 0 => tileObl m hcore)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KernelIdeal

end
-- ==== Proof.KI.OutPiece.lean ====
/-
  The tile's piece of the result after the write-out, and the positions its slices name.

  The write-out copies the tile's 512-word scratch into the tile's slice of the result: the slice then holds, at its
  `p`-th position, the scratch's `p`-th word.  When those words are the specified values of the slice's positions, the
  piece is what the tile hands back.  The tile's slices of the two index arrays and of the result start at the same
  offset `1024 (L 1) + 512 (L 0)`, so position `p` of each is the same position of a 16384-array.
-/
import proofs.«203884_g41704132444582_cont_8to1_b_1290_16_alg».proof.Proof.KI.Setup

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The positions the tile's slices name -/

/-- The tile's slices of the two index arrays, as the program slices them. -/
abbrev uRect (L : grid0.Coords) : Rect S16384 := Rect.unit (s := S16384) (k0_off1 L) S512.size (k0_off1_inb L)
abbrev uSlice (L : grid0.Coords) : Memref sig .scVector .hbm S512 .i32 := (uV : Memref sig .scVector .hbm S16384 .i32).slice (uRect L) (fun _ => rfl)
abbrev iSlice (L : grid0.Coords) : Memref sig .scVector .hbm S512 .i32 := (iV : Memref sig .scVector .hbm S16384 .i32).slice (uRect L) (fun _ => rfl)

/-- Position `p` of the tile's slice of the result, in closed form. -/
theorem emb_o_val (L : grid0.Coords) (p : S512.Idx) :
    (((oSlice L).view.emb p) 0).val = 1024 * (L 1).val + 512 * (L 0).val + (p 0).val := by
  show (k0_off104 L) 0 + 1 * (p 0).val = _
  rw [k0_off104_eq, Nat.one_mul]; rfl

theorem emb_u_val (L : grid0.Coords) (p : S512.Idx) :
    (((uSlice L).view.emb p) 0).val = 1024 * (L 1).val + 512 * (L 0).val + (p 0).val := by
  show (k0_off1 L) 0 + 1 * (p 0).val = _
  rw [k0_off1_eq, Nat.one_mul]; rfl

theorem emb_i_val (L : grid0.Coords) (p : S512.Idx) :
    (((iSlice L).view.emb p) 0).val = 1024 * (L 1).val + 512 * (L 0).val + (p 0).val := by
  show (k0_off1 L) 0 + 1 * (p 0).val = _
  rw [k0_off1_eq, Nat.one_mul]; rfl

theorem emb_o_lt (L : grid0.Coords) (p : S512.Idx) : 1024 * (L 1).val + 512 * (L 0).val + (p 0).val < 16384 := by
  have h := (((oSlice L).view.emb p) 0).isLt
  rw [emb_o_val] at h; exact h

/-- The same, as a coordinate. -/
theorem emb_o_zero (L : grid0.Coords) (p : S512.Idx) :
    @Eq (Fin 16384) (((oSlice L).view.emb p) 0) ⟨1024 * (L 1).val + 512 * (L 0).val + (p 0).val, emb_o_lt L p⟩ :=
  Fin.ext (emb_o_val L p)

/-- Position `p` of the tile's slice of either index array is position `p` of its slice of the result. -/
theorem emb_u_eq_emb_o (L : grid0.Coords) (p : S512.Idx) : (uSlice L).view.emb p = (oSlice L).view.emb p := by
  funext a
  obtain rfl : a = (0 : Fin 1) := Subsingleton.elim (α := Fin 1) a 0
  exact Fin.ext ((emb_u_val L p).trans (emb_o_val L p).symm)

theorem emb_i_eq_emb_o (L : grid0.Coords) (p : S512.Idx) : (iSlice L).view.emb p = (oSlice L).view.emb p := by
  funext a
  obtain rfl : a = (0 : Fin 1) := Subsingleton.elim (α := Fin 1) a 0
  exact Fin.ext ((emb_i_val L p).trans (emb_o_val L p).symm)

/-! ## The tile's piece of the result after the write-out -/

variable [FloatOps F]

variable (m : (ℓ : Loc nD τ sig) → Buf (Elt F) ℓ)

/-- Any contents that hold the specified values at the slice's positions make the piece the tile hands back. -/
theorem out_piece_of (d : Dev nD) (L : grid0.Coords) (g : Buf (Elt F) (oLoc d))
    (h : ∀ p : S512.Idx, g ((oSlice L).view.emb p) = Gout m d ((oSlice L).view.emb p)) :
    (((oSlice L).view.loc (thrV d L) ↦[(oSlice L).view.set]{fullShare} g) : sProp 𝕄) ⊢ tdRes m d L := by
  unfold tdRes
  refine Entails.of_eq (pointsTo_congr fun i hi => ?_)
  obtain ⟨p, -, rfl⟩ := Finset.mem_map.mp hi
  exact h p

/-- What the write-out leaves at position `p` of the slice: the scratch's `p`-th word. -/
theorem write_out_emb (d : Dev nD) (L : grid0.Coords) (OV : Buf (Elt F) ((thrV d L).loc cc0_scratch6)) (f : Buf (Elt F) (oLoc d)) (p : S512.Idx) :
    (oSlice L).view.write (Elt F) f (ReadAs.same.apply ((sO : Memref sig .scVector .vmem S512 .f32).view.read (Elt F) OV)) Finset.univ ((oSlice L).view.emb p)
      = OV p := by
  rw [View.write_emb_of_mem _ _ (Finset.mem_univ p)]
  rfl

/-- The piece after the write-out, when the scratch holds the specified values of the slice's positions. -/
theorem out_piece (d : Dev nD) (L : grid0.Coords) (OV : Buf (Elt F) ((thrV d L).loc cc0_scratch6)) (f : Buf (Elt F) (oLoc d))
    (h : ∀ p : S512.Idx, OV p = Gout m d ((oSlice L).view.emb p)) :
    (((oSlice L).view.loc (thrV d L) ↦[(oSlice L).view.set]{fullShare}
        ((oSlice L).view.write (Elt F) f (ReadAs.same.apply ((sO : Memref sig .scVector .vmem S512 .f32).view.read (Elt F) OV)) Finset.univ)) : sProp 𝕄)
      ⊢ tdRes m d L :=
  out_piece_of m d L _ fun p => (write_out_emb d L OV f p).trans (h p)

/-- The same when the written contents is any `g` that holds the scratch's words at the slice's positions. -/
theorem out_piece_any (d : Dev nD) (L : grid0.Coords) (OV : Buf (Elt F) ((thrV d L).loc cc0_scratch6)) (g : Buf (Elt F) (oLoc d))
    (hg : ∀ p : S512.Idx, g ((oSlice L).view.emb p) = OV p) (h : ∀ p : S512.Idx, OV p = Gout m d ((oSlice L).view.emb p)) :
    (((oSlice L).view.loc (thrV d L) ↦[(oSlice L).view.set]{fullShare} g) : sProp 𝕄) ⊢ tdRes m d L :=
  out_piece_of m d L g fun p => (hg p).trans (h p)

end Cert.Proof.KernelIdeal

end
-- ==== Proof.KI.Slots.lean ====
/-
  A block buffer filled slot by slot.

  A tile's block buffer has shape `[16, 8, 64]`; row copy `t` lands in slot `t`, the rows `(t, ·, ·)`, read as an
  `[8, 64]` block.  Writing a slot changes exactly the positions whose first coordinate is `t`; so after all sixteen
  slots are written, position `(s, r, f)` holds what copy `s` brought at `(r, f)`, whatever the buffer held before.
-/
import proofs.«203884_g41704132444582_cont_8to1_b_1290_16_alg».proof.Proof.KI.Setup

noncomputable section

namespace Cert.Proof.KernelIdeal

open Cert.KernelIdeal Cert.KernelIdeal.Gen
open Idealize.ShloMosaic

variable {F : FTy → Type}

/-- Slot `t` of a block buffer: rows `(t, ·, ·)` of the `[16, 8, 64]` buffer, read as an `[8, 64]` block. -/
abbrev slotV (base : Memref sig .scVector .vmem S16x8x64 .f32) (t : ℕ)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64) : View sig .scVector .vmem S8x64 .f32 :=
  ((base.slice (Rect.unit (s := S16x8x64) ![t, 0, 0] S1x8x64.size h1) h2).squeeze S8x64 h3).view

/-! ## Buffer `sUA` -/

/-- Where slot `t` of `sUA` sits: its `(r, f)` is the buffer's `(t, r, f)`. -/
theorem slot_emb_UA (t : ℕ) (ht : t < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64) (x : S8x64.Idx) :
    (slotV sUA t h1 h2 h3).emb x = ValueIdx.ix3 (n0 := 16) (n1 := 8) (n2 := 64) ⟨t, ht⟩ (x 0) (x 1) := by
  have hr : Shape.reshapeEquiv h3.numel_eq x = ValueIdx.ix3 (n0 := 1) (n1 := 8) (n2 := 64) ⟨0, Nat.one_pos⟩ (x 0) (x 1) :=
    Shape.reshapeEquiv_eq_of_rowMajor _ (by
      rw [Shape.rowMajor_val_two, Shape.rowMajor_val_three]
      show ((0 * 8 + (x 0).val) * 64 + (x 1).val) = (x 0).val * 64 + (x 1).val
      omega)
  show (Rect.unit (s := S16x8x64) ![t, 0, 0] S1x8x64.size h1).emb (Shape.reshapeEquiv h3.numel_eq x) = _
  rw [hr]
  funext a
  apply Fin.ext
  rw [Rect.emb_apply]
  match a with
  | ⟨0, _⟩ => show t + 1 * 0 = t; omega
  | ⟨1, _⟩ => show 0 + 1 * (x 0).val = (x 0).val; omega
  | ⟨2, _⟩ => show 0 + 1 * (x 1).val = (x 1).val; omega

/-- One slot of `sUA` written over prior contents, read at `(s, r, f)`: the payload in slot `t`, the prior contents
    elsewhere. -/
theorem slot_write_apply_UA (t s : ℕ) (hs : s < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64)
    (prior : (slotV sUA t h1 h2 h3).ty.Contents (Elt F)) (p : S8x64.Idx → Elt F .f32) (r : Fin 8) (f : Fin 64) :
    View.write (Elt F) (slotV sUA t h1 h2 h3) prior p Finset.univ (ValueIdx.ix3 (n0 := 16) (n1 := 8) (n2 := 64) ⟨s, hs⟩ r f)
      = if s = t then p (ValueIdx.ix2 (n0 := 8) (n1 := 64) r f)
        else prior (ValueIdx.ix3 (n0 := 16) (n1 := 8) (n2 := 64) ⟨s, hs⟩ r f) := by
  have ht : t < 16 := by have h : t + 1 ≤ 16 := h1 0; omega
  by_cases hst : s = t
  · subst hst
    rw [if_pos rfl]
    have he := slot_emb_UA s hs h1 h2 h3 (ValueIdx.ix2 (n0 := 8) (n1 := 64) r f)
    have hw := View.write_emb_of_mem (v := slotV sUA s h1 h2 h3) (Val := Elt F) prior p
      (Finset.mem_univ (ValueIdx.ix2 (n0 := 8) (n1 := 64) r f))
    rw [he] at hw
    exact hw
  · rw [if_neg hst]
    refine View.write_of_not_mem _ _ _ ?_
    intro hmem
    obtain ⟨x, _, hx⟩ := Finset.mem_map.1 hmem
    rw [slot_emb_UA t ht h1 h2 h3 x] at hx
    have := congrArg (fun i : S16x8x64.Idx => (i 0).val) hx
    exact hst this.symm

/-- All sixteen slots of `sUA` written, slot 0 first and slot 15 last, over any prior contents: position `(s, r, f)`
    holds slot `s`'s payload at `(r, f)`. -/
theorem nest16_apply_UA
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sUA 0 h1_0 h2_0 h3_0).ty.Contents (Elt F)) (p0 p1 p2 p3 p4 p5 p6 p7 p8 p9 p10 p11 p12 p13 p14 p15 : S8x64.Idx → Elt F .f32)
    (s : Fin 16) (r : Fin 8) (f : Fin 64) :
    (View.write (Elt F) (slotV sUA 15 h1_15 h2_15 h3_15) (View.write (Elt F) (slotV sUA 14 h1_14 h2_14 h3_14) (View.write (Elt F) (slotV sUA 13 h1_13 h2_13 h3_13) (View.write (Elt F) (slotV sUA 12 h1_12 h2_12 h3_12) (View.write (Elt F) (slotV sUA 11 h1_11 h2_11 h3_11) (View.write (Elt F) (slotV sUA 10 h1_10 h2_10 h3_10) (View.write (Elt F) (slotV sUA 9 h1_9 h2_9 h3_9) (View.write (Elt F) (slotV sUA 8 h1_8 h2_8 h3_8) (View.write (Elt F) (slotV sUA 7 h1_7 h2_7 h3_7) (View.write (Elt F) (slotV sUA 6 h1_6 h2_6 h3_6) (View.write (Elt F) (slotV sUA 5 h1_5 h2_5 h3_5) (View.write (Elt F) (slotV sUA 4 h1_4 h2_4 h3_4) (View.write (Elt F) (slotV sUA 3 h1_3 h2_3 h3_3) (View.write (Elt F) (slotV sUA 2 h1_2 h2_2 h3_2) (View.write (Elt F) (slotV sUA 1 h1_1 h2_1 h3_1) (View.write (Elt F) (slotV sUA 0 h1_0 h2_0 h3_0) prior p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)
        (ValueIdx.ix3 (n0 := 16) (n1 := 8) (n2 := 64) s r f)
      = (![p0, p1, p2, p3, p4, p5, p6, p7, p8, p9, p10, p11, p12, p13, p14, p15] : Fin 16 → S8x64.Idx → Elt F .f32) s (ValueIdx.ix2 (n0 := 8) (n1 := 64) r f) := by
  obtain ⟨s, hs⟩ := s
  rw [slot_write_apply_UA 15 s hs,
    slot_write_apply_UA 14 s hs,
    slot_write_apply_UA 13 s hs,
    slot_write_apply_UA 12 s hs,
    slot_write_apply_UA 11 s hs,
    slot_write_apply_UA 10 s hs,
    slot_write_apply_UA 9 s hs,
    slot_write_apply_UA 8 s hs,
    slot_write_apply_UA 7 s hs,
    slot_write_apply_UA 6 s hs,
    slot_write_apply_UA 5 s hs,
    slot_write_apply_UA 4 s hs,
    slot_write_apply_UA 3 s hs,
    slot_write_apply_UA 2 s hs,
    slot_write_apply_UA 1 s hs,
    slot_write_apply_UA 0 s hs]
  interval_cases s <;> rfl

/-- The same with the payloads given as one function of the slot. -/
theorem nest16_apply_fn_UA
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sUA 0 h1_0 h2_0 h3_0).ty.Contents (Elt F)) (P : Fin 16 → S8x64.Idx → Elt F .f32)
    (s : Fin 16) (r : Fin 8) (f : Fin 64) :
    (View.write (Elt F) (slotV sUA 15 h1_15 h2_15 h3_15) (View.write (Elt F) (slotV sUA 14 h1_14 h2_14 h3_14) (View.write (Elt F) (slotV sUA 13 h1_13 h2_13 h3_13) (View.write (Elt F) (slotV sUA 12 h1_12 h2_12 h3_12) (View.write (Elt F) (slotV sUA 11 h1_11 h2_11 h3_11) (View.write (Elt F) (slotV sUA 10 h1_10 h2_10 h3_10) (View.write (Elt F) (slotV sUA 9 h1_9 h2_9 h3_9) (View.write (Elt F) (slotV sUA 8 h1_8 h2_8 h3_8) (View.write (Elt F) (slotV sUA 7 h1_7 h2_7 h3_7) (View.write (Elt F) (slotV sUA 6 h1_6 h2_6 h3_6) (View.write (Elt F) (slotV sUA 5 h1_5 h2_5 h3_5) (View.write (Elt F) (slotV sUA 4 h1_4 h2_4 h3_4) (View.write (Elt F) (slotV sUA 3 h1_3 h2_3 h3_3) (View.write (Elt F) (slotV sUA 2 h1_2 h2_2 h3_2) (View.write (Elt F) (slotV sUA 1 h1_1 h2_1 h3_1) (View.write (Elt F) (slotV sUA 0 h1_0 h2_0 h3_0) prior (P 0) Finset.univ) (P 1) Finset.univ) (P 2) Finset.univ) (P 3) Finset.univ) (P 4) Finset.univ) (P 5) Finset.univ) (P 6) Finset.univ) (P 7) Finset.univ) (P 8) Finset.univ) (P 9) Finset.univ) (P 10) Finset.univ) (P 11) Finset.univ) (P 12) Finset.univ) (P 13) Finset.univ) (P 14) Finset.univ) (P 15) Finset.univ)
        (ValueIdx.ix3 (n0 := 16) (n1 := 8) (n2 := 64) s r f)
      = P s (ValueIdx.ix2 (n0 := 8) (n1 := 64) r f) := by
  rw [nest16_apply_UA]
  fin_cases s <;> rfl

/-! ## Buffer `sIA` -/

/-- Where slot `t` of `sIA` sits: its `(r, f)` is the buffer's `(t, r, f)`. -/
theorem slot_emb_IA (t : ℕ) (ht : t < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64) (x : S8x64.Idx) :
    (slotV sIA t h1 h2 h3).emb x = ValueIdx.ix3 (n0 := 16) (n1 := 8) (n2 := 64) ⟨t, ht⟩ (x 0) (x 1) := by
  have hr : Shape.reshapeEquiv h3.numel_eq x = ValueIdx.ix3 (n0 := 1) (n1 := 8) (n2 := 64) ⟨0, Nat.one_pos⟩ (x 0) (x 1) :=
    Shape.reshapeEquiv_eq_of_rowMajor _ (by
      rw [Shape.rowMajor_val_two, Shape.rowMajor_val_three]
      show ((0 * 8 + (x 0).val) * 64 + (x 1).val) = (x 0).val * 64 + (x 1).val
      omega)
  show (Rect.unit (s := S16x8x64) ![t, 0, 0] S1x8x64.size h1).emb (Shape.reshapeEquiv h3.numel_eq x) = _
  rw [hr]
  funext a
  apply Fin.ext
  rw [Rect.emb_apply]
  match a with
  | ⟨0, _⟩ => show t + 1 * 0 = t; omega
  | ⟨1, _⟩ => show 0 + 1 * (x 0).val = (x 0).val; omega
  | ⟨2, _⟩ => show 0 + 1 * (x 1).val = (x 1).val; omega

/-- One slot of `sIA` written over prior contents, read at `(s, r, f)`: the payload in slot `t`, the prior contents
    elsewhere. -/
theorem slot_write_apply_IA (t s : ℕ) (hs : s < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64)
    (prior : (slotV sIA t h1 h2 h3).ty.Contents (Elt F)) (p : S8x64.Idx → Elt F .f32) (r : Fin 8) (f : Fin 64) :
    View.write (Elt F) (slotV sIA t h1 h2 h3) prior p Finset.univ (ValueIdx.ix3 (n0 := 16) (n1 := 8) (n2 := 64) ⟨s, hs⟩ r f)
      = if s = t then p (ValueIdx.ix2 (n0 := 8) (n1 := 64) r f)
        else prior (ValueIdx.ix3 (n0 := 16) (n1 := 8) (n2 := 64) ⟨s, hs⟩ r f) := by
  have ht : t < 16 := by have h : t + 1 ≤ 16 := h1 0; omega
  by_cases hst : s = t
  · subst hst
    rw [if_pos rfl]
    have he := slot_emb_IA s hs h1 h2 h3 (ValueIdx.ix2 (n0 := 8) (n1 := 64) r f)
    have hw := View.write_emb_of_mem (v := slotV sIA s h1 h2 h3) (Val := Elt F) prior p
      (Finset.mem_univ (ValueIdx.ix2 (n0 := 8) (n1 := 64) r f))
    rw [he] at hw
    exact hw
  · rw [if_neg hst]
    refine View.write_of_not_mem _ _ _ ?_
    intro hmem
    obtain ⟨x, _, hx⟩ := Finset.mem_map.1 hmem
    rw [slot_emb_IA t ht h1 h2 h3 x] at hx
    have := congrArg (fun i : S16x8x64.Idx => (i 0).val) hx
    exact hst this.symm

/-- All sixteen slots of `sIA` written, slot 0 first and slot 15 last, over any prior contents: position `(s, r, f)`
    holds slot `s`'s payload at `(r, f)`. -/
theorem nest16_apply_IA
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sIA 0 h1_0 h2_0 h3_0).ty.Contents (Elt F)) (p0 p1 p2 p3 p4 p5 p6 p7 p8 p9 p10 p11 p12 p13 p14 p15 : S8x64.Idx → Elt F .f32)
    (s : Fin 16) (r : Fin 8) (f : Fin 64) :
    (View.write (Elt F) (slotV sIA 15 h1_15 h2_15 h3_15) (View.write (Elt F) (slotV sIA 14 h1_14 h2_14 h3_14) (View.write (Elt F) (slotV sIA 13 h1_13 h2_13 h3_13) (View.write (Elt F) (slotV sIA 12 h1_12 h2_12 h3_12) (View.write (Elt F) (slotV sIA 11 h1_11 h2_11 h3_11) (View.write (Elt F) (slotV sIA 10 h1_10 h2_10 h3_10) (View.write (Elt F) (slotV sIA 9 h1_9 h2_9 h3_9) (View.write (Elt F) (slotV sIA 8 h1_8 h2_8 h3_8) (View.write (Elt F) (slotV sIA 7 h1_7 h2_7 h3_7) (View.write (Elt F) (slotV sIA 6 h1_6 h2_6 h3_6) (View.write (Elt F) (slotV sIA 5 h1_5 h2_5 h3_5) (View.write (Elt F) (slotV sIA 4 h1_4 h2_4 h3_4) (View.write (Elt F) (slotV sIA 3 h1_3 h2_3 h3_3) (View.write (Elt F) (slotV sIA 2 h1_2 h2_2 h3_2) (View.write (Elt F) (slotV sIA 1 h1_1 h2_1 h3_1) (View.write (Elt F) (slotV sIA 0 h1_0 h2_0 h3_0) prior p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)
        (ValueIdx.ix3 (n0 := 16) (n1 := 8) (n2 := 64) s r f)
      = (![p0, p1, p2, p3, p4, p5, p6, p7, p8, p9, p10, p11, p12, p13, p14, p15] : Fin 16 → S8x64.Idx → Elt F .f32) s (ValueIdx.ix2 (n0 := 8) (n1 := 64) r f) := by
  obtain ⟨s, hs⟩ := s
  rw [slot_write_apply_IA 15 s hs,
    slot_write_apply_IA 14 s hs,
    slot_write_apply_IA 13 s hs,
    slot_write_apply_IA 12 s hs,
    slot_write_apply_IA 11 s hs,
    slot_write_apply_IA 10 s hs,
    slot_write_apply_IA 9 s hs,
    slot_write_apply_IA 8 s hs,
    slot_write_apply_IA 7 s hs,
    slot_write_apply_IA 6 s hs,
    slot_write_apply_IA 5 s hs,
    slot_write_apply_IA 4 s hs,
    slot_write_apply_IA 3 s hs,
    slot_write_apply_IA 2 s hs,
    slot_write_apply_IA 1 s hs,
    slot_write_apply_IA 0 s hs]
  interval_cases s <;> rfl

/-- The same with the payloads given as one function of the slot. -/
theorem nest16_apply_fn_IA
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sIA 0 h1_0 h2_0 h3_0).ty.Contents (Elt F)) (P : Fin 16 → S8x64.Idx → Elt F .f32)
    (s : Fin 16) (r : Fin 8) (f : Fin 64) :
    (View.write (Elt F) (slotV sIA 15 h1_15 h2_15 h3_15) (View.write (Elt F) (slotV sIA 14 h1_14 h2_14 h3_14) (View.write (Elt F) (slotV sIA 13 h1_13 h2_13 h3_13) (View.write (Elt F) (slotV sIA 12 h1_12 h2_12 h3_12) (View.write (Elt F) (slotV sIA 11 h1_11 h2_11 h3_11) (View.write (Elt F) (slotV sIA 10 h1_10 h2_10 h3_10) (View.write (Elt F) (slotV sIA 9 h1_9 h2_9 h3_9) (View.write (Elt F) (slotV sIA 8 h1_8 h2_8 h3_8) (View.write (Elt F) (slotV sIA 7 h1_7 h2_7 h3_7) (View.write (Elt F) (slotV sIA 6 h1_6 h2_6 h3_6) (View.write (Elt F) (slotV sIA 5 h1_5 h2_5 h3_5) (View.write (Elt F) (slotV sIA 4 h1_4 h2_4 h3_4) (View.write (Elt F) (slotV sIA 3 h1_3 h2_3 h3_3) (View.write (Elt F) (slotV sIA 2 h1_2 h2_2 h3_2) (View.write (Elt F) (slotV sIA 1 h1_1 h2_1 h3_1) (View.write (Elt F) (slotV sIA 0 h1_0 h2_0 h3_0) prior (P 0) Finset.univ) (P 1) Finset.univ) (P 2) Finset.univ) (P 3) Finset.univ) (P 4) Finset.univ) (P 5) Finset.univ) (P 6) Finset.univ) (P 7) Finset.univ) (P 8) Finset.univ) (P 9) Finset.univ) (P 10) Finset.univ) (P 11) Finset.univ) (P 12) Finset.univ) (P 13) Finset.univ) (P 14) Finset.univ) (P 15) Finset.univ)
        (ValueIdx.ix3 (n0 := 16) (n1 := 8) (n2 := 64) s r f)
      = P s (ValueIdx.ix2 (n0 := 8) (n1 := 64) r f) := by
  rw [nest16_apply_IA]
  fin_cases s <;> rfl

/-! ## Buffer `sUB` -/

/-- Where slot `t` of `sUB` sits: its `(r, f)` is the buffer's `(t, r, f)`. -/
theorem slot_emb_UB (t : ℕ) (ht : t < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64) (x : S8x64.Idx) :
    (slotV sUB t h1 h2 h3).emb x = ValueIdx.ix3 (n0 := 16) (n1 := 8) (n2 := 64) ⟨t, ht⟩ (x 0) (x 1) := by
  have hr : Shape.reshapeEquiv h3.numel_eq x = ValueIdx.ix3 (n0 := 1) (n1 := 8) (n2 := 64) ⟨0, Nat.one_pos⟩ (x 0) (x 1) :=
    Shape.reshapeEquiv_eq_of_rowMajor _ (by
      rw [Shape.rowMajor_val_two, Shape.rowMajor_val_three]
      show ((0 * 8 + (x 0).val) * 64 + (x 1).val) = (x 0).val * 64 + (x 1).val
      omega)
  show (Rect.unit (s := S16x8x64) ![t, 0, 0] S1x8x64.size h1).emb (Shape.reshapeEquiv h3.numel_eq x) = _
  rw [hr]
  funext a
  apply Fin.ext
  rw [Rect.emb_apply]
  match a with
  | ⟨0, _⟩ => show t + 1 * 0 = t; omega
  | ⟨1, _⟩ => show 0 + 1 * (x 0).val = (x 0).val; omega
  | ⟨2, _⟩ => show 0 + 1 * (x 1).val = (x 1).val; omega

/-- One slot of `sUB` written over prior contents, read at `(s, r, f)`: the payload in slot `t`, the prior contents
    elsewhere. -/
theorem slot_write_apply_UB (t s : ℕ) (hs : s < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64)
    (prior : (slotV sUB t h1 h2 h3).ty.Contents (Elt F)) (p : S8x64.Idx → Elt F .f32) (r : Fin 8) (f : Fin 64) :
    View.write (Elt F) (slotV sUB t h1 h2 h3) prior p Finset.univ (ValueIdx.ix3 (n0 := 16) (n1 := 8) (n2 := 64) ⟨s, hs⟩ r f)
      = if s = t then p (ValueIdx.ix2 (n0 := 8) (n1 := 64) r f)
        else prior (ValueIdx.ix3 (n0 := 16) (n1 := 8) (n2 := 64) ⟨s, hs⟩ r f) := by
  have ht : t < 16 := by have h : t + 1 ≤ 16 := h1 0; omega
  by_cases hst : s = t
  · subst hst
    rw [if_pos rfl]
    have he := slot_emb_UB s hs h1 h2 h3 (ValueIdx.ix2 (n0 := 8) (n1 := 64) r f)
    have hw := View.write_emb_of_mem (v := slotV sUB s h1 h2 h3) (Val := Elt F) prior p
      (Finset.mem_univ (ValueIdx.ix2 (n0 := 8) (n1 := 64) r f))
    rw [he] at hw
    exact hw
  · rw [if_neg hst]
    refine View.write_of_not_mem _ _ _ ?_
    intro hmem
    obtain ⟨x, _, hx⟩ := Finset.mem_map.1 hmem
    rw [slot_emb_UB t ht h1 h2 h3 x] at hx
    have := congrArg (fun i : S16x8x64.Idx => (i 0).val) hx
    exact hst this.symm

/-- All sixteen slots of `sUB` written, slot 0 first and slot 15 last, over any prior contents: position `(s, r, f)`
    holds slot `s`'s payload at `(r, f)`. -/
theorem nest16_apply_UB
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sUB 0 h1_0 h2_0 h3_0).ty.Contents (Elt F)) (p0 p1 p2 p3 p4 p5 p6 p7 p8 p9 p10 p11 p12 p13 p14 p15 : S8x64.Idx → Elt F .f32)
    (s : Fin 16) (r : Fin 8) (f : Fin 64) :
    (View.write (Elt F) (slotV sUB 15 h1_15 h2_15 h3_15) (View.write (Elt F) (slotV sUB 14 h1_14 h2_14 h3_14) (View.write (Elt F) (slotV sUB 13 h1_13 h2_13 h3_13) (View.write (Elt F) (slotV sUB 12 h1_12 h2_12 h3_12) (View.write (Elt F) (slotV sUB 11 h1_11 h2_11 h3_11) (View.write (Elt F) (slotV sUB 10 h1_10 h2_10 h3_10) (View.write (Elt F) (slotV sUB 9 h1_9 h2_9 h3_9) (View.write (Elt F) (slotV sUB 8 h1_8 h2_8 h3_8) (View.write (Elt F) (slotV sUB 7 h1_7 h2_7 h3_7) (View.write (Elt F) (slotV sUB 6 h1_6 h2_6 h3_6) (View.write (Elt F) (slotV sUB 5 h1_5 h2_5 h3_5) (View.write (Elt F) (slotV sUB 4 h1_4 h2_4 h3_4) (View.write (Elt F) (slotV sUB 3 h1_3 h2_3 h3_3) (View.write (Elt F) (slotV sUB 2 h1_2 h2_2 h3_2) (View.write (Elt F) (slotV sUB 1 h1_1 h2_1 h3_1) (View.write (Elt F) (slotV sUB 0 h1_0 h2_0 h3_0) prior p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)
        (ValueIdx.ix3 (n0 := 16) (n1 := 8) (n2 := 64) s r f)
      = (![p0, p1, p2, p3, p4, p5, p6, p7, p8, p9, p10, p11, p12, p13, p14, p15] : Fin 16 → S8x64.Idx → Elt F .f32) s (ValueIdx.ix2 (n0 := 8) (n1 := 64) r f) := by
  obtain ⟨s, hs⟩ := s
  rw [slot_write_apply_UB 15 s hs,
    slot_write_apply_UB 14 s hs,
    slot_write_apply_UB 13 s hs,
    slot_write_apply_UB 12 s hs,
    slot_write_apply_UB 11 s hs,
    slot_write_apply_UB 10 s hs,
    slot_write_apply_UB 9 s hs,
    slot_write_apply_UB 8 s hs,
    slot_write_apply_UB 7 s hs,
    slot_write_apply_UB 6 s hs,
    slot_write_apply_UB 5 s hs,
    slot_write_apply_UB 4 s hs,
    slot_write_apply_UB 3 s hs,
    slot_write_apply_UB 2 s hs,
    slot_write_apply_UB 1 s hs,
    slot_write_apply_UB 0 s hs]
  interval_cases s <;> rfl

/-- The same with the payloads given as one function of the slot. -/
theorem nest16_apply_fn_UB
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sUB 0 h1_0 h2_0 h3_0).ty.Contents (Elt F)) (P : Fin 16 → S8x64.Idx → Elt F .f32)
    (s : Fin 16) (r : Fin 8) (f : Fin 64) :
    (View.write (Elt F) (slotV sUB 15 h1_15 h2_15 h3_15) (View.write (Elt F) (slotV sUB 14 h1_14 h2_14 h3_14) (View.write (Elt F) (slotV sUB 13 h1_13 h2_13 h3_13) (View.write (Elt F) (slotV sUB 12 h1_12 h2_12 h3_12) (View.write (Elt F) (slotV sUB 11 h1_11 h2_11 h3_11) (View.write (Elt F) (slotV sUB 10 h1_10 h2_10 h3_10) (View.write (Elt F) (slotV sUB 9 h1_9 h2_9 h3_9) (View.write (Elt F) (slotV sUB 8 h1_8 h2_8 h3_8) (View.write (Elt F) (slotV sUB 7 h1_7 h2_7 h3_7) (View.write (Elt F) (slotV sUB 6 h1_6 h2_6 h3_6) (View.write (Elt F) (slotV sUB 5 h1_5 h2_5 h3_5) (View.write (Elt F) (slotV sUB 4 h1_4 h2_4 h3_4) (View.write (Elt F) (slotV sUB 3 h1_3 h2_3 h3_3) (View.write (Elt F) (slotV sUB 2 h1_2 h2_2 h3_2) (View.write (Elt F) (slotV sUB 1 h1_1 h2_1 h3_1) (View.write (Elt F) (slotV sUB 0 h1_0 h2_0 h3_0) prior (P 0) Finset.univ) (P 1) Finset.univ) (P 2) Finset.univ) (P 3) Finset.univ) (P 4) Finset.univ) (P 5) Finset.univ) (P 6) Finset.univ) (P 7) Finset.univ) (P 8) Finset.univ) (P 9) Finset.univ) (P 10) Finset.univ) (P 11) Finset.univ) (P 12) Finset.univ) (P 13) Finset.univ) (P 14) Finset.univ) (P 15) Finset.univ)
        (ValueIdx.ix3 (n0 := 16) (n1 := 8) (n2 := 64) s r f)
      = P s (ValueIdx.ix2 (n0 := 8) (n1 := 64) r f) := by
  rw [nest16_apply_UB]
  fin_cases s <;> rfl

/-! ## Buffer `sIB` -/

/-- Where slot `t` of `sIB` sits: its `(r, f)` is the buffer's `(t, r, f)`. -/
theorem slot_emb_IB (t : ℕ) (ht : t < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64) (x : S8x64.Idx) :
    (slotV sIB t h1 h2 h3).emb x = ValueIdx.ix3 (n0 := 16) (n1 := 8) (n2 := 64) ⟨t, ht⟩ (x 0) (x 1) := by
  have hr : Shape.reshapeEquiv h3.numel_eq x = ValueIdx.ix3 (n0 := 1) (n1 := 8) (n2 := 64) ⟨0, Nat.one_pos⟩ (x 0) (x 1) :=
    Shape.reshapeEquiv_eq_of_rowMajor _ (by
      rw [Shape.rowMajor_val_two, Shape.rowMajor_val_three]
      show ((0 * 8 + (x 0).val) * 64 + (x 1).val) = (x 0).val * 64 + (x 1).val
      omega)
  show (Rect.unit (s := S16x8x64) ![t, 0, 0] S1x8x64.size h1).emb (Shape.reshapeEquiv h3.numel_eq x) = _
  rw [hr]
  funext a
  apply Fin.ext
  rw [Rect.emb_apply]
  match a with
  | ⟨0, _⟩ => show t + 1 * 0 = t; omega
  | ⟨1, _⟩ => show 0 + 1 * (x 0).val = (x 0).val; omega
  | ⟨2, _⟩ => show 0 + 1 * (x 1).val = (x 1).val; omega

/-- One slot of `sIB` written over prior contents, read at `(s, r, f)`: the payload in slot `t`, the prior contents
    elsewhere. -/
theorem slot_write_apply_IB (t s : ℕ) (hs : s < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64)
    (prior : (slotV sIB t h1 h2 h3).ty.Contents (Elt F)) (p : S8x64.Idx → Elt F .f32) (r : Fin 8) (f : Fin 64) :
    View.write (Elt F) (slotV sIB t h1 h2 h3) prior p Finset.univ (ValueIdx.ix3 (n0 := 16) (n1 := 8) (n2 := 64) ⟨s, hs⟩ r f)
      = if s = t then p (ValueIdx.ix2 (n0 := 8) (n1 := 64) r f)
        else prior (ValueIdx.ix3 (n0 := 16) (n1 := 8) (n2 := 64) ⟨s, hs⟩ r f) := by
  have ht : t < 16 := by have h : t + 1 ≤ 16 := h1 0; omega
  by_cases hst : s = t
  · subst hst
    rw [if_pos rfl]
    have he := slot_emb_IB s hs h1 h2 h3 (ValueIdx.ix2 (n0 := 8) (n1 := 64) r f)
    have hw := View.write_emb_of_mem (v := slotV sIB s h1 h2 h3) (Val := Elt F) prior p
      (Finset.mem_univ (ValueIdx.ix2 (n0 := 8) (n1 := 64) r f))
    rw [he] at hw
    exact hw
  · rw [if_neg hst]
    refine View.write_of_not_mem _ _ _ ?_
    intro hmem
    obtain ⟨x, _, hx⟩ := Finset.mem_map.1 hmem
    rw [slot_emb_IB t ht h1 h2 h3 x] at hx
    have := congrArg (fun i : S16x8x64.Idx => (i 0).val) hx
    exact hst this.symm

/-- All sixteen slots of `sIB` written, slot 0 first and slot 15 last, over any prior contents: position `(s, r, f)`
    holds slot `s`'s payload at `(r, f)`. -/
theorem nest16_apply_IB
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sIB 0 h1_0 h2_0 h3_0).ty.Contents (Elt F)) (p0 p1 p2 p3 p4 p5 p6 p7 p8 p9 p10 p11 p12 p13 p14 p15 : S8x64.Idx → Elt F .f32)
    (s : Fin 16) (r : Fin 8) (f : Fin 64) :
    (View.write (Elt F) (slotV sIB 15 h1_15 h2_15 h3_15) (View.write (Elt F) (slotV sIB 14 h1_14 h2_14 h3_14) (View.write (Elt F) (slotV sIB 13 h1_13 h2_13 h3_13) (View.write (Elt F) (slotV sIB 12 h1_12 h2_12 h3_12) (View.write (Elt F) (slotV sIB 11 h1_11 h2_11 h3_11) (View.write (Elt F) (slotV sIB 10 h1_10 h2_10 h3_10) (View.write (Elt F) (slotV sIB 9 h1_9 h2_9 h3_9) (View.write (Elt F) (slotV sIB 8 h1_8 h2_8 h3_8) (View.write (Elt F) (slotV sIB 7 h1_7 h2_7 h3_7) (View.write (Elt F) (slotV sIB 6 h1_6 h2_6 h3_6) (View.write (Elt F) (slotV sIB 5 h1_5 h2_5 h3_5) (View.write (Elt F) (slotV sIB 4 h1_4 h2_4 h3_4) (View.write (Elt F) (slotV sIB 3 h1_3 h2_3 h3_3) (View.write (Elt F) (slotV sIB 2 h1_2 h2_2 h3_2) (View.write (Elt F) (slotV sIB 1 h1_1 h2_1 h3_1) (View.write (Elt F) (slotV sIB 0 h1_0 h2_0 h3_0) prior p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)
        (ValueIdx.ix3 (n0 := 16) (n1 := 8) (n2 := 64) s r f)
      = (![p0, p1, p2, p3, p4, p5, p6, p7, p8, p9, p10, p11, p12, p13, p14, p15] : Fin 16 → S8x64.Idx → Elt F .f32) s (ValueIdx.ix2 (n0 := 8) (n1 := 64) r f) := by
  obtain ⟨s, hs⟩ := s
  rw [slot_write_apply_IB 15 s hs,
    slot_write_apply_IB 14 s hs,
    slot_write_apply_IB 13 s hs,
    slot_write_apply_IB 12 s hs,
    slot_write_apply_IB 11 s hs,
    slot_write_apply_IB 10 s hs,
    slot_write_apply_IB 9 s hs,
    slot_write_apply_IB 8 s hs,
    slot_write_apply_IB 7 s hs,
    slot_write_apply_IB 6 s hs,
    slot_write_apply_IB 5 s hs,
    slot_write_apply_IB 4 s hs,
    slot_write_apply_IB 3 s hs,
    slot_write_apply_IB 2 s hs,
    slot_write_apply_IB 1 s hs,
    slot_write_apply_IB 0 s hs]
  interval_cases s <;> rfl

/-- The same with the payloads given as one function of the slot. -/
theorem nest16_apply_fn_IB
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sIB 0 h1_0 h2_0 h3_0).ty.Contents (Elt F)) (P : Fin 16 → S8x64.Idx → Elt F .f32)
    (s : Fin 16) (r : Fin 8) (f : Fin 64) :
    (View.write (Elt F) (slotV sIB 15 h1_15 h2_15 h3_15) (View.write (Elt F) (slotV sIB 14 h1_14 h2_14 h3_14) (View.write (Elt F) (slotV sIB 13 h1_13 h2_13 h3_13) (View.write (Elt F) (slotV sIB 12 h1_12 h2_12 h3_12) (View.write (Elt F) (slotV sIB 11 h1_11 h2_11 h3_11) (View.write (Elt F) (slotV sIB 10 h1_10 h2_10 h3_10) (View.write (Elt F) (slotV sIB 9 h1_9 h2_9 h3_9) (View.write (Elt F) (slotV sIB 8 h1_8 h2_8 h3_8) (View.write (Elt F) (slotV sIB 7 h1_7 h2_7 h3_7) (View.write (Elt F) (slotV sIB 6 h1_6 h2_6 h3_6) (View.write (Elt F) (slotV sIB 5 h1_5 h2_5 h3_5) (View.write (Elt F) (slotV sIB 4 h1_4 h2_4 h3_4) (View.write (Elt F) (slotV sIB 3 h1_3 h2_3 h3_3) (View.write (Elt F) (slotV sIB 2 h1_2 h2_2 h3_2) (View.write (Elt F) (slotV sIB 1 h1_1 h2_1 h3_1) (View.write (Elt F) (slotV sIB 0 h1_0 h2_0 h3_0) prior (P 0) Finset.univ) (P 1) Finset.univ) (P 2) Finset.univ) (P 3) Finset.univ) (P 4) Finset.univ) (P 5) Finset.univ) (P 6) Finset.univ) (P 7) Finset.univ) (P 8) Finset.univ) (P 9) Finset.univ) (P 10) Finset.univ) (P 11) Finset.univ) (P 12) Finset.univ) (P 13) Finset.univ) (P 14) Finset.univ) (P 15) Finset.univ)
        (ValueIdx.ix3 (n0 := 16) (n1 := 8) (n2 := 64) s r f)
      = P s (ValueIdx.ix2 (n0 := 8) (n1 := 64) r f) := by
  rw [nest16_apply_IB]
  fin_cases s <;> rfl

end Cert.Proof.KernelIdeal

end
-- ==== Proof.KI.Rows.lean ====
/-
  The blocked tables, one block at a time, and the words and indices that address them.

  A table row `v` lies in block `v >>> 3` of the blocked table `[125000, 8, 64]`, at row `v &&& 7` of that block.  The
  program copies one whole block `[8, 64]` per index: `rowV base b` is that block as a memref (the unit slice at
  `(b, 0, 0)` with its leading unit axis dropped), and what a copy of it lands reads, at `(r, f)`, the table at
  `(b, r, f)`.  The gather out of the staged blocks reads, at lane `l`, the element its three index vectors name there.
-/
import proofs.«203884_g41704132444582_cont_8to1_b_1290_16_alg».proof.Proof.KI.Setup
import Idealize.ShloMosaic.Lib.ValueIdx
import Idealize.ShloMosaic.Lib.ValueLayout

noncomputable section

namespace Cert.Proof.KernelIdeal

open Cert.KernelIdeal Cert.KernelIdeal.Gen

open Idealize.ShloMosaic
open Idealize.ShloMosaic.SparseCore (S V T)

variable {F : FTy → Type}

/-! ## One block of a blocked table -/

/-- Block `b` of a blocked table, as the program slices and squeezes it: an `[8, 64]` memref. -/
abbrev rowV (base : Memref sig .scVector .hbm S125000x8x64 .f32) (b : ℕ)
    (h1 : ∀ a, (![b, 0, 0] : Fin 3 → ℕ) a + S1x8x64.size a ≤ S125000x8x64.size a)
    (h2 : ∀ a, (Rect.unit (s := S125000x8x64) ![b, 0, 0] S1x8x64.size h1).stride a = 1) :
    Memref sig .scVector .hbm S8x64 .f32 :=
  ((base.slice (Rect.unit (s := S125000x8x64) ![b, 0, 0] S1x8x64.size h1) h2).squeeze S8x64 squeezes_S1x8x64_S8x64)

/-- Where element `(r, f)` of block `b` sits in the table: at `(b, r, f)`. -/
theorem rowV_emb (base : Memref sig .scVector .hbm S125000x8x64 .f32) (b : ℕ) (hb : b < 125000)
    (h1 : ∀ a, (![b, 0, 0] : Fin 3 → ℕ) a + S1x8x64.size a ≤ S125000x8x64.size a)
    (h2 : ∀ a, (Rect.unit (s := S125000x8x64) ![b, 0, 0] S1x8x64.size h1).stride a = 1) (r : Fin 8) (f : Fin 64) :
    (rowV base b h1 h2).view.emb (ValueIdx.ix2 (n0 := 8) (n1 := 64) r f)
      = base.view.emb (ValueIdx.ix3 (n0 := 125000) (n1 := 8) (n2 := 64) ⟨b, hb⟩ r f) := by
  have e : Shape.reshapeEquiv (s := S1x8x64) (s' := S8x64) squeezes_S1x8x64_S8x64.numel_eq (ValueIdx.ix2 (n0 := 8) (n1 := 64) r f)
      = ValueIdx.ix3 (n0 := 1) (n1 := 8) (n2 := 64) ⟨0, Nat.one_pos⟩ r f := ValueIdx.reshapeEquiv_ix2_1ab _ r f
  show base.view.emb ((Rect.unit (s := S125000x8x64) ![b, 0, 0] S1x8x64.size h1).emb
      (Shape.reshapeEquiv (s := S1x8x64) (s' := S8x64) squeezes_S1x8x64_S8x64.numel_eq (ValueIdx.ix2 (n0 := 8) (n1 := 64) r f))) = _
  rw [e]
  refine congrArg base.view.emb ?_
  funext a
  match a with
  | ⟨0, _⟩ => exact Fin.ext (show b + 1 * 0 = b by omega)
  | ⟨1, _⟩ => exact Fin.ext (show 0 + 1 * r.val = r.val by omega)
  | ⟨2, _⟩ => exact Fin.ext (show 0 + 1 * f.val = f.val by omega)

/-- WHAT A COPY OF BLOCK `b` OF THE FIRST TABLE LANDS, AT `(r, f)`: the table's contents at `(b, r, f)`. -/
theorem row_read_apply (d : Dev nD) (b : ℕ) (hb : b < 125000)
    (h1 : ∀ a, (![b, 0, 0] : Fin 3 → ℕ) a + S1x8x64.size a ≤ S125000x8x64.size a)
    (h2 : ∀ a, (Rect.unit (s := S125000x8x64) ![b, 0, 0] S1x8x64.size h1).stride a = 1)
    (Wc : Buf (Elt F) (uwLoc d)) (r : Fin 8) (f : Fin 64) :
    (ReadAs.same.apply ((rowV uwV b h1 h2).view.read (Elt F) Wc)) (ValueIdx.ix2 (n0 := 8) (n1 := 64) r f)
      = Wc (ValueIdx.ix3 (n0 := 125000) (n1 := 8) (n2 := 64) ⟨b, hb⟩ r f) := by
  refine (View.read_apply _ _).trans ((cast_eq _ _).trans ?_)
  rw [rowV_emb uwV b hb h1 h2 r f]
  rfl

/-- The same for the second table. -/
theorem row_read_apply' (d : Dev nD) (b : ℕ) (hb : b < 125000)
    (h1 : ∀ a, (![b, 0, 0] : Fin 3 → ℕ) a + S1x8x64.size a ≤ S125000x8x64.size a)
    (h2 : ∀ a, (Rect.unit (s := S125000x8x64) ![b, 0, 0] S1x8x64.size h1).stride a = 1)
    (Wc : Buf (Elt F) (iwLoc d)) (r : Fin 8) (f : Fin 64) :
    (ReadAs.same.apply ((rowV iwV b h1 h2).view.read (Elt F) Wc)) (ValueIdx.ix2 (n0 := 8) (n1 := 64) r f)
      = Wc (ValueIdx.ix3 (n0 := 125000) (n1 := 8) (n2 := 64) ⟨b, hb⟩ r f) := by
  refine (View.read_apply _ _).trans ((cast_eq _ _).trans ?_)
  rw [rowV_emb iwV b hb h1 h2 r f]
  rfl

/-! ## Words: a row number's block and its row in the block -/

/-- The block number is the row number divided by 8 … -/
theorem shr3_toNat (v : BitVec 32) : (v >>> 3).toNat = v.toNat / 8 := by
  rw [BitVec.toNat_ushiftRight, Nat.shiftRight_eq_div_pow]

/-- … and the row in the block its remainder. -/
theorem and7_toNat (v : BitVec 32) : (v &&& 7#32).toNat = v.toNat % 8 := by
  rw [BitVec.toNat_and]
  exact Nat.and_two_pow_sub_one_eq_mod v.toNat 3

/-- A row number's block is one of the 125000. -/
theorem shr3_lt {v : BitVec 32} (h : v.toNat < 1000000) : (v >>> 3).toNat < 125000 := by
  rw [shr3_toNat]; omega

theorem shr3_mod {v : BitVec 32} (h : v.toNat < 1000000) : (v >>> 3).toNat % 125000 = (v >>> 3).toNat :=
  Nat.mod_eq_of_lt (shr3_lt h)

/-- A row in a block is one of the 8 (for every word). -/
theorem and7_lt (v : BitVec 32) : (v &&& 7#32).toNat < 8 := by
  rw [and7_toNat]; omega

theorem and7_mod (v : BitVec 32) : (v &&& 7#32).toNat % 8 = (v &&& 7#32).toNat :=
  Nat.mod_eq_of_lt (and7_lt v)

/-- The vector unit's logical shift right by 3 is the word's. -/
theorem shrui_3 (v : BitVec 32) : IntOp.shrui .vector v 3#32 = v >>> 3 := by
  unfold IntOp.shrui
  rw [if_pos (by decide), BitVec.ushiftRight_eq']
  rfl

/-- The bitwise and with 7 is the word's. -/
theorem andi_7 (v : BitVec 32) : IntOp.andi v 7#32 = v &&& 7#32 := rfl

/-! ## The gather out of the staged blocks -/

/-- THE GATHER READ AT LANE `l`: the staged contents at the index the three index vectors name there. -/
theorem loadIdx_apply (Cc : S16x8x64.Idx → Elt F .f32) (g r fv : IVec S16 32)
    (h : ∀ a x, ((![g, r, fv] : Fin 3 → IVec S16 32) a x).toNat < S16x8x64.size a) (l : S16.Idx) :
    loadIdx (F := F) (e := .f32) Cc ![g, r, fv] h l
      = Cc (ValueIdx.ix3 (n0 := 16) (n1 := 8) (n2 := 64) ⟨(g l).toNat, h 0 l⟩ ⟨(r l).toNat, h 1 l⟩ ⟨(fv l).toNat, h 2 l⟩) := by
  unfold loadIdx
  congr 1
  funext a
  match a with
  | ⟨0, _⟩ => rfl
  | ⟨1, _⟩ => rfl
  | ⟨2, _⟩ => rfl

/-- The lane numbers: the iota over the one axis, plus the zero splat, is lane `l`'s own number. -/
theorem laneIdx_toNat (hio : S16.Iotas .scVector 32 [0]) (l : S16.Idx) :
    ((addi (iota .scVector S16 32 [0] hio) (broadcast S16 0#32) : IVec S16 32) l).toNat = (l 0).val := by
  have hl : (l 0).val < 16 := (l 0).isLt
  show (BitVec.ofNat 32 (0 * 16 + (l 0).val) + 0#32).toNat = (l 0).val
  rw [BitVec.add_zero, BitVec.toNat_ofNat]
  omega

end Cert.Proof.KernelIdeal

end
-- ==== Proof.KI.BodyDefs.lean ====
import proofs.«203884_g41704132444582_cont_8to1_b_1290_16_alg».proof.Proof.KI.OutPiece
import proofs.«203884_g41704132444582_cont_8to1_b_1290_16_alg».proof.Proof.KI.Slots
import proofs.«203884_g41704132444582_cont_8to1_b_1290_16_alg».proof.Proof.KI.Rows

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

section Pts
variable (d : Dev nD) (L : grid0.Coords)
omit [FloatOps F] in
theorem pts_u (q : PosShare TreeShare) (f : Buf (Elt F) (uLoc d)) :
    (((uV : Memref sig .scVector .hbm S16384 .i32).view.loc (thrV d L) ↦{q} f : sProp 𝕄)) = (uLoc d ↦{q} f) := by
  simp only [Memref.view_whole, View.set_whole]
omit [FloatOps F] in
theorem pts_i (q : PosShare TreeShare) (f : Buf (Elt F) (iLoc d)) :
    (((iV : Memref sig .scVector .hbm S16384 .i32).view.loc (thrV d L) ↦{q} f : sProp 𝕄)) = (iLoc d ↦{q} f) := by
  simp only [Memref.view_whole, View.set_whole]
omit [FloatOps F] in
theorem pts_uw (q : PosShare TreeShare) (f : Buf (Elt F) (uwLoc d)) :
    (((uwV : Memref sig .scVector .hbm S125000x8x64 .f32).view.loc (thrV d L) ↦{q} f : sProp 𝕄)) = (uwLoc d ↦{q} f) := by
  simp only [Memref.view_whole, View.set_whole]
omit [FloatOps F] in
theorem pts_iw (q : PosShare TreeShare) (f : Buf (Elt F) (iwLoc d)) :
    (((iwV : Memref sig .scVector .hbm S125000x8x64 .f32).view.loc (thrV d L) ↦{q} f : sProp 𝕄)) = (iwLoc d ↦{q} f) := by
  simp only [Memref.view_whole, View.set_whole]
omit [FloatOps F] in
theorem pts_s0 (f : Buf (Elt F) ((thrV d L).loc cc0_scratch0)) :
    (((sU : Memref sig .scVector .vmem S512 .i32).view.loc (thrV d L) ↦{fullShare} f : sProp 𝕄)) = ((thrV d L).loc cc0_scratch0 ↦{fullShare} f) := rfl
omit [FloatOps F] in
theorem pts_s1 (f : Buf (Elt F) ((thrV d L).loc cc0_scratch1)) :
    (((sI : Memref sig .scVector .vmem S512 .i32).view.loc (thrV d L) ↦{fullShare} f : sProp 𝕄)) = ((thrV d L).loc cc0_scratch1 ↦{fullShare} f) := rfl
omit [FloatOps F] in
theorem pts_s2 (f : Buf (Elt F) ((thrV d L).loc cc0_scratch2)) :
    (((sUA : Memref sig .scVector .vmem S16x8x64 .f32).view.loc (thrV d L) ↦{fullShare} f : sProp 𝕄)) = ((thrV d L).loc cc0_scratch2 ↦{fullShare} f) := rfl
omit [FloatOps F] in
theorem pts_s3 (f : Buf (Elt F) ((thrV d L).loc cc0_scratch3)) :
    (((sIA : Memref sig .scVector .vmem S16x8x64 .f32).view.loc (thrV d L) ↦{fullShare} f : sProp 𝕄)) = ((thrV d L).loc cc0_scratch3 ↦{fullShare} f) := rfl
omit [FloatOps F] in
theorem pts_s4 (f : Buf (Elt F) ((thrV d L).loc cc0_scratch4)) :
    (((sUB : Memref sig .scVector .vmem S16x8x64 .f32).view.loc (thrV d L) ↦{fullShare} f : sProp 𝕄)) = ((thrV d L).loc cc0_scratch4 ↦{fullShare} f) := rfl
omit [FloatOps F] in
theorem pts_s5 (f : Buf (Elt F) ((thrV d L).loc cc0_scratch5)) :
    (((sIB : Memref sig .scVector .vmem S16x8x64 .f32).view.loc (thrV d L) ↦{fullShare} f : sProp 𝕄)) = ((thrV d L).loc cc0_scratch5 ↦{fullShare} f) := rfl
omit [FloatOps F] in
theorem pts_s6 (f : Buf (Elt F) ((thrV d L).loc cc0_scratch6)) :
    (((sO : Memref sig .scVector .vmem S512 .f32).view.loc (thrV d L) ↦{fullShare} f : sProp 𝕄)) = ((thrV d L).loc cc0_scratch6 ↦{fullShare} f) := rfl
omit [FloatOps F] in
theorem pts_o (f : Buf (Elt F) (oLoc d)) :
    (((oSlice L).view.loc (thrV d L) ↦[(oSlice L).view.set]{fullShare} f : sProp 𝕄)) = (oLoc d ↦[tileSet L]{fullShare} f) := rfl
end Pts

/-! ## Words: the block and row of a table row, and the gather's indices -/

omit [FloatOps F] in
/-- A block number below 125000 names a whole `[1, 8, 64]` block of the blocked table. -/
theorem blk_lane (w : IVec S16 32) (o : ℕ) (hs : S16.Slices ![o] S1) (hp : ∀ a, (![0] : Fin 1 → ℕ) a < S1.size a)
    (hw : ∀ j, (w j).toNat < 125000) :
    ∀ a, (![(extractAt ![0] (extractStridedSlice S1 ![o] w hs) hp).toNat, 0, 0] : Fin 3 → ℕ) a + S1x8x64.size a ≤ S125000x8x64.size a := by
  have h : (extractAt ![0] (extractStridedSlice S1 ![o] w hs) hp).toNat < 125000 := hw _
  intro a
  match a with
  | ⟨0, _⟩ => exact (show (extractAt ![0] (extractStridedSlice S1 ![o] w hs) hp).toNat + 1 ≤ 125000 from by omega)
  | ⟨1, _⟩ => exact (show 0 + 8 ≤ 8 from by decide)
  | ⟨2, _⟩ => exact (show 0 + 64 ≤ 64 from by decide)

omit [FloatOps F] in
/-- A row number below 1000000 shifted right by three is a block number below 125000. -/
theorem shr3v_lt (x : IVec S16 32) (hx : ∀ j, (x j).toNat < 1000000) : ∀ j, ((shrui x (broadcast S16 3#32)) j).toNat < 125000 := by
  intro j
  have h := hx j
  show (IntOp.shrui .vector (x j) 3#32).toNat < 125000
  unfold IntOp.shrui
  rw [if_pos (by decide)]
  rw [BitVec.ushiftRight_eq', BitVec.toNat_ushiftRight]
  simp only [BitVec.toNat_ofNat, Nat.shiftRight_eq_div_pow]
  have e8 : (2 : ℕ) ^ (3 % 2 ^ 32) = 8 := by norm_num
  rw [e8]
  omega

omit [FloatOps F] in
/-- The same for a block number given as a word. -/
theorem blk_any (v : BitVec 32) (h : v.toNat < 125000) :
    ∀ a, (![v.toNat, 0, 0] : Fin 3 → ℕ) a + S1x8x64.size a ≤ S125000x8x64.size a := by
  intro a
  match a with
  | ⟨0, _⟩ => exact (show v.toNat + 1 ≤ 125000 from by omega)
  | ⟨1, _⟩ => exact (show 0 + 8 ≤ 8 from by decide)
  | ⟨2, _⟩ => exact (show 0 + 64 ≤ 64 from by decide)

/-! ## Read shares: one per transfer in flight -/

/-- The `k`-th read share split off `q`. -/
def rs (q : PosShare TreeShare) (k : ℕ) : PosShare TreeShare := Transfers.shareTokN q k

omit [FloatOps F] in
theorem bigSep_range_succ (Φ : ℕ → sProp 𝕄) (n : ℕ) :
    BI.bigSep (Finset.range (n + 1)) Φ = iprop(Φ n ∗ BI.bigSep (Finset.range n) Φ) := by
  rw [Finset.range_add_one, BI.bigSep_insert Finset.notMem_range_self]; rfl

omit [FloatOps F] in
/-- A points-to at share `q` yields `n` points-tos at the read shares `rs q 0 … rs q (n-1)` (what is left over is dropped). -/
theorem split_toks {ℓ : Loc nD τ sig} {S : Finset (Idx ℓ)} {f : Buf (Elt F) ℓ} (q : PosShare TreeShare) (n : ℕ) :
    (ℓ ↦[S]{q} f : sProp 𝕄) ⊢ BI.bigSep (Finset.range n) (fun k => ℓ ↦[S]{rs q k} f) :=
  (Transfers.pointsTo_toks_range q n).1.trans sep_elim_right

omit [FloatOps F] in
/-- Thirty-two read shares of one points-to. -/
theorem split32 {ℓ : Loc nD τ sig} {S : Finset (Idx ℓ)} {f : Buf (Elt F) ℓ} (q : PosShare TreeShare) :
    (ℓ ↦[S]{q} f : sProp 𝕄) ⊢ iprop((ℓ ↦[S]{rs q 31} f) ∗ (ℓ ↦[S]{rs q 30} f) ∗ (ℓ ↦[S]{rs q 29} f) ∗ (ℓ ↦[S]{rs q 28} f) ∗ (ℓ ↦[S]{rs q 27} f) ∗ (ℓ ↦[S]{rs q 26} f) ∗ (ℓ ↦[S]{rs q 25} f) ∗ (ℓ ↦[S]{rs q 24} f) ∗ (ℓ ↦[S]{rs q 23} f) ∗ (ℓ ↦[S]{rs q 22} f) ∗ (ℓ ↦[S]{rs q 21} f) ∗ (ℓ ↦[S]{rs q 20} f) ∗ (ℓ ↦[S]{rs q 19} f) ∗ (ℓ ↦[S]{rs q 18} f) ∗ (ℓ ↦[S]{rs q 17} f) ∗ (ℓ ↦[S]{rs q 16} f) ∗ (ℓ ↦[S]{rs q 15} f) ∗ (ℓ ↦[S]{rs q 14} f) ∗ (ℓ ↦[S]{rs q 13} f) ∗ (ℓ ↦[S]{rs q 12} f) ∗ (ℓ ↦[S]{rs q 11} f) ∗ (ℓ ↦[S]{rs q 10} f) ∗ (ℓ ↦[S]{rs q 9} f) ∗ (ℓ ↦[S]{rs q 8} f) ∗ (ℓ ↦[S]{rs q 7} f) ∗ (ℓ ↦[S]{rs q 6} f) ∗ (ℓ ↦[S]{rs q 5} f) ∗ (ℓ ↦[S]{rs q 4} f) ∗ (ℓ ↦[S]{rs q 3} f) ∗ (ℓ ↦[S]{rs q 2} f) ∗ (ℓ ↦[S]{rs q 1} f) ∗ (ℓ ↦[S]{rs q 0} f) ∗ emp) := by
  refine (split_toks (F := F) q 32).trans ?_
  simp only [bigSep_range_succ, Finset.range_zero, BI.bigSep_empty]
  iintro H; iexact H

/-! ## What the loop carries -/

/-- The tile's 512 user indices and item indices, as its first two copies leave them in the index scratches. -/
def CU (d : Dev nD) (L : grid0.Coords) : S512.Idx → BitVec 32 := fun j => m (uLoc d) ((uSlice L).view.emb j)
def CI (d : Dev nD) (L : grid0.Coords) : S512.Idx → BitVec 32 := fun j => m (iLoc d) ((iSlice L).view.emb j)

/-- Position `16 c + s` of the tile's 512 (chunk `c`, lane `s`). -/
def pos (c : ℕ) (s : Fin 16) : S512.Idx := ValueIdx.ix1 (n := 512) ⟨(16 * c + s.val) % 512, Nat.mod_lt _ (by decide)⟩

/-- What a drained block buffer holds for chunk `c`: slot `s` is the table block that position's index names. -/
def LandedU (d : Dev nD) (L : grid0.Coords) (c : ℕ) (C : Buf (Elt F) ((thrV d L).loc cc0_scratch2)) : Prop :=
  ∀ (s : Fin 16) (r : Fin 8) (f : Fin 64),
    C (ValueIdx.ix3 (n0 := 16) (n1 := 8) (n2 := 64) s r f)
      = W0 m d (ValueIdx.ix3 (n0 := 125000) (n1 := 8) (n2 := 64) ⟨((CU m d L (pos c s)) >>> 3).toNat % 125000, Nat.mod_lt _ (by decide)⟩ r f)
def LandedI (d : Dev nD) (L : grid0.Coords) (c : ℕ) (C : Buf (Elt F) ((thrV d L).loc cc0_scratch3)) : Prop :=
  ∀ (s : Fin 16) (r : Fin 8) (f : Fin 64),
    C (ValueIdx.ix3 (n0 := 16) (n1 := 8) (n2 := 64) s r f)
      = W1 m d (ValueIdx.ix3 (n0 := 125000) (n1 := 8) (n2 := 64) ⟨((CI m d L (pos c s)) >>> 3).toNat % 125000, Nat.mod_lt _ (by decide)⟩ r f)

/-- The first `32 k` positions of the output scratch hold their specified values. -/
def OutOK (d : Dev nD) (L : grid0.Coords) (k : ℕ) (fo : Buf (Elt F) ((thrV d L).loc cc0_scratch6)) : Prop :=
  ∀ p : S512.Idx, (p 0).val < 32 * k → fo p = Gout m d ((oSlice L).view.emb p)

/-- Sixteen read shares of one blocked table. -/
def freeU (d : Dev nD) (L : grid0.Coords) : sProp 𝕄 :=
  iprop(∃ a0 a1 a2 a3 a4 a5 a6 a7 a8 a9 a10 a11 a12 a13 a14 a15 : PosShare TreeShare, (uwV.view.loc (thrV d L) ↦{a0} W0 m d) ∗ (uwV.view.loc (thrV d L) ↦{a1} W0 m d) ∗ (uwV.view.loc (thrV d L) ↦{a2} W0 m d) ∗ (uwV.view.loc (thrV d L) ↦{a3} W0 m d) ∗ (uwV.view.loc (thrV d L) ↦{a4} W0 m d) ∗ (uwV.view.loc (thrV d L) ↦{a5} W0 m d) ∗ (uwV.view.loc (thrV d L) ↦{a6} W0 m d) ∗ (uwV.view.loc (thrV d L) ↦{a7} W0 m d) ∗ (uwV.view.loc (thrV d L) ↦{a8} W0 m d) ∗ (uwV.view.loc (thrV d L) ↦{a9} W0 m d) ∗ (uwV.view.loc (thrV d L) ↦{a10} W0 m d) ∗ (uwV.view.loc (thrV d L) ↦{a11} W0 m d) ∗ (uwV.view.loc (thrV d L) ↦{a12} W0 m d) ∗ (uwV.view.loc (thrV d L) ↦{a13} W0 m d) ∗ (uwV.view.loc (thrV d L) ↦{a14} W0 m d) ∗ (uwV.view.loc (thrV d L) ↦{a15} W0 m d))

/-- What draining one block buffer's pending row copies gives: from `X` (whatever the tile holds of them), the wait
    continues with the buffer whole at the blocks of chunk `c`, its semaphore at zero, and sixteen read shares of
    the table back. -/
def DrainU (d : Dev nD) (L : grid0.Coords) (O : CellTallies nD τ sig (HIx 1)) (c : ℕ) (X : sProp 𝕄) : Prop :=
  ∀ (α : Type) (kont : PUnit → Prog (TpuEff nD τ sig (Elt F) Λ₀ (.scVector (cV L) (jV L))) α) (Q : α → sProp 𝕄) (W : Waits sig (HIx 1)),
    iprop(X ∗ Transfers.MayWaits (thrV d L) (none : HIx 1) O ∗ owes (thrV d L) O W)
      ⊢ iprop((iprop((∃ C, (sUA.view.loc (thrV d L) ↦{fullShare} C) ∗ ⌜LandedU m d L c C⌝)
                ∗ semVal (thrV d L, SemLoc.dma cc0_scratch7.sem) 0
                ∗ freeU m d L
                ∗ Transfers.MayWaits (thrV d L) (none : HIx 1) O
                ∗ ∃ W', owes (thrV d L) O W' ∗ ⌜∀ p ∈ W', p ∈ W ∨ p.2 = none⌝)
              -∗ wp frame (wpE (defs₀ (F := F)) 𝒱₀ (thrV d L) none) Set.univ (kont ⟨⟩) Q)
          -∗ wp frame (wpE (defs₀ (F := F)) 𝒱₀ (thrV d L) none) Set.univ
              (Prog.op (TpuEff.waitDma2 cc0_scratch7.sem ((uwV : Memref sig .scVector .hbm S125000x8x64 .f32).slice (Rect.unit (s := S125000x8x64) ![0, 0, 0] S16x8x64.size inb_S125000x8x64_S16x8x64_0_0_0) (fun _ => rfl)) (sUA : Memref sig .scVector .vmem S16x8x64 .f32) (View.wordExact_bits rfl) (Memref.isWhole_whole _).wordExact) kont) Q)

/-- Sixteen read shares of one blocked table. -/
def freeI (d : Dev nD) (L : grid0.Coords) : sProp 𝕄 :=
  iprop(∃ a0 a1 a2 a3 a4 a5 a6 a7 a8 a9 a10 a11 a12 a13 a14 a15 : PosShare TreeShare, (iwV.view.loc (thrV d L) ↦{a0} W1 m d) ∗ (iwV.view.loc (thrV d L) ↦{a1} W1 m d) ∗ (iwV.view.loc (thrV d L) ↦{a2} W1 m d) ∗ (iwV.view.loc (thrV d L) ↦{a3} W1 m d) ∗ (iwV.view.loc (thrV d L) ↦{a4} W1 m d) ∗ (iwV.view.loc (thrV d L) ↦{a5} W1 m d) ∗ (iwV.view.loc (thrV d L) ↦{a6} W1 m d) ∗ (iwV.view.loc (thrV d L) ↦{a7} W1 m d) ∗ (iwV.view.loc (thrV d L) ↦{a8} W1 m d) ∗ (iwV.view.loc (thrV d L) ↦{a9} W1 m d) ∗ (iwV.view.loc (thrV d L) ↦{a10} W1 m d) ∗ (iwV.view.loc (thrV d L) ↦{a11} W1 m d) ∗ (iwV.view.loc (thrV d L) ↦{a12} W1 m d) ∗ (iwV.view.loc (thrV d L) ↦{a13} W1 m d) ∗ (iwV.view.loc (thrV d L) ↦{a14} W1 m d) ∗ (iwV.view.loc (thrV d L) ↦{a15} W1 m d))

/-- What draining one block buffer's pending row copies gives: from `X` (whatever the tile holds of them), the wait
    continues with the buffer whole at the blocks of chunk `c`, its semaphore at zero, and sixteen read shares of
    the table back. -/
def DrainI (d : Dev nD) (L : grid0.Coords) (O : CellTallies nD τ sig (HIx 1)) (c : ℕ) (X : sProp 𝕄) : Prop :=
  ∀ (α : Type) (kont : PUnit → Prog (TpuEff nD τ sig (Elt F) Λ₀ (.scVector (cV L) (jV L))) α) (Q : α → sProp 𝕄) (W : Waits sig (HIx 1)),
    iprop(X ∗ Transfers.MayWaits (thrV d L) (none : HIx 1) O ∗ owes (thrV d L) O W)
      ⊢ iprop((iprop((∃ C, (sIA.view.loc (thrV d L) ↦{fullShare} C) ∗ ⌜LandedI m d L c C⌝)
                ∗ semVal (thrV d L, SemLoc.dma cc0_scratch8.sem) 0
                ∗ freeI m d L
                ∗ Transfers.MayWaits (thrV d L) (none : HIx 1) O
                ∗ ∃ W', owes (thrV d L) O W' ∗ ⌜∀ p ∈ W', p ∈ W ∨ p.2 = none⌝)
              -∗ wp frame (wpE (defs₀ (F := F)) 𝒱₀ (thrV d L) none) Set.univ (kont ⟨⟩) Q)
          -∗ wp frame (wpE (defs₀ (F := F)) 𝒱₀ (thrV d L) none) Set.univ
              (Prog.op (TpuEff.waitDma2 cc0_scratch8.sem ((iwV : Memref sig .scVector .hbm S125000x8x64 .f32).slice (Rect.unit (s := S125000x8x64) ![0, 0, 0] S16x8x64.size inb_S125000x8x64_S16x8x64_0_0_0) (fun _ => rfl)) (sIA : Memref sig .scVector .vmem S16x8x64 .f32) (View.wordExact_bits rfl) (Memref.isWhole_whole _).wordExact) kont) Q)
/-- The first buffer pair at rest. -/
def idleA (d : Dev nD) (L : grid0.Coords) : sProp 𝕄 :=
  iprop((∃ f2, sUA.view.loc (thrV d L) ↦{fullShare} f2) ∗ (∃ f3, sIA.view.loc (thrV d L) ↦{fullShare} f3)
    ∗ semVal (thrV d L, SemLoc.dma cc0_scratch7.sem) 0 ∗ semVal (thrV d L, SemLoc.dma cc0_scratch8.sem) 0)

/-- The loop's invariant before trip `k`. -/
def inv (d : Dev nD) (L : grid0.Coords) (q : PosShare TreeShare) (O : CellTallies nD τ sig (HIx 1)) (W : Waits sig (HIx 1)) (k : ℕ) (_ : PUnit) : sProp 𝕄 :=
  iprop(Transfers.MayWaits (thrV d L) (none : HIx 1) O
    ∗ (uV.view.loc (thrV d L) ↦{q} m (uLoc d)) ∗ (iV.view.loc (thrV d L) ↦{q} m (iLoc d))
    ∗ ((oSlice L).view.loc (thrV d L) ↦[(oSlice L).view.set]{fullShare} m (oLoc d))
    ∗ (sU.view.loc (thrV d L) ↦{fullShare} CU m d L) ∗ (sI.view.loc (thrV d L) ↦{fullShare} CI m d L)
    ∗ (∃ f4, sUB.view.loc (thrV d L) ↦{fullShare} f4) ∗ (∃ f5, sIB.view.loc (thrV d L) ↦{fullShare} f5)
    ∗ (∃ fo, (sO.view.loc (thrV d L) ↦{fullShare} fo) ∗ ⌜OutOK m d L k fo⌝)
    ∗ semVal (thrV d L, SemLoc.dma cc0_scratch9.sem) 0 ∗ semVal (thrV d L, SemLoc.dma cc0_scratch10.sem) 0
    ∗ semVal (thrV d L, SemLoc.dma cc0_scoped0.sem) 0 ∗ semVal (thrV d L, SemLoc.dma cc0_scoped1.sem) 0
    ∗ semVal (thrV d L, SemLoc.dma cc0_scoped2.sem) 0
    ∗ freeU m d L ∗ freeI m d L
    ∗ (∃ W', owes (thrV d L) O W' ∗ ⌜∀ p ∈ W', p ∈ W ∨ p.2 = none⌝)
    ∗ (∃ XU : sProp 𝕄, XU ∗ ⌜k < 16 → DrainU m d L O (2 * k) XU⌝
          ∗ ⌜k = 16 → (XU ⊢ iprop((∃ f2, sUA.view.loc (thrV d L) ↦{fullShare} f2) ∗ semVal (thrV d L, SemLoc.dma cc0_scratch7.sem) 0))⌝)
    ∗ (∃ XI : sProp 𝕄, XI ∗ ⌜k < 16 → DrainI m d L O (2 * k) XI⌝
          ∗ ⌜k = 16 → (XI ⊢ iprop((∃ f3, sIA.view.loc (thrV d L) ↦{fullShare} f3) ∗ semVal (thrV d L, SemLoc.dma cc0_scratch8.sem) 0))⌝))

/-! ## In the loop: the index scratches read at a chunk, the gather's indices, and the gather as a load -/

omit [FloatOps F] in
theorem rdCU (hpre : PreOK m) (d : Dev nD) (L : grid0.Coords) (off : Fin 1 → ℕ) (inb : ∀ a, off a + S16.size a ≤ S512.size a) (j : S16.Idx) :
    (((sU : Memref sig .scVector .vmem S512 .i32).view.readAt (Elt F) (Rect.unit (s := S512) off S16.size inb).toLoadRect (CU m d L)) j).toNat < 1000000 := by
  simp only [View.readAt_apply, Memref.view_whole, View.read_whole]; exact (hpre d _).1
omit [FloatOps F] in
theorem rdCI (hpre : PreOK m) (d : Dev nD) (L : grid0.Coords) (off : Fin 1 → ℕ) (inb : ∀ a, off a + S16.size a ≤ S512.size a) (j : S16.Idx) :
    (((sI : Memref sig .scVector .vmem S512 .i32).view.readAt (Elt F) (Rect.unit (s := S512) off S16.size inb).toLoadRect (CI m d L)) j).toNat < 1000000 := by
  simp only [View.readAt_apply, Memref.view_whole, View.read_whole]; exact (hpre d _).2

omit [FloatOps F] in
theorem gs_lt (h : S16.Iotas .scVector 32 [0]) (x : S16.Idx) : ((addi (iota .scVector S16 32 [0] h) (broadcast S16 0#32)) x).toNat < 16 := by
  have hx : (x 0).val < 16 := (x 0).isLt
  show (IntOp.addi (BitVec.ofNat 32 (0 * S16.size 0 + (x 0).val)) 0#32).toNat < 16
  unfold IntOp.addi
  simp only [BitVec.add_zero, BitVec.toNat_ofNat, Nat.zero_mul, Nat.zero_add]
  omega
omit [FloatOps F] in
theorem and7v_lt (v : IVec S16 32) (x : S16.Idx) : ((andi v (broadcast S16 7#32)) x).toNat < 8 := by
  show (IntOp.andi (v x) 7#32).toNat < 8
  unfold IntOp.andi; rw [BitVec.toNat_and]
  exact lt_of_le_of_lt Nat.and_le_right (by decide)
omit [FloatOps F] in
theorem gidx_ok (g r fv : IVec S16 32) (hg : ∀ x, (g x).toNat < 16) (hr : ∀ x, (r x).toNat < 8) (hf : ∀ x, (fv x).toNat < 64) :
    ∀ a x, ((![g, r, fv] : Fin 3 → IVec S16 32) a x).toNat < S16x8x64.size a := by
  intro a x
  match a with
  | ⟨0, _⟩ => exact hg x
  | ⟨1, _⟩ => exact hr x
  | ⟨2, _⟩ => exact hf x

/-- The indexed load is a load of the whole scratch followed by the gather of what it read. -/
theorem vli_bind {Λ : Labels} {p : Proc τ} {s t : Shape} {e : EltTy} {α : Type} (base : Memref sig p.kind .vmem s e) (idxs : Fin s.rank → IVec t 32)
    (h : ∀ a x, (idxs a x).toNat < s.size a) (hl : base.view.Loads) (k : Vec F t e → Prog (TpuEff nD τ sig (Elt F) Λ p) α) :
    SparseCore.vectorLoadIdx base idxs h hl >>= k = Prog.op (TpuEff.load base (.whole s) (View.loadsAt_whole hl)) fun f => k (loadIdx f idxs h) := rfl

end Cert.Proof.KernelIdeal

end
-- ==== Proof.KI.Acc.lean ====
import proofs.«203884_g41704132444582_cont_8to1_b_1290_16_alg».proof.Proof.KI.BodyDefs

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-- The kernel's feature-by-feature accumulation over gathered vectors, as a recursion on the number of features done. -/
def accL (Cu Ci : S16x8x64.Idx → Elt F .f32) (g ur ir : IVec S16 32)
    (H : ∀ n, n < 64 → (∀ a x, ((![g, ur, broadcast S16 (BitVec.ofNat 32 n)] : Fin 3 → IVec S16 32) a x).toNat < S16x8x64.size a)
                     ∧ (∀ a x, ((![g, ir, broadcast S16 (BitVec.ofNat 32 n)] : Fin 3 → IVec S16 32) a x).toNat < S16x8x64.size a)) :
    (n : ℕ) → n ≤ 64 → FVec F S16 .f32
  | 0, _ => broadcast S16 (Scalar.ofBits .f32 0x00000000#32)
  | n + 1, hn => addf (accL Cu Ci g ur ir H n (Nat.le_of_succ_le hn))
      (mulf (loadIdx Cu ![g, ur, broadcast S16 (BitVec.ofNat 32 n)] (H n hn).1) (loadIdx Ci ![g, ir, broadcast S16 (BitVec.ofNat 32 n)] (H n hn).2))

omit [FloatOps F] in
theorem feat_lt (n : ℕ) (hn : n < 64) (x : S16.Idx) : ((broadcast S16 (BitVec.ofNat 32 n) : IVec S16 32) x).toNat < 64 := by
  show (BitVec.ofNat 32 n).toNat < 64
  rw [BitVec.toNat_ofNat]; omega

end Cert.Proof.KernelIdeal

end
-- ==== Proof.KI.Landed.lean ====
/-
  What the index scratch gives for one lane, and what a block buffer holds once its sixteen copies have landed.

  A chunk is sixteen consecutive words of an index scratch; the program shifts the chunk right by 3 and extracts lane `j`:
  the block number `idx >>> 3` of the index at position `o + j`.  A block buffer is written slot by slot, slot `s` with
  block `b s` of a table as the copy reads it; afterwards position `(s, r, f)` of the buffer holds the table at
  `(b s, r, f)`, whatever the buffer held before.
-/
import proofs.«203884_g41704132444582_cont_8to1_b_1290_16_alg».proof.Proof.KI.Slots
import proofs.«203884_g41704132444582_cont_8to1_b_1290_16_alg».proof.Proof.KI.Rows

noncomputable section

namespace Cert.Proof.KernelIdeal

open Cert.KernelIdeal Cert.KernelIdeal.Gen
open Idealize.ShloMosaic

variable {F : FTy → Type}

/-! ## One lane of a chunk of an index scratch -/

/-- Lane `j` of the chunk at offset `o` is inside the scratch. -/
theorem lane_lt_off {off : Fin 1 → ℕ} {o j : ℕ} (ho : off 0 = o) (inb : ∀ a, off a + S16.size a ≤ S512.size a) (hj : j < 16) :
    o + j < 512 := by
  have h : off 0 + 16 ≤ 512 := inb 0
  omega

theorem lane_lt {o j : ℕ} (inb : ∀ a, (![o] : Fin 1 → ℕ) a + S16.size a ≤ S512.size a) (hj : j < 16) : o + j < 512 :=
  lane_lt_off (off := ![o]) rfl inb hj

/-- THE BLOCK NUMBER OF LANE `j` OF A CHUNK of `sU`: the chunk of sixteen words at offset `o`, shifted right by 3, sliced at lane
    `j` and extracted, is the scratch's word at `o + j` shifted right by 3. The offsets as any function with `off 0 = o`. -/
theorem lane_val_U_off (Cc : S512.Idx → BitVec 32) (off : Fin 1 → ℕ) (o : ℕ) (ho : off 0 = o)
    (inb : ∀ a, off a + S16.size a ≤ S512.size a) (j : ℕ) (hj : j < 16) (hs : S16.Slices ![j] S1)
    (hp : ∀ a, (![0] : Fin 1 → ℕ) a < S1.size a) :
    extractAt ![0] (extractStridedSlice (s := S16) S1 ![j] (shrui (s := S16) (((sU : Memref sig .scVector .vmem S512 .i32).view.readAt (Elt F)
        (Rect.unit (s := S512) off S16.size inb).toLoadRect Cc : IVec S16 32)) (broadcast S16 3#32)) hs) hp
      = (Cc (ValueIdx.ix1 (n := 512) ⟨o + j, lane_lt_off ho inb hj⟩)) >>> 3 := by
  subst ho
  refine (shrui_3 _).trans (congrArg (fun i => Cc i >>> 3) ?_)
  funext a
  obtain rfl : a = (0 : Fin 1) := Subsingleton.elim (α := Fin 1) a 0
  exact Fin.ext (show off 0 + 1 * (j + 0) = off 0 + j by omega)

/-- The same with the offsets spelled `![o]`. -/
theorem lane_val_U (Cc : S512.Idx → BitVec 32) (o : ℕ) (inb : ∀ a, (![o] : Fin 1 → ℕ) a + S16.size a ≤ S512.size a)
    (j : ℕ) (hj : j < 16) (hs : S16.Slices ![j] S1) (hp : ∀ a, (![0] : Fin 1 → ℕ) a < S1.size a) :
    extractAt ![0] (extractStridedSlice (s := S16) S1 ![j] (shrui (s := S16) (((sU : Memref sig .scVector .vmem S512 .i32).view.readAt (Elt F)
        (Rect.unit (s := S512) ![o] S16.size inb).toLoadRect Cc : IVec S16 32)) (broadcast S16 3#32)) hs) hp
      = (Cc (ValueIdx.ix1 (n := 512) ⟨o + j, lane_lt inb hj⟩)) >>> 3 :=
  lane_val_U_off (F := F) Cc ![o] o rfl inb j hj hs hp

/-- THE BLOCK NUMBER OF LANE `j` OF A CHUNK of `sI`: the chunk of sixteen words at offset `o`, shifted right by 3, sliced at lane
    `j` and extracted, is the scratch's word at `o + j` shifted right by 3. The offsets as any function with `off 0 = o`. -/
theorem lane_val_I_off (Cc : S512.Idx → BitVec 32) (off : Fin 1 → ℕ) (o : ℕ) (ho : off 0 = o)
    (inb : ∀ a, off a + S16.size a ≤ S512.size a) (j : ℕ) (hj : j < 16) (hs : S16.Slices ![j] S1)
    (hp : ∀ a, (![0] : Fin 1 → ℕ) a < S1.size a) :
    extractAt ![0] (extractStridedSlice (s := S16) S1 ![j] (shrui (s := S16) (((sI : Memref sig .scVector .vmem S512 .i32).view.readAt (Elt F)
        (Rect.unit (s := S512) off S16.size inb).toLoadRect Cc : IVec S16 32)) (broadcast S16 3#32)) hs) hp
      = (Cc (ValueIdx.ix1 (n := 512) ⟨o + j, lane_lt_off ho inb hj⟩)) >>> 3 := by
  subst ho
  refine (shrui_3 _).trans (congrArg (fun i => Cc i >>> 3) ?_)
  funext a
  obtain rfl : a = (0 : Fin 1) := Subsingleton.elim (α := Fin 1) a 0
  exact Fin.ext (show off 0 + 1 * (j + 0) = off 0 + j by omega)

/-- The same with the offsets spelled `![o]`. -/
theorem lane_val_I (Cc : S512.Idx → BitVec 32) (o : ℕ) (inb : ∀ a, (![o] : Fin 1 → ℕ) a + S16.size a ≤ S512.size a)
    (j : ℕ) (hj : j < 16) (hs : S16.Slices ![j] S1) (hp : ∀ a, (![0] : Fin 1 → ℕ) a < S1.size a) :
    extractAt ![0] (extractStridedSlice (s := S16) S1 ![j] (shrui (s := S16) (((sI : Memref sig .scVector .vmem S512 .i32).view.readAt (Elt F)
        (Rect.unit (s := S512) ![o] S16.size inb).toLoadRect Cc : IVec S16 32)) (broadcast S16 3#32)) hs) hp
      = (Cc (ValueIdx.ix1 (n := 512) ⟨o + j, lane_lt inb hj⟩)) >>> 3 :=
  lane_val_I_off (F := F) Cc ![o] o rfl inb j hj hs hp

/-! ## A block buffer after its sixteen copies -/

/-- `sUA` AFTER ITS SIXTEEN COPIES: slot `s` was written with block `b s` of the first table as the copy reads it, so position
    `(s, r, f)` holds the table at `(b s, r, f)`, whatever the buffer held before. -/
theorem landed_of_nest_UA (d : Dev nD) (b : Fin 16 → ℕ) (hb : ∀ s, b s < 125000) (Wc : Buf (Elt F) (uwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![b 0, 0, 0] : Fin 3 → ℕ) a + S1x8x64.size a ≤ S125000x8x64.size a) (g2_0 : ∀ a, (Rect.unit (s := S125000x8x64) ![b 0, 0, 0] S1x8x64.size g1_0).stride a = 1)
    (g1_1 : ∀ a, (![b 1, 0, 0] : Fin 3 → ℕ) a + S1x8x64.size a ≤ S125000x8x64.size a) (g2_1 : ∀ a, (Rect.unit (s := S125000x8x64) ![b 1, 0, 0] S1x8x64.size g1_1).stride a = 1)
    (g1_2 : ∀ a, (![b 2, 0, 0] : Fin 3 → ℕ) a + S1x8x64.size a ≤ S125000x8x64.size a) (g2_2 : ∀ a, (Rect.unit (s := S125000x8x64) ![b 2, 0, 0] S1x8x64.size g1_2).stride a = 1)
    (g1_3 : ∀ a, (![b 3, 0, 0] : Fin 3 → ℕ) a + S1x8x64.size a ≤ S125000x8x64.size a) (g2_3 : ∀ a, (Rect.unit (s := S125000x8x64) ![b 3, 0, 0] S1x8x64.size g1_3).stride a = 1)
    (g1_4 : ∀ a, (![b 4, 0, 0] : Fin 3 → ℕ) a + S1x8x64.size a ≤ S125000x8x64.size a) (g2_4 : ∀ a, (Rect.unit (s := S125000x8x64) ![b 4, 0, 0] S1x8x64.size g1_4).stride a = 1)
    (g1_5 : ∀ a, (![b 5, 0, 0] : Fin 3 → ℕ) a + S1x8x64.size a ≤ S125000x8x64.size a) (g2_5 : ∀ a, (Rect.unit (s := S125000x8x64) ![b 5, 0, 0] S1x8x64.size g1_5).stride a = 1)
    (g1_6 : ∀ a, (![b 6, 0, 0] : Fin 3 → ℕ) a + S1x8x64.size a ≤ S125000x8x64.size a) (g2_6 : ∀ a, (Rect.unit (s := S125000x8x64) ![b 6, 0, 0] S1x8x64.size g1_6).stride a = 1)
    (g1_7 : ∀ a, (![b 7, 0, 0] : Fin 3 → ℕ) a + S1x8x64.size a ≤ S125000x8x64.size a) (g2_7 : ∀ a, (Rect.unit (s := S125000x8x64) ![b 7, 0, 0] S1x8x64.size g1_7).stride a = 1)
    (g1_8 : ∀ a, (![b 8, 0, 0] : Fin 3 → ℕ) a + S1x8x64.size a ≤ S125000x8x64.size a) (g2_8 : ∀ a, (Rect.unit (s := S125000x8x64) ![b 8, 0, 0] S1x8x64.size g1_8).stride a = 1)
    (g1_9 : ∀ a, (![b 9, 0, 0] : Fin 3 → ℕ) a + S1x8x64.size a ≤ S125000x8x64.size a) (g2_9 : ∀ a, (Rect.unit (s := S125000x8x64) ![b 9, 0, 0] S1x8x64.size g1_9).stride a = 1)
    (g1_10 : ∀ a, (![b 10, 0, 0] : Fin 3 → ℕ) a + S1x8x64.size a ≤ S125000x8x64.size a) (g2_10 : ∀ a, (Rect.unit (s := S125000x8x64) ![b 10, 0, 0] S1x8x64.size g1_10).stride a = 1)
    (g1_11 : ∀ a, (![b 11, 0, 0] : Fin 3 → ℕ) a + S1x8x64.size a ≤ S125000x8x64.size a) (g2_11 : ∀ a, (Rect.unit (s := S125000x8x64) ![b 11, 0, 0] S1x8x64.size g1_11).stride a = 1)
    (g1_12 : ∀ a, (![b 12, 0, 0] : Fin 3 → ℕ) a + S1x8x64.size a ≤ S125000x8x64.size a) (g2_12 : ∀ a, (Rect.unit (s := S125000x8x64) ![b 12, 0, 0] S1x8x64.size g1_12).stride a = 1)
    (g1_13 : ∀ a, (![b 13, 0, 0] : Fin 3 → ℕ) a + S1x8x64.size a ≤ S125000x8x64.size a) (g2_13 : ∀ a, (Rect.unit (s := S125000x8x64) ![b 13, 0, 0] S1x8x64.size g1_13).stride a = 1)
    (g1_14 : ∀ a, (![b 14, 0, 0] : Fin 3 → ℕ) a + S1x8x64.size a ≤ S125000x8x64.size a) (g2_14 : ∀ a, (Rect.unit (s := S125000x8x64) ![b 14, 0, 0] S1x8x64.size g1_14).stride a = 1)
    (g1_15 : ∀ a, (![b 15, 0, 0] : Fin 3 → ℕ) a + S1x8x64.size a ≤ S125000x8x64.size a) (g2_15 : ∀ a, (Rect.unit (s := S125000x8x64) ![b 15, 0, 0] S1x8x64.size g1_15).stride a = 1)
    (prior : (slotV sUA 0 h1_0 h2_0 h3_0).ty.Contents (Elt F)) (s : Fin 16) (r : Fin 8) (f : Fin 64) :
    (View.write (Elt F) (slotV sUA 15 h1_15 h2_15 h3_15) (View.write (Elt F) (slotV sUA 14 h1_14 h2_14 h3_14) (View.write (Elt F) (slotV sUA 13 h1_13 h2_13 h3_13) (View.write (Elt F) (slotV sUA 12 h1_12 h2_12 h3_12) (View.write (Elt F) (slotV sUA 11 h1_11 h2_11 h3_11) (View.write (Elt F) (slotV sUA 10 h1_10 h2_10 h3_10) (View.write (Elt F) (slotV sUA 9 h1_9 h2_9 h3_9) (View.write (Elt F) (slotV sUA 8 h1_8 h2_8 h3_8) (View.write (Elt F) (slotV sUA 7 h1_7 h2_7 h3_7) (View.write (Elt F) (slotV sUA 6 h1_6 h2_6 h3_6) (View.write (Elt F) (slotV sUA 5 h1_5 h2_5 h3_5) (View.write (Elt F) (slotV sUA 4 h1_4 h2_4 h3_4) (View.write (Elt F) (slotV sUA 3 h1_3 h2_3 h3_3) (View.write (Elt F) (slotV sUA 2 h1_2 h2_2 h3_2) (View.write (Elt F) (slotV sUA 1 h1_1 h2_1 h3_1) (View.write (Elt F) (slotV sUA 0 h1_0 h2_0 h3_0) prior (ReadAs.same.apply ((rowV uwV (b 0) g1_0 g2_0).view.read (Elt F) Wc)) Finset.univ) (ReadAs.same.apply ((rowV uwV (b 1) g1_1 g2_1).view.read (Elt F) Wc)) Finset.univ) (ReadAs.same.apply ((rowV uwV (b 2) g1_2 g2_2).view.read (Elt F) Wc)) Finset.univ) (ReadAs.same.apply ((rowV uwV (b 3) g1_3 g2_3).view.read (Elt F) Wc)) Finset.univ) (ReadAs.same.apply ((rowV uwV (b 4) g1_4 g2_4).view.read (Elt F) Wc)) Finset.univ) (ReadAs.same.apply ((rowV uwV (b 5) g1_5 g2_5).view.read (Elt F) Wc)) Finset.univ) (ReadAs.same.apply ((rowV uwV (b 6) g1_6 g2_6).view.read (Elt F) Wc)) Finset.univ) (ReadAs.same.apply ((rowV uwV (b 7) g1_7 g2_7).view.read (Elt F) Wc)) Finset.univ) (ReadAs.same.apply ((rowV uwV (b 8) g1_8 g2_8).view.read (Elt F) Wc)) Finset.univ) (ReadAs.same.apply ((rowV uwV (b 9) g1_9 g2_9).view.read (Elt F) Wc)) Finset.univ) (ReadAs.same.apply ((rowV uwV (b 10) g1_10 g2_10).view.read (Elt F) Wc)) Finset.univ) (ReadAs.same.apply ((rowV uwV (b 11) g1_11 g2_11).view.read (Elt F) Wc)) Finset.univ) (ReadAs.same.apply ((rowV uwV (b 12) g1_12 g2_12).view.read (Elt F) Wc)) Finset.univ) (ReadAs.same.apply ((rowV uwV (b 13) g1_13 g2_13).view.read (Elt F) Wc)) Finset.univ) (ReadAs.same.apply ((rowV uwV (b 14) g1_14 g2_14).view.read (Elt F) Wc)) Finset.univ) (ReadAs.same.apply ((rowV uwV (b 15) g1_15 g2_15).view.read (Elt F) Wc)) Finset.univ)
        (ValueIdx.ix3 (n0 := 16) (n1 := 8) (n2 := 64) s r f)
      = Wc (ValueIdx.ix3 (n0 := 125000) (n1 := 8) (n2 := 64) ⟨b s, hb s⟩ r f) := by
  rw [nest16_apply_UA]
  fin_cases s
  · exact row_read_apply d (b 0) (hb 0) g1_0 g2_0 Wc r f
  · exact row_read_apply d (b 1) (hb 1) g1_1 g2_1 Wc r f
  · exact row_read_apply d (b 2) (hb 2) g1_2 g2_2 Wc r f
  · exact row_read_apply d (b 3) (hb 3) g1_3 g2_3 Wc r f
  · exact row_read_apply d (b 4) (hb 4) g1_4 g2_4 Wc r f
  · exact row_read_apply d (b 5) (hb 5) g1_5 g2_5 Wc r f
  · exact row_read_apply d (b 6) (hb 6) g1_6 g2_6 Wc r f
  · exact row_read_apply d (b 7) (hb 7) g1_7 g2_7 Wc r f
  · exact row_read_apply d (b 8) (hb 8) g1_8 g2_8 Wc r f
  · exact row_read_apply d (b 9) (hb 9) g1_9 g2_9 Wc r f
  · exact row_read_apply d (b 10) (hb 10) g1_10 g2_10 Wc r f
  · exact row_read_apply d (b 11) (hb 11) g1_11 g2_11 Wc r f
  · exact row_read_apply d (b 12) (hb 12) g1_12 g2_12 Wc r f
  · exact row_read_apply d (b 13) (hb 13) g1_13 g2_13 Wc r f
  · exact row_read_apply d (b 14) (hb 14) g1_14 g2_14 Wc r f
  · exact row_read_apply d (b 15) (hb 15) g1_15 g2_15 Wc r f

/-- The same with each block given as a word: slot `s` holds the block `(v s).toNat`. -/
theorem landed_of_nest_UA_word (d : Dev nD) (v : Fin 16 → BitVec 32) (hb : ∀ s, (v s).toNat < 125000) (Wc : Buf (Elt F) (uwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![(v 0).toNat, 0, 0] : Fin 3 → ℕ) a + S1x8x64.size a ≤ S125000x8x64.size a) (g2_0 : ∀ a, (Rect.unit (s := S125000x8x64) ![(v 0).toNat, 0, 0] S1x8x64.size g1_0).stride a = 1)
    (g1_1 : ∀ a, (![(v 1).toNat, 0, 0] : Fin 3 → ℕ) a + S1x8x64.size a ≤ S125000x8x64.size a) (g2_1 : ∀ a, (Rect.unit (s := S125000x8x64) ![(v 1).toNat, 0, 0] S1x8x64.size g1_1).stride a = 1)
    (g1_2 : ∀ a, (![(v 2).toNat, 0, 0] : Fin 3 → ℕ) a + S1x8x64.size a ≤ S125000x8x64.size a) (g2_2 : ∀ a, (Rect.unit (s := S125000x8x64) ![(v 2).toNat, 0, 0] S1x8x64.size g1_2).stride a = 1)
    (g1_3 : ∀ a, (![(v 3).toNat, 0, 0] : Fin 3 → ℕ) a + S1x8x64.size a ≤ S125000x8x64.size a) (g2_3 : ∀ a, (Rect.unit (s := S125000x8x64) ![(v 3).toNat, 0, 0] S1x8x64.size g1_3).stride a = 1)
    (g1_4 : ∀ a, (![(v 4).toNat, 0, 0] : Fin 3 → ℕ) a + S1x8x64.size a ≤ S125000x8x64.size a) (g2_4 : ∀ a, (Rect.unit (s := S125000x8x64) ![(v 4).toNat, 0, 0] S1x8x64.size g1_4).stride a = 1)
    (g1_5 : ∀ a, (![(v 5).toNat, 0, 0] : Fin 3 → ℕ) a + S1x8x64.size a ≤ S125000x8x64.size a) (g2_5 : ∀ a, (Rect.unit (s := S125000x8x64) ![(v 5).toNat, 0, 0] S1x8x64.size g1_5).stride a = 1)
    (g1_6 : ∀ a, (![(v 6).toNat, 0, 0] : Fin 3 → ℕ) a + S1x8x64.size a ≤ S125000x8x64.size a) (g2_6 : ∀ a, (Rect.unit (s := S125000x8x64) ![(v 6).toNat, 0, 0] S1x8x64.size g1_6).stride a = 1)
    (g1_7 : ∀ a, (![(v 7).toNat, 0, 0] : Fin 3 → ℕ) a + S1x8x64.size a ≤ S125000x8x64.size a) (g2_7 : ∀ a, (Rect.unit (s := S125000x8x64) ![(v 7).toNat, 0, 0] S1x8x64.size g1_7).stride a = 1)
    (g1_8 : ∀ a, (![(v 8).toNat, 0, 0] : Fin 3 → ℕ) a + S1x8x64.size a ≤ S125000x8x64.size a) (g2_8 : ∀ a, (Rect.unit (s := S125000x8x64) ![(v 8).toNat, 0, 0] S1x8x64.size g1_8).stride a = 1)
    (g1_9 : ∀ a, (![(v 9).toNat, 0, 0] : Fin 3 → ℕ) a + S1x8x64.size a ≤ S125000x8x64.size a) (g2_9 : ∀ a, (Rect.unit (s := S125000x8x64) ![(v 9).toNat, 0, 0] S1x8x64.size g1_9).stride a = 1)
    (g1_10 : ∀ a, (![(v 10).toNat, 0, 0] : Fin 3 → ℕ) a + S1x8x64.size a ≤ S125000x8x64.size a) (g2_10 : ∀ a, (Rect.unit (s := S125000x8x64) ![(v 10).toNat, 0, 0] S1x8x64.size g1_10).stride a = 1)
    (g1_11 : ∀ a, (![(v 11).toNat, 0, 0] : Fin 3 → ℕ) a + S1x8x64.size a ≤ S125000x8x64.size a) (g2_11 : ∀ a, (Rect.unit (s := S125000x8x64) ![(v 11).toNat, 0, 0] S1x8x64.size g1_11).stride a = 1)
    (g1_12 : ∀ a, (![(v 12).toNat, 0, 0] : Fin 3 → ℕ) a + S1x8x64.size a ≤ S125000x8x64.size a) (g2_12 : ∀ a, (Rect.unit (s := S125000x8x64) ![(v 12).toNat, 0, 0] S1x8x64.size g1_12).stride a = 1)
    (g1_13 : ∀ a, (![(v 13).toNat, 0, 0] : Fin 3 → ℕ) a + S1x8x64.size a ≤ S125000x8x64.size a) (g2_13 : ∀ a, (Rect.unit (s := S125000x8x64) ![(v 13).toNat, 0, 0] S1x8x64.size g1_13).stride a = 1)
    (g1_14 : ∀ a, (![(v 14).toNat, 0, 0] : Fin 3 → ℕ) a + S1x8x64.size a ≤ S125000x8x64.size a) (g2_14 : ∀ a, (Rect.unit (s := S125000x8x64) ![(v 14).toNat, 0, 0] S1x8x64.size g1_14).stride a = 1)
    (g1_15 : ∀ a, (![(v 15).toNat, 0, 0] : Fin 3 → ℕ) a + S1x8x64.size a ≤ S125000x8x64.size a) (g2_15 : ∀ a, (Rect.unit (s := S125000x8x64) ![(v 15).toNat, 0, 0] S1x8x64.size g1_15).stride a = 1)
    (prior : (slotV sUA 0 h1_0 h2_0 h3_0).ty.Contents (Elt F)) (s : Fin 16) (r : Fin 8) (f : Fin 64) :
    (View.write (Elt F) (slotV sUA 15 h1_15 h2_15 h3_15) (View.write (Elt F) (slotV sUA 14 h1_14 h2_14 h3_14) (View.write (Elt F) (slotV sUA 13 h1_13 h2_13 h3_13) (View.write (Elt F) (slotV sUA 12 h1_12 h2_12 h3_12) (View.write (Elt F) (slotV sUA 11 h1_11 h2_11 h3_11) (View.write (Elt F) (slotV sUA 10 h1_10 h2_10 h3_10) (View.write (Elt F) (slotV sUA 9 h1_9 h2_9 h3_9) (View.write (Elt F) (slotV sUA 8 h1_8 h2_8 h3_8) (View.write (Elt F) (slotV sUA 7 h1_7 h2_7 h3_7) (View.write (Elt F) (slotV sUA 6 h1_6 h2_6 h3_6) (View.write (Elt F) (slotV sUA 5 h1_5 h2_5 h3_5) (View.write (Elt F) (slotV sUA 4 h1_4 h2_4 h3_4) (View.write (Elt F) (slotV sUA 3 h1_3 h2_3 h3_3) (View.write (Elt F) (slotV sUA 2 h1_2 h2_2 h3_2) (View.write (Elt F) (slotV sUA 1 h1_1 h2_1 h3_1) (View.write (Elt F) (slotV sUA 0 h1_0 h2_0 h3_0) prior (ReadAs.same.apply ((rowV uwV ((v 0).toNat) g1_0 g2_0).view.read (Elt F) Wc)) Finset.univ) (ReadAs.same.apply ((rowV uwV ((v 1).toNat) g1_1 g2_1).view.read (Elt F) Wc)) Finset.univ) (ReadAs.same.apply ((rowV uwV ((v 2).toNat) g1_2 g2_2).view.read (Elt F) Wc)) Finset.univ) (ReadAs.same.apply ((rowV uwV ((v 3).toNat) g1_3 g2_3).view.read (Elt F) Wc)) Finset.univ) (ReadAs.same.apply ((rowV uwV ((v 4).toNat) g1_4 g2_4).view.read (Elt F) Wc)) Finset.univ) (ReadAs.same.apply ((rowV uwV ((v 5).toNat) g1_5 g2_5).view.read (Elt F) Wc)) Finset.univ) (ReadAs.same.apply ((rowV uwV ((v 6).toNat) g1_6 g2_6).view.read (Elt F) Wc)) Finset.univ) (ReadAs.same.apply ((rowV uwV ((v 7).toNat) g1_7 g2_7).view.read (Elt F) Wc)) Finset.univ) (ReadAs.same.apply ((rowV uwV ((v 8).toNat) g1_8 g2_8).view.read (Elt F) Wc)) Finset.univ) (ReadAs.same.apply ((rowV uwV ((v 9).toNat) g1_9 g2_9).view.read (Elt F) Wc)) Finset.univ) (ReadAs.same.apply ((rowV uwV ((v 10).toNat) g1_10 g2_10).view.read (Elt F) Wc)) Finset.univ) (ReadAs.same.apply ((rowV uwV ((v 11).toNat) g1_11 g2_11).view.read (Elt F) Wc)) Finset.univ) (ReadAs.same.apply ((rowV uwV ((v 12).toNat) g1_12 g2_12).view.read (Elt F) Wc)) Finset.univ) (ReadAs.same.apply ((rowV uwV ((v 13).toNat) g1_13 g2_13).view.read (Elt F) Wc)) Finset.univ) (ReadAs.same.apply ((rowV uwV ((v 14).toNat) g1_14 g2_14).view.read (Elt F) Wc)) Finset.univ) (ReadAs.same.apply ((rowV uwV ((v 15).toNat) g1_15 g2_15).view.read (Elt F) Wc)) Finset.univ)
        (ValueIdx.ix3 (n0 := 16) (n1 := 8) (n2 := 64) s r f)
      = Wc (ValueIdx.ix3 (n0 := 125000) (n1 := 8) (n2 := 64) ⟨(v s).toNat, hb s⟩ r f) := by
  rw [nest16_apply_UA]
  fin_cases s
  · exact row_read_apply d ((v 0).toNat) (hb 0) g1_0 g2_0 Wc r f
  · exact row_read_apply d ((v 1).toNat) (hb 1) g1_1 g2_1 Wc r f
  · exact row_read_apply d ((v 2).toNat) (hb 2) g1_2 g2_2 Wc r f
  · exact row_read_apply d ((v 3).toNat) (hb 3) g1_3 g2_3 Wc r f
  · exact row_read_apply d ((v 4).toNat) (hb 4) g1_4 g2_4 Wc r f
  · exact row_read_apply d ((v 5).toNat) (hb 5) g1_5 g2_5 Wc r f
  · exact row_read_apply d ((v 6).toNat) (hb 6) g1_6 g2_6 Wc r f
  · exact row_read_apply d ((v 7).toNat) (hb 7) g1_7 g2_7 Wc r f
  · exact row_read_apply d ((v 8).toNat) (hb 8) g1_8 g2_8 Wc r f
  · exact row_read_apply d ((v 9).toNat) (hb 9) g1_9 g2_9 Wc r f
  · exact row_read_apply d ((v 10).toNat) (hb 10) g1_10 g2_10 Wc r f
  · exact row_read_apply d ((v 11).toNat) (hb 11) g1_11 g2_11 Wc r f
  · exact row_read_apply d ((v 12).toNat) (hb 12) g1_12 g2_12 Wc r f
  · exact row_read_apply d ((v 13).toNat) (hb 13) g1_13 g2_13 Wc r f
  · exact row_read_apply d ((v 14).toNat) (hb 14) g1_14 g2_14 Wc r f
  · exact row_read_apply d ((v 15).toNat) (hb 15) g1_15 g2_15 Wc r f

/-- `sIA` AFTER ITS SIXTEEN COPIES: slot `s` was written with block `b s` of the second table as the copy reads it, so position
    `(s, r, f)` holds the table at `(b s, r, f)`, whatever the buffer held before. -/
theorem landed_of_nest_IA (d : Dev nD) (b : Fin 16 → ℕ) (hb : ∀ s, b s < 125000) (Wc : Buf (Elt F) (iwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![b 0, 0, 0] : Fin 3 → ℕ) a + S1x8x64.size a ≤ S125000x8x64.size a) (g2_0 : ∀ a, (Rect.unit (s := S125000x8x64) ![b 0, 0, 0] S1x8x64.size g1_0).stride a = 1)
    (g1_1 : ∀ a, (![b 1, 0, 0] : Fin 3 → ℕ) a + S1x8x64.size a ≤ S125000x8x64.size a) (g2_1 : ∀ a, (Rect.unit (s := S125000x8x64) ![b 1, 0, 0] S1x8x64.size g1_1).stride a = 1)
    (g1_2 : ∀ a, (![b 2, 0, 0] : Fin 3 → ℕ) a + S1x8x64.size a ≤ S125000x8x64.size a) (g2_2 : ∀ a, (Rect.unit (s := S125000x8x64) ![b 2, 0, 0] S1x8x64.size g1_2).stride a = 1)
    (g1_3 : ∀ a, (![b 3, 0, 0] : Fin 3 → ℕ) a + S1x8x64.size a ≤ S125000x8x64.size a) (g2_3 : ∀ a, (Rect.unit (s := S125000x8x64) ![b 3, 0, 0] S1x8x64.size g1_3).stride a = 1)
    (g1_4 : ∀ a, (![b 4, 0, 0] : Fin 3 → ℕ) a + S1x8x64.size a ≤ S125000x8x64.size a) (g2_4 : ∀ a, (Rect.unit (s := S125000x8x64) ![b 4, 0, 0] S1x8x64.size g1_4).stride a = 1)
    (g1_5 : ∀ a, (![b 5, 0, 0] : Fin 3 → ℕ) a + S1x8x64.size a ≤ S125000x8x64.size a) (g2_5 : ∀ a, (Rect.unit (s := S125000x8x64) ![b 5, 0, 0] S1x8x64.size g1_5).stride a = 1)
    (g1_6 : ∀ a, (![b 6, 0, 0] : Fin 3 → ℕ) a + S1x8x64.size a ≤ S125000x8x64.size a) (g2_6 : ∀ a, (Rect.unit (s := S125000x8x64) ![b 6, 0, 0] S1x8x64.size g1_6).stride a = 1)
    (g1_7 : ∀ a, (![b 7, 0, 0] : Fin 3 → ℕ) a + S1x8x64.size a ≤ S125000x8x64.size a) (g2_7 : ∀ a, (Rect.unit (s := S125000x8x64) ![b 7, 0, 0] S1x8x64.size g1_7).stride a = 1)
    (g1_8 : ∀ a, (![b 8, 0, 0] : Fin 3 → ℕ) a + S1x8x64.size a ≤ S125000x8x64.size a) (g2_8 : ∀ a, (Rect.unit (s := S125000x8x64) ![b 8, 0, 0] S1x8x64.size g1_8).stride a = 1)
    (g1_9 : ∀ a, (![b 9, 0, 0] : Fin 3 → ℕ) a + S1x8x64.size a ≤ S125000x8x64.size a) (g2_9 : ∀ a, (Rect.unit (s := S125000x8x64) ![b 9, 0, 0] S1x8x64.size g1_9).stride a = 1)
    (g1_10 : ∀ a, (![b 10, 0, 0] : Fin 3 → ℕ) a + S1x8x64.size a ≤ S125000x8x64.size a) (g2_10 : ∀ a, (Rect.unit (s := S125000x8x64) ![b 10, 0, 0] S1x8x64.size g1_10).stride a = 1)
    (g1_11 : ∀ a, (![b 11, 0, 0] : Fin 3 → ℕ) a + S1x8x64.size a ≤ S125000x8x64.size a) (g2_11 : ∀ a, (Rect.unit (s := S125000x8x64) ![b 11, 0, 0] S1x8x64.size g1_11).stride a = 1)
    (g1_12 : ∀ a, (![b 12, 0, 0] : Fin 3 → ℕ) a + S1x8x64.size a ≤ S125000x8x64.size a) (g2_12 : ∀ a, (Rect.unit (s := S125000x8x64) ![b 12, 0, 0] S1x8x64.size g1_12).stride a = 1)
    (g1_13 : ∀ a, (![b 13, 0, 0] : Fin 3 → ℕ) a + S1x8x64.size a ≤ S125000x8x64.size a) (g2_13 : ∀ a, (Rect.unit (s := S125000x8x64) ![b 13, 0, 0] S1x8x64.size g1_13).stride a = 1)
    (g1_14 : ∀ a, (![b 14, 0, 0] : Fin 3 → ℕ) a + S1x8x64.size a ≤ S125000x8x64.size a) (g2_14 : ∀ a, (Rect.unit (s := S125000x8x64) ![b 14, 0, 0] S1x8x64.size g1_14).stride a = 1)
    (g1_15 : ∀ a, (![b 15, 0, 0] : Fin 3 → ℕ) a + S1x8x64.size a ≤ S125000x8x64.size a) (g2_15 : ∀ a, (Rect.unit (s := S125000x8x64) ![b 15, 0, 0] S1x8x64.size g1_15).stride a = 1)
    (prior : (slotV sIA 0 h1_0 h2_0 h3_0).ty.Contents (Elt F)) (s : Fin 16) (r : Fin 8) (f : Fin 64) :
    (View.write (Elt F) (slotV sIA 15 h1_15 h2_15 h3_15) (View.write (Elt F) (slotV sIA 14 h1_14 h2_14 h3_14) (View.write (Elt F) (slotV sIA 13 h1_13 h2_13 h3_13) (View.write (Elt F) (slotV sIA 12 h1_12 h2_12 h3_12) (View.write (Elt F) (slotV sIA 11 h1_11 h2_11 h3_11) (View.write (Elt F) (slotV sIA 10 h1_10 h2_10 h3_10) (View.write (Elt F) (slotV sIA 9 h1_9 h2_9 h3_9) (View.write (Elt F) (slotV sIA 8 h1_8 h2_8 h3_8) (View.write (Elt F) (slotV sIA 7 h1_7 h2_7 h3_7) (View.write (Elt F) (slotV sIA 6 h1_6 h2_6 h3_6) (View.write (Elt F) (slotV sIA 5 h1_5 h2_5 h3_5) (View.write (Elt F) (slotV sIA 4 h1_4 h2_4 h3_4) (View.write (Elt F) (slotV sIA 3 h1_3 h2_3 h3_3) (View.write (Elt F) (slotV sIA 2 h1_2 h2_2 h3_2) (View.write (Elt F) (slotV sIA 1 h1_1 h2_1 h3_1) (View.write (Elt F) (slotV sIA 0 h1_0 h2_0 h3_0) prior (ReadAs.same.apply ((rowV iwV (b 0) g1_0 g2_0).view.read (Elt F) Wc)) Finset.univ) (ReadAs.same.apply ((rowV iwV (b 1) g1_1 g2_1).view.read (Elt F) Wc)) Finset.univ) (ReadAs.same.apply ((rowV iwV (b 2) g1_2 g2_2).view.read (Elt F) Wc)) Finset.univ) (ReadAs.same.apply ((rowV iwV (b 3) g1_3 g2_3).view.read (Elt F) Wc)) Finset.univ) (ReadAs.same.apply ((rowV iwV (b 4) g1_4 g2_4).view.read (Elt F) Wc)) Finset.univ) (ReadAs.same.apply ((rowV iwV (b 5) g1_5 g2_5).view.read (Elt F) Wc)) Finset.univ) (ReadAs.same.apply ((rowV iwV (b 6) g1_6 g2_6).view.read (Elt F) Wc)) Finset.univ) (ReadAs.same.apply ((rowV iwV (b 7) g1_7 g2_7).view.read (Elt F) Wc)) Finset.univ) (ReadAs.same.apply ((rowV iwV (b 8) g1_8 g2_8).view.read (Elt F) Wc)) Finset.univ) (ReadAs.same.apply ((rowV iwV (b 9) g1_9 g2_9).view.read (Elt F) Wc)) Finset.univ) (ReadAs.same.apply ((rowV iwV (b 10) g1_10 g2_10).view.read (Elt F) Wc)) Finset.univ) (ReadAs.same.apply ((rowV iwV (b 11) g1_11 g2_11).view.read (Elt F) Wc)) Finset.univ) (ReadAs.same.apply ((rowV iwV (b 12) g1_12 g2_12).view.read (Elt F) Wc)) Finset.univ) (ReadAs.same.apply ((rowV iwV (b 13) g1_13 g2_13).view.read (Elt F) Wc)) Finset.univ) (ReadAs.same.apply ((rowV iwV (b 14) g1_14 g2_14).view.read (Elt F) Wc)) Finset.univ) (ReadAs.same.apply ((rowV iwV (b 15) g1_15 g2_15).view.read (Elt F) Wc)) Finset.univ)
        (ValueIdx.ix3 (n0 := 16) (n1 := 8) (n2 := 64) s r f)
      = Wc (ValueIdx.ix3 (n0 := 125000) (n1 := 8) (n2 := 64) ⟨b s, hb s⟩ r f) := by
  rw [nest16_apply_IA]
  fin_cases s
  · exact row_read_apply' d (b 0) (hb 0) g1_0 g2_0 Wc r f
  · exact row_read_apply' d (b 1) (hb 1) g1_1 g2_1 Wc r f
  · exact row_read_apply' d (b 2) (hb 2) g1_2 g2_2 Wc r f
  · exact row_read_apply' d (b 3) (hb 3) g1_3 g2_3 Wc r f
  · exact row_read_apply' d (b 4) (hb 4) g1_4 g2_4 Wc r f
  · exact row_read_apply' d (b 5) (hb 5) g1_5 g2_5 Wc r f
  · exact row_read_apply' d (b 6) (hb 6) g1_6 g2_6 Wc r f
  · exact row_read_apply' d (b 7) (hb 7) g1_7 g2_7 Wc r f
  · exact row_read_apply' d (b 8) (hb 8) g1_8 g2_8 Wc r f
  · exact row_read_apply' d (b 9) (hb 9) g1_9 g2_9 Wc r f
  · exact row_read_apply' d (b 10) (hb 10) g1_10 g2_10 Wc r f
  · exact row_read_apply' d (b 11) (hb 11) g1_11 g2_11 Wc r f
  · exact row_read_apply' d (b 12) (hb 12) g1_12 g2_12 Wc r f
  · exact row_read_apply' d (b 13) (hb 13) g1_13 g2_13 Wc r f
  · exact row_read_apply' d (b 14) (hb 14) g1_14 g2_14 Wc r f
  · exact row_read_apply' d (b 15) (hb 15) g1_15 g2_15 Wc r f

/-- The same with each block given as a word: slot `s` holds the block `(v s).toNat`. -/
theorem landed_of_nest_IA_word (d : Dev nD) (v : Fin 16 → BitVec 32) (hb : ∀ s, (v s).toNat < 125000) (Wc : Buf (Elt F) (iwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![(v 0).toNat, 0, 0] : Fin 3 → ℕ) a + S1x8x64.size a ≤ S125000x8x64.size a) (g2_0 : ∀ a, (Rect.unit (s := S125000x8x64) ![(v 0).toNat, 0, 0] S1x8x64.size g1_0).stride a = 1)
    (g1_1 : ∀ a, (![(v 1).toNat, 0, 0] : Fin 3 → ℕ) a + S1x8x64.size a ≤ S125000x8x64.size a) (g2_1 : ∀ a, (Rect.unit (s := S125000x8x64) ![(v 1).toNat, 0, 0] S1x8x64.size g1_1).stride a = 1)
    (g1_2 : ∀ a, (![(v 2).toNat, 0, 0] : Fin 3 → ℕ) a + S1x8x64.size a ≤ S125000x8x64.size a) (g2_2 : ∀ a, (Rect.unit (s := S125000x8x64) ![(v 2).toNat, 0, 0] S1x8x64.size g1_2).stride a = 1)
    (g1_3 : ∀ a, (![(v 3).toNat, 0, 0] : Fin 3 → ℕ) a + S1x8x64.size a ≤ S125000x8x64.size a) (g2_3 : ∀ a, (Rect.unit (s := S125000x8x64) ![(v 3).toNat, 0, 0] S1x8x64.size g1_3).stride a = 1)
    (g1_4 : ∀ a, (![(v 4).toNat, 0, 0] : Fin 3 → ℕ) a + S1x8x64.size a ≤ S125000x8x64.size a) (g2_4 : ∀ a, (Rect.unit (s := S125000x8x64) ![(v 4).toNat, 0, 0] S1x8x64.size g1_4).stride a = 1)
    (g1_5 : ∀ a, (![(v 5).toNat, 0, 0] : Fin 3 → ℕ) a + S1x8x64.size a ≤ S125000x8x64.size a) (g2_5 : ∀ a, (Rect.unit (s := S125000x8x64) ![(v 5).toNat, 0, 0] S1x8x64.size g1_5).stride a = 1)
    (g1_6 : ∀ a, (![(v 6).toNat, 0, 0] : Fin 3 → ℕ) a + S1x8x64.size a ≤ S125000x8x64.size a) (g2_6 : ∀ a, (Rect.unit (s := S125000x8x64) ![(v 6).toNat, 0, 0] S1x8x64.size g1_6).stride a = 1)
    (g1_7 : ∀ a, (![(v 7).toNat, 0, 0] : Fin 3 → ℕ) a + S1x8x64.size a ≤ S125000x8x64.size a) (g2_7 : ∀ a, (Rect.unit (s := S125000x8x64) ![(v 7).toNat, 0, 0] S1x8x64.size g1_7).stride a = 1)
    (g1_8 : ∀ a, (![(v 8).toNat, 0, 0] : Fin 3 → ℕ) a + S1x8x64.size a ≤ S125000x8x64.size a) (g2_8 : ∀ a, (Rect.unit (s := S125000x8x64) ![(v 8).toNat, 0, 0] S1x8x64.size g1_8).stride a = 1)
    (g1_9 : ∀ a, (![(v 9).toNat, 0, 0] : Fin 3 → ℕ) a + S1x8x64.size a ≤ S125000x8x64.size a) (g2_9 : ∀ a, (Rect.unit (s := S125000x8x64) ![(v 9).toNat, 0, 0] S1x8x64.size g1_9).stride a = 1)
    (g1_10 : ∀ a, (![(v 10).toNat, 0, 0] : Fin 3 → ℕ) a + S1x8x64.size a ≤ S125000x8x64.size a) (g2_10 : ∀ a, (Rect.unit (s := S125000x8x64) ![(v 10).toNat, 0, 0] S1x8x64.size g1_10).stride a = 1)
    (g1_11 : ∀ a, (![(v 11).toNat, 0, 0] : Fin 3 → ℕ) a + S1x8x64.size a ≤ S125000x8x64.size a) (g2_11 : ∀ a, (Rect.unit (s := S125000x8x64) ![(v 11).toNat, 0, 0] S1x8x64.size g1_11).stride a = 1)
    (g1_12 : ∀ a, (![(v 12).toNat, 0, 0] : Fin 3 → ℕ) a + S1x8x64.size a ≤ S125000x8x64.size a) (g2_12 : ∀ a, (Rect.unit (s := S125000x8x64) ![(v 12).toNat, 0, 0] S1x8x64.size g1_12).stride a = 1)
    (g1_13 : ∀ a, (![(v 13).toNat, 0, 0] : Fin 3 → ℕ) a + S1x8x64.size a ≤ S125000x8x64.size a) (g2_13 : ∀ a, (Rect.unit (s := S125000x8x64) ![(v 13).toNat, 0, 0] S1x8x64.size g1_13).stride a = 1)
    (g1_14 : ∀ a, (![(v 14).toNat, 0, 0] : Fin 3 → ℕ) a + S1x8x64.size a ≤ S125000x8x64.size a) (g2_14 : ∀ a, (Rect.unit (s := S125000x8x64) ![(v 14).toNat, 0, 0] S1x8x64.size g1_14).stride a = 1)
    (g1_15 : ∀ a, (![(v 15).toNat, 0, 0] : Fin 3 → ℕ) a + S1x8x64.size a ≤ S125000x8x64.size a) (g2_15 : ∀ a, (Rect.unit (s := S125000x8x64) ![(v 15).toNat, 0, 0] S1x8x64.size g1_15).stride a = 1)
    (prior : (slotV sIA 0 h1_0 h2_0 h3_0).ty.Contents (Elt F)) (s : Fin 16) (r : Fin 8) (f : Fin 64) :
    (View.write (Elt F) (slotV sIA 15 h1_15 h2_15 h3_15) (View.write (Elt F) (slotV sIA 14 h1_14 h2_14 h3_14) (View.write (Elt F) (slotV sIA 13 h1_13 h2_13 h3_13) (View.write (Elt F) (slotV sIA 12 h1_12 h2_12 h3_12) (View.write (Elt F) (slotV sIA 11 h1_11 h2_11 h3_11) (View.write (Elt F) (slotV sIA 10 h1_10 h2_10 h3_10) (View.write (Elt F) (slotV sIA 9 h1_9 h2_9 h3_9) (View.write (Elt F) (slotV sIA 8 h1_8 h2_8 h3_8) (View.write (Elt F) (slotV sIA 7 h1_7 h2_7 h3_7) (View.write (Elt F) (slotV sIA 6 h1_6 h2_6 h3_6) (View.write (Elt F) (slotV sIA 5 h1_5 h2_5 h3_5) (View.write (Elt F) (slotV sIA 4 h1_4 h2_4 h3_4) (View.write (Elt F) (slotV sIA 3 h1_3 h2_3 h3_3) (View.write (Elt F) (slotV sIA 2 h1_2 h2_2 h3_2) (View.write (Elt F) (slotV sIA 1 h1_1 h2_1 h3_1) (View.write (Elt F) (slotV sIA 0 h1_0 h2_0 h3_0) prior (ReadAs.same.apply ((rowV iwV ((v 0).toNat) g1_0 g2_0).view.read (Elt F) Wc)) Finset.univ) (ReadAs.same.apply ((rowV iwV ((v 1).toNat) g1_1 g2_1).view.read (Elt F) Wc)) Finset.univ) (ReadAs.same.apply ((rowV iwV ((v 2).toNat) g1_2 g2_2).view.read (Elt F) Wc)) Finset.univ) (ReadAs.same.apply ((rowV iwV ((v 3).toNat) g1_3 g2_3).view.read (Elt F) Wc)) Finset.univ) (ReadAs.same.apply ((rowV iwV ((v 4).toNat) g1_4 g2_4).view.read (Elt F) Wc)) Finset.univ) (ReadAs.same.apply ((rowV iwV ((v 5).toNat) g1_5 g2_5).view.read (Elt F) Wc)) Finset.univ) (ReadAs.same.apply ((rowV iwV ((v 6).toNat) g1_6 g2_6).view.read (Elt F) Wc)) Finset.univ) (ReadAs.same.apply ((rowV iwV ((v 7).toNat) g1_7 g2_7).view.read (Elt F) Wc)) Finset.univ) (ReadAs.same.apply ((rowV iwV ((v 8).toNat) g1_8 g2_8).view.read (Elt F) Wc)) Finset.univ) (ReadAs.same.apply ((rowV iwV ((v 9).toNat) g1_9 g2_9).view.read (Elt F) Wc)) Finset.univ) (ReadAs.same.apply ((rowV iwV ((v 10).toNat) g1_10 g2_10).view.read (Elt F) Wc)) Finset.univ) (ReadAs.same.apply ((rowV iwV ((v 11).toNat) g1_11 g2_11).view.read (Elt F) Wc)) Finset.univ) (ReadAs.same.apply ((rowV iwV ((v 12).toNat) g1_12 g2_12).view.read (Elt F) Wc)) Finset.univ) (ReadAs.same.apply ((rowV iwV ((v 13).toNat) g1_13 g2_13).view.read (Elt F) Wc)) Finset.univ) (ReadAs.same.apply ((rowV iwV ((v 14).toNat) g1_14 g2_14).view.read (Elt F) Wc)) Finset.univ) (ReadAs.same.apply ((rowV iwV ((v 15).toNat) g1_15 g2_15).view.read (Elt F) Wc)) Finset.univ)
        (ValueIdx.ix3 (n0 := 16) (n1 := 8) (n2 := 64) s r f)
      = Wc (ValueIdx.ix3 (n0 := 125000) (n1 := 8) (n2 := 64) ⟨(v s).toNat, hb s⟩ r f) := by
  rw [nest16_apply_IA]
  fin_cases s
  · exact row_read_apply' d ((v 0).toNat) (hb 0) g1_0 g2_0 Wc r f
  · exact row_read_apply' d ((v 1).toNat) (hb 1) g1_1 g2_1 Wc r f
  · exact row_read_apply' d ((v 2).toNat) (hb 2) g1_2 g2_2 Wc r f
  · exact row_read_apply' d ((v 3).toNat) (hb 3) g1_3 g2_3 Wc r f
  · exact row_read_apply' d ((v 4).toNat) (hb 4) g1_4 g2_4 Wc r f
  · exact row_read_apply' d ((v 5).toNat) (hb 5) g1_5 g2_5 Wc r f
  · exact row_read_apply' d ((v 6).toNat) (hb 6) g1_6 g2_6 Wc r f
  · exact row_read_apply' d ((v 7).toNat) (hb 7) g1_7 g2_7 Wc r f
  · exact row_read_apply' d ((v 8).toNat) (hb 8) g1_8 g2_8 Wc r f
  · exact row_read_apply' d ((v 9).toNat) (hb 9) g1_9 g2_9 Wc r f
  · exact row_read_apply' d ((v 10).toNat) (hb 10) g1_10 g2_10 Wc r f
  · exact row_read_apply' d ((v 11).toNat) (hb 11) g1_11 g2_11 Wc r f
  · exact row_read_apply' d ((v 12).toNat) (hb 12) g1_12 g2_12 Wc r f
  · exact row_read_apply' d ((v 13).toNat) (hb 13) g1_13 g2_13 Wc r f
  · exact row_read_apply' d ((v 14).toNat) (hb 14) g1_14 g2_14 Wc r f
  · exact row_read_apply' d ((v 15).toNat) (hb 15) g1_15 g2_15 Wc r f

/-- `sUB` AFTER ITS SIXTEEN COPIES: slot `s` was written with block `b s` of the first table as the copy reads it, so position
    `(s, r, f)` holds the table at `(b s, r, f)`, whatever the buffer held before. -/
theorem landed_of_nest_UB (d : Dev nD) (b : Fin 16 → ℕ) (hb : ∀ s, b s < 125000) (Wc : Buf (Elt F) (uwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![b 0, 0, 0] : Fin 3 → ℕ) a + S1x8x64.size a ≤ S125000x8x64.size a) (g2_0 : ∀ a, (Rect.unit (s := S125000x8x64) ![b 0, 0, 0] S1x8x64.size g1_0).stride a = 1)
    (g1_1 : ∀ a, (![b 1, 0, 0] : Fin 3 → ℕ) a + S1x8x64.size a ≤ S125000x8x64.size a) (g2_1 : ∀ a, (Rect.unit (s := S125000x8x64) ![b 1, 0, 0] S1x8x64.size g1_1).stride a = 1)
    (g1_2 : ∀ a, (![b 2, 0, 0] : Fin 3 → ℕ) a + S1x8x64.size a ≤ S125000x8x64.size a) (g2_2 : ∀ a, (Rect.unit (s := S125000x8x64) ![b 2, 0, 0] S1x8x64.size g1_2).stride a = 1)
    (g1_3 : ∀ a, (![b 3, 0, 0] : Fin 3 → ℕ) a + S1x8x64.size a ≤ S125000x8x64.size a) (g2_3 : ∀ a, (Rect.unit (s := S125000x8x64) ![b 3, 0, 0] S1x8x64.size g1_3).stride a = 1)
    (g1_4 : ∀ a, (![b 4, 0, 0] : Fin 3 → ℕ) a + S1x8x64.size a ≤ S125000x8x64.size a) (g2_4 : ∀ a, (Rect.unit (s := S125000x8x64) ![b 4, 0, 0] S1x8x64.size g1_4).stride a = 1)
    (g1_5 : ∀ a, (![b 5, 0, 0] : Fin 3 → ℕ) a + S1x8x64.size a ≤ S125000x8x64.size a) (g2_5 : ∀ a, (Rect.unit (s := S125000x8x64) ![b 5, 0, 0] S1x8x64.size g1_5).stride a = 1)
    (g1_6 : ∀ a, (![b 6, 0, 0] : Fin 3 → ℕ) a + S1x8x64.size a ≤ S125000x8x64.size a) (g2_6 : ∀ a, (Rect.unit (s := S125000x8x64) ![b 6, 0, 0] S1x8x64.size g1_6).stride a = 1)
    (g1_7 : ∀ a, (![b 7, 0, 0] : Fin 3 → ℕ) a + S1x8x64.size a ≤ S125000x8x64.size a) (g2_7 : ∀ a, (Rect.unit (s := S125000x8x64) ![b 7, 0, 0] S1x8x64.size g1_7).stride a = 1)
    (g1_8 : ∀ a, (![b 8, 0, 0] : Fin 3 → ℕ) a + S1x8x64.size a ≤ S125000x8x64.size a) (g2_8 : ∀ a, (Rect.unit (s := S125000x8x64) ![b 8, 0, 0] S1x8x64.size g1_8).stride a = 1)
    (g1_9 : ∀ a, (![b 9, 0, 0] : Fin 3 → ℕ) a + S1x8x64.size a ≤ S125000x8x64.size a) (g2_9 : ∀ a, (Rect.unit (s := S125000x8x64) ![b 9, 0, 0] S1x8x64.size g1_9).stride a = 1)
    (g1_10 : ∀ a, (![b 10, 0, 0] : Fin 3 → ℕ) a + S1x8x64.size a ≤ S125000x8x64.size a) (g2_10 : ∀ a, (Rect.unit (s := S125000x8x64) ![b 10, 0, 0] S1x8x64.size g1_10).stride a = 1)
    (g1_11 : ∀ a, (![b 11, 0, 0] : Fin 3 → ℕ) a + S1x8x64.size a ≤ S125000x8x64.size a) (g2_11 : ∀ a, (Rect.unit (s := S125000x8x64) ![b 11, 0, 0] S1x8x64.size g1_11).stride a = 1)
    (g1_12 : ∀ a, (![b 12, 0, 0] : Fin 3 → ℕ) a + S1x8x64.size a ≤ S125000x8x64.size a) (g2_12 : ∀ a, (Rect.unit (s := S125000x8x64) ![b 12, 0, 0] S1x8x64.size g1_12).stride a = 1)
    (g1_13 : ∀ a, (![b 13, 0, 0] : Fin 3 → ℕ) a + S1x8x64.size a ≤ S125000x8x64.size a) (g2_13 : ∀ a, (Rect.unit (s := S125000x8x64) ![b 13, 0, 0] S1x8x64.size g1_13).stride a = 1)
    (g1_14 : ∀ a, (![b 14, 0, 0] : Fin 3 → ℕ) a + S1x8x64.size a ≤ S125000x8x64.size a) (g2_14 : ∀ a, (Rect.unit (s := S125000x8x64) ![b 14, 0, 0] S1x8x64.size g1_14).stride a = 1)
    (g1_15 : ∀ a, (![b 15, 0, 0] : Fin 3 → ℕ) a + S1x8x64.size a ≤ S125000x8x64.size a) (g2_15 : ∀ a, (Rect.unit (s := S125000x8x64) ![b 15, 0, 0] S1x8x64.size g1_15).stride a = 1)
    (prior : (slotV sUB 0 h1_0 h2_0 h3_0).ty.Contents (Elt F)) (s : Fin 16) (r : Fin 8) (f : Fin 64) :
    (View.write (Elt F) (slotV sUB 15 h1_15 h2_15 h3_15) (View.write (Elt F) (slotV sUB 14 h1_14 h2_14 h3_14) (View.write (Elt F) (slotV sUB 13 h1_13 h2_13 h3_13) (View.write (Elt F) (slotV sUB 12 h1_12 h2_12 h3_12) (View.write (Elt F) (slotV sUB 11 h1_11 h2_11 h3_11) (View.write (Elt F) (slotV sUB 10 h1_10 h2_10 h3_10) (View.write (Elt F) (slotV sUB 9 h1_9 h2_9 h3_9) (View.write (Elt F) (slotV sUB 8 h1_8 h2_8 h3_8) (View.write (Elt F) (slotV sUB 7 h1_7 h2_7 h3_7) (View.write (Elt F) (slotV sUB 6 h1_6 h2_6 h3_6) (View.write (Elt F) (slotV sUB 5 h1_5 h2_5 h3_5) (View.write (Elt F) (slotV sUB 4 h1_4 h2_4 h3_4) (View.write (Elt F) (slotV sUB 3 h1_3 h2_3 h3_3) (View.write (Elt F) (slotV sUB 2 h1_2 h2_2 h3_2) (View.write (Elt F) (slotV sUB 1 h1_1 h2_1 h3_1) (View.write (Elt F) (slotV sUB 0 h1_0 h2_0 h3_0) prior (ReadAs.same.apply ((rowV uwV (b 0) g1_0 g2_0).view.read (Elt F) Wc)) Finset.univ) (ReadAs.same.apply ((rowV uwV (b 1) g1_1 g2_1).view.read (Elt F) Wc)) Finset.univ) (ReadAs.same.apply ((rowV uwV (b 2) g1_2 g2_2).view.read (Elt F) Wc)) Finset.univ) (ReadAs.same.apply ((rowV uwV (b 3) g1_3 g2_3).view.read (Elt F) Wc)) Finset.univ) (ReadAs.same.apply ((rowV uwV (b 4) g1_4 g2_4).view.read (Elt F) Wc)) Finset.univ) (ReadAs.same.apply ((rowV uwV (b 5) g1_5 g2_5).view.read (Elt F) Wc)) Finset.univ) (ReadAs.same.apply ((rowV uwV (b 6) g1_6 g2_6).view.read (Elt F) Wc)) Finset.univ) (ReadAs.same.apply ((rowV uwV (b 7) g1_7 g2_7).view.read (Elt F) Wc)) Finset.univ) (ReadAs.same.apply ((rowV uwV (b 8) g1_8 g2_8).view.read (Elt F) Wc)) Finset.univ) (ReadAs.same.apply ((rowV uwV (b 9) g1_9 g2_9).view.read (Elt F) Wc)) Finset.univ) (ReadAs.same.apply ((rowV uwV (b 10) g1_10 g2_10).view.read (Elt F) Wc)) Finset.univ) (ReadAs.same.apply ((rowV uwV (b 11) g1_11 g2_11).view.read (Elt F) Wc)) Finset.univ) (ReadAs.same.apply ((rowV uwV (b 12) g1_12 g2_12).view.read (Elt F) Wc)) Finset.univ) (ReadAs.same.apply ((rowV uwV (b 13) g1_13 g2_13).view.read (Elt F) Wc)) Finset.univ) (ReadAs.same.apply ((rowV uwV (b 14) g1_14 g2_14).view.read (Elt F) Wc)) Finset.univ) (ReadAs.same.apply ((rowV uwV (b 15) g1_15 g2_15).view.read (Elt F) Wc)) Finset.univ)
        (ValueIdx.ix3 (n0 := 16) (n1 := 8) (n2 := 64) s r f)
      = Wc (ValueIdx.ix3 (n0 := 125000) (n1 := 8) (n2 := 64) ⟨b s, hb s⟩ r f) := by
  rw [nest16_apply_UB]
  fin_cases s
  · exact row_read_apply d (b 0) (hb 0) g1_0 g2_0 Wc r f
  · exact row_read_apply d (b 1) (hb 1) g1_1 g2_1 Wc r f
  · exact row_read_apply d (b 2) (hb 2) g1_2 g2_2 Wc r f
  · exact row_read_apply d (b 3) (hb 3) g1_3 g2_3 Wc r f
  · exact row_read_apply d (b 4) (hb 4) g1_4 g2_4 Wc r f
  · exact row_read_apply d (b 5) (hb 5) g1_5 g2_5 Wc r f
  · exact row_read_apply d (b 6) (hb 6) g1_6 g2_6 Wc r f
  · exact row_read_apply d (b 7) (hb 7) g1_7 g2_7 Wc r f
  · exact row_read_apply d (b 8) (hb 8) g1_8 g2_8 Wc r f
  · exact row_read_apply d (b 9) (hb 9) g1_9 g2_9 Wc r f
  · exact row_read_apply d (b 10) (hb 10) g1_10 g2_10 Wc r f
  · exact row_read_apply d (b 11) (hb 11) g1_11 g2_11 Wc r f
  · exact row_read_apply d (b 12) (hb 12) g1_12 g2_12 Wc r f
  · exact row_read_apply d (b 13) (hb 13) g1_13 g2_13 Wc r f
  · exact row_read_apply d (b 14) (hb 14) g1_14 g2_14 Wc r f
  · exact row_read_apply d (b 15) (hb 15) g1_15 g2_15 Wc r f

/-- The same with each block given as a word: slot `s` holds the block `(v s).toNat`. -/
theorem landed_of_nest_UB_word (d : Dev nD) (v : Fin 16 → BitVec 32) (hb : ∀ s, (v s).toNat < 125000) (Wc : Buf (Elt F) (uwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![(v 0).toNat, 0, 0] : Fin 3 → ℕ) a + S1x8x64.size a ≤ S125000x8x64.size a) (g2_0 : ∀ a, (Rect.unit (s := S125000x8x64) ![(v 0).toNat, 0, 0] S1x8x64.size g1_0).stride a = 1)
    (g1_1 : ∀ a, (![(v 1).toNat, 0, 0] : Fin 3 → ℕ) a + S1x8x64.size a ≤ S125000x8x64.size a) (g2_1 : ∀ a, (Rect.unit (s := S125000x8x64) ![(v 1).toNat, 0, 0] S1x8x64.size g1_1).stride a = 1)
    (g1_2 : ∀ a, (![(v 2).toNat, 0, 0] : Fin 3 → ℕ) a + S1x8x64.size a ≤ S125000x8x64.size a) (g2_2 : ∀ a, (Rect.unit (s := S125000x8x64) ![(v 2).toNat, 0, 0] S1x8x64.size g1_2).stride a = 1)
    (g1_3 : ∀ a, (![(v 3).toNat, 0, 0] : Fin 3 → ℕ) a + S1x8x64.size a ≤ S125000x8x64.size a) (g2_3 : ∀ a, (Rect.unit (s := S125000x8x64) ![(v 3).toNat, 0, 0] S1x8x64.size g1_3).stride a = 1)
    (g1_4 : ∀ a, (![(v 4).toNat, 0, 0] : Fin 3 → ℕ) a + S1x8x64.size a ≤ S125000x8x64.size a) (g2_4 : ∀ a, (Rect.unit (s := S125000x8x64) ![(v 4).toNat, 0, 0] S1x8x64.size g1_4).stride a = 1)
    (g1_5 : ∀ a, (![(v 5).toNat, 0, 0] : Fin 3 → ℕ) a + S1x8x64.size a ≤ S125000x8x64.size a) (g2_5 : ∀ a, (Rect.unit (s := S125000x8x64) ![(v 5).toNat, 0, 0] S1x8x64.size g1_5).stride a = 1)
    (g1_6 : ∀ a, (![(v 6).toNat, 0, 0] : Fin 3 → ℕ) a + S1x8x64.size a ≤ S125000x8x64.size a) (g2_6 : ∀ a, (Rect.unit (s := S125000x8x64) ![(v 6).toNat, 0, 0] S1x8x64.size g1_6).stride a = 1)
    (g1_7 : ∀ a, (![(v 7).toNat, 0, 0] : Fin 3 → ℕ) a + S1x8x64.size a ≤ S125000x8x64.size a) (g2_7 : ∀ a, (Rect.unit (s := S125000x8x64) ![(v 7).toNat, 0, 0] S1x8x64.size g1_7).stride a = 1)
    (g1_8 : ∀ a, (![(v 8).toNat, 0, 0] : Fin 3 → ℕ) a + S1x8x64.size a ≤ S125000x8x64.size a) (g2_8 : ∀ a, (Rect.unit (s := S125000x8x64) ![(v 8).toNat, 0, 0] S1x8x64.size g1_8).stride a = 1)
    (g1_9 : ∀ a, (![(v 9).toNat, 0, 0] : Fin 3 → ℕ) a + S1x8x64.size a ≤ S125000x8x64.size a) (g2_9 : ∀ a, (Rect.unit (s := S125000x8x64) ![(v 9).toNat, 0, 0] S1x8x64.size g1_9).stride a = 1)
    (g1_10 : ∀ a, (![(v 10).toNat, 0, 0] : Fin 3 → ℕ) a + S1x8x64.size a ≤ S125000x8x64.size a) (g2_10 : ∀ a, (Rect.unit (s := S125000x8x64) ![(v 10).toNat, 0, 0] S1x8x64.size g1_10).stride a = 1)
    (g1_11 : ∀ a, (![(v 11).toNat, 0, 0] : Fin 3 → ℕ) a + S1x8x64.size a ≤ S125000x8x64.size a) (g2_11 : ∀ a, (Rect.unit (s := S125000x8x64) ![(v 11).toNat, 0, 0] S1x8x64.size g1_11).stride a = 1)
    (g1_12 : ∀ a, (![(v 12).toNat, 0, 0] : Fin 3 → ℕ) a + S1x8x64.size a ≤ S125000x8x64.size a) (g2_12 : ∀ a, (Rect.unit (s := S125000x8x64) ![(v 12).toNat, 0, 0] S1x8x64.size g1_12).stride a = 1)
    (g1_13 : ∀ a, (![(v 13).toNat, 0, 0] : Fin 3 → ℕ) a + S1x8x64.size a ≤ S125000x8x64.size a) (g2_13 : ∀ a, (Rect.unit (s := S125000x8x64) ![(v 13).toNat, 0, 0] S1x8x64.size g1_13).stride a = 1)
    (g1_14 : ∀ a, (![(v 14).toNat, 0, 0] : Fin 3 → ℕ) a + S1x8x64.size a ≤ S125000x8x64.size a) (g2_14 : ∀ a, (Rect.unit (s := S125000x8x64) ![(v 14).toNat, 0, 0] S1x8x64.size g1_14).stride a = 1)
    (g1_15 : ∀ a, (![(v 15).toNat, 0, 0] : Fin 3 → ℕ) a + S1x8x64.size a ≤ S125000x8x64.size a) (g2_15 : ∀ a, (Rect.unit (s := S125000x8x64) ![(v 15).toNat, 0, 0] S1x8x64.size g1_15).stride a = 1)
    (prior : (slotV sUB 0 h1_0 h2_0 h3_0).ty.Contents (Elt F)) (s : Fin 16) (r : Fin 8) (f : Fin 64) :
    (View.write (Elt F) (slotV sUB 15 h1_15 h2_15 h3_15) (View.write (Elt F) (slotV sUB 14 h1_14 h2_14 h3_14) (View.write (Elt F) (slotV sUB 13 h1_13 h2_13 h3_13) (View.write (Elt F) (slotV sUB 12 h1_12 h2_12 h3_12) (View.write (Elt F) (slotV sUB 11 h1_11 h2_11 h3_11) (View.write (Elt F) (slotV sUB 10 h1_10 h2_10 h3_10) (View.write (Elt F) (slotV sUB 9 h1_9 h2_9 h3_9) (View.write (Elt F) (slotV sUB 8 h1_8 h2_8 h3_8) (View.write (Elt F) (slotV sUB 7 h1_7 h2_7 h3_7) (View.write (Elt F) (slotV sUB 6 h1_6 h2_6 h3_6) (View.write (Elt F) (slotV sUB 5 h1_5 h2_5 h3_5) (View.write (Elt F) (slotV sUB 4 h1_4 h2_4 h3_4) (View.write (Elt F) (slotV sUB 3 h1_3 h2_3 h3_3) (View.write (Elt F) (slotV sUB 2 h1_2 h2_2 h3_2) (View.write (Elt F) (slotV sUB 1 h1_1 h2_1 h3_1) (View.write (Elt F) (slotV sUB 0 h1_0 h2_0 h3_0) prior (ReadAs.same.apply ((rowV uwV ((v 0).toNat) g1_0 g2_0).view.read (Elt F) Wc)) Finset.univ) (ReadAs.same.apply ((rowV uwV ((v 1).toNat) g1_1 g2_1).view.read (Elt F) Wc)) Finset.univ) (ReadAs.same.apply ((rowV uwV ((v 2).toNat) g1_2 g2_2).view.read (Elt F) Wc)) Finset.univ) (ReadAs.same.apply ((rowV uwV ((v 3).toNat) g1_3 g2_3).view.read (Elt F) Wc)) Finset.univ) (ReadAs.same.apply ((rowV uwV ((v 4).toNat) g1_4 g2_4).view.read (Elt F) Wc)) Finset.univ) (ReadAs.same.apply ((rowV uwV ((v 5).toNat) g1_5 g2_5).view.read (Elt F) Wc)) Finset.univ) (ReadAs.same.apply ((rowV uwV ((v 6).toNat) g1_6 g2_6).view.read (Elt F) Wc)) Finset.univ) (ReadAs.same.apply ((rowV uwV ((v 7).toNat) g1_7 g2_7).view.read (Elt F) Wc)) Finset.univ) (ReadAs.same.apply ((rowV uwV ((v 8).toNat) g1_8 g2_8).view.read (Elt F) Wc)) Finset.univ) (ReadAs.same.apply ((rowV uwV ((v 9).toNat) g1_9 g2_9).view.read (Elt F) Wc)) Finset.univ) (ReadAs.same.apply ((rowV uwV ((v 10).toNat) g1_10 g2_10).view.read (Elt F) Wc)) Finset.univ) (ReadAs.same.apply ((rowV uwV ((v 11).toNat) g1_11 g2_11).view.read (Elt F) Wc)) Finset.univ) (ReadAs.same.apply ((rowV uwV ((v 12).toNat) g1_12 g2_12).view.read (Elt F) Wc)) Finset.univ) (ReadAs.same.apply ((rowV uwV ((v 13).toNat) g1_13 g2_13).view.read (Elt F) Wc)) Finset.univ) (ReadAs.same.apply ((rowV uwV ((v 14).toNat) g1_14 g2_14).view.read (Elt F) Wc)) Finset.univ) (ReadAs.same.apply ((rowV uwV ((v 15).toNat) g1_15 g2_15).view.read (Elt F) Wc)) Finset.univ)
        (ValueIdx.ix3 (n0 := 16) (n1 := 8) (n2 := 64) s r f)
      = Wc (ValueIdx.ix3 (n0 := 125000) (n1 := 8) (n2 := 64) ⟨(v s).toNat, hb s⟩ r f) := by
  rw [nest16_apply_UB]
  fin_cases s
  · exact row_read_apply d ((v 0).toNat) (hb 0) g1_0 g2_0 Wc r f
  · exact row_read_apply d ((v 1).toNat) (hb 1) g1_1 g2_1 Wc r f
  · exact row_read_apply d ((v 2).toNat) (hb 2) g1_2 g2_2 Wc r f
  · exact row_read_apply d ((v 3).toNat) (hb 3) g1_3 g2_3 Wc r f
  · exact row_read_apply d ((v 4).toNat) (hb 4) g1_4 g2_4 Wc r f
  · exact row_read_apply d ((v 5).toNat) (hb 5) g1_5 g2_5 Wc r f
  · exact row_read_apply d ((v 6).toNat) (hb 6) g1_6 g2_6 Wc r f
  · exact row_read_apply d ((v 7).toNat) (hb 7) g1_7 g2_7 Wc r f
  · exact row_read_apply d ((v 8).toNat) (hb 8) g1_8 g2_8 Wc r f
  · exact row_read_apply d ((v 9).toNat) (hb 9) g1_9 g2_9 Wc r f
  · exact row_read_apply d ((v 10).toNat) (hb 10) g1_10 g2_10 Wc r f
  · exact row_read_apply d ((v 11).toNat) (hb 11) g1_11 g2_11 Wc r f
  · exact row_read_apply d ((v 12).toNat) (hb 12) g1_12 g2_12 Wc r f
  · exact row_read_apply d ((v 13).toNat) (hb 13) g1_13 g2_13 Wc r f
  · exact row_read_apply d ((v 14).toNat) (hb 14) g1_14 g2_14 Wc r f
  · exact row_read_apply d ((v 15).toNat) (hb 15) g1_15 g2_15 Wc r f

/-- `sIB` AFTER ITS SIXTEEN COPIES: slot `s` was written with block `b s` of the second table as the copy reads it, so position
    `(s, r, f)` holds the table at `(b s, r, f)`, whatever the buffer held before. -/
theorem landed_of_nest_IB (d : Dev nD) (b : Fin 16 → ℕ) (hb : ∀ s, b s < 125000) (Wc : Buf (Elt F) (iwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![b 0, 0, 0] : Fin 3 → ℕ) a + S1x8x64.size a ≤ S125000x8x64.size a) (g2_0 : ∀ a, (Rect.unit (s := S125000x8x64) ![b 0, 0, 0] S1x8x64.size g1_0).stride a = 1)
    (g1_1 : ∀ a, (![b 1, 0, 0] : Fin 3 → ℕ) a + S1x8x64.size a ≤ S125000x8x64.size a) (g2_1 : ∀ a, (Rect.unit (s := S125000x8x64) ![b 1, 0, 0] S1x8x64.size g1_1).stride a = 1)
    (g1_2 : ∀ a, (![b 2, 0, 0] : Fin 3 → ℕ) a + S1x8x64.size a ≤ S125000x8x64.size a) (g2_2 : ∀ a, (Rect.unit (s := S125000x8x64) ![b 2, 0, 0] S1x8x64.size g1_2).stride a = 1)
    (g1_3 : ∀ a, (![b 3, 0, 0] : Fin 3 → ℕ) a + S1x8x64.size a ≤ S125000x8x64.size a) (g2_3 : ∀ a, (Rect.unit (s := S125000x8x64) ![b 3, 0, 0] S1x8x64.size g1_3).stride a = 1)
    (g1_4 : ∀ a, (![b 4, 0, 0] : Fin 3 → ℕ) a + S1x8x64.size a ≤ S125000x8x64.size a) (g2_4 : ∀ a, (Rect.unit (s := S125000x8x64) ![b 4, 0, 0] S1x8x64.size g1_4).stride a = 1)
    (g1_5 : ∀ a, (![b 5, 0, 0] : Fin 3 → ℕ) a + S1x8x64.size a ≤ S125000x8x64.size a) (g2_5 : ∀ a, (Rect.unit (s := S125000x8x64) ![b 5, 0, 0] S1x8x64.size g1_5).stride a = 1)
    (g1_6 : ∀ a, (![b 6, 0, 0] : Fin 3 → ℕ) a + S1x8x64.size a ≤ S125000x8x64.size a) (g2_6 : ∀ a, (Rect.unit (s := S125000x8x64) ![b 6, 0, 0] S1x8x64.size g1_6).stride a = 1)
    (g1_7 : ∀ a, (![b 7, 0, 0] : Fin 3 → ℕ) a + S1x8x64.size a ≤ S125000x8x64.size a) (g2_7 : ∀ a, (Rect.unit (s := S125000x8x64) ![b 7, 0, 0] S1x8x64.size g1_7).stride a = 1)
    (g1_8 : ∀ a, (![b 8, 0, 0] : Fin 3 → ℕ) a + S1x8x64.size a ≤ S125000x8x64.size a) (g2_8 : ∀ a, (Rect.unit (s := S125000x8x64) ![b 8, 0, 0] S1x8x64.size g1_8).stride a = 1)
    (g1_9 : ∀ a, (![b 9, 0, 0] : Fin 3 → ℕ) a + S1x8x64.size a ≤ S125000x8x64.size a) (g2_9 : ∀ a, (Rect.unit (s := S125000x8x64) ![b 9, 0, 0] S1x8x64.size g1_9).stride a = 1)
    (g1_10 : ∀ a, (![b 10, 0, 0] : Fin 3 → ℕ) a + S1x8x64.size a ≤ S125000x8x64.size a) (g2_10 : ∀ a, (Rect.unit (s := S125000x8x64) ![b 10, 0, 0] S1x8x64.size g1_10).stride a = 1)
    (g1_11 : ∀ a, (![b 11, 0, 0] : Fin 3 → ℕ) a + S1x8x64.size a ≤ S125000x8x64.size a) (g2_11 : ∀ a, (Rect.unit (s := S125000x8x64) ![b 11, 0, 0] S1x8x64.size g1_11).stride a = 1)
    (g1_12 : ∀ a, (![b 12, 0, 0] : Fin 3 → ℕ) a + S1x8x64.size a ≤ S125000x8x64.size a) (g2_12 : ∀ a, (Rect.unit (s := S125000x8x64) ![b 12, 0, 0] S1x8x64.size g1_12).stride a = 1)
    (g1_13 : ∀ a, (![b 13, 0, 0] : Fin 3 → ℕ) a + S1x8x64.size a ≤ S125000x8x64.size a) (g2_13 : ∀ a, (Rect.unit (s := S125000x8x64) ![b 13, 0, 0] S1x8x64.size g1_13).stride a = 1)
    (g1_14 : ∀ a, (![b 14, 0, 0] : Fin 3 → ℕ) a + S1x8x64.size a ≤ S125000x8x64.size a) (g2_14 : ∀ a, (Rect.unit (s := S125000x8x64) ![b 14, 0, 0] S1x8x64.size g1_14).stride a = 1)
    (g1_15 : ∀ a, (![b 15, 0, 0] : Fin 3 → ℕ) a + S1x8x64.size a ≤ S125000x8x64.size a) (g2_15 : ∀ a, (Rect.unit (s := S125000x8x64) ![b 15, 0, 0] S1x8x64.size g1_15).stride a = 1)
    (prior : (slotV sIB 0 h1_0 h2_0 h3_0).ty.Contents (Elt F)) (s : Fin 16) (r : Fin 8) (f : Fin 64) :
    (View.write (Elt F) (slotV sIB 15 h1_15 h2_15 h3_15) (View.write (Elt F) (slotV sIB 14 h1_14 h2_14 h3_14) (View.write (Elt F) (slotV sIB 13 h1_13 h2_13 h3_13) (View.write (Elt F) (slotV sIB 12 h1_12 h2_12 h3_12) (View.write (Elt F) (slotV sIB 11 h1_11 h2_11 h3_11) (View.write (Elt F) (slotV sIB 10 h1_10 h2_10 h3_10) (View.write (Elt F) (slotV sIB 9 h1_9 h2_9 h3_9) (View.write (Elt F) (slotV sIB 8 h1_8 h2_8 h3_8) (View.write (Elt F) (slotV sIB 7 h1_7 h2_7 h3_7) (View.write (Elt F) (slotV sIB 6 h1_6 h2_6 h3_6) (View.write (Elt F) (slotV sIB 5 h1_5 h2_5 h3_5) (View.write (Elt F) (slotV sIB 4 h1_4 h2_4 h3_4) (View.write (Elt F) (slotV sIB 3 h1_3 h2_3 h3_3) (View.write (Elt F) (slotV sIB 2 h1_2 h2_2 h3_2) (View.write (Elt F) (slotV sIB 1 h1_1 h2_1 h3_1) (View.write (Elt F) (slotV sIB 0 h1_0 h2_0 h3_0) prior (ReadAs.same.apply ((rowV iwV (b 0) g1_0 g2_0).view.read (Elt F) Wc)) Finset.univ) (ReadAs.same.apply ((rowV iwV (b 1) g1_1 g2_1).view.read (Elt F) Wc)) Finset.univ) (ReadAs.same.apply ((rowV iwV (b 2) g1_2 g2_2).view.read (Elt F) Wc)) Finset.univ) (ReadAs.same.apply ((rowV iwV (b 3) g1_3 g2_3).view.read (Elt F) Wc)) Finset.univ) (ReadAs.same.apply ((rowV iwV (b 4) g1_4 g2_4).view.read (Elt F) Wc)) Finset.univ) (ReadAs.same.apply ((rowV iwV (b 5) g1_5 g2_5).view.read (Elt F) Wc)) Finset.univ) (ReadAs.same.apply ((rowV iwV (b 6) g1_6 g2_6).view.read (Elt F) Wc)) Finset.univ) (ReadAs.same.apply ((rowV iwV (b 7) g1_7 g2_7).view.read (Elt F) Wc)) Finset.univ) (ReadAs.same.apply ((rowV iwV (b 8) g1_8 g2_8).view.read (Elt F) Wc)) Finset.univ) (ReadAs.same.apply ((rowV iwV (b 9) g1_9 g2_9).view.read (Elt F) Wc)) Finset.univ) (ReadAs.same.apply ((rowV iwV (b 10) g1_10 g2_10).view.read (Elt F) Wc)) Finset.univ) (ReadAs.same.apply ((rowV iwV (b 11) g1_11 g2_11).view.read (Elt F) Wc)) Finset.univ) (ReadAs.same.apply ((rowV iwV (b 12) g1_12 g2_12).view.read (Elt F) Wc)) Finset.univ) (ReadAs.same.apply ((rowV iwV (b 13) g1_13 g2_13).view.read (Elt F) Wc)) Finset.univ) (ReadAs.same.apply ((rowV iwV (b 14) g1_14 g2_14).view.read (Elt F) Wc)) Finset.univ) (ReadAs.same.apply ((rowV iwV (b 15) g1_15 g2_15).view.read (Elt F) Wc)) Finset.univ)
        (ValueIdx.ix3 (n0 := 16) (n1 := 8) (n2 := 64) s r f)
      = Wc (ValueIdx.ix3 (n0 := 125000) (n1 := 8) (n2 := 64) ⟨b s, hb s⟩ r f) := by
  rw [nest16_apply_IB]
  fin_cases s
  · exact row_read_apply' d (b 0) (hb 0) g1_0 g2_0 Wc r f
  · exact row_read_apply' d (b 1) (hb 1) g1_1 g2_1 Wc r f
  · exact row_read_apply' d (b 2) (hb 2) g1_2 g2_2 Wc r f
  · exact row_read_apply' d (b 3) (hb 3) g1_3 g2_3 Wc r f
  · exact row_read_apply' d (b 4) (hb 4) g1_4 g2_4 Wc r f
  · exact row_read_apply' d (b 5) (hb 5) g1_5 g2_5 Wc r f
  · exact row_read_apply' d (b 6) (hb 6) g1_6 g2_6 Wc r f
  · exact row_read_apply' d (b 7) (hb 7) g1_7 g2_7 Wc r f
  · exact row_read_apply' d (b 8) (hb 8) g1_8 g2_8 Wc r f
  · exact row_read_apply' d (b 9) (hb 9) g1_9 g2_9 Wc r f
  · exact row_read_apply' d (b 10) (hb 10) g1_10 g2_10 Wc r f
  · exact row_read_apply' d (b 11) (hb 11) g1_11 g2_11 Wc r f
  · exact row_read_apply' d (b 12) (hb 12) g1_12 g2_12 Wc r f
  · exact row_read_apply' d (b 13) (hb 13) g1_13 g2_13 Wc r f
  · exact row_read_apply' d (b 14) (hb 14) g1_14 g2_14 Wc r f
  · exact row_read_apply' d (b 15) (hb 15) g1_15 g2_15 Wc r f

/-- The same with each block given as a word: slot `s` holds the block `(v s).toNat`. -/
theorem landed_of_nest_IB_word (d : Dev nD) (v : Fin 16 → BitVec 32) (hb : ∀ s, (v s).toNat < 125000) (Wc : Buf (Elt F) (iwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![(v 0).toNat, 0, 0] : Fin 3 → ℕ) a + S1x8x64.size a ≤ S125000x8x64.size a) (g2_0 : ∀ a, (Rect.unit (s := S125000x8x64) ![(v 0).toNat, 0, 0] S1x8x64.size g1_0).stride a = 1)
    (g1_1 : ∀ a, (![(v 1).toNat, 0, 0] : Fin 3 → ℕ) a + S1x8x64.size a ≤ S125000x8x64.size a) (g2_1 : ∀ a, (Rect.unit (s := S125000x8x64) ![(v 1).toNat, 0, 0] S1x8x64.size g1_1).stride a = 1)
    (g1_2 : ∀ a, (![(v 2).toNat, 0, 0] : Fin 3 → ℕ) a + S1x8x64.size a ≤ S125000x8x64.size a) (g2_2 : ∀ a, (Rect.unit (s := S125000x8x64) ![(v 2).toNat, 0, 0] S1x8x64.size g1_2).stride a = 1)
    (g1_3 : ∀ a, (![(v 3).toNat, 0, 0] : Fin 3 → ℕ) a + S1x8x64.size a ≤ S125000x8x64.size a) (g2_3 : ∀ a, (Rect.unit (s := S125000x8x64) ![(v 3).toNat, 0, 0] S1x8x64.size g1_3).stride a = 1)
    (g1_4 : ∀ a, (![(v 4).toNat, 0, 0] : Fin 3 → ℕ) a + S1x8x64.size a ≤ S125000x8x64.size a) (g2_4 : ∀ a, (Rect.unit (s := S125000x8x64) ![(v 4).toNat, 0, 0] S1x8x64.size g1_4).stride a = 1)
    (g1_5 : ∀ a, (![(v 5).toNat, 0, 0] : Fin 3 → ℕ) a + S1x8x64.size a ≤ S125000x8x64.size a) (g2_5 : ∀ a, (Rect.unit (s := S125000x8x64) ![(v 5).toNat, 0, 0] S1x8x64.size g1_5).stride a = 1)
    (g1_6 : ∀ a, (![(v 6).toNat, 0, 0] : Fin 3 → ℕ) a + S1x8x64.size a ≤ S125000x8x64.size a) (g2_6 : ∀ a, (Rect.unit (s := S125000x8x64) ![(v 6).toNat, 0, 0] S1x8x64.size g1_6).stride a = 1)
    (g1_7 : ∀ a, (![(v 7).toNat, 0, 0] : Fin 3 → ℕ) a + S1x8x64.size a ≤ S125000x8x64.size a) (g2_7 : ∀ a, (Rect.unit (s := S125000x8x64) ![(v 7).toNat, 0, 0] S1x8x64.size g1_7).stride a = 1)
    (g1_8 : ∀ a, (![(v 8).toNat, 0, 0] : Fin 3 → ℕ) a + S1x8x64.size a ≤ S125000x8x64.size a) (g2_8 : ∀ a, (Rect.unit (s := S125000x8x64) ![(v 8).toNat, 0, 0] S1x8x64.size g1_8).stride a = 1)
    (g1_9 : ∀ a, (![(v 9).toNat, 0, 0] : Fin 3 → ℕ) a + S1x8x64.size a ≤ S125000x8x64.size a) (g2_9 : ∀ a, (Rect.unit (s := S125000x8x64) ![(v 9).toNat, 0, 0] S1x8x64.size g1_9).stride a = 1)
    (g1_10 : ∀ a, (![(v 10).toNat, 0, 0] : Fin 3 → ℕ) a + S1x8x64.size a ≤ S125000x8x64.size a) (g2_10 : ∀ a, (Rect.unit (s := S125000x8x64) ![(v 10).toNat, 0, 0] S1x8x64.size g1_10).stride a = 1)
    (g1_11 : ∀ a, (![(v 11).toNat, 0, 0] : Fin 3 → ℕ) a + S1x8x64.size a ≤ S125000x8x64.size a) (g2_11 : ∀ a, (Rect.unit (s := S125000x8x64) ![(v 11).toNat, 0, 0] S1x8x64.size g1_11).stride a = 1)
    (g1_12 : ∀ a, (![(v 12).toNat, 0, 0] : Fin 3 → ℕ) a + S1x8x64.size a ≤ S125000x8x64.size a) (g2_12 : ∀ a, (Rect.unit (s := S125000x8x64) ![(v 12).toNat, 0, 0] S1x8x64.size g1_12).stride a = 1)
    (g1_13 : ∀ a, (![(v 13).toNat, 0, 0] : Fin 3 → ℕ) a + S1x8x64.size a ≤ S125000x8x64.size a) (g2_13 : ∀ a, (Rect.unit (s := S125000x8x64) ![(v 13).toNat, 0, 0] S1x8x64.size g1_13).stride a = 1)
    (g1_14 : ∀ a, (![(v 14).toNat, 0, 0] : Fin 3 → ℕ) a + S1x8x64.size a ≤ S125000x8x64.size a) (g2_14 : ∀ a, (Rect.unit (s := S125000x8x64) ![(v 14).toNat, 0, 0] S1x8x64.size g1_14).stride a = 1)
    (g1_15 : ∀ a, (![(v 15).toNat, 0, 0] : Fin 3 → ℕ) a + S1x8x64.size a ≤ S125000x8x64.size a) (g2_15 : ∀ a, (Rect.unit (s := S125000x8x64) ![(v 15).toNat, 0, 0] S1x8x64.size g1_15).stride a = 1)
    (prior : (slotV sIB 0 h1_0 h2_0 h3_0).ty.Contents (Elt F)) (s : Fin 16) (r : Fin 8) (f : Fin 64) :
    (View.write (Elt F) (slotV sIB 15 h1_15 h2_15 h3_15) (View.write (Elt F) (slotV sIB 14 h1_14 h2_14 h3_14) (View.write (Elt F) (slotV sIB 13 h1_13 h2_13 h3_13) (View.write (Elt F) (slotV sIB 12 h1_12 h2_12 h3_12) (View.write (Elt F) (slotV sIB 11 h1_11 h2_11 h3_11) (View.write (Elt F) (slotV sIB 10 h1_10 h2_10 h3_10) (View.write (Elt F) (slotV sIB 9 h1_9 h2_9 h3_9) (View.write (Elt F) (slotV sIB 8 h1_8 h2_8 h3_8) (View.write (Elt F) (slotV sIB 7 h1_7 h2_7 h3_7) (View.write (Elt F) (slotV sIB 6 h1_6 h2_6 h3_6) (View.write (Elt F) (slotV sIB 5 h1_5 h2_5 h3_5) (View.write (Elt F) (slotV sIB 4 h1_4 h2_4 h3_4) (View.write (Elt F) (slotV sIB 3 h1_3 h2_3 h3_3) (View.write (Elt F) (slotV sIB 2 h1_2 h2_2 h3_2) (View.write (Elt F) (slotV sIB 1 h1_1 h2_1 h3_1) (View.write (Elt F) (slotV sIB 0 h1_0 h2_0 h3_0) prior (ReadAs.same.apply ((rowV iwV ((v 0).toNat) g1_0 g2_0).view.read (Elt F) Wc)) Finset.univ) (ReadAs.same.apply ((rowV iwV ((v 1).toNat) g1_1 g2_1).view.read (Elt F) Wc)) Finset.univ) (ReadAs.same.apply ((rowV iwV ((v 2).toNat) g1_2 g2_2).view.read (Elt F) Wc)) Finset.univ) (ReadAs.same.apply ((rowV iwV ((v 3).toNat) g1_3 g2_3).view.read (Elt F) Wc)) Finset.univ) (ReadAs.same.apply ((rowV iwV ((v 4).toNat) g1_4 g2_4).view.read (Elt F) Wc)) Finset.univ) (ReadAs.same.apply ((rowV iwV ((v 5).toNat) g1_5 g2_5).view.read (Elt F) Wc)) Finset.univ) (ReadAs.same.apply ((rowV iwV ((v 6).toNat) g1_6 g2_6).view.read (Elt F) Wc)) Finset.univ) (ReadAs.same.apply ((rowV iwV ((v 7).toNat) g1_7 g2_7).view.read (Elt F) Wc)) Finset.univ) (ReadAs.same.apply ((rowV iwV ((v 8).toNat) g1_8 g2_8).view.read (Elt F) Wc)) Finset.univ) (ReadAs.same.apply ((rowV iwV ((v 9).toNat) g1_9 g2_9).view.read (Elt F) Wc)) Finset.univ) (ReadAs.same.apply ((rowV iwV ((v 10).toNat) g1_10 g2_10).view.read (Elt F) Wc)) Finset.univ) (ReadAs.same.apply ((rowV iwV ((v 11).toNat) g1_11 g2_11).view.read (Elt F) Wc)) Finset.univ) (ReadAs.same.apply ((rowV iwV ((v 12).toNat) g1_12 g2_12).view.read (Elt F) Wc)) Finset.univ) (ReadAs.same.apply ((rowV iwV ((v 13).toNat) g1_13 g2_13).view.read (Elt F) Wc)) Finset.univ) (ReadAs.same.apply ((rowV iwV ((v 14).toNat) g1_14 g2_14).view.read (Elt F) Wc)) Finset.univ) (ReadAs.same.apply ((rowV iwV ((v 15).toNat) g1_15 g2_15).view.read (Elt F) Wc)) Finset.univ)
        (ValueIdx.ix3 (n0 := 16) (n1 := 8) (n2 := 64) s r f)
      = Wc (ValueIdx.ix3 (n0 := 125000) (n1 := 8) (n2 := 64) ⟨(v s).toNat, hb s⟩ r f) := by
  rw [nest16_apply_IB]
  fin_cases s
  · exact row_read_apply' d ((v 0).toNat) (hb 0) g1_0 g2_0 Wc r f
  · exact row_read_apply' d ((v 1).toNat) (hb 1) g1_1 g2_1 Wc r f
  · exact row_read_apply' d ((v 2).toNat) (hb 2) g1_2 g2_2 Wc r f
  · exact row_read_apply' d ((v 3).toNat) (hb 3) g1_3 g2_3 Wc r f
  · exact row_read_apply' d ((v 4).toNat) (hb 4) g1_4 g2_4 Wc r f
  · exact row_read_apply' d ((v 5).toNat) (hb 5) g1_5 g2_5 Wc r f
  · exact row_read_apply' d ((v 6).toNat) (hb 6) g1_6 g2_6 Wc r f
  · exact row_read_apply' d ((v 7).toNat) (hb 7) g1_7 g2_7 Wc r f
  · exact row_read_apply' d ((v 8).toNat) (hb 8) g1_8 g2_8 Wc r f
  · exact row_read_apply' d ((v 9).toNat) (hb 9) g1_9 g2_9 Wc r f
  · exact row_read_apply' d ((v 10).toNat) (hb 10) g1_10 g2_10 Wc r f
  · exact row_read_apply' d ((v 11).toNat) (hb 11) g1_11 g2_11 Wc r f
  · exact row_read_apply' d ((v 12).toNat) (hb 12) g1_12 g2_12 Wc r f
  · exact row_read_apply' d ((v 13).toNat) (hb 13) g1_13 g2_13 Wc r f
  · exact row_read_apply' d ((v 14).toNat) (hb 14) g1_14 g2_14 Wc r f
  · exact row_read_apply' d ((v 15).toNat) (hb 15) g1_15 g2_15 Wc r f

end Cert.Proof.KernelIdeal

end
-- ==== Proof.KI.LandedTrip.lean ====
/-
  A block buffer after the sixteen copies of one chunk, in the loop's own terms.

  The program reads a chunk of sixteen indices off an index scratch, shifts it right by 3, and for each lane copies the
  table block that lane names into the lane's slot of a block buffer.  Lane `j` of chunk `c` is the block number of the
  index at position `16 c + j`; so after the sixteen copies the buffer holds, slot by slot, the blocks the chunk's
  indices name: the loop invariant's `LandedU` / `LandedI` at chunk `c`.
-/
import proofs.«203884_g41704132444582_cont_8to1_b_1290_16_alg».proof.Proof.KI.BodyDefs
import proofs.«203884_g41704132444582_cont_8to1_b_1290_16_alg».proof.Proof.KI.Landed

noncomputable section

namespace Cert.Proof.KernelIdeal

open Cert.KernelIdeal Cert.KernelIdeal.Gen
open Idealize.ShloMosaic

variable {F : FTy → Type} [FloatOps F]
variable (m : (ℓ : Loc nD τ sig) → Buf (Elt F) ℓ)

/-- Lane `j` of the chunk of `sU` at the offsets `off`, shifted right by 3: the block number the program extracts. -/
abbrev laneU (d : Dev nD) (L : grid0.Coords) (off : Fin 1 → ℕ) (inb : ∀ a, off a + S16.size a ≤ S512.size a) (j : ℕ)
    (hs : S16.Slices ![j] S1) (hp : ∀ a, (![0] : Fin 1 → ℕ) a < S1.size a) : BitVec 32 :=
  extractAt ![0] (extractStridedSlice (s := S16) S1 ![j] (shrui (s := S16) (((sU : Memref sig .scVector .vmem S512 .i32).view.readAt (Elt F)
    (Rect.unit (s := S512) off S16.size inb).toLoadRect (CU m d L) : IVec S16 32)) (broadcast S16 3#32)) hs) hp

omit [FloatOps F] in
/-- Lane `j` of chunk `c` is the block number of the index at position `16 c + j`. -/
theorem laneU_eq (d : Dev nD) (L : grid0.Coords) (c : ℕ) (hc : 16 * c + 16 ≤ 512) (off : Fin 1 → ℕ) (ho : off 0 = 16 * c)
    (inb : ∀ a, off a + S16.size a ≤ S512.size a) (j : ℕ) (hj : j < 16) (hs : S16.Slices ![j] S1)
    (hp : ∀ a, (![0] : Fin 1 → ℕ) a < S1.size a) :
    laneU m d L off inb j hs hp = (CU m d L (pos c ⟨j, hj⟩)) >>> 3 := by
  refine (lane_val_U_off (F := F) (CU m d L) off (16 * c) ho inb j hj hs hp).trans ?_
  refine congrArg (fun i => CU m d L i >>> 3) ?_
  unfold pos
  refine congrArg (ValueIdx.ix1 (n := 512)) (Fin.ext ?_)
  show 16 * c + j = (16 * c + j) % 512
  rw [Nat.mod_eq_of_lt (by omega)]

/-- `sUA` AFTER THE SIXTEEN COPIES OF CHUNK `c`: each slot was written with the block its lane of the chunk names, so the
    buffer holds, slot by slot, the table blocks the chunk's sixteen indices name. -/
theorem landedU_trip (hpre : PreOK m) (d : Dev nD) (L : grid0.Coords) (c : ℕ) (hc : 16 * c + 16 ≤ 512) (off : Fin 1 → ℕ) (ho : off 0 = 16 * c)
    {inb : ∀ a, off a + S16.size a ≤ S512.size a}
    {hs_0 : S16.Slices ![0] S1} {hp_0 : ∀ a, (![0] : Fin 1 → ℕ) a < S1.size a}
    {hs_1 : S16.Slices ![1] S1} {hp_1 : ∀ a, (![0] : Fin 1 → ℕ) a < S1.size a}
    {hs_2 : S16.Slices ![2] S1} {hp_2 : ∀ a, (![0] : Fin 1 → ℕ) a < S1.size a}
    {hs_3 : S16.Slices ![3] S1} {hp_3 : ∀ a, (![0] : Fin 1 → ℕ) a < S1.size a}
    {hs_4 : S16.Slices ![4] S1} {hp_4 : ∀ a, (![0] : Fin 1 → ℕ) a < S1.size a}
    {hs_5 : S16.Slices ![5] S1} {hp_5 : ∀ a, (![0] : Fin 1 → ℕ) a < S1.size a}
    {hs_6 : S16.Slices ![6] S1} {hp_6 : ∀ a, (![0] : Fin 1 → ℕ) a < S1.size a}
    {hs_7 : S16.Slices ![7] S1} {hp_7 : ∀ a, (![0] : Fin 1 → ℕ) a < S1.size a}
    {hs_8 : S16.Slices ![8] S1} {hp_8 : ∀ a, (![0] : Fin 1 → ℕ) a < S1.size a}
    {hs_9 : S16.Slices ![9] S1} {hp_9 : ∀ a, (![0] : Fin 1 → ℕ) a < S1.size a}
    {hs_10 : S16.Slices ![10] S1} {hp_10 : ∀ a, (![0] : Fin 1 → ℕ) a < S1.size a}
    {hs_11 : S16.Slices ![11] S1} {hp_11 : ∀ a, (![0] : Fin 1 → ℕ) a < S1.size a}
    {hs_12 : S16.Slices ![12] S1} {hp_12 : ∀ a, (![0] : Fin 1 → ℕ) a < S1.size a}
    {hs_13 : S16.Slices ![13] S1} {hp_13 : ∀ a, (![0] : Fin 1 → ℕ) a < S1.size a}
    {hs_14 : S16.Slices ![14] S1} {hp_14 : ∀ a, (![0] : Fin 1 → ℕ) a < S1.size a}
    {hs_15 : S16.Slices ![15] S1} {hp_15 : ∀ a, (![0] : Fin 1 → ℕ) a < S1.size a}
    {h1_0 : ∀ a, (![0, 0, 0] : Fin 3 → ℕ) a + S1x8x64.size a ≤ S16x8x64.size a} {h2_0 : ∀ a, (Rect.unit (s := S16x8x64) ![0, 0, 0] S1x8x64.size h1_0).stride a = 1} {h3_0 : S1x8x64.Squeezes S8x64}
    {h1_1 : ∀ a, (![1, 0, 0] : Fin 3 → ℕ) a + S1x8x64.size a ≤ S16x8x64.size a} {h2_1 : ∀ a, (Rect.unit (s := S16x8x64) ![1, 0, 0] S1x8x64.size h1_1).stride a = 1} {h3_1 : S1x8x64.Squeezes S8x64}
    {h1_2 : ∀ a, (![2, 0, 0] : Fin 3 → ℕ) a + S1x8x64.size a ≤ S16x8x64.size a} {h2_2 : ∀ a, (Rect.unit (s := S16x8x64) ![2, 0, 0] S1x8x64.size h1_2).stride a = 1} {h3_2 : S1x8x64.Squeezes S8x64}
    {h1_3 : ∀ a, (![3, 0, 0] : Fin 3 → ℕ) a + S1x8x64.size a ≤ S16x8x64.size a} {h2_3 : ∀ a, (Rect.unit (s := S16x8x64) ![3, 0, 0] S1x8x64.size h1_3).stride a = 1} {h3_3 : S1x8x64.Squeezes S8x64}
    {h1_4 : ∀ a, (![4, 0, 0] : Fin 3 → ℕ) a + S1x8x64.size a ≤ S16x8x64.size a} {h2_4 : ∀ a, (Rect.unit (s := S16x8x64) ![4, 0, 0] S1x8x64.size h1_4).stride a = 1} {h3_4 : S1x8x64.Squeezes S8x64}
    {h1_5 : ∀ a, (![5, 0, 0] : Fin 3 → ℕ) a + S1x8x64.size a ≤ S16x8x64.size a} {h2_5 : ∀ a, (Rect.unit (s := S16x8x64) ![5, 0, 0] S1x8x64.size h1_5).stride a = 1} {h3_5 : S1x8x64.Squeezes S8x64}
    {h1_6 : ∀ a, (![6, 0, 0] : Fin 3 → ℕ) a + S1x8x64.size a ≤ S16x8x64.size a} {h2_6 : ∀ a, (Rect.unit (s := S16x8x64) ![6, 0, 0] S1x8x64.size h1_6).stride a = 1} {h3_6 : S1x8x64.Squeezes S8x64}
    {h1_7 : ∀ a, (![7, 0, 0] : Fin 3 → ℕ) a + S1x8x64.size a ≤ S16x8x64.size a} {h2_7 : ∀ a, (Rect.unit (s := S16x8x64) ![7, 0, 0] S1x8x64.size h1_7).stride a = 1} {h3_7 : S1x8x64.Squeezes S8x64}
    {h1_8 : ∀ a, (![8, 0, 0] : Fin 3 → ℕ) a + S1x8x64.size a ≤ S16x8x64.size a} {h2_8 : ∀ a, (Rect.unit (s := S16x8x64) ![8, 0, 0] S1x8x64.size h1_8).stride a = 1} {h3_8 : S1x8x64.Squeezes S8x64}
    {h1_9 : ∀ a, (![9, 0, 0] : Fin 3 → ℕ) a + S1x8x64.size a ≤ S16x8x64.size a} {h2_9 : ∀ a, (Rect.unit (s := S16x8x64) ![9, 0, 0] S1x8x64.size h1_9).stride a = 1} {h3_9 : S1x8x64.Squeezes S8x64}
    {h1_10 : ∀ a, (![10, 0, 0] : Fin 3 → ℕ) a + S1x8x64.size a ≤ S16x8x64.size a} {h2_10 : ∀ a, (Rect.unit (s := S16x8x64) ![10, 0, 0] S1x8x64.size h1_10).stride a = 1} {h3_10 : S1x8x64.Squeezes S8x64}
    {h1_11 : ∀ a, (![11, 0, 0] : Fin 3 → ℕ) a + S1x8x64.size a ≤ S16x8x64.size a} {h2_11 : ∀ a, (Rect.unit (s := S16x8x64) ![11, 0, 0] S1x8x64.size h1_11).stride a = 1} {h3_11 : S1x8x64.Squeezes S8x64}
    {h1_12 : ∀ a, (![12, 0, 0] : Fin 3 → ℕ) a + S1x8x64.size a ≤ S16x8x64.size a} {h2_12 : ∀ a, (Rect.unit (s := S16x8x64) ![12, 0, 0] S1x8x64.size h1_12).stride a = 1} {h3_12 : S1x8x64.Squeezes S8x64}
    {h1_13 : ∀ a, (![13, 0, 0] : Fin 3 → ℕ) a + S1x8x64.size a ≤ S16x8x64.size a} {h2_13 : ∀ a, (Rect.unit (s := S16x8x64) ![13, 0, 0] S1x8x64.size h1_13).stride a = 1} {h3_13 : S1x8x64.Squeezes S8x64}
    {h1_14 : ∀ a, (![14, 0, 0] : Fin 3 → ℕ) a + S1x8x64.size a ≤ S16x8x64.size a} {h2_14 : ∀ a, (Rect.unit (s := S16x8x64) ![14, 0, 0] S1x8x64.size h1_14).stride a = 1} {h3_14 : S1x8x64.Squeezes S8x64}
    {h1_15 : ∀ a, (![15, 0, 0] : Fin 3 → ℕ) a + S1x8x64.size a ≤ S16x8x64.size a} {h2_15 : ∀ a, (Rect.unit (s := S16x8x64) ![15, 0, 0] S1x8x64.size h1_15).stride a = 1} {h3_15 : S1x8x64.Squeezes S8x64}
    {g1_0 : ∀ a, (![(laneU m d L off inb 0 hs_0 hp_0).toNat, 0, 0] : Fin 3 → ℕ) a + S1x8x64.size a ≤ S125000x8x64.size a} {g2_0 : ∀ a, (Rect.unit (s := S125000x8x64) ![(laneU m d L off inb 0 hs_0 hp_0).toNat, 0, 0] S1x8x64.size g1_0).stride a = 1}
    {g1_1 : ∀ a, (![(laneU m d L off inb 1 hs_1 hp_1).toNat, 0, 0] : Fin 3 → ℕ) a + S1x8x64.size a ≤ S125000x8x64.size a} {g2_1 : ∀ a, (Rect.unit (s := S125000x8x64) ![(laneU m d L off inb 1 hs_1 hp_1).toNat, 0, 0] S1x8x64.size g1_1).stride a = 1}
    {g1_2 : ∀ a, (![(laneU m d L off inb 2 hs_2 hp_2).toNat, 0, 0] : Fin 3 → ℕ) a + S1x8x64.size a ≤ S125000x8x64.size a} {g2_2 : ∀ a, (Rect.unit (s := S125000x8x64) ![(laneU m d L off inb 2 hs_2 hp_2).toNat, 0, 0] S1x8x64.size g1_2).stride a = 1}
    {g1_3 : ∀ a, (![(laneU m d L off inb 3 hs_3 hp_3).toNat, 0, 0] : Fin 3 → ℕ) a + S1x8x64.size a ≤ S125000x8x64.size a} {g2_3 : ∀ a, (Rect.unit (s := S125000x8x64) ![(laneU m d L off inb 3 hs_3 hp_3).toNat, 0, 0] S1x8x64.size g1_3).stride a = 1}
    {g1_4 : ∀ a, (![(laneU m d L off inb 4 hs_4 hp_4).toNat, 0, 0] : Fin 3 → ℕ) a + S1x8x64.size a ≤ S125000x8x64.size a} {g2_4 : ∀ a, (Rect.unit (s := S125000x8x64) ![(laneU m d L off inb 4 hs_4 hp_4).toNat, 0, 0] S1x8x64.size g1_4).stride a = 1}
    {g1_5 : ∀ a, (![(laneU m d L off inb 5 hs_5 hp_5).toNat, 0, 0] : Fin 3 → ℕ) a + S1x8x64.size a ≤ S125000x8x64.size a} {g2_5 : ∀ a, (Rect.unit (s := S125000x8x64) ![(laneU m d L off inb 5 hs_5 hp_5).toNat, 0, 0] S1x8x64.size g1_5).stride a = 1}
    {g1_6 : ∀ a, (![(laneU m d L off inb 6 hs_6 hp_6).toNat, 0, 0] : Fin 3 → ℕ) a + S1x8x64.size a ≤ S125000x8x64.size a} {g2_6 : ∀ a, (Rect.unit (s := S125000x8x64) ![(laneU m d L off inb 6 hs_6 hp_6).toNat, 0, 0] S1x8x64.size g1_6).stride a = 1}
    {g1_7 : ∀ a, (![(laneU m d L off inb 7 hs_7 hp_7).toNat, 0, 0] : Fin 3 → ℕ) a + S1x8x64.size a ≤ S125000x8x64.size a} {g2_7 : ∀ a, (Rect.unit (s := S125000x8x64) ![(laneU m d L off inb 7 hs_7 hp_7).toNat, 0, 0] S1x8x64.size g1_7).stride a = 1}
    {g1_8 : ∀ a, (![(laneU m d L off inb 8 hs_8 hp_8).toNat, 0, 0] : Fin 3 → ℕ) a + S1x8x64.size a ≤ S125000x8x64.size a} {g2_8 : ∀ a, (Rect.unit (s := S125000x8x64) ![(laneU m d L off inb 8 hs_8 hp_8).toNat, 0, 0] S1x8x64.size g1_8).stride a = 1}
    {g1_9 : ∀ a, (![(laneU m d L off inb 9 hs_9 hp_9).toNat, 0, 0] : Fin 3 → ℕ) a + S1x8x64.size a ≤ S125000x8x64.size a} {g2_9 : ∀ a, (Rect.unit (s := S125000x8x64) ![(laneU m d L off inb 9 hs_9 hp_9).toNat, 0, 0] S1x8x64.size g1_9).stride a = 1}
    {g1_10 : ∀ a, (![(laneU m d L off inb 10 hs_10 hp_10).toNat, 0, 0] : Fin 3 → ℕ) a + S1x8x64.size a ≤ S125000x8x64.size a} {g2_10 : ∀ a, (Rect.unit (s := S125000x8x64) ![(laneU m d L off inb 10 hs_10 hp_10).toNat, 0, 0] S1x8x64.size g1_10).stride a = 1}
    {g1_11 : ∀ a, (![(laneU m d L off inb 11 hs_11 hp_11).toNat, 0, 0] : Fin 3 → ℕ) a + S1x8x64.size a ≤ S125000x8x64.size a} {g2_11 : ∀ a, (Rect.unit (s := S125000x8x64) ![(laneU m d L off inb 11 hs_11 hp_11).toNat, 0, 0] S1x8x64.size g1_11).stride a = 1}
    {g1_12 : ∀ a, (![(laneU m d L off inb 12 hs_12 hp_12).toNat, 0, 0] : Fin 3 → ℕ) a + S1x8x64.size a ≤ S125000x8x64.size a} {g2_12 : ∀ a, (Rect.unit (s := S125000x8x64) ![(laneU m d L off inb 12 hs_12 hp_12).toNat, 0, 0] S1x8x64.size g1_12).stride a = 1}
    {g1_13 : ∀ a, (![(laneU m d L off inb 13 hs_13 hp_13).toNat, 0, 0] : Fin 3 → ℕ) a + S1x8x64.size a ≤ S125000x8x64.size a} {g2_13 : ∀ a, (Rect.unit (s := S125000x8x64) ![(laneU m d L off inb 13 hs_13 hp_13).toNat, 0, 0] S1x8x64.size g1_13).stride a = 1}
    {g1_14 : ∀ a, (![(laneU m d L off inb 14 hs_14 hp_14).toNat, 0, 0] : Fin 3 → ℕ) a + S1x8x64.size a ≤ S125000x8x64.size a} {g2_14 : ∀ a, (Rect.unit (s := S125000x8x64) ![(laneU m d L off inb 14 hs_14 hp_14).toNat, 0, 0] S1x8x64.size g1_14).stride a = 1}
    {g1_15 : ∀ a, (![(laneU m d L off inb 15 hs_15 hp_15).toNat, 0, 0] : Fin 3 → ℕ) a + S1x8x64.size a ≤ S125000x8x64.size a} {g2_15 : ∀ a, (Rect.unit (s := S125000x8x64) ![(laneU m d L off inb 15 hs_15 hp_15).toNat, 0, 0] S1x8x64.size g1_15).stride a = 1}
    {prior : (slotV sUA 0 h1_0 h2_0 h3_0).ty.Contents (Elt F)} :
    LandedU m d L c
      (View.write (Elt F) (slotV sUA 15 h1_15 h2_15 h3_15) (View.write (Elt F) (slotV sUA 14 h1_14 h2_14 h3_14) (View.write (Elt F) (slotV sUA 13 h1_13 h2_13 h3_13) (View.write (Elt F) (slotV sUA 12 h1_12 h2_12 h3_12) (View.write (Elt F) (slotV sUA 11 h1_11 h2_11 h3_11) (View.write (Elt F) (slotV sUA 10 h1_10 h2_10 h3_10) (View.write (Elt F) (slotV sUA 9 h1_9 h2_9 h3_9) (View.write (Elt F) (slotV sUA 8 h1_8 h2_8 h3_8) (View.write (Elt F) (slotV sUA 7 h1_7 h2_7 h3_7) (View.write (Elt F) (slotV sUA 6 h1_6 h2_6 h3_6) (View.write (Elt F) (slotV sUA 5 h1_5 h2_5 h3_5) (View.write (Elt F) (slotV sUA 4 h1_4 h2_4 h3_4) (View.write (Elt F) (slotV sUA 3 h1_3 h2_3 h3_3) (View.write (Elt F) (slotV sUA 2 h1_2 h2_2 h3_2) (View.write (Elt F) (slotV sUA 1 h1_1 h2_1 h3_1) (View.write (Elt F) (slotV sUA 0 h1_0 h2_0 h3_0) prior (ReadAs.same.apply ((rowV uwV (laneU m d L off inb 0 hs_0 hp_0).toNat g1_0 g2_0).view.read (Elt F) (W0 m d))) Finset.univ) (ReadAs.same.apply ((rowV uwV (laneU m d L off inb 1 hs_1 hp_1).toNat g1_1 g2_1).view.read (Elt F) (W0 m d))) Finset.univ) (ReadAs.same.apply ((rowV uwV (laneU m d L off inb 2 hs_2 hp_2).toNat g1_2 g2_2).view.read (Elt F) (W0 m d))) Finset.univ) (ReadAs.same.apply ((rowV uwV (laneU m d L off inb 3 hs_3 hp_3).toNat g1_3 g2_3).view.read (Elt F) (W0 m d))) Finset.univ) (ReadAs.same.apply ((rowV uwV (laneU m d L off inb 4 hs_4 hp_4).toNat g1_4 g2_4).view.read (Elt F) (W0 m d))) Finset.univ) (ReadAs.same.apply ((rowV uwV (laneU m d L off inb 5 hs_5 hp_5).toNat g1_5 g2_5).view.read (Elt F) (W0 m d))) Finset.univ) (ReadAs.same.apply ((rowV uwV (laneU m d L off inb 6 hs_6 hp_6).toNat g1_6 g2_6).view.read (Elt F) (W0 m d))) Finset.univ) (ReadAs.same.apply ((rowV uwV (laneU m d L off inb 7 hs_7 hp_7).toNat g1_7 g2_7).view.read (Elt F) (W0 m d))) Finset.univ) (ReadAs.same.apply ((rowV uwV (laneU m d L off inb 8 hs_8 hp_8).toNat g1_8 g2_8).view.read (Elt F) (W0 m d))) Finset.univ) (ReadAs.same.apply ((rowV uwV (laneU m d L off inb 9 hs_9 hp_9).toNat g1_9 g2_9).view.read (Elt F) (W0 m d))) Finset.univ) (ReadAs.same.apply ((rowV uwV (laneU m d L off inb 10 hs_10 hp_10).toNat g1_10 g2_10).view.read (Elt F) (W0 m d))) Finset.univ) (ReadAs.same.apply ((rowV uwV (laneU m d L off inb 11 hs_11 hp_11).toNat g1_11 g2_11).view.read (Elt F) (W0 m d))) Finset.univ) (ReadAs.same.apply ((rowV uwV (laneU m d L off inb 12 hs_12 hp_12).toNat g1_12 g2_12).view.read (Elt F) (W0 m d))) Finset.univ) (ReadAs.same.apply ((rowV uwV (laneU m d L off inb 13 hs_13 hp_13).toNat g1_13 g2_13).view.read (Elt F) (W0 m d))) Finset.univ) (ReadAs.same.apply ((rowV uwV (laneU m d L off inb 14 hs_14 hp_14).toNat g1_14 g2_14).view.read (Elt F) (W0 m d))) Finset.univ) (ReadAs.same.apply ((rowV uwV (laneU m d L off inb 15 hs_15 hp_15).toNat g1_15 g2_15).view.read (Elt F) (W0 m d))) Finset.univ) := by
  have hw : ∀ s : Fin 16, (![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s = (CU m d L (pos c s)) >>> 3 := by
    intro s
    fin_cases s
    · exact laneU_eq m d L c hc off ho inb 0 (by decide) hs_0 hp_0
    · exact laneU_eq m d L c hc off ho inb 1 (by decide) hs_1 hp_1
    · exact laneU_eq m d L c hc off ho inb 2 (by decide) hs_2 hp_2
    · exact laneU_eq m d L c hc off ho inb 3 (by decide) hs_3 hp_3
    · exact laneU_eq m d L c hc off ho inb 4 (by decide) hs_4 hp_4
    · exact laneU_eq m d L c hc off ho inb 5 (by decide) hs_5 hp_5
    · exact laneU_eq m d L c hc off ho inb 6 (by decide) hs_6 hp_6
    · exact laneU_eq m d L c hc off ho inb 7 (by decide) hs_7 hp_7
    · exact laneU_eq m d L c hc off ho inb 8 (by decide) hs_8 hp_8
    · exact laneU_eq m d L c hc off ho inb 9 (by decide) hs_9 hp_9
    · exact laneU_eq m d L c hc off ho inb 10 (by decide) hs_10 hp_10
    · exact laneU_eq m d L c hc off ho inb 11 (by decide) hs_11 hp_11
    · exact laneU_eq m d L c hc off ho inb 12 (by decide) hs_12 hp_12
    · exact laneU_eq m d L c hc off ho inb 13 (by decide) hs_13 hp_13
    · exact laneU_eq m d L c hc off ho inb 14 (by decide) hs_14 hp_14
    · exact laneU_eq m d L c hc off ho inb 15 (by decide) hs_15 hp_15
  have hb : ∀ s : Fin 16, ((![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s).toNat < 125000 := fun s => by
    rw [hw s]; exact shr3_lt (v := CU m d L (pos c s)) (hpre d _).1
  intro s r f
  refine (landed_of_nest_UA_word (F := F) d (![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) hb (W0 m d)
    h1_0 h2_0 h3_0 h1_1 h2_1 h3_1 h1_2 h2_2 h3_2 h1_3 h2_3 h3_3 h1_4 h2_4 h3_4 h1_5 h2_5 h3_5 h1_6 h2_6 h3_6 h1_7 h2_7 h3_7 h1_8 h2_8 h3_8 h1_9 h2_9 h3_9 h1_10 h2_10 h3_10 h1_11 h2_11 h3_11 h1_12 h2_12 h3_12 h1_13 h2_13 h3_13 h1_14 h2_14 h3_14 h1_15 h2_15 h3_15
    g1_0 g2_0 g1_1 g2_1 g1_2 g2_2 g1_3 g2_3 g1_4 g2_4 g1_5 g2_5 g1_6 g2_6 g1_7 g2_7 g1_8 g2_8 g1_9 g2_9 g1_10 g2_10 g1_11 g2_11 g1_12 g2_12 g1_13 g2_13 g1_14 g2_14 g1_15 g2_15 prior s r f).trans ?_
  refine congrArg (fun b => W0 m d (ValueIdx.ix3 (n0 := 125000) (n1 := 8) (n2 := 64) b r f)) (Fin.ext ?_)
  show ((![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s).toNat = ((CU m d L (pos c s)) >>> 3).toNat % 125000
  rw [hw s]
  exact (shr3_mod (v := CU m d L (pos c s)) (hpre d _).1).symm

/-- Lane `j` of the chunk of `sI` at the offsets `off`, shifted right by 3: the block number the program extracts. -/
abbrev laneI (d : Dev nD) (L : grid0.Coords) (off : Fin 1 → ℕ) (inb : ∀ a, off a + S16.size a ≤ S512.size a) (j : ℕ)
    (hs : S16.Slices ![j] S1) (hp : ∀ a, (![0] : Fin 1 → ℕ) a < S1.size a) : BitVec 32 :=
  extractAt ![0] (extractStridedSlice (s := S16) S1 ![j] (shrui (s := S16) (((sI : Memref sig .scVector .vmem S512 .i32).view.readAt (Elt F)
    (Rect.unit (s := S512) off S16.size inb).toLoadRect (CI m d L) : IVec S16 32)) (broadcast S16 3#32)) hs) hp

omit [FloatOps F] in
/-- Lane `j` of chunk `c` is the block number of the index at position `16 c + j`. -/
theorem laneI_eq (d : Dev nD) (L : grid0.Coords) (c : ℕ) (hc : 16 * c + 16 ≤ 512) (off : Fin 1 → ℕ) (ho : off 0 = 16 * c)
    (inb : ∀ a, off a + S16.size a ≤ S512.size a) (j : ℕ) (hj : j < 16) (hs : S16.Slices ![j] S1)
    (hp : ∀ a, (![0] : Fin 1 → ℕ) a < S1.size a) :
    laneI m d L off inb j hs hp = (CI m d L (pos c ⟨j, hj⟩)) >>> 3 := by
  refine (lane_val_I_off (F := F) (CI m d L) off (16 * c) ho inb j hj hs hp).trans ?_
  refine congrArg (fun i => CI m d L i >>> 3) ?_
  unfold pos
  refine congrArg (ValueIdx.ix1 (n := 512)) (Fin.ext ?_)
  show 16 * c + j = (16 * c + j) % 512
  rw [Nat.mod_eq_of_lt (by omega)]

/-- `sIA` AFTER THE SIXTEEN COPIES OF CHUNK `c`: each slot was written with the block its lane of the chunk names, so the
    buffer holds, slot by slot, the table blocks the chunk's sixteen indices name. -/
theorem landedI_trip (hpre : PreOK m) (d : Dev nD) (L : grid0.Coords) (c : ℕ) (hc : 16 * c + 16 ≤ 512) (off : Fin 1 → ℕ) (ho : off 0 = 16 * c)
    {inb : ∀ a, off a + S16.size a ≤ S512.size a}
    {hs_0 : S16.Slices ![0] S1} {hp_0 : ∀ a, (![0] : Fin 1 → ℕ) a < S1.size a}
    {hs_1 : S16.Slices ![1] S1} {hp_1 : ∀ a, (![0] : Fin 1 → ℕ) a < S1.size a}
    {hs_2 : S16.Slices ![2] S1} {hp_2 : ∀ a, (![0] : Fin 1 → ℕ) a < S1.size a}
    {hs_3 : S16.Slices ![3] S1} {hp_3 : ∀ a, (![0] : Fin 1 → ℕ) a < S1.size a}
    {hs_4 : S16.Slices ![4] S1} {hp_4 : ∀ a, (![0] : Fin 1 → ℕ) a < S1.size a}
    {hs_5 : S16.Slices ![5] S1} {hp_5 : ∀ a, (![0] : Fin 1 → ℕ) a < S1.size a}
    {hs_6 : S16.Slices ![6] S1} {hp_6 : ∀ a, (![0] : Fin 1 → ℕ) a < S1.size a}
    {hs_7 : S16.Slices ![7] S1} {hp_7 : ∀ a, (![0] : Fin 1 → ℕ) a < S1.size a}
    {hs_8 : S16.Slices ![8] S1} {hp_8 : ∀ a, (![0] : Fin 1 → ℕ) a < S1.size a}
    {hs_9 : S16.Slices ![9] S1} {hp_9 : ∀ a, (![0] : Fin 1 → ℕ) a < S1.size a}
    {hs_10 : S16.Slices ![10] S1} {hp_10 : ∀ a, (![0] : Fin 1 → ℕ) a < S1.size a}
    {hs_11 : S16.Slices ![11] S1} {hp_11 : ∀ a, (![0] : Fin 1 → ℕ) a < S1.size a}
    {hs_12 : S16.Slices ![12] S1} {hp_12 : ∀ a, (![0] : Fin 1 → ℕ) a < S1.size a}
    {hs_13 : S16.Slices ![13] S1} {hp_13 : ∀ a, (![0] : Fin 1 → ℕ) a < S1.size a}
    {hs_14 : S16.Slices ![14] S1} {hp_14 : ∀ a, (![0] : Fin 1 → ℕ) a < S1.size a}
    {hs_15 : S16.Slices ![15] S1} {hp_15 : ∀ a, (![0] : Fin 1 → ℕ) a < S1.size a}
    {h1_0 : ∀ a, (![0, 0, 0] : Fin 3 → ℕ) a + S1x8x64.size a ≤ S16x8x64.size a} {h2_0 : ∀ a, (Rect.unit (s := S16x8x64) ![0, 0, 0] S1x8x64.size h1_0).stride a = 1} {h3_0 : S1x8x64.Squeezes S8x64}
    {h1_1 : ∀ a, (![1, 0, 0] : Fin 3 → ℕ) a + S1x8x64.size a ≤ S16x8x64.size a} {h2_1 : ∀ a, (Rect.unit (s := S16x8x64) ![1, 0, 0] S1x8x64.size h1_1).stride a = 1} {h3_1 : S1x8x64.Squeezes S8x64}
    {h1_2 : ∀ a, (![2, 0, 0] : Fin 3 → ℕ) a + S1x8x64.size a ≤ S16x8x64.size a} {h2_2 : ∀ a, (Rect.unit (s := S16x8x64) ![2, 0, 0] S1x8x64.size h1_2).stride a = 1} {h3_2 : S1x8x64.Squeezes S8x64}
    {h1_3 : ∀ a, (![3, 0, 0] : Fin 3 → ℕ) a + S1x8x64.size a ≤ S16x8x64.size a} {h2_3 : ∀ a, (Rect.unit (s := S16x8x64) ![3, 0, 0] S1x8x64.size h1_3).stride a = 1} {h3_3 : S1x8x64.Squeezes S8x64}
    {h1_4 : ∀ a, (![4, 0, 0] : Fin 3 → ℕ) a + S1x8x64.size a ≤ S16x8x64.size a} {h2_4 : ∀ a, (Rect.unit (s := S16x8x64) ![4, 0, 0] S1x8x64.size h1_4).stride a = 1} {h3_4 : S1x8x64.Squeezes S8x64}
    {h1_5 : ∀ a, (![5, 0, 0] : Fin 3 → ℕ) a + S1x8x64.size a ≤ S16x8x64.size a} {h2_5 : ∀ a, (Rect.unit (s := S16x8x64) ![5, 0, 0] S1x8x64.size h1_5).stride a = 1} {h3_5 : S1x8x64.Squeezes S8x64}
    {h1_6 : ∀ a, (![6, 0, 0] : Fin 3 → ℕ) a + S1x8x64.size a ≤ S16x8x64.size a} {h2_6 : ∀ a, (Rect.unit (s := S16x8x64) ![6, 0, 0] S1x8x64.size h1_6).stride a = 1} {h3_6 : S1x8x64.Squeezes S8x64}
    {h1_7 : ∀ a, (![7, 0, 0] : Fin 3 → ℕ) a + S1x8x64.size a ≤ S16x8x64.size a} {h2_7 : ∀ a, (Rect.unit (s := S16x8x64) ![7, 0, 0] S1x8x64.size h1_7).stride a = 1} {h3_7 : S1x8x64.Squeezes S8x64}
    {h1_8 : ∀ a, (![8, 0, 0] : Fin 3 → ℕ) a + S1x8x64.size a ≤ S16x8x64.size a} {h2_8 : ∀ a, (Rect.unit (s := S16x8x64) ![8, 0, 0] S1x8x64.size h1_8).stride a = 1} {h3_8 : S1x8x64.Squeezes S8x64}
    {h1_9 : ∀ a, (![9, 0, 0] : Fin 3 → ℕ) a + S1x8x64.size a ≤ S16x8x64.size a} {h2_9 : ∀ a, (Rect.unit (s := S16x8x64) ![9, 0, 0] S1x8x64.size h1_9).stride a = 1} {h3_9 : S1x8x64.Squeezes S8x64}
    {h1_10 : ∀ a, (![10, 0, 0] : Fin 3 → ℕ) a + S1x8x64.size a ≤ S16x8x64.size a} {h2_10 : ∀ a, (Rect.unit (s := S16x8x64) ![10, 0, 0] S1x8x64.size h1_10).stride a = 1} {h3_10 : S1x8x64.Squeezes S8x64}
    {h1_11 : ∀ a, (![11, 0, 0] : Fin 3 → ℕ) a + S1x8x64.size a ≤ S16x8x64.size a} {h2_11 : ∀ a, (Rect.unit (s := S16x8x64) ![11, 0, 0] S1x8x64.size h1_11).stride a = 1} {h3_11 : S1x8x64.Squeezes S8x64}
    {h1_12 : ∀ a, (![12, 0, 0] : Fin 3 → ℕ) a + S1x8x64.size a ≤ S16x8x64.size a} {h2_12 : ∀ a, (Rect.unit (s := S16x8x64) ![12, 0, 0] S1x8x64.size h1_12).stride a = 1} {h3_12 : S1x8x64.Squeezes S8x64}
    {h1_13 : ∀ a, (![13, 0, 0] : Fin 3 → ℕ) a + S1x8x64.size a ≤ S16x8x64.size a} {h2_13 : ∀ a, (Rect.unit (s := S16x8x64) ![13, 0, 0] S1x8x64.size h1_13).stride a = 1} {h3_13 : S1x8x64.Squeezes S8x64}
    {h1_14 : ∀ a, (![14, 0, 0] : Fin 3 → ℕ) a + S1x8x64.size a ≤ S16x8x64.size a} {h2_14 : ∀ a, (Rect.unit (s := S16x8x64) ![14, 0, 0] S1x8x64.size h1_14).stride a = 1} {h3_14 : S1x8x64.Squeezes S8x64}
    {h1_15 : ∀ a, (![15, 0, 0] : Fin 3 → ℕ) a + S1x8x64.size a ≤ S16x8x64.size a} {h2_15 : ∀ a, (Rect.unit (s := S16x8x64) ![15, 0, 0] S1x8x64.size h1_15).stride a = 1} {h3_15 : S1x8x64.Squeezes S8x64}
    {g1_0 : ∀ a, (![(laneI m d L off inb 0 hs_0 hp_0).toNat, 0, 0] : Fin 3 → ℕ) a + S1x8x64.size a ≤ S125000x8x64.size a} {g2_0 : ∀ a, (Rect.unit (s := S125000x8x64) ![(laneI m d L off inb 0 hs_0 hp_0).toNat, 0, 0] S1x8x64.size g1_0).stride a = 1}
    {g1_1 : ∀ a, (![(laneI m d L off inb 1 hs_1 hp_1).toNat, 0, 0] : Fin 3 → ℕ) a + S1x8x64.size a ≤ S125000x8x64.size a} {g2_1 : ∀ a, (Rect.unit (s := S125000x8x64) ![(laneI m d L off inb 1 hs_1 hp_1).toNat, 0, 0] S1x8x64.size g1_1).stride a = 1}
    {g1_2 : ∀ a, (![(laneI m d L off inb 2 hs_2 hp_2).toNat, 0, 0] : Fin 3 → ℕ) a + S1x8x64.size a ≤ S125000x8x64.size a} {g2_2 : ∀ a, (Rect.unit (s := S125000x8x64) ![(laneI m d L off inb 2 hs_2 hp_2).toNat, 0, 0] S1x8x64.size g1_2).stride a = 1}
    {g1_3 : ∀ a, (![(laneI m d L off inb 3 hs_3 hp_3).toNat, 0, 0] : Fin 3 → ℕ) a + S1x8x64.size a ≤ S125000x8x64.size a} {g2_3 : ∀ a, (Rect.unit (s := S125000x8x64) ![(laneI m d L off inb 3 hs_3 hp_3).toNat, 0, 0] S1x8x64.size g1_3).stride a = 1}
    {g1_4 : ∀ a, (![(laneI m d L off inb 4 hs_4 hp_4).toNat, 0, 0] : Fin 3 → ℕ) a + S1x8x64.size a ≤ S125000x8x64.size a} {g2_4 : ∀ a, (Rect.unit (s := S125000x8x64) ![(laneI m d L off inb 4 hs_4 hp_4).toNat, 0, 0] S1x8x64.size g1_4).stride a = 1}
    {g1_5 : ∀ a, (![(laneI m d L off inb 5 hs_5 hp_5).toNat, 0, 0] : Fin 3 → ℕ) a + S1x8x64.size a ≤ S125000x8x64.size a} {g2_5 : ∀ a, (Rect.unit (s := S125000x8x64) ![(laneI m d L off inb 5 hs_5 hp_5).toNat, 0, 0] S1x8x64.size g1_5).stride a = 1}
    {g1_6 : ∀ a, (![(laneI m d L off inb 6 hs_6 hp_6).toNat, 0, 0] : Fin 3 → ℕ) a + S1x8x64.size a ≤ S125000x8x64.size a} {g2_6 : ∀ a, (Rect.unit (s := S125000x8x64) ![(laneI m d L off inb 6 hs_6 hp_6).toNat, 0, 0] S1x8x64.size g1_6).stride a = 1}
    {g1_7 : ∀ a, (![(laneI m d L off inb 7 hs_7 hp_7).toNat, 0, 0] : Fin 3 → ℕ) a + S1x8x64.size a ≤ S125000x8x64.size a} {g2_7 : ∀ a, (Rect.unit (s := S125000x8x64) ![(laneI m d L off inb 7 hs_7 hp_7).toNat, 0, 0] S1x8x64.size g1_7).stride a = 1}
    {g1_8 : ∀ a, (![(laneI m d L off inb 8 hs_8 hp_8).toNat, 0, 0] : Fin 3 → ℕ) a + S1x8x64.size a ≤ S125000x8x64.size a} {g2_8 : ∀ a, (Rect.unit (s := S125000x8x64) ![(laneI m d L off inb 8 hs_8 hp_8).toNat, 0, 0] S1x8x64.size g1_8).stride a = 1}
    {g1_9 : ∀ a, (![(laneI m d L off inb 9 hs_9 hp_9).toNat, 0, 0] : Fin 3 → ℕ) a + S1x8x64.size a ≤ S125000x8x64.size a} {g2_9 : ∀ a, (Rect.unit (s := S125000x8x64) ![(laneI m d L off inb 9 hs_9 hp_9).toNat, 0, 0] S1x8x64.size g1_9).stride a = 1}
    {g1_10 : ∀ a, (![(laneI m d L off inb 10 hs_10 hp_10).toNat, 0, 0] : Fin 3 → ℕ) a + S1x8x64.size a ≤ S125000x8x64.size a} {g2_10 : ∀ a, (Rect.unit (s := S125000x8x64) ![(laneI m d L off inb 10 hs_10 hp_10).toNat, 0, 0] S1x8x64.size g1_10).stride a = 1}
    {g1_11 : ∀ a, (![(laneI m d L off inb 11 hs_11 hp_11).toNat, 0, 0] : Fin 3 → ℕ) a + S1x8x64.size a ≤ S125000x8x64.size a} {g2_11 : ∀ a, (Rect.unit (s := S125000x8x64) ![(laneI m d L off inb 11 hs_11 hp_11).toNat, 0, 0] S1x8x64.size g1_11).stride a = 1}
    {g1_12 : ∀ a, (![(laneI m d L off inb 12 hs_12 hp_12).toNat, 0, 0] : Fin 3 → ℕ) a + S1x8x64.size a ≤ S125000x8x64.size a} {g2_12 : ∀ a, (Rect.unit (s := S125000x8x64) ![(laneI m d L off inb 12 hs_12 hp_12).toNat, 0, 0] S1x8x64.size g1_12).stride a = 1}
    {g1_13 : ∀ a, (![(laneI m d L off inb 13 hs_13 hp_13).toNat, 0, 0] : Fin 3 → ℕ) a + S1x8x64.size a ≤ S125000x8x64.size a} {g2_13 : ∀ a, (Rect.unit (s := S125000x8x64) ![(laneI m d L off inb 13 hs_13 hp_13).toNat, 0, 0] S1x8x64.size g1_13).stride a = 1}
    {g1_14 : ∀ a, (![(laneI m d L off inb 14 hs_14 hp_14).toNat, 0, 0] : Fin 3 → ℕ) a + S1x8x64.size a ≤ S125000x8x64.size a} {g2_14 : ∀ a, (Rect.unit (s := S125000x8x64) ![(laneI m d L off inb 14 hs_14 hp_14).toNat, 0, 0] S1x8x64.size g1_14).stride a = 1}
    {g1_15 : ∀ a, (![(laneI m d L off inb 15 hs_15 hp_15).toNat, 0, 0] : Fin 3 → ℕ) a + S1x8x64.size a ≤ S125000x8x64.size a} {g2_15 : ∀ a, (Rect.unit (s := S125000x8x64) ![(laneI m d L off inb 15 hs_15 hp_15).toNat, 0, 0] S1x8x64.size g1_15).stride a = 1}
    {prior : (slotV sIA 0 h1_0 h2_0 h3_0).ty.Contents (Elt F)} :
    LandedI m d L c
      (View.write (Elt F) (slotV sIA 15 h1_15 h2_15 h3_15) (View.write (Elt F) (slotV sIA 14 h1_14 h2_14 h3_14) (View.write (Elt F) (slotV sIA 13 h1_13 h2_13 h3_13) (View.write (Elt F) (slotV sIA 12 h1_12 h2_12 h3_12) (View.write (Elt F) (slotV sIA 11 h1_11 h2_11 h3_11) (View.write (Elt F) (slotV sIA 10 h1_10 h2_10 h3_10) (View.write (Elt F) (slotV sIA 9 h1_9 h2_9 h3_9) (View.write (Elt F) (slotV sIA 8 h1_8 h2_8 h3_8) (View.write (Elt F) (slotV sIA 7 h1_7 h2_7 h3_7) (View.write (Elt F) (slotV sIA 6 h1_6 h2_6 h3_6) (View.write (Elt F) (slotV sIA 5 h1_5 h2_5 h3_5) (View.write (Elt F) (slotV sIA 4 h1_4 h2_4 h3_4) (View.write (Elt F) (slotV sIA 3 h1_3 h2_3 h3_3) (View.write (Elt F) (slotV sIA 2 h1_2 h2_2 h3_2) (View.write (Elt F) (slotV sIA 1 h1_1 h2_1 h3_1) (View.write (Elt F) (slotV sIA 0 h1_0 h2_0 h3_0) prior (ReadAs.same.apply ((rowV iwV (laneI m d L off inb 0 hs_0 hp_0).toNat g1_0 g2_0).view.read (Elt F) (W1 m d))) Finset.univ) (ReadAs.same.apply ((rowV iwV (laneI m d L off inb 1 hs_1 hp_1).toNat g1_1 g2_1).view.read (Elt F) (W1 m d))) Finset.univ) (ReadAs.same.apply ((rowV iwV (laneI m d L off inb 2 hs_2 hp_2).toNat g1_2 g2_2).view.read (Elt F) (W1 m d))) Finset.univ) (ReadAs.same.apply ((rowV iwV (laneI m d L off inb 3 hs_3 hp_3).toNat g1_3 g2_3).view.read (Elt F) (W1 m d))) Finset.univ) (ReadAs.same.apply ((rowV iwV (laneI m d L off inb 4 hs_4 hp_4).toNat g1_4 g2_4).view.read (Elt F) (W1 m d))) Finset.univ) (ReadAs.same.apply ((rowV iwV (laneI m d L off inb 5 hs_5 hp_5).toNat g1_5 g2_5).view.read (Elt F) (W1 m d))) Finset.univ) (ReadAs.same.apply ((rowV iwV (laneI m d L off inb 6 hs_6 hp_6).toNat g1_6 g2_6).view.read (Elt F) (W1 m d))) Finset.univ) (ReadAs.same.apply ((rowV iwV (laneI m d L off inb 7 hs_7 hp_7).toNat g1_7 g2_7).view.read (Elt F) (W1 m d))) Finset.univ) (ReadAs.same.apply ((rowV iwV (laneI m d L off inb 8 hs_8 hp_8).toNat g1_8 g2_8).view.read (Elt F) (W1 m d))) Finset.univ) (ReadAs.same.apply ((rowV iwV (laneI m d L off inb 9 hs_9 hp_9).toNat g1_9 g2_9).view.read (Elt F) (W1 m d))) Finset.univ) (ReadAs.same.apply ((rowV iwV (laneI m d L off inb 10 hs_10 hp_10).toNat g1_10 g2_10).view.read (Elt F) (W1 m d))) Finset.univ) (ReadAs.same.apply ((rowV iwV (laneI m d L off inb 11 hs_11 hp_11).toNat g1_11 g2_11).view.read (Elt F) (W1 m d))) Finset.univ) (ReadAs.same.apply ((rowV iwV (laneI m d L off inb 12 hs_12 hp_12).toNat g1_12 g2_12).view.read (Elt F) (W1 m d))) Finset.univ) (ReadAs.same.apply ((rowV iwV (laneI m d L off inb 13 hs_13 hp_13).toNat g1_13 g2_13).view.read (Elt F) (W1 m d))) Finset.univ) (ReadAs.same.apply ((rowV iwV (laneI m d L off inb 14 hs_14 hp_14).toNat g1_14 g2_14).view.read (Elt F) (W1 m d))) Finset.univ) (ReadAs.same.apply ((rowV iwV (laneI m d L off inb 15 hs_15 hp_15).toNat g1_15 g2_15).view.read (Elt F) (W1 m d))) Finset.univ) := by
  have hw : ∀ s : Fin 16, (![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s = (CI m d L (pos c s)) >>> 3 := by
    intro s
    fin_cases s
    · exact laneI_eq m d L c hc off ho inb 0 (by decide) hs_0 hp_0
    · exact laneI_eq m d L c hc off ho inb 1 (by decide) hs_1 hp_1
    · exact laneI_eq m d L c hc off ho inb 2 (by decide) hs_2 hp_2
    · exact laneI_eq m d L c hc off ho inb 3 (by decide) hs_3 hp_3
    · exact laneI_eq m d L c hc off ho inb 4 (by decide) hs_4 hp_4
    · exact laneI_eq m d L c hc off ho inb 5 (by decide) hs_5 hp_5
    · exact laneI_eq m d L c hc off ho inb 6 (by decide) hs_6 hp_6
    · exact laneI_eq m d L c hc off ho inb 7 (by decide) hs_7 hp_7
    · exact laneI_eq m d L c hc off ho inb 8 (by decide) hs_8 hp_8
    · exact laneI_eq m d L c hc off ho inb 9 (by decide) hs_9 hp_9
    · exact laneI_eq m d L c hc off ho inb 10 (by decide) hs_10 hp_10
    · exact laneI_eq m d L c hc off ho inb 11 (by decide) hs_11 hp_11
    · exact laneI_eq m d L c hc off ho inb 12 (by decide) hs_12 hp_12
    · exact laneI_eq m d L c hc off ho inb 13 (by decide) hs_13 hp_13
    · exact laneI_eq m d L c hc off ho inb 14 (by decide) hs_14 hp_14
    · exact laneI_eq m d L c hc off ho inb 15 (by decide) hs_15 hp_15
  have hb : ∀ s : Fin 16, ((![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s).toNat < 125000 := fun s => by
    rw [hw s]; exact shr3_lt (v := CI m d L (pos c s)) (hpre d _).2
  intro s r f
  refine (landed_of_nest_IA_word (F := F) d (![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) hb (W1 m d)
    h1_0 h2_0 h3_0 h1_1 h2_1 h3_1 h1_2 h2_2 h3_2 h1_3 h2_3 h3_3 h1_4 h2_4 h3_4 h1_5 h2_5 h3_5 h1_6 h2_6 h3_6 h1_7 h2_7 h3_7 h1_8 h2_8 h3_8 h1_9 h2_9 h3_9 h1_10 h2_10 h3_10 h1_11 h2_11 h3_11 h1_12 h2_12 h3_12 h1_13 h2_13 h3_13 h1_14 h2_14 h3_14 h1_15 h2_15 h3_15
    g1_0 g2_0 g1_1 g2_1 g1_2 g2_2 g1_3 g2_3 g1_4 g2_4 g1_5 g2_5 g1_6 g2_6 g1_7 g2_7 g1_8 g2_8 g1_9 g2_9 g1_10 g2_10 g1_11 g2_11 g1_12 g2_12 g1_13 g2_13 g1_14 g2_14 g1_15 g2_15 prior s r f).trans ?_
  refine congrArg (fun b => W1 m d (ValueIdx.ix3 (n0 := 125000) (n1 := 8) (n2 := 64) b r f)) (Fin.ext ?_)
  show ((![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s).toNat = ((CI m d L (pos c s)) >>> 3).toNat % 125000
  rw [hw s]
  exact (shr3_mod (v := CI m d L (pos c s)) (hpre d _).2).symm

end Cert.Proof.KernelIdeal

end
-- ==== Proof.KI.OutStep.lean ====
/-
  One trip of the loop stores two 16-lane pieces into the output scratch, at positions `32 k` and `32 k + 16`.  If the
  first `32 k` positions held their specified values before, and each stored lane is the specified value of its position,
  then the first `32 (k + 1)` positions hold their specified values after.
-/
import proofs.«203884_g41704132444582_cont_8to1_b_1290_16_alg».proof.Proof.KI.BodyDefs

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

omit [FloatOps F] in
/-- Lane `x` of the 16 positions from `16 c` is position `16 c + x` of the tile's 512. -/
theorem unit_emb_pos (c : ℕ) (hc : c < 32) (off : Fin 1 → ℕ) (ho : off = ![16 * c]) (inb : ∀ a, off a + S16.size a ≤ S512.size a) (x : S16.Idx) :
    (Rect.unit (s := S512) off S16.size inb).emb x = pos c ⟨(x 0).val, (x 0).isLt⟩ := by
  subst ho
  have hx : (x 0).val < 16 := (x 0).isLt
  funext a
  match a with
  | ⟨0, _⟩ =>
    refine Fin.ext ?_
    show 16 * c + 1 * (x 0).val = (16 * c + (x 0).val) % 512
    rw [Nat.mod_eq_of_lt (by omega)]; omega

/-- The output scratch after a trip's two stores. -/
theorem outOK_step (d : Dev nD) (L : grid0.Coords) (k : ℕ) (hk : k < 16)
    (fo : Buf (Elt F) ((thrV d L).loc cc0_scratch6)) (hfo : OutOK m d L k fo)
    (offA offB : Fin 1 → ℕ) (inbA : ∀ a, offA a + S16.size a ≤ S512.size a) (inbB : ∀ a, offB a + S16.size a ≤ S512.size a)
    (hoA : offA = ![32 * k]) (hoB : offB = ![32 * k + 16])
    (wA wB : S16.Idx → Elt F .f32)
    (T : List (View.Piece (Elt F) S512 .f32)) (hT : T = [⟨Rect.unit (s := S512) offA S16.size inbA, wA⟩])
    (hA : ∀ l : S16.Idx, wA l = Gout m d ((oSlice L).view.emb (pos (2 * k) ⟨(l 0).val, (l 0).isLt⟩)))
    (hB : ∀ l : S16.Idx, wB l = Gout m d ((oSlice L).view.emb (pos (2 * k + 1) ⟨(l 0).val, (l 0).isLt⟩))) :
    OutOK m d L (k + 1) ((sO : Memref sig .scVector .vmem S512 .f32).view.writes (Elt F) fo (⟨Rect.unit (s := S512) offB S16.size inbB, wB⟩ :: T)) := by
  subst hT
  intro p hp
  have hp0 : (p 0).val < 512 := (p 0).isLt
  have eA : offA 0 = 32 * k := by rw [hoA]; rfl
  have eB : offB 0 = 32 * k + 16 := by rw [hoB]; rfl
  by_cases h1 : (p 0).val < 32 * k
  · have e := View.read_writes_apply_of_forall_not_mem (sO : Memref sig .scVector .vmem S512 .f32).view fo p
      [⟨Rect.unit (s := S512) offB S16.size inbB, wB⟩, ⟨Rect.unit (s := S512) offA S16.size inbA, wA⟩] (by
        intro q hq
        rcases List.mem_cons.mp hq with rfl | hq
        · intro hmem
          change p ∈ (Rect.unit (s := S512) offB S16.size inbB).set at hmem
          have := (Rect.mem_set_unit.mp hmem (0 : Fin 1)).1
          omega
        · rcases List.mem_cons.mp hq with rfl | hq
          · intro hmem
            change p ∈ (Rect.unit (s := S512) offA S16.size inbA).set at hmem
            have := (Rect.mem_set_unit.mp hmem (0 : Fin 1)).1
            omega
          · exact absurd hq List.not_mem_nil)
    exact e.trans (hfo p h1)
  · refine View.read_writes_apply_of_pieces (sO : Memref sig .scVector .vmem S512 .f32).view fo (fun y => Gout m d ((oSlice L).view.emb y))
      [⟨Rect.unit (s := S512) offB S16.size inbB, wB⟩, ⟨Rect.unit (s := S512) offA S16.size inbA, wA⟩] ?_ p ?_
    · intro q hq x
      rcases List.mem_cons.mp hq with rfl | hq
      · show wB x = Gout m d ((oSlice L).view.emb ((Rect.unit (s := S512) offB S16.size inbB).emb x))
        rw [unit_emb_pos (2 * k + 1) (by omega) offB (by rw [hoB]; congr 1; omega) inbB x]
        exact hB x
      · rcases List.mem_cons.mp hq with rfl | hq
        · show wA x = Gout m d ((oSlice L).view.emb ((Rect.unit (s := S512) offA S16.size inbA).emb x))
          rw [unit_emb_pos (2 * k) (by omega) offA (by rw [hoA]; congr 1; omega) inbA x]
          exact hA x
        · exact absurd hq List.not_mem_nil
    · by_cases h2 : (p 0).val < 32 * k + 16
      · refine ⟨⟨Rect.unit (s := S512) offA S16.size inbA, wA⟩, List.mem_cons_of_mem _ List.mem_cons_self, ?_⟩
        show p ∈ (Rect.unit (s := S512) offA S16.size inbA).set
        refine Rect.mem_set_unit.mpr fun a => ?_
        match a with
        | ⟨0, _⟩ => exact ⟨by show offA 0 ≤ (p 0).val; omega, by show (p 0).val < offA 0 + 16; omega⟩
      · refine ⟨⟨Rect.unit (s := S512) offB S16.size inbB, wB⟩, List.mem_cons_self, ?_⟩
        show p ∈ (Rect.unit (s := S512) offB S16.size inbB).set
        refine Rect.mem_set_unit.mpr fun a => ?_
        match a with
        | ⟨0, _⟩ => exact ⟨by show offB 0 ≤ (p 0).val; omega, by show (p 0).val < offB 0 + 16; omega⟩

end Cert.Proof.KernelIdeal

end
-- ==== Proof.KI.ChunkVal.lean ====
/-
  The value a chunk's accumulation leaves at a lane.  The accumulation over 64 features of the products of the two
  gathered vectors is, lane by lane, the inner product accumulated feature by feature; and when the two block buffers
  hold the table blocks that the chunk's indices name, lane `l` of chunk `c` is the specified value of position
  `16 c + l` of the tile's piece of the result.
-/
import proofs.«203884_g41704132444582_cont_8to1_b_1290_16_alg».proof.Proof.KI.Acc

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## The accumulation at a lane -/

omit [FloatOps F] in
theorem ix3_congr {a a' : Fin 16} {b b' : Fin 8} {c c' : Fin 64} (ha : a.val = a'.val) (hb : b.val = b'.val) (hc : c.val = c'.val) :
    ValueIdx.ix3 (n0 := 16) (n1 := 8) (n2 := 64) a b c = ValueIdx.ix3 (n0 := 16) (n1 := 8) (n2 := 64) a' b' c' := by
  rw [Fin.ext ha, Fin.ext hb, Fin.ext hc]

/-- Lane `l` of the accumulation over the first `n` features: the inner product of the two staged rows the lane's index
    words name, accumulated feature by feature from the float zero. -/
theorem accL_apply (Cu Ci : S16x8x64.Idx → Elt F .f32) (g ur ir : IVec S16 32)
    (H : ∀ n, n < 64 → (∀ a x, ((![g, ur, broadcast S16 (BitVec.ofNat 32 n)] : Fin 3 → IVec S16 32) a x).toNat < S16x8x64.size a)
                     ∧ (∀ a x, ((![g, ir, broadcast S16 (BitVec.ofNat 32 n)] : Fin 3 → IVec S16 32) a x).toNat < S16x8x64.size a)) :
    ∀ (n : ℕ) (hn : n ≤ 64) (l : S16.Idx),
      accL Cu Ci g ur ir H n hn l
        = Cert.Spec.dotAcc (FloatOps.ofBits .f32 0x00000000#32)
            (fun f => Cu (ValueIdx.ix3 (n0 := 16) (n1 := 8) (n2 := 64) ⟨(g l).toNat % 16, Nat.mod_lt _ (by decide)⟩
              ⟨(ur l).toNat % 8, Nat.mod_lt _ (by decide)⟩ ⟨f % 64, Nat.mod_lt _ (by decide)⟩))
            (fun f => Ci (ValueIdx.ix3 (n0 := 16) (n1 := 8) (n2 := 64) ⟨(g l).toNat % 16, Nat.mod_lt _ (by decide)⟩
              ⟨(ir l).toNat % 8, Nat.mod_lt _ (by decide)⟩ ⟨f % 64, Nat.mod_lt _ (by decide)⟩)) n
  | 0, _, _ => rfl
  | n + 1, hn, l => by
    have hn' : n < 64 := hn
    have hg : (g l).toNat < 16 := (H n hn').1 0 l
    have hu : (ur l).toNat < 8 := (H n hn').1 1 l
    have hi : (ir l).toNat < 8 := (H n hn').2 1 l
    have hb : ((broadcast S16 (BitVec.ofNat 32 n) : IVec S16 32) l).toNat = n := by
      show (BitVec.ofNat 32 n).toNat = n
      rw [BitVec.toNat_ofNat]; omega
    show FloatOps.addf (accL Cu Ci g ur ir H n (Nat.le_of_succ_le hn) l)
        (FloatOps.mulf (loadIdx Cu ![g, ur, broadcast S16 (BitVec.ofNat 32 n)] (H n hn).1 l)
          (loadIdx Ci ![g, ir, broadcast S16 (BitVec.ofNat 32 n)] (H n hn).2 l)) = _
    rw [accL_apply Cu Ci g ur ir H n (Nat.le_of_succ_le hn) l, loadIdx_apply, loadIdx_apply]
    show _ = FloatOps.addf _ (FloatOps.mulf _ _)
    congr 2
    · exact congrArg Cu (ix3_congr (by show (g l).toNat = (g l).toNat % 16; omega) (by show (ur l).toNat = (ur l).toNat % 8; omega)
        (by show ((broadcast S16 (BitVec.ofNat 32 n) : IVec S16 32) l).toNat = n % 64; rw [hb]; omega))
    · exact congrArg Ci (ix3_congr (by show (g l).toNat = (g l).toNat % 16; omega) (by show (ir l).toNat = (ir l).toNat % 8; omega)
        (by show ((broadcast S16 (BitVec.ofNat 32 n) : IVec S16 32) l).toNat = n % 64; rw [hb]; omega))

/-! ## A chunk's lane is its position's specified value -/

omit [FloatOps F] in
/-- Lane `x` of the 16 positions from `16 c` is position `16 c + x` of the tile's 512. -/
theorem unit_idx_pos (c : ℕ) (hc : 16 * c + 16 ≤ 512) (off : Fin 1 → ℕ) (ho : off 0 = 16 * c) (inb : ∀ a, off a + S16.size a ≤ S512.size a) (x : S16.Idx) :
    (Rect.unit (s := S512) off S16.size inb).toLoadRect.idx x = pos c ⟨(x 0).val, (x 0).isLt⟩ := by
  have hx : (x 0).val < 16 := (x 0).isLt
  funext a
  match a with
  | ⟨0, _⟩ =>
    refine Fin.ext ?_
    show off 0 + 1 * (x 0).val = (16 * c + (x 0).val) % 512
    rw [Nat.mod_eq_of_lt (by omega), ho]; omega

/-- The chunk's row-in-block words: the index scratch read at the chunk, masked to three bits. -/
abbrev urOf (d : Dev nD) (L : grid0.Coords) (off : Fin 1 → ℕ) (inb : ∀ a, off a + S16.size a ≤ S512.size a) : IVec S16 32 :=
  andi ((sU : Memref sig .scVector .vmem S512 .i32).view.readAt (Elt F) (Rect.unit (s := S512) off S16.size inb).toLoadRect (CU m d L)) (broadcast S16 7#32)
abbrev irOf (d : Dev nD) (L : grid0.Coords) (off : Fin 1 → ℕ) (inb : ∀ a, off a + S16.size a ≤ S512.size a) : IVec S16 32 :=
  andi ((sI : Memref sig .scVector .vmem S512 .i32).view.readAt (Elt F) (Rect.unit (s := S512) off S16.size inb).toLoadRect (CI m d L)) (broadcast S16 7#32)

/-- With staged contents `Cu`, `Ci` that hold, slot by slot, the table blocks the chunk's indices name: lane `l` of
    the accumulation over all 64 features is the specified value of position `16 c + l`. -/
theorem chunk_val_of (d : Dev nD) (L : grid0.Coords) (c : ℕ) (hc : 16 * c + 16 ≤ 512)
    (Cu Ci : S16x8x64.Idx → Elt F .f32)
    (hU : ∀ (s : Fin 16) (r : Fin 8) (f : Fin 64), Cu (ValueIdx.ix3 (n0 := 16) (n1 := 8) (n2 := 64) s r f)
      = W0 m d (ValueIdx.ix3 (n0 := 125000) (n1 := 8) (n2 := 64) ⟨((CU m d L (pos c s)) >>> 3).toNat % 125000, Nat.mod_lt _ (by decide)⟩ r f))
    (hI : ∀ (s : Fin 16) (r : Fin 8) (f : Fin 64), Ci (ValueIdx.ix3 (n0 := 16) (n1 := 8) (n2 := 64) s r f)
      = W1 m d (ValueIdx.ix3 (n0 := 125000) (n1 := 8) (n2 := 64) ⟨((CI m d L (pos c s)) >>> 3).toNat % 125000, Nat.mod_lt _ (by decide)⟩ r f))
    (off : Fin 1 → ℕ) (ho : off 0 = 16 * c) (inb : ∀ a, off a + S16.size a ≤ S512.size a)
    (g : IVec S16 32) (hg : ∀ l : S16.Idx, (g l).toNat = (l 0).val)
    (H : ∀ n, n < 64 → (∀ a x, ((![g, urOf m d L off inb, broadcast S16 (BitVec.ofNat 32 n)] : Fin 3 → IVec S16 32) a x).toNat < S16x8x64.size a)
                     ∧ (∀ a x, ((![g, irOf m d L off inb, broadcast S16 (BitVec.ofNat 32 n)] : Fin 3 → IVec S16 32) a x).toNat < S16x8x64.size a))
    (l : S16.Idx) :
    accL Cu Ci g (urOf m d L off inb) (irOf m d L off inb) H 64 le_rfl l
      = Gout m d ((oSlice L).view.emb (pos c ⟨(l 0).val, (l 0).isLt⟩)) := by
  have hl : (l 0).val < 16 := (l 0).isLt
  have eu : urOf m d L off inb l = CU m d L (pos c ⟨(l 0).val, (l 0).isLt⟩) &&& 7#32 := by
    show IntOp.andi (CU m d L ((Rect.unit (s := S512) off S16.size inb).toLoadRect.idx l)) 7#32 = _
    rw [unit_idx_pos c hc off ho inb l]; rfl
  have ei : irOf m d L off inb l = CI m d L (pos c ⟨(l 0).val, (l 0).isLt⟩) &&& 7#32 := by
    show IntOp.andi (CI m d L ((Rect.unit (s := S512) off S16.size inb).toLoadRect.idx l)) 7#32 = _
    rw [unit_idx_pos c hc off ho inb l]; rfl
  have es : (⟨(g l).toNat % 16, Nat.mod_lt _ (by decide)⟩ : Fin 16) = ⟨(l 0).val, (l 0).isLt⟩ := Fin.ext (by show (g l).toNat % 16 = (l 0).val; rw [hg l]; omega)
  rw [accL_apply]
  show _ = Cert.Spec.dotAcc zeroF (fun f => W0 m d (Cert.Spec.blk3 (m (uLoc d) ((oSlice L).view.emb (pos c ⟨(l 0).val, (l 0).isLt⟩))) f))
    (fun f => W1 m d (Cert.Spec.blk3 (m (iLoc d) ((oSlice L).view.emb (pos c ⟨(l 0).val, (l 0).isLt⟩))) f)) 64
  have eU : m (uLoc d) ((oSlice L).view.emb (pos c ⟨(l 0).val, (l 0).isLt⟩)) = CU m d L (pos c ⟨(l 0).val, (l 0).isLt⟩) := by
    unfold CU; rw [emb_u_eq_emb_o]
  have eI : m (iLoc d) ((oSlice L).view.emb (pos c ⟨(l 0).val, (l 0).isLt⟩)) = CI m d L (pos c ⟨(l 0).val, (l 0).isLt⟩) := by
    unfold CI; rw [emb_i_eq_emb_o]
  rw [eU, eI]
  congr 1
  · funext f
    rw [hU, es, eu]; rfl
  · funext f
    rw [hI, es, ei]; rfl

omit [FloatOps F] in
theorem whole_idx (j : S16x8x64.Idx) : (LoadRect.whole S16x8x64).idx j = j := by
  funext a; exact Fin.ext (show 0 + 1 * (j a).val = (j a).val by omega)

/-- The same for the first buffer pair, its contents read whole. -/
theorem chunk_val (d : Dev nD) (L : grid0.Coords) (c : ℕ) (hc : 16 * c + 16 ≤ 512)
    (CUc : Buf (Elt F) ((thrV d L).loc cc0_scratch2)) (CIc : Buf (Elt F) ((thrV d L).loc cc0_scratch3))
    (hU : LandedU m d L c CUc) (hI : LandedI m d L c CIc)
    (off : Fin 1 → ℕ) (ho : off 0 = 16 * c) (inb : ∀ a, off a + S16.size a ≤ S512.size a)
    (g : IVec S16 32) (hg : ∀ l : S16.Idx, (g l).toNat = (l 0).val)
    (H : ∀ n, n < 64 → (∀ a x, ((![g, urOf m d L off inb, broadcast S16 (BitVec.ofNat 32 n)] : Fin 3 → IVec S16 32) a x).toNat < S16x8x64.size a)
                     ∧ (∀ a x, ((![g, irOf m d L off inb, broadcast S16 (BitVec.ofNat 32 n)] : Fin 3 → IVec S16 32) a x).toNat < S16x8x64.size a))
    (l : S16.Idx) :
    accL (View.readAt (Elt F) (sUA : Memref sig .scVector .vmem S16x8x64 .f32).view (LoadRect.whole S16x8x64) CUc)
        (View.readAt (Elt F) (sIA : Memref sig .scVector .vmem S16x8x64 .f32).view (LoadRect.whole S16x8x64) CIc)
        g (urOf m d L off inb) (irOf m d L off inb) H 64 le_rfl l
      = Gout m d ((oSlice L).view.emb (pos c ⟨(l 0).val, (l 0).isLt⟩)) :=
  chunk_val_of m d L c hc _ _
    (fun s r f => by
      show CUc ((LoadRect.whole S16x8x64).idx (ValueIdx.ix3 (n0 := 16) (n1 := 8) (n2 := 64) s r f)) = _
      rw [whole_idx]; exact hU s r f)
    (fun s r f => by
      show CIc ((LoadRect.whole S16x8x64).idx (ValueIdx.ix3 (n0 := 16) (n1 := 8) (n2 := 64) s r f)) = _
      rw [whole_idx]; exact hI s r f)
    off ho inb g hg H l

end Cert.Proof.KernelIdeal

end
-- ==== Proof.KI.LandedTripB.lean ====
/-
  The second block-buffer pair after the sixteen copies of one chunk, pointwise, and a whole-buffer load of it.
-/
import proofs.«203884_g41704132444582_cont_8to1_b_1290_16_alg».proof.Proof.KI.LandedTrip

noncomputable section

namespace Cert.Proof.KernelIdeal

open Cert.KernelIdeal Cert.KernelIdeal.Gen
open Idealize.ShloMosaic
open Idealize.ShloMosaic.SparseCore (S V T)

variable {F : FTy → Type} [FloatOps F]
variable (m : (ℓ : Loc nD τ sig) → Buf (Elt F) ℓ)

/-- `sUB` AFTER THE SIXTEEN COPIES OF CHUNK `c`, pointwise: position `(s, r, f)` holds the table at the block the chunk's
    lane `s` names. -/
theorem landedUB_trip (hpre : PreOK m) (d : Dev nD) (L : grid0.Coords) (c : ℕ) (hc : 16 * c + 16 ≤ 512) (off : Fin 1 → ℕ) (ho : off 0 = 16 * c)
    {inb : ∀ a, off a + S16.size a ≤ S512.size a}
    {hs_0 : S16.Slices ![0] S1} {hp_0 : ∀ a, (![0] : Fin 1 → ℕ) a < S1.size a}
    {hs_1 : S16.Slices ![1] S1} {hp_1 : ∀ a, (![0] : Fin 1 → ℕ) a < S1.size a}
    {hs_2 : S16.Slices ![2] S1} {hp_2 : ∀ a, (![0] : Fin 1 → ℕ) a < S1.size a}
    {hs_3 : S16.Slices ![3] S1} {hp_3 : ∀ a, (![0] : Fin 1 → ℕ) a < S1.size a}
    {hs_4 : S16.Slices ![4] S1} {hp_4 : ∀ a, (![0] : Fin 1 → ℕ) a < S1.size a}
    {hs_5 : S16.Slices ![5] S1} {hp_5 : ∀ a, (![0] : Fin 1 → ℕ) a < S1.size a}
    {hs_6 : S16.Slices ![6] S1} {hp_6 : ∀ a, (![0] : Fin 1 → ℕ) a < S1.size a}
    {hs_7 : S16.Slices ![7] S1} {hp_7 : ∀ a, (![0] : Fin 1 → ℕ) a < S1.size a}
    {hs_8 : S16.Slices ![8] S1} {hp_8 : ∀ a, (![0] : Fin 1 → ℕ) a < S1.size a}
    {hs_9 : S16.Slices ![9] S1} {hp_9 : ∀ a, (![0] : Fin 1 → ℕ) a < S1.size a}
    {hs_10 : S16.Slices ![10] S1} {hp_10 : ∀ a, (![0] : Fin 1 → ℕ) a < S1.size a}
    {hs_11 : S16.Slices ![11] S1} {hp_11 : ∀ a, (![0] : Fin 1 → ℕ) a < S1.size a}
    {hs_12 : S16.Slices ![12] S1} {hp_12 : ∀ a, (![0] : Fin 1 → ℕ) a < S1.size a}
    {hs_13 : S16.Slices ![13] S1} {hp_13 : ∀ a, (![0] : Fin 1 → ℕ) a < S1.size a}
    {hs_14 : S16.Slices ![14] S1} {hp_14 : ∀ a, (![0] : Fin 1 → ℕ) a < S1.size a}
    {hs_15 : S16.Slices ![15] S1} {hp_15 : ∀ a, (![0] : Fin 1 → ℕ) a < S1.size a}
    {h1_0 : ∀ a, (![0, 0, 0] : Fin 3 → ℕ) a + S1x8x64.size a ≤ S16x8x64.size a} {h2_0 : ∀ a, (Rect.unit (s := S16x8x64) ![0, 0, 0] S1x8x64.size h1_0).stride a = 1} {h3_0 : S1x8x64.Squeezes S8x64}
    {h1_1 : ∀ a, (![1, 0, 0] : Fin 3 → ℕ) a + S1x8x64.size a ≤ S16x8x64.size a} {h2_1 : ∀ a, (Rect.unit (s := S16x8x64) ![1, 0, 0] S1x8x64.size h1_1).stride a = 1} {h3_1 : S1x8x64.Squeezes S8x64}
    {h1_2 : ∀ a, (![2, 0, 0] : Fin 3 → ℕ) a + S1x8x64.size a ≤ S16x8x64.size a} {h2_2 : ∀ a, (Rect.unit (s := S16x8x64) ![2, 0, 0] S1x8x64.size h1_2).stride a = 1} {h3_2 : S1x8x64.Squeezes S8x64}
    {h1_3 : ∀ a, (![3, 0, 0] : Fin 3 → ℕ) a + S1x8x64.size a ≤ S16x8x64.size a} {h2_3 : ∀ a, (Rect.unit (s := S16x8x64) ![3, 0, 0] S1x8x64.size h1_3).stride a = 1} {h3_3 : S1x8x64.Squeezes S8x64}
    {h1_4 : ∀ a, (![4, 0, 0] : Fin 3 → ℕ) a + S1x8x64.size a ≤ S16x8x64.size a} {h2_4 : ∀ a, (Rect.unit (s := S16x8x64) ![4, 0, 0] S1x8x64.size h1_4).stride a = 1} {h3_4 : S1x8x64.Squeezes S8x64}
    {h1_5 : ∀ a, (![5, 0, 0] : Fin 3 → ℕ) a + S1x8x64.size a ≤ S16x8x64.size a} {h2_5 : ∀ a, (Rect.unit (s := S16x8x64) ![5, 0, 0] S1x8x64.size h1_5).stride a = 1} {h3_5 : S1x8x64.Squeezes S8x64}
    {h1_6 : ∀ a, (![6, 0, 0] : Fin 3 → ℕ) a + S1x8x64.size a ≤ S16x8x64.size a} {h2_6 : ∀ a, (Rect.unit (s := S16x8x64) ![6, 0, 0] S1x8x64.size h1_6).stride a = 1} {h3_6 : S1x8x64.Squeezes S8x64}
    {h1_7 : ∀ a, (![7, 0, 0] : Fin 3 → ℕ) a + S1x8x64.size a ≤ S16x8x64.size a} {h2_7 : ∀ a, (Rect.unit (s := S16x8x64) ![7, 0, 0] S1x8x64.size h1_7).stride a = 1} {h3_7 : S1x8x64.Squeezes S8x64}
    {h1_8 : ∀ a, (![8, 0, 0] : Fin 3 → ℕ) a + S1x8x64.size a ≤ S16x8x64.size a} {h2_8 : ∀ a, (Rect.unit (s := S16x8x64) ![8, 0, 0] S1x8x64.size h1_8).stride a = 1} {h3_8 : S1x8x64.Squeezes S8x64}
    {h1_9 : ∀ a, (![9, 0, 0] : Fin 3 → ℕ) a + S1x8x64.size a ≤ S16x8x64.size a} {h2_9 : ∀ a, (Rect.unit (s := S16x8x64) ![9, 0, 0] S1x8x64.size h1_9).stride a = 1} {h3_9 : S1x8x64.Squeezes S8x64}
    {h1_10 : ∀ a, (![10, 0, 0] : Fin 3 → ℕ) a + S1x8x64.size a ≤ S16x8x64.size a} {h2_10 : ∀ a, (Rect.unit (s := S16x8x64) ![10, 0, 0] S1x8x64.size h1_10).stride a = 1} {h3_10 : S1x8x64.Squeezes S8x64}
    {h1_11 : ∀ a, (![11, 0, 0] : Fin 3 → ℕ) a + S1x8x64.size a ≤ S16x8x64.size a} {h2_11 : ∀ a, (Rect.unit (s := S16x8x64) ![11, 0, 0] S1x8x64.size h1_11).stride a = 1} {h3_11 : S1x8x64.Squeezes S8x64}
    {h1_12 : ∀ a, (![12, 0, 0] : Fin 3 → ℕ) a + S1x8x64.size a ≤ S16x8x64.size a} {h2_12 : ∀ a, (Rect.unit (s := S16x8x64) ![12, 0, 0] S1x8x64.size h1_12).stride a = 1} {h3_12 : S1x8x64.Squeezes S8x64}
    {h1_13 : ∀ a, (![13, 0, 0] : Fin 3 → ℕ) a + S1x8x64.size a ≤ S16x8x64.size a} {h2_13 : ∀ a, (Rect.unit (s := S16x8x64) ![13, 0, 0] S1x8x64.size h1_13).stride a = 1} {h3_13 : S1x8x64.Squeezes S8x64}
    {h1_14 : ∀ a, (![14, 0, 0] : Fin 3 → ℕ) a + S1x8x64.size a ≤ S16x8x64.size a} {h2_14 : ∀ a, (Rect.unit (s := S16x8x64) ![14, 0, 0] S1x8x64.size h1_14).stride a = 1} {h3_14 : S1x8x64.Squeezes S8x64}
    {h1_15 : ∀ a, (![15, 0, 0] : Fin 3 → ℕ) a + S1x8x64.size a ≤ S16x8x64.size a} {h2_15 : ∀ a, (Rect.unit (s := S16x8x64) ![15, 0, 0] S1x8x64.size h1_15).stride a = 1} {h3_15 : S1x8x64.Squeezes S8x64}
    {g1_0 : ∀ a, (![(laneU m d L off inb 0 hs_0 hp_0).toNat, 0, 0] : Fin 3 → ℕ) a + S1x8x64.size a ≤ S125000x8x64.size a} {g2_0 : ∀ a, (Rect.unit (s := S125000x8x64) ![(laneU m d L off inb 0 hs_0 hp_0).toNat, 0, 0] S1x8x64.size g1_0).stride a = 1}
    {g1_1 : ∀ a, (![(laneU m d L off inb 1 hs_1 hp_1).toNat, 0, 0] : Fin 3 → ℕ) a + S1x8x64.size a ≤ S125000x8x64.size a} {g2_1 : ∀ a, (Rect.unit (s := S125000x8x64) ![(laneU m d L off inb 1 hs_1 hp_1).toNat, 0, 0] S1x8x64.size g1_1).stride a = 1}
    {g1_2 : ∀ a, (![(laneU m d L off inb 2 hs_2 hp_2).toNat, 0, 0] : Fin 3 → ℕ) a + S1x8x64.size a ≤ S125000x8x64.size a} {g2_2 : ∀ a, (Rect.unit (s := S125000x8x64) ![(laneU m d L off inb 2 hs_2 hp_2).toNat, 0, 0] S1x8x64.size g1_2).stride a = 1}
    {g1_3 : ∀ a, (![(laneU m d L off inb 3 hs_3 hp_3).toNat, 0, 0] : Fin 3 → ℕ) a + S1x8x64.size a ≤ S125000x8x64.size a} {g2_3 : ∀ a, (Rect.unit (s := S125000x8x64) ![(laneU m d L off inb 3 hs_3 hp_3).toNat, 0, 0] S1x8x64.size g1_3).stride a = 1}
    {g1_4 : ∀ a, (![(laneU m d L off inb 4 hs_4 hp_4).toNat, 0, 0] : Fin 3 → ℕ) a + S1x8x64.size a ≤ S125000x8x64.size a} {g2_4 : ∀ a, (Rect.unit (s := S125000x8x64) ![(laneU m d L off inb 4 hs_4 hp_4).toNat, 0, 0] S1x8x64.size g1_4).stride a = 1}
    {g1_5 : ∀ a, (![(laneU m d L off inb 5 hs_5 hp_5).toNat, 0, 0] : Fin 3 → ℕ) a + S1x8x64.size a ≤ S125000x8x64.size a} {g2_5 : ∀ a, (Rect.unit (s := S125000x8x64) ![(laneU m d L off inb 5 hs_5 hp_5).toNat, 0, 0] S1x8x64.size g1_5).stride a = 1}
    {g1_6 : ∀ a, (![(laneU m d L off inb 6 hs_6 hp_6).toNat, 0, 0] : Fin 3 → ℕ) a + S1x8x64.size a ≤ S125000x8x64.size a} {g2_6 : ∀ a, (Rect.unit (s := S125000x8x64) ![(laneU m d L off inb 6 hs_6 hp_6).toNat, 0, 0] S1x8x64.size g1_6).stride a = 1}
    {g1_7 : ∀ a, (![(laneU m d L off inb 7 hs_7 hp_7).toNat, 0, 0] : Fin 3 → ℕ) a + S1x8x64.size a ≤ S125000x8x64.size a} {g2_7 : ∀ a, (Rect.unit (s := S125000x8x64) ![(laneU m d L off inb 7 hs_7 hp_7).toNat, 0, 0] S1x8x64.size g1_7).stride a = 1}
    {g1_8 : ∀ a, (![(laneU m d L off inb 8 hs_8 hp_8).toNat, 0, 0] : Fin 3 → ℕ) a + S1x8x64.size a ≤ S125000x8x64.size a} {g2_8 : ∀ a, (Rect.unit (s := S125000x8x64) ![(laneU m d L off inb 8 hs_8 hp_8).toNat, 0, 0] S1x8x64.size g1_8).stride a = 1}
    {g1_9 : ∀ a, (![(laneU m d L off inb 9 hs_9 hp_9).toNat, 0, 0] : Fin 3 → ℕ) a + S1x8x64.size a ≤ S125000x8x64.size a} {g2_9 : ∀ a, (Rect.unit (s := S125000x8x64) ![(laneU m d L off inb 9 hs_9 hp_9).toNat, 0, 0] S1x8x64.size g1_9).stride a = 1}
    {g1_10 : ∀ a, (![(laneU m d L off inb 10 hs_10 hp_10).toNat, 0, 0] : Fin 3 → ℕ) a + S1x8x64.size a ≤ S125000x8x64.size a} {g2_10 : ∀ a, (Rect.unit (s := S125000x8x64) ![(laneU m d L off inb 10 hs_10 hp_10).toNat, 0, 0] S1x8x64.size g1_10).stride a = 1}
    {g1_11 : ∀ a, (![(laneU m d L off inb 11 hs_11 hp_11).toNat, 0, 0] : Fin 3 → ℕ) a + S1x8x64.size a ≤ S125000x8x64.size a} {g2_11 : ∀ a, (Rect.unit (s := S125000x8x64) ![(laneU m d L off inb 11 hs_11 hp_11).toNat, 0, 0] S1x8x64.size g1_11).stride a = 1}
    {g1_12 : ∀ a, (![(laneU m d L off inb 12 hs_12 hp_12).toNat, 0, 0] : Fin 3 → ℕ) a + S1x8x64.size a ≤ S125000x8x64.size a} {g2_12 : ∀ a, (Rect.unit (s := S125000x8x64) ![(laneU m d L off inb 12 hs_12 hp_12).toNat, 0, 0] S1x8x64.size g1_12).stride a = 1}
    {g1_13 : ∀ a, (![(laneU m d L off inb 13 hs_13 hp_13).toNat, 0, 0] : Fin 3 → ℕ) a + S1x8x64.size a ≤ S125000x8x64.size a} {g2_13 : ∀ a, (Rect.unit (s := S125000x8x64) ![(laneU m d L off inb 13 hs_13 hp_13).toNat, 0, 0] S1x8x64.size g1_13).stride a = 1}
    {g1_14 : ∀ a, (![(laneU m d L off inb 14 hs_14 hp_14).toNat, 0, 0] : Fin 3 → ℕ) a + S1x8x64.size a ≤ S125000x8x64.size a} {g2_14 : ∀ a, (Rect.unit (s := S125000x8x64) ![(laneU m d L off inb 14 hs_14 hp_14).toNat, 0, 0] S1x8x64.size g1_14).stride a = 1}
    {g1_15 : ∀ a, (![(laneU m d L off inb 15 hs_15 hp_15).toNat, 0, 0] : Fin 3 → ℕ) a + S1x8x64.size a ≤ S125000x8x64.size a} {g2_15 : ∀ a, (Rect.unit (s := S125000x8x64) ![(laneU m d L off inb 15 hs_15 hp_15).toNat, 0, 0] S1x8x64.size g1_15).stride a = 1}
    {prior : (slotV sUB 0 h1_0 h2_0 h3_0).ty.Contents (Elt F)} (s : Fin 16) (r : Fin 8) (f : Fin 64) :
    (View.write (Elt F) (slotV sUB 15 h1_15 h2_15 h3_15) (View.write (Elt F) (slotV sUB 14 h1_14 h2_14 h3_14) (View.write (Elt F) (slotV sUB 13 h1_13 h2_13 h3_13) (View.write (Elt F) (slotV sUB 12 h1_12 h2_12 h3_12) (View.write (Elt F) (slotV sUB 11 h1_11 h2_11 h3_11) (View.write (Elt F) (slotV sUB 10 h1_10 h2_10 h3_10) (View.write (Elt F) (slotV sUB 9 h1_9 h2_9 h3_9) (View.write (Elt F) (slotV sUB 8 h1_8 h2_8 h3_8) (View.write (Elt F) (slotV sUB 7 h1_7 h2_7 h3_7) (View.write (Elt F) (slotV sUB 6 h1_6 h2_6 h3_6) (View.write (Elt F) (slotV sUB 5 h1_5 h2_5 h3_5) (View.write (Elt F) (slotV sUB 4 h1_4 h2_4 h3_4) (View.write (Elt F) (slotV sUB 3 h1_3 h2_3 h3_3) (View.write (Elt F) (slotV sUB 2 h1_2 h2_2 h3_2) (View.write (Elt F) (slotV sUB 1 h1_1 h2_1 h3_1) (View.write (Elt F) (slotV sUB 0 h1_0 h2_0 h3_0) prior (ReadAs.same.apply ((rowV uwV (laneU m d L off inb 0 hs_0 hp_0).toNat g1_0 g2_0).view.read (Elt F) (W0 m d))) Finset.univ) (ReadAs.same.apply ((rowV uwV (laneU m d L off inb 1 hs_1 hp_1).toNat g1_1 g2_1).view.read (Elt F) (W0 m d))) Finset.univ) (ReadAs.same.apply ((rowV uwV (laneU m d L off inb 2 hs_2 hp_2).toNat g1_2 g2_2).view.read (Elt F) (W0 m d))) Finset.univ) (ReadAs.same.apply ((rowV uwV (laneU m d L off inb 3 hs_3 hp_3).toNat g1_3 g2_3).view.read (Elt F) (W0 m d))) Finset.univ) (ReadAs.same.apply ((rowV uwV (laneU m d L off inb 4 hs_4 hp_4).toNat g1_4 g2_4).view.read (Elt F) (W0 m d))) Finset.univ) (ReadAs.same.apply ((rowV uwV (laneU m d L off inb 5 hs_5 hp_5).toNat g1_5 g2_5).view.read (Elt F) (W0 m d))) Finset.univ) (ReadAs.same.apply ((rowV uwV (laneU m d L off inb 6 hs_6 hp_6).toNat g1_6 g2_6).view.read (Elt F) (W0 m d))) Finset.univ) (ReadAs.same.apply ((rowV uwV (laneU m d L off inb 7 hs_7 hp_7).toNat g1_7 g2_7).view.read (Elt F) (W0 m d))) Finset.univ) (ReadAs.same.apply ((rowV uwV (laneU m d L off inb 8 hs_8 hp_8).toNat g1_8 g2_8).view.read (Elt F) (W0 m d))) Finset.univ) (ReadAs.same.apply ((rowV uwV (laneU m d L off inb 9 hs_9 hp_9).toNat g1_9 g2_9).view.read (Elt F) (W0 m d))) Finset.univ) (ReadAs.same.apply ((rowV uwV (laneU m d L off inb 10 hs_10 hp_10).toNat g1_10 g2_10).view.read (Elt F) (W0 m d))) Finset.univ) (ReadAs.same.apply ((rowV uwV (laneU m d L off inb 11 hs_11 hp_11).toNat g1_11 g2_11).view.read (Elt F) (W0 m d))) Finset.univ) (ReadAs.same.apply ((rowV uwV (laneU m d L off inb 12 hs_12 hp_12).toNat g1_12 g2_12).view.read (Elt F) (W0 m d))) Finset.univ) (ReadAs.same.apply ((rowV uwV (laneU m d L off inb 13 hs_13 hp_13).toNat g1_13 g2_13).view.read (Elt F) (W0 m d))) Finset.univ) (ReadAs.same.apply ((rowV uwV (laneU m d L off inb 14 hs_14 hp_14).toNat g1_14 g2_14).view.read (Elt F) (W0 m d))) Finset.univ) (ReadAs.same.apply ((rowV uwV (laneU m d L off inb 15 hs_15 hp_15).toNat g1_15 g2_15).view.read (Elt F) (W0 m d))) Finset.univ)
        (ValueIdx.ix3 (n0 := 16) (n1 := 8) (n2 := 64) s r f)
      = W0 m d (ValueIdx.ix3 (n0 := 125000) (n1 := 8) (n2 := 64) ⟨((CU m d L (pos c s)) >>> 3).toNat % 125000, Nat.mod_lt _ (by decide)⟩ r f) := by
  have hw : ∀ s : Fin 16, (![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s = (CU m d L (pos c s)) >>> 3 := by
    intro s
    fin_cases s
    · exact laneU_eq m d L c hc off ho inb 0 (by decide) hs_0 hp_0
    · exact laneU_eq m d L c hc off ho inb 1 (by decide) hs_1 hp_1
    · exact laneU_eq m d L c hc off ho inb 2 (by decide) hs_2 hp_2
    · exact laneU_eq m d L c hc off ho inb 3 (by decide) hs_3 hp_3
    · exact laneU_eq m d L c hc off ho inb 4 (by decide) hs_4 hp_4
    · exact laneU_eq m d L c hc off ho inb 5 (by decide) hs_5 hp_5
    · exact laneU_eq m d L c hc off ho inb 6 (by decide) hs_6 hp_6
    · exact laneU_eq m d L c hc off ho inb 7 (by decide) hs_7 hp_7
    · exact laneU_eq m d L c hc off ho inb 8 (by decide) hs_8 hp_8
    · exact laneU_eq m d L c hc off ho inb 9 (by decide) hs_9 hp_9
    · exact laneU_eq m d L c hc off ho inb 10 (by decide) hs_10 hp_10
    · exact laneU_eq m d L c hc off ho inb 11 (by decide) hs_11 hp_11
    · exact laneU_eq m d L c hc off ho inb 12 (by decide) hs_12 hp_12
    · exact laneU_eq m d L c hc off ho inb 13 (by decide) hs_13 hp_13
    · exact laneU_eq m d L c hc off ho inb 14 (by decide) hs_14 hp_14
    · exact laneU_eq m d L c hc off ho inb 15 (by decide) hs_15 hp_15
  have hb : ∀ s : Fin 16, ((![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s).toNat < 125000 := fun s => by
    rw [hw s]; exact shr3_lt (v := CU m d L (pos c s)) (hpre d _).1
  refine (landed_of_nest_UB_word (F := F) d (![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) hb (W0 m d)
    h1_0 h2_0 h3_0 h1_1 h2_1 h3_1 h1_2 h2_2 h3_2 h1_3 h2_3 h3_3 h1_4 h2_4 h3_4 h1_5 h2_5 h3_5 h1_6 h2_6 h3_6 h1_7 h2_7 h3_7 h1_8 h2_8 h3_8 h1_9 h2_9 h3_9 h1_10 h2_10 h3_10 h1_11 h2_11 h3_11 h1_12 h2_12 h3_12 h1_13 h2_13 h3_13 h1_14 h2_14 h3_14 h1_15 h2_15 h3_15
    g1_0 g2_0 g1_1 g2_1 g1_2 g2_2 g1_3 g2_3 g1_4 g2_4 g1_5 g2_5 g1_6 g2_6 g1_7 g2_7 g1_8 g2_8 g1_9 g2_9 g1_10 g2_10 g1_11 g2_11 g1_12 g2_12 g1_13 g2_13 g1_14 g2_14 g1_15 g2_15 prior s r f).trans ?_
  refine congrArg (fun b => W0 m d (ValueIdx.ix3 (n0 := 125000) (n1 := 8) (n2 := 64) b r f)) (Fin.ext ?_)
  show ((![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s).toNat = ((CU m d L (pos c s)) >>> 3).toNat % 125000
  rw [hw s]
  exact (shr3_mod (v := CU m d L (pos c s)) (hpre d _).1).symm

omit [FloatOps F] in
/-- A load of the whole of `sUB` reads its contents. -/
theorem readWhole_UB {d : Dev nD} {L : grid0.Coords} (C : Buf (Elt F) ((thrV d L).loc cc0_scratch4)) (x : S16x8x64.Idx) :
    ((sUB : Memref sig .scVector .vmem S16x8x64 .f32).view.readAt (Elt F) (LoadRect.whole S16x8x64) C) x = C x := by
  rw [View.readAt_apply]
  show C (fun a => ⟨0 + 1 * (x a).val, _⟩) = C x
  refine congrArg C ?_
  funext a
  exact Fin.ext (show 0 + 1 * (x a).val = (x a).val by omega)

/-- `sIB` AFTER THE SIXTEEN COPIES OF CHUNK `c`, pointwise: position `(s, r, f)` holds the table at the block the chunk's
    lane `s` names. -/
theorem landedIB_trip (hpre : PreOK m) (d : Dev nD) (L : grid0.Coords) (c : ℕ) (hc : 16 * c + 16 ≤ 512) (off : Fin 1 → ℕ) (ho : off 0 = 16 * c)
    {inb : ∀ a, off a + S16.size a ≤ S512.size a}
    {hs_0 : S16.Slices ![0] S1} {hp_0 : ∀ a, (![0] : Fin 1 → ℕ) a < S1.size a}
    {hs_1 : S16.Slices ![1] S1} {hp_1 : ∀ a, (![0] : Fin 1 → ℕ) a < S1.size a}
    {hs_2 : S16.Slices ![2] S1} {hp_2 : ∀ a, (![0] : Fin 1 → ℕ) a < S1.size a}
    {hs_3 : S16.Slices ![3] S1} {hp_3 : ∀ a, (![0] : Fin 1 → ℕ) a < S1.size a}
    {hs_4 : S16.Slices ![4] S1} {hp_4 : ∀ a, (![0] : Fin 1 → ℕ) a < S1.size a}
    {hs_5 : S16.Slices ![5] S1} {hp_5 : ∀ a, (![0] : Fin 1 → ℕ) a < S1.size a}
    {hs_6 : S16.Slices ![6] S1} {hp_6 : ∀ a, (![0] : Fin 1 → ℕ) a < S1.size a}
    {hs_7 : S16.Slices ![7] S1} {hp_7 : ∀ a, (![0] : Fin 1 → ℕ) a < S1.size a}
    {hs_8 : S16.Slices ![8] S1} {hp_8 : ∀ a, (![0] : Fin 1 → ℕ) a < S1.size a}
    {hs_9 : S16.Slices ![9] S1} {hp_9 : ∀ a, (![0] : Fin 1 → ℕ) a < S1.size a}
    {hs_10 : S16.Slices ![10] S1} {hp_10 : ∀ a, (![0] : Fin 1 → ℕ) a < S1.size a}
    {hs_11 : S16.Slices ![11] S1} {hp_11 : ∀ a, (![0] : Fin 1 → ℕ) a < S1.size a}
    {hs_12 : S16.Slices ![12] S1} {hp_12 : ∀ a, (![0] : Fin 1 → ℕ) a < S1.size a}
    {hs_13 : S16.Slices ![13] S1} {hp_13 : ∀ a, (![0] : Fin 1 → ℕ) a < S1.size a}
    {hs_14 : S16.Slices ![14] S1} {hp_14 : ∀ a, (![0] : Fin 1 → ℕ) a < S1.size a}
    {hs_15 : S16.Slices ![15] S1} {hp_15 : ∀ a, (![0] : Fin 1 → ℕ) a < S1.size a}
    {h1_0 : ∀ a, (![0, 0, 0] : Fin 3 → ℕ) a + S1x8x64.size a ≤ S16x8x64.size a} {h2_0 : ∀ a, (Rect.unit (s := S16x8x64) ![0, 0, 0] S1x8x64.size h1_0).stride a = 1} {h3_0 : S1x8x64.Squeezes S8x64}
    {h1_1 : ∀ a, (![1, 0, 0] : Fin 3 → ℕ) a + S1x8x64.size a ≤ S16x8x64.size a} {h2_1 : ∀ a, (Rect.unit (s := S16x8x64) ![1, 0, 0] S1x8x64.size h1_1).stride a = 1} {h3_1 : S1x8x64.Squeezes S8x64}
    {h1_2 : ∀ a, (![2, 0, 0] : Fin 3 → ℕ) a + S1x8x64.size a ≤ S16x8x64.size a} {h2_2 : ∀ a, (Rect.unit (s := S16x8x64) ![2, 0, 0] S1x8x64.size h1_2).stride a = 1} {h3_2 : S1x8x64.Squeezes S8x64}
    {h1_3 : ∀ a, (![3, 0, 0] : Fin 3 → ℕ) a + S1x8x64.size a ≤ S16x8x64.size a} {h2_3 : ∀ a, (Rect.unit (s := S16x8x64) ![3, 0, 0] S1x8x64.size h1_3).stride a = 1} {h3_3 : S1x8x64.Squeezes S8x64}
    {h1_4 : ∀ a, (![4, 0, 0] : Fin 3 → ℕ) a + S1x8x64.size a ≤ S16x8x64.size a} {h2_4 : ∀ a, (Rect.unit (s := S16x8x64) ![4, 0, 0] S1x8x64.size h1_4).stride a = 1} {h3_4 : S1x8x64.Squeezes S8x64}
    {h1_5 : ∀ a, (![5, 0, 0] : Fin 3 → ℕ) a + S1x8x64.size a ≤ S16x8x64.size a} {h2_5 : ∀ a, (Rect.unit (s := S16x8x64) ![5, 0, 0] S1x8x64.size h1_5).stride a = 1} {h3_5 : S1x8x64.Squeezes S8x64}
    {h1_6 : ∀ a, (![6, 0, 0] : Fin 3 → ℕ) a + S1x8x64.size a ≤ S16x8x64.size a} {h2_6 : ∀ a, (Rect.unit (s := S16x8x64) ![6, 0, 0] S1x8x64.size h1_6).stride a = 1} {h3_6 : S1x8x64.Squeezes S8x64}
    {h1_7 : ∀ a, (![7, 0, 0] : Fin 3 → ℕ) a + S1x8x64.size a ≤ S16x8x64.size a} {h2_7 : ∀ a, (Rect.unit (s := S16x8x64) ![7, 0, 0] S1x8x64.size h1_7).stride a = 1} {h3_7 : S1x8x64.Squeezes S8x64}
    {h1_8 : ∀ a, (![8, 0, 0] : Fin 3 → ℕ) a + S1x8x64.size a ≤ S16x8x64.size a} {h2_8 : ∀ a, (Rect.unit (s := S16x8x64) ![8, 0, 0] S1x8x64.size h1_8).stride a = 1} {h3_8 : S1x8x64.Squeezes S8x64}
    {h1_9 : ∀ a, (![9, 0, 0] : Fin 3 → ℕ) a + S1x8x64.size a ≤ S16x8x64.size a} {h2_9 : ∀ a, (Rect.unit (s := S16x8x64) ![9, 0, 0] S1x8x64.size h1_9).stride a = 1} {h3_9 : S1x8x64.Squeezes S8x64}
    {h1_10 : ∀ a, (![10, 0, 0] : Fin 3 → ℕ) a + S1x8x64.size a ≤ S16x8x64.size a} {h2_10 : ∀ a, (Rect.unit (s := S16x8x64) ![10, 0, 0] S1x8x64.size h1_10).stride a = 1} {h3_10 : S1x8x64.Squeezes S8x64}
    {h1_11 : ∀ a, (![11, 0, 0] : Fin 3 → ℕ) a + S1x8x64.size a ≤ S16x8x64.size a} {h2_11 : ∀ a, (Rect.unit (s := S16x8x64) ![11, 0, 0] S1x8x64.size h1_11).stride a = 1} {h3_11 : S1x8x64.Squeezes S8x64}
    {h1_12 : ∀ a, (![12, 0, 0] : Fin 3 → ℕ) a + S1x8x64.size a ≤ S16x8x64.size a} {h2_12 : ∀ a, (Rect.unit (s := S16x8x64) ![12, 0, 0] S1x8x64.size h1_12).stride a = 1} {h3_12 : S1x8x64.Squeezes S8x64}
    {h1_13 : ∀ a, (![13, 0, 0] : Fin 3 → ℕ) a + S1x8x64.size a ≤ S16x8x64.size a} {h2_13 : ∀ a, (Rect.unit (s := S16x8x64) ![13, 0, 0] S1x8x64.size h1_13).stride a = 1} {h3_13 : S1x8x64.Squeezes S8x64}
    {h1_14 : ∀ a, (![14, 0, 0] : Fin 3 → ℕ) a + S1x8x64.size a ≤ S16x8x64.size a} {h2_14 : ∀ a, (Rect.unit (s := S16x8x64) ![14, 0, 0] S1x8x64.size h1_14).stride a = 1} {h3_14 : S1x8x64.Squeezes S8x64}
    {h1_15 : ∀ a, (![15, 0, 0] : Fin 3 → ℕ) a + S1x8x64.size a ≤ S16x8x64.size a} {h2_15 : ∀ a, (Rect.unit (s := S16x8x64) ![15, 0, 0] S1x8x64.size h1_15).stride a = 1} {h3_15 : S1x8x64.Squeezes S8x64}
    {g1_0 : ∀ a, (![(laneI m d L off inb 0 hs_0 hp_0).toNat, 0, 0] : Fin 3 → ℕ) a + S1x8x64.size a ≤ S125000x8x64.size a} {g2_0 : ∀ a, (Rect.unit (s := S125000x8x64) ![(laneI m d L off inb 0 hs_0 hp_0).toNat, 0, 0] S1x8x64.size g1_0).stride a = 1}
    {g1_1 : ∀ a, (![(laneI m d L off inb 1 hs_1 hp_1).toNat, 0, 0] : Fin 3 → ℕ) a + S1x8x64.size a ≤ S125000x8x64.size a} {g2_1 : ∀ a, (Rect.unit (s := S125000x8x64) ![(laneI m d L off inb 1 hs_1 hp_1).toNat, 0, 0] S1x8x64.size g1_1).stride a = 1}
    {g1_2 : ∀ a, (![(laneI m d L off inb 2 hs_2 hp_2).toNat, 0, 0] : Fin 3 → ℕ) a + S1x8x64.size a ≤ S125000x8x64.size a} {g2_2 : ∀ a, (Rect.unit (s := S125000x8x64) ![(laneI m d L off inb 2 hs_2 hp_2).toNat, 0, 0] S1x8x64.size g1_2).stride a = 1}
    {g1_3 : ∀ a, (![(laneI m d L off inb 3 hs_3 hp_3).toNat, 0, 0] : Fin 3 → ℕ) a + S1x8x64.size a ≤ S125000x8x64.size a} {g2_3 : ∀ a, (Rect.unit (s := S125000x8x64) ![(laneI m d L off inb 3 hs_3 hp_3).toNat, 0, 0] S1x8x64.size g1_3).stride a = 1}
    {g1_4 : ∀ a, (![(laneI m d L off inb 4 hs_4 hp_4).toNat, 0, 0] : Fin 3 → ℕ) a + S1x8x64.size a ≤ S125000x8x64.size a} {g2_4 : ∀ a, (Rect.unit (s := S125000x8x64) ![(laneI m d L off inb 4 hs_4 hp_4).toNat, 0, 0] S1x8x64.size g1_4).stride a = 1}
    {g1_5 : ∀ a, (![(laneI m d L off inb 5 hs_5 hp_5).toNat, 0, 0] : Fin 3 → ℕ) a + S1x8x64.size a ≤ S125000x8x64.size a} {g2_5 : ∀ a, (Rect.unit (s := S125000x8x64) ![(laneI m d L off inb 5 hs_5 hp_5).toNat, 0, 0] S1x8x64.size g1_5).stride a = 1}
    {g1_6 : ∀ a, (![(laneI m d L off inb 6 hs_6 hp_6).toNat, 0, 0] : Fin 3 → ℕ) a + S1x8x64.size a ≤ S125000x8x64.size a} {g2_6 : ∀ a, (Rect.unit (s := S125000x8x64) ![(laneI m d L off inb 6 hs_6 hp_6).toNat, 0, 0] S1x8x64.size g1_6).stride a = 1}
    {g1_7 : ∀ a, (![(laneI m d L off inb 7 hs_7 hp_7).toNat, 0, 0] : Fin 3 → ℕ) a + S1x8x64.size a ≤ S125000x8x64.size a} {g2_7 : ∀ a, (Rect.unit (s := S125000x8x64) ![(laneI m d L off inb 7 hs_7 hp_7).toNat, 0, 0] S1x8x64.size g1_7).stride a = 1}
    {g1_8 : ∀ a, (![(laneI m d L off inb 8 hs_8 hp_8).toNat, 0, 0] : Fin 3 → ℕ) a + S1x8x64.size a ≤ S125000x8x64.size a} {g2_8 : ∀ a, (Rect.unit (s := S125000x8x64) ![(laneI m d L off inb 8 hs_8 hp_8).toNat, 0, 0] S1x8x64.size g1_8).stride a = 1}
    {g1_9 : ∀ a, (![(laneI m d L off inb 9 hs_9 hp_9).toNat, 0, 0] : Fin 3 → ℕ) a + S1x8x64.size a ≤ S125000x8x64.size a} {g2_9 : ∀ a, (Rect.unit (s := S125000x8x64) ![(laneI m d L off inb 9 hs_9 hp_9).toNat, 0, 0] S1x8x64.size g1_9).stride a = 1}
    {g1_10 : ∀ a, (![(laneI m d L off inb 10 hs_10 hp_10).toNat, 0, 0] : Fin 3 → ℕ) a + S1x8x64.size a ≤ S125000x8x64.size a} {g2_10 : ∀ a, (Rect.unit (s := S125000x8x64) ![(laneI m d L off inb 10 hs_10 hp_10).toNat, 0, 0] S1x8x64.size g1_10).stride a = 1}
    {g1_11 : ∀ a, (![(laneI m d L off inb 11 hs_11 hp_11).toNat, 0, 0] : Fin 3 → ℕ) a + S1x8x64.size a ≤ S125000x8x64.size a} {g2_11 : ∀ a, (Rect.unit (s := S125000x8x64) ![(laneI m d L off inb 11 hs_11 hp_11).toNat, 0, 0] S1x8x64.size g1_11).stride a = 1}
    {g1_12 : ∀ a, (![(laneI m d L off inb 12 hs_12 hp_12).toNat, 0, 0] : Fin 3 → ℕ) a + S1x8x64.size a ≤ S125000x8x64.size a} {g2_12 : ∀ a, (Rect.unit (s := S125000x8x64) ![(laneI m d L off inb 12 hs_12 hp_12).toNat, 0, 0] S1x8x64.size g1_12).stride a = 1}
    {g1_13 : ∀ a, (![(laneI m d L off inb 13 hs_13 hp_13).toNat, 0, 0] : Fin 3 → ℕ) a + S1x8x64.size a ≤ S125000x8x64.size a} {g2_13 : ∀ a, (Rect.unit (s := S125000x8x64) ![(laneI m d L off inb 13 hs_13 hp_13).toNat, 0, 0] S1x8x64.size g1_13).stride a = 1}
    {g1_14 : ∀ a, (![(laneI m d L off inb 14 hs_14 hp_14).toNat, 0, 0] : Fin 3 → ℕ) a + S1x8x64.size a ≤ S125000x8x64.size a} {g2_14 : ∀ a, (Rect.unit (s := S125000x8x64) ![(laneI m d L off inb 14 hs_14 hp_14).toNat, 0, 0] S1x8x64.size g1_14).stride a = 1}
    {g1_15 : ∀ a, (![(laneI m d L off inb 15 hs_15 hp_15).toNat, 0, 0] : Fin 3 → ℕ) a + S1x8x64.size a ≤ S125000x8x64.size a} {g2_15 : ∀ a, (Rect.unit (s := S125000x8x64) ![(laneI m d L off inb 15 hs_15 hp_15).toNat, 0, 0] S1x8x64.size g1_15).stride a = 1}
    {prior : (slotV sIB 0 h1_0 h2_0 h3_0).ty.Contents (Elt F)} (s : Fin 16) (r : Fin 8) (f : Fin 64) :
    (View.write (Elt F) (slotV sIB 15 h1_15 h2_15 h3_15) (View.write (Elt F) (slotV sIB 14 h1_14 h2_14 h3_14) (View.write (Elt F) (slotV sIB 13 h1_13 h2_13 h3_13) (View.write (Elt F) (slotV sIB 12 h1_12 h2_12 h3_12) (View.write (Elt F) (slotV sIB 11 h1_11 h2_11 h3_11) (View.write (Elt F) (slotV sIB 10 h1_10 h2_10 h3_10) (View.write (Elt F) (slotV sIB 9 h1_9 h2_9 h3_9) (View.write (Elt F) (slotV sIB 8 h1_8 h2_8 h3_8) (View.write (Elt F) (slotV sIB 7 h1_7 h2_7 h3_7) (View.write (Elt F) (slotV sIB 6 h1_6 h2_6 h3_6) (View.write (Elt F) (slotV sIB 5 h1_5 h2_5 h3_5) (View.write (Elt F) (slotV sIB 4 h1_4 h2_4 h3_4) (View.write (Elt F) (slotV sIB 3 h1_3 h2_3 h3_3) (View.write (Elt F) (slotV sIB 2 h1_2 h2_2 h3_2) (View.write (Elt F) (slotV sIB 1 h1_1 h2_1 h3_1) (View.write (Elt F) (slotV sIB 0 h1_0 h2_0 h3_0) prior (ReadAs.same.apply ((rowV iwV (laneI m d L off inb 0 hs_0 hp_0).toNat g1_0 g2_0).view.read (Elt F) (W1 m d))) Finset.univ) (ReadAs.same.apply ((rowV iwV (laneI m d L off inb 1 hs_1 hp_1).toNat g1_1 g2_1).view.read (Elt F) (W1 m d))) Finset.univ) (ReadAs.same.apply ((rowV iwV (laneI m d L off inb 2 hs_2 hp_2).toNat g1_2 g2_2).view.read (Elt F) (W1 m d))) Finset.univ) (ReadAs.same.apply ((rowV iwV (laneI m d L off inb 3 hs_3 hp_3).toNat g1_3 g2_3).view.read (Elt F) (W1 m d))) Finset.univ) (ReadAs.same.apply ((rowV iwV (laneI m d L off inb 4 hs_4 hp_4).toNat g1_4 g2_4).view.read (Elt F) (W1 m d))) Finset.univ) (ReadAs.same.apply ((rowV iwV (laneI m d L off inb 5 hs_5 hp_5).toNat g1_5 g2_5).view.read (Elt F) (W1 m d))) Finset.univ) (ReadAs.same.apply ((rowV iwV (laneI m d L off inb 6 hs_6 hp_6).toNat g1_6 g2_6).view.read (Elt F) (W1 m d))) Finset.univ) (ReadAs.same.apply ((rowV iwV (laneI m d L off inb 7 hs_7 hp_7).toNat g1_7 g2_7).view.read (Elt F) (W1 m d))) Finset.univ) (ReadAs.same.apply ((rowV iwV (laneI m d L off inb 8 hs_8 hp_8).toNat g1_8 g2_8).view.read (Elt F) (W1 m d))) Finset.univ) (ReadAs.same.apply ((rowV iwV (laneI m d L off inb 9 hs_9 hp_9).toNat g1_9 g2_9).view.read (Elt F) (W1 m d))) Finset.univ) (ReadAs.same.apply ((rowV iwV (laneI m d L off inb 10 hs_10 hp_10).toNat g1_10 g2_10).view.read (Elt F) (W1 m d))) Finset.univ) (ReadAs.same.apply ((rowV iwV (laneI m d L off inb 11 hs_11 hp_11).toNat g1_11 g2_11).view.read (Elt F) (W1 m d))) Finset.univ) (ReadAs.same.apply ((rowV iwV (laneI m d L off inb 12 hs_12 hp_12).toNat g1_12 g2_12).view.read (Elt F) (W1 m d))) Finset.univ) (ReadAs.same.apply ((rowV iwV (laneI m d L off inb 13 hs_13 hp_13).toNat g1_13 g2_13).view.read (Elt F) (W1 m d))) Finset.univ) (ReadAs.same.apply ((rowV iwV (laneI m d L off inb 14 hs_14 hp_14).toNat g1_14 g2_14).view.read (Elt F) (W1 m d))) Finset.univ) (ReadAs.same.apply ((rowV iwV (laneI m d L off inb 15 hs_15 hp_15).toNat g1_15 g2_15).view.read (Elt F) (W1 m d))) Finset.univ)
        (ValueIdx.ix3 (n0 := 16) (n1 := 8) (n2 := 64) s r f)
      = W1 m d (ValueIdx.ix3 (n0 := 125000) (n1 := 8) (n2 := 64) ⟨((CI m d L (pos c s)) >>> 3).toNat % 125000, Nat.mod_lt _ (by decide)⟩ r f) := by
  have hw : ∀ s : Fin 16, (![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s = (CI m d L (pos c s)) >>> 3 := by
    intro s
    fin_cases s
    · exact laneI_eq m d L c hc off ho inb 0 (by decide) hs_0 hp_0
    · exact laneI_eq m d L c hc off ho inb 1 (by decide) hs_1 hp_1
    · exact laneI_eq m d L c hc off ho inb 2 (by decide) hs_2 hp_2
    · exact laneI_eq m d L c hc off ho inb 3 (by decide) hs_3 hp_3
    · exact laneI_eq m d L c hc off ho inb 4 (by decide) hs_4 hp_4
    · exact laneI_eq m d L c hc off ho inb 5 (by decide) hs_5 hp_5
    · exact laneI_eq m d L c hc off ho inb 6 (by decide) hs_6 hp_6
    · exact laneI_eq m d L c hc off ho inb 7 (by decide) hs_7 hp_7
    · exact laneI_eq m d L c hc off ho inb 8 (by decide) hs_8 hp_8
    · exact laneI_eq m d L c hc off ho inb 9 (by decide) hs_9 hp_9
    · exact laneI_eq m d L c hc off ho inb 10 (by decide) hs_10 hp_10
    · exact laneI_eq m d L c hc off ho inb 11 (by decide) hs_11 hp_11
    · exact laneI_eq m d L c hc off ho inb 12 (by decide) hs_12 hp_12
    · exact laneI_eq m d L c hc off ho inb 13 (by decide) hs_13 hp_13
    · exact laneI_eq m d L c hc off ho inb 14 (by decide) hs_14 hp_14
    · exact laneI_eq m d L c hc off ho inb 15 (by decide) hs_15 hp_15
  have hb : ∀ s : Fin 16, ((![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s).toNat < 125000 := fun s => by
    rw [hw s]; exact shr3_lt (v := CI m d L (pos c s)) (hpre d _).2
  refine (landed_of_nest_IB_word (F := F) d (![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) hb (W1 m d)
    h1_0 h2_0 h3_0 h1_1 h2_1 h3_1 h1_2 h2_2 h3_2 h1_3 h2_3 h3_3 h1_4 h2_4 h3_4 h1_5 h2_5 h3_5 h1_6 h2_6 h3_6 h1_7 h2_7 h3_7 h1_8 h2_8 h3_8 h1_9 h2_9 h3_9 h1_10 h2_10 h3_10 h1_11 h2_11 h3_11 h1_12 h2_12 h3_12 h1_13 h2_13 h3_13 h1_14 h2_14 h3_14 h1_15 h2_15 h3_15
    g1_0 g2_0 g1_1 g2_1 g1_2 g2_2 g1_3 g2_3 g1_4 g2_4 g1_5 g2_5 g1_6 g2_6 g1_7 g2_7 g1_8 g2_8 g1_9 g2_9 g1_10 g2_10 g1_11 g2_11 g1_12 g2_12 g1_13 g2_13 g1_14 g2_14 g1_15 g2_15 prior s r f).trans ?_
  refine congrArg (fun b => W1 m d (ValueIdx.ix3 (n0 := 125000) (n1 := 8) (n2 := 64) b r f)) (Fin.ext ?_)
  show ((![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s).toNat = ((CI m d L (pos c s)) >>> 3).toNat % 125000
  rw [hw s]
  exact (shr3_mod (v := CI m d L (pos c s)) (hpre d _).2).symm

omit [FloatOps F] in
/-- A load of the whole of `sIB` reads its contents. -/
theorem readWhole_IB {d : Dev nD} {L : grid0.Coords} (C : Buf (Elt F) ((thrV d L).loc cc0_scratch5)) (x : S16x8x64.Idx) :
    ((sIB : Memref sig .scVector .vmem S16x8x64 .f32).view.readAt (Elt F) (LoadRect.whole S16x8x64) C) x = C x := by
  rw [View.readAt_apply]
  show C (fun a => ⟨0 + 1 * (x a).val, _⟩) = C x
  refine congrArg C ?_
  funext a
  exact Fin.ext (show 0 + 1 * (x a).val = (x a).val by omega)

end Cert.Proof.KernelIdeal

end
-- ==== Proof.KI.Trip.lean ====
/-
  One trip of the tile's loop, at a symbolic trip number `k`.

  Before the trip the first buffer pair's sixteen + sixteen row-block copies for chunk `2 k` are pending.  The trip
  starts the second pair's copies for chunk `2 k + 1`, awaits the first pair's, accumulates chunk `2 k`'s sixteen inner
  products out of the landed blocks (64 gathered features each), starts the first pair's copies for chunk `2 k + 2`
  unless this is the last trip, awaits the second pair's, accumulates chunk `2 k + 1`, and stores both results.  So the
  invariant is re-established one trip on: 32 more positions of the output scratch hold their specified inner products,
  and what is pending is chunk `2 (k + 1)`'s copies, whose landing is stated by `DrainU` / `DrainI`.
-/
import proofs.«203884_g41704132444582_cont_8to1_b_1290_16_alg».proof.Proof.KI.Acc
import proofs.«203884_g41704132444582_cont_8to1_b_1290_16_alg».proof.Proof.KI.LandedTrip
import proofs.«203884_g41704132444582_cont_8to1_b_1290_16_alg».proof.Proof.KI.OutStep
import proofs.«203884_g41704132444582_cont_8to1_b_1290_16_alg».proof.Proof.KI.ChunkVal
import proofs.«203884_g41704132444582_cont_8to1_b_1290_16_alg».proof.Proof.KI.LandedTripB

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

omit [FloatOps F] in
/-- A constant feature number below 64, at every lane. -/
theorem bc_lt (c : BitVec 32) (hc : c.toNat < 64) (x : S16.Idx) : ((broadcast S16 c : IVec S16 32) x).toNat < 64 := hc

omit [FloatOps F] in
theorem cond_lt : ∀ k : Fin k0_t1_loop.trips, k0_cond1 k = 1#1 → ¬ (k.val + 1 = 16) := by decide
omit [FloatOps F] in
theorem ncond_eq : ∀ k : Fin k0_t1_loop.trips, ¬ (k0_cond1 k = 1#1) → ¬ (k.val + 1 < 16) := by decide

attribute [local sl_canon] vli_bind

set_option maxHeartbeats 4000000 in
set_option sl_exec.dischHeartbeats 40000 in
theorem trip (hpre : PreOK m) (d : Dev nD) (L : grid0.Coords) (q : PosShare TreeShare) (O : CellTallies nD τ sig (HIx 1)) (W : Waits sig (HIx 1))
    (k : Fin k0_t1_loop.trips) :
    inv m d L q O W k.val ⟨⟩ ⊢ wp frame (wpE (defs₀ (F := F)) 𝒱₀ (thrV d L) none) Set.univ
      (k0_t1_body L uV (Memref.isWhole_whole _) iV (Memref.isWhole_whole _) uwV (Memref.isWhole_whole _) iwV (Memref.isWhole_whole _) oV (Memref.isWhole_whole _) sU (Memref.isWhole_whole _) sI (Memref.isWhole_whole _) sUA (Memref.isWhole_whole _) sIA (Memref.isWhole_whole _) sUB (Memref.isWhole_whole _) sIB (Memref.isWhole_whole _) sO (Memref.isWhole_whole _) cc0_scratch7 cc0_scratch8 cc0_scratch9 cc0_scratch10 cc0_scoped0 cc0_scoped1 cc0_scoped2 k ⟨⟩) (inv m d L q O W (k.val + 1)) := by
  have planUA : Transfers.BatchOf (thrV d L) (SemLoc.dma (sig := sig) cc0_scratch7.sem) 16 (windows := true) := trivial
  have planIA : Transfers.BatchOf (thrV d L) (SemLoc.dma (sig := sig) cc0_scratch8.sem) 16 (windows := true) := trivial
  have planUB : Transfers.BatchOf (thrV d L) (SemLoc.dma (sig := sig) cc0_scratch9.sem) 16 (windows := true) := trivial
  have planIB : Transfers.BatchOf (thrV d L) (SemLoc.dma (sig := sig) cc0_scratch10.sem) 16 (windows := true) := trivial
  unfold inv freeU freeI
  iintro ⟨Hmw, Hu, Hi, Ho, H0, H1, ⟨%f4, H4⟩, ⟨%f5, H5⟩, ⟨%fo, H6, %hfo⟩, S9, S10, T0, T1, T2, ⟨%a0, %a1, %a2, %a3, %a4, %a5, %a6, %a7, %a8, %a9, %a10, %a11, %a12, %a13, %a14, %a15, Uw0, Uw1, Uw2, Uw3, Uw4, Uw5, Uw6, Uw7, Uw8, Uw9, Uw10, Uw11, Uw12, Uw13, Uw14, Uw15⟩, ⟨%b0, %b1, %b2, %b3, %b4, %b5, %b6, %b7, %b8, %b9, %b10, %b11, %b12, %b13, %b14, %b15, Iw0, Iw1, Iw2, Iw3, Iw4, Iw5, Iw6, Iw7, Iw8, Iw9, Iw10, Iw11, Iw12, Iw13, Iw14, Iw15⟩, ⟨%W', HO, %hW'⟩, ⟨%XU, HXU, %hXUd, %hXUi⟩, ⟨%XI, HXI, %hXId, %hXIi⟩⟩
  have hk16 : k.val < 16 := lt_of_lt_of_le k.isLt k0_t1_abs.2.1
  sl_exec_parts (disch := first | (refine blk_lane _ _ _ _ (shr3v_lt _ ?_); first | with_reducible exact rdCU m hpre d L _ _ | with_reducible exact rdCI m hpre d L _ _) | (intro _; (refine blk_lane _ _ _ _ (shr3v_lt _ ?_); first | with_reducible exact rdCU m hpre d L _ _ | with_reducible exact rdCI m hpre d L _ _)) | exact ⟨gidx_ok _ _ _ (gs_lt _) (and7v_lt _) (bc_lt _ (by decide)), gidx_ok _ _ _ (gs_lt _) (and7v_lt _) (bc_lt _ (by decide))⟩ | (intro _; exact ⟨gidx_ok _ _ _ (gs_lt _) (and7v_lt _) (bc_lt _ (by decide)), gidx_ok _ _ _ (gs_lt _) (and7v_lt _) (bc_lt _ (by decide))⟩) | (refine blk_any _ ?_; first | exact shr3v_lt _ (rdCI m hpre d L _ _) _ | exact shr3v_lt _ (rdCU m hpre d L _ _) _) | (intro _; (refine blk_any _ ?_; first | exact shr3v_lt _ (rdCI m hpre d L _ _) _ | exact shr3v_lt _ (rdCU m hpre d L _ _) _)))
  iapply (hXUd hk16 _ _ _ _) $$ [HXU Hmw HO]
  · isplitl [HXU]; · iexact HXU
    isplitl [Hmw]; · iexact Hmw
    iexact HO
  iintro ⟨⟨%CUA, H2, %hCUA⟩, S7, HfreeU, Hmw, ⟨%W'', HO, %hW''⟩⟩
  sl_exec
  iapply (hXId hk16 _ _ _ _) $$ [HXI Hmw HO]
  · isplitl [HXI]; · iexact HXI
    isplitl [Hmw]; · iexact Hmw
    iexact HO
  iintro ⟨⟨%CIA, H3, %hCIA⟩, S8, HfreeI, Hmw, ⟨%W3, HO, %hW3⟩⟩
  unfold freeU freeI
  icases HfreeU with ⟨%c0, %c1, %c2, %c3, %c4, %c5, %c6, %c7, %c8, %c9, %c10, %c11, %c12, %c13, %c14, %c15, Uw16, Uw17, Uw18, Uw19, Uw20, Uw21, Uw22, Uw23, Uw24, Uw25, Uw26, Uw27, Uw28, Uw29, Uw30, Uw31⟩
  icases HfreeI with ⟨%e0, %e1, %e2, %e3, %e4, %e5, %e6, %e7, %e8, %e9, %e10, %e11, %e12, %e13, %e14, %e15, Iw16, Iw17, Iw18, Iw19, Iw20, Iw21, Iw22, Iw23, Iw24, Iw25, Iw26, Iw27, Iw28, Iw29, Iw30, Iw31⟩
  by_cases hc : k0_cond1 k = 1#1
  · sl_exec_parts (disch := first | (refine blk_lane _ _ _ _ (shr3v_lt _ ?_); first | with_reducible exact rdCU m hpre d L _ _ | with_reducible exact rdCI m hpre d L _ _) | (intro _; (refine blk_lane _ _ _ _ (shr3v_lt _ ?_); first | with_reducible exact rdCU m hpre d L _ _ | with_reducible exact rdCI m hpre d L _ _)) | exact ⟨gidx_ok _ _ _ (gs_lt _) (and7v_lt _) (bc_lt _ (by decide)), gidx_ok _ _ _ (gs_lt _) (and7v_lt _) (bc_lt _ (by decide))⟩ | (intro _; exact ⟨gidx_ok _ _ _ (gs_lt _) (and7v_lt _) (bc_lt _ (by decide)), gidx_ok _ _ _ (gs_lt _) (and7v_lt _) (bc_lt _ (by decide))⟩) | (refine blk_any _ ?_; first | exact shr3v_lt _ (rdCI m hpre d L _ _) _ | exact shr3v_lt _ (rdCU m hpre d L _ _) _) | (intro _; (refine blk_any _ ?_; first | exact shr3v_lt _ (rdCI m hpre d L _ _) _ | exact shr3v_lt _ (rdCU m hpre d L _ _) _)))
    sl_step
    isplitl [Hmw]; · iexact Hmw
    isplitl [Hu]; · iexact Hu
    isplitl [Hi]; · iexact Hi
    isplitl [Ho]; · iexact Ho
    isplitl [H0]; · iexact H0
    isplitl [H1]; · iexact H1
    isplitl [H4]; · iexists _; iexact H4
    isplitl [H5]; · iexists _; iexact H5
    isplitl [H6]
    · iexists _; isplitl [H6]; · iexact H6
      ipureintro
      refine outOK_step m d L k.val hk16 fo hfo _ _ ?inbA1 _ (k0_off68_eq k) (k0_off103_eq k) ?wA1 _ _ ?hT1 ?hA1 ?hB1
      case hT1 => rfl
      case hA1 =>
        intro l
        have HA : ∀ n, n < 64 → (∀ a x, ((![k0_pay70, urOf m d L (k0_off67 k) (k0_off67_inb k), broadcast S16 (BitVec.ofNat 32 n)] : Fin 3 → IVec S16 32) a x).toNat < S16x8x64.size a) ∧ (∀ a x, ((![k0_pay70, irOf m d L (k0_off67 k) (k0_off67_inb k), broadcast S16 (BitVec.ofNat 32 n)] : Fin 3 → IVec S16 32) a x).toNat < S16x8x64.size a) :=
          fun n hn => ⟨gidx_ok _ _ _ (gs_lt _) (and7v_lt _) (feat_lt n hn), gidx_ok _ _ _ (gs_lt _) (and7v_lt _) (feat_lt n hn)⟩
        refine Eq.trans (show _ = accL (View.readAt (Elt F) (sUA : Memref sig .scVector .vmem S16x8x64 .f32).view (LoadRect.whole S16x8x64) CUA) (View.readAt (Elt F) (sIA : Memref sig .scVector .vmem S16x8x64 .f32).view (LoadRect.whole S16x8x64) CIA) k0_pay70 (urOf m d L (k0_off67 k) (k0_off67_inb k)) (irOf m d L (k0_off67 k) (k0_off67_inb k)) HA 64 le_rfl l from rfl) ?_
        exact chunk_val m d L (2 * k.val) (by omega) CUA CIA hCUA hCIA (k0_off67 k) (by rw [k0_off67_eq]; show 32 * k.val = 16 * (2 * k.val); omega) (k0_off67_inb k) k0_pay70 (fun l => laneIdx_toNat _ l) HA l
      case hB1 =>
        intro l
        have HB : ∀ n, n < 64 → (∀ a x, ((![k0_pay86, urOf m d L (k0_off102 k) (k0_off102_inb k), broadcast S16 (BitVec.ofNat 32 n)] : Fin 3 → IVec S16 32) a x).toNat < S16x8x64.size a) ∧ (∀ a x, ((![k0_pay86, irOf m d L (k0_off102 k) (k0_off102_inb k), broadcast S16 (BitVec.ofNat 32 n)] : Fin 3 → IVec S16 32) a x).toNat < S16x8x64.size a) :=
          fun n hn => ⟨gidx_ok _ _ _ (gs_lt _) (and7v_lt _) (feat_lt n hn), gidx_ok _ _ _ (gs_lt _) (and7v_lt _) (feat_lt n hn)⟩
        have hFU : ∀ (s : Fin 16) (r : Fin 8) (f : Fin 64), (trip.sl.f m hpre d L k f4) (ValueIdx.ix3 (n0 := 16) (n1 := 8) (n2 := 64) s r f) = W0 m d (ValueIdx.ix3 (n0 := 125000) (n1 := 8) (n2 := 64) ⟨((CU m d L (pos (2 * k.val + 1) s)) >>> 3).toNat % 125000, Nat.mod_lt _ (by decide)⟩ r f) := by
          intro s r f
          unfold trip.sl.f
          refine (readWhole_UB (F := F) (d := d) (L := L) _ _).trans ?_
          exact landedUB_trip m hpre d L (2 * k.val + 1) (by omega) (k0_off34 k) (by rw [k0_off34_eq]; show 32 * k.val + 16 = _; omega) (hs_0 := by decide) (hs_1 := by decide) (hs_2 := by decide) (hs_3 := by decide) (hs_4 := by decide) (hs_5 := by decide) (hs_6 := by decide) (hs_7 := by decide) (hs_8 := by decide) (hs_9 := by decide) (hs_10 := by decide) (hs_11 := by decide) (hs_12 := by decide) (hs_13 := by decide) (hs_14 := by decide) (hs_15 := by decide) s r f
        have hFI : ∀ (s : Fin 16) (r : Fin 8) (f : Fin 64), (trip.sl.f_1 m hpre d L k f5) (ValueIdx.ix3 (n0 := 16) (n1 := 8) (n2 := 64) s r f) = W1 m d (ValueIdx.ix3 (n0 := 125000) (n1 := 8) (n2 := 64) ⟨((CI m d L (pos (2 * k.val + 1) s)) >>> 3).toNat % 125000, Nat.mod_lt _ (by decide)⟩ r f) := by
          intro s r f
          unfold trip.sl.f_1
          refine (readWhole_IB (F := F) (d := d) (L := L) _ _).trans ?_
          exact landedIB_trip m hpre d L (2 * k.val + 1) (by omega) (k0_off34 k) (by rw [k0_off34_eq]; show 32 * k.val + 16 = _; omega) (hs_0 := by decide) (hs_1 := by decide) (hs_2 := by decide) (hs_3 := by decide) (hs_4 := by decide) (hs_5 := by decide) (hs_6 := by decide) (hs_7 := by decide) (hs_8 := by decide) (hs_9 := by decide) (hs_10 := by decide) (hs_11 := by decide) (hs_12 := by decide) (hs_13 := by decide) (hs_14 := by decide) (hs_15 := by decide) s r f
        refine Eq.trans (show _ = accL (trip.sl.f m hpre d L k f4) (trip.sl.f_1 m hpre d L k f5) k0_pay86 (urOf m d L (k0_off102 k) (k0_off102_inb k)) (irOf m d L (k0_off102 k) (k0_off102_inb k)) HB 64 le_rfl l from rfl) ?_
        exact chunk_val_of m d L (2 * k.val + 1) (by omega) _ _ hFU hFI (k0_off102 k) (by rw [k0_off102_eq]; show 32 * k.val + 16 = 16 * (2 * k.val + 1); omega) (k0_off102_inb k) k0_pay86 (fun l => laneIdx_toNat _ l) HB l
    isplitl [S9]; · iexact S9
    isplitl [S10]; · iexact S10
    isplitl [T0]; · iexact T0
    isplitl [T1]; · iexact T1
    isplitl [T2]; · iexact T2
    isplitl [Uw0 Uw1 Uw2 Uw3 Uw4 Uw5 Uw6 Uw7 Uw8 Uw9 Uw10 Uw11 Uw12 Uw13 Uw14 Uw15]
    · iexists _, _, _, _, _, _, _, _, _, _, _, _, _, _, _, _
      isplitl [Uw0]; · iexact Uw0
      isplitl [Uw1]; · iexact Uw1
      isplitl [Uw2]; · iexact Uw2
      isplitl [Uw3]; · iexact Uw3
      isplitl [Uw4]; · iexact Uw4
      isplitl [Uw5]; · iexact Uw5
      isplitl [Uw6]; · iexact Uw6
      isplitl [Uw7]; · iexact Uw7
      isplitl [Uw8]; · iexact Uw8
      isplitl [Uw9]; · iexact Uw9
      isplitl [Uw10]; · iexact Uw10
      isplitl [Uw11]; · iexact Uw11
      isplitl [Uw12]; · iexact Uw12
      isplitl [Uw13]; · iexact Uw13
      isplitl [Uw14]; · iexact Uw14
      iexact Uw15
    isplitl [Iw0 Iw1 Iw2 Iw3 Iw4 Iw5 Iw6 Iw7 Iw8 Iw9 Iw10 Iw11 Iw12 Iw13 Iw14 Iw15]
    · iexists _, _, _, _, _, _, _, _, _, _, _, _, _, _, _, _
      isplitl [Iw0]; · iexact Iw0
      isplitl [Iw1]; · iexact Iw1
      isplitl [Iw2]; · iexact Iw2
      isplitl [Iw3]; · iexact Iw3
      isplitl [Iw4]; · iexact Iw4
      isplitl [Iw5]; · iexact Iw5
      isplitl [Iw6]; · iexact Iw6
      isplitl [Iw7]; · iexact Iw7
      isplitl [Iw8]; · iexact Iw8
      isplitl [Iw9]; · iexact Iw9
      isplitl [Iw10]; · iexact Iw10
      isplitl [Iw11]; · iexact Iw11
      isplitl [Iw12]; · iexact Iw12
      isplitl [Iw13]; · iexact Iw13
      isplitl [Iw14]; · iexact Iw14
      iexact Iw15
    isplitl [HO]
    · iexists _; isplitl [HO]; · iexact HO
      ipureintro; intro p hp
      rcases Finset.mem_insert.mp hp with rfl | hp
      · exact .inr rfl
      rcases Finset.mem_insert.mp hp with rfl | hp
      · exact .inr rfl
      rcases hW3 p hp with hp | hp
      · rcases hW'' p hp with hp | hp
        · exact hW' p hp
        · exact .inr hp
      · exact .inr hp
    isplitl [H2 S7 Uw31 Uw16 Uw17 Uw18 Uw19 Uw20 Uw21 Uw22 Uw23 Uw24 Uw25 Uw26 Uw27 Uw28 Uw29 Uw30 Uw16_kept Uw17_kept Uw18_kept Uw19_kept Uw20_kept Uw21_kept Uw22_kept Uw23_kept Uw24_kept Uw25_kept Uw26_kept Uw27_kept Uw28_kept Uw29_kept Uw30_kept]
    · icombine H2 S7 Uw31 Uw16 Uw17 Uw18 Uw19 Uw20 Uw21 Uw22 Uw23 Uw24 Uw25 Uw26 Uw27 Uw28 Uw29 Uw30 Uw16_kept Uw17_kept Uw18_kept Uw19_kept Uw20_kept Uw21_kept Uw22_kept Uw23_kept Uw24_kept Uw25_kept Uw26_kept Uw27_kept Uw28_kept Uw29_kept Uw30_kept as HXU
      iexists _; isplitl [HXU]; · iexact HXU
      isplitr
      · ipureintro; intro _
        intro α kont Q W2
        iintro ⟨HX, Hmw, HO⟩ Hk
        icases HX with ⟨H2, S7, Uw31, Uw16, Uw17, Uw18, Uw19, Uw20, Uw21, Uw22, Uw23, Uw24, Uw25, Uw26, Uw27, Uw28, Uw29, Uw30, Uw16_kept, Uw17_kept, Uw18_kept, Uw19_kept, Uw20_kept, Uw21_kept, Uw22_kept, Uw23_kept, Uw24_kept, Uw25_kept, Uw26_kept, Uw27_kept, Uw28_kept, Uw29_kept, Uw30_kept⟩
        sl_exec
        iapply Hk
        isplitl [H2]
        · iexists _; isplitl [H2]; · iexact H2
          ipureintro; exact landedU_trip m hpre d L (2 * (k.val + 1)) (by have := cond_lt k hc; omega) (k0_off69 k) (by rw [k0_off69_eq]; show 32 * k.val + 32 = _; omega)
        isplitl [S7]; · iexact S7
        isplitl [Uw16 Uw17 Uw18 Uw19 Uw20 Uw21 Uw22 Uw23 Uw24 Uw25 Uw26 Uw27 Uw28 Uw29 Uw30 Uw31]
        · unfold freeU
          iexists _, _, _, _, _, _, _, _, _, _, _, _, _, _, _, _
          isplitl [Uw16]; · iexact Uw16
          isplitl [Uw17]; · iexact Uw17
          isplitl [Uw18]; · iexact Uw18
          isplitl [Uw19]; · iexact Uw19
          isplitl [Uw20]; · iexact Uw20
          isplitl [Uw21]; · iexact Uw21
          isplitl [Uw22]; · iexact Uw22
          isplitl [Uw23]; · iexact Uw23
          isplitl [Uw24]; · iexact Uw24
          isplitl [Uw25]; · iexact Uw25
          isplitl [Uw26]; · iexact Uw26
          isplitl [Uw27]; · iexact Uw27
          isplitl [Uw28]; · iexact Uw28
          isplitl [Uw29]; · iexact Uw29
          isplitl [Uw30]; · iexact Uw30
          iexact Uw31
        isplitl [Hmw]; · iexact Hmw
        iexists _; isplitl [HO]; · iexact HO
        ipureintro; intro p hp
        rcases Finset.mem_insert.mp hp with rfl | hp
        · exact .inr rfl
        exact .inl hp
      · ipureintro; intro h; exact absurd h (cond_lt k hc)
    · icombine H3 S8 Iw31 Iw16 Iw17 Iw18 Iw19 Iw20 Iw21 Iw22 Iw23 Iw24 Iw25 Iw26 Iw27 Iw28 Iw29 Iw30 Iw16_kept Iw17_kept Iw18_kept Iw19_kept Iw20_kept Iw21_kept Iw22_kept Iw23_kept Iw24_kept Iw25_kept Iw26_kept Iw27_kept Iw28_kept Iw29_kept Iw30_kept as HXI
      iexists _; isplitl [HXI]; · iexact HXI
      isplitr
      · ipureintro; intro _
        intro α kont Q W2
        iintro ⟨HX, Hmw, HO⟩ Hk
        icases HX with ⟨H3, S8, Iw31, Iw16, Iw17, Iw18, Iw19, Iw20, Iw21, Iw22, Iw23, Iw24, Iw25, Iw26, Iw27, Iw28, Iw29, Iw30, Iw16_kept, Iw17_kept, Iw18_kept, Iw19_kept, Iw20_kept, Iw21_kept, Iw22_kept, Iw23_kept, Iw24_kept, Iw25_kept, Iw26_kept, Iw27_kept, Iw28_kept, Iw29_kept, Iw30_kept⟩
        sl_exec
        iapply Hk
        isplitl [H3]
        · iexists _; isplitl [H3]; · iexact H3
          ipureintro; exact landedI_trip m hpre d L (2 * (k.val + 1)) (by have := cond_lt k hc; omega) (k0_off69 k) (by rw [k0_off69_eq]; show 32 * k.val + 32 = _; omega) (hs_0 := by decide) (hs_1 := by decide) (hs_2 := by decide) (hs_3 := by decide) (hs_4 := by decide) (hs_5 := by decide) (hs_6 := by decide) (hs_7 := by decide) (hs_8 := by decide) (hs_9 := by decide) (hs_10 := by decide) (hs_11 := by decide) (hs_12 := by decide) (hs_13 := by decide) (hs_14 := by decide) (hs_15 := by decide)
        isplitl [S8]; · iexact S8
        isplitl [Iw16 Iw17 Iw18 Iw19 Iw20 Iw21 Iw22 Iw23 Iw24 Iw25 Iw26 Iw27 Iw28 Iw29 Iw30 Iw31]
        · unfold freeI
          iexists _, _, _, _, _, _, _, _, _, _, _, _, _, _, _, _
          isplitl [Iw16]; · iexact Iw16
          isplitl [Iw17]; · iexact Iw17
          isplitl [Iw18]; · iexact Iw18
          isplitl [Iw19]; · iexact Iw19
          isplitl [Iw20]; · iexact Iw20
          isplitl [Iw21]; · iexact Iw21
          isplitl [Iw22]; · iexact Iw22
          isplitl [Iw23]; · iexact Iw23
          isplitl [Iw24]; · iexact Iw24
          isplitl [Iw25]; · iexact Iw25
          isplitl [Iw26]; · iexact Iw26
          isplitl [Iw27]; · iexact Iw27
          isplitl [Iw28]; · iexact Iw28
          isplitl [Iw29]; · iexact Iw29
          isplitl [Iw30]; · iexact Iw30
          iexact Iw31
        isplitl [Hmw]; · iexact Hmw
        iexists _; isplitl [HO]; · iexact HO
        ipureintro; intro p hp
        rcases Finset.mem_insert.mp hp with rfl | hp
        · exact .inr rfl
        exact .inl hp
      · ipureintro; intro h; exact absurd h (cond_lt k hc)
  · sl_exec_parts (disch := first | (refine blk_lane _ _ _ _ (shr3v_lt _ ?_); first | with_reducible exact rdCU m hpre d L _ _ | with_reducible exact rdCI m hpre d L _ _) | (intro _; (refine blk_lane _ _ _ _ (shr3v_lt _ ?_); first | with_reducible exact rdCU m hpre d L _ _ | with_reducible exact rdCI m hpre d L _ _)) | exact ⟨gidx_ok _ _ _ (gs_lt _) (and7v_lt _) (bc_lt _ (by decide)), gidx_ok _ _ _ (gs_lt _) (and7v_lt _) (bc_lt _ (by decide))⟩ | (intro _; exact ⟨gidx_ok _ _ _ (gs_lt _) (and7v_lt _) (bc_lt _ (by decide)), gidx_ok _ _ _ (gs_lt _) (and7v_lt _) (bc_lt _ (by decide))⟩) | (refine blk_any _ ?_; first | exact shr3v_lt _ (rdCI m hpre d L _ _) _ | exact shr3v_lt _ (rdCU m hpre d L _ _) _) | (intro _; (refine blk_any _ ?_; first | exact shr3v_lt _ (rdCI m hpre d L _ _) _ | exact shr3v_lt _ (rdCU m hpre d L _ _) _)))
    sl_step
    isplitl [Hmw]; · iexact Hmw
    isplitl [Hu]; · iexact Hu
    isplitl [Hi]; · iexact Hi
    isplitl [Ho]; · iexact Ho
    isplitl [H0]; · iexact H0
    isplitl [H1]; · iexact H1
    isplitl [H4]; · iexists _; iexact H4
    isplitl [H5]; · iexists _; iexact H5
    isplitl [H6]
    · iexists _; isplitl [H6]; · iexact H6
      ipureintro
      refine outOK_step m d L k.val hk16 fo hfo _ _ ?inbA2 _ (k0_off68_eq k) (k0_off103_eq k) ?wA2 _ _ ?hT2 ?hA2 ?hB2
      case hT2 => rfl
      case hA2 =>
        intro l
        have HA : ∀ n, n < 64 → (∀ a x, ((![k0_pay70, urOf m d L (k0_off67 k) (k0_off67_inb k), broadcast S16 (BitVec.ofNat 32 n)] : Fin 3 → IVec S16 32) a x).toNat < S16x8x64.size a) ∧ (∀ a x, ((![k0_pay70, irOf m d L (k0_off67 k) (k0_off67_inb k), broadcast S16 (BitVec.ofNat 32 n)] : Fin 3 → IVec S16 32) a x).toNat < S16x8x64.size a) :=
          fun n hn => ⟨gidx_ok _ _ _ (gs_lt _) (and7v_lt _) (feat_lt n hn), gidx_ok _ _ _ (gs_lt _) (and7v_lt _) (feat_lt n hn)⟩
        refine Eq.trans (show _ = accL (View.readAt (Elt F) (sUA : Memref sig .scVector .vmem S16x8x64 .f32).view (LoadRect.whole S16x8x64) CUA) (View.readAt (Elt F) (sIA : Memref sig .scVector .vmem S16x8x64 .f32).view (LoadRect.whole S16x8x64) CIA) k0_pay70 (urOf m d L (k0_off67 k) (k0_off67_inb k)) (irOf m d L (k0_off67 k) (k0_off67_inb k)) HA 64 le_rfl l from rfl) ?_
        exact chunk_val m d L (2 * k.val) (by omega) CUA CIA hCUA hCIA (k0_off67 k) (by rw [k0_off67_eq]; show 32 * k.val = 16 * (2 * k.val); omega) (k0_off67_inb k) k0_pay70 (fun l => laneIdx_toNat _ l) HA l
      case hB2 =>
        intro l
        have HB : ∀ n, n < 64 → (∀ a x, ((![k0_pay86, urOf m d L (k0_off102 k) (k0_off102_inb k), broadcast S16 (BitVec.ofNat 32 n)] : Fin 3 → IVec S16 32) a x).toNat < S16x8x64.size a) ∧ (∀ a x, ((![k0_pay86, irOf m d L (k0_off102 k) (k0_off102_inb k), broadcast S16 (BitVec.ofNat 32 n)] : Fin 3 → IVec S16 32) a x).toNat < S16x8x64.size a) :=
          fun n hn => ⟨gidx_ok _ _ _ (gs_lt _) (and7v_lt _) (feat_lt n hn), gidx_ok _ _ _ (gs_lt _) (and7v_lt _) (feat_lt n hn)⟩
        have hFU : ∀ (s : Fin 16) (r : Fin 8) (f : Fin 64), (trip.sl.f_2 m hpre d L k f4) (ValueIdx.ix3 (n0 := 16) (n1 := 8) (n2 := 64) s r f) = W0 m d (ValueIdx.ix3 (n0 := 125000) (n1 := 8) (n2 := 64) ⟨((CU m d L (pos (2 * k.val + 1) s)) >>> 3).toNat % 125000, Nat.mod_lt _ (by decide)⟩ r f) := by
          intro s r f
          unfold trip.sl.f_2
          refine (readWhole_UB (F := F) (d := d) (L := L) _ _).trans ?_
          exact landedUB_trip m hpre d L (2 * k.val + 1) (by omega) (k0_off34 k) (by rw [k0_off34_eq]; show 32 * k.val + 16 = _; omega) (hs_0 := by decide) (hs_1 := by decide) (hs_2 := by decide) (hs_3 := by decide) (hs_4 := by decide) (hs_5 := by decide) (hs_6 := by decide) (hs_7 := by decide) (hs_8 := by decide) (hs_9 := by decide) (hs_10 := by decide) (hs_11 := by decide) (hs_12 := by decide) (hs_13 := by decide) (hs_14 := by decide) (hs_15 := by decide) s r f
        have hFI : ∀ (s : Fin 16) (r : Fin 8) (f : Fin 64), (trip.sl.f_3 m hpre d L k f5) (ValueIdx.ix3 (n0 := 16) (n1 := 8) (n2 := 64) s r f) = W1 m d (ValueIdx.ix3 (n0 := 125000) (n1 := 8) (n2 := 64) ⟨((CI m d L (pos (2 * k.val + 1) s)) >>> 3).toNat % 125000, Nat.mod_lt _ (by decide)⟩ r f) := by
          intro s r f
          unfold trip.sl.f_3
          refine (readWhole_IB (F := F) (d := d) (L := L) _ _).trans ?_
          exact landedIB_trip m hpre d L (2 * k.val + 1) (by omega) (k0_off34 k) (by rw [k0_off34_eq]; show 32 * k.val + 16 = _; omega) (hs_0 := by decide) (hs_1 := by decide) (hs_2 := by decide) (hs_3 := by decide) (hs_4 := by decide) (hs_5 := by decide) (hs_6 := by decide) (hs_7 := by decide) (hs_8 := by decide) (hs_9 := by decide) (hs_10 := by decide) (hs_11 := by decide) (hs_12 := by decide) (hs_13 := by decide) (hs_14 := by decide) (hs_15 := by decide) s r f
        refine Eq.trans (show _ = accL (trip.sl.f_2 m hpre d L k f4) (trip.sl.f_3 m hpre d L k f5) k0_pay86 (urOf m d L (k0_off102 k) (k0_off102_inb k)) (irOf m d L (k0_off102 k) (k0_off102_inb k)) HB 64 le_rfl l from rfl) ?_
        exact chunk_val_of m d L (2 * k.val + 1) (by omega) _ _ hFU hFI (k0_off102 k) (by rw [k0_off102_eq]; show 32 * k.val + 16 = 16 * (2 * k.val + 1); omega) (k0_off102_inb k) k0_pay86 (fun l => laneIdx_toNat _ l) HB l
    isplitl [S9]; · iexact S9
    isplitl [S10]; · iexact S10
    isplitl [T0]; · iexact T0
    isplitl [T1]; · iexact T1
    isplitl [T2]; · iexact T2
    isplitl [Uw0 Uw1 Uw2 Uw3 Uw4 Uw5 Uw6 Uw7 Uw8 Uw9 Uw10 Uw11 Uw12 Uw13 Uw14 Uw15]
    · iexists _, _, _, _, _, _, _, _, _, _, _, _, _, _, _, _
      isplitl [Uw0]; · iexact Uw0
      isplitl [Uw1]; · iexact Uw1
      isplitl [Uw2]; · iexact Uw2
      isplitl [Uw3]; · iexact Uw3
      isplitl [Uw4]; · iexact Uw4
      isplitl [Uw5]; · iexact Uw5
      isplitl [Uw6]; · iexact Uw6
      isplitl [Uw7]; · iexact Uw7
      isplitl [Uw8]; · iexact Uw8
      isplitl [Uw9]; · iexact Uw9
      isplitl [Uw10]; · iexact Uw10
      isplitl [Uw11]; · iexact Uw11
      isplitl [Uw12]; · iexact Uw12
      isplitl [Uw13]; · iexact Uw13
      isplitl [Uw14]; · iexact Uw14
      iexact Uw15
    isplitl [Iw0 Iw1 Iw2 Iw3 Iw4 Iw5 Iw6 Iw7 Iw8 Iw9 Iw10 Iw11 Iw12 Iw13 Iw14 Iw15]
    · iexists _, _, _, _, _, _, _, _, _, _, _, _, _, _, _, _
      isplitl [Iw0]; · iexact Iw0
      isplitl [Iw1]; · iexact Iw1
      isplitl [Iw2]; · iexact Iw2
      isplitl [Iw3]; · iexact Iw3
      isplitl [Iw4]; · iexact Iw4
      isplitl [Iw5]; · iexact Iw5
      isplitl [Iw6]; · iexact Iw6
      isplitl [Iw7]; · iexact Iw7
      isplitl [Iw8]; · iexact Iw8
      isplitl [Iw9]; · iexact Iw9
      isplitl [Iw10]; · iexact Iw10
      isplitl [Iw11]; · iexact Iw11
      isplitl [Iw12]; · iexact Iw12
      isplitl [Iw13]; · iexact Iw13
      isplitl [Iw14]; · iexact Iw14
      iexact Iw15
    isplitl [HO]
    · iexists _; isplitl [HO]; · iexact HO
      ipureintro; intro p hp
      rcases Finset.mem_insert.mp hp with rfl | hp
      · exact .inr rfl
      rcases Finset.mem_insert.mp hp with rfl | hp
      · exact .inr rfl
      rcases hW3 p hp with hp | hp
      · rcases hW'' p hp with hp | hp
        · exact hW' p hp
        · exact .inr hp
      · exact .inr hp
    isplitl [H2 S7]
    · icombine H2 S7 as HXU
      iexists _; isplitl [HXU]; · iexact HXU
      isplitr
      · ipureintro; intro h; exact absurd h (ncond_eq k hc)
      · ipureintro; intro _
        iintro ⟨H2, S7⟩
        isplitl [H2]; · iexists _; iexact H2
        iexact S7
    · icombine H3 S8 as HXI
      iexists _; isplitl [HXI]; · iexact HXI
      isplitr
      · ipureintro; intro h; exact absurd h (ncond_eq k hc)
      · ipureintro; intro _
        iintro ⟨H3, S8⟩
        isplitl [H3]; · iexists _; iexact H3
        iexact S8

end Cert.Proof.KernelIdeal

end
-- ==== Proof.KI.LandedLane.lean ====
/-
  One landed block.

  A row copy's source block is named by one lane of a chunk of sixteen index words, each shifted right by 3 (a row
  number's block).  What the copy lands, read at `(r, f)`, is the blocked table at `(block, r, f)`, the block being
  that of the index the lane holds.
-/
import proofs.«203884_g41704132444582_cont_8to1_b_1290_16_alg».proof.Proof.KI.Landed

noncomputable section

namespace Cert.Proof.KernelIdeal

open Cert.KernelIdeal Cert.KernelIdeal.Gen
open Idealize.ShloMosaic

variable {F : FTy → Type}

/-- One landed block of the first table, read at `(r, f)`: the copy's source block is named by lane `j` of the chunk of
    index words at offset `o`, shifted right by 3; what lands is the table at the block of the index at position `o + j`. -/
theorem lane_landed_U (d : Dev nD) (Cc Cc' : S512.Idx → BitVec 32) (e : Cc = Cc') (hC : ∀ j, (Cc' j).toNat < 1000000)
    (o : ℕ) (inb : ∀ a, (![o] : Fin 1 → ℕ) a + S16.size a ≤ S512.size a) (j : ℕ) (hj : j < 16) (hs : S16.Slices ![j] S1)
    (hp : ∀ a, (![0] : Fin 1 → ℕ) a < S1.size a) (off : Fin 3 → ℕ)
    (hoff : off = ![(extractAt ![0] (extractStridedSlice (s := S16) S1 ![j] (shrui (s := S16) (((sU : Memref sig .scVector .vmem S512 .i32).view.readAt (Elt F)
        (Rect.unit (s := S512) ![o] S16.size inb).toLoadRect Cc : IVec S16 32)) (broadcast S16 3#32)) hs) hp).toNat, 0, 0])
    (g1 : ∀ a, off a + S1x8x64.size a ≤ S125000x8x64.size a)
    (g2 : ∀ a, (Rect.unit (s := S125000x8x64) off S1x8x64.size g1).stride a = 1) (g3 : S1x8x64.Squeezes S8x64)
    (Wc : Buf (Elt F) (uwLoc d)) (p : S512.Idx) (hp' : p = ValueIdx.ix1 (n := 512) ⟨o + j, lane_lt inb hj⟩) (r : Fin 8) (f : Fin 64) :
    ReadAs.same.apply (View.read (Elt F) (((uwV : Memref sig .scVector .hbm S125000x8x64 .f32).slice (Rect.unit (s := S125000x8x64) off S1x8x64.size g1) g2).squeeze S8x64 g3).view Wc)
        (ValueIdx.ix2 (n0 := 8) (n1 := 64) r f)
      = Wc (ValueIdx.ix3 (n0 := 125000) (n1 := 8) (n2 := 64) ⟨((Cc' p) >>> 3).toNat % 125000, Nat.mod_lt _ (by decide)⟩ r f) := by
  subst e hp'
  have hw := lane_val_U (F := F) Cc o inb j hj hs hp
  rw [hw] at hoff
  subst hoff
  have hlt := shr3_lt (hC (ValueIdx.ix1 (n := 512) ⟨o + j, lane_lt inb hj⟩))
  refine (row_read_apply d _ hlt g1 g2 Wc r f).trans ?_
  exact congrArg (fun b : Fin 125000 => Wc (ValueIdx.ix3 (n0 := 125000) (n1 := 8) (n2 := 64) b r f))
    (Fin.ext (shr3_mod (hC (ValueIdx.ix1 (n := 512) ⟨o + j, lane_lt inb hj⟩))).symm)

/-- One landed block of the second table, read at `(r, f)`: the copy's source block is named by lane `j` of the chunk of
    index words at offset `o`, shifted right by 3; what lands is the table at the block of the index at position `o + j`. -/
theorem lane_landed_I (d : Dev nD) (Cc Cc' : S512.Idx → BitVec 32) (e : Cc = Cc') (hC : ∀ j, (Cc' j).toNat < 1000000)
    (o : ℕ) (inb : ∀ a, (![o] : Fin 1 → ℕ) a + S16.size a ≤ S512.size a) (j : ℕ) (hj : j < 16) (hs : S16.Slices ![j] S1)
    (hp : ∀ a, (![0] : Fin 1 → ℕ) a < S1.size a) (off : Fin 3 → ℕ)
    (hoff : off = ![(extractAt ![0] (extractStridedSlice (s := S16) S1 ![j] (shrui (s := S16) (((sI : Memref sig .scVector .vmem S512 .i32).view.readAt (Elt F)
        (Rect.unit (s := S512) ![o] S16.size inb).toLoadRect Cc : IVec S16 32)) (broadcast S16 3#32)) hs) hp).toNat, 0, 0])
    (g1 : ∀ a, off a + S1x8x64.size a ≤ S125000x8x64.size a)
    (g2 : ∀ a, (Rect.unit (s := S125000x8x64) off S1x8x64.size g1).stride a = 1) (g3 : S1x8x64.Squeezes S8x64)
    (Wc : Buf (Elt F) (iwLoc d)) (p : S512.Idx) (hp' : p = ValueIdx.ix1 (n := 512) ⟨o + j, lane_lt inb hj⟩) (r : Fin 8) (f : Fin 64) :
    ReadAs.same.apply (View.read (Elt F) (((iwV : Memref sig .scVector .hbm S125000x8x64 .f32).slice (Rect.unit (s := S125000x8x64) off S1x8x64.size g1) g2).squeeze S8x64 g3).view Wc)
        (ValueIdx.ix2 (n0 := 8) (n1 := 64) r f)
      = Wc (ValueIdx.ix3 (n0 := 125000) (n1 := 8) (n2 := 64) ⟨((Cc' p) >>> 3).toNat % 125000, Nat.mod_lt _ (by decide)⟩ r f) := by
  subst e hp'
  have hw := lane_val_I (F := F) Cc o inb j hj hs hp
  rw [hw] at hoff
  subst hoff
  have hlt := shr3_lt (hC (ValueIdx.ix1 (n := 512) ⟨o + j, lane_lt inb hj⟩))
  refine (row_read_apply' d _ hlt g1 g2 Wc r f).trans ?_
  exact congrArg (fun b : Fin 125000 => Wc (ValueIdx.ix3 (n0 := 125000) (n1 := 8) (n2 := 64) b r f))
    (Fin.ext (shr3_mod (hC (ValueIdx.ix1 (n := 512) ⟨o + j, lane_lt inb hj⟩))).symm)

end Cert.Proof.KernelIdeal

end
-- ==== Proof.KI.Body.lean ====
/-
  One tile's task.

  A tile owns 512 consecutive batch positions.  It first copies its 512 user indices and its 512 item indices into
  two scratch buffers.  The positions are then treated in 32 chunks of 16.  For a chunk, sixteen row copies per table
  bring, for each of its positions, the whole table block `[8, 64]` that position's index names (block `v / 8` of
  the blocked table) into slot `s` of a block buffer; two pairs of block buffers alternate, so the copies of one chunk
  overlap the arithmetic of the previous one.

  The proof follows the program: the two index copies; the first chunk's 32 row copies, after which each of the two
  block buffers holds, in slot `s`, the table block of position `s` of chunk 0, whatever it held before; the loop of
  16 trips, each treating two chunks, by an invariant that records which buffers have landed for which chunk and
  that the first `32 k` positions of the output scratch hold their specified values; and the write-out of the output
  scratch to the tile's 512 positions of the result, which then hold the accumulated inner products the
  specification names.
-/
import proofs.«203884_g41704132444582_cont_8to1_b_1290_16_alg».proof.Proof.KI.BodyDefs
import proofs.«203884_g41704132444582_cont_8to1_b_1290_16_alg».proof.Proof.KI.Trip
import proofs.«203884_g41704132444582_cont_8to1_b_1290_16_alg».proof.Proof.KI.LandedLane

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

omit [FloatOps F] in
theorem owes_ex_swap {thr : Thread nD τ} {O : CellTallies nD τ sig (HIx 1)} {P : Waits sig (HIx 1) → Prop} :
    (iprop(∃ W', owes thr O W' ∗ ⌜P W'⌝) : sProp 𝕄) ⊢ iprop(∃ W', ⌜P W'⌝ ∗ owes thr O W') := by
  iintro ⟨%W', HO, %h⟩
  iexists W'; isplitr
  · ipureintro; exact h
  · iexact HO

set_option maxHeartbeats 4000000 in
set_option sl_exec.dischHeartbeats 40000 in
theorem tile_core (hpre : PreOK m) : TileCore (F := F) m := by
  intro d L q O W f0 f1 f2 f3 f4 f5 f6
  have planUA : Transfers.BatchOf (thrV d L) (SemLoc.dma (sig := sig) cc0_scratch7.sem) 16 (windows := true) := trivial
  have planIA : Transfers.BatchOf (thrV d L) (SemLoc.dma (sig := sig) cc0_scratch8.sem) 16 (windows := true) := trivial
  have planUB : Transfers.BatchOf (thrV d L) (SemLoc.dma (sig := sig) cc0_scratch9.sem) 16 (windows := true) := trivial
  have planIB : Transfers.BatchOf (thrV d L) (SemLoc.dma (sig := sig) cc0_scratch10.sem) 16 (windows := true) := trivial
  simp only [cc0__bprmf_sc_eq_skeleton]; unfold cc0__bprmf_sc_skel
  unfold goRes
  iintro ⟨Hmw, ⟨Hu, Hi, Huw, Hiw, Ho⟩, H0, H1, H2, H3, H4, H5, H6, S7, S8, S9, S10, T0, T1, T2, HO⟩
  ihave Hu := (Entails.of_eq (pts_u (F := F) d L q _).symm) $$ Hu
  ihave Hi := (Entails.of_eq (pts_i (F := F) d L q _).symm) $$ Hi
  ihave Huw := (Entails.of_eq (pts_uw (F := F) d L q _).symm) $$ Huw
  ihave Hiw := (Entails.of_eq (pts_iw (F := F) d L q _).symm) $$ Hiw
  ihave Ho := (Entails.of_eq (pts_o (F := F) d L _).symm) $$ Ho
  ihave H0 := (Entails.of_eq (pts_s0 (F := F) d L _).symm) $$ H0
  ihave H1 := (Entails.of_eq (pts_s1 (F := F) d L _).symm) $$ H1
  ihave H2 := (Entails.of_eq (pts_s2 (F := F) d L _).symm) $$ H2
  ihave H3 := (Entails.of_eq (pts_s3 (F := F) d L _).symm) $$ H3
  ihave H4 := (Entails.of_eq (pts_s4 (F := F) d L _).symm) $$ H4
  ihave H5 := (Entails.of_eq (pts_s5 (F := F) d L _).symm) $$ H5
  ihave H6 := (Entails.of_eq (pts_s6 (F := F) d L _).symm) $$ H6
  ihave Huw := (split32 (F := F) q) $$ Huw
  ihave Hiw := (split32 (F := F) q) $$ Hiw
  icases Huw with ⟨Uw31, Uw30, Uw29, Uw28, Uw27, Uw26, Uw25, Uw24, Uw23, Uw22, Uw21, Uw20, Uw19, Uw18, Uw17, Uw16, Uw15, Uw14, Uw13, Uw12, Uw11, Uw10, Uw9, Uw8, Uw7, Uw6, Uw5, Uw4, Uw3, Uw2, Uw1, Uw0, -⟩
  icases Hiw with ⟨Iw31, Iw30, Iw29, Iw28, Iw27, Iw26, Iw25, Iw24, Iw23, Iw22, Iw21, Iw20, Iw19, Iw18, Iw17, Iw16, Iw15, Iw14, Iw13, Iw12, Iw11, Iw10, Iw9, Iw8, Iw7, Iw6, Iw5, Iw4, Iw3, Iw2, Iw1, Iw0, -⟩
  sl_exec_parts
  have hfU : ∀ j : S512.Idx, ((View.write (Elt F) (sU : Memref sig .scVector .vmem S512 .i32).view f0 (tile_core.sl.dma0 m d L) Finset.univ) j).toNat < 1000000 := by
    intro j
    have e : (View.write (Elt F) (sU : Memref sig .scVector .vmem S512 .i32).view f0 (tile_core.sl.dma0 m d L) Finset.univ) j = m (uLoc d) (((uV : Memref sig .scVector .hbm S16384 .i32).slice (Rect.unit (s := S16384) (k0_off1 L) S512.size (k0_off1_inb L)) (fun _ => rfl)).view.emb j) := by
      refine (congrFun (View.write_whole_univ (Val := Elt F) (cc0_scratch0 : Ref sig .scVector) f0 (tile_core.sl.dma0 m d L)) j).trans ?_
      unfold tile_core.sl.dma0; exact (View.read_apply _ _).trans (cast_eq _ _)
    rw [e]; exact (hpre d _).1
  have hfI : ∀ j : S512.Idx, ((View.write (Elt F) (sI : Memref sig .scVector .vmem S512 .i32).view f1 (tile_core.sl.dma0_1 m d L) Finset.univ) j).toNat < 1000000 := by
    intro j
    have e : (View.write (Elt F) (sI : Memref sig .scVector .vmem S512 .i32).view f1 (tile_core.sl.dma0_1 m d L) Finset.univ) j = m (iLoc d) (((iV : Memref sig .scVector .hbm S16384 .i32).slice (Rect.unit (s := S16384) (k0_off1 L) S512.size (k0_off1_inb L)) (fun _ => rfl)).view.emb j) := by
      refine (congrFun (View.write_whole_univ (Val := Elt F) (cc0_scratch1 : Ref sig .scVector) f1 (tile_core.sl.dma0_1 m d L)) j).trans ?_
      unfold tile_core.sl.dma0_1; exact (View.read_apply _ _).trans (cast_eq _ _)
    rw [e]; exact (hpre d _).2
  have rdU : ∀ (r : LoadRect S512) (j : r.shape.Idx), (((sU : Memref sig .scVector .vmem S512 .i32).view.readAt (Elt F) r (View.write (Elt F) (sU : Memref sig .scVector .vmem S512 .i32).view f0 (tile_core.sl.dma0 m d L) Finset.univ)) j).toNat < 1000000 := by
    intro r j; simp only [View.readAt_apply, Memref.view_whole, View.read_whole]; exact hfU _
  have rdI : ∀ (r : LoadRect S512) (j : r.shape.Idx), (((sI : Memref sig .scVector .vmem S512 .i32).view.readAt (Elt F) r (View.write (Elt F) (sI : Memref sig .scVector .vmem S512 .i32).view f1 (tile_core.sl.dma0_1 m d L) Finset.univ)) j).toNat < 1000000 := by
    intro r j; simp only [View.readAt_apply, Memref.view_whole, View.read_whole]; exact hfI _
  have rdU' : ∀ (off : Fin 1 → ℕ) (inb : ∀ a, off a + S16.size a ≤ S512.size a) (j : S16.Idx), (((sU : Memref sig .scVector .vmem S512 .i32).view.readAt (Elt F) (Rect.unit (s := S512) off S16.size inb).toLoadRect (View.write (Elt F) (sU : Memref sig .scVector .vmem S512 .i32).view f0 (tile_core.sl.dma0 m d L) Finset.univ)) j).toNat < 1000000 := fun off inb j => rdU (Rect.unit (s := S512) off S16.size inb).toLoadRect j
  have rdI' : ∀ (off : Fin 1 → ℕ) (inb : ∀ a, off a + S16.size a ≤ S512.size a) (j : S16.Idx), (((sI : Memref sig .scVector .vmem S512 .i32).view.readAt (Elt F) (Rect.unit (s := S512) off S16.size inb).toLoadRect (View.write (Elt F) (sI : Memref sig .scVector .vmem S512 .i32).view f1 (tile_core.sl.dma0_1 m d L) Finset.univ)) j).toNat < 1000000 := fun off inb j => rdI (Rect.unit (s := S512) off S16.size inb).toLoadRect j
  sl_exec_parts (disch := first | (refine blk_lane _ _ _ _ (shr3v_lt _ ?_); first | with_reducible exact rdU' _ _ | with_reducible exact rdI' _ _) | (refine blk_any _ ?_; first | exact shr3v_lt _ (rdI' _ _) _ | exact shr3v_lt _ (rdU' _ _) _))
  have e0 : View.write (Elt F) (sU : Memref sig .scVector .vmem S512 .i32).view f0 (tile_core.sl.dma0 m d L) Finset.univ = CU m d L := funext fun j => by
    refine (congrFun (View.write_whole_univ (Val := Elt F) (cc0_scratch0 : Ref sig .scVector) f0 (tile_core.sl.dma0 m d L)) j).trans ?_
    unfold tile_core.sl.dma0; exact (View.read_apply _ _).trans (cast_eq _ _)
  have e1 : View.write (Elt F) (sI : Memref sig .scVector .vmem S512 .i32).view f1 (tile_core.sl.dma0_1 m d L) Finset.univ = CI m d L := funext fun j => by
    refine (congrFun (View.write_whole_univ (Val := Elt F) (cc0_scratch1 : Ref sig .scVector) f1 (tile_core.sl.dma0_1 m d L)) j).trans ?_
    unfold tile_core.sl.dma0_1; exact (View.read_apply _ _).trans (cast_eq _ _)
  ihave H0 := (Entails.of_eq (congrArg (fun c => ((sU : Memref sig .scVector .vmem S512 .i32).view.loc (thrV d L) ↦{fullShare} c : sProp 𝕄)) e0)) $$ H0
  ihave H1 := (Entails.of_eq (congrArg (fun c => ((sI : Memref sig .scVector .vmem S512 .i32).view.loc (thrV d L) ↦{fullShare} c : sProp 𝕄)) e1)) $$ H1
  icombine H2 S7 Uw31 Uw30 Uw29 Uw28 Uw27 Uw26 Uw25 Uw24 Uw23 Uw22 Uw21 Uw20 Uw19 Uw18 Uw17 Uw16 Uw31_kept Uw30_kept Uw29_kept Uw28_kept Uw27_kept Uw26_kept Uw25_kept Uw24_kept Uw23_kept Uw22_kept Uw21_kept Uw20_kept Uw19_kept Uw18_kept Uw17_kept as HXU
  icombine H3 S8 Iw31 Iw30 Iw29 Iw28 Iw27 Iw26 Iw25 Iw24 Iw23 Iw22 Iw21 Iw20 Iw19 Iw18 Iw17 Iw16 Iw31_kept Iw30_kept Iw29_kept Iw28_kept Iw27_kept Iw26_kept Iw25_kept Iw24_kept Iw23_kept Iw22_kept Iw21_kept Iw20_kept Iw19_kept Iw18_kept Iw17_kept as HXI
  sl_for (inv m d L q O W) $$ [Hmw Hu Hi Ho H0 H1 H4 H5 H6 S9 S10 T0 T1 T2 Uw0 Uw1 Uw2 Uw3 Uw4 Uw5 Uw6 Uw7 Uw8 Uw9 Uw10 Uw11 Uw12 Uw13 Uw14 Uw15 Iw0 Iw1 Iw2 Iw3 Iw4 Iw5 Iw6 Iw7 Iw8 Iw9 Iw10 Iw11 Iw12 Iw13 Iw14 Iw15 HO HXU HXI]
  case region =>
    intro k _
    exact trip m hpre d L q O W k
  · unfold inv
    isplitl [Hmw]; · iexact Hmw
    isplitl [Hu]; · iexact Hu
    isplitl [Hi]; · iexact Hi
    isplitl [Ho]; · iexact Ho
    isplitl [H0]; · iexact H0
    isplitl [H1]; · iexact H1
    isplitl [H4]; · iexists _; iexact H4
    isplitl [H5]; · iexists _; iexact H5
    isplitl [H6]
    · iexists _; isplitl [H6]; · iexact H6
      ipureintro; intro p hp; exact absurd hp (by omega)
    isplitl [S9]; · iexact S9
    isplitl [S10]; · iexact S10
    isplitl [T0]; · iexact T0
    isplitl [T1]; · iexact T1
    isplitl [T2]; · iexact T2
    isplitl [Uw0 Uw1 Uw2 Uw3 Uw4 Uw5 Uw6 Uw7 Uw8 Uw9 Uw10 Uw11 Uw12 Uw13 Uw14 Uw15]
    · unfold freeU
      iexists _, _, _, _, _, _, _, _, _, _, _, _, _, _, _, _
      isplitl [Uw0]; · iexact Uw0
      isplitl [Uw1]; · iexact Uw1
      isplitl [Uw2]; · iexact Uw2
      isplitl [Uw3]; · iexact Uw3
      isplitl [Uw4]; · iexact Uw4
      isplitl [Uw5]; · iexact Uw5
      isplitl [Uw6]; · iexact Uw6
      isplitl [Uw7]; · iexact Uw7
      isplitl [Uw8]; · iexact Uw8
      isplitl [Uw9]; · iexact Uw9
      isplitl [Uw10]; · iexact Uw10
      isplitl [Uw11]; · iexact Uw11
      isplitl [Uw12]; · iexact Uw12
      isplitl [Uw13]; · iexact Uw13
      isplitl [Uw14]; · iexact Uw14
      iexact Uw15
    isplitl [Iw0 Iw1 Iw2 Iw3 Iw4 Iw5 Iw6 Iw7 Iw8 Iw9 Iw10 Iw11 Iw12 Iw13 Iw14 Iw15]
    · unfold freeI
      iexists _, _, _, _, _, _, _, _, _, _, _, _, _, _, _, _
      isplitl [Iw0]; · iexact Iw0
      isplitl [Iw1]; · iexact Iw1
      isplitl [Iw2]; · iexact Iw2
      isplitl [Iw3]; · iexact Iw3
      isplitl [Iw4]; · iexact Iw4
      isplitl [Iw5]; · iexact Iw5
      isplitl [Iw6]; · iexact Iw6
      isplitl [Iw7]; · iexact Iw7
      isplitl [Iw8]; · iexact Iw8
      isplitl [Iw9]; · iexact Iw9
      isplitl [Iw10]; · iexact Iw10
      isplitl [Iw11]; · iexact Iw11
      isplitl [Iw12]; · iexact Iw12
      isplitl [Iw13]; · iexact Iw13
      isplitl [Iw14]; · iexact Iw14
      iexact Iw15
    isplitl [HO]
    · iexists _; isplitl [HO]; · iexact HO
      ipureintro; intro p hp
      rcases Finset.mem_insert.mp hp with rfl | hp
      · exact .inr rfl
      rcases Finset.mem_insert.mp hp with rfl | hp
      · exact .inr rfl
      exact .inl hp
    isplitl [HXU]
    · iexists _; isplitl [HXU]; · iexact HXU
      isplitr
      · ipureintro; intro _
        intro α kont Q W2
        iintro ⟨HX, Hmw, HO⟩ Hk
        icases HX with ⟨H2, S7, Uw31, Uw30, Uw29, Uw28, Uw27, Uw26, Uw25, Uw24, Uw23, Uw22, Uw21, Uw20, Uw19, Uw18, Uw17, Uw16, Uw31_kept, Uw30_kept, Uw29_kept, Uw28_kept, Uw27_kept, Uw26_kept, Uw25_kept, Uw24_kept, Uw23_kept, Uw22_kept, Uw21_kept, Uw20_kept, Uw19_kept, Uw18_kept, Uw17_kept⟩
        sl_exec
        iapply Hk
        isplitl [H2]
        · iexists _; isplitl [H2]; · iexact H2
          ipureintro
          intro s r f
          refine (nest16_apply_UA (F := F) (s := s) (r := r) (f := f) ..).trans ?_
          fin_cases s
          · show tile_core.sl.dma0_2 m d L f0 rdU' (ValueIdx.ix2 r f) = _
            unfold tile_core.sl.dma0_2
            exact lane_landed_U (F := F) d _ (CU m d L) e0 (fun j => (hpre d _).1) 0 (by decide) 0 (by decide) (by decide) (by decide) _ (by rfl) _ _ _ (W0 m d) _ (by rfl) r f
          · show tile_core.sl.dma2 m d L f0 rdU' (ValueIdx.ix2 r f) = _
            unfold tile_core.sl.dma2
            exact lane_landed_U (F := F) d _ (CU m d L) e0 (fun j => (hpre d _).1) 0 (by decide) 1 (by decide) (by decide) (by decide) _ (by rfl) _ _ _ (W0 m d) _ (by rfl) r f
          · show tile_core.sl.dma4 m d L f0 rdU' (ValueIdx.ix2 r f) = _
            unfold tile_core.sl.dma4
            exact lane_landed_U (F := F) d _ (CU m d L) e0 (fun j => (hpre d _).1) 0 (by decide) 2 (by decide) (by decide) (by decide) _ (by rfl) _ _ _ (W0 m d) _ (by rfl) r f
          · show tile_core.sl.dma6 m d L f0 rdU' (ValueIdx.ix2 r f) = _
            unfold tile_core.sl.dma6
            exact lane_landed_U (F := F) d _ (CU m d L) e0 (fun j => (hpre d _).1) 0 (by decide) 3 (by decide) (by decide) (by decide) _ (by rfl) _ _ _ (W0 m d) _ (by rfl) r f
          · show tile_core.sl.dma8 m d L f0 rdU' (ValueIdx.ix2 r f) = _
            unfold tile_core.sl.dma8
            exact lane_landed_U (F := F) d _ (CU m d L) e0 (fun j => (hpre d _).1) 0 (by decide) 4 (by decide) (by decide) (by decide) _ (by rfl) _ _ _ (W0 m d) _ (by rfl) r f
          · show tile_core.sl.dma10 m d L f0 rdU' (ValueIdx.ix2 r f) = _
            unfold tile_core.sl.dma10
            exact lane_landed_U (F := F) d _ (CU m d L) e0 (fun j => (hpre d _).1) 0 (by decide) 5 (by decide) (by decide) (by decide) _ (by rfl) _ _ _ (W0 m d) _ (by rfl) r f
          · show tile_core.sl.dma12 m d L f0 rdU' (ValueIdx.ix2 r f) = _
            unfold tile_core.sl.dma12
            exact lane_landed_U (F := F) d _ (CU m d L) e0 (fun j => (hpre d _).1) 0 (by decide) 6 (by decide) (by decide) (by decide) _ (by rfl) _ _ _ (W0 m d) _ (by rfl) r f
          · show tile_core.sl.dma14 m d L f0 rdU' (ValueIdx.ix2 r f) = _
            unfold tile_core.sl.dma14
            exact lane_landed_U (F := F) d _ (CU m d L) e0 (fun j => (hpre d _).1) 0 (by decide) 7 (by decide) (by decide) (by decide) _ (by rfl) _ _ _ (W0 m d) _ (by rfl) r f
          · show tile_core.sl.dma16 m d L f0 rdU' (ValueIdx.ix2 r f) = _
            unfold tile_core.sl.dma16
            exact lane_landed_U (F := F) d _ (CU m d L) e0 (fun j => (hpre d _).1) 0 (by decide) 8 (by decide) (by decide) (by decide) _ (by rfl) _ _ _ (W0 m d) _ (by rfl) r f
          · show tile_core.sl.dma18 m d L f0 rdU' (ValueIdx.ix2 r f) = _
            unfold tile_core.sl.dma18
            exact lane_landed_U (F := F) d _ (CU m d L) e0 (fun j => (hpre d _).1) 0 (by decide) 9 (by decide) (by decide) (by decide) _ (by rfl) _ _ _ (W0 m d) _ (by rfl) r f
          · show tile_core.sl.dma20 m d L f0 rdU' (ValueIdx.ix2 r f) = _
            unfold tile_core.sl.dma20
            exact lane_landed_U (F := F) d _ (CU m d L) e0 (fun j => (hpre d _).1) 0 (by decide) 10 (by decide) (by decide) (by decide) _ (by rfl) _ _ _ (W0 m d) _ (by rfl) r f
          · show tile_core.sl.dma22 m d L f0 rdU' (ValueIdx.ix2 r f) = _
            unfold tile_core.sl.dma22
            exact lane_landed_U (F := F) d _ (CU m d L) e0 (fun j => (hpre d _).1) 0 (by decide) 11 (by decide) (by decide) (by decide) _ (by rfl) _ _ _ (W0 m d) _ (by rfl) r f
          · show tile_core.sl.dma24 m d L f0 rdU' (ValueIdx.ix2 r f) = _
            unfold tile_core.sl.dma24
            exact lane_landed_U (F := F) d _ (CU m d L) e0 (fun j => (hpre d _).1) 0 (by decide) 12 (by decide) (by decide) (by decide) _ (by rfl) _ _ _ (W0 m d) _ (by rfl) r f
          · show tile_core.sl.dma26 m d L f0 rdU' (ValueIdx.ix2 r f) = _
            unfold tile_core.sl.dma26
            exact lane_landed_U (F := F) d _ (CU m d L) e0 (fun j => (hpre d _).1) 0 (by decide) 13 (by decide) (by decide) (by decide) _ (by rfl) _ _ _ (W0 m d) _ (by rfl) r f
          · show tile_core.sl.dma28 m d L f0 rdU' (ValueIdx.ix2 r f) = _
            unfold tile_core.sl.dma28
            exact lane_landed_U (F := F) d _ (CU m d L) e0 (fun j => (hpre d _).1) 0 (by decide) 14 (by decide) (by decide) (by decide) _ (by rfl) _ _ _ (W0 m d) _ (by rfl) r f
          · show tile_core.sl.dma30 m d L f0 rdU' (ValueIdx.ix2 r f) = _
            unfold tile_core.sl.dma30
            exact lane_landed_U (F := F) d _ (CU m d L) e0 (fun j => (hpre d _).1) 0 (by decide) 15 (by decide) (by decide) (by decide) _ (by rfl) _ _ _ (W0 m d) _ (by rfl) r f
        isplitl [S7]; · iexact S7
        isplitl [Uw16 Uw17 Uw18 Uw19 Uw20 Uw21 Uw22 Uw23 Uw24 Uw25 Uw26 Uw27 Uw28 Uw29 Uw30 Uw31]
        · unfold freeU
          iexists _, _, _, _, _, _, _, _, _, _, _, _, _, _, _, _
          isplitl [Uw16]; · iexact Uw16
          isplitl [Uw17]; · iexact Uw17
          isplitl [Uw18]; · iexact Uw18
          isplitl [Uw19]; · iexact Uw19
          isplitl [Uw20]; · iexact Uw20
          isplitl [Uw21]; · iexact Uw21
          isplitl [Uw22]; · iexact Uw22
          isplitl [Uw23]; · iexact Uw23
          isplitl [Uw24]; · iexact Uw24
          isplitl [Uw25]; · iexact Uw25
          isplitl [Uw26]; · iexact Uw26
          isplitl [Uw27]; · iexact Uw27
          isplitl [Uw28]; · iexact Uw28
          isplitl [Uw29]; · iexact Uw29
          isplitl [Uw30]; · iexact Uw30
          iexact Uw31
        isplitl [Hmw]; · iexact Hmw
        iexists _; isplitl [HO]; · iexact HO
        ipureintro; intro p hp
        rcases Finset.mem_insert.mp hp with rfl | hp
        · exact .inr rfl
        exact .inl hp
      · ipureintro; intro h; omega
    iexists _; isplitl [HXI]; · iexact HXI
    isplitr
    · ipureintro; intro _
      intro α kont Q W2
      iintro ⟨HX, Hmw, HO⟩ Hk
      icases HX with ⟨H3, S8, Iw31, Iw30, Iw29, Iw28, Iw27, Iw26, Iw25, Iw24, Iw23, Iw22, Iw21, Iw20, Iw19, Iw18, Iw17, Iw16, Iw31_kept, Iw30_kept, Iw29_kept, Iw28_kept, Iw27_kept, Iw26_kept, Iw25_kept, Iw24_kept, Iw23_kept, Iw22_kept, Iw21_kept, Iw20_kept, Iw19_kept, Iw18_kept, Iw17_kept⟩
      sl_exec
      iapply Hk
      isplitl [H3]
      · iexists _; isplitl [H3]; · iexact H3
        ipureintro
        intro s r f
        refine (nest16_apply_IA (F := F) (s := s) (r := r) (f := f) ..).trans ?_
        fin_cases s
        · show tile_core.sl.dma1 m d L f1 rdI' (ValueIdx.ix2 r f) = _
          unfold tile_core.sl.dma1
          exact lane_landed_I (F := F) d _ (CI m d L) e1 (fun j => (hpre d _).2) 0 (by decide) 0 (by decide) (by decide) (by decide) _ (by rfl) _ _ _ (W1 m d) _ (by rfl) r f
        · show tile_core.sl.dma3 m d L f1 rdI' (ValueIdx.ix2 r f) = _
          unfold tile_core.sl.dma3
          exact lane_landed_I (F := F) d _ (CI m d L) e1 (fun j => (hpre d _).2) 0 (by decide) 1 (by decide) (by decide) (by decide) _ (by rfl) _ _ _ (W1 m d) _ (by rfl) r f
        · show tile_core.sl.dma5 m d L f1 rdI' (ValueIdx.ix2 r f) = _
          unfold tile_core.sl.dma5
          exact lane_landed_I (F := F) d _ (CI m d L) e1 (fun j => (hpre d _).2) 0 (by decide) 2 (by decide) (by decide) (by decide) _ (by rfl) _ _ _ (W1 m d) _ (by rfl) r f
        · show tile_core.sl.dma7 m d L f1 rdI' (ValueIdx.ix2 r f) = _
          unfold tile_core.sl.dma7
          exact lane_landed_I (F := F) d _ (CI m d L) e1 (fun j => (hpre d _).2) 0 (by decide) 3 (by decide) (by decide) (by decide) _ (by rfl) _ _ _ (W1 m d) _ (by rfl) r f
        · show tile_core.sl.dma9 m d L f1 rdI' (ValueIdx.ix2 r f) = _
          unfold tile_core.sl.dma9
          exact lane_landed_I (F := F) d _ (CI m d L) e1 (fun j => (hpre d _).2) 0 (by decide) 4 (by decide) (by decide) (by decide) _ (by rfl) _ _ _ (W1 m d) _ (by rfl) r f
        · show tile_core.sl.dma11 m d L f1 rdI' (ValueIdx.ix2 r f) = _
          unfold tile_core.sl.dma11
          exact lane_landed_I (F := F) d _ (CI m d L) e1 (fun j => (hpre d _).2) 0 (by decide) 5 (by decide) (by decide) (by decide) _ (by rfl) _ _ _ (W1 m d) _ (by rfl) r f
        · show tile_core.sl.dma13 m d L f1 rdI' (ValueIdx.ix2 r f) = _
          unfold tile_core.sl.dma13
          exact lane_landed_I (F := F) d _ (CI m d L) e1 (fun j => (hpre d _).2) 0 (by decide) 6 (by decide) (by decide) (by decide) _ (by rfl) _ _ _ (W1 m d) _ (by rfl) r f
        · show tile_core.sl.dma15 m d L f1 rdI' (ValueIdx.ix2 r f) = _
          unfold tile_core.sl.dma15
          exact lane_landed_I (F := F) d _ (CI m d L) e1 (fun j => (hpre d _).2) 0 (by decide) 7 (by decide) (by decide) (by decide) _ (by rfl) _ _ _ (W1 m d) _ (by rfl) r f
        · show tile_core.sl.dma17 m d L f1 rdI' (ValueIdx.ix2 r f) = _
          unfold tile_core.sl.dma17
          exact lane_landed_I (F := F) d _ (CI m d L) e1 (fun j => (hpre d _).2) 0 (by decide) 8 (by decide) (by decide) (by decide) _ (by rfl) _ _ _ (W1 m d) _ (by rfl) r f
        · show tile_core.sl.dma19 m d L f1 rdI' (ValueIdx.ix2 r f) = _
          unfold tile_core.sl.dma19
          exact lane_landed_I (F := F) d _ (CI m d L) e1 (fun j => (hpre d _).2) 0 (by decide) 9 (by decide) (by decide) (by decide) _ (by rfl) _ _ _ (W1 m d) _ (by rfl) r f
        · show tile_core.sl.dma21 m d L f1 rdI' (ValueIdx.ix2 r f) = _
          unfold tile_core.sl.dma21
          exact lane_landed_I (F := F) d _ (CI m d L) e1 (fun j => (hpre d _).2) 0 (by decide) 10 (by decide) (by decide) (by decide) _ (by rfl) _ _ _ (W1 m d) _ (by rfl) r f
        · show tile_core.sl.dma23 m d L f1 rdI' (ValueIdx.ix2 r f) = _
          unfold tile_core.sl.dma23
          exact lane_landed_I (F := F) d _ (CI m d L) e1 (fun j => (hpre d _).2) 0 (by decide) 11 (by decide) (by decide) (by decide) _ (by rfl) _ _ _ (W1 m d) _ (by rfl) r f
        · show tile_core.sl.dma25 m d L f1 rdI' (ValueIdx.ix2 r f) = _
          unfold tile_core.sl.dma25
          exact lane_landed_I (F := F) d _ (CI m d L) e1 (fun j => (hpre d _).2) 0 (by decide) 12 (by decide) (by decide) (by decide) _ (by rfl) _ _ _ (W1 m d) _ (by rfl) r f
        · show tile_core.sl.dma27 m d L f1 rdI' (ValueIdx.ix2 r f) = _
          unfold tile_core.sl.dma27
          exact lane_landed_I (F := F) d _ (CI m d L) e1 (fun j => (hpre d _).2) 0 (by decide) 13 (by decide) (by decide) (by decide) _ (by rfl) _ _ _ (W1 m d) _ (by rfl) r f
        · show tile_core.sl.dma29 m d L f1 rdI' (ValueIdx.ix2 r f) = _
          unfold tile_core.sl.dma29
          exact lane_landed_I (F := F) d _ (CI m d L) e1 (fun j => (hpre d _).2) 0 (by decide) 14 (by decide) (by decide) (by decide) _ (by rfl) _ _ _ (W1 m d) _ (by rfl) r f
        · show tile_core.sl.dma31 m d L f1 rdI' (ValueIdx.ix2 r f) = _
          unfold tile_core.sl.dma31
          exact lane_landed_I (F := F) d _ (CI m d L) e1 (fun j => (hpre d _).2) 0 (by decide) 15 (by decide) (by decide) (by decide) _ (by rfl) _ _ _ (W1 m d) _ (by rfl) r f
      isplitl [S8]; · iexact S8
      isplitl [Iw16 Iw17 Iw18 Iw19 Iw20 Iw21 Iw22 Iw23 Iw24 Iw25 Iw26 Iw27 Iw28 Iw29 Iw30 Iw31]
      · unfold freeI
        iexists _, _, _, _, _, _, _, _, _, _, _, _, _, _, _, _
        isplitl [Iw16]; · iexact Iw16
        isplitl [Iw17]; · iexact Iw17
        isplitl [Iw18]; · iexact Iw18
        isplitl [Iw19]; · iexact Iw19
        isplitl [Iw20]; · iexact Iw20
        isplitl [Iw21]; · iexact Iw21
        isplitl [Iw22]; · iexact Iw22
        isplitl [Iw23]; · iexact Iw23
        isplitl [Iw24]; · iexact Iw24
        isplitl [Iw25]; · iexact Iw25
        isplitl [Iw26]; · iexact Iw26
        isplitl [Iw27]; · iexact Iw27
        isplitl [Iw28]; · iexact Iw28
        isplitl [Iw29]; · iexact Iw29
        isplitl [Iw30]; · iexact Iw30
        iexact Iw31
      isplitl [Hmw]; · iexact Hmw
      iexists _; isplitl [HO]; · iexact HO
      ipureintro; intro p hp
      rcases Finset.mem_insert.mp hp with rfl | hp
      · exact .inr rfl
      exact .inl hp
    · ipureintro; intro h; omega
  iintro %_ HI
  unfold inv
  icases HI with ⟨Hmw, Hu, Hi, Ho, H0, H1, ⟨%f4, H4⟩, ⟨%f5, H5⟩, ⟨%fo, H6, %hfo⟩, S9, S10, T0, T1, T2, -, -, ⟨%W', HO, %hW'⟩, ⟨%XU, HXU, -, %hXUi⟩, ⟨%XI, HXI, -, %hXIi⟩⟩
  ihave HA := (hXUi (by decide)) $$ HXU
  icases HA with ⟨⟨%f2', H2⟩, S7⟩
  ihave HB := (hXIi (by decide)) $$ HXI
  icases HB with ⟨⟨%f3', H3⟩, S8⟩
  have hfo' : ∀ p : S512.Idx, fo p = Gout m d ((oSlice L).view.emb p) :=
    fun p => hfo p (lt_of_lt_of_le (p 0).isLt (by decide))
  sl_exec
  sl_step
  isplitl [Ho]
  · have hg : ∀ p : S512.Idx, ((oSlice L).view.writes (Elt F) (m (oLoc d)) [⟨Rect.whole S512, tile_core.sl.dma0_3 d L fo⟩]) ((oSlice L).view.emb p) = Gout m d ((oSlice L).view.emb p) := by
      intro p
      have h1 : View.read (Elt F) (oSlice L).view ((oSlice L).view.writes (Elt F) (m (oLoc d)) [⟨Rect.whole S512, tile_core.sl.dma0_3 d L fo⟩]) ((Rect.whole S512).emb p) = tile_core.sl.dma0_3 d L fo p :=
        View.read_writes_cons_emb (oSlice L).view (m (oLoc d)) (Rect.whole S512) (tile_core.sl.dma0_3 d L fo) [] p
      rw [Rect.emb_whole_apply] at h1
      have h2 : tile_core.sl.dma0_3 d L fo p = fo p := by
        unfold tile_core.sl.dma0_3
        exact (View.read_apply _ _).trans (cast_eq _ _)
      exact ((View.read_apply _ _).trans (cast_eq _ _)).symm.trans (h1.trans (h2.trans (hfo' p)))
    set_option maxHeartbeats 400000 in
    iapply (out_piece_of m d L _ hg)
    set_option maxHeartbeats 400000 in
    iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [S7]; · iexact S7
  isplitl [S8]; · iexact S8
  isplitl [S9]; · iexact S9
  isplitl [S10]; · iexact S10
  isplitl [T0]; · iexact T0
  isplitl [T1]; · iexact T1
  isplitl [T2]; · iexact T2
  iapply owes_ex_swap
  iexists _; isplitl [HO]; · iexact HO
  ipureintro; intro p hp
  rcases Finset.mem_insert.mp hp with rfl | hp
  · exact .inr rfl
  exact hW' p hp

end Cert.Proof.KernelIdeal

end
-- ==== Proof.K.Launch.lean ====
/-
  The launch of the tile program.  What the handshakes carry between @main, the two SparseCores and the sixteen tiles of
  each: read shares of the four arrays every tile reads, and each tile's own 512 positions of the result.  The 32 tile
  pieces are the consecutive blocks of 512 positions starting at `1024 s + 512 c`: pairwise disjoint, and together all of
  the 16384 positions.  From the statement of one tile's task follow the launch theorem's obligations, @main's run on the
  TensorCore (its two reshapes, then the call), and the program's run with the result named as a function of the arguments.
-/
import proofs.«203884_g41704132444582_cont_8to1_b_1290_16_alg».proof.Proof.K.Setup

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks_split)
open Idealize.ShloMosaic.StableHlo (held held_split held_sdiff_result wp_hlo_within)
open Idealize.ShloMosaic.Tactic

variable {F : FTy → Type}

local notation "𝕄" => MT nD τ sig (HIx 1) (Elt F) ℕ UU ℕ

/-! ## The tiles' pieces of the result: disjoint, and all of it -/

theorem bound_zero : grid0.bound 0 = 2 := rfl
theorem bound_one : grid0.bound 1 = 16 := rfl

/-- Tile `i` of SparseCore `c`, as grid coordinates. -/
abbrev tileOf (c : Fin 2) (i : Fin 16) : grid0.Coords := coordsV (Fin.cast bound_zero.symm c) (Fin.cast bound_one.symm i)

theorem tileSet_eq (L : grid0.Coords) : tileSet L = (oRect L).set := by
  show ((View.whole (main_v2_scv : Ref sig .scVector)).slice (oRect L)).set = _
  exact View.set_slice_whole _ _

/-- A position is tile `L`'s when it lies in the 512 from `1024 (L 1) + 512 (L 0)`. -/
theorem mem_tileSet (L : grid0.Coords) (k : S16384.Idx) :
    k ∈ tileSet L ↔ 1024 * (L 1).val + 512 * (L 0).val ≤ (k 0).val ∧ (k 0).val < 1024 * (L 1).val + 512 * (L 0).val + 512 := by
  rw [tileSet_eq, Rect.mem_set_unit, k0_off104_eq]
  exact Fin.forall_fin_one

theorem tiles_disjoint {c c' : Fin 2} {i i' : Fin 16} (h : c ≠ c' ∨ i ≠ i') :
    Disjoint (tileSet (tileOf c i)) (tileSet (tileOf c' i')) := by
  rw [Finset.disjoint_left]; intro k h1 h2
  rw [mem_tileSet] at h1 h2
  have e0 : (tileOf c i 0).val = c.val := rfl
  have e1 : (tileOf c i 1).val = i.val := rfl
  have e0' : (tileOf c' i' 0).val = c'.val := rfl
  have e1' : (tileOf c' i' 1).val = i'.val := rfl
  rw [e0, e1] at h1; rw [e0', e1'] at h2
  have hc := c.isLt; have hc' := c'.isLt
  have hne : c.val ≠ c'.val ∨ i.val ≠ i'.val := h.imp (fun h e => h (Fin.ext e)) (fun h e => h (Fin.ext e))
  omega

theorem tiles_cover (k : S16384.Idx) : ∃ c : Fin 2, ∃ i : Fin 16, k ∈ tileSet (tileOf c i) := by
  have hk : (k 0).val < 16384 := (k 0).isLt
  refine ⟨⟨((k 0).val % 1024) / 512, by omega⟩, ⟨(k 0).val / 1024, by omega⟩, ?_⟩
  rw [mem_tileSet]
  show 1024 * ((k 0).val / 1024) + 512 * (((k 0).val % 1024) / 512) ≤ (k 0).val
    ∧ (k 0).val < 1024 * ((k 0).val / 1024) + 512 * (((k 0).val % 1024) / 512) + 512
  omega

/-- The positions of SparseCore `c`'s sixteen tiles. -/
def coreSet (c : Fin 2) : Finset S16384.Idx := (Finset.univ : Finset (Fin 16)).biUnion fun i => tileSet (tileOf c i)

theorem coreTiles_disjoint (c : Fin 2) : ∀ i ∈ (Finset.univ : Finset (Fin 16)), ∀ j ∈ (Finset.univ : Finset (Fin 16)), i ≠ j →
    Disjoint (tileSet (tileOf c i)) (tileSet (tileOf c j)) :=
  fun _ _ _ _ h => tiles_disjoint (.inr h)

theorem cores_disjoint : ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]; intro i _
  rw [Finset.disjoint_biUnion_right]; intro j _
  exact tiles_disjoint (.inl h)

theorem cores_cover : (Finset.univ : Finset (Fin 2)).biUnion coreSet = Finset.univ := by
  ext k
  simp only [Finset.mem_biUnion, Finset.mem_univ, true_and, iff_true, coreSet]
  exact tiles_cover k

/-- The whole result is the two SparseCores' positions, -/
theorem oPts_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]; try rfl

/-- and a SparseCore's positions are its sixteen tiles'. -/
theorem oPts_tiles (d : Dev nD) (c : Fin 2) (f : Buf (Elt F) (oLoc d)) :
    (oLoc d ↦[coreSet c]{fullShare} f : sProp 𝕄) = bigSep Finset.univ fun i : Fin 16 => oLoc d ↦[tileSet (tileOf c i)]{fullShare} f :=
  pointsTo_biUnion Finset.univ (ℓ := oLoc d) (fun i => tileSet (tileOf c i)) (coreTiles_disjoint c)

/-! ## The read shares -/

/-- SparseCore `c`'s read share of an array, tile `i`'s share of that, and what @main keeps. -/
abbrev qC (c : Fin 2) : PosShare TreeShare := shareTok fullShare 2 c
abbrev qT (c : Fin 2) (i : Fin 16) : PosShare TreeShare := shareTok (qC c) 16 i
abbrev qKeep : PosShare TreeShare := shareDrop fullShare 2

variable [FloatOps F]

variable (m : (ℓ : Loc nD τ sig) → Buf (Elt F) ℓ) (ρ : Dev nD → PrngReg)

/-! ## What the handshakes carry -/

/-- What SparseCore `c` is handed: its read shares of the two index arrays and of the two blocked tables, and the
    positions of the result its sixteen tiles write. -/
def stRes (d : Dev nD) (c : Fin 2) : sProp 𝕄 :=
  iprop((uLoc d ↦{qC c} m (uLoc d)) ∗ (iLoc d ↦{qC c} m (iLoc d)) ∗ (uwLoc d ↦{qC c} W0 m d) ∗ (iwLoc d ↦{qC c} W1 m d)
    ∗ (oLoc d ↦[coreSet c]{fullShare} m (oLoc d)))

/-- What it hands back: those positions at the specified values. -/
def dnRes (d : Dev nD) (c : Fin 2) : sProp 𝕄 := iprop(oLoc d ↦[coreSet c]{fullShare} Gout m d)

instance stRes_storable (d : Dev nD) (c : Fin 2) : BI.Storable (upEmb : UEmb _ 𝕄) (stRes m d c) := by
  unfold stRes; infer_instance
instance dnRes_storable (d : Dev nD) (c : Fin 2) : BI.Storable (upEmb : UEmb _ 𝕄) (dnRes m d c) := by
  unfold dnRes; infer_instance
instance goRes_storable (q : PosShare TreeShare) (d : Dev nD) (L : grid0.Coords) : BI.Storable (upEmb : UEmb _ 𝕄) (goRes m q d L) := by
  unfold goRes; infer_instance
instance tdRes_storable (d : Dev nD) (L : grid0.Coords) : BI.Storable (upEmb : UEmb _ 𝕄) (tdRes m d L) := by
  unfold tdRes; infer_instance

/-- The one call: each SparseCore its shares and its positions, each tile its share of those and its own positions; the
    positions come back at the specified values.  The kernel keeps no ghost state of its own. -/
def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with
    | 0 => goRes m (qT (Fin.cast nCore_zero c) (Fin.cast nSub_zero i)) d (tileOf (Fin.cast nCore_zero c) (Fin.cast nSub_zero i))
  td := fun q d c i => match q with | 0 => tdRes m d (tileOf (Fin.cast nCore_zero c) (Fin.cast nSub_zero i))
  x := fun _ _ => iprop(emp)

instance P_storable : (P (F := F) m).IsStorable where
  st q d c := match q with | 0 => stRes_storable m d _
  dn q d c := match q with | 0 => dnRes_storable m d _
  go q d c i := match q with | 0 => goRes_storable m _ d _
  td q d c i := match q with | 0 => tdRes_storable m d _

/-! ## A SparseCore's operands among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show stRes m d (Fin.cast nCore_zero c) ⊢ |={Set.univ}=> iprop(
      (bigSep Finset.univ fun i : Fin ((K (F := F)).nSub 0) =>
        goRes m (qT (Fin.cast nCore_zero c) (Fin.cast nSub_zero i)) d (tileOf (Fin.cast nCore_zero c) (Fin.cast nSub_zero i)))
      ∗ ((bigSep Finset.univ fun i : Fin ((K (F := F)).nSub 0) => tdRes m d (tileOf (Fin.cast nCore_zero c) (Fin.cast nSub_zero i)))
          -∗ dnRes m d (Fin.cast nCore_zero c)))
  generalize Fin.cast nCore_zero c = c'
  rw [bigSep_tasks (F := F) (fun i => goRes m (qT c' i) d (tileOf c' i)), bigSep_tasks (F := F) (fun i => tdRes m d (tileOf c' i))]
  unfold stRes dnRes goRes tdRes
  rw [bigSep_sep', bigSep_sep', bigSep_sep', bigSep_sep', oPts_tiles, oPts_tiles]
  iintro ⟨Hu, Hi, Huw, Hiw, Ho⟩
  ihave Hu' := (pointsTo_toks_split (qC c') 16) $$ Hu
  icases Hu' with ⟨-, Hu⟩
  ihave Hi' := (pointsTo_toks_split (qC c') 16) $$ Hi
  icases Hi' with ⟨-, Hi⟩
  ihave Huw' := (pointsTo_toks_split (qC c') 16) $$ Huw
  icases Huw' with ⟨-, Huw⟩
  ihave Hiw' := (pointsTo_toks_split (qC c') 16) $$ Hiw
  icases Hiw' with ⟨-, Hiw⟩
  imodintro
  isplitl [Hu Hi Huw Hiw Ho]
  · isplitl [Hu]; · iexact Hu
    isplitl [Hi]; · iexact Hi
    isplitl [Huw]; · iexact Huw
    isplitl [Hiw]; · iexact Hiw
    iexact Ho
  iintro H; iexact H

/-! ## One tile's task as the launch theorem asks it -/

section Tile

variable (d : Dev nD) (L : grid0.Coords)

/-- The tile's seven DMA semaphores, -/
abbrev kSems : Finset (SemLoc sig) :=
  {.dma cc0_scratch7.sem, .dma cc0_scratch8.sem, .dma cc0_scratch9.sem, .dma cc0_scratch10.sem,
    .dma cc0_scoped0.sem, .dma cc0_scoped1.sem, .dma cc0_scoped2.sem}
/-- as cells of a thread; -/
def kCellsOf (thr : Thread nD τ) : Finset (GSem nD τ sig) := kSems.map ⟨fun sm => (thr, sm), fun _ _ e => (Prod.mk.inj e).2⟩

/-- its seven scratch buffers, -/
abbrev kRefs : Finset (Ref sig .scVector) :=
  {cc0_scratch0, cc0_scratch1, cc0_scratch2, cc0_scratch3, cc0_scratch4, cc0_scratch5, cc0_scratch6}
/-- as buffers of a vector subcore. -/
def kRefsOf (c : Fin τ.nSC) (j : Fin τ.nSub) : Finset (DevRef τ sig) :=
  kRefs.map ⟨(Proc.scVector c j).devRef (sig := sig), Proc.devRef_injective _⟩

omit [FloatOps F] in
theorem kCellsOf_sub (c : Fin τ.nSC) (j : Fin τ.nSub) : kCellsOf (V d c j) ⊆ ownCells (V d c j) := by
  intro g hg
  obtain ⟨sm, hsm, rfl⟩ := Finset.mem_map.mp hg
  exact mem_ownCells.mpr ⟨rfl, (by decide : ∀ sm ∈ kSems, (sm : SemLoc sig).isScoped .scVector = true) sm hsm⟩

theorem kRefsOf_sub (c : Fin τ.nSC) (j : Fin τ.nSub) : kRefsOf c j ⊆ ownRefs (τ := τ) (sig := sig) (.scVector c j) := by
  intro b hb
  obtain ⟨r, hr, rfl⟩ := Finset.mem_map.mp hb
  simp only [kRefs, Finset.mem_insert, Finset.mem_singleton] at hr
  rcases hr with rfl | rfl | rfl | rfl | rfl | rfl | rfl <;> exact SparseCore.Cfg.mem_ownRefs_of_owner rfl

omit [FloatOps F] in
/-- The seven DMA semaphores are among the tile's own scoped cells: they are them, at zero, and the rest. -/
theorem ownSems0_V :
    (ownSems0 (thrV d L) : sProp 𝕄)
      = iprop((semVal (thrV d L, SemLoc.dma cc0_scratch7.sem) 0 ∗ semVal (thrV d L, SemLoc.dma cc0_scratch8.sem) 0
          ∗ semVal (thrV d L, SemLoc.dma cc0_scratch9.sem) 0 ∗ semVal (thrV d L, SemLoc.dma cc0_scratch10.sem) 0
          ∗ semVal (thrV d L, SemLoc.dma cc0_scoped0.sem) 0 ∗ semVal (thrV d L, SemLoc.dma cc0_scoped1.sem) 0
          ∗ semVal (thrV d L, SemLoc.dma cc0_scoped2.sem) 0)
          ∗ bigSep (ownCells (thrV d L) \ kCellsOf (thrV d L)) fun g => semVal g 0) := by
  unfold SparseCore.Cfg.ownSems0
  refine (SparseCore.bigSep_sdiff_split' (kCellsOf_sub d (cV L) (jV L))).trans ?_
  unfold kCellsOf
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
/-- The seven scratch buffers are among the tile's own: they are them, at some contents, and the rest. -/
theorem ownBufs_V :
    (ownBufs (thrV d L) : sProp 𝕄)
      = iprop(((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f) ∗ (∃ f, (thrV d L).loc cc0_scratch5 ↦{fullShare} f)
          ∗ (∃ f, (thrV d L).loc cc0_scratch6 ↦{fullShare} f))
          ∗ bigSep (ownRefs (τ := τ) (.scVector (cV L) (jV L)) \ kRefsOf (cV L) (jV L))
              fun b => iprop(∃ f, ((d, b) : Loc nD τ sig) ↦{fullShare} f)) := by
  unfold SparseCore.Cfg.ownBufs
  refine (SparseCore.bigSep_sdiff_split' (kRefsOf_sub (cV L) (jV L))).trans ?_
  unfold kRefsOf
  rw [bigSep_map, SparseCore.bigSep_insert' (show (cc0_scratch0 : Ref sig .scVector) ∉ ({cc0_scratch1, cc0_scratch2, cc0_scratch3, cc0_scratch4, cc0_scratch5, cc0_scratch6} : Finset (Ref sig .scVector)) by decide),
    SparseCore.bigSep_insert' (show (cc0_scratch1 : Ref sig .scVector) ∉ ({cc0_scratch2, cc0_scratch3, cc0_scratch4, cc0_scratch5, cc0_scratch6} : Finset (Ref sig .scVector)) by decide),
    SparseCore.bigSep_insert' (show (cc0_scratch2 : Ref sig .scVector) ∉ ({cc0_scratch3, cc0_scratch4, cc0_scratch5, cc0_scratch6} : Finset (Ref sig .scVector)) by decide),
    SparseCore.bigSep_insert' (show (cc0_scratch3 : Ref sig .scVector) ∉ ({cc0_scratch4, cc0_scratch5, cc0_scratch6} : Finset (Ref sig .scVector)) by decide),
    SparseCore.bigSep_insert' (show (cc0_scratch4 : Ref sig .scVector) ∉ ({cc0_scratch5, cc0_scratch6} : Finset (Ref sig .scVector)) by decide),
    SparseCore.bigSep_insert' (show (cc0_scratch5 : Ref sig .scVector) ∉ ({cc0_scratch6} : Finset (Ref sig .scVector)) by decide), bigSep_singleton]
  rfl

/-- A proved task, with what it does not touch carried along and the post regrouped. -/
theorem wrap {α : Type} {thr : Thread nD τ} {p : Prog (TpuEff nD τ sig (Elt F) Λ₀ thr.2) α} {A R : sProp 𝕄} {Q Q' : α → sProp 𝕄}
    (h : A ⊢ wp frame (wpE (defs₀ (F := F)) 𝒱₀ thr none) Set.univ p Q) (hQ : ∀ a, iprop(Q a ∗ R) ⊢ Q' a) :
    iprop(A ∗ R) ⊢ wp frame (wpE (defs₀ (F := F)) 𝒱₀ thr none) Set.univ p Q' :=
  ((sep_mono_left h).trans (wp_frame_r _ _ _)).trans (wp_mono _ _ _ hQ)

omit [FloatOps F] in
theorem regroup {X A0 A1 A2 A3 A4 A5 A6 B0 B1 B2 B3 B4 B5 B6 Y RA RB : sProp 𝕄} :
    iprop((X ∗ A0 ∗ A1 ∗ A2 ∗ A3 ∗ A4 ∗ A5 ∗ A6 ∗ B0 ∗ B1 ∗ B2 ∗ B3 ∗ B4 ∗ B5 ∗ B6 ∗ Y) ∗ (RA ∗ RB))
      ⊢ iprop(X ∗ ((A0 ∗ A1 ∗ A2 ∗ A3 ∗ A4 ∗ A5 ∗ A6) ∗ RA) ∗ ((B0 ∗ B1 ∗ B2 ∗ B3 ∗ B4 ∗ B5 ∗ B6) ∗ RB) ∗ Y) := by
  iintro ⟨⟨HX, HA0, HA1, HA2, HA3, HA4, HA5, HA6, HB0, HB1, HB2, HB3, HB4, HB5, HB6, HY⟩, HRA, HRB⟩
  isplitl [HX]; · iexact HX
  isplitl [HA0 HA1 HA2 HA3 HA4 HA5 HA6 HRA]
  · isplitr [HRA]
    · isplitl [HA0]; · iexact HA0
      isplitl [HA1]; · iexact HA1
      isplitl [HA2]; · iexact HA2
      isplitl [HA3]; · iexact HA3
      isplitl [HA4]; · iexact HA4
      isplitl [HA5]; · iexact HA5
      iexact HA6
    · iexact HRA
  isplitl [HB0 HB1 HB2 HB3 HB4 HB5 HB6 HRB]
  · isplitr [HRB]
    · isplitl [HB0]; · iexact HB0
      isplitl [HB1]; · iexact HB1
      isplitl [HB2]; · iexact HB2
      isplitl [HB3]; · iexact HB3
      isplitl [HB4]; · iexact HB4
      isplitl [HB5]; · iexact HB5
      iexact HB6
    · iexact HRB
  iexact HY

/-- One tile's task over the tile's scoped storage as the launch hands it over: its seven scratch buffers and seven DMA
    semaphores are taken out of the tile's own, the task runs over them, and they go back with the rest. -/
theorem tile_body (hcore : TileCore (F := F) m) (q : PosShare TreeShare) (O : CellTallies nD τ sig (HIx 1)) (W : Waits sig (HIx 1))
    (hO : ∀ g, O g none = 0) :
    iprop(levAts (K (F := F)).L (K (F := F)).lev ∗ emp ∗ goRes m q d L
        ∗ scopedBufs (thrV d L) ∗ scopedSems0 (thrV d L) ∗ owes (thrV d L) O W)
      ⊢ wp frame (wpE (defs₀ (F := F)) 𝒱₀ (thrV d L) none) Set.univ
          (cc0__bprmf_sc L uV (Memref.isWhole_whole _) iV (Memref.isWhole_whole _) uwV (Memref.isWhole_whole _) iwV (Memref.isWhole_whole _)
            oV (Memref.isWhole_whole _) sU (Memref.isWhole_whole _) sI (Memref.isWhole_whole _) sUA (Memref.isWhole_whole _)
            sIA (Memref.isWhole_whole _) sUB (Memref.isWhole_whole _) sIB (Memref.isWhole_whole _) sO (Memref.isWhole_whole _)
            cc0_scratch7 cc0_scratch8 cc0_scratch9 cc0_scratch10 cc0_scoped0 cc0_scoped1 cc0_scoped2)
          fun _ => iprop(tdRes m d L ∗ scopedBufs (thrV d L) ∗ scopedSems0 (thrV d L)
            ∗ ∃ W', ⌜∀ p ∈ W', p ∈ W ∨ p.2 = none⌝ ∗ owes (thrV d L) O W') := by
  rw [(K (F := F)).scopedBufs_V facts d (cV L) (jV L), SparseCore.Cfg.scopedSems0_V (Val := Elt F) d (cV L) (jV L), ownSems0_V, ownBufs_V]
  iintro ⟨#Hlv, -, Hgo, ⟨⟨⟨%f0, H0⟩, ⟨%f1, H1⟩, ⟨%f2, H2⟩, ⟨%f3, H3⟩, ⟨%f4, H4⟩, ⟨%f5, H5⟩, ⟨%f6, H6⟩⟩, Hbufs⟩,
    ⟨⟨S7, S8, S9, S10, T0, T1, T2⟩, Hsems⟩, HO⟩
  ihave Hmw := ((K (F := F)).mayWaits_none (thr := thrV d L) hO) $$ Hlv
  iapply (wrap (hcore d L q O W f0 f1 f2 f3 f4 f5 f6) (fun _ => regroup)) $$ [Hmw Hgo H0 H1 H2 H3 H4 H5 H6 Hbufs S7 S8 S9 S10 T0 T1 T2 Hsems HO]
  isplitr [Hbufs Hsems]
  · isplitl [Hmw]; · iexact Hmw
    isplitl [Hgo]; · iexact Hgo
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S7]; · iexact S7
    isplitl [S8]; · iexact S8
    isplitl [S9]; · iexact S9
    isplitl [S10]; · iexact S10
    isplitl [T0]; · iexact T0
    isplitl [T1]; · iexact T1
    isplitl [T2]; · iexact T2
    iexact HO
  · isplitl [Hbufs]; · iexact Hbufs
    iexact Hsems

end Tile

/-! ## The launch theorem's obligations -/

theorem defs₀_vector (c : Fin τ.nSC) (s : Fin τ.nSub) :
    defs₀ (F := F) (.scVector c s) 0 ()
      = SparseCore.onTile hcore0 hsub0 (fun c s => cc0__bprmf_sc (coordsV c s)
          uV (Memref.isWhole_whole _) iV (Memref.isWhole_whole _) uwV (Memref.isWhole_whole _) iwV (Memref.isWhole_whole _)
            oV (Memref.isWhole_whole _) sU (Memref.isWhole_whole _) sI (Memref.isWhole_whole _) sUA (Memref.isWhole_whole _)
            sIA (Memref.isWhole_whole _) sUB (Memref.isWhole_whole _) sIB (Memref.isWhole_whole _) sO (Memref.isWhole_whole _)
            cc0_scratch7 cc0_scratch8 cc0_scratch9 cc0_scratch10 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hcore : TileCore (F := F) m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hcore _ O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- @main's two reshapes: each table's elements in row-major order at the blocked shape. -/
abbrev op0 : HloOp τ sig (Elt F) := StableHlo.reshape main_arg2 main_v0 rfl shapeCasts_S1000000x64_S125000x8x64
abbrev op1 : HloOp τ sig (Elt F) := StableHlo.reshape main_arg3 main_v1 rfl shapeCasts_S1000000x64_S125000x8x64

/-- The TensorCore's arrays, all unscoped. -/
abbrev S7 : Finset (DevRef τ sig) := {a0', a1', a2', a3', v0', v1', v2'}

omit [FloatOps F] in
theorem held_S7 (d : Dev nD) (W : Valuation τ sig (Elt F)) :
    (held (T d) S7 W : sProp 𝕄) = iprop((uLoc d ↦{fullShare} W a0') ∗ (iLoc d ↦{fullShare} W a1') ∗ (a2Loc d ↦{fullShare} W a2')
      ∗ (a3Loc d ↦{fullShare} W a3') ∗ (uwLoc d ↦{fullShare} W v0') ∗ (iwLoc d ↦{fullShare} W v1') ∗ (oLoc d ↦{fullShare} W v2')) := by
  unfold held S7
  rw [SparseCore.bigSep_insert' (show a0' ∉ ({a1', a2', a3', v0', v1', v2'} : Finset (DevRef τ sig)) by decide),
    SparseCore.bigSep_insert' (show a1' ∉ ({a2', a3', v0', v1', v2'} : Finset (DevRef τ sig)) by decide),
    SparseCore.bigSep_insert' (show a2' ∉ ({a3', v0', v1', v2'} : Finset (DevRef τ sig)) by decide),
    SparseCore.bigSep_insert' (show a3' ∉ ({v0', v1', v2'} : Finset (DevRef τ sig)) by decide),
    SparseCore.bigSep_insert' (show v0' ∉ ({v1', v2'} : Finset (DevRef τ sig)) by decide),
    SparseCore.bigSep_insert' (show v1' ∉ ({v2'} : Finset (DevRef τ sig)) by decide), bigSep_singleton]

omit [FloatOps F] in
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1) ∗ (a2Loc d ↦{fullShare} W main_arg2)
      ∗ (a3Loc d ↦{fullShare} W main_arg3) ∗ (uwLoc d ↦{fullShare} W main_v0) ∗ (iwLoc d ↦{fullShare} W main_v1) ∗ (oLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (show (main_arg0 : Ref sig .tc) ∉ ({main_arg1, main_arg2, main_arg3, main_v0, main_v1, main_v2} : Finset (Ref sig .tc)) by decide),
    SparseCore.bigSep_insert' (show (main_arg1 : Ref sig .tc) ∉ ({main_arg2, main_arg3, main_v0, main_v1, main_v2} : Finset (Ref sig .tc)) by decide),
    SparseCore.bigSep_insert' (show (main_arg2 : Ref sig .tc) ∉ ({main_arg3, main_v0, main_v1, main_v2} : Finset (Ref sig .tc)) by decide),
    SparseCore.bigSep_insert' (show (main_arg3 : Ref sig .tc) ∉ ({main_v0, main_v1, main_v2} : Finset (Ref sig .tc)) by decide),
    SparseCore.bigSep_insert' (show (main_v0 : Ref sig .tc) ∉ ({main_v1, main_v2} : Finset (Ref sig .tc)) by decide),
    SparseCore.bigSep_insert' (show (main_v1 : Ref sig .tc) ∉ ({main_v2} : Finset (Ref sig .tc)) by decide), bigSep_singleton]

/-- The launch valuation of device `d`'s arrays, and the valuations after the first and the second reshape. -/
def V0 (d : Dev nD) : Valuation τ sig (Elt F) := fun b => m (d, b)
def V1 (d : Dev nD) : Valuation τ sig (Elt F) := (op0 (F := F)).result (V0 m d)
def V2 (d : Dev nD) : Valuation τ sig (Elt F) := (op1 (F := F)).result (V1 m d)

theorem unscoped_held (d : Dev nD) : (unscopedBufs d (fun b => m ((SparseCore.T d).loc b)) : sProp 𝕄) = held (T d) S7 (V0 m d) := by
  rw [unscopedBufs_eq, held_S7]; rfl

theorem V2_keep (d : Dev nD) {b : DevRef τ sig} (h0 : b ∉ ({v0'} : Finset (DevRef τ sig))) (h1 : b ∉ ({v1'} : Finset (DevRef τ sig))) : V2 m d b = V0 m d b :=
  ((op1 (F := F)).result_of_not_mem (V1 m d) h1).trans ((op0 (F := F)).result_of_not_mem (V0 m d) h0)

theorem V2_v0 (d : Dev nD) : V2 m d v0' = W0 m d :=
  ((op1 (F := F)).result_of_not_mem (V1 m d) (show v0' ∉ ({v1'} : Finset (DevRef τ sig)) by decide)).trans
    (StableHlo.reshape_result main_arg2 main_v0 rfl shapeCasts_S1000000x64_S125000x8x64 ⟨by decide, rfl⟩ ⟨by decide, rfl⟩ (V0 m d))

theorem V2_v1 (d : Dev nD) : V2 m d v1' = W1 m d := by
  refine (StableHlo.reshape_result main_arg3 main_v1 rfl shapeCasts_S1000000x64_S125000x8x64 ⟨by decide, rfl⟩ ⟨by decide, rfl⟩ (V1 m d)).trans ?_
  have e : V1 m d a3' = V0 m d a3' := (op0 (F := F)).result_of_not_mem (V0 m d) (show a3' ∉ ({v0'} : Finset (DevRef τ sig)) by decide)
  show (fun i => shapeCast S125000x8x64 (V1 m d a3') shapeCasts_S1000000x64_S125000x8x64 i) = _
  rw [e]; rfl

/-- After the two reshapes: the arguments and the result array as launched, the blocked tables in place. -/
theorem held_V2 (d : Dev nD) :
    (held (T d) S7 (V2 m d) : sProp 𝕄) = iprop((uLoc d ↦{fullShare} m (uLoc d)) ∗ (iLoc d ↦{fullShare} m (iLoc d)) ∗ (a2Loc d ↦{fullShare} m (a2Loc d))
      ∗ (a3Loc d ↦{fullShare} m (a3Loc d)) ∗ (uwLoc d ↦{fullShare} W0 m d) ∗ (iwLoc d ↦{fullShare} W1 m d) ∗ (oLoc d ↦{fullShare} m (oLoc d))) := by
  rw [held_S7, V2_v0, V2_v1,
    V2_keep m d (b := a0') (by decide) (by decide), V2_keep m d (b := a1') (by decide) (by decide),
    V2_keep m d (b := a2') (by decide) (by decide), V2_keep m d (b := a3') (by decide) (by decide),
    V2_keep m d (b := v2') (by decide) (by decide)]
  rfl

theorem held_V2' (d : Dev nD) :
    (held (T d) S7 ((op1 (F := F)).result (V1 m d)) : sProp 𝕄) = iprop((uLoc d ↦{fullShare} m (uLoc d)) ∗ (iLoc d ↦{fullShare} m (iLoc d)) ∗ (a2Loc d ↦{fullShare} m (a2Loc d))
      ∗ (a3Loc d ↦{fullShare} m (a3Loc d)) ∗ (uwLoc d ↦{fullShare} W0 m d) ∗ (iwLoc d ↦{fullShare} W1 m d) ∗ (oLoc d ↦{fullShare} m (oLoc d))) := held_V2 m d

theorem hop0 : (op0 (F := F)).bufs ⊆ S7 := show ({a2', v0'} : Finset (DevRef τ sig)) ⊆ S7 by decide
theorem hop1 : (op1 (F := F)).bufs ⊆ S7 := show ({a3', v1'} : Finset (DevRef τ sig)) ⊆ S7 by decide

/-- What the call takes for the two SparseCores, -/
theorem st0_eq (d : Dev nD) : (bigSep Finset.univ fun c : Fin ((K (F := F)).nCore 0) => (P m).st 0 d c)
    = iprop((bigSep Finset.univ fun c : Fin 2 => uLoc d ↦{qC c} m (uLoc d)) ∗ (bigSep Finset.univ fun c : Fin 2 => iLoc d ↦{qC c} m (iLoc d))
      ∗ (bigSep Finset.univ fun c : Fin 2 => uwLoc d ↦{qC c} W0 m d) ∗ (bigSep Finset.univ fun c : Fin 2 => iwLoc d ↦{qC c} W1 m d)
      ∗ (oLoc d ↦{fullShare} m (oLoc d))) := by
  show (bigSep Finset.univ fun c : Fin ((K (F := F)).nCore 0) => stRes m d (Fin.cast nCore_zero c)) = _
  rw [bigSep_cores (F := F) (fun c => stRes m d c), oPts_cores]
  unfold stRes
  rw [bigSep_sep', bigSep_sep', bigSep_sep', bigSep_sep']

/-- and what it hands back: the whole result at the specified values. -/
theorem dn0_eq (d : Dev nD) : (bigSep Finset.univ fun c : Fin ((K (F := F)).nCore 0) => (P m).dn 0 d c) = iprop(oLoc d ↦{fullShare} Gout m d) := by
  show (bigSep Finset.univ fun c : Fin ((K (F := F)).nCore 0) => dnRes m d (Fin.cast nCore_zero c)) = _
  rw [bigSep_cores (F := F) (fun c => dnRes m d c), oPts_cores]
  rfl

/-- What @main leaves the claim: the index arrays at the share it kept, the tables whole, the result at its specified values. -/
abbrev FIN (d : Dev nD) : sProp 𝕄 :=
  iprop((uLoc d ↦{qKeep} m (uLoc d)) ∗ (iLoc d ↦{qKeep} m (iLoc d)) ∗ (a2Loc d ↦{fullShare} m (a2Loc d)) ∗ (a3Loc d ↦{fullShare} m (a3Loc d))
    ∗ (oLoc d ↦{fullShare} Gout m d))

/-- @main on device `d`'s TensorCore: the two reshapes, over the TensorCore's arrays; then the call, each SparseCore
    handed a read share of the index arrays and of the blocked tables and its positions of the result; @main keeps a
    share of the index arrays and the tables whole, and takes the result back at its specified values. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape
  iapply (wp_hlo_within 𝒱 (SparseCore.T d) none Set.univ (op := op0) (S := S7) hop0 (V := V0 m d)) $$ [Hb Hheld]
  · isplitl [Hb]; · iexact Hb
    iexact Hheld
  iintro ⟨Hb, Hheld⟩
  rw [wp_ret]; imodintro
  -- the second
  iapply (wp_hlo_within 𝒱 (SparseCore.T d) none Set.univ (op := op1) (S := S7) hop1 (V := V1 m d)) $$ [Hb Hheld]
  · isplitl [Hb]; · iexact Hb
    iexact Hheld
  iintro ⟨Hb, Hheld⟩
  rw [wp_ret]; imodintro
  ihave Hh := (Entails.of_eq (held_V2' m d)) $$ Hheld
  icases Hh with ⟨Hu, Hi, Ha2, Ha3, Huw, Hiw, Ho⟩
  -- a read share of each of the four arrays per SparseCore; of the index arrays @main keeps the remainder
  ihave Hu' := (pointsTo_toks_split fullShare 2) $$ Hu
  icases Hu' with ⟨Hu0, Hu⟩
  ihave Hi' := (pointsTo_toks_split fullShare 2) $$ Hi
  icases Hi' with ⟨Hi0, Hi⟩
  ihave Huw' := (pointsTo_toks_split fullShare 2) $$ Huw
  icases Huw' with ⟨-, Huw⟩
  ihave Hiw' := (pointsTo_toks_split fullShare 2) $$ Hiw
  icases Hiw' with ⟨-, Hiw⟩
  -- the call
  iapply ((K (F := F)).wp_run (D (F := F)) 𝒱 (EH := EH) (P := P m) κ d 0) $$ [Hst Hu Hi Huw Hiw Ho Hu0 Hi0 Ha2 Ha3]
  isplitr; · iexact Hctx
  isplitl [Hst]; · iexact Hst
  isplitl [Hu Hi Huw Hiw Ho]
  · rw [st0_eq]
    isplitl [Hu]; · iexact Hu
    isplitl [Hi]; · iexact Hi
    isplitl [Huw]; · iexact Huw
    isplitl [Hiw]; · iexact Hiw
    iexact Ho
  iintro ⟨Hst, Hdn⟩
  ihave Ho := (Entails.of_eq (dn0_eq m d)) $$ Hdn
  imodintro
  isplitl [Hst]; · iexact Hst
  isplitl [Hu0]; · iexact Hu0
  isplitl [Hi0]; · iexact Hi0
  isplitl [Ha2]; · iexact Ha2
  isplitl [Ha3]; · iexact Ha3
  iexact Ho

/-! ## The final memory -/

def fq (d : Dev nD) (s' : Phys nD τ sig (Elt F)) : Prop :=
  s'.mem.mem (oLoc d) = Gout m d ∧ s'.mem.mem (uLoc d) = m (uLoc d) ∧ s'.mem.mem (iLoc d) = m (iLoc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨Hu, Hi, Ha2, Ha3, Ho⟩, HSI⟩
  ihave H := (persistent_entails_right (SI_pointsTo_agree (st := s') (ℓ := uLoc d) (I := Finset.univ) (q := qKeep) (f := m (uLoc d)))) $$ [HSI Hu]
  · isplitl [HSI] <;> iassumption
  icases H with ⟨%h1, HSI, -⟩
  ihave H := (persistent_entails_right (SI_pointsTo_agree (st := s') (ℓ := iLoc d) (I := Finset.univ) (q := qKeep) (f := m (iLoc d)))) $$ [HSI Hi]
  · isplitl [HSI] <;> iassumption
  icases H with ⟨%h2, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h3, HSI, -⟩
  ihave H := (persistent_entails_right (SI_pointsTo_agree (st := s') (ℓ := a3Loc d) (I := Finset.univ) (q := fullShare) (f := m (a3Loc d)))) $$ [HSI Ha3]
  · isplitl [HSI] <;> iassumption
  icases H with ⟨%h4, HSI, -⟩
  ihave H := (SI_pointsTo_agree (st := s') (ℓ := oLoc d) (I := Finset.univ) (q := fullShare) (f := Gout m d)) $$ [HSI Ho]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The program's run -/

/-- Every weakly fair execution of the device's threads terminates, nothing faulting, no handshake unanswered; the result
    array ends at its specified values and the four arguments unchanged — given one tile's task. -/
theorem run_main [∀ e, Nonempty (Elt F e)] (hcore : TileCore (F := F) m) :
    θ_run (Cert.Kernel.defs (F := F)) (Cert.Kernel.threads (F := F)) ⟨m, fun _ => 0, ρ⟩
      (fun r => ∀ c : Dev nD, r.2.mem (oLoc c) = Gout m c ∧ r.2.mem (uLoc c) = m (uLoc c) ∧ r.2.mem (iLoc c) = m (iLoc c)
        ∧ r.2.mem (a2Loc c) = m (a2Loc c) ∧ r.2.mem (a3Loc c) = m (a3Loc c)) :=
  SparseCore.Cfg.θ_run_sc (K := K (F := F)) (D := D (F := F)) (𝒱 := 𝒱) (EH := EH) (P := P m) facts v₀
    (fun q hq => match q with | 0 => nomatch hq)
    (fun q _ => match q with | 0 => tileObl m hcore)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.Kernel

end
-- ==== Proof.K.OutPiece.lean ====
/-
  The tile's piece of the result after the write-out, and the positions its slices name.

  The write-out copies the tile's 512-word scratch into the tile's slice of the result: the slice then holds, at its
  `p`-th position, the scratch's `p`-th word.  When those words are the specified values of the slice's positions, the
  piece is what the tile hands back.  The tile's slices of the two index arrays and of the result start at the same
  offset `1024 (L 1) + 512 (L 0)`, so position `p` of each is the same position of a 16384-array.
-/
import proofs.«203884_g41704132444582_cont_8to1_b_1290_16_alg».proof.Proof.K.Setup

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The positions the tile's slices name -/

/-- The tile's slices of the two index arrays, as the program slices them. -/
abbrev uRect (L : grid0.Coords) : Rect S16384 := Rect.unit (s := S16384) (k0_off1 L) S512.size (k0_off1_inb L)
abbrev uSlice (L : grid0.Coords) : Memref sig .scVector .hbm S512 .i32 := (uV : Memref sig .scVector .hbm S16384 .i32).slice (uRect L) (fun _ => rfl)
abbrev iSlice (L : grid0.Coords) : Memref sig .scVector .hbm S512 .i32 := (iV : Memref sig .scVector .hbm S16384 .i32).slice (uRect L) (fun _ => rfl)

/-- Position `p` of the tile's slice of the result, in closed form. -/
theorem emb_o_val (L : grid0.Coords) (p : S512.Idx) :
    (((oSlice L).view.emb p) 0).val = 1024 * (L 1).val + 512 * (L 0).val + (p 0).val := by
  show (k0_off104 L) 0 + 1 * (p 0).val = _
  rw [k0_off104_eq, Nat.one_mul]; rfl

theorem emb_u_val (L : grid0.Coords) (p : S512.Idx) :
    (((uSlice L).view.emb p) 0).val = 1024 * (L 1).val + 512 * (L 0).val + (p 0).val := by
  show (k0_off1 L) 0 + 1 * (p 0).val = _
  rw [k0_off1_eq, Nat.one_mul]; rfl

theorem emb_i_val (L : grid0.Coords) (p : S512.Idx) :
    (((iSlice L).view.emb p) 0).val = 1024 * (L 1).val + 512 * (L 0).val + (p 0).val := by
  show (k0_off1 L) 0 + 1 * (p 0).val = _
  rw [k0_off1_eq, Nat.one_mul]; rfl

theorem emb_o_lt (L : grid0.Coords) (p : S512.Idx) : 1024 * (L 1).val + 512 * (L 0).val + (p 0).val < 16384 := by
  have h := (((oSlice L).view.emb p) 0).isLt
  rw [emb_o_val] at h; exact h

/-- The same, as a coordinate. -/
theorem emb_o_zero (L : grid0.Coords) (p : S512.Idx) :
    @Eq (Fin 16384) (((oSlice L).view.emb p) 0) ⟨1024 * (L 1).val + 512 * (L 0).val + (p 0).val, emb_o_lt L p⟩ :=
  Fin.ext (emb_o_val L p)

/-- Position `p` of the tile's slice of either index array is position `p` of its slice of the result. -/
theorem emb_u_eq_emb_o (L : grid0.Coords) (p : S512.Idx) : (uSlice L).view.emb p = (oSlice L).view.emb p := by
  funext a
  obtain rfl : a = (0 : Fin 1) := Subsingleton.elim (α := Fin 1) a 0
  exact Fin.ext ((emb_u_val L p).trans (emb_o_val L p).symm)

theorem emb_i_eq_emb_o (L : grid0.Coords) (p : S512.Idx) : (iSlice L).view.emb p = (oSlice L).view.emb p := by
  funext a
  obtain rfl : a = (0 : Fin 1) := Subsingleton.elim (α := Fin 1) a 0
  exact Fin.ext ((emb_i_val L p).trans (emb_o_val L p).symm)

/-! ## The tile's piece of the result after the write-out -/

variable [FloatOps F]

variable (m : (ℓ : Loc nD τ sig) → Buf (Elt F) ℓ)

/-- Any contents that hold the specified values at the slice's positions make the piece the tile hands back. -/
theorem out_piece_of (d : Dev nD) (L : grid0.Coords) (g : Buf (Elt F) (oLoc d))
    (h : ∀ p : S512.Idx, g ((oSlice L).view.emb p) = Gout m d ((oSlice L).view.emb p)) :
    (((oSlice L).view.loc (thrV d L) ↦[(oSlice L).view.set]{fullShare} g) : sProp 𝕄) ⊢ tdRes m d L := by
  unfold tdRes
  refine Entails.of_eq (pointsTo_congr fun i hi => ?_)
  obtain ⟨p, -, rfl⟩ := Finset.mem_map.mp hi
  exact h p

/-- What the write-out leaves at position `p` of the slice: the scratch's `p`-th word. -/
theorem write_out_emb (d : Dev nD) (L : grid0.Coords) (OV : Buf (Elt F) ((thrV d L).loc cc0_scratch6)) (f : Buf (Elt F) (oLoc d)) (p : S512.Idx) :
    (oSlice L).view.write (Elt F) f (ReadAs.same.apply ((sO : Memref sig .scVector .vmem S512 .f32).view.read (Elt F) OV)) Finset.univ ((oSlice L).view.emb p)
      = OV p := by
  rw [View.write_emb_of_mem _ _ (Finset.mem_univ p)]
  rfl

/-- The piece after the write-out, when the scratch holds the specified values of the slice's positions. -/
theorem out_piece (d : Dev nD) (L : grid0.Coords) (OV : Buf (Elt F) ((thrV d L).loc cc0_scratch6)) (f : Buf (Elt F) (oLoc d))
    (h : ∀ p : S512.Idx, OV p = Gout m d ((oSlice L).view.emb p)) :
    (((oSlice L).view.loc (thrV d L) ↦[(oSlice L).view.set]{fullShare}
        ((oSlice L).view.write (Elt F) f (ReadAs.same.apply ((sO : Memref sig .scVector .vmem S512 .f32).view.read (Elt F) OV)) Finset.univ)) : sProp 𝕄)
      ⊢ tdRes m d L :=
  out_piece_of m d L _ fun p => (write_out_emb d L OV f p).trans (h p)

/-- The same when the written contents is any `g` that holds the scratch's words at the slice's positions. -/
theorem out_piece_any (d : Dev nD) (L : grid0.Coords) (OV : Buf (Elt F) ((thrV d L).loc cc0_scratch6)) (g : Buf (Elt F) (oLoc d))
    (hg : ∀ p : S512.Idx, g ((oSlice L).view.emb p) = OV p) (h : ∀ p : S512.Idx, OV p = Gout m d ((oSlice L).view.emb p)) :
    (((oSlice L).view.loc (thrV d L) ↦[(oSlice L).view.set]{fullShare} g) : sProp 𝕄) ⊢ tdRes m d L :=
  out_piece_of m d L g fun p => (hg p).trans (h p)

end Cert.Proof.Kernel

end
-- ==== Proof.K.Slots.lean ====
/-
  A block buffer filled slot by slot.

  A tile's block buffer has shape `[16, 8, 64]`; row copy `t` lands in slot `t`, the rows `(t, ·, ·)`, read as an
  `[8, 64]` block.  Writing a slot changes exactly the positions whose first coordinate is `t`; so after all sixteen
  slots are written, position `(s, r, f)` holds what copy `s` brought at `(r, f)`, whatever the buffer held before.
-/
import proofs.«203884_g41704132444582_cont_8to1_b_1290_16_alg».proof.Proof.K.Setup

noncomputable section

namespace Cert.Proof.Kernel

open Cert.Kernel Cert.Kernel.Gen
open Idealize.ShloMosaic

variable {F : FTy → Type}

/-- Slot `t` of a block buffer: rows `(t, ·, ·)` of the `[16, 8, 64]` buffer, read as an `[8, 64]` block. -/
abbrev slotV (base : Memref sig .scVector .vmem S16x8x64 .f32) (t : ℕ)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64) : View sig .scVector .vmem S8x64 .f32 :=
  ((base.slice (Rect.unit (s := S16x8x64) ![t, 0, 0] S1x8x64.size h1) h2).squeeze S8x64 h3).view

/-! ## Buffer `sUA` -/

/-- Where slot `t` of `sUA` sits: its `(r, f)` is the buffer's `(t, r, f)`. -/
theorem slot_emb_UA (t : ℕ) (ht : t < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64) (x : S8x64.Idx) :
    (slotV sUA t h1 h2 h3).emb x = ValueIdx.ix3 (n0 := 16) (n1 := 8) (n2 := 64) ⟨t, ht⟩ (x 0) (x 1) := by
  have hr : Shape.reshapeEquiv h3.numel_eq x = ValueIdx.ix3 (n0 := 1) (n1 := 8) (n2 := 64) ⟨0, Nat.one_pos⟩ (x 0) (x 1) :=
    Shape.reshapeEquiv_eq_of_rowMajor _ (by
      rw [Shape.rowMajor_val_two, Shape.rowMajor_val_three]
      show ((0 * 8 + (x 0).val) * 64 + (x 1).val) = (x 0).val * 64 + (x 1).val
      omega)
  show (Rect.unit (s := S16x8x64) ![t, 0, 0] S1x8x64.size h1).emb (Shape.reshapeEquiv h3.numel_eq x) = _
  rw [hr]
  funext a
  apply Fin.ext
  rw [Rect.emb_apply]
  match a with
  | ⟨0, _⟩ => show t + 1 * 0 = t; omega
  | ⟨1, _⟩ => show 0 + 1 * (x 0).val = (x 0).val; omega
  | ⟨2, _⟩ => show 0 + 1 * (x 1).val = (x 1).val; omega

/-- One slot of `sUA` written over prior contents, read at `(s, r, f)`: the payload in slot `t`, the prior contents
    elsewhere. -/
theorem slot_write_apply_UA (t s : ℕ) (hs : s < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64)
    (prior : (slotV sUA t h1 h2 h3).ty.Contents (Elt F)) (p : S8x64.Idx → Elt F .f32) (r : Fin 8) (f : Fin 64) :
    View.write (Elt F) (slotV sUA t h1 h2 h3) prior p Finset.univ (ValueIdx.ix3 (n0 := 16) (n1 := 8) (n2 := 64) ⟨s, hs⟩ r f)
      = if s = t then p (ValueIdx.ix2 (n0 := 8) (n1 := 64) r f)
        else prior (ValueIdx.ix3 (n0 := 16) (n1 := 8) (n2 := 64) ⟨s, hs⟩ r f) := by
  have ht : t < 16 := by have h : t + 1 ≤ 16 := h1 0; omega
  by_cases hst : s = t
  · subst hst
    rw [if_pos rfl]
    have he := slot_emb_UA s hs h1 h2 h3 (ValueIdx.ix2 (n0 := 8) (n1 := 64) r f)
    have hw := View.write_emb_of_mem (v := slotV sUA s h1 h2 h3) (Val := Elt F) prior p
      (Finset.mem_univ (ValueIdx.ix2 (n0 := 8) (n1 := 64) r f))
    rw [he] at hw
    exact hw
  · rw [if_neg hst]
    refine View.write_of_not_mem _ _ _ ?_
    intro hmem
    obtain ⟨x, _, hx⟩ := Finset.mem_map.1 hmem
    rw [slot_emb_UA t ht h1 h2 h3 x] at hx
    have := congrArg (fun i : S16x8x64.Idx => (i 0).val) hx
    exact hst this.symm

/-- All sixteen slots of `sUA` written, slot 0 first and slot 15 last, over any prior contents: position `(s, r, f)`
    holds slot `s`'s payload at `(r, f)`. -/
theorem nest16_apply_UA
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sUA 0 h1_0 h2_0 h3_0).ty.Contents (Elt F)) (p0 p1 p2 p3 p4 p5 p6 p7 p8 p9 p10 p11 p12 p13 p14 p15 : S8x64.Idx → Elt F .f32)
    (s : Fin 16) (r : Fin 8) (f : Fin 64) :
    (View.write (Elt F) (slotV sUA 15 h1_15 h2_15 h3_15) (View.write (Elt F) (slotV sUA 14 h1_14 h2_14 h3_14) (View.write (Elt F) (slotV sUA 13 h1_13 h2_13 h3_13) (View.write (Elt F) (slotV sUA 12 h1_12 h2_12 h3_12) (View.write (Elt F) (slotV sUA 11 h1_11 h2_11 h3_11) (View.write (Elt F) (slotV sUA 10 h1_10 h2_10 h3_10) (View.write (Elt F) (slotV sUA 9 h1_9 h2_9 h3_9) (View.write (Elt F) (slotV sUA 8 h1_8 h2_8 h3_8) (View.write (Elt F) (slotV sUA 7 h1_7 h2_7 h3_7) (View.write (Elt F) (slotV sUA 6 h1_6 h2_6 h3_6) (View.write (Elt F) (slotV sUA 5 h1_5 h2_5 h3_5) (View.write (Elt F) (slotV sUA 4 h1_4 h2_4 h3_4) (View.write (Elt F) (slotV sUA 3 h1_3 h2_3 h3_3) (View.write (Elt F) (slotV sUA 2 h1_2 h2_2 h3_2) (View.write (Elt F) (slotV sUA 1 h1_1 h2_1 h3_1) (View.write (Elt F) (slotV sUA 0 h1_0 h2_0 h3_0) prior p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)
        (ValueIdx.ix3 (n0 := 16) (n1 := 8) (n2 := 64) s r f)
      = (![p0, p1, p2, p3, p4, p5, p6, p7, p8, p9, p10, p11, p12, p13, p14, p15] : Fin 16 → S8x64.Idx → Elt F .f32) s (ValueIdx.ix2 (n0 := 8) (n1 := 64) r f) := by
  obtain ⟨s, hs⟩ := s
  rw [slot_write_apply_UA 15 s hs,
    slot_write_apply_UA 14 s hs,
    slot_write_apply_UA 13 s hs,
    slot_write_apply_UA 12 s hs,
    slot_write_apply_UA 11 s hs,
    slot_write_apply_UA 10 s hs,
    slot_write_apply_UA 9 s hs,
    slot_write_apply_UA 8 s hs,
    slot_write_apply_UA 7 s hs,
    slot_write_apply_UA 6 s hs,
    slot_write_apply_UA 5 s hs,
    slot_write_apply_UA 4 s hs,
    slot_write_apply_UA 3 s hs,
    slot_write_apply_UA 2 s hs,
    slot_write_apply_UA 1 s hs,
    slot_write_apply_UA 0 s hs]
  interval_cases s <;> rfl

/-- The same with the payloads given as one function of the slot. -/
theorem nest16_apply_fn_UA
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sUA 0 h1_0 h2_0 h3_0).ty.Contents (Elt F)) (P : Fin 16 → S8x64.Idx → Elt F .f32)
    (s : Fin 16) (r : Fin 8) (f : Fin 64) :
    (View.write (Elt F) (slotV sUA 15 h1_15 h2_15 h3_15) (View.write (Elt F) (slotV sUA 14 h1_14 h2_14 h3_14) (View.write (Elt F) (slotV sUA 13 h1_13 h2_13 h3_13) (View.write (Elt F) (slotV sUA 12 h1_12 h2_12 h3_12) (View.write (Elt F) (slotV sUA 11 h1_11 h2_11 h3_11) (View.write (Elt F) (slotV sUA 10 h1_10 h2_10 h3_10) (View.write (Elt F) (slotV sUA 9 h1_9 h2_9 h3_9) (View.write (Elt F) (slotV sUA 8 h1_8 h2_8 h3_8) (View.write (Elt F) (slotV sUA 7 h1_7 h2_7 h3_7) (View.write (Elt F) (slotV sUA 6 h1_6 h2_6 h3_6) (View.write (Elt F) (slotV sUA 5 h1_5 h2_5 h3_5) (View.write (Elt F) (slotV sUA 4 h1_4 h2_4 h3_4) (View.write (Elt F) (slotV sUA 3 h1_3 h2_3 h3_3) (View.write (Elt F) (slotV sUA 2 h1_2 h2_2 h3_2) (View.write (Elt F) (slotV sUA 1 h1_1 h2_1 h3_1) (View.write (Elt F) (slotV sUA 0 h1_0 h2_0 h3_0) prior (P 0) Finset.univ) (P 1) Finset.univ) (P 2) Finset.univ) (P 3) Finset.univ) (P 4) Finset.univ) (P 5) Finset.univ) (P 6) Finset.univ) (P 7) Finset.univ) (P 8) Finset.univ) (P 9) Finset.univ) (P 10) Finset.univ) (P 11) Finset.univ) (P 12) Finset.univ) (P 13) Finset.univ) (P 14) Finset.univ) (P 15) Finset.univ)
        (ValueIdx.ix3 (n0 := 16) (n1 := 8) (n2 := 64) s r f)
      = P s (ValueIdx.ix2 (n0 := 8) (n1 := 64) r f) := by
  rw [nest16_apply_UA]
  fin_cases s <;> rfl

/-! ## Buffer `sIA` -/

/-- Where slot `t` of `sIA` sits: its `(r, f)` is the buffer's `(t, r, f)`. -/
theorem slot_emb_IA (t : ℕ) (ht : t < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64) (x : S8x64.Idx) :
    (slotV sIA t h1 h2 h3).emb x = ValueIdx.ix3 (n0 := 16) (n1 := 8) (n2 := 64) ⟨t, ht⟩ (x 0) (x 1) := by
  have hr : Shape.reshapeEquiv h3.numel_eq x = ValueIdx.ix3 (n0 := 1) (n1 := 8) (n2 := 64) ⟨0, Nat.one_pos⟩ (x 0) (x 1) :=
    Shape.reshapeEquiv_eq_of_rowMajor _ (by
      rw [Shape.rowMajor_val_two, Shape.rowMajor_val_three]
      show ((0 * 8 + (x 0).val) * 64 + (x 1).val) = (x 0).val * 64 + (x 1).val
      omega)
  show (Rect.unit (s := S16x8x64) ![t, 0, 0] S1x8x64.size h1).emb (Shape.reshapeEquiv h3.numel_eq x) = _
  rw [hr]
  funext a
  apply Fin.ext
  rw [Rect.emb_apply]
  match a with
  | ⟨0, _⟩ => show t + 1 * 0 = t; omega
  | ⟨1, _⟩ => show 0 + 1 * (x 0).val = (x 0).val; omega
  | ⟨2, _⟩ => show 0 + 1 * (x 1).val = (x 1).val; omega

/-- One slot of `sIA` written over prior contents, read at `(s, r, f)`: the payload in slot `t`, the prior contents
    elsewhere. -/
theorem slot_write_apply_IA (t s : ℕ) (hs : s < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64)
    (prior : (slotV sIA t h1 h2 h3).ty.Contents (Elt F)) (p : S8x64.Idx → Elt F .f32) (r : Fin 8) (f : Fin 64) :
    View.write (Elt F) (slotV sIA t h1 h2 h3) prior p Finset.univ (ValueIdx.ix3 (n0 := 16) (n1 := 8) (n2 := 64) ⟨s, hs⟩ r f)
      = if s = t then p (ValueIdx.ix2 (n0 := 8) (n1 := 64) r f)
        else prior (ValueIdx.ix3 (n0 := 16) (n1 := 8) (n2 := 64) ⟨s, hs⟩ r f) := by
  have ht : t < 16 := by have h : t + 1 ≤ 16 := h1 0; omega
  by_cases hst : s = t
  · subst hst
    rw [if_pos rfl]
    have he := slot_emb_IA s hs h1 h2 h3 (ValueIdx.ix2 (n0 := 8) (n1 := 64) r f)
    have hw := View.write_emb_of_mem (v := slotV sIA s h1 h2 h3) (Val := Elt F) prior p
      (Finset.mem_univ (ValueIdx.ix2 (n0 := 8) (n1 := 64) r f))
    rw [he] at hw
    exact hw
  · rw [if_neg hst]
    refine View.write_of_not_mem _ _ _ ?_
    intro hmem
    obtain ⟨x, _, hx⟩ := Finset.mem_map.1 hmem
    rw [slot_emb_IA t ht h1 h2 h3 x] at hx
    have := congrArg (fun i : S16x8x64.Idx => (i 0).val) hx
    exact hst this.symm

/-- All sixteen slots of `sIA` written, slot 0 first and slot 15 last, over any prior contents: position `(s, r, f)`
    holds slot `s`'s payload at `(r, f)`. -/
theorem nest16_apply_IA
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sIA 0 h1_0 h2_0 h3_0).ty.Contents (Elt F)) (p0 p1 p2 p3 p4 p5 p6 p7 p8 p9 p10 p11 p12 p13 p14 p15 : S8x64.Idx → Elt F .f32)
    (s : Fin 16) (r : Fin 8) (f : Fin 64) :
    (View.write (Elt F) (slotV sIA 15 h1_15 h2_15 h3_15) (View.write (Elt F) (slotV sIA 14 h1_14 h2_14 h3_14) (View.write (Elt F) (slotV sIA 13 h1_13 h2_13 h3_13) (View.write (Elt F) (slotV sIA 12 h1_12 h2_12 h3_12) (View.write (Elt F) (slotV sIA 11 h1_11 h2_11 h3_11) (View.write (Elt F) (slotV sIA 10 h1_10 h2_10 h3_10) (View.write (Elt F) (slotV sIA 9 h1_9 h2_9 h3_9) (View.write (Elt F) (slotV sIA 8 h1_8 h2_8 h3_8) (View.write (Elt F) (slotV sIA 7 h1_7 h2_7 h3_7) (View.write (Elt F) (slotV sIA 6 h1_6 h2_6 h3_6) (View.write (Elt F) (slotV sIA 5 h1_5 h2_5 h3_5) (View.write (Elt F) (slotV sIA 4 h1_4 h2_4 h3_4) (View.write (Elt F) (slotV sIA 3 h1_3 h2_3 h3_3) (View.write (Elt F) (slotV sIA 2 h1_2 h2_2 h3_2) (View.write (Elt F) (slotV sIA 1 h1_1 h2_1 h3_1) (View.write (Elt F) (slotV sIA 0 h1_0 h2_0 h3_0) prior p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)
        (ValueIdx.ix3 (n0 := 16) (n1 := 8) (n2 := 64) s r f)
      = (![p0, p1, p2, p3, p4, p5, p6, p7, p8, p9, p10, p11, p12, p13, p14, p15] : Fin 16 → S8x64.Idx → Elt F .f32) s (ValueIdx.ix2 (n0 := 8) (n1 := 64) r f) := by
  obtain ⟨s, hs⟩ := s
  rw [slot_write_apply_IA 15 s hs,
    slot_write_apply_IA 14 s hs,
    slot_write_apply_IA 13 s hs,
    slot_write_apply_IA 12 s hs,
    slot_write_apply_IA 11 s hs,
    slot_write_apply_IA 10 s hs,
    slot_write_apply_IA 9 s hs,
    slot_write_apply_IA 8 s hs,
    slot_write_apply_IA 7 s hs,
    slot_write_apply_IA 6 s hs,
    slot_write_apply_IA 5 s hs,
    slot_write_apply_IA 4 s hs,
    slot_write_apply_IA 3 s hs,
    slot_write_apply_IA 2 s hs,
    slot_write_apply_IA 1 s hs,
    slot_write_apply_IA 0 s hs]
  interval_cases s <;> rfl

/-- The same with the payloads given as one function of the slot. -/
theorem nest16_apply_fn_IA
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sIA 0 h1_0 h2_0 h3_0).ty.Contents (Elt F)) (P : Fin 16 → S8x64.Idx → Elt F .f32)
    (s : Fin 16) (r : Fin 8) (f : Fin 64) :
    (View.write (Elt F) (slotV sIA 15 h1_15 h2_15 h3_15) (View.write (Elt F) (slotV sIA 14 h1_14 h2_14 h3_14) (View.write (Elt F) (slotV sIA 13 h1_13 h2_13 h3_13) (View.write (Elt F) (slotV sIA 12 h1_12 h2_12 h3_12) (View.write (Elt F) (slotV sIA 11 h1_11 h2_11 h3_11) (View.write (Elt F) (slotV sIA 10 h1_10 h2_10 h3_10) (View.write (Elt F) (slotV sIA 9 h1_9 h2_9 h3_9) (View.write (Elt F) (slotV sIA 8 h1_8 h2_8 h3_8) (View.write (Elt F) (slotV sIA 7 h1_7 h2_7 h3_7) (View.write (Elt F) (slotV sIA 6 h1_6 h2_6 h3_6) (View.write (Elt F) (slotV sIA 5 h1_5 h2_5 h3_5) (View.write (Elt F) (slotV sIA 4 h1_4 h2_4 h3_4) (View.write (Elt F) (slotV sIA 3 h1_3 h2_3 h3_3) (View.write (Elt F) (slotV sIA 2 h1_2 h2_2 h3_2) (View.write (Elt F) (slotV sIA 1 h1_1 h2_1 h3_1) (View.write (Elt F) (slotV sIA 0 h1_0 h2_0 h3_0) prior (P 0) Finset.univ) (P 1) Finset.univ) (P 2) Finset.univ) (P 3) Finset.univ) (P 4) Finset.univ) (P 5) Finset.univ) (P 6) Finset.univ) (P 7) Finset.univ) (P 8) Finset.univ) (P 9) Finset.univ) (P 10) Finset.univ) (P 11) Finset.univ) (P 12) Finset.univ) (P 13) Finset.univ) (P 14) Finset.univ) (P 15) Finset.univ)
        (ValueIdx.ix3 (n0 := 16) (n1 := 8) (n2 := 64) s r f)
      = P s (ValueIdx.ix2 (n0 := 8) (n1 := 64) r f) := by
  rw [nest16_apply_IA]
  fin_cases s <;> rfl

/-! ## Buffer `sUB` -/

/-- Where slot `t` of `sUB` sits: its `(r, f)` is the buffer's `(t, r, f)`. -/
theorem slot_emb_UB (t : ℕ) (ht : t < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64) (x : S8x64.Idx) :
    (slotV sUB t h1 h2 h3).emb x = ValueIdx.ix3 (n0 := 16) (n1 := 8) (n2 := 64) ⟨t, ht⟩ (x 0) (x 1) := by
  have hr : Shape.reshapeEquiv h3.numel_eq x = ValueIdx.ix3 (n0 := 1) (n1 := 8) (n2 := 64) ⟨0, Nat.one_pos⟩ (x 0) (x 1) :=
    Shape.reshapeEquiv_eq_of_rowMajor _ (by
      rw [Shape.rowMajor_val_two, Shape.rowMajor_val_three]
      show ((0 * 8 + (x 0).val) * 64 + (x 1).val) = (x 0).val * 64 + (x 1).val
      omega)
  show (Rect.unit (s := S16x8x64) ![t, 0, 0] S1x8x64.size h1).emb (Shape.reshapeEquiv h3.numel_eq x) = _
  rw [hr]
  funext a
  apply Fin.ext
  rw [Rect.emb_apply]
  match a with
  | ⟨0, _⟩ => show t + 1 * 0 = t; omega
  | ⟨1, _⟩ => show 0 + 1 * (x 0).val = (x 0).val; omega
  | ⟨2, _⟩ => show 0 + 1 * (x 1).val = (x 1).val; omega

/-- One slot of `sUB` written over prior contents, read at `(s, r, f)`: the payload in slot `t`, the prior contents
    elsewhere. -/
theorem slot_write_apply_UB (t s : ℕ) (hs : s < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64)
    (prior : (slotV sUB t h1 h2 h3).ty.Contents (Elt F)) (p : S8x64.Idx → Elt F .f32) (r : Fin 8) (f : Fin 64) :
    View.write (Elt F) (slotV sUB t h1 h2 h3) prior p Finset.univ (ValueIdx.ix3 (n0 := 16) (n1 := 8) (n2 := 64) ⟨s, hs⟩ r f)
      = if s = t then p (ValueIdx.ix2 (n0 := 8) (n1 := 64) r f)
        else prior (ValueIdx.ix3 (n0 := 16) (n1 := 8) (n2 := 64) ⟨s, hs⟩ r f) := by
  have ht : t < 16 := by have h : t + 1 ≤ 16 := h1 0; omega
  by_cases hst : s = t
  · subst hst
    rw [if_pos rfl]
    have he := slot_emb_UB s hs h1 h2 h3 (ValueIdx.ix2 (n0 := 8) (n1 := 64) r f)
    have hw := View.write_emb_of_mem (v := slotV sUB s h1 h2 h3) (Val := Elt F) prior p
      (Finset.mem_univ (ValueIdx.ix2 (n0 := 8) (n1 := 64) r f))
    rw [he] at hw
    exact hw
  · rw [if_neg hst]
    refine View.write_of_not_mem _ _ _ ?_
    intro hmem
    obtain ⟨x, _, hx⟩ := Finset.mem_map.1 hmem
    rw [slot_emb_UB t ht h1 h2 h3 x] at hx
    have := congrArg (fun i : S16x8x64.Idx => (i 0).val) hx
    exact hst this.symm

/-- All sixteen slots of `sUB` written, slot 0 first and slot 15 last, over any prior contents: position `(s, r, f)`
    holds slot `s`'s payload at `(r, f)`. -/
theorem nest16_apply_UB
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sUB 0 h1_0 h2_0 h3_0).ty.Contents (Elt F)) (p0 p1 p2 p3 p4 p5 p6 p7 p8 p9 p10 p11 p12 p13 p14 p15 : S8x64.Idx → Elt F .f32)
    (s : Fin 16) (r : Fin 8) (f : Fin 64) :
    (View.write (Elt F) (slotV sUB 15 h1_15 h2_15 h3_15) (View.write (Elt F) (slotV sUB 14 h1_14 h2_14 h3_14) (View.write (Elt F) (slotV sUB 13 h1_13 h2_13 h3_13) (View.write (Elt F) (slotV sUB 12 h1_12 h2_12 h3_12) (View.write (Elt F) (slotV sUB 11 h1_11 h2_11 h3_11) (View.write (Elt F) (slotV sUB 10 h1_10 h2_10 h3_10) (View.write (Elt F) (slotV sUB 9 h1_9 h2_9 h3_9) (View.write (Elt F) (slotV sUB 8 h1_8 h2_8 h3_8) (View.write (Elt F) (slotV sUB 7 h1_7 h2_7 h3_7) (View.write (Elt F) (slotV sUB 6 h1_6 h2_6 h3_6) (View.write (Elt F) (slotV sUB 5 h1_5 h2_5 h3_5) (View.write (Elt F) (slotV sUB 4 h1_4 h2_4 h3_4) (View.write (Elt F) (slotV sUB 3 h1_3 h2_3 h3_3) (View.write (Elt F) (slotV sUB 2 h1_2 h2_2 h3_2) (View.write (Elt F) (slotV sUB 1 h1_1 h2_1 h3_1) (View.write (Elt F) (slotV sUB 0 h1_0 h2_0 h3_0) prior p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)
        (ValueIdx.ix3 (n0 := 16) (n1 := 8) (n2 := 64) s r f)
      = (![p0, p1, p2, p3, p4, p5, p6, p7, p8, p9, p10, p11, p12, p13, p14, p15] : Fin 16 → S8x64.Idx → Elt F .f32) s (ValueIdx.ix2 (n0 := 8) (n1 := 64) r f) := by
  obtain ⟨s, hs⟩ := s
  rw [slot_write_apply_UB 15 s hs,
    slot_write_apply_UB 14 s hs,
    slot_write_apply_UB 13 s hs,
    slot_write_apply_UB 12 s hs,
    slot_write_apply_UB 11 s hs,
    slot_write_apply_UB 10 s hs,
    slot_write_apply_UB 9 s hs,
    slot_write_apply_UB 8 s hs,
    slot_write_apply_UB 7 s hs,
    slot_write_apply_UB 6 s hs,
    slot_write_apply_UB 5 s hs,
    slot_write_apply_UB 4 s hs,
    slot_write_apply_UB 3 s hs,
    slot_write_apply_UB 2 s hs,
    slot_write_apply_UB 1 s hs,
    slot_write_apply_UB 0 s hs]
  interval_cases s <;> rfl

/-- The same with the payloads given as one function of the slot. -/
theorem nest16_apply_fn_UB
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sUB 0 h1_0 h2_0 h3_0).ty.Contents (Elt F)) (P : Fin 16 → S8x64.Idx → Elt F .f32)
    (s : Fin 16) (r : Fin 8) (f : Fin 64) :
    (View.write (Elt F) (slotV sUB 15 h1_15 h2_15 h3_15) (View.write (Elt F) (slotV sUB 14 h1_14 h2_14 h3_14) (View.write (Elt F) (slotV sUB 13 h1_13 h2_13 h3_13) (View.write (Elt F) (slotV sUB 12 h1_12 h2_12 h3_12) (View.write (Elt F) (slotV sUB 11 h1_11 h2_11 h3_11) (View.write (Elt F) (slotV sUB 10 h1_10 h2_10 h3_10) (View.write (Elt F) (slotV sUB 9 h1_9 h2_9 h3_9) (View.write (Elt F) (slotV sUB 8 h1_8 h2_8 h3_8) (View.write (Elt F) (slotV sUB 7 h1_7 h2_7 h3_7) (View.write (Elt F) (slotV sUB 6 h1_6 h2_6 h3_6) (View.write (Elt F) (slotV sUB 5 h1_5 h2_5 h3_5) (View.write (Elt F) (slotV sUB 4 h1_4 h2_4 h3_4) (View.write (Elt F) (slotV sUB 3 h1_3 h2_3 h3_3) (View.write (Elt F) (slotV sUB 2 h1_2 h2_2 h3_2) (View.write (Elt F) (slotV sUB 1 h1_1 h2_1 h3_1) (View.write (Elt F) (slotV sUB 0 h1_0 h2_0 h3_0) prior (P 0) Finset.univ) (P 1) Finset.univ) (P 2) Finset.univ) (P 3) Finset.univ) (P 4) Finset.univ) (P 5) Finset.univ) (P 6) Finset.univ) (P 7) Finset.univ) (P 8) Finset.univ) (P 9) Finset.univ) (P 10) Finset.univ) (P 11) Finset.univ) (P 12) Finset.univ) (P 13) Finset.univ) (P 14) Finset.univ) (P 15) Finset.univ)
        (ValueIdx.ix3 (n0 := 16) (n1 := 8) (n2 := 64) s r f)
      = P s (ValueIdx.ix2 (n0 := 8) (n1 := 64) r f) := by
  rw [nest16_apply_UB]
  fin_cases s <;> rfl

/-! ## Buffer `sIB` -/

/-- Where slot `t` of `sIB` sits: its `(r, f)` is the buffer's `(t, r, f)`. -/
theorem slot_emb_IB (t : ℕ) (ht : t < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64) (x : S8x64.Idx) :
    (slotV sIB t h1 h2 h3).emb x = ValueIdx.ix3 (n0 := 16) (n1 := 8) (n2 := 64) ⟨t, ht⟩ (x 0) (x 1) := by
  have hr : Shape.reshapeEquiv h3.numel_eq x = ValueIdx.ix3 (n0 := 1) (n1 := 8) (n2 := 64) ⟨0, Nat.one_pos⟩ (x 0) (x 1) :=
    Shape.reshapeEquiv_eq_of_rowMajor _ (by
      rw [Shape.rowMajor_val_two, Shape.rowMajor_val_three]
      show ((0 * 8 + (x 0).val) * 64 + (x 1).val) = (x 0).val * 64 + (x 1).val
      omega)
  show (Rect.unit (s := S16x8x64) ![t, 0, 0] S1x8x64.size h1).emb (Shape.reshapeEquiv h3.numel_eq x) = _
  rw [hr]
  funext a
  apply Fin.ext
  rw [Rect.emb_apply]
  match a with
  | ⟨0, _⟩ => show t + 1 * 0 = t; omega
  | ⟨1, _⟩ => show 0 + 1 * (x 0).val = (x 0).val; omega
  | ⟨2, _⟩ => show 0 + 1 * (x 1).val = (x 1).val; omega

/-- One slot of `sIB` written over prior contents, read at `(s, r, f)`: the payload in slot `t`, the prior contents
    elsewhere. -/
theorem slot_write_apply_IB (t s : ℕ) (hs : s < 16)
    (h1 : ∀ a, (![t, 0, 0] : Fin 3 → ℕ) a + S1x8x64.size a ≤ S16x8x64.size a)
    (h2 : ∀ a, (Rect.unit (s := S16x8x64) ![t, 0, 0] S1x8x64.size h1).stride a = 1)
    (h3 : S1x8x64.Squeezes S8x64)
    (prior : (slotV sIB t h1 h2 h3).ty.Contents (Elt F)) (p : S8x64.Idx → Elt F .f32) (r : Fin 8) (f : Fin 64) :
    View.write (Elt F) (slotV sIB t h1 h2 h3) prior p Finset.univ (ValueIdx.ix3 (n0 := 16) (n1 := 8) (n2 := 64) ⟨s, hs⟩ r f)
      = if s = t then p (ValueIdx.ix2 (n0 := 8) (n1 := 64) r f)
        else prior (ValueIdx.ix3 (n0 := 16) (n1 := 8) (n2 := 64) ⟨s, hs⟩ r f) := by
  have ht : t < 16 := by have h : t + 1 ≤ 16 := h1 0; omega
  by_cases hst : s = t
  · subst hst
    rw [if_pos rfl]
    have he := slot_emb_IB s hs h1 h2 h3 (ValueIdx.ix2 (n0 := 8) (n1 := 64) r f)
    have hw := View.write_emb_of_mem (v := slotV sIB s h1 h2 h3) (Val := Elt F) prior p
      (Finset.mem_univ (ValueIdx.ix2 (n0 := 8) (n1 := 64) r f))
    rw [he] at hw
    exact hw
  · rw [if_neg hst]
    refine View.write_of_not_mem _ _ _ ?_
    intro hmem
    obtain ⟨x, _, hx⟩ := Finset.mem_map.1 hmem
    rw [slot_emb_IB t ht h1 h2 h3 x] at hx
    have := congrArg (fun i : S16x8x64.Idx => (i 0).val) hx
    exact hst this.symm

/-- All sixteen slots of `sIB` written, slot 0 first and slot 15 last, over any prior contents: position `(s, r, f)`
    holds slot `s`'s payload at `(r, f)`. -/
theorem nest16_apply_IB
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sIB 0 h1_0 h2_0 h3_0).ty.Contents (Elt F)) (p0 p1 p2 p3 p4 p5 p6 p7 p8 p9 p10 p11 p12 p13 p14 p15 : S8x64.Idx → Elt F .f32)
    (s : Fin 16) (r : Fin 8) (f : Fin 64) :
    (View.write (Elt F) (slotV sIB 15 h1_15 h2_15 h3_15) (View.write (Elt F) (slotV sIB 14 h1_14 h2_14 h3_14) (View.write (Elt F) (slotV sIB 13 h1_13 h2_13 h3_13) (View.write (Elt F) (slotV sIB 12 h1_12 h2_12 h3_12) (View.write (Elt F) (slotV sIB 11 h1_11 h2_11 h3_11) (View.write (Elt F) (slotV sIB 10 h1_10 h2_10 h3_10) (View.write (Elt F) (slotV sIB 9 h1_9 h2_9 h3_9) (View.write (Elt F) (slotV sIB 8 h1_8 h2_8 h3_8) (View.write (Elt F) (slotV sIB 7 h1_7 h2_7 h3_7) (View.write (Elt F) (slotV sIB 6 h1_6 h2_6 h3_6) (View.write (Elt F) (slotV sIB 5 h1_5 h2_5 h3_5) (View.write (Elt F) (slotV sIB 4 h1_4 h2_4 h3_4) (View.write (Elt F) (slotV sIB 3 h1_3 h2_3 h3_3) (View.write (Elt F) (slotV sIB 2 h1_2 h2_2 h3_2) (View.write (Elt F) (slotV sIB 1 h1_1 h2_1 h3_1) (View.write (Elt F) (slotV sIB 0 h1_0 h2_0 h3_0) prior p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)
        (ValueIdx.ix3 (n0 := 16) (n1 := 8) (n2 := 64) s r f)
      = (![p0, p1, p2, p3, p4, p5, p6, p7, p8, p9, p10, p11, p12, p13, p14, p15] : Fin 16 → S8x64.Idx → Elt F .f32) s (ValueIdx.ix2 (n0 := 8) (n1 := 64) r f) := by
  obtain ⟨s, hs⟩ := s
  rw [slot_write_apply_IB 15 s hs,
    slot_write_apply_IB 14 s hs,
    slot_write_apply_IB 13 s hs,
    slot_write_apply_IB 12 s hs,
    slot_write_apply_IB 11 s hs,
    slot_write_apply_IB 10 s hs,
    slot_write_apply_IB 9 s hs,
    slot_write_apply_IB 8 s hs,
    slot_write_apply_IB 7 s hs,
    slot_write_apply_IB 6 s hs,
    slot_write_apply_IB 5 s hs,
    slot_write_apply_IB 4 s hs,
    slot_write_apply_IB 3 s hs,
    slot_write_apply_IB 2 s hs,
    slot_write_apply_IB 1 s hs,
    slot_write_apply_IB 0 s hs]
  interval_cases s <;> rfl

/-- The same with the payloads given as one function of the slot. -/
theorem nest16_apply_fn_IB
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (prior : (slotV sIB 0 h1_0 h2_0 h3_0).ty.Contents (Elt F)) (P : Fin 16 → S8x64.Idx → Elt F .f32)
    (s : Fin 16) (r : Fin 8) (f : Fin 64) :
    (View.write (Elt F) (slotV sIB 15 h1_15 h2_15 h3_15) (View.write (Elt F) (slotV sIB 14 h1_14 h2_14 h3_14) (View.write (Elt F) (slotV sIB 13 h1_13 h2_13 h3_13) (View.write (Elt F) (slotV sIB 12 h1_12 h2_12 h3_12) (View.write (Elt F) (slotV sIB 11 h1_11 h2_11 h3_11) (View.write (Elt F) (slotV sIB 10 h1_10 h2_10 h3_10) (View.write (Elt F) (slotV sIB 9 h1_9 h2_9 h3_9) (View.write (Elt F) (slotV sIB 8 h1_8 h2_8 h3_8) (View.write (Elt F) (slotV sIB 7 h1_7 h2_7 h3_7) (View.write (Elt F) (slotV sIB 6 h1_6 h2_6 h3_6) (View.write (Elt F) (slotV sIB 5 h1_5 h2_5 h3_5) (View.write (Elt F) (slotV sIB 4 h1_4 h2_4 h3_4) (View.write (Elt F) (slotV sIB 3 h1_3 h2_3 h3_3) (View.write (Elt F) (slotV sIB 2 h1_2 h2_2 h3_2) (View.write (Elt F) (slotV sIB 1 h1_1 h2_1 h3_1) (View.write (Elt F) (slotV sIB 0 h1_0 h2_0 h3_0) prior (P 0) Finset.univ) (P 1) Finset.univ) (P 2) Finset.univ) (P 3) Finset.univ) (P 4) Finset.univ) (P 5) Finset.univ) (P 6) Finset.univ) (P 7) Finset.univ) (P 8) Finset.univ) (P 9) Finset.univ) (P 10) Finset.univ) (P 11) Finset.univ) (P 12) Finset.univ) (P 13) Finset.univ) (P 14) Finset.univ) (P 15) Finset.univ)
        (ValueIdx.ix3 (n0 := 16) (n1 := 8) (n2 := 64) s r f)
      = P s (ValueIdx.ix2 (n0 := 8) (n1 := 64) r f) := by
  rw [nest16_apply_IB]
  fin_cases s <;> rfl

end Cert.Proof.Kernel

end
-- ==== Proof.K.Rows.lean ====
/-
  The blocked tables, one block at a time, and the words and indices that address them.

  A table row `v` lies in block `v >>> 3` of the blocked table `[125000, 8, 64]`, at row `v &&& 7` of that block.  The
  program copies one whole block `[8, 64]` per index: `rowV base b` is that block as a memref (the unit slice at
  `(b, 0, 0)` with its leading unit axis dropped), and what a copy of it lands reads, at `(r, f)`, the table at
  `(b, r, f)`.  The gather out of the staged blocks reads, at lane `l`, the element its three index vectors name there.
-/
import proofs.«203884_g41704132444582_cont_8to1_b_1290_16_alg».proof.Proof.K.Setup
import Idealize.ShloMosaic.Lib.ValueIdx
import Idealize.ShloMosaic.Lib.ValueLayout

noncomputable section

namespace Cert.Proof.Kernel

open Cert.Kernel Cert.Kernel.Gen

open Idealize.ShloMosaic
open Idealize.ShloMosaic.SparseCore (S V T)

variable {F : FTy → Type}

/-! ## One block of a blocked table -/

/-- Block `b` of a blocked table, as the program slices and squeezes it: an `[8, 64]` memref. -/
abbrev rowV (base : Memref sig .scVector .hbm S125000x8x64 .f32) (b : ℕ)
    (h1 : ∀ a, (![b, 0, 0] : Fin 3 → ℕ) a + S1x8x64.size a ≤ S125000x8x64.size a)
    (h2 : ∀ a, (Rect.unit (s := S125000x8x64) ![b, 0, 0] S1x8x64.size h1).stride a = 1) :
    Memref sig .scVector .hbm S8x64 .f32 :=
  ((base.slice (Rect.unit (s := S125000x8x64) ![b, 0, 0] S1x8x64.size h1) h2).squeeze S8x64 squeezes_S1x8x64_S8x64)

/-- Where element `(r, f)` of block `b` sits in the table: at `(b, r, f)`. -/
theorem rowV_emb (base : Memref sig .scVector .hbm S125000x8x64 .f32) (b : ℕ) (hb : b < 125000)
    (h1 : ∀ a, (![b, 0, 0] : Fin 3 → ℕ) a + S1x8x64.size a ≤ S125000x8x64.size a)
    (h2 : ∀ a, (Rect.unit (s := S125000x8x64) ![b, 0, 0] S1x8x64.size h1).stride a = 1) (r : Fin 8) (f : Fin 64) :
    (rowV base b h1 h2).view.emb (ValueIdx.ix2 (n0 := 8) (n1 := 64) r f)
      = base.view.emb (ValueIdx.ix3 (n0 := 125000) (n1 := 8) (n2 := 64) ⟨b, hb⟩ r f) := by
  have e : Shape.reshapeEquiv (s := S1x8x64) (s' := S8x64) squeezes_S1x8x64_S8x64.numel_eq (ValueIdx.ix2 (n0 := 8) (n1 := 64) r f)
      = ValueIdx.ix3 (n0 := 1) (n1 := 8) (n2 := 64) ⟨0, Nat.one_pos⟩ r f := ValueIdx.reshapeEquiv_ix2_1ab _ r f
  show base.view.emb ((Rect.unit (s := S125000x8x64) ![b, 0, 0] S1x8x64.size h1).emb
      (Shape.reshapeEquiv (s := S1x8x64) (s' := S8x64) squeezes_S1x8x64_S8x64.numel_eq (ValueIdx.ix2 (n0 := 8) (n1 := 64) r f))) = _
  rw [e]
  refine congrArg base.view.emb ?_
  funext a
  match a with
  | ⟨0, _⟩ => exact Fin.ext (show b + 1 * 0 = b by omega)
  | ⟨1, _⟩ => exact Fin.ext (show 0 + 1 * r.val = r.val by omega)
  | ⟨2, _⟩ => exact Fin.ext (show 0 + 1 * f.val = f.val by omega)

/-- WHAT A COPY OF BLOCK `b` OF THE FIRST TABLE LANDS, AT `(r, f)`: the table's contents at `(b, r, f)`. -/
theorem row_read_apply (d : Dev nD) (b : ℕ) (hb : b < 125000)
    (h1 : ∀ a, (![b, 0, 0] : Fin 3 → ℕ) a + S1x8x64.size a ≤ S125000x8x64.size a)
    (h2 : ∀ a, (Rect.unit (s := S125000x8x64) ![b, 0, 0] S1x8x64.size h1).stride a = 1)
    (Wc : Buf (Elt F) (uwLoc d)) (r : Fin 8) (f : Fin 64) :
    (ReadAs.same.apply ((rowV uwV b h1 h2).view.read (Elt F) Wc)) (ValueIdx.ix2 (n0 := 8) (n1 := 64) r f)
      = Wc (ValueIdx.ix3 (n0 := 125000) (n1 := 8) (n2 := 64) ⟨b, hb⟩ r f) := by
  refine (View.read_apply _ _).trans ((cast_eq _ _).trans ?_)
  rw [rowV_emb uwV b hb h1 h2 r f]
  rfl

/-- The same for the second table. -/
theorem row_read_apply' (d : Dev nD) (b : ℕ) (hb : b < 125000)
    (h1 : ∀ a, (![b, 0, 0] : Fin 3 → ℕ) a + S1x8x64.size a ≤ S125000x8x64.size a)
    (h2 : ∀ a, (Rect.unit (s := S125000x8x64) ![b, 0, 0] S1x8x64.size h1).stride a = 1)
    (Wc : Buf (Elt F) (iwLoc d)) (r : Fin 8) (f : Fin 64) :
    (ReadAs.same.apply ((rowV iwV b h1 h2).view.read (Elt F) Wc)) (ValueIdx.ix2 (n0 := 8) (n1 := 64) r f)
      = Wc (ValueIdx.ix3 (n0 := 125000) (n1 := 8) (n2 := 64) ⟨b, hb⟩ r f) := by
  refine (View.read_apply _ _).trans ((cast_eq _ _).trans ?_)
  rw [rowV_emb iwV b hb h1 h2 r f]
  rfl

/-! ## Words: a row number's block and its row in the block -/

/-- The block number is the row number divided by 8 … -/
theorem shr3_toNat (v : BitVec 32) : (v >>> 3).toNat = v.toNat / 8 := by
  rw [BitVec.toNat_ushiftRight, Nat.shiftRight_eq_div_pow]

/-- … and the row in the block its remainder. -/
theorem and7_toNat (v : BitVec 32) : (v &&& 7#32).toNat = v.toNat % 8 := by
  rw [BitVec.toNat_and]
  exact Nat.and_two_pow_sub_one_eq_mod v.toNat 3

/-- A row number's block is one of the 125000. -/
theorem shr3_lt {v : BitVec 32} (h : v.toNat < 1000000) : (v >>> 3).toNat < 125000 := by
  rw [shr3_toNat]; omega

theorem shr3_mod {v : BitVec 32} (h : v.toNat < 1000000) : (v >>> 3).toNat % 125000 = (v >>> 3).toNat :=
  Nat.mod_eq_of_lt (shr3_lt h)

/-- A row in a block is one of the 8 (for every word). -/
theorem and7_lt (v : BitVec 32) : (v &&& 7#32).toNat < 8 := by
  rw [and7_toNat]; omega

theorem and7_mod (v : BitVec 32) : (v &&& 7#32).toNat % 8 = (v &&& 7#32).toNat :=
  Nat.mod_eq_of_lt (and7_lt v)

/-- The vector unit's logical shift right by 3 is the word's. -/
theorem shrui_3 (v : BitVec 32) : IntOp.shrui .vector v 3#32 = v >>> 3 := by
  unfold IntOp.shrui
  rw [if_pos (by decide), BitVec.ushiftRight_eq']
  rfl

/-- The bitwise and with 7 is the word's. -/
theorem andi_7 (v : BitVec 32) : IntOp.andi v 7#32 = v &&& 7#32 := rfl

/-! ## The gather out of the staged blocks -/

/-- THE GATHER READ AT LANE `l`: the staged contents at the index the three index vectors name there. -/
theorem loadIdx_apply (Cc : S16x8x64.Idx → Elt F .f32) (g r fv : IVec S16 32)
    (h : ∀ a x, ((![g, r, fv] : Fin 3 → IVec S16 32) a x).toNat < S16x8x64.size a) (l : S16.Idx) :
    loadIdx (F := F) (e := .f32) Cc ![g, r, fv] h l
      = Cc (ValueIdx.ix3 (n0 := 16) (n1 := 8) (n2 := 64) ⟨(g l).toNat, h 0 l⟩ ⟨(r l).toNat, h 1 l⟩ ⟨(fv l).toNat, h 2 l⟩) := by
  unfold loadIdx
  congr 1
  funext a
  match a with
  | ⟨0, _⟩ => rfl
  | ⟨1, _⟩ => rfl
  | ⟨2, _⟩ => rfl

/-- The lane numbers: the iota over the one axis, plus the zero splat, is lane `l`'s own number. -/
theorem laneIdx_toNat (hio : S16.Iotas .scVector 32 [0]) (l : S16.Idx) :
    ((addi (iota .scVector S16 32 [0] hio) (broadcast S16 0#32) : IVec S16 32) l).toNat = (l 0).val := by
  have hl : (l 0).val < 16 := (l 0).isLt
  show (BitVec.ofNat 32 (0 * 16 + (l 0).val) + 0#32).toNat = (l 0).val
  rw [BitVec.add_zero, BitVec.toNat_ofNat]
  omega

end Cert.Proof.Kernel

end
-- ==== Proof.K.BodyDefs.lean ====
import proofs.«203884_g41704132444582_cont_8to1_b_1290_16_alg».proof.Proof.K.OutPiece
import proofs.«203884_g41704132444582_cont_8to1_b_1290_16_alg».proof.Proof.K.Slots
import proofs.«203884_g41704132444582_cont_8to1_b_1290_16_alg».proof.Proof.K.Rows

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

section Pts
variable (d : Dev nD) (L : grid0.Coords)
omit [FloatOps F] in
theorem pts_u (q : PosShare TreeShare) (f : Buf (Elt F) (uLoc d)) :
    (((uV : Memref sig .scVector .hbm S16384 .i32).view.loc (thrV d L) ↦{q} f : sProp 𝕄)) = (uLoc d ↦{q} f) := by
  simp only [Memref.view_whole, View.set_whole]
omit [FloatOps F] in
theorem pts_i (q : PosShare TreeShare) (f : Buf (Elt F) (iLoc d)) :
    (((iV : Memref sig .scVector .hbm S16384 .i32).view.loc (thrV d L) ↦{q} f : sProp 𝕄)) = (iLoc d ↦{q} f) := by
  simp only [Memref.view_whole, View.set_whole]
omit [FloatOps F] in
theorem pts_uw (q : PosShare TreeShare) (f : Buf (Elt F) (uwLoc d)) :
    (((uwV : Memref sig .scVector .hbm S125000x8x64 .f32).view.loc (thrV d L) ↦{q} f : sProp 𝕄)) = (uwLoc d ↦{q} f) := by
  simp only [Memref.view_whole, View.set_whole]
omit [FloatOps F] in
theorem pts_iw (q : PosShare TreeShare) (f : Buf (Elt F) (iwLoc d)) :
    (((iwV : Memref sig .scVector .hbm S125000x8x64 .f32).view.loc (thrV d L) ↦{q} f : sProp 𝕄)) = (iwLoc d ↦{q} f) := by
  simp only [Memref.view_whole, View.set_whole]
omit [FloatOps F] in
theorem pts_s0 (f : Buf (Elt F) ((thrV d L).loc cc0_scratch0)) :
    (((sU : Memref sig .scVector .vmem S512 .i32).view.loc (thrV d L) ↦{fullShare} f : sProp 𝕄)) = ((thrV d L).loc cc0_scratch0 ↦{fullShare} f) := rfl
omit [FloatOps F] in
theorem pts_s1 (f : Buf (Elt F) ((thrV d L).loc cc0_scratch1)) :
    (((sI : Memref sig .scVector .vmem S512 .i32).view.loc (thrV d L) ↦{fullShare} f : sProp 𝕄)) = ((thrV d L).loc cc0_scratch1 ↦{fullShare} f) := rfl
omit [FloatOps F] in
theorem pts_s2 (f : Buf (Elt F) ((thrV d L).loc cc0_scratch2)) :
    (((sUA : Memref sig .scVector .vmem S16x8x64 .f32).view.loc (thrV d L) ↦{fullShare} f : sProp 𝕄)) = ((thrV d L).loc cc0_scratch2 ↦{fullShare} f) := rfl
omit [FloatOps F] in
theorem pts_s3 (f : Buf (Elt F) ((thrV d L).loc cc0_scratch3)) :
    (((sIA : Memref sig .scVector .vmem S16x8x64 .f32).view.loc (thrV d L) ↦{fullShare} f : sProp 𝕄)) = ((thrV d L).loc cc0_scratch3 ↦{fullShare} f) := rfl
omit [FloatOps F] in
theorem pts_s4 (f : Buf (Elt F) ((thrV d L).loc cc0_scratch4)) :
    (((sUB : Memref sig .scVector .vmem S16x8x64 .f32).view.loc (thrV d L) ↦{fullShare} f : sProp 𝕄)) = ((thrV d L).loc cc0_scratch4 ↦{fullShare} f) := rfl
omit [FloatOps F] in
theorem pts_s5 (f : Buf (Elt F) ((thrV d L).loc cc0_scratch5)) :
    (((sIB : Memref sig .scVector .vmem S16x8x64 .f32).view.loc (thrV d L) ↦{fullShare} f : sProp 𝕄)) = ((thrV d L).loc cc0_scratch5 ↦{fullShare} f) := rfl
omit [FloatOps F] in
theorem pts_s6 (f : Buf (Elt F) ((thrV d L).loc cc0_scratch6)) :
    (((sO : Memref sig .scVector .vmem S512 .f32).view.loc (thrV d L) ↦{fullShare} f : sProp 𝕄)) = ((thrV d L).loc cc0_scratch6 ↦{fullShare} f) := rfl
omit [FloatOps F] in
theorem pts_o (f : Buf (Elt F) (oLoc d)) :
    (((oSlice L).view.loc (thrV d L) ↦[(oSlice L).view.set]{fullShare} f : sProp 𝕄)) = (oLoc d ↦[tileSet L]{fullShare} f) := rfl
end Pts

/-! ## Words: the block and row of a table row, and the gather's indices -/

omit [FloatOps F] in
/-- A block number below 125000 names a whole `[1, 8, 64]` block of the blocked table. -/
theorem blk_lane (w : IVec S16 32) (o : ℕ) (hs : S16.Slices ![o] S1) (hp : ∀ a, (![0] : Fin 1 → ℕ) a < S1.size a)
    (hw : ∀ j, (w j).toNat < 125000) :
    ∀ a, (![(extractAt ![0] (extractStridedSlice S1 ![o] w hs) hp).toNat, 0, 0] : Fin 3 → ℕ) a + S1x8x64.size a ≤ S125000x8x64.size a := by
  have h : (extractAt ![0] (extractStridedSlice S1 ![o] w hs) hp).toNat < 125000 := hw _
  intro a
  match a with
  | ⟨0, _⟩ => exact (show (extractAt ![0] (extractStridedSlice S1 ![o] w hs) hp).toNat + 1 ≤ 125000 from by omega)
  | ⟨1, _⟩ => exact (show 0 + 8 ≤ 8 from by decide)
  | ⟨2, _⟩ => exact (show 0 + 64 ≤ 64 from by decide)

omit [FloatOps F] in
/-- A row number below 1000000 shifted right by three is a block number below 125000. -/
theorem shr3v_lt (x : IVec S16 32) (hx : ∀ j, (x j).toNat < 1000000) : ∀ j, ((shrui x (broadcast S16 3#32)) j).toNat < 125000 := by
  intro j
  have h := hx j
  show (IntOp.shrui .vector (x j) 3#32).toNat < 125000
  unfold IntOp.shrui
  rw [if_pos (by decide)]
  rw [BitVec.ushiftRight_eq', BitVec.toNat_ushiftRight]
  simp only [BitVec.toNat_ofNat, Nat.shiftRight_eq_div_pow]
  have e8 : (2 : ℕ) ^ (3 % 2 ^ 32) = 8 := by norm_num
  rw [e8]
  omega

omit [FloatOps F] in
/-- The same for a block number given as a word. -/
theorem blk_any (v : BitVec 32) (h : v.toNat < 125000) :
    ∀ a, (![v.toNat, 0, 0] : Fin 3 → ℕ) a + S1x8x64.size a ≤ S125000x8x64.size a := by
  intro a
  match a with
  | ⟨0, _⟩ => exact (show v.toNat + 1 ≤ 125000 from by omega)
  | ⟨1, _⟩ => exact (show 0 + 8 ≤ 8 from by decide)
  | ⟨2, _⟩ => exact (show 0 + 64 ≤ 64 from by decide)

/-! ## Read shares: one per transfer in flight -/

/-- The `k`-th read share split off `q`. -/
def rs (q : PosShare TreeShare) (k : ℕ) : PosShare TreeShare := Transfers.shareTokN q k

omit [FloatOps F] in
theorem bigSep_range_succ (Φ : ℕ → sProp 𝕄) (n : ℕ) :
    BI.bigSep (Finset.range (n + 1)) Φ = iprop(Φ n ∗ BI.bigSep (Finset.range n) Φ) := by
  rw [Finset.range_add_one, BI.bigSep_insert Finset.notMem_range_self]; rfl

omit [FloatOps F] in
/-- A points-to at share `q` yields `n` points-tos at the read shares `rs q 0 … rs q (n-1)` (what is left over is dropped). -/
theorem split_toks {ℓ : Loc nD τ sig} {S : Finset (Idx ℓ)} {f : Buf (Elt F) ℓ} (q : PosShare TreeShare) (n : ℕ) :
    (ℓ ↦[S]{q} f : sProp 𝕄) ⊢ BI.bigSep (Finset.range n) (fun k => ℓ ↦[S]{rs q k} f) :=
  (Transfers.pointsTo_toks_range q n).1.trans sep_elim_right

omit [FloatOps F] in
/-- Thirty-two read shares of one points-to. -/
theorem split32 {ℓ : Loc nD τ sig} {S : Finset (Idx ℓ)} {f : Buf (Elt F) ℓ} (q : PosShare TreeShare) :
    (ℓ ↦[S]{q} f : sProp 𝕄) ⊢ iprop((ℓ ↦[S]{rs q 31} f) ∗ (ℓ ↦[S]{rs q 30} f) ∗ (ℓ ↦[S]{rs q 29} f) ∗ (ℓ ↦[S]{rs q 28} f) ∗ (ℓ ↦[S]{rs q 27} f) ∗ (ℓ ↦[S]{rs q 26} f) ∗ (ℓ ↦[S]{rs q 25} f) ∗ (ℓ ↦[S]{rs q 24} f) ∗ (ℓ ↦[S]{rs q 23} f) ∗ (ℓ ↦[S]{rs q 22} f) ∗ (ℓ ↦[S]{rs q 21} f) ∗ (ℓ ↦[S]{rs q 20} f) ∗ (ℓ ↦[S]{rs q 19} f) ∗ (ℓ ↦[S]{rs q 18} f) ∗ (ℓ ↦[S]{rs q 17} f) ∗ (ℓ ↦[S]{rs q 16} f) ∗ (ℓ ↦[S]{rs q 15} f) ∗ (ℓ ↦[S]{rs q 14} f) ∗ (ℓ ↦[S]{rs q 13} f) ∗ (ℓ ↦[S]{rs q 12} f) ∗ (ℓ ↦[S]{rs q 11} f) ∗ (ℓ ↦[S]{rs q 10} f) ∗ (ℓ ↦[S]{rs q 9} f) ∗ (ℓ ↦[S]{rs q 8} f) ∗ (ℓ ↦[S]{rs q 7} f) ∗ (ℓ ↦[S]{rs q 6} f) ∗ (ℓ ↦[S]{rs q 5} f) ∗ (ℓ ↦[S]{rs q 4} f) ∗ (ℓ ↦[S]{rs q 3} f) ∗ (ℓ ↦[S]{rs q 2} f) ∗ (ℓ ↦[S]{rs q 1} f) ∗ (ℓ ↦[S]{rs q 0} f) ∗ emp) := by
  refine (split_toks (F := F) q 32).trans ?_
  simp only [bigSep_range_succ, Finset.range_zero, BI.bigSep_empty]
  iintro H; iexact H

/-! ## What the loop carries -/

/-- The tile's 512 user indices and item indices, as its first two copies leave them in the index scratches. -/
def CU (d : Dev nD) (L : grid0.Coords) : S512.Idx → BitVec 32 := fun j => m (uLoc d) ((uSlice L).view.emb j)
def CI (d : Dev nD) (L : grid0.Coords) : S512.Idx → BitVec 32 := fun j => m (iLoc d) ((iSlice L).view.emb j)

/-- Position `16 c + s` of the tile's 512 (chunk `c`, lane `s`). -/
def pos (c : ℕ) (s : Fin 16) : S512.Idx := ValueIdx.ix1 (n := 512) ⟨(16 * c + s.val) % 512, Nat.mod_lt _ (by decide)⟩

/-- What a drained block buffer holds for chunk `c`: slot `s` is the table block that position's index names. -/
def LandedU (d : Dev nD) (L : grid0.Coords) (c : ℕ) (C : Buf (Elt F) ((thrV d L).loc cc0_scratch2)) : Prop :=
  ∀ (s : Fin 16) (r : Fin 8) (f : Fin 64),
    C (ValueIdx.ix3 (n0 := 16) (n1 := 8) (n2 := 64) s r f)
      = W0 m d (ValueIdx.ix3 (n0 := 125000) (n1 := 8) (n2 := 64) ⟨((CU m d L (pos c s)) >>> 3).toNat % 125000, Nat.mod_lt _ (by decide)⟩ r f)
def LandedI (d : Dev nD) (L : grid0.Coords) (c : ℕ) (C : Buf (Elt F) ((thrV d L).loc cc0_scratch3)) : Prop :=
  ∀ (s : Fin 16) (r : Fin 8) (f : Fin 64),
    C (ValueIdx.ix3 (n0 := 16) (n1 := 8) (n2 := 64) s r f)
      = W1 m d (ValueIdx.ix3 (n0 := 125000) (n1 := 8) (n2 := 64) ⟨((CI m d L (pos c s)) >>> 3).toNat % 125000, Nat.mod_lt _ (by decide)⟩ r f)

/-- The first `32 k` positions of the output scratch hold their specified values. -/
def OutOK (d : Dev nD) (L : grid0.Coords) (k : ℕ) (fo : Buf (Elt F) ((thrV d L).loc cc0_scratch6)) : Prop :=
  ∀ p : S512.Idx, (p 0).val < 32 * k → fo p = Gout m d ((oSlice L).view.emb p)

/-- Sixteen read shares of one blocked table. -/
def freeU (d : Dev nD) (L : grid0.Coords) : sProp 𝕄 :=
  iprop(∃ a0 a1 a2 a3 a4 a5 a6 a7 a8 a9 a10 a11 a12 a13 a14 a15 : PosShare TreeShare, (uwV.view.loc (thrV d L) ↦{a0} W0 m d) ∗ (uwV.view.loc (thrV d L) ↦{a1} W0 m d) ∗ (uwV.view.loc (thrV d L) ↦{a2} W0 m d) ∗ (uwV.view.loc (thrV d L) ↦{a3} W0 m d) ∗ (uwV.view.loc (thrV d L) ↦{a4} W0 m d) ∗ (uwV.view.loc (thrV d L) ↦{a5} W0 m d) ∗ (uwV.view.loc (thrV d L) ↦{a6} W0 m d) ∗ (uwV.view.loc (thrV d L) ↦{a7} W0 m d) ∗ (uwV.view.loc (thrV d L) ↦{a8} W0 m d) ∗ (uwV.view.loc (thrV d L) ↦{a9} W0 m d) ∗ (uwV.view.loc (thrV d L) ↦{a10} W0 m d) ∗ (uwV.view.loc (thrV d L) ↦{a11} W0 m d) ∗ (uwV.view.loc (thrV d L) ↦{a12} W0 m d) ∗ (uwV.view.loc (thrV d L) ↦{a13} W0 m d) ∗ (uwV.view.loc (thrV d L) ↦{a14} W0 m d) ∗ (uwV.view.loc (thrV d L) ↦{a15} W0 m d))

/-- What draining one block buffer's pending row copies gives: from `X` (whatever the tile holds of them), the wait
    continues with the buffer whole at the blocks of chunk `c`, its semaphore at zero, and sixteen read shares of
    the table back. -/
def DrainU (d : Dev nD) (L : grid0.Coords) (O : CellTallies nD τ sig (HIx 1)) (c : ℕ) (X : sProp 𝕄) : Prop :=
  ∀ (α : Type) (kont : PUnit → Prog (TpuEff nD τ sig (Elt F) Λ₀ (.scVector (cV L) (jV L))) α) (Q : α → sProp 𝕄) (W : Waits sig (HIx 1)),
    iprop(X ∗ Transfers.MayWaits (thrV d L) (none : HIx 1) O ∗ owes (thrV d L) O W)
      ⊢ iprop((iprop((∃ C, (sUA.view.loc (thrV d L) ↦{fullShare} C) ∗ ⌜LandedU m d L c C⌝)
                ∗ semVal (thrV d L, SemLoc.dma cc0_scratch7.sem) 0
                ∗ freeU m d L
                ∗ Transfers.MayWaits (thrV d L) (none : HIx 1) O
                ∗ ∃ W', owes (thrV d L) O W' ∗ ⌜∀ p ∈ W', p ∈ W ∨ p.2 = none⌝)
              -∗ wp frame (wpE (defs₀ (F := F)) 𝒱₀ (thrV d L) none) Set.univ (kont ⟨⟩) Q)
          -∗ wp frame (wpE (defs₀ (F := F)) 𝒱₀ (thrV d L) none) Set.univ
              (Prog.op (TpuEff.waitDma2 cc0_scratch7.sem ((uwV : Memref sig .scVector .hbm S125000x8x64 .f32).slice (Rect.unit (s := S125000x8x64) ![0, 0, 0] S16x8x64.size inb_S125000x8x64_S16x8x64_0_0_0) (fun _ => rfl)) (sUA : Memref sig .scVector .vmem S16x8x64 .f32) (View.wordExact_bits rfl) (Memref.isWhole_whole _).wordExact) kont) Q)

/-- Sixteen read shares of one blocked table. -/
def freeI (d : Dev nD) (L : grid0.Coords) : sProp 𝕄 :=
  iprop(∃ a0 a1 a2 a3 a4 a5 a6 a7 a8 a9 a10 a11 a12 a13 a14 a15 : PosShare TreeShare, (iwV.view.loc (thrV d L) ↦{a0} W1 m d) ∗ (iwV.view.loc (thrV d L) ↦{a1} W1 m d) ∗ (iwV.view.loc (thrV d L) ↦{a2} W1 m d) ∗ (iwV.view.loc (thrV d L) ↦{a3} W1 m d) ∗ (iwV.view.loc (thrV d L) ↦{a4} W1 m d) ∗ (iwV.view.loc (thrV d L) ↦{a5} W1 m d) ∗ (iwV.view.loc (thrV d L) ↦{a6} W1 m d) ∗ (iwV.view.loc (thrV d L) ↦{a7} W1 m d) ∗ (iwV.view.loc (thrV d L) ↦{a8} W1 m d) ∗ (iwV.view.loc (thrV d L) ↦{a9} W1 m d) ∗ (iwV.view.loc (thrV d L) ↦{a10} W1 m d) ∗ (iwV.view.loc (thrV d L) ↦{a11} W1 m d) ∗ (iwV.view.loc (thrV d L) ↦{a12} W1 m d) ∗ (iwV.view.loc (thrV d L) ↦{a13} W1 m d) ∗ (iwV.view.loc (thrV d L) ↦{a14} W1 m d) ∗ (iwV.view.loc (thrV d L) ↦{a15} W1 m d))

/-- What draining one block buffer's pending row copies gives: from `X` (whatever the tile holds of them), the wait
    continues with the buffer whole at the blocks of chunk `c`, its semaphore at zero, and sixteen read shares of
    the table back. -/
def DrainI (d : Dev nD) (L : grid0.Coords) (O : CellTallies nD τ sig (HIx 1)) (c : ℕ) (X : sProp 𝕄) : Prop :=
  ∀ (α : Type) (kont : PUnit → Prog (TpuEff nD τ sig (Elt F) Λ₀ (.scVector (cV L) (jV L))) α) (Q : α → sProp 𝕄) (W : Waits sig (HIx 1)),
    iprop(X ∗ Transfers.MayWaits (thrV d L) (none : HIx 1) O ∗ owes (thrV d L) O W)
      ⊢ iprop((iprop((∃ C, (sIA.view.loc (thrV d L) ↦{fullShare} C) ∗ ⌜LandedI m d L c C⌝)
                ∗ semVal (thrV d L, SemLoc.dma cc0_scratch8.sem) 0
                ∗ freeI m d L
                ∗ Transfers.MayWaits (thrV d L) (none : HIx 1) O
                ∗ ∃ W', owes (thrV d L) O W' ∗ ⌜∀ p ∈ W', p ∈ W ∨ p.2 = none⌝)
              -∗ wp frame (wpE (defs₀ (F := F)) 𝒱₀ (thrV d L) none) Set.univ (kont ⟨⟩) Q)
          -∗ wp frame (wpE (defs₀ (F := F)) 𝒱₀ (thrV d L) none) Set.univ
              (Prog.op (TpuEff.waitDma2 cc0_scratch8.sem ((iwV : Memref sig .scVector .hbm S125000x8x64 .f32).slice (Rect.unit (s := S125000x8x64) ![0, 0, 0] S16x8x64.size inb_S125000x8x64_S16x8x64_0_0_0) (fun _ => rfl)) (sIA : Memref sig .scVector .vmem S16x8x64 .f32) (View.wordExact_bits rfl) (Memref.isWhole_whole _).wordExact) kont) Q)
/-- The first buffer pair at rest. -/
def idleA (d : Dev nD) (L : grid0.Coords) : sProp 𝕄 :=
  iprop((∃ f2, sUA.view.loc (thrV d L) ↦{fullShare} f2) ∗ (∃ f3, sIA.view.loc (thrV d L) ↦{fullShare} f3)
    ∗ semVal (thrV d L, SemLoc.dma cc0_scratch7.sem) 0 ∗ semVal (thrV d L, SemLoc.dma cc0_scratch8.sem) 0)

/-- The loop's invariant before trip `k`. -/
def inv (d : Dev nD) (L : grid0.Coords) (q : PosShare TreeShare) (O : CellTallies nD τ sig (HIx 1)) (W : Waits sig (HIx 1)) (k : ℕ) (_ : PUnit) : sProp 𝕄 :=
  iprop(Transfers.MayWaits (thrV d L) (none : HIx 1) O
    ∗ (uV.view.loc (thrV d L) ↦{q} m (uLoc d)) ∗ (iV.view.loc (thrV d L) ↦{q} m (iLoc d))
    ∗ ((oSlice L).view.loc (thrV d L) ↦[(oSlice L).view.set]{fullShare} m (oLoc d))
    ∗ (sU.view.loc (thrV d L) ↦{fullShare} CU m d L) ∗ (sI.view.loc (thrV d L) ↦{fullShare} CI m d L)
    ∗ (∃ f4, sUB.view.loc (thrV d L) ↦{fullShare} f4) ∗ (∃ f5, sIB.view.loc (thrV d L) ↦{fullShare} f5)
    ∗ (∃ fo, (sO.view.loc (thrV d L) ↦{fullShare} fo) ∗ ⌜OutOK m d L k fo⌝)
    ∗ semVal (thrV d L, SemLoc.dma cc0_scratch9.sem) 0 ∗ semVal (thrV d L, SemLoc.dma cc0_scratch10.sem) 0
    ∗ semVal (thrV d L, SemLoc.dma cc0_scoped0.sem) 0 ∗ semVal (thrV d L, SemLoc.dma cc0_scoped1.sem) 0
    ∗ semVal (thrV d L, SemLoc.dma cc0_scoped2.sem) 0
    ∗ freeU m d L ∗ freeI m d L
    ∗ (∃ W', owes (thrV d L) O W' ∗ ⌜∀ p ∈ W', p ∈ W ∨ p.2 = none⌝)
    ∗ (∃ XU : sProp 𝕄, XU ∗ ⌜k < 16 → DrainU m d L O (2 * k) XU⌝
          ∗ ⌜k = 16 → (XU ⊢ iprop((∃ f2, sUA.view.loc (thrV d L) ↦{fullShare} f2) ∗ semVal (thrV d L, SemLoc.dma cc0_scratch7.sem) 0))⌝)
    ∗ (∃ XI : sProp 𝕄, XI ∗ ⌜k < 16 → DrainI m d L O (2 * k) XI⌝
          ∗ ⌜k = 16 → (XI ⊢ iprop((∃ f3, sIA.view.loc (thrV d L) ↦{fullShare} f3) ∗ semVal (thrV d L, SemLoc.dma cc0_scratch8.sem) 0))⌝))

/-! ## In the loop: the index scratches read at a chunk, the gather's indices, and the gather as a load -/

omit [FloatOps F] in
theorem rdCU (hpre : PreOK m) (d : Dev nD) (L : grid0.Coords) (off : Fin 1 → ℕ) (inb : ∀ a, off a + S16.size a ≤ S512.size a) (j : S16.Idx) :
    (((sU : Memref sig .scVector .vmem S512 .i32).view.readAt (Elt F) (Rect.unit (s := S512) off S16.size inb).toLoadRect (CU m d L)) j).toNat < 1000000 := by
  simp only [View.readAt_apply, Memref.view_whole, View.read_whole]; exact (hpre d _).1
omit [FloatOps F] in
theorem rdCI (hpre : PreOK m) (d : Dev nD) (L : grid0.Coords) (off : Fin 1 → ℕ) (inb : ∀ a, off a + S16.size a ≤ S512.size a) (j : S16.Idx) :
    (((sI : Memref sig .scVector .vmem S512 .i32).view.readAt (Elt F) (Rect.unit (s := S512) off S16.size inb).toLoadRect (CI m d L)) j).toNat < 1000000 := by
  simp only [View.readAt_apply, Memref.view_whole, View.read_whole]; exact (hpre d _).2

omit [FloatOps F] in
theorem gs_lt (h : S16.Iotas .scVector 32 [0]) (x : S16.Idx) : ((addi (iota .scVector S16 32 [0] h) (broadcast S16 0#32)) x).toNat < 16 := by
  have hx : (x 0).val < 16 := (x 0).isLt
  show (IntOp.addi (BitVec.ofNat 32 (0 * S16.size 0 + (x 0).val)) 0#32).toNat < 16
  unfold IntOp.addi
  simp only [BitVec.add_zero, BitVec.toNat_ofNat, Nat.zero_mul, Nat.zero_add]
  omega
omit [FloatOps F] in
theorem and7v_lt (v : IVec S16 32) (x : S16.Idx) : ((andi v (broadcast S16 7#32)) x).toNat < 8 := by
  show (IntOp.andi (v x) 7#32).toNat < 8
  unfold IntOp.andi; rw [BitVec.toNat_and]
  exact lt_of_le_of_lt Nat.and_le_right (by decide)
omit [FloatOps F] in
theorem gidx_ok (g r fv : IVec S16 32) (hg : ∀ x, (g x).toNat < 16) (hr : ∀ x, (r x).toNat < 8) (hf : ∀ x, (fv x).toNat < 64) :
    ∀ a x, ((![g, r, fv] : Fin 3 → IVec S16 32) a x).toNat < S16x8x64.size a := by
  intro a x
  match a with
  | ⟨0, _⟩ => exact hg x
  | ⟨1, _⟩ => exact hr x
  | ⟨2, _⟩ => exact hf x

/-- The indexed load is a load of the whole scratch followed by the gather of what it read. -/
theorem vli_bind {Λ : Labels} {p : Proc τ} {s t : Shape} {e : EltTy} {α : Type} (base : Memref sig p.kind .vmem s e) (idxs : Fin s.rank → IVec t 32)
    (h : ∀ a x, (idxs a x).toNat < s.size a) (hl : base.view.Loads) (k : Vec F t e → Prog (TpuEff nD τ sig (Elt F) Λ p) α) :
    SparseCore.vectorLoadIdx base idxs h hl >>= k = Prog.op (TpuEff.load base (.whole s) (View.loadsAt_whole hl)) fun f => k (loadIdx f idxs h) := rfl

end Cert.Proof.Kernel

end
-- ==== Proof.K.Acc.lean ====
import proofs.«203884_g41704132444582_cont_8to1_b_1290_16_alg».proof.Proof.K.BodyDefs

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-- The kernel's feature-by-feature accumulation over gathered vectors, as a recursion on the number of features done. -/
def accL (Cu Ci : S16x8x64.Idx → Elt F .f32) (g ur ir : IVec S16 32)
    (H : ∀ n, n < 64 → (∀ a x, ((![g, ur, broadcast S16 (BitVec.ofNat 32 n)] : Fin 3 → IVec S16 32) a x).toNat < S16x8x64.size a)
                     ∧ (∀ a x, ((![g, ir, broadcast S16 (BitVec.ofNat 32 n)] : Fin 3 → IVec S16 32) a x).toNat < S16x8x64.size a)) :
    (n : ℕ) → n ≤ 64 → FVec F S16 .f32
  | 0, _ => broadcast S16 (Scalar.ofBits .f32 0x00000000#32)
  | n + 1, hn => addf (accL Cu Ci g ur ir H n (Nat.le_of_succ_le hn))
      (mulf (loadIdx Cu ![g, ur, broadcast S16 (BitVec.ofNat 32 n)] (H n hn).1) (loadIdx Ci ![g, ir, broadcast S16 (BitVec.ofNat 32 n)] (H n hn).2))

omit [FloatOps F] in
theorem feat_lt (n : ℕ) (hn : n < 64) (x : S16.Idx) : ((broadcast S16 (BitVec.ofNat 32 n) : IVec S16 32) x).toNat < 64 := by
  show (BitVec.ofNat 32 n).toNat < 64
  rw [BitVec.toNat_ofNat]; omega

end Cert.Proof.Kernel

end
-- ==== Proof.K.Landed.lean ====
/-
  What the index scratch gives for one lane, and what a block buffer holds once its sixteen copies have landed.

  A chunk is sixteen consecutive words of an index scratch; the program shifts the chunk right by 3 and extracts lane `j`:
  the block number `idx >>> 3` of the index at position `o + j`.  A block buffer is written slot by slot, slot `s` with
  block `b s` of a table as the copy reads it; afterwards position `(s, r, f)` of the buffer holds the table at
  `(b s, r, f)`, whatever the buffer held before.
-/
import proofs.«203884_g41704132444582_cont_8to1_b_1290_16_alg».proof.Proof.K.Slots
import proofs.«203884_g41704132444582_cont_8to1_b_1290_16_alg».proof.Proof.K.Rows

noncomputable section

namespace Cert.Proof.Kernel

open Cert.Kernel Cert.Kernel.Gen
open Idealize.ShloMosaic

variable {F : FTy → Type}

/-! ## One lane of a chunk of an index scratch -/

/-- Lane `j` of the chunk at offset `o` is inside the scratch. -/
theorem lane_lt_off {off : Fin 1 → ℕ} {o j : ℕ} (ho : off 0 = o) (inb : ∀ a, off a + S16.size a ≤ S512.size a) (hj : j < 16) :
    o + j < 512 := by
  have h : off 0 + 16 ≤ 512 := inb 0
  omega

theorem lane_lt {o j : ℕ} (inb : ∀ a, (![o] : Fin 1 → ℕ) a + S16.size a ≤ S512.size a) (hj : j < 16) : o + j < 512 :=
  lane_lt_off (off := ![o]) rfl inb hj

/-- THE BLOCK NUMBER OF LANE `j` OF A CHUNK of `sU`: the chunk of sixteen words at offset `o`, shifted right by 3, sliced at lane
    `j` and extracted, is the scratch's word at `o + j` shifted right by 3. The offsets as any function with `off 0 = o`. -/
theorem lane_val_U_off (Cc : S512.Idx → BitVec 32) (off : Fin 1 → ℕ) (o : ℕ) (ho : off 0 = o)
    (inb : ∀ a, off a + S16.size a ≤ S512.size a) (j : ℕ) (hj : j < 16) (hs : S16.Slices ![j] S1)
    (hp : ∀ a, (![0] : Fin 1 → ℕ) a < S1.size a) :
    extractAt ![0] (extractStridedSlice (s := S16) S1 ![j] (shrui (s := S16) (((sU : Memref sig .scVector .vmem S512 .i32).view.readAt (Elt F)
        (Rect.unit (s := S512) off S16.size inb).toLoadRect Cc : IVec S16 32)) (broadcast S16 3#32)) hs) hp
      = (Cc (ValueIdx.ix1 (n := 512) ⟨o + j, lane_lt_off ho inb hj⟩)) >>> 3 := by
  subst ho
  refine (shrui_3 _).trans (congrArg (fun i => Cc i >>> 3) ?_)
  funext a
  obtain rfl : a = (0 : Fin 1) := Subsingleton.elim (α := Fin 1) a 0
  exact Fin.ext (show off 0 + 1 * (j + 0) = off 0 + j by omega)

/-- The same with the offsets spelled `![o]`. -/
theorem lane_val_U (Cc : S512.Idx → BitVec 32) (o : ℕ) (inb : ∀ a, (![o] : Fin 1 → ℕ) a + S16.size a ≤ S512.size a)
    (j : ℕ) (hj : j < 16) (hs : S16.Slices ![j] S1) (hp : ∀ a, (![0] : Fin 1 → ℕ) a < S1.size a) :
    extractAt ![0] (extractStridedSlice (s := S16) S1 ![j] (shrui (s := S16) (((sU : Memref sig .scVector .vmem S512 .i32).view.readAt (Elt F)
        (Rect.unit (s := S512) ![o] S16.size inb).toLoadRect Cc : IVec S16 32)) (broadcast S16 3#32)) hs) hp
      = (Cc (ValueIdx.ix1 (n := 512) ⟨o + j, lane_lt inb hj⟩)) >>> 3 :=
  lane_val_U_off (F := F) Cc ![o] o rfl inb j hj hs hp

/-- THE BLOCK NUMBER OF LANE `j` OF A CHUNK of `sI`: the chunk of sixteen words at offset `o`, shifted right by 3, sliced at lane
    `j` and extracted, is the scratch's word at `o + j` shifted right by 3. The offsets as any function with `off 0 = o`. -/
theorem lane_val_I_off (Cc : S512.Idx → BitVec 32) (off : Fin 1 → ℕ) (o : ℕ) (ho : off 0 = o)
    (inb : ∀ a, off a + S16.size a ≤ S512.size a) (j : ℕ) (hj : j < 16) (hs : S16.Slices ![j] S1)
    (hp : ∀ a, (![0] : Fin 1 → ℕ) a < S1.size a) :
    extractAt ![0] (extractStridedSlice (s := S16) S1 ![j] (shrui (s := S16) (((sI : Memref sig .scVector .vmem S512 .i32).view.readAt (Elt F)
        (Rect.unit (s := S512) off S16.size inb).toLoadRect Cc : IVec S16 32)) (broadcast S16 3#32)) hs) hp
      = (Cc (ValueIdx.ix1 (n := 512) ⟨o + j, lane_lt_off ho inb hj⟩)) >>> 3 := by
  subst ho
  refine (shrui_3 _).trans (congrArg (fun i => Cc i >>> 3) ?_)
  funext a
  obtain rfl : a = (0 : Fin 1) := Subsingleton.elim (α := Fin 1) a 0
  exact Fin.ext (show off 0 + 1 * (j + 0) = off 0 + j by omega)

/-- The same with the offsets spelled `![o]`. -/
theorem lane_val_I (Cc : S512.Idx → BitVec 32) (o : ℕ) (inb : ∀ a, (![o] : Fin 1 → ℕ) a + S16.size a ≤ S512.size a)
    (j : ℕ) (hj : j < 16) (hs : S16.Slices ![j] S1) (hp : ∀ a, (![0] : Fin 1 → ℕ) a < S1.size a) :
    extractAt ![0] (extractStridedSlice (s := S16) S1 ![j] (shrui (s := S16) (((sI : Memref sig .scVector .vmem S512 .i32).view.readAt (Elt F)
        (Rect.unit (s := S512) ![o] S16.size inb).toLoadRect Cc : IVec S16 32)) (broadcast S16 3#32)) hs) hp
      = (Cc (ValueIdx.ix1 (n := 512) ⟨o + j, lane_lt inb hj⟩)) >>> 3 :=
  lane_val_I_off (F := F) Cc ![o] o rfl inb j hj hs hp

/-! ## A block buffer after its sixteen copies -/

/-- `sUA` AFTER ITS SIXTEEN COPIES: slot `s` was written with block `b s` of the first table as the copy reads it, so position
    `(s, r, f)` holds the table at `(b s, r, f)`, whatever the buffer held before. -/
theorem landed_of_nest_UA (d : Dev nD) (b : Fin 16 → ℕ) (hb : ∀ s, b s < 125000) (Wc : Buf (Elt F) (uwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![b 0, 0, 0] : Fin 3 → ℕ) a + S1x8x64.size a ≤ S125000x8x64.size a) (g2_0 : ∀ a, (Rect.unit (s := S125000x8x64) ![b 0, 0, 0] S1x8x64.size g1_0).stride a = 1)
    (g1_1 : ∀ a, (![b 1, 0, 0] : Fin 3 → ℕ) a + S1x8x64.size a ≤ S125000x8x64.size a) (g2_1 : ∀ a, (Rect.unit (s := S125000x8x64) ![b 1, 0, 0] S1x8x64.size g1_1).stride a = 1)
    (g1_2 : ∀ a, (![b 2, 0, 0] : Fin 3 → ℕ) a + S1x8x64.size a ≤ S125000x8x64.size a) (g2_2 : ∀ a, (Rect.unit (s := S125000x8x64) ![b 2, 0, 0] S1x8x64.size g1_2).stride a = 1)
    (g1_3 : ∀ a, (![b 3, 0, 0] : Fin 3 → ℕ) a + S1x8x64.size a ≤ S125000x8x64.size a) (g2_3 : ∀ a, (Rect.unit (s := S125000x8x64) ![b 3, 0, 0] S1x8x64.size g1_3).stride a = 1)
    (g1_4 : ∀ a, (![b 4, 0, 0] : Fin 3 → ℕ) a + S1x8x64.size a ≤ S125000x8x64.size a) (g2_4 : ∀ a, (Rect.unit (s := S125000x8x64) ![b 4, 0, 0] S1x8x64.size g1_4).stride a = 1)
    (g1_5 : ∀ a, (![b 5, 0, 0] : Fin 3 → ℕ) a + S1x8x64.size a ≤ S125000x8x64.size a) (g2_5 : ∀ a, (Rect.unit (s := S125000x8x64) ![b 5, 0, 0] S1x8x64.size g1_5).stride a = 1)
    (g1_6 : ∀ a, (![b 6, 0, 0] : Fin 3 → ℕ) a + S1x8x64.size a ≤ S125000x8x64.size a) (g2_6 : ∀ a, (Rect.unit (s := S125000x8x64) ![b 6, 0, 0] S1x8x64.size g1_6).stride a = 1)
    (g1_7 : ∀ a, (![b 7, 0, 0] : Fin 3 → ℕ) a + S1x8x64.size a ≤ S125000x8x64.size a) (g2_7 : ∀ a, (Rect.unit (s := S125000x8x64) ![b 7, 0, 0] S1x8x64.size g1_7).stride a = 1)
    (g1_8 : ∀ a, (![b 8, 0, 0] : Fin 3 → ℕ) a + S1x8x64.size a ≤ S125000x8x64.size a) (g2_8 : ∀ a, (Rect.unit (s := S125000x8x64) ![b 8, 0, 0] S1x8x64.size g1_8).stride a = 1)
    (g1_9 : ∀ a, (![b 9, 0, 0] : Fin 3 → ℕ) a + S1x8x64.size a ≤ S125000x8x64.size a) (g2_9 : ∀ a, (Rect.unit (s := S125000x8x64) ![b 9, 0, 0] S1x8x64.size g1_9).stride a = 1)
    (g1_10 : ∀ a, (![b 10, 0, 0] : Fin 3 → ℕ) a + S1x8x64.size a ≤ S125000x8x64.size a) (g2_10 : ∀ a, (Rect.unit (s := S125000x8x64) ![b 10, 0, 0] S1x8x64.size g1_10).stride a = 1)
    (g1_11 : ∀ a, (![b 11, 0, 0] : Fin 3 → ℕ) a + S1x8x64.size a ≤ S125000x8x64.size a) (g2_11 : ∀ a, (Rect.unit (s := S125000x8x64) ![b 11, 0, 0] S1x8x64.size g1_11).stride a = 1)
    (g1_12 : ∀ a, (![b 12, 0, 0] : Fin 3 → ℕ) a + S1x8x64.size a ≤ S125000x8x64.size a) (g2_12 : ∀ a, (Rect.unit (s := S125000x8x64) ![b 12, 0, 0] S1x8x64.size g1_12).stride a = 1)
    (g1_13 : ∀ a, (![b 13, 0, 0] : Fin 3 → ℕ) a + S1x8x64.size a ≤ S125000x8x64.size a) (g2_13 : ∀ a, (Rect.unit (s := S125000x8x64) ![b 13, 0, 0] S1x8x64.size g1_13).stride a = 1)
    (g1_14 : ∀ a, (![b 14, 0, 0] : Fin 3 → ℕ) a + S1x8x64.size a ≤ S125000x8x64.size a) (g2_14 : ∀ a, (Rect.unit (s := S125000x8x64) ![b 14, 0, 0] S1x8x64.size g1_14).stride a = 1)
    (g1_15 : ∀ a, (![b 15, 0, 0] : Fin 3 → ℕ) a + S1x8x64.size a ≤ S125000x8x64.size a) (g2_15 : ∀ a, (Rect.unit (s := S125000x8x64) ![b 15, 0, 0] S1x8x64.size g1_15).stride a = 1)
    (prior : (slotV sUA 0 h1_0 h2_0 h3_0).ty.Contents (Elt F)) (s : Fin 16) (r : Fin 8) (f : Fin 64) :
    (View.write (Elt F) (slotV sUA 15 h1_15 h2_15 h3_15) (View.write (Elt F) (slotV sUA 14 h1_14 h2_14 h3_14) (View.write (Elt F) (slotV sUA 13 h1_13 h2_13 h3_13) (View.write (Elt F) (slotV sUA 12 h1_12 h2_12 h3_12) (View.write (Elt F) (slotV sUA 11 h1_11 h2_11 h3_11) (View.write (Elt F) (slotV sUA 10 h1_10 h2_10 h3_10) (View.write (Elt F) (slotV sUA 9 h1_9 h2_9 h3_9) (View.write (Elt F) (slotV sUA 8 h1_8 h2_8 h3_8) (View.write (Elt F) (slotV sUA 7 h1_7 h2_7 h3_7) (View.write (Elt F) (slotV sUA 6 h1_6 h2_6 h3_6) (View.write (Elt F) (slotV sUA 5 h1_5 h2_5 h3_5) (View.write (Elt F) (slotV sUA 4 h1_4 h2_4 h3_4) (View.write (Elt F) (slotV sUA 3 h1_3 h2_3 h3_3) (View.write (Elt F) (slotV sUA 2 h1_2 h2_2 h3_2) (View.write (Elt F) (slotV sUA 1 h1_1 h2_1 h3_1) (View.write (Elt F) (slotV sUA 0 h1_0 h2_0 h3_0) prior (ReadAs.same.apply ((rowV uwV (b 0) g1_0 g2_0).view.read (Elt F) Wc)) Finset.univ) (ReadAs.same.apply ((rowV uwV (b 1) g1_1 g2_1).view.read (Elt F) Wc)) Finset.univ) (ReadAs.same.apply ((rowV uwV (b 2) g1_2 g2_2).view.read (Elt F) Wc)) Finset.univ) (ReadAs.same.apply ((rowV uwV (b 3) g1_3 g2_3).view.read (Elt F) Wc)) Finset.univ) (ReadAs.same.apply ((rowV uwV (b 4) g1_4 g2_4).view.read (Elt F) Wc)) Finset.univ) (ReadAs.same.apply ((rowV uwV (b 5) g1_5 g2_5).view.read (Elt F) Wc)) Finset.univ) (ReadAs.same.apply ((rowV uwV (b 6) g1_6 g2_6).view.read (Elt F) Wc)) Finset.univ) (ReadAs.same.apply ((rowV uwV (b 7) g1_7 g2_7).view.read (Elt F) Wc)) Finset.univ) (ReadAs.same.apply ((rowV uwV (b 8) g1_8 g2_8).view.read (Elt F) Wc)) Finset.univ) (ReadAs.same.apply ((rowV uwV (b 9) g1_9 g2_9).view.read (Elt F) Wc)) Finset.univ) (ReadAs.same.apply ((rowV uwV (b 10) g1_10 g2_10).view.read (Elt F) Wc)) Finset.univ) (ReadAs.same.apply ((rowV uwV (b 11) g1_11 g2_11).view.read (Elt F) Wc)) Finset.univ) (ReadAs.same.apply ((rowV uwV (b 12) g1_12 g2_12).view.read (Elt F) Wc)) Finset.univ) (ReadAs.same.apply ((rowV uwV (b 13) g1_13 g2_13).view.read (Elt F) Wc)) Finset.univ) (ReadAs.same.apply ((rowV uwV (b 14) g1_14 g2_14).view.read (Elt F) Wc)) Finset.univ) (ReadAs.same.apply ((rowV uwV (b 15) g1_15 g2_15).view.read (Elt F) Wc)) Finset.univ)
        (ValueIdx.ix3 (n0 := 16) (n1 := 8) (n2 := 64) s r f)
      = Wc (ValueIdx.ix3 (n0 := 125000) (n1 := 8) (n2 := 64) ⟨b s, hb s⟩ r f) := by
  rw [nest16_apply_UA]
  fin_cases s
  · exact row_read_apply d (b 0) (hb 0) g1_0 g2_0 Wc r f
  · exact row_read_apply d (b 1) (hb 1) g1_1 g2_1 Wc r f
  · exact row_read_apply d (b 2) (hb 2) g1_2 g2_2 Wc r f
  · exact row_read_apply d (b 3) (hb 3) g1_3 g2_3 Wc r f
  · exact row_read_apply d (b 4) (hb 4) g1_4 g2_4 Wc r f
  · exact row_read_apply d (b 5) (hb 5) g1_5 g2_5 Wc r f
  · exact row_read_apply d (b 6) (hb 6) g1_6 g2_6 Wc r f
  · exact row_read_apply d (b 7) (hb 7) g1_7 g2_7 Wc r f
  · exact row_read_apply d (b 8) (hb 8) g1_8 g2_8 Wc r f
  · exact row_read_apply d (b 9) (hb 9) g1_9 g2_9 Wc r f
  · exact row_read_apply d (b 10) (hb 10) g1_10 g2_10 Wc r f
  · exact row_read_apply d (b 11) (hb 11) g1_11 g2_11 Wc r f
  · exact row_read_apply d (b 12) (hb 12) g1_12 g2_12 Wc r f
  · exact row_read_apply d (b 13) (hb 13) g1_13 g2_13 Wc r f
  · exact row_read_apply d (b 14) (hb 14) g1_14 g2_14 Wc r f
  · exact row_read_apply d (b 15) (hb 15) g1_15 g2_15 Wc r f

/-- The same with each block given as a word: slot `s` holds the block `(v s).toNat`. -/
theorem landed_of_nest_UA_word (d : Dev nD) (v : Fin 16 → BitVec 32) (hb : ∀ s, (v s).toNat < 125000) (Wc : Buf (Elt F) (uwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![(v 0).toNat, 0, 0] : Fin 3 → ℕ) a + S1x8x64.size a ≤ S125000x8x64.size a) (g2_0 : ∀ a, (Rect.unit (s := S125000x8x64) ![(v 0).toNat, 0, 0] S1x8x64.size g1_0).stride a = 1)
    (g1_1 : ∀ a, (![(v 1).toNat, 0, 0] : Fin 3 → ℕ) a + S1x8x64.size a ≤ S125000x8x64.size a) (g2_1 : ∀ a, (Rect.unit (s := S125000x8x64) ![(v 1).toNat, 0, 0] S1x8x64.size g1_1).stride a = 1)
    (g1_2 : ∀ a, (![(v 2).toNat, 0, 0] : Fin 3 → ℕ) a + S1x8x64.size a ≤ S125000x8x64.size a) (g2_2 : ∀ a, (Rect.unit (s := S125000x8x64) ![(v 2).toNat, 0, 0] S1x8x64.size g1_2).stride a = 1)
    (g1_3 : ∀ a, (![(v 3).toNat, 0, 0] : Fin 3 → ℕ) a + S1x8x64.size a ≤ S125000x8x64.size a) (g2_3 : ∀ a, (Rect.unit (s := S125000x8x64) ![(v 3).toNat, 0, 0] S1x8x64.size g1_3).stride a = 1)
    (g1_4 : ∀ a, (![(v 4).toNat, 0, 0] : Fin 3 → ℕ) a + S1x8x64.size a ≤ S125000x8x64.size a) (g2_4 : ∀ a, (Rect.unit (s := S125000x8x64) ![(v 4).toNat, 0, 0] S1x8x64.size g1_4).stride a = 1)
    (g1_5 : ∀ a, (![(v 5).toNat, 0, 0] : Fin 3 → ℕ) a + S1x8x64.size a ≤ S125000x8x64.size a) (g2_5 : ∀ a, (Rect.unit (s := S125000x8x64) ![(v 5).toNat, 0, 0] S1x8x64.size g1_5).stride a = 1)
    (g1_6 : ∀ a, (![(v 6).toNat, 0, 0] : Fin 3 → ℕ) a + S1x8x64.size a ≤ S125000x8x64.size a) (g2_6 : ∀ a, (Rect.unit (s := S125000x8x64) ![(v 6).toNat, 0, 0] S1x8x64.size g1_6).stride a = 1)
    (g1_7 : ∀ a, (![(v 7).toNat, 0, 0] : Fin 3 → ℕ) a + S1x8x64.size a ≤ S125000x8x64.size a) (g2_7 : ∀ a, (Rect.unit (s := S125000x8x64) ![(v 7).toNat, 0, 0] S1x8x64.size g1_7).stride a = 1)
    (g1_8 : ∀ a, (![(v 8).toNat, 0, 0] : Fin 3 → ℕ) a + S1x8x64.size a ≤ S125000x8x64.size a) (g2_8 : ∀ a, (Rect.unit (s := S125000x8x64) ![(v 8).toNat, 0, 0] S1x8x64.size g1_8).stride a = 1)
    (g1_9 : ∀ a, (![(v 9).toNat, 0, 0] : Fin 3 → ℕ) a + S1x8x64.size a ≤ S125000x8x64.size a) (g2_9 : ∀ a, (Rect.unit (s := S125000x8x64) ![(v 9).toNat, 0, 0] S1x8x64.size g1_9).stride a = 1)
    (g1_10 : ∀ a, (![(v 10).toNat, 0, 0] : Fin 3 → ℕ) a + S1x8x64.size a ≤ S125000x8x64.size a) (g2_10 : ∀ a, (Rect.unit (s := S125000x8x64) ![(v 10).toNat, 0, 0] S1x8x64.size g1_10).stride a = 1)
    (g1_11 : ∀ a, (![(v 11).toNat, 0, 0] : Fin 3 → ℕ) a + S1x8x64.size a ≤ S125000x8x64.size a) (g2_11 : ∀ a, (Rect.unit (s := S125000x8x64) ![(v 11).toNat, 0, 0] S1x8x64.size g1_11).stride a = 1)
    (g1_12 : ∀ a, (![(v 12).toNat, 0, 0] : Fin 3 → ℕ) a + S1x8x64.size a ≤ S125000x8x64.size a) (g2_12 : ∀ a, (Rect.unit (s := S125000x8x64) ![(v 12).toNat, 0, 0] S1x8x64.size g1_12).stride a = 1)
    (g1_13 : ∀ a, (![(v 13).toNat, 0, 0] : Fin 3 → ℕ) a + S1x8x64.size a ≤ S125000x8x64.size a) (g2_13 : ∀ a, (Rect.unit (s := S125000x8x64) ![(v 13).toNat, 0, 0] S1x8x64.size g1_13).stride a = 1)
    (g1_14 : ∀ a, (![(v 14).toNat, 0, 0] : Fin 3 → ℕ) a + S1x8x64.size a ≤ S125000x8x64.size a) (g2_14 : ∀ a, (Rect.unit (s := S125000x8x64) ![(v 14).toNat, 0, 0] S1x8x64.size g1_14).stride a = 1)
    (g1_15 : ∀ a, (![(v 15).toNat, 0, 0] : Fin 3 → ℕ) a + S1x8x64.size a ≤ S125000x8x64.size a) (g2_15 : ∀ a, (Rect.unit (s := S125000x8x64) ![(v 15).toNat, 0, 0] S1x8x64.size g1_15).stride a = 1)
    (prior : (slotV sUA 0 h1_0 h2_0 h3_0).ty.Contents (Elt F)) (s : Fin 16) (r : Fin 8) (f : Fin 64) :
    (View.write (Elt F) (slotV sUA 15 h1_15 h2_15 h3_15) (View.write (Elt F) (slotV sUA 14 h1_14 h2_14 h3_14) (View.write (Elt F) (slotV sUA 13 h1_13 h2_13 h3_13) (View.write (Elt F) (slotV sUA 12 h1_12 h2_12 h3_12) (View.write (Elt F) (slotV sUA 11 h1_11 h2_11 h3_11) (View.write (Elt F) (slotV sUA 10 h1_10 h2_10 h3_10) (View.write (Elt F) (slotV sUA 9 h1_9 h2_9 h3_9) (View.write (Elt F) (slotV sUA 8 h1_8 h2_8 h3_8) (View.write (Elt F) (slotV sUA 7 h1_7 h2_7 h3_7) (View.write (Elt F) (slotV sUA 6 h1_6 h2_6 h3_6) (View.write (Elt F) (slotV sUA 5 h1_5 h2_5 h3_5) (View.write (Elt F) (slotV sUA 4 h1_4 h2_4 h3_4) (View.write (Elt F) (slotV sUA 3 h1_3 h2_3 h3_3) (View.write (Elt F) (slotV sUA 2 h1_2 h2_2 h3_2) (View.write (Elt F) (slotV sUA 1 h1_1 h2_1 h3_1) (View.write (Elt F) (slotV sUA 0 h1_0 h2_0 h3_0) prior (ReadAs.same.apply ((rowV uwV ((v 0).toNat) g1_0 g2_0).view.read (Elt F) Wc)) Finset.univ) (ReadAs.same.apply ((rowV uwV ((v 1).toNat) g1_1 g2_1).view.read (Elt F) Wc)) Finset.univ) (ReadAs.same.apply ((rowV uwV ((v 2).toNat) g1_2 g2_2).view.read (Elt F) Wc)) Finset.univ) (ReadAs.same.apply ((rowV uwV ((v 3).toNat) g1_3 g2_3).view.read (Elt F) Wc)) Finset.univ) (ReadAs.same.apply ((rowV uwV ((v 4).toNat) g1_4 g2_4).view.read (Elt F) Wc)) Finset.univ) (ReadAs.same.apply ((rowV uwV ((v 5).toNat) g1_5 g2_5).view.read (Elt F) Wc)) Finset.univ) (ReadAs.same.apply ((rowV uwV ((v 6).toNat) g1_6 g2_6).view.read (Elt F) Wc)) Finset.univ) (ReadAs.same.apply ((rowV uwV ((v 7).toNat) g1_7 g2_7).view.read (Elt F) Wc)) Finset.univ) (ReadAs.same.apply ((rowV uwV ((v 8).toNat) g1_8 g2_8).view.read (Elt F) Wc)) Finset.univ) (ReadAs.same.apply ((rowV uwV ((v 9).toNat) g1_9 g2_9).view.read (Elt F) Wc)) Finset.univ) (ReadAs.same.apply ((rowV uwV ((v 10).toNat) g1_10 g2_10).view.read (Elt F) Wc)) Finset.univ) (ReadAs.same.apply ((rowV uwV ((v 11).toNat) g1_11 g2_11).view.read (Elt F) Wc)) Finset.univ) (ReadAs.same.apply ((rowV uwV ((v 12).toNat) g1_12 g2_12).view.read (Elt F) Wc)) Finset.univ) (ReadAs.same.apply ((rowV uwV ((v 13).toNat) g1_13 g2_13).view.read (Elt F) Wc)) Finset.univ) (ReadAs.same.apply ((rowV uwV ((v 14).toNat) g1_14 g2_14).view.read (Elt F) Wc)) Finset.univ) (ReadAs.same.apply ((rowV uwV ((v 15).toNat) g1_15 g2_15).view.read (Elt F) Wc)) Finset.univ)
        (ValueIdx.ix3 (n0 := 16) (n1 := 8) (n2 := 64) s r f)
      = Wc (ValueIdx.ix3 (n0 := 125000) (n1 := 8) (n2 := 64) ⟨(v s).toNat, hb s⟩ r f) := by
  rw [nest16_apply_UA]
  fin_cases s
  · exact row_read_apply d ((v 0).toNat) (hb 0) g1_0 g2_0 Wc r f
  · exact row_read_apply d ((v 1).toNat) (hb 1) g1_1 g2_1 Wc r f
  · exact row_read_apply d ((v 2).toNat) (hb 2) g1_2 g2_2 Wc r f
  · exact row_read_apply d ((v 3).toNat) (hb 3) g1_3 g2_3 Wc r f
  · exact row_read_apply d ((v 4).toNat) (hb 4) g1_4 g2_4 Wc r f
  · exact row_read_apply d ((v 5).toNat) (hb 5) g1_5 g2_5 Wc r f
  · exact row_read_apply d ((v 6).toNat) (hb 6) g1_6 g2_6 Wc r f
  · exact row_read_apply d ((v 7).toNat) (hb 7) g1_7 g2_7 Wc r f
  · exact row_read_apply d ((v 8).toNat) (hb 8) g1_8 g2_8 Wc r f
  · exact row_read_apply d ((v 9).toNat) (hb 9) g1_9 g2_9 Wc r f
  · exact row_read_apply d ((v 10).toNat) (hb 10) g1_10 g2_10 Wc r f
  · exact row_read_apply d ((v 11).toNat) (hb 11) g1_11 g2_11 Wc r f
  · exact row_read_apply d ((v 12).toNat) (hb 12) g1_12 g2_12 Wc r f
  · exact row_read_apply d ((v 13).toNat) (hb 13) g1_13 g2_13 Wc r f
  · exact row_read_apply d ((v 14).toNat) (hb 14) g1_14 g2_14 Wc r f
  · exact row_read_apply d ((v 15).toNat) (hb 15) g1_15 g2_15 Wc r f

/-- `sIA` AFTER ITS SIXTEEN COPIES: slot `s` was written with block `b s` of the second table as the copy reads it, so position
    `(s, r, f)` holds the table at `(b s, r, f)`, whatever the buffer held before. -/
theorem landed_of_nest_IA (d : Dev nD) (b : Fin 16 → ℕ) (hb : ∀ s, b s < 125000) (Wc : Buf (Elt F) (iwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![b 0, 0, 0] : Fin 3 → ℕ) a + S1x8x64.size a ≤ S125000x8x64.size a) (g2_0 : ∀ a, (Rect.unit (s := S125000x8x64) ![b 0, 0, 0] S1x8x64.size g1_0).stride a = 1)
    (g1_1 : ∀ a, (![b 1, 0, 0] : Fin 3 → ℕ) a + S1x8x64.size a ≤ S125000x8x64.size a) (g2_1 : ∀ a, (Rect.unit (s := S125000x8x64) ![b 1, 0, 0] S1x8x64.size g1_1).stride a = 1)
    (g1_2 : ∀ a, (![b 2, 0, 0] : Fin 3 → ℕ) a + S1x8x64.size a ≤ S125000x8x64.size a) (g2_2 : ∀ a, (Rect.unit (s := S125000x8x64) ![b 2, 0, 0] S1x8x64.size g1_2).stride a = 1)
    (g1_3 : ∀ a, (![b 3, 0, 0] : Fin 3 → ℕ) a + S1x8x64.size a ≤ S125000x8x64.size a) (g2_3 : ∀ a, (Rect.unit (s := S125000x8x64) ![b 3, 0, 0] S1x8x64.size g1_3).stride a = 1)
    (g1_4 : ∀ a, (![b 4, 0, 0] : Fin 3 → ℕ) a + S1x8x64.size a ≤ S125000x8x64.size a) (g2_4 : ∀ a, (Rect.unit (s := S125000x8x64) ![b 4, 0, 0] S1x8x64.size g1_4).stride a = 1)
    (g1_5 : ∀ a, (![b 5, 0, 0] : Fin 3 → ℕ) a + S1x8x64.size a ≤ S125000x8x64.size a) (g2_5 : ∀ a, (Rect.unit (s := S125000x8x64) ![b 5, 0, 0] S1x8x64.size g1_5).stride a = 1)
    (g1_6 : ∀ a, (![b 6, 0, 0] : Fin 3 → ℕ) a + S1x8x64.size a ≤ S125000x8x64.size a) (g2_6 : ∀ a, (Rect.unit (s := S125000x8x64) ![b 6, 0, 0] S1x8x64.size g1_6).stride a = 1)
    (g1_7 : ∀ a, (![b 7, 0, 0] : Fin 3 → ℕ) a + S1x8x64.size a ≤ S125000x8x64.size a) (g2_7 : ∀ a, (Rect.unit (s := S125000x8x64) ![b 7, 0, 0] S1x8x64.size g1_7).stride a = 1)
    (g1_8 : ∀ a, (![b 8, 0, 0] : Fin 3 → ℕ) a + S1x8x64.size a ≤ S125000x8x64.size a) (g2_8 : ∀ a, (Rect.unit (s := S125000x8x64) ![b 8, 0, 0] S1x8x64.size g1_8).stride a = 1)
    (g1_9 : ∀ a, (![b 9, 0, 0] : Fin 3 → ℕ) a + S1x8x64.size a ≤ S125000x8x64.size a) (g2_9 : ∀ a, (Rect.unit (s := S125000x8x64) ![b 9, 0, 0] S1x8x64.size g1_9).stride a = 1)
    (g1_10 : ∀ a, (![b 10, 0, 0] : Fin 3 → ℕ) a + S1x8x64.size a ≤ S125000x8x64.size a) (g2_10 : ∀ a, (Rect.unit (s := S125000x8x64) ![b 10, 0, 0] S1x8x64.size g1_10).stride a = 1)
    (g1_11 : ∀ a, (![b 11, 0, 0] : Fin 3 → ℕ) a + S1x8x64.size a ≤ S125000x8x64.size a) (g2_11 : ∀ a, (Rect.unit (s := S125000x8x64) ![b 11, 0, 0] S1x8x64.size g1_11).stride a = 1)
    (g1_12 : ∀ a, (![b 12, 0, 0] : Fin 3 → ℕ) a + S1x8x64.size a ≤ S125000x8x64.size a) (g2_12 : ∀ a, (Rect.unit (s := S125000x8x64) ![b 12, 0, 0] S1x8x64.size g1_12).stride a = 1)
    (g1_13 : ∀ a, (![b 13, 0, 0] : Fin 3 → ℕ) a + S1x8x64.size a ≤ S125000x8x64.size a) (g2_13 : ∀ a, (Rect.unit (s := S125000x8x64) ![b 13, 0, 0] S1x8x64.size g1_13).stride a = 1)
    (g1_14 : ∀ a, (![b 14, 0, 0] : Fin 3 → ℕ) a + S1x8x64.size a ≤ S125000x8x64.size a) (g2_14 : ∀ a, (Rect.unit (s := S125000x8x64) ![b 14, 0, 0] S1x8x64.size g1_14).stride a = 1)
    (g1_15 : ∀ a, (![b 15, 0, 0] : Fin 3 → ℕ) a + S1x8x64.size a ≤ S125000x8x64.size a) (g2_15 : ∀ a, (Rect.unit (s := S125000x8x64) ![b 15, 0, 0] S1x8x64.size g1_15).stride a = 1)
    (prior : (slotV sIA 0 h1_0 h2_0 h3_0).ty.Contents (Elt F)) (s : Fin 16) (r : Fin 8) (f : Fin 64) :
    (View.write (Elt F) (slotV sIA 15 h1_15 h2_15 h3_15) (View.write (Elt F) (slotV sIA 14 h1_14 h2_14 h3_14) (View.write (Elt F) (slotV sIA 13 h1_13 h2_13 h3_13) (View.write (Elt F) (slotV sIA 12 h1_12 h2_12 h3_12) (View.write (Elt F) (slotV sIA 11 h1_11 h2_11 h3_11) (View.write (Elt F) (slotV sIA 10 h1_10 h2_10 h3_10) (View.write (Elt F) (slotV sIA 9 h1_9 h2_9 h3_9) (View.write (Elt F) (slotV sIA 8 h1_8 h2_8 h3_8) (View.write (Elt F) (slotV sIA 7 h1_7 h2_7 h3_7) (View.write (Elt F) (slotV sIA 6 h1_6 h2_6 h3_6) (View.write (Elt F) (slotV sIA 5 h1_5 h2_5 h3_5) (View.write (Elt F) (slotV sIA 4 h1_4 h2_4 h3_4) (View.write (Elt F) (slotV sIA 3 h1_3 h2_3 h3_3) (View.write (Elt F) (slotV sIA 2 h1_2 h2_2 h3_2) (View.write (Elt F) (slotV sIA 1 h1_1 h2_1 h3_1) (View.write (Elt F) (slotV sIA 0 h1_0 h2_0 h3_0) prior (ReadAs.same.apply ((rowV iwV (b 0) g1_0 g2_0).view.read (Elt F) Wc)) Finset.univ) (ReadAs.same.apply ((rowV iwV (b 1) g1_1 g2_1).view.read (Elt F) Wc)) Finset.univ) (ReadAs.same.apply ((rowV iwV (b 2) g1_2 g2_2).view.read (Elt F) Wc)) Finset.univ) (ReadAs.same.apply ((rowV iwV (b 3) g1_3 g2_3).view.read (Elt F) Wc)) Finset.univ) (ReadAs.same.apply ((rowV iwV (b 4) g1_4 g2_4).view.read (Elt F) Wc)) Finset.univ) (ReadAs.same.apply ((rowV iwV (b 5) g1_5 g2_5).view.read (Elt F) Wc)) Finset.univ) (ReadAs.same.apply ((rowV iwV (b 6) g1_6 g2_6).view.read (Elt F) Wc)) Finset.univ) (ReadAs.same.apply ((rowV iwV (b 7) g1_7 g2_7).view.read (Elt F) Wc)) Finset.univ) (ReadAs.same.apply ((rowV iwV (b 8) g1_8 g2_8).view.read (Elt F) Wc)) Finset.univ) (ReadAs.same.apply ((rowV iwV (b 9) g1_9 g2_9).view.read (Elt F) Wc)) Finset.univ) (ReadAs.same.apply ((rowV iwV (b 10) g1_10 g2_10).view.read (Elt F) Wc)) Finset.univ) (ReadAs.same.apply ((rowV iwV (b 11) g1_11 g2_11).view.read (Elt F) Wc)) Finset.univ) (ReadAs.same.apply ((rowV iwV (b 12) g1_12 g2_12).view.read (Elt F) Wc)) Finset.univ) (ReadAs.same.apply ((rowV iwV (b 13) g1_13 g2_13).view.read (Elt F) Wc)) Finset.univ) (ReadAs.same.apply ((rowV iwV (b 14) g1_14 g2_14).view.read (Elt F) Wc)) Finset.univ) (ReadAs.same.apply ((rowV iwV (b 15) g1_15 g2_15).view.read (Elt F) Wc)) Finset.univ)
        (ValueIdx.ix3 (n0 := 16) (n1 := 8) (n2 := 64) s r f)
      = Wc (ValueIdx.ix3 (n0 := 125000) (n1 := 8) (n2 := 64) ⟨b s, hb s⟩ r f) := by
  rw [nest16_apply_IA]
  fin_cases s
  · exact row_read_apply' d (b 0) (hb 0) g1_0 g2_0 Wc r f
  · exact row_read_apply' d (b 1) (hb 1) g1_1 g2_1 Wc r f
  · exact row_read_apply' d (b 2) (hb 2) g1_2 g2_2 Wc r f
  · exact row_read_apply' d (b 3) (hb 3) g1_3 g2_3 Wc r f
  · exact row_read_apply' d (b 4) (hb 4) g1_4 g2_4 Wc r f
  · exact row_read_apply' d (b 5) (hb 5) g1_5 g2_5 Wc r f
  · exact row_read_apply' d (b 6) (hb 6) g1_6 g2_6 Wc r f
  · exact row_read_apply' d (b 7) (hb 7) g1_7 g2_7 Wc r f
  · exact row_read_apply' d (b 8) (hb 8) g1_8 g2_8 Wc r f
  · exact row_read_apply' d (b 9) (hb 9) g1_9 g2_9 Wc r f
  · exact row_read_apply' d (b 10) (hb 10) g1_10 g2_10 Wc r f
  · exact row_read_apply' d (b 11) (hb 11) g1_11 g2_11 Wc r f
  · exact row_read_apply' d (b 12) (hb 12) g1_12 g2_12 Wc r f
  · exact row_read_apply' d (b 13) (hb 13) g1_13 g2_13 Wc r f
  · exact row_read_apply' d (b 14) (hb 14) g1_14 g2_14 Wc r f
  · exact row_read_apply' d (b 15) (hb 15) g1_15 g2_15 Wc r f

/-- The same with each block given as a word: slot `s` holds the block `(v s).toNat`. -/
theorem landed_of_nest_IA_word (d : Dev nD) (v : Fin 16 → BitVec 32) (hb : ∀ s, (v s).toNat < 125000) (Wc : Buf (Elt F) (iwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![(v 0).toNat, 0, 0] : Fin 3 → ℕ) a + S1x8x64.size a ≤ S125000x8x64.size a) (g2_0 : ∀ a, (Rect.unit (s := S125000x8x64) ![(v 0).toNat, 0, 0] S1x8x64.size g1_0).stride a = 1)
    (g1_1 : ∀ a, (![(v 1).toNat, 0, 0] : Fin 3 → ℕ) a + S1x8x64.size a ≤ S125000x8x64.size a) (g2_1 : ∀ a, (Rect.unit (s := S125000x8x64) ![(v 1).toNat, 0, 0] S1x8x64.size g1_1).stride a = 1)
    (g1_2 : ∀ a, (![(v 2).toNat, 0, 0] : Fin 3 → ℕ) a + S1x8x64.size a ≤ S125000x8x64.size a) (g2_2 : ∀ a, (Rect.unit (s := S125000x8x64) ![(v 2).toNat, 0, 0] S1x8x64.size g1_2).stride a = 1)
    (g1_3 : ∀ a, (![(v 3).toNat, 0, 0] : Fin 3 → ℕ) a + S1x8x64.size a ≤ S125000x8x64.size a) (g2_3 : ∀ a, (Rect.unit (s := S125000x8x64) ![(v 3).toNat, 0, 0] S1x8x64.size g1_3).stride a = 1)
    (g1_4 : ∀ a, (![(v 4).toNat, 0, 0] : Fin 3 → ℕ) a + S1x8x64.size a ≤ S125000x8x64.size a) (g2_4 : ∀ a, (Rect.unit (s := S125000x8x64) ![(v 4).toNat, 0, 0] S1x8x64.size g1_4).stride a = 1)
    (g1_5 : ∀ a, (![(v 5).toNat, 0, 0] : Fin 3 → ℕ) a + S1x8x64.size a ≤ S125000x8x64.size a) (g2_5 : ∀ a, (Rect.unit (s := S125000x8x64) ![(v 5).toNat, 0, 0] S1x8x64.size g1_5).stride a = 1)
    (g1_6 : ∀ a, (![(v 6).toNat, 0, 0] : Fin 3 → ℕ) a + S1x8x64.size a ≤ S125000x8x64.size a) (g2_6 : ∀ a, (Rect.unit (s := S125000x8x64) ![(v 6).toNat, 0, 0] S1x8x64.size g1_6).stride a = 1)
    (g1_7 : ∀ a, (![(v 7).toNat, 0, 0] : Fin 3 → ℕ) a + S1x8x64.size a ≤ S125000x8x64.size a) (g2_7 : ∀ a, (Rect.unit (s := S125000x8x64) ![(v 7).toNat, 0, 0] S1x8x64.size g1_7).stride a = 1)
    (g1_8 : ∀ a, (![(v 8).toNat, 0, 0] : Fin 3 → ℕ) a + S1x8x64.size a ≤ S125000x8x64.size a) (g2_8 : ∀ a, (Rect.unit (s := S125000x8x64) ![(v 8).toNat, 0, 0] S1x8x64.size g1_8).stride a = 1)
    (g1_9 : ∀ a, (![(v 9).toNat, 0, 0] : Fin 3 → ℕ) a + S1x8x64.size a ≤ S125000x8x64.size a) (g2_9 : ∀ a, (Rect.unit (s := S125000x8x64) ![(v 9).toNat, 0, 0] S1x8x64.size g1_9).stride a = 1)
    (g1_10 : ∀ a, (![(v 10).toNat, 0, 0] : Fin 3 → ℕ) a + S1x8x64.size a ≤ S125000x8x64.size a) (g2_10 : ∀ a, (Rect.unit (s := S125000x8x64) ![(v 10).toNat, 0, 0] S1x8x64.size g1_10).stride a = 1)
    (g1_11 : ∀ a, (![(v 11).toNat, 0, 0] : Fin 3 → ℕ) a + S1x8x64.size a ≤ S125000x8x64.size a) (g2_11 : ∀ a, (Rect.unit (s := S125000x8x64) ![(v 11).toNat, 0, 0] S1x8x64.size g1_11).stride a = 1)
    (g1_12 : ∀ a, (![(v 12).toNat, 0, 0] : Fin 3 → ℕ) a + S1x8x64.size a ≤ S125000x8x64.size a) (g2_12 : ∀ a, (Rect.unit (s := S125000x8x64) ![(v 12).toNat, 0, 0] S1x8x64.size g1_12).stride a = 1)
    (g1_13 : ∀ a, (![(v 13).toNat, 0, 0] : Fin 3 → ℕ) a + S1x8x64.size a ≤ S125000x8x64.size a) (g2_13 : ∀ a, (Rect.unit (s := S125000x8x64) ![(v 13).toNat, 0, 0] S1x8x64.size g1_13).stride a = 1)
    (g1_14 : ∀ a, (![(v 14).toNat, 0, 0] : Fin 3 → ℕ) a + S1x8x64.size a ≤ S125000x8x64.size a) (g2_14 : ∀ a, (Rect.unit (s := S125000x8x64) ![(v 14).toNat, 0, 0] S1x8x64.size g1_14).stride a = 1)
    (g1_15 : ∀ a, (![(v 15).toNat, 0, 0] : Fin 3 → ℕ) a + S1x8x64.size a ≤ S125000x8x64.size a) (g2_15 : ∀ a, (Rect.unit (s := S125000x8x64) ![(v 15).toNat, 0, 0] S1x8x64.size g1_15).stride a = 1)
    (prior : (slotV sIA 0 h1_0 h2_0 h3_0).ty.Contents (Elt F)) (s : Fin 16) (r : Fin 8) (f : Fin 64) :
    (View.write (Elt F) (slotV sIA 15 h1_15 h2_15 h3_15) (View.write (Elt F) (slotV sIA 14 h1_14 h2_14 h3_14) (View.write (Elt F) (slotV sIA 13 h1_13 h2_13 h3_13) (View.write (Elt F) (slotV sIA 12 h1_12 h2_12 h3_12) (View.write (Elt F) (slotV sIA 11 h1_11 h2_11 h3_11) (View.write (Elt F) (slotV sIA 10 h1_10 h2_10 h3_10) (View.write (Elt F) (slotV sIA 9 h1_9 h2_9 h3_9) (View.write (Elt F) (slotV sIA 8 h1_8 h2_8 h3_8) (View.write (Elt F) (slotV sIA 7 h1_7 h2_7 h3_7) (View.write (Elt F) (slotV sIA 6 h1_6 h2_6 h3_6) (View.write (Elt F) (slotV sIA 5 h1_5 h2_5 h3_5) (View.write (Elt F) (slotV sIA 4 h1_4 h2_4 h3_4) (View.write (Elt F) (slotV sIA 3 h1_3 h2_3 h3_3) (View.write (Elt F) (slotV sIA 2 h1_2 h2_2 h3_2) (View.write (Elt F) (slotV sIA 1 h1_1 h2_1 h3_1) (View.write (Elt F) (slotV sIA 0 h1_0 h2_0 h3_0) prior (ReadAs.same.apply ((rowV iwV ((v 0).toNat) g1_0 g2_0).view.read (Elt F) Wc)) Finset.univ) (ReadAs.same.apply ((rowV iwV ((v 1).toNat) g1_1 g2_1).view.read (Elt F) Wc)) Finset.univ) (ReadAs.same.apply ((rowV iwV ((v 2).toNat) g1_2 g2_2).view.read (Elt F) Wc)) Finset.univ) (ReadAs.same.apply ((rowV iwV ((v 3).toNat) g1_3 g2_3).view.read (Elt F) Wc)) Finset.univ) (ReadAs.same.apply ((rowV iwV ((v 4).toNat) g1_4 g2_4).view.read (Elt F) Wc)) Finset.univ) (ReadAs.same.apply ((rowV iwV ((v 5).toNat) g1_5 g2_5).view.read (Elt F) Wc)) Finset.univ) (ReadAs.same.apply ((rowV iwV ((v 6).toNat) g1_6 g2_6).view.read (Elt F) Wc)) Finset.univ) (ReadAs.same.apply ((rowV iwV ((v 7).toNat) g1_7 g2_7).view.read (Elt F) Wc)) Finset.univ) (ReadAs.same.apply ((rowV iwV ((v 8).toNat) g1_8 g2_8).view.read (Elt F) Wc)) Finset.univ) (ReadAs.same.apply ((rowV iwV ((v 9).toNat) g1_9 g2_9).view.read (Elt F) Wc)) Finset.univ) (ReadAs.same.apply ((rowV iwV ((v 10).toNat) g1_10 g2_10).view.read (Elt F) Wc)) Finset.univ) (ReadAs.same.apply ((rowV iwV ((v 11).toNat) g1_11 g2_11).view.read (Elt F) Wc)) Finset.univ) (ReadAs.same.apply ((rowV iwV ((v 12).toNat) g1_12 g2_12).view.read (Elt F) Wc)) Finset.univ) (ReadAs.same.apply ((rowV iwV ((v 13).toNat) g1_13 g2_13).view.read (Elt F) Wc)) Finset.univ) (ReadAs.same.apply ((rowV iwV ((v 14).toNat) g1_14 g2_14).view.read (Elt F) Wc)) Finset.univ) (ReadAs.same.apply ((rowV iwV ((v 15).toNat) g1_15 g2_15).view.read (Elt F) Wc)) Finset.univ)
        (ValueIdx.ix3 (n0 := 16) (n1 := 8) (n2 := 64) s r f)
      = Wc (ValueIdx.ix3 (n0 := 125000) (n1 := 8) (n2 := 64) ⟨(v s).toNat, hb s⟩ r f) := by
  rw [nest16_apply_IA]
  fin_cases s
  · exact row_read_apply' d ((v 0).toNat) (hb 0) g1_0 g2_0 Wc r f
  · exact row_read_apply' d ((v 1).toNat) (hb 1) g1_1 g2_1 Wc r f
  · exact row_read_apply' d ((v 2).toNat) (hb 2) g1_2 g2_2 Wc r f
  · exact row_read_apply' d ((v 3).toNat) (hb 3) g1_3 g2_3 Wc r f
  · exact row_read_apply' d ((v 4).toNat) (hb 4) g1_4 g2_4 Wc r f
  · exact row_read_apply' d ((v 5).toNat) (hb 5) g1_5 g2_5 Wc r f
  · exact row_read_apply' d ((v 6).toNat) (hb 6) g1_6 g2_6 Wc r f
  · exact row_read_apply' d ((v 7).toNat) (hb 7) g1_7 g2_7 Wc r f
  · exact row_read_apply' d ((v 8).toNat) (hb 8) g1_8 g2_8 Wc r f
  · exact row_read_apply' d ((v 9).toNat) (hb 9) g1_9 g2_9 Wc r f
  · exact row_read_apply' d ((v 10).toNat) (hb 10) g1_10 g2_10 Wc r f
  · exact row_read_apply' d ((v 11).toNat) (hb 11) g1_11 g2_11 Wc r f
  · exact row_read_apply' d ((v 12).toNat) (hb 12) g1_12 g2_12 Wc r f
  · exact row_read_apply' d ((v 13).toNat) (hb 13) g1_13 g2_13 Wc r f
  · exact row_read_apply' d ((v 14).toNat) (hb 14) g1_14 g2_14 Wc r f
  · exact row_read_apply' d ((v 15).toNat) (hb 15) g1_15 g2_15 Wc r f

/-- `sUB` AFTER ITS SIXTEEN COPIES: slot `s` was written with block `b s` of the first table as the copy reads it, so position
    `(s, r, f)` holds the table at `(b s, r, f)`, whatever the buffer held before. -/
theorem landed_of_nest_UB (d : Dev nD) (b : Fin 16 → ℕ) (hb : ∀ s, b s < 125000) (Wc : Buf (Elt F) (uwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![b 0, 0, 0] : Fin 3 → ℕ) a + S1x8x64.size a ≤ S125000x8x64.size a) (g2_0 : ∀ a, (Rect.unit (s := S125000x8x64) ![b 0, 0, 0] S1x8x64.size g1_0).stride a = 1)
    (g1_1 : ∀ a, (![b 1, 0, 0] : Fin 3 → ℕ) a + S1x8x64.size a ≤ S125000x8x64.size a) (g2_1 : ∀ a, (Rect.unit (s := S125000x8x64) ![b 1, 0, 0] S1x8x64.size g1_1).stride a = 1)
    (g1_2 : ∀ a, (![b 2, 0, 0] : Fin 3 → ℕ) a + S1x8x64.size a ≤ S125000x8x64.size a) (g2_2 : ∀ a, (Rect.unit (s := S125000x8x64) ![b 2, 0, 0] S1x8x64.size g1_2).stride a = 1)
    (g1_3 : ∀ a, (![b 3, 0, 0] : Fin 3 → ℕ) a + S1x8x64.size a ≤ S125000x8x64.size a) (g2_3 : ∀ a, (Rect.unit (s := S125000x8x64) ![b 3, 0, 0] S1x8x64.size g1_3).stride a = 1)
    (g1_4 : ∀ a, (![b 4, 0, 0] : Fin 3 → ℕ) a + S1x8x64.size a ≤ S125000x8x64.size a) (g2_4 : ∀ a, (Rect.unit (s := S125000x8x64) ![b 4, 0, 0] S1x8x64.size g1_4).stride a = 1)
    (g1_5 : ∀ a, (![b 5, 0, 0] : Fin 3 → ℕ) a + S1x8x64.size a ≤ S125000x8x64.size a) (g2_5 : ∀ a, (Rect.unit (s := S125000x8x64) ![b 5, 0, 0] S1x8x64.size g1_5).stride a = 1)
    (g1_6 : ∀ a, (![b 6, 0, 0] : Fin 3 → ℕ) a + S1x8x64.size a ≤ S125000x8x64.size a) (g2_6 : ∀ a, (Rect.unit (s := S125000x8x64) ![b 6, 0, 0] S1x8x64.size g1_6).stride a = 1)
    (g1_7 : ∀ a, (![b 7, 0, 0] : Fin 3 → ℕ) a + S1x8x64.size a ≤ S125000x8x64.size a) (g2_7 : ∀ a, (Rect.unit (s := S125000x8x64) ![b 7, 0, 0] S1x8x64.size g1_7).stride a = 1)
    (g1_8 : ∀ a, (![b 8, 0, 0] : Fin 3 → ℕ) a + S1x8x64.size a ≤ S125000x8x64.size a) (g2_8 : ∀ a, (Rect.unit (s := S125000x8x64) ![b 8, 0, 0] S1x8x64.size g1_8).stride a = 1)
    (g1_9 : ∀ a, (![b 9, 0, 0] : Fin 3 → ℕ) a + S1x8x64.size a ≤ S125000x8x64.size a) (g2_9 : ∀ a, (Rect.unit (s := S125000x8x64) ![b 9, 0, 0] S1x8x64.size g1_9).stride a = 1)
    (g1_10 : ∀ a, (![b 10, 0, 0] : Fin 3 → ℕ) a + S1x8x64.size a ≤ S125000x8x64.size a) (g2_10 : ∀ a, (Rect.unit (s := S125000x8x64) ![b 10, 0, 0] S1x8x64.size g1_10).stride a = 1)
    (g1_11 : ∀ a, (![b 11, 0, 0] : Fin 3 → ℕ) a + S1x8x64.size a ≤ S125000x8x64.size a) (g2_11 : ∀ a, (Rect.unit (s := S125000x8x64) ![b 11, 0, 0] S1x8x64.size g1_11).stride a = 1)
    (g1_12 : ∀ a, (![b 12, 0, 0] : Fin 3 → ℕ) a + S1x8x64.size a ≤ S125000x8x64.size a) (g2_12 : ∀ a, (Rect.unit (s := S125000x8x64) ![b 12, 0, 0] S1x8x64.size g1_12).stride a = 1)
    (g1_13 : ∀ a, (![b 13, 0, 0] : Fin 3 → ℕ) a + S1x8x64.size a ≤ S125000x8x64.size a) (g2_13 : ∀ a, (Rect.unit (s := S125000x8x64) ![b 13, 0, 0] S1x8x64.size g1_13).stride a = 1)
    (g1_14 : ∀ a, (![b 14, 0, 0] : Fin 3 → ℕ) a + S1x8x64.size a ≤ S125000x8x64.size a) (g2_14 : ∀ a, (Rect.unit (s := S125000x8x64) ![b 14, 0, 0] S1x8x64.size g1_14).stride a = 1)
    (g1_15 : ∀ a, (![b 15, 0, 0] : Fin 3 → ℕ) a + S1x8x64.size a ≤ S125000x8x64.size a) (g2_15 : ∀ a, (Rect.unit (s := S125000x8x64) ![b 15, 0, 0] S1x8x64.size g1_15).stride a = 1)
    (prior : (slotV sUB 0 h1_0 h2_0 h3_0).ty.Contents (Elt F)) (s : Fin 16) (r : Fin 8) (f : Fin 64) :
    (View.write (Elt F) (slotV sUB 15 h1_15 h2_15 h3_15) (View.write (Elt F) (slotV sUB 14 h1_14 h2_14 h3_14) (View.write (Elt F) (slotV sUB 13 h1_13 h2_13 h3_13) (View.write (Elt F) (slotV sUB 12 h1_12 h2_12 h3_12) (View.write (Elt F) (slotV sUB 11 h1_11 h2_11 h3_11) (View.write (Elt F) (slotV sUB 10 h1_10 h2_10 h3_10) (View.write (Elt F) (slotV sUB 9 h1_9 h2_9 h3_9) (View.write (Elt F) (slotV sUB 8 h1_8 h2_8 h3_8) (View.write (Elt F) (slotV sUB 7 h1_7 h2_7 h3_7) (View.write (Elt F) (slotV sUB 6 h1_6 h2_6 h3_6) (View.write (Elt F) (slotV sUB 5 h1_5 h2_5 h3_5) (View.write (Elt F) (slotV sUB 4 h1_4 h2_4 h3_4) (View.write (Elt F) (slotV sUB 3 h1_3 h2_3 h3_3) (View.write (Elt F) (slotV sUB 2 h1_2 h2_2 h3_2) (View.write (Elt F) (slotV sUB 1 h1_1 h2_1 h3_1) (View.write (Elt F) (slotV sUB 0 h1_0 h2_0 h3_0) prior (ReadAs.same.apply ((rowV uwV (b 0) g1_0 g2_0).view.read (Elt F) Wc)) Finset.univ) (ReadAs.same.apply ((rowV uwV (b 1) g1_1 g2_1).view.read (Elt F) Wc)) Finset.univ) (ReadAs.same.apply ((rowV uwV (b 2) g1_2 g2_2).view.read (Elt F) Wc)) Finset.univ) (ReadAs.same.apply ((rowV uwV (b 3) g1_3 g2_3).view.read (Elt F) Wc)) Finset.univ) (ReadAs.same.apply ((rowV uwV (b 4) g1_4 g2_4).view.read (Elt F) Wc)) Finset.univ) (ReadAs.same.apply ((rowV uwV (b 5) g1_5 g2_5).view.read (Elt F) Wc)) Finset.univ) (ReadAs.same.apply ((rowV uwV (b 6) g1_6 g2_6).view.read (Elt F) Wc)) Finset.univ) (ReadAs.same.apply ((rowV uwV (b 7) g1_7 g2_7).view.read (Elt F) Wc)) Finset.univ) (ReadAs.same.apply ((rowV uwV (b 8) g1_8 g2_8).view.read (Elt F) Wc)) Finset.univ) (ReadAs.same.apply ((rowV uwV (b 9) g1_9 g2_9).view.read (Elt F) Wc)) Finset.univ) (ReadAs.same.apply ((rowV uwV (b 10) g1_10 g2_10).view.read (Elt F) Wc)) Finset.univ) (ReadAs.same.apply ((rowV uwV (b 11) g1_11 g2_11).view.read (Elt F) Wc)) Finset.univ) (ReadAs.same.apply ((rowV uwV (b 12) g1_12 g2_12).view.read (Elt F) Wc)) Finset.univ) (ReadAs.same.apply ((rowV uwV (b 13) g1_13 g2_13).view.read (Elt F) Wc)) Finset.univ) (ReadAs.same.apply ((rowV uwV (b 14) g1_14 g2_14).view.read (Elt F) Wc)) Finset.univ) (ReadAs.same.apply ((rowV uwV (b 15) g1_15 g2_15).view.read (Elt F) Wc)) Finset.univ)
        (ValueIdx.ix3 (n0 := 16) (n1 := 8) (n2 := 64) s r f)
      = Wc (ValueIdx.ix3 (n0 := 125000) (n1 := 8) (n2 := 64) ⟨b s, hb s⟩ r f) := by
  rw [nest16_apply_UB]
  fin_cases s
  · exact row_read_apply d (b 0) (hb 0) g1_0 g2_0 Wc r f
  · exact row_read_apply d (b 1) (hb 1) g1_1 g2_1 Wc r f
  · exact row_read_apply d (b 2) (hb 2) g1_2 g2_2 Wc r f
  · exact row_read_apply d (b 3) (hb 3) g1_3 g2_3 Wc r f
  · exact row_read_apply d (b 4) (hb 4) g1_4 g2_4 Wc r f
  · exact row_read_apply d (b 5) (hb 5) g1_5 g2_5 Wc r f
  · exact row_read_apply d (b 6) (hb 6) g1_6 g2_6 Wc r f
  · exact row_read_apply d (b 7) (hb 7) g1_7 g2_7 Wc r f
  · exact row_read_apply d (b 8) (hb 8) g1_8 g2_8 Wc r f
  · exact row_read_apply d (b 9) (hb 9) g1_9 g2_9 Wc r f
  · exact row_read_apply d (b 10) (hb 10) g1_10 g2_10 Wc r f
  · exact row_read_apply d (b 11) (hb 11) g1_11 g2_11 Wc r f
  · exact row_read_apply d (b 12) (hb 12) g1_12 g2_12 Wc r f
  · exact row_read_apply d (b 13) (hb 13) g1_13 g2_13 Wc r f
  · exact row_read_apply d (b 14) (hb 14) g1_14 g2_14 Wc r f
  · exact row_read_apply d (b 15) (hb 15) g1_15 g2_15 Wc r f

/-- The same with each block given as a word: slot `s` holds the block `(v s).toNat`. -/
theorem landed_of_nest_UB_word (d : Dev nD) (v : Fin 16 → BitVec 32) (hb : ∀ s, (v s).toNat < 125000) (Wc : Buf (Elt F) (uwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![(v 0).toNat, 0, 0] : Fin 3 → ℕ) a + S1x8x64.size a ≤ S125000x8x64.size a) (g2_0 : ∀ a, (Rect.unit (s := S125000x8x64) ![(v 0).toNat, 0, 0] S1x8x64.size g1_0).stride a = 1)
    (g1_1 : ∀ a, (![(v 1).toNat, 0, 0] : Fin 3 → ℕ) a + S1x8x64.size a ≤ S125000x8x64.size a) (g2_1 : ∀ a, (Rect.unit (s := S125000x8x64) ![(v 1).toNat, 0, 0] S1x8x64.size g1_1).stride a = 1)
    (g1_2 : ∀ a, (![(v 2).toNat, 0, 0] : Fin 3 → ℕ) a + S1x8x64.size a ≤ S125000x8x64.size a) (g2_2 : ∀ a, (Rect.unit (s := S125000x8x64) ![(v 2).toNat, 0, 0] S1x8x64.size g1_2).stride a = 1)
    (g1_3 : ∀ a, (![(v 3).toNat, 0, 0] : Fin 3 → ℕ) a + S1x8x64.size a ≤ S125000x8x64.size a) (g2_3 : ∀ a, (Rect.unit (s := S125000x8x64) ![(v 3).toNat, 0, 0] S1x8x64.size g1_3).stride a = 1)
    (g1_4 : ∀ a, (![(v 4).toNat, 0, 0] : Fin 3 → ℕ) a + S1x8x64.size a ≤ S125000x8x64.size a) (g2_4 : ∀ a, (Rect.unit (s := S125000x8x64) ![(v 4).toNat, 0, 0] S1x8x64.size g1_4).stride a = 1)
    (g1_5 : ∀ a, (![(v 5).toNat, 0, 0] : Fin 3 → ℕ) a + S1x8x64.size a ≤ S125000x8x64.size a) (g2_5 : ∀ a, (Rect.unit (s := S125000x8x64) ![(v 5).toNat, 0, 0] S1x8x64.size g1_5).stride a = 1)
    (g1_6 : ∀ a, (![(v 6).toNat, 0, 0] : Fin 3 → ℕ) a + S1x8x64.size a ≤ S125000x8x64.size a) (g2_6 : ∀ a, (Rect.unit (s := S125000x8x64) ![(v 6).toNat, 0, 0] S1x8x64.size g1_6).stride a = 1)
    (g1_7 : ∀ a, (![(v 7).toNat, 0, 0] : Fin 3 → ℕ) a + S1x8x64.size a ≤ S125000x8x64.size a) (g2_7 : ∀ a, (Rect.unit (s := S125000x8x64) ![(v 7).toNat, 0, 0] S1x8x64.size g1_7).stride a = 1)
    (g1_8 : ∀ a, (![(v 8).toNat, 0, 0] : Fin 3 → ℕ) a + S1x8x64.size a ≤ S125000x8x64.size a) (g2_8 : ∀ a, (Rect.unit (s := S125000x8x64) ![(v 8).toNat, 0, 0] S1x8x64.size g1_8).stride a = 1)
    (g1_9 : ∀ a, (![(v 9).toNat, 0, 0] : Fin 3 → ℕ) a + S1x8x64.size a ≤ S125000x8x64.size a) (g2_9 : ∀ a, (Rect.unit (s := S125000x8x64) ![(v 9).toNat, 0, 0] S1x8x64.size g1_9).stride a = 1)
    (g1_10 : ∀ a, (![(v 10).toNat, 0, 0] : Fin 3 → ℕ) a + S1x8x64.size a ≤ S125000x8x64.size a) (g2_10 : ∀ a, (Rect.unit (s := S125000x8x64) ![(v 10).toNat, 0, 0] S1x8x64.size g1_10).stride a = 1)
    (g1_11 : ∀ a, (![(v 11).toNat, 0, 0] : Fin 3 → ℕ) a + S1x8x64.size a ≤ S125000x8x64.size a) (g2_11 : ∀ a, (Rect.unit (s := S125000x8x64) ![(v 11).toNat, 0, 0] S1x8x64.size g1_11).stride a = 1)
    (g1_12 : ∀ a, (![(v 12).toNat, 0, 0] : Fin 3 → ℕ) a + S1x8x64.size a ≤ S125000x8x64.size a) (g2_12 : ∀ a, (Rect.unit (s := S125000x8x64) ![(v 12).toNat, 0, 0] S1x8x64.size g1_12).stride a = 1)
    (g1_13 : ∀ a, (![(v 13).toNat, 0, 0] : Fin 3 → ℕ) a + S1x8x64.size a ≤ S125000x8x64.size a) (g2_13 : ∀ a, (Rect.unit (s := S125000x8x64) ![(v 13).toNat, 0, 0] S1x8x64.size g1_13).stride a = 1)
    (g1_14 : ∀ a, (![(v 14).toNat, 0, 0] : Fin 3 → ℕ) a + S1x8x64.size a ≤ S125000x8x64.size a) (g2_14 : ∀ a, (Rect.unit (s := S125000x8x64) ![(v 14).toNat, 0, 0] S1x8x64.size g1_14).stride a = 1)
    (g1_15 : ∀ a, (![(v 15).toNat, 0, 0] : Fin 3 → ℕ) a + S1x8x64.size a ≤ S125000x8x64.size a) (g2_15 : ∀ a, (Rect.unit (s := S125000x8x64) ![(v 15).toNat, 0, 0] S1x8x64.size g1_15).stride a = 1)
    (prior : (slotV sUB 0 h1_0 h2_0 h3_0).ty.Contents (Elt F)) (s : Fin 16) (r : Fin 8) (f : Fin 64) :
    (View.write (Elt F) (slotV sUB 15 h1_15 h2_15 h3_15) (View.write (Elt F) (slotV sUB 14 h1_14 h2_14 h3_14) (View.write (Elt F) (slotV sUB 13 h1_13 h2_13 h3_13) (View.write (Elt F) (slotV sUB 12 h1_12 h2_12 h3_12) (View.write (Elt F) (slotV sUB 11 h1_11 h2_11 h3_11) (View.write (Elt F) (slotV sUB 10 h1_10 h2_10 h3_10) (View.write (Elt F) (slotV sUB 9 h1_9 h2_9 h3_9) (View.write (Elt F) (slotV sUB 8 h1_8 h2_8 h3_8) (View.write (Elt F) (slotV sUB 7 h1_7 h2_7 h3_7) (View.write (Elt F) (slotV sUB 6 h1_6 h2_6 h3_6) (View.write (Elt F) (slotV sUB 5 h1_5 h2_5 h3_5) (View.write (Elt F) (slotV sUB 4 h1_4 h2_4 h3_4) (View.write (Elt F) (slotV sUB 3 h1_3 h2_3 h3_3) (View.write (Elt F) (slotV sUB 2 h1_2 h2_2 h3_2) (View.write (Elt F) (slotV sUB 1 h1_1 h2_1 h3_1) (View.write (Elt F) (slotV sUB 0 h1_0 h2_0 h3_0) prior (ReadAs.same.apply ((rowV uwV ((v 0).toNat) g1_0 g2_0).view.read (Elt F) Wc)) Finset.univ) (ReadAs.same.apply ((rowV uwV ((v 1).toNat) g1_1 g2_1).view.read (Elt F) Wc)) Finset.univ) (ReadAs.same.apply ((rowV uwV ((v 2).toNat) g1_2 g2_2).view.read (Elt F) Wc)) Finset.univ) (ReadAs.same.apply ((rowV uwV ((v 3).toNat) g1_3 g2_3).view.read (Elt F) Wc)) Finset.univ) (ReadAs.same.apply ((rowV uwV ((v 4).toNat) g1_4 g2_4).view.read (Elt F) Wc)) Finset.univ) (ReadAs.same.apply ((rowV uwV ((v 5).toNat) g1_5 g2_5).view.read (Elt F) Wc)) Finset.univ) (ReadAs.same.apply ((rowV uwV ((v 6).toNat) g1_6 g2_6).view.read (Elt F) Wc)) Finset.univ) (ReadAs.same.apply ((rowV uwV ((v 7).toNat) g1_7 g2_7).view.read (Elt F) Wc)) Finset.univ) (ReadAs.same.apply ((rowV uwV ((v 8).toNat) g1_8 g2_8).view.read (Elt F) Wc)) Finset.univ) (ReadAs.same.apply ((rowV uwV ((v 9).toNat) g1_9 g2_9).view.read (Elt F) Wc)) Finset.univ) (ReadAs.same.apply ((rowV uwV ((v 10).toNat) g1_10 g2_10).view.read (Elt F) Wc)) Finset.univ) (ReadAs.same.apply ((rowV uwV ((v 11).toNat) g1_11 g2_11).view.read (Elt F) Wc)) Finset.univ) (ReadAs.same.apply ((rowV uwV ((v 12).toNat) g1_12 g2_12).view.read (Elt F) Wc)) Finset.univ) (ReadAs.same.apply ((rowV uwV ((v 13).toNat) g1_13 g2_13).view.read (Elt F) Wc)) Finset.univ) (ReadAs.same.apply ((rowV uwV ((v 14).toNat) g1_14 g2_14).view.read (Elt F) Wc)) Finset.univ) (ReadAs.same.apply ((rowV uwV ((v 15).toNat) g1_15 g2_15).view.read (Elt F) Wc)) Finset.univ)
        (ValueIdx.ix3 (n0 := 16) (n1 := 8) (n2 := 64) s r f)
      = Wc (ValueIdx.ix3 (n0 := 125000) (n1 := 8) (n2 := 64) ⟨(v s).toNat, hb s⟩ r f) := by
  rw [nest16_apply_UB]
  fin_cases s
  · exact row_read_apply d ((v 0).toNat) (hb 0) g1_0 g2_0 Wc r f
  · exact row_read_apply d ((v 1).toNat) (hb 1) g1_1 g2_1 Wc r f
  · exact row_read_apply d ((v 2).toNat) (hb 2) g1_2 g2_2 Wc r f
  · exact row_read_apply d ((v 3).toNat) (hb 3) g1_3 g2_3 Wc r f
  · exact row_read_apply d ((v 4).toNat) (hb 4) g1_4 g2_4 Wc r f
  · exact row_read_apply d ((v 5).toNat) (hb 5) g1_5 g2_5 Wc r f
  · exact row_read_apply d ((v 6).toNat) (hb 6) g1_6 g2_6 Wc r f
  · exact row_read_apply d ((v 7).toNat) (hb 7) g1_7 g2_7 Wc r f
  · exact row_read_apply d ((v 8).toNat) (hb 8) g1_8 g2_8 Wc r f
  · exact row_read_apply d ((v 9).toNat) (hb 9) g1_9 g2_9 Wc r f
  · exact row_read_apply d ((v 10).toNat) (hb 10) g1_10 g2_10 Wc r f
  · exact row_read_apply d ((v 11).toNat) (hb 11) g1_11 g2_11 Wc r f
  · exact row_read_apply d ((v 12).toNat) (hb 12) g1_12 g2_12 Wc r f
  · exact row_read_apply d ((v 13).toNat) (hb 13) g1_13 g2_13 Wc r f
  · exact row_read_apply d ((v 14).toNat) (hb 14) g1_14 g2_14 Wc r f
  · exact row_read_apply d ((v 15).toNat) (hb 15) g1_15 g2_15 Wc r f

/-- `sIB` AFTER ITS SIXTEEN COPIES: slot `s` was written with block `b s` of the second table as the copy reads it, so position
    `(s, r, f)` holds the table at `(b s, r, f)`, whatever the buffer held before. -/
theorem landed_of_nest_IB (d : Dev nD) (b : Fin 16 → ℕ) (hb : ∀ s, b s < 125000) (Wc : Buf (Elt F) (iwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![b 0, 0, 0] : Fin 3 → ℕ) a + S1x8x64.size a ≤ S125000x8x64.size a) (g2_0 : ∀ a, (Rect.unit (s := S125000x8x64) ![b 0, 0, 0] S1x8x64.size g1_0).stride a = 1)
    (g1_1 : ∀ a, (![b 1, 0, 0] : Fin 3 → ℕ) a + S1x8x64.size a ≤ S125000x8x64.size a) (g2_1 : ∀ a, (Rect.unit (s := S125000x8x64) ![b 1, 0, 0] S1x8x64.size g1_1).stride a = 1)
    (g1_2 : ∀ a, (![b 2, 0, 0] : Fin 3 → ℕ) a + S1x8x64.size a ≤ S125000x8x64.size a) (g2_2 : ∀ a, (Rect.unit (s := S125000x8x64) ![b 2, 0, 0] S1x8x64.size g1_2).stride a = 1)
    (g1_3 : ∀ a, (![b 3, 0, 0] : Fin 3 → ℕ) a + S1x8x64.size a ≤ S125000x8x64.size a) (g2_3 : ∀ a, (Rect.unit (s := S125000x8x64) ![b 3, 0, 0] S1x8x64.size g1_3).stride a = 1)
    (g1_4 : ∀ a, (![b 4, 0, 0] : Fin 3 → ℕ) a + S1x8x64.size a ≤ S125000x8x64.size a) (g2_4 : ∀ a, (Rect.unit (s := S125000x8x64) ![b 4, 0, 0] S1x8x64.size g1_4).stride a = 1)
    (g1_5 : ∀ a, (![b 5, 0, 0] : Fin 3 → ℕ) a + S1x8x64.size a ≤ S125000x8x64.size a) (g2_5 : ∀ a, (Rect.unit (s := S125000x8x64) ![b 5, 0, 0] S1x8x64.size g1_5).stride a = 1)
    (g1_6 : ∀ a, (![b 6, 0, 0] : Fin 3 → ℕ) a + S1x8x64.size a ≤ S125000x8x64.size a) (g2_6 : ∀ a, (Rect.unit (s := S125000x8x64) ![b 6, 0, 0] S1x8x64.size g1_6).stride a = 1)
    (g1_7 : ∀ a, (![b 7, 0, 0] : Fin 3 → ℕ) a + S1x8x64.size a ≤ S125000x8x64.size a) (g2_7 : ∀ a, (Rect.unit (s := S125000x8x64) ![b 7, 0, 0] S1x8x64.size g1_7).stride a = 1)
    (g1_8 : ∀ a, (![b 8, 0, 0] : Fin 3 → ℕ) a + S1x8x64.size a ≤ S125000x8x64.size a) (g2_8 : ∀ a, (Rect.unit (s := S125000x8x64) ![b 8, 0, 0] S1x8x64.size g1_8).stride a = 1)
    (g1_9 : ∀ a, (![b 9, 0, 0] : Fin 3 → ℕ) a + S1x8x64.size a ≤ S125000x8x64.size a) (g2_9 : ∀ a, (Rect.unit (s := S125000x8x64) ![b 9, 0, 0] S1x8x64.size g1_9).stride a = 1)
    (g1_10 : ∀ a, (![b 10, 0, 0] : Fin 3 → ℕ) a + S1x8x64.size a ≤ S125000x8x64.size a) (g2_10 : ∀ a, (Rect.unit (s := S125000x8x64) ![b 10, 0, 0] S1x8x64.size g1_10).stride a = 1)
    (g1_11 : ∀ a, (![b 11, 0, 0] : Fin 3 → ℕ) a + S1x8x64.size a ≤ S125000x8x64.size a) (g2_11 : ∀ a, (Rect.unit (s := S125000x8x64) ![b 11, 0, 0] S1x8x64.size g1_11).stride a = 1)
    (g1_12 : ∀ a, (![b 12, 0, 0] : Fin 3 → ℕ) a + S1x8x64.size a ≤ S125000x8x64.size a) (g2_12 : ∀ a, (Rect.unit (s := S125000x8x64) ![b 12, 0, 0] S1x8x64.size g1_12).stride a = 1)
    (g1_13 : ∀ a, (![b 13, 0, 0] : Fin 3 → ℕ) a + S1x8x64.size a ≤ S125000x8x64.size a) (g2_13 : ∀ a, (Rect.unit (s := S125000x8x64) ![b 13, 0, 0] S1x8x64.size g1_13).stride a = 1)
    (g1_14 : ∀ a, (![b 14, 0, 0] : Fin 3 → ℕ) a + S1x8x64.size a ≤ S125000x8x64.size a) (g2_14 : ∀ a, (Rect.unit (s := S125000x8x64) ![b 14, 0, 0] S1x8x64.size g1_14).stride a = 1)
    (g1_15 : ∀ a, (![b 15, 0, 0] : Fin 3 → ℕ) a + S1x8x64.size a ≤ S125000x8x64.size a) (g2_15 : ∀ a, (Rect.unit (s := S125000x8x64) ![b 15, 0, 0] S1x8x64.size g1_15).stride a = 1)
    (prior : (slotV sIB 0 h1_0 h2_0 h3_0).ty.Contents (Elt F)) (s : Fin 16) (r : Fin 8) (f : Fin 64) :
    (View.write (Elt F) (slotV sIB 15 h1_15 h2_15 h3_15) (View.write (Elt F) (slotV sIB 14 h1_14 h2_14 h3_14) (View.write (Elt F) (slotV sIB 13 h1_13 h2_13 h3_13) (View.write (Elt F) (slotV sIB 12 h1_12 h2_12 h3_12) (View.write (Elt F) (slotV sIB 11 h1_11 h2_11 h3_11) (View.write (Elt F) (slotV sIB 10 h1_10 h2_10 h3_10) (View.write (Elt F) (slotV sIB 9 h1_9 h2_9 h3_9) (View.write (Elt F) (slotV sIB 8 h1_8 h2_8 h3_8) (View.write (Elt F) (slotV sIB 7 h1_7 h2_7 h3_7) (View.write (Elt F) (slotV sIB 6 h1_6 h2_6 h3_6) (View.write (Elt F) (slotV sIB 5 h1_5 h2_5 h3_5) (View.write (Elt F) (slotV sIB 4 h1_4 h2_4 h3_4) (View.write (Elt F) (slotV sIB 3 h1_3 h2_3 h3_3) (View.write (Elt F) (slotV sIB 2 h1_2 h2_2 h3_2) (View.write (Elt F) (slotV sIB 1 h1_1 h2_1 h3_1) (View.write (Elt F) (slotV sIB 0 h1_0 h2_0 h3_0) prior (ReadAs.same.apply ((rowV iwV (b 0) g1_0 g2_0).view.read (Elt F) Wc)) Finset.univ) (ReadAs.same.apply ((rowV iwV (b 1) g1_1 g2_1).view.read (Elt F) Wc)) Finset.univ) (ReadAs.same.apply ((rowV iwV (b 2) g1_2 g2_2).view.read (Elt F) Wc)) Finset.univ) (ReadAs.same.apply ((rowV iwV (b 3) g1_3 g2_3).view.read (Elt F) Wc)) Finset.univ) (ReadAs.same.apply ((rowV iwV (b 4) g1_4 g2_4).view.read (Elt F) Wc)) Finset.univ) (ReadAs.same.apply ((rowV iwV (b 5) g1_5 g2_5).view.read (Elt F) Wc)) Finset.univ) (ReadAs.same.apply ((rowV iwV (b 6) g1_6 g2_6).view.read (Elt F) Wc)) Finset.univ) (ReadAs.same.apply ((rowV iwV (b 7) g1_7 g2_7).view.read (Elt F) Wc)) Finset.univ) (ReadAs.same.apply ((rowV iwV (b 8) g1_8 g2_8).view.read (Elt F) Wc)) Finset.univ) (ReadAs.same.apply ((rowV iwV (b 9) g1_9 g2_9).view.read (Elt F) Wc)) Finset.univ) (ReadAs.same.apply ((rowV iwV (b 10) g1_10 g2_10).view.read (Elt F) Wc)) Finset.univ) (ReadAs.same.apply ((rowV iwV (b 11) g1_11 g2_11).view.read (Elt F) Wc)) Finset.univ) (ReadAs.same.apply ((rowV iwV (b 12) g1_12 g2_12).view.read (Elt F) Wc)) Finset.univ) (ReadAs.same.apply ((rowV iwV (b 13) g1_13 g2_13).view.read (Elt F) Wc)) Finset.univ) (ReadAs.same.apply ((rowV iwV (b 14) g1_14 g2_14).view.read (Elt F) Wc)) Finset.univ) (ReadAs.same.apply ((rowV iwV (b 15) g1_15 g2_15).view.read (Elt F) Wc)) Finset.univ)
        (ValueIdx.ix3 (n0 := 16) (n1 := 8) (n2 := 64) s r f)
      = Wc (ValueIdx.ix3 (n0 := 125000) (n1 := 8) (n2 := 64) ⟨b s, hb s⟩ r f) := by
  rw [nest16_apply_IB]
  fin_cases s
  · exact row_read_apply' d (b 0) (hb 0) g1_0 g2_0 Wc r f
  · exact row_read_apply' d (b 1) (hb 1) g1_1 g2_1 Wc r f
  · exact row_read_apply' d (b 2) (hb 2) g1_2 g2_2 Wc r f
  · exact row_read_apply' d (b 3) (hb 3) g1_3 g2_3 Wc r f
  · exact row_read_apply' d (b 4) (hb 4) g1_4 g2_4 Wc r f
  · exact row_read_apply' d (b 5) (hb 5) g1_5 g2_5 Wc r f
  · exact row_read_apply' d (b 6) (hb 6) g1_6 g2_6 Wc r f
  · exact row_read_apply' d (b 7) (hb 7) g1_7 g2_7 Wc r f
  · exact row_read_apply' d (b 8) (hb 8) g1_8 g2_8 Wc r f
  · exact row_read_apply' d (b 9) (hb 9) g1_9 g2_9 Wc r f
  · exact row_read_apply' d (b 10) (hb 10) g1_10 g2_10 Wc r f
  · exact row_read_apply' d (b 11) (hb 11) g1_11 g2_11 Wc r f
  · exact row_read_apply' d (b 12) (hb 12) g1_12 g2_12 Wc r f
  · exact row_read_apply' d (b 13) (hb 13) g1_13 g2_13 Wc r f
  · exact row_read_apply' d (b 14) (hb 14) g1_14 g2_14 Wc r f
  · exact row_read_apply' d (b 15) (hb 15) g1_15 g2_15 Wc r f

/-- The same with each block given as a word: slot `s` holds the block `(v s).toNat`. -/
theorem landed_of_nest_IB_word (d : Dev nD) (v : Fin 16 → BitVec 32) (hb : ∀ s, (v s).toNat < 125000) (Wc : Buf (Elt F) (iwLoc d))
    (h1_0 : ∀ a, (![0, 0, 0] : Fin 3 → ℕ) a + S1x8x64.size a ≤ S16x8x64.size a) (h2_0 : ∀ a, (Rect.unit (s := S16x8x64) ![0, 0, 0] S1x8x64.size h1_0).stride a = 1) (h3_0 : S1x8x64.Squeezes S8x64)
    (h1_1 : ∀ a, (![1, 0, 0] : Fin 3 → ℕ) a + S1x8x64.size a ≤ S16x8x64.size a) (h2_1 : ∀ a, (Rect.unit (s := S16x8x64) ![1, 0, 0] S1x8x64.size h1_1).stride a = 1) (h3_1 : S1x8x64.Squeezes S8x64)
    (h1_2 : ∀ a, (![2, 0, 0] : Fin 3 → ℕ) a + S1x8x64.size a ≤ S16x8x64.size a) (h2_2 : ∀ a, (Rect.unit (s := S16x8x64) ![2, 0, 0] S1x8x64.size h1_2).stride a = 1) (h3_2 : S1x8x64.Squeezes S8x64)
    (h1_3 : ∀ a, (![3, 0, 0] : Fin 3 → ℕ) a + S1x8x64.size a ≤ S16x8x64.size a) (h2_3 : ∀ a, (Rect.unit (s := S16x8x64) ![3, 0, 0] S1x8x64.size h1_3).stride a = 1) (h3_3 : S1x8x64.Squeezes S8x64)
    (h1_4 : ∀ a, (![4, 0, 0] : Fin 3 → ℕ) a + S1x8x64.size a ≤ S16x8x64.size a) (h2_4 : ∀ a, (Rect.unit (s := S16x8x64) ![4, 0, 0] S1x8x64.size h1_4).stride a = 1) (h3_4 : S1x8x64.Squeezes S8x64)
    (h1_5 : ∀ a, (![5, 0, 0] : Fin 3 → ℕ) a + S1x8x64.size a ≤ S16x8x64.size a) (h2_5 : ∀ a, (Rect.unit (s := S16x8x64) ![5, 0, 0] S1x8x64.size h1_5).stride a = 1) (h3_5 : S1x8x64.Squeezes S8x64)
    (h1_6 : ∀ a, (![6, 0, 0] : Fin 3 → ℕ) a + S1x8x64.size a ≤ S16x8x64.size a) (h2_6 : ∀ a, (Rect.unit (s := S16x8x64) ![6, 0, 0] S1x8x64.size h1_6).stride a = 1) (h3_6 : S1x8x64.Squeezes S8x64)
    (h1_7 : ∀ a, (![7, 0, 0] : Fin 3 → ℕ) a + S1x8x64.size a ≤ S16x8x64.size a) (h2_7 : ∀ a, (Rect.unit (s := S16x8x64) ![7, 0, 0] S1x8x64.size h1_7).stride a = 1) (h3_7 : S1x8x64.Squeezes S8x64)
    (h1_8 : ∀ a, (![8, 0, 0] : Fin 3 → ℕ) a + S1x8x64.size a ≤ S16x8x64.size a) (h2_8 : ∀ a, (Rect.unit (s := S16x8x64) ![8, 0, 0] S1x8x64.size h1_8).stride a = 1) (h3_8 : S1x8x64.Squeezes S8x64)
    (h1_9 : ∀ a, (![9, 0, 0] : Fin 3 → ℕ) a + S1x8x64.size a ≤ S16x8x64.size a) (h2_9 : ∀ a, (Rect.unit (s := S16x8x64) ![9, 0, 0] S1x8x64.size h1_9).stride a = 1) (h3_9 : S1x8x64.Squeezes S8x64)
    (h1_10 : ∀ a, (![10, 0, 0] : Fin 3 → ℕ) a + S1x8x64.size a ≤ S16x8x64.size a) (h2_10 : ∀ a, (Rect.unit (s := S16x8x64) ![10, 0, 0] S1x8x64.size h1_10).stride a = 1) (h3_10 : S1x8x64.Squeezes S8x64)
    (h1_11 : ∀ a, (![11, 0, 0] : Fin 3 → ℕ) a + S1x8x64.size a ≤ S16x8x64.size a) (h2_11 : ∀ a, (Rect.unit (s := S16x8x64) ![11, 0, 0] S1x8x64.size h1_11).stride a = 1) (h3_11 : S1x8x64.Squeezes S8x64)
    (h1_12 : ∀ a, (![12, 0, 0] : Fin 3 → ℕ) a + S1x8x64.size a ≤ S16x8x64.size a) (h2_12 : ∀ a, (Rect.unit (s := S16x8x64) ![12, 0, 0] S1x8x64.size h1_12).stride a = 1) (h3_12 : S1x8x64.Squeezes S8x64)
    (h1_13 : ∀ a, (![13, 0, 0] : Fin 3 → ℕ) a + S1x8x64.size a ≤ S16x8x64.size a) (h2_13 : ∀ a, (Rect.unit (s := S16x8x64) ![13, 0, 0] S1x8x64.size h1_13).stride a = 1) (h3_13 : S1x8x64.Squeezes S8x64)
    (h1_14 : ∀ a, (![14, 0, 0] : Fin 3 → ℕ) a + S1x8x64.size a ≤ S16x8x64.size a) (h2_14 : ∀ a, (Rect.unit (s := S16x8x64) ![14, 0, 0] S1x8x64.size h1_14).stride a = 1) (h3_14 : S1x8x64.Squeezes S8x64)
    (h1_15 : ∀ a, (![15, 0, 0] : Fin 3 → ℕ) a + S1x8x64.size a ≤ S16x8x64.size a) (h2_15 : ∀ a, (Rect.unit (s := S16x8x64) ![15, 0, 0] S1x8x64.size h1_15).stride a = 1) (h3_15 : S1x8x64.Squeezes S8x64)
    (g1_0 : ∀ a, (![(v 0).toNat, 0, 0] : Fin 3 → ℕ) a + S1x8x64.size a ≤ S125000x8x64.size a) (g2_0 : ∀ a, (Rect.unit (s := S125000x8x64) ![(v 0).toNat, 0, 0] S1x8x64.size g1_0).stride a = 1)
    (g1_1 : ∀ a, (![(v 1).toNat, 0, 0] : Fin 3 → ℕ) a + S1x8x64.size a ≤ S125000x8x64.size a) (g2_1 : ∀ a, (Rect.unit (s := S125000x8x64) ![(v 1).toNat, 0, 0] S1x8x64.size g1_1).stride a = 1)
    (g1_2 : ∀ a, (![(v 2).toNat, 0, 0] : Fin 3 → ℕ) a + S1x8x64.size a ≤ S125000x8x64.size a) (g2_2 : ∀ a, (Rect.unit (s := S125000x8x64) ![(v 2).toNat, 0, 0] S1x8x64.size g1_2).stride a = 1)
    (g1_3 : ∀ a, (![(v 3).toNat, 0, 0] : Fin 3 → ℕ) a + S1x8x64.size a ≤ S125000x8x64.size a) (g2_3 : ∀ a, (Rect.unit (s := S125000x8x64) ![(v 3).toNat, 0, 0] S1x8x64.size g1_3).stride a = 1)
    (g1_4 : ∀ a, (![(v 4).toNat, 0, 0] : Fin 3 → ℕ) a + S1x8x64.size a ≤ S125000x8x64.size a) (g2_4 : ∀ a, (Rect.unit (s := S125000x8x64) ![(v 4).toNat, 0, 0] S1x8x64.size g1_4).stride a = 1)
    (g1_5 : ∀ a, (![(v 5).toNat, 0, 0] : Fin 3 → ℕ) a + S1x8x64.size a ≤ S125000x8x64.size a) (g2_5 : ∀ a, (Rect.unit (s := S125000x8x64) ![(v 5).toNat, 0, 0] S1x8x64.size g1_5).stride a = 1)
    (g1_6 : ∀ a, (![(v 6).toNat, 0, 0] : Fin 3 → ℕ) a + S1x8x64.size a ≤ S125000x8x64.size a) (g2_6 : ∀ a, (Rect.unit (s := S125000x8x64) ![(v 6).toNat, 0, 0] S1x8x64.size g1_6).stride a = 1)
    (g1_7 : ∀ a, (![(v 7).toNat, 0, 0] : Fin 3 → ℕ) a + S1x8x64.size a ≤ S125000x8x64.size a) (g2_7 : ∀ a, (Rect.unit (s := S125000x8x64) ![(v 7).toNat, 0, 0] S1x8x64.size g1_7).stride a = 1)
    (g1_8 : ∀ a, (![(v 8).toNat, 0, 0] : Fin 3 → ℕ) a + S1x8x64.size a ≤ S125000x8x64.size a) (g2_8 : ∀ a, (Rect.unit (s := S125000x8x64) ![(v 8).toNat, 0, 0] S1x8x64.size g1_8).stride a = 1)
    (g1_9 : ∀ a, (![(v 9).toNat, 0, 0] : Fin 3 → ℕ) a + S1x8x64.size a ≤ S125000x8x64.size a) (g2_9 : ∀ a, (Rect.unit (s := S125000x8x64) ![(v 9).toNat, 0, 0] S1x8x64.size g1_9).stride a = 1)
    (g1_10 : ∀ a, (![(v 10).toNat, 0, 0] : Fin 3 → ℕ) a + S1x8x64.size a ≤ S125000x8x64.size a) (g2_10 : ∀ a, (Rect.unit (s := S125000x8x64) ![(v 10).toNat, 0, 0] S1x8x64.size g1_10).stride a = 1)
    (g1_11 : ∀ a, (![(v 11).toNat, 0, 0] : Fin 3 → ℕ) a + S1x8x64.size a ≤ S125000x8x64.size a) (g2_11 : ∀ a, (Rect.unit (s := S125000x8x64) ![(v 11).toNat, 0, 0] S1x8x64.size g1_11).stride a = 1)
    (g1_12 : ∀ a, (![(v 12).toNat, 0, 0] : Fin 3 → ℕ) a + S1x8x64.size a ≤ S125000x8x64.size a) (g2_12 : ∀ a, (Rect.unit (s := S125000x8x64) ![(v 12).toNat, 0, 0] S1x8x64.size g1_12).stride a = 1)
    (g1_13 : ∀ a, (![(v 13).toNat, 0, 0] : Fin 3 → ℕ) a + S1x8x64.size a ≤ S125000x8x64.size a) (g2_13 : ∀ a, (Rect.unit (s := S125000x8x64) ![(v 13).toNat, 0, 0] S1x8x64.size g1_13).stride a = 1)
    (g1_14 : ∀ a, (![(v 14).toNat, 0, 0] : Fin 3 → ℕ) a + S1x8x64.size a ≤ S125000x8x64.size a) (g2_14 : ∀ a, (Rect.unit (s := S125000x8x64) ![(v 14).toNat, 0, 0] S1x8x64.size g1_14).stride a = 1)
    (g1_15 : ∀ a, (![(v 15).toNat, 0, 0] : Fin 3 → ℕ) a + S1x8x64.size a ≤ S125000x8x64.size a) (g2_15 : ∀ a, (Rect.unit (s := S125000x8x64) ![(v 15).toNat, 0, 0] S1x8x64.size g1_15).stride a = 1)
    (prior : (slotV sIB 0 h1_0 h2_0 h3_0).ty.Contents (Elt F)) (s : Fin 16) (r : Fin 8) (f : Fin 64) :
    (View.write (Elt F) (slotV sIB 15 h1_15 h2_15 h3_15) (View.write (Elt F) (slotV sIB 14 h1_14 h2_14 h3_14) (View.write (Elt F) (slotV sIB 13 h1_13 h2_13 h3_13) (View.write (Elt F) (slotV sIB 12 h1_12 h2_12 h3_12) (View.write (Elt F) (slotV sIB 11 h1_11 h2_11 h3_11) (View.write (Elt F) (slotV sIB 10 h1_10 h2_10 h3_10) (View.write (Elt F) (slotV sIB 9 h1_9 h2_9 h3_9) (View.write (Elt F) (slotV sIB 8 h1_8 h2_8 h3_8) (View.write (Elt F) (slotV sIB 7 h1_7 h2_7 h3_7) (View.write (Elt F) (slotV sIB 6 h1_6 h2_6 h3_6) (View.write (Elt F) (slotV sIB 5 h1_5 h2_5 h3_5) (View.write (Elt F) (slotV sIB 4 h1_4 h2_4 h3_4) (View.write (Elt F) (slotV sIB 3 h1_3 h2_3 h3_3) (View.write (Elt F) (slotV sIB 2 h1_2 h2_2 h3_2) (View.write (Elt F) (slotV sIB 1 h1_1 h2_1 h3_1) (View.write (Elt F) (slotV sIB 0 h1_0 h2_0 h3_0) prior (ReadAs.same.apply ((rowV iwV ((v 0).toNat) g1_0 g2_0).view.read (Elt F) Wc)) Finset.univ) (ReadAs.same.apply ((rowV iwV ((v 1).toNat) g1_1 g2_1).view.read (Elt F) Wc)) Finset.univ) (ReadAs.same.apply ((rowV iwV ((v 2).toNat) g1_2 g2_2).view.read (Elt F) Wc)) Finset.univ) (ReadAs.same.apply ((rowV iwV ((v 3).toNat) g1_3 g2_3).view.read (Elt F) Wc)) Finset.univ) (ReadAs.same.apply ((rowV iwV ((v 4).toNat) g1_4 g2_4).view.read (Elt F) Wc)) Finset.univ) (ReadAs.same.apply ((rowV iwV ((v 5).toNat) g1_5 g2_5).view.read (Elt F) Wc)) Finset.univ) (ReadAs.same.apply ((rowV iwV ((v 6).toNat) g1_6 g2_6).view.read (Elt F) Wc)) Finset.univ) (ReadAs.same.apply ((rowV iwV ((v 7).toNat) g1_7 g2_7).view.read (Elt F) Wc)) Finset.univ) (ReadAs.same.apply ((rowV iwV ((v 8).toNat) g1_8 g2_8).view.read (Elt F) Wc)) Finset.univ) (ReadAs.same.apply ((rowV iwV ((v 9).toNat) g1_9 g2_9).view.read (Elt F) Wc)) Finset.univ) (ReadAs.same.apply ((rowV iwV ((v 10).toNat) g1_10 g2_10).view.read (Elt F) Wc)) Finset.univ) (ReadAs.same.apply ((rowV iwV ((v 11).toNat) g1_11 g2_11).view.read (Elt F) Wc)) Finset.univ) (ReadAs.same.apply ((rowV iwV ((v 12).toNat) g1_12 g2_12).view.read (Elt F) Wc)) Finset.univ) (ReadAs.same.apply ((rowV iwV ((v 13).toNat) g1_13 g2_13).view.read (Elt F) Wc)) Finset.univ) (ReadAs.same.apply ((rowV iwV ((v 14).toNat) g1_14 g2_14).view.read (Elt F) Wc)) Finset.univ) (ReadAs.same.apply ((rowV iwV ((v 15).toNat) g1_15 g2_15).view.read (Elt F) Wc)) Finset.univ)
        (ValueIdx.ix3 (n0 := 16) (n1 := 8) (n2 := 64) s r f)
      = Wc (ValueIdx.ix3 (n0 := 125000) (n1 := 8) (n2 := 64) ⟨(v s).toNat, hb s⟩ r f) := by
  rw [nest16_apply_IB]
  fin_cases s
  · exact row_read_apply' d ((v 0).toNat) (hb 0) g1_0 g2_0 Wc r f
  · exact row_read_apply' d ((v 1).toNat) (hb 1) g1_1 g2_1 Wc r f
  · exact row_read_apply' d ((v 2).toNat) (hb 2) g1_2 g2_2 Wc r f
  · exact row_read_apply' d ((v 3).toNat) (hb 3) g1_3 g2_3 Wc r f
  · exact row_read_apply' d ((v 4).toNat) (hb 4) g1_4 g2_4 Wc r f
  · exact row_read_apply' d ((v 5).toNat) (hb 5) g1_5 g2_5 Wc r f
  · exact row_read_apply' d ((v 6).toNat) (hb 6) g1_6 g2_6 Wc r f
  · exact row_read_apply' d ((v 7).toNat) (hb 7) g1_7 g2_7 Wc r f
  · exact row_read_apply' d ((v 8).toNat) (hb 8) g1_8 g2_8 Wc r f
  · exact row_read_apply' d ((v 9).toNat) (hb 9) g1_9 g2_9 Wc r f
  · exact row_read_apply' d ((v 10).toNat) (hb 10) g1_10 g2_10 Wc r f
  · exact row_read_apply' d ((v 11).toNat) (hb 11) g1_11 g2_11 Wc r f
  · exact row_read_apply' d ((v 12).toNat) (hb 12) g1_12 g2_12 Wc r f
  · exact row_read_apply' d ((v 13).toNat) (hb 13) g1_13 g2_13 Wc r f
  · exact row_read_apply' d ((v 14).toNat) (hb 14) g1_14 g2_14 Wc r f
  · exact row_read_apply' d ((v 15).toNat) (hb 15) g1_15 g2_15 Wc r f

end Cert.Proof.Kernel

end
-- ==== Proof.K.LandedTrip.lean ====
/-
  A block buffer after the sixteen copies of one chunk, in the loop's own terms.

  The program reads a chunk of sixteen indices off an index scratch, shifts it right by 3, and for each lane copies the
  table block that lane names into the lane's slot of a block buffer.  Lane `j` of chunk `c` is the block number of the
  index at position `16 c + j`; so after the sixteen copies the buffer holds, slot by slot, the blocks the chunk's
  indices name: the loop invariant's `LandedU` / `LandedI` at chunk `c`.
-/
import proofs.«203884_g41704132444582_cont_8to1_b_1290_16_alg».proof.Proof.K.BodyDefs
import proofs.«203884_g41704132444582_cont_8to1_b_1290_16_alg».proof.Proof.K.Landed

noncomputable section

namespace Cert.Proof.Kernel

open Cert.Kernel Cert.Kernel.Gen
open Idealize.ShloMosaic

variable {F : FTy → Type} [FloatOps F]
variable (m : (ℓ : Loc nD τ sig) → Buf (Elt F) ℓ)

/-- Lane `j` of the chunk of `sU` at the offsets `off`, shifted right by 3: the block number the program extracts. -/
abbrev laneU (d : Dev nD) (L : grid0.Coords) (off : Fin 1 → ℕ) (inb : ∀ a, off a + S16.size a ≤ S512.size a) (j : ℕ)
    (hs : S16.Slices ![j] S1) (hp : ∀ a, (![0] : Fin 1 → ℕ) a < S1.size a) : BitVec 32 :=
  extractAt ![0] (extractStridedSlice (s := S16) S1 ![j] (shrui (s := S16) (((sU : Memref sig .scVector .vmem S512 .i32).view.readAt (Elt F)
    (Rect.unit (s := S512) off S16.size inb).toLoadRect (CU m d L) : IVec S16 32)) (broadcast S16 3#32)) hs) hp

omit [FloatOps F] in
/-- Lane `j` of chunk `c` is the block number of the index at position `16 c + j`. -/
theorem laneU_eq (d : Dev nD) (L : grid0.Coords) (c : ℕ) (hc : 16 * c + 16 ≤ 512) (off : Fin 1 → ℕ) (ho : off 0 = 16 * c)
    (inb : ∀ a, off a + S16.size a ≤ S512.size a) (j : ℕ) (hj : j < 16) (hs : S16.Slices ![j] S1)
    (hp : ∀ a, (![0] : Fin 1 → ℕ) a < S1.size a) :
    laneU m d L off inb j hs hp = (CU m d L (pos c ⟨j, hj⟩)) >>> 3 := by
  refine (lane_val_U_off (F := F) (CU m d L) off (16 * c) ho inb j hj hs hp).trans ?_
  refine congrArg (fun i => CU m d L i >>> 3) ?_
  unfold pos
  refine congrArg (ValueIdx.ix1 (n := 512)) (Fin.ext ?_)
  show 16 * c + j = (16 * c + j) % 512
  rw [Nat.mod_eq_of_lt (by omega)]

/-- `sUA` AFTER THE SIXTEEN COPIES OF CHUNK `c`: each slot was written with the block its lane of the chunk names, so the
    buffer holds, slot by slot, the table blocks the chunk's sixteen indices name. -/
theorem landedU_trip (hpre : PreOK m) (d : Dev nD) (L : grid0.Coords) (c : ℕ) (hc : 16 * c + 16 ≤ 512) (off : Fin 1 → ℕ) (ho : off 0 = 16 * c)
    {inb : ∀ a, off a + S16.size a ≤ S512.size a}
    {hs_0 : S16.Slices ![0] S1} {hp_0 : ∀ a, (![0] : Fin 1 → ℕ) a < S1.size a}
    {hs_1 : S16.Slices ![1] S1} {hp_1 : ∀ a, (![0] : Fin 1 → ℕ) a < S1.size a}
    {hs_2 : S16.Slices ![2] S1} {hp_2 : ∀ a, (![0] : Fin 1 → ℕ) a < S1.size a}
    {hs_3 : S16.Slices ![3] S1} {hp_3 : ∀ a, (![0] : Fin 1 → ℕ) a < S1.size a}
    {hs_4 : S16.Slices ![4] S1} {hp_4 : ∀ a, (![0] : Fin 1 → ℕ) a < S1.size a}
    {hs_5 : S16.Slices ![5] S1} {hp_5 : ∀ a, (![0] : Fin 1 → ℕ) a < S1.size a}
    {hs_6 : S16.Slices ![6] S1} {hp_6 : ∀ a, (![0] : Fin 1 → ℕ) a < S1.size a}
    {hs_7 : S16.Slices ![7] S1} {hp_7 : ∀ a, (![0] : Fin 1 → ℕ) a < S1.size a}
    {hs_8 : S16.Slices ![8] S1} {hp_8 : ∀ a, (![0] : Fin 1 → ℕ) a < S1.size a}
    {hs_9 : S16.Slices ![9] S1} {hp_9 : ∀ a, (![0] : Fin 1 → ℕ) a < S1.size a}
    {hs_10 : S16.Slices ![10] S1} {hp_10 : ∀ a, (![0] : Fin 1 → ℕ) a < S1.size a}
    {hs_11 : S16.Slices ![11] S1} {hp_11 : ∀ a, (![0] : Fin 1 → ℕ) a < S1.size a}
    {hs_12 : S16.Slices ![12] S1} {hp_12 : ∀ a, (![0] : Fin 1 → ℕ) a < S1.size a}
    {hs_13 : S16.Slices ![13] S1} {hp_13 : ∀ a, (![0] : Fin 1 → ℕ) a < S1.size a}
    {hs_14 : S16.Slices ![14] S1} {hp_14 : ∀ a, (![0] : Fin 1 → ℕ) a < S1.size a}
    {hs_15 : S16.Slices ![15] S1} {hp_15 : ∀ a, (![0] : Fin 1 → ℕ) a < S1.size a}
    {h1_0 : ∀ a, (![0, 0, 0] : Fin 3 → ℕ) a + S1x8x64.size a ≤ S16x8x64.size a} {h2_0 : ∀ a, (Rect.unit (s := S16x8x64) ![0, 0, 0] S1x8x64.size h1_0).stride a = 1} {h3_0 : S1x8x64.Squeezes S8x64}
    {h1_1 : ∀ a, (![1, 0, 0] : Fin 3 → ℕ) a + S1x8x64.size a ≤ S16x8x64.size a} {h2_1 : ∀ a, (Rect.unit (s := S16x8x64) ![1, 0, 0] S1x8x64.size h1_1).stride a = 1} {h3_1 : S1x8x64.Squeezes S8x64}
    {h1_2 : ∀ a, (![2, 0, 0] : Fin 3 → ℕ) a + S1x8x64.size a ≤ S16x8x64.size a} {h2_2 : ∀ a, (Rect.unit (s := S16x8x64) ![2, 0, 0] S1x8x64.size h1_2).stride a = 1} {h3_2 : S1x8x64.Squeezes S8x64}
    {h1_3 : ∀ a, (![3, 0, 0] : Fin 3 → ℕ) a + S1x8x64.size a ≤ S16x8x64.size a} {h2_3 : ∀ a, (Rect.unit (s := S16x8x64) ![3, 0, 0] S1x8x64.size h1_3).stride a = 1} {h3_3 : S1x8x64.Squeezes S8x64}
    {h1_4 : ∀ a, (![4, 0, 0] : Fin 3 → ℕ) a + S1x8x64.size a ≤ S16x8x64.size a} {h2_4 : ∀ a, (Rect.unit (s := S16x8x64) ![4, 0, 0] S1x8x64.size h1_4).stride a = 1} {h3_4 : S1x8x64.Squeezes S8x64}
    {h1_5 : ∀ a, (![5, 0, 0] : Fin 3 → ℕ) a + S1x8x64.size a ≤ S16x8x64.size a} {h2_5 : ∀ a, (Rect.unit (s := S16x8x64) ![5, 0, 0] S1x8x64.size h1_5).stride a = 1} {h3_5 : S1x8x64.Squeezes S8x64}
    {h1_6 : ∀ a, (![6, 0, 0] : Fin 3 → ℕ) a + S1x8x64.size a ≤ S16x8x64.size a} {h2_6 : ∀ a, (Rect.unit (s := S16x8x64) ![6, 0, 0] S1x8x64.size h1_6).stride a = 1} {h3_6 : S1x8x64.Squeezes S8x64}
    {h1_7 : ∀ a, (![7, 0, 0] : Fin 3 → ℕ) a + S1x8x64.size a ≤ S16x8x64.size a} {h2_7 : ∀ a, (Rect.unit (s := S16x8x64) ![7, 0, 0] S1x8x64.size h1_7).stride a = 1} {h3_7 : S1x8x64.Squeezes S8x64}
    {h1_8 : ∀ a, (![8, 0, 0] : Fin 3 → ℕ) a + S1x8x64.size a ≤ S16x8x64.size a} {h2_8 : ∀ a, (Rect.unit (s := S16x8x64) ![8, 0, 0] S1x8x64.size h1_8).stride a = 1} {h3_8 : S1x8x64.Squeezes S8x64}
    {h1_9 : ∀ a, (![9, 0, 0] : Fin 3 → ℕ) a + S1x8x64.size a ≤ S16x8x64.size a} {h2_9 : ∀ a, (Rect.unit (s := S16x8x64) ![9, 0, 0] S1x8x64.size h1_9).stride a = 1} {h3_9 : S1x8x64.Squeezes S8x64}
    {h1_10 : ∀ a, (![10, 0, 0] : Fin 3 → ℕ) a + S1x8x64.size a ≤ S16x8x64.size a} {h2_10 : ∀ a, (Rect.unit (s := S16x8x64) ![10, 0, 0] S1x8x64.size h1_10).stride a = 1} {h3_10 : S1x8x64.Squeezes S8x64}
    {h1_11 : ∀ a, (![11, 0, 0] : Fin 3 → ℕ) a + S1x8x64.size a ≤ S16x8x64.size a} {h2_11 : ∀ a, (Rect.unit (s := S16x8x64) ![11, 0, 0] S1x8x64.size h1_11).stride a = 1} {h3_11 : S1x8x64.Squeezes S8x64}
    {h1_12 : ∀ a, (![12, 0, 0] : Fin 3 → ℕ) a + S1x8x64.size a ≤ S16x8x64.size a} {h2_12 : ∀ a, (Rect.unit (s := S16x8x64) ![12, 0, 0] S1x8x64.size h1_12).stride a = 1} {h3_12 : S1x8x64.Squeezes S8x64}
    {h1_13 : ∀ a, (![13, 0, 0] : Fin 3 → ℕ) a + S1x8x64.size a ≤ S16x8x64.size a} {h2_13 : ∀ a, (Rect.unit (s := S16x8x64) ![13, 0, 0] S1x8x64.size h1_13).stride a = 1} {h3_13 : S1x8x64.Squeezes S8x64}
    {h1_14 : ∀ a, (![14, 0, 0] : Fin 3 → ℕ) a + S1x8x64.size a ≤ S16x8x64.size a} {h2_14 : ∀ a, (Rect.unit (s := S16x8x64) ![14, 0, 0] S1x8x64.size h1_14).stride a = 1} {h3_14 : S1x8x64.Squeezes S8x64}
    {h1_15 : ∀ a, (![15, 0, 0] : Fin 3 → ℕ) a + S1x8x64.size a ≤ S16x8x64.size a} {h2_15 : ∀ a, (Rect.unit (s := S16x8x64) ![15, 0, 0] S1x8x64.size h1_15).stride a = 1} {h3_15 : S1x8x64.Squeezes S8x64}
    {g1_0 : ∀ a, (![(laneU m d L off inb 0 hs_0 hp_0).toNat, 0, 0] : Fin 3 → ℕ) a + S1x8x64.size a ≤ S125000x8x64.size a} {g2_0 : ∀ a, (Rect.unit (s := S125000x8x64) ![(laneU m d L off inb 0 hs_0 hp_0).toNat, 0, 0] S1x8x64.size g1_0).stride a = 1}
    {g1_1 : ∀ a, (![(laneU m d L off inb 1 hs_1 hp_1).toNat, 0, 0] : Fin 3 → ℕ) a + S1x8x64.size a ≤ S125000x8x64.size a} {g2_1 : ∀ a, (Rect.unit (s := S125000x8x64) ![(laneU m d L off inb 1 hs_1 hp_1).toNat, 0, 0] S1x8x64.size g1_1).stride a = 1}
    {g1_2 : ∀ a, (![(laneU m d L off inb 2 hs_2 hp_2).toNat, 0, 0] : Fin 3 → ℕ) a + S1x8x64.size a ≤ S125000x8x64.size a} {g2_2 : ∀ a, (Rect.unit (s := S125000x8x64) ![(laneU m d L off inb 2 hs_2 hp_2).toNat, 0, 0] S1x8x64.size g1_2).stride a = 1}
    {g1_3 : ∀ a, (![(laneU m d L off inb 3 hs_3 hp_3).toNat, 0, 0] : Fin 3 → ℕ) a + S1x8x64.size a ≤ S125000x8x64.size a} {g2_3 : ∀ a, (Rect.unit (s := S125000x8x64) ![(laneU m d L off inb 3 hs_3 hp_3).toNat, 0, 0] S1x8x64.size g1_3).stride a = 1}
    {g1_4 : ∀ a, (![(laneU m d L off inb 4 hs_4 hp_4).toNat, 0, 0] : Fin 3 → ℕ) a + S1x8x64.size a ≤ S125000x8x64.size a} {g2_4 : ∀ a, (Rect.unit (s := S125000x8x64) ![(laneU m d L off inb 4 hs_4 hp_4).toNat, 0, 0] S1x8x64.size g1_4).stride a = 1}
    {g1_5 : ∀ a, (![(laneU m d L off inb 5 hs_5 hp_5).toNat, 0, 0] : Fin 3 → ℕ) a + S1x8x64.size a ≤ S125000x8x64.size a} {g2_5 : ∀ a, (Rect.unit (s := S125000x8x64) ![(laneU m d L off inb 5 hs_5 hp_5).toNat, 0, 0] S1x8x64.size g1_5).stride a = 1}
    {g1_6 : ∀ a, (![(laneU m d L off inb 6 hs_6 hp_6).toNat, 0, 0] : Fin 3 → ℕ) a + S1x8x64.size a ≤ S125000x8x64.size a} {g2_6 : ∀ a, (Rect.unit (s := S125000x8x64) ![(laneU m d L off inb 6 hs_6 hp_6).toNat, 0, 0] S1x8x64.size g1_6).stride a = 1}
    {g1_7 : ∀ a, (![(laneU m d L off inb 7 hs_7 hp_7).toNat, 0, 0] : Fin 3 → ℕ) a + S1x8x64.size a ≤ S125000x8x64.size a} {g2_7 : ∀ a, (Rect.unit (s := S125000x8x64) ![(laneU m d L off inb 7 hs_7 hp_7).toNat, 0, 0] S1x8x64.size g1_7).stride a = 1}
    {g1_8 : ∀ a, (![(laneU m d L off inb 8 hs_8 hp_8).toNat, 0, 0] : Fin 3 → ℕ) a + S1x8x64.size a ≤ S125000x8x64.size a} {g2_8 : ∀ a, (Rect.unit (s := S125000x8x64) ![(laneU m d L off inb 8 hs_8 hp_8).toNat, 0, 0] S1x8x64.size g1_8).stride a = 1}
    {g1_9 : ∀ a, (![(laneU m d L off inb 9 hs_9 hp_9).toNat, 0, 0] : Fin 3 → ℕ) a + S1x8x64.size a ≤ S125000x8x64.size a} {g2_9 : ∀ a, (Rect.unit (s := S125000x8x64) ![(laneU m d L off inb 9 hs_9 hp_9).toNat, 0, 0] S1x8x64.size g1_9).stride a = 1}
    {g1_10 : ∀ a, (![(laneU m d L off inb 10 hs_10 hp_10).toNat, 0, 0] : Fin 3 → ℕ) a + S1x8x64.size a ≤ S125000x8x64.size a} {g2_10 : ∀ a, (Rect.unit (s := S125000x8x64) ![(laneU m d L off inb 10 hs_10 hp_10).toNat, 0, 0] S1x8x64.size g1_10).stride a = 1}
    {g1_11 : ∀ a, (![(laneU m d L off inb 11 hs_11 hp_11).toNat, 0, 0] : Fin 3 → ℕ) a + S1x8x64.size a ≤ S125000x8x64.size a} {g2_11 : ∀ a, (Rect.unit (s := S125000x8x64) ![(laneU m d L off inb 11 hs_11 hp_11).toNat, 0, 0] S1x8x64.size g1_11).stride a = 1}
    {g1_12 : ∀ a, (![(laneU m d L off inb 12 hs_12 hp_12).toNat, 0, 0] : Fin 3 → ℕ) a + S1x8x64.size a ≤ S125000x8x64.size a} {g2_12 : ∀ a, (Rect.unit (s := S125000x8x64) ![(laneU m d L off inb 12 hs_12 hp_12).toNat, 0, 0] S1x8x64.size g1_12).stride a = 1}
    {g1_13 : ∀ a, (![(laneU m d L off inb 13 hs_13 hp_13).toNat, 0, 0] : Fin 3 → ℕ) a + S1x8x64.size a ≤ S125000x8x64.size a} {g2_13 : ∀ a, (Rect.unit (s := S125000x8x64) ![(laneU m d L off inb 13 hs_13 hp_13).toNat, 0, 0] S1x8x64.size g1_13).stride a = 1}
    {g1_14 : ∀ a, (![(laneU m d L off inb 14 hs_14 hp_14).toNat, 0, 0] : Fin 3 → ℕ) a + S1x8x64.size a ≤ S125000x8x64.size a} {g2_14 : ∀ a, (Rect.unit (s := S125000x8x64) ![(laneU m d L off inb 14 hs_14 hp_14).toNat, 0, 0] S1x8x64.size g1_14).stride a = 1}
    {g1_15 : ∀ a, (![(laneU m d L off inb 15 hs_15 hp_15).toNat, 0, 0] : Fin 3 → ℕ) a + S1x8x64.size a ≤ S125000x8x64.size a} {g2_15 : ∀ a, (Rect.unit (s := S125000x8x64) ![(laneU m d L off inb 15 hs_15 hp_15).toNat, 0, 0] S1x8x64.size g1_15).stride a = 1}
    {prior : (slotV sUA 0 h1_0 h2_0 h3_0).ty.Contents (Elt F)} :
    LandedU m d L c
      (View.write (Elt F) (slotV sUA 15 h1_15 h2_15 h3_15) (View.write (Elt F) (slotV sUA 14 h1_14 h2_14 h3_14) (View.write (Elt F) (slotV sUA 13 h1_13 h2_13 h3_13) (View.write (Elt F) (slotV sUA 12 h1_12 h2_12 h3_12) (View.write (Elt F) (slotV sUA 11 h1_11 h2_11 h3_11) (View.write (Elt F) (slotV sUA 10 h1_10 h2_10 h3_10) (View.write (Elt F) (slotV sUA 9 h1_9 h2_9 h3_9) (View.write (Elt F) (slotV sUA 8 h1_8 h2_8 h3_8) (View.write (Elt F) (slotV sUA 7 h1_7 h2_7 h3_7) (View.write (Elt F) (slotV sUA 6 h1_6 h2_6 h3_6) (View.write (Elt F) (slotV sUA 5 h1_5 h2_5 h3_5) (View.write (Elt F) (slotV sUA 4 h1_4 h2_4 h3_4) (View.write (Elt F) (slotV sUA 3 h1_3 h2_3 h3_3) (View.write (Elt F) (slotV sUA 2 h1_2 h2_2 h3_2) (View.write (Elt F) (slotV sUA 1 h1_1 h2_1 h3_1) (View.write (Elt F) (slotV sUA 0 h1_0 h2_0 h3_0) prior (ReadAs.same.apply ((rowV uwV (laneU m d L off inb 0 hs_0 hp_0).toNat g1_0 g2_0).view.read (Elt F) (W0 m d))) Finset.univ) (ReadAs.same.apply ((rowV uwV (laneU m d L off inb 1 hs_1 hp_1).toNat g1_1 g2_1).view.read (Elt F) (W0 m d))) Finset.univ) (ReadAs.same.apply ((rowV uwV (laneU m d L off inb 2 hs_2 hp_2).toNat g1_2 g2_2).view.read (Elt F) (W0 m d))) Finset.univ) (ReadAs.same.apply ((rowV uwV (laneU m d L off inb 3 hs_3 hp_3).toNat g1_3 g2_3).view.read (Elt F) (W0 m d))) Finset.univ) (ReadAs.same.apply ((rowV uwV (laneU m d L off inb 4 hs_4 hp_4).toNat g1_4 g2_4).view.read (Elt F) (W0 m d))) Finset.univ) (ReadAs.same.apply ((rowV uwV (laneU m d L off inb 5 hs_5 hp_5).toNat g1_5 g2_5).view.read (Elt F) (W0 m d))) Finset.univ) (ReadAs.same.apply ((rowV uwV (laneU m d L off inb 6 hs_6 hp_6).toNat g1_6 g2_6).view.read (Elt F) (W0 m d))) Finset.univ) (ReadAs.same.apply ((rowV uwV (laneU m d L off inb 7 hs_7 hp_7).toNat g1_7 g2_7).view.read (Elt F) (W0 m d))) Finset.univ) (ReadAs.same.apply ((rowV uwV (laneU m d L off inb 8 hs_8 hp_8).toNat g1_8 g2_8).view.read (Elt F) (W0 m d))) Finset.univ) (ReadAs.same.apply ((rowV uwV (laneU m d L off inb 9 hs_9 hp_9).toNat g1_9 g2_9).view.read (Elt F) (W0 m d))) Finset.univ) (ReadAs.same.apply ((rowV uwV (laneU m d L off inb 10 hs_10 hp_10).toNat g1_10 g2_10).view.read (Elt F) (W0 m d))) Finset.univ) (ReadAs.same.apply ((rowV uwV (laneU m d L off inb 11 hs_11 hp_11).toNat g1_11 g2_11).view.read (Elt F) (W0 m d))) Finset.univ) (ReadAs.same.apply ((rowV uwV (laneU m d L off inb 12 hs_12 hp_12).toNat g1_12 g2_12).view.read (Elt F) (W0 m d))) Finset.univ) (ReadAs.same.apply ((rowV uwV (laneU m d L off inb 13 hs_13 hp_13).toNat g1_13 g2_13).view.read (Elt F) (W0 m d))) Finset.univ) (ReadAs.same.apply ((rowV uwV (laneU m d L off inb 14 hs_14 hp_14).toNat g1_14 g2_14).view.read (Elt F) (W0 m d))) Finset.univ) (ReadAs.same.apply ((rowV uwV (laneU m d L off inb 15 hs_15 hp_15).toNat g1_15 g2_15).view.read (Elt F) (W0 m d))) Finset.univ) := by
  have hw : ∀ s : Fin 16, (![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s = (CU m d L (pos c s)) >>> 3 := by
    intro s
    fin_cases s
    · exact laneU_eq m d L c hc off ho inb 0 (by decide) hs_0 hp_0
    · exact laneU_eq m d L c hc off ho inb 1 (by decide) hs_1 hp_1
    · exact laneU_eq m d L c hc off ho inb 2 (by decide) hs_2 hp_2
    · exact laneU_eq m d L c hc off ho inb 3 (by decide) hs_3 hp_3
    · exact laneU_eq m d L c hc off ho inb 4 (by decide) hs_4 hp_4
    · exact laneU_eq m d L c hc off ho inb 5 (by decide) hs_5 hp_5
    · exact laneU_eq m d L c hc off ho inb 6 (by decide) hs_6 hp_6
    · exact laneU_eq m d L c hc off ho inb 7 (by decide) hs_7 hp_7
    · exact laneU_eq m d L c hc off ho inb 8 (by decide) hs_8 hp_8
    · exact laneU_eq m d L c hc off ho inb 9 (by decide) hs_9 hp_9
    · exact laneU_eq m d L c hc off ho inb 10 (by decide) hs_10 hp_10
    · exact laneU_eq m d L c hc off ho inb 11 (by decide) hs_11 hp_11
    · exact laneU_eq m d L c hc off ho inb 12 (by decide) hs_12 hp_12
    · exact laneU_eq m d L c hc off ho inb 13 (by decide) hs_13 hp_13
    · exact laneU_eq m d L c hc off ho inb 14 (by decide) hs_14 hp_14
    · exact laneU_eq m d L c hc off ho inb 15 (by decide) hs_15 hp_15
  have hb : ∀ s : Fin 16, ((![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s).toNat < 125000 := fun s => by
    rw [hw s]; exact shr3_lt (v := CU m d L (pos c s)) (hpre d _).1
  intro s r f
  refine (landed_of_nest_UA_word (F := F) d (![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) hb (W0 m d)
    h1_0 h2_0 h3_0 h1_1 h2_1 h3_1 h1_2 h2_2 h3_2 h1_3 h2_3 h3_3 h1_4 h2_4 h3_4 h1_5 h2_5 h3_5 h1_6 h2_6 h3_6 h1_7 h2_7 h3_7 h1_8 h2_8 h3_8 h1_9 h2_9 h3_9 h1_10 h2_10 h3_10 h1_11 h2_11 h3_11 h1_12 h2_12 h3_12 h1_13 h2_13 h3_13 h1_14 h2_14 h3_14 h1_15 h2_15 h3_15
    g1_0 g2_0 g1_1 g2_1 g1_2 g2_2 g1_3 g2_3 g1_4 g2_4 g1_5 g2_5 g1_6 g2_6 g1_7 g2_7 g1_8 g2_8 g1_9 g2_9 g1_10 g2_10 g1_11 g2_11 g1_12 g2_12 g1_13 g2_13 g1_14 g2_14 g1_15 g2_15 prior s r f).trans ?_
  refine congrArg (fun b => W0 m d (ValueIdx.ix3 (n0 := 125000) (n1 := 8) (n2 := 64) b r f)) (Fin.ext ?_)
  show ((![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s).toNat = ((CU m d L (pos c s)) >>> 3).toNat % 125000
  rw [hw s]
  exact (shr3_mod (v := CU m d L (pos c s)) (hpre d _).1).symm

/-- Lane `j` of the chunk of `sI` at the offsets `off`, shifted right by 3: the block number the program extracts. -/
abbrev laneI (d : Dev nD) (L : grid0.Coords) (off : Fin 1 → ℕ) (inb : ∀ a, off a + S16.size a ≤ S512.size a) (j : ℕ)
    (hs : S16.Slices ![j] S1) (hp : ∀ a, (![0] : Fin 1 → ℕ) a < S1.size a) : BitVec 32 :=
  extractAt ![0] (extractStridedSlice (s := S16) S1 ![j] (shrui (s := S16) (((sI : Memref sig .scVector .vmem S512 .i32).view.readAt (Elt F)
    (Rect.unit (s := S512) off S16.size inb).toLoadRect (CI m d L) : IVec S16 32)) (broadcast S16 3#32)) hs) hp

omit [FloatOps F] in
/-- Lane `j` of chunk `c` is the block number of the index at position `16 c + j`. -/
theorem laneI_eq (d : Dev nD) (L : grid0.Coords) (c : ℕ) (hc : 16 * c + 16 ≤ 512) (off : Fin 1 → ℕ) (ho : off 0 = 16 * c)
    (inb : ∀ a, off a + S16.size a ≤ S512.size a) (j : ℕ) (hj : j < 16) (hs : S16.Slices ![j] S1)
    (hp : ∀ a, (![0] : Fin 1 → ℕ) a < S1.size a) :
    laneI m d L off inb j hs hp = (CI m d L (pos c ⟨j, hj⟩)) >>> 3 := by
  refine (lane_val_I_off (F := F) (CI m d L) off (16 * c) ho inb j hj hs hp).trans ?_
  refine congrArg (fun i => CI m d L i >>> 3) ?_
  unfold pos
  refine congrArg (ValueIdx.ix1 (n := 512)) (Fin.ext ?_)
  show 16 * c + j = (16 * c + j) % 512
  rw [Nat.mod_eq_of_lt (by omega)]

/-- `sIA` AFTER THE SIXTEEN COPIES OF CHUNK `c`: each slot was written with the block its lane of the chunk names, so the
    buffer holds, slot by slot, the table blocks the chunk's sixteen indices name. -/
theorem landedI_trip (hpre : PreOK m) (d : Dev nD) (L : grid0.Coords) (c : ℕ) (hc : 16 * c + 16 ≤ 512) (off : Fin 1 → ℕ) (ho : off 0 = 16 * c)
    {inb : ∀ a, off a + S16.size a ≤ S512.size a}
    {hs_0 : S16.Slices ![0] S1} {hp_0 : ∀ a, (![0] : Fin 1 → ℕ) a < S1.size a}
    {hs_1 : S16.Slices ![1] S1} {hp_1 : ∀ a, (![0] : Fin 1 → ℕ) a < S1.size a}
    {hs_2 : S16.Slices ![2] S1} {hp_2 : ∀ a, (![0] : Fin 1 → ℕ) a < S1.size a}
    {hs_3 : S16.Slices ![3] S1} {hp_3 : ∀ a, (![0] : Fin 1 → ℕ) a < S1.size a}
    {hs_4 : S16.Slices ![4] S1} {hp_4 : ∀ a, (![0] : Fin 1 → ℕ) a < S1.size a}
    {hs_5 : S16.Slices ![5] S1} {hp_5 : ∀ a, (![0] : Fin 1 → ℕ) a < S1.size a}
    {hs_6 : S16.Slices ![6] S1} {hp_6 : ∀ a, (![0] : Fin 1 → ℕ) a < S1.size a}
    {hs_7 : S16.Slices ![7] S1} {hp_7 : ∀ a, (![0] : Fin 1 → ℕ) a < S1.size a}
    {hs_8 : S16.Slices ![8] S1} {hp_8 : ∀ a, (![0] : Fin 1 → ℕ) a < S1.size a}
    {hs_9 : S16.Slices ![9] S1} {hp_9 : ∀ a, (![0] : Fin 1 → ℕ) a < S1.size a}
    {hs_10 : S16.Slices ![10] S1} {hp_10 : ∀ a, (![0] : Fin 1 → ℕ) a < S1.size a}
    {hs_11 : S16.Slices ![11] S1} {hp_11 : ∀ a, (![0] : Fin 1 → ℕ) a < S1.size a}
    {hs_12 : S16.Slices ![12] S1} {hp_12 : ∀ a, (![0] : Fin 1 → ℕ) a < S1.size a}
    {hs_13 : S16.Slices ![13] S1} {hp_13 : ∀ a, (![0] : Fin 1 → ℕ) a < S1.size a}
    {hs_14 : S16.Slices ![14] S1} {hp_14 : ∀ a, (![0] : Fin 1 → ℕ) a < S1.size a}
    {hs_15 : S16.Slices ![15] S1} {hp_15 : ∀ a, (![0] : Fin 1 → ℕ) a < S1.size a}
    {h1_0 : ∀ a, (![0, 0, 0] : Fin 3 → ℕ) a + S1x8x64.size a ≤ S16x8x64.size a} {h2_0 : ∀ a, (Rect.unit (s := S16x8x64) ![0, 0, 0] S1x8x64.size h1_0).stride a = 1} {h3_0 : S1x8x64.Squeezes S8x64}
    {h1_1 : ∀ a, (![1, 0, 0] : Fin 3 → ℕ) a + S1x8x64.size a ≤ S16x8x64.size a} {h2_1 : ∀ a, (Rect.unit (s := S16x8x64) ![1, 0, 0] S1x8x64.size h1_1).stride a = 1} {h3_1 : S1x8x64.Squeezes S8x64}
    {h1_2 : ∀ a, (![2, 0, 0] : Fin 3 → ℕ) a + S1x8x64.size a ≤ S16x8x64.size a} {h2_2 : ∀ a, (Rect.unit (s := S16x8x64) ![2, 0, 0] S1x8x64.size h1_2).stride a = 1} {h3_2 : S1x8x64.Squeezes S8x64}
    {h1_3 : ∀ a, (![3, 0, 0] : Fin 3 → ℕ) a + S1x8x64.size a ≤ S16x8x64.size a} {h2_3 : ∀ a, (Rect.unit (s := S16x8x64) ![3, 0, 0] S1x8x64.size h1_3).stride a = 1} {h3_3 : S1x8x64.Squeezes S8x64}
    {h1_4 : ∀ a, (![4, 0, 0] : Fin 3 → ℕ) a + S1x8x64.size a ≤ S16x8x64.size a} {h2_4 : ∀ a, (Rect.unit (s := S16x8x64) ![4, 0, 0] S1x8x64.size h1_4).stride a = 1} {h3_4 : S1x8x64.Squeezes S8x64}
    {h1_5 : ∀ a, (![5, 0, 0] : Fin 3 → ℕ) a + S1x8x64.size a ≤ S16x8x64.size a} {h2_5 : ∀ a, (Rect.unit (s := S16x8x64) ![5, 0, 0] S1x8x64.size h1_5).stride a = 1} {h3_5 : S1x8x64.Squeezes S8x64}
    {h1_6 : ∀ a, (![6, 0, 0] : Fin 3 → ℕ) a + S1x8x64.size a ≤ S16x8x64.size a} {h2_6 : ∀ a, (Rect.unit (s := S16x8x64) ![6, 0, 0] S1x8x64.size h1_6).stride a = 1} {h3_6 : S1x8x64.Squeezes S8x64}
    {h1_7 : ∀ a, (![7, 0, 0] : Fin 3 → ℕ) a + S1x8x64.size a ≤ S16x8x64.size a} {h2_7 : ∀ a, (Rect.unit (s := S16x8x64) ![7, 0, 0] S1x8x64.size h1_7).stride a = 1} {h3_7 : S1x8x64.Squeezes S8x64}
    {h1_8 : ∀ a, (![8, 0, 0] : Fin 3 → ℕ) a + S1x8x64.size a ≤ S16x8x64.size a} {h2_8 : ∀ a, (Rect.unit (s := S16x8x64) ![8, 0, 0] S1x8x64.size h1_8).stride a = 1} {h3_8 : S1x8x64.Squeezes S8x64}
    {h1_9 : ∀ a, (![9, 0, 0] : Fin 3 → ℕ) a + S1x8x64.size a ≤ S16x8x64.size a} {h2_9 : ∀ a, (Rect.unit (s := S16x8x64) ![9, 0, 0] S1x8x64.size h1_9).stride a = 1} {h3_9 : S1x8x64.Squeezes S8x64}
    {h1_10 : ∀ a, (![10, 0, 0] : Fin 3 → ℕ) a + S1x8x64.size a ≤ S16x8x64.size a} {h2_10 : ∀ a, (Rect.unit (s := S16x8x64) ![10, 0, 0] S1x8x64.size h1_10).stride a = 1} {h3_10 : S1x8x64.Squeezes S8x64}
    {h1_11 : ∀ a, (![11, 0, 0] : Fin 3 → ℕ) a + S1x8x64.size a ≤ S16x8x64.size a} {h2_11 : ∀ a, (Rect.unit (s := S16x8x64) ![11, 0, 0] S1x8x64.size h1_11).stride a = 1} {h3_11 : S1x8x64.Squeezes S8x64}
    {h1_12 : ∀ a, (![12, 0, 0] : Fin 3 → ℕ) a + S1x8x64.size a ≤ S16x8x64.size a} {h2_12 : ∀ a, (Rect.unit (s := S16x8x64) ![12, 0, 0] S1x8x64.size h1_12).stride a = 1} {h3_12 : S1x8x64.Squeezes S8x64}
    {h1_13 : ∀ a, (![13, 0, 0] : Fin 3 → ℕ) a + S1x8x64.size a ≤ S16x8x64.size a} {h2_13 : ∀ a, (Rect.unit (s := S16x8x64) ![13, 0, 0] S1x8x64.size h1_13).stride a = 1} {h3_13 : S1x8x64.Squeezes S8x64}
    {h1_14 : ∀ a, (![14, 0, 0] : Fin 3 → ℕ) a + S1x8x64.size a ≤ S16x8x64.size a} {h2_14 : ∀ a, (Rect.unit (s := S16x8x64) ![14, 0, 0] S1x8x64.size h1_14).stride a = 1} {h3_14 : S1x8x64.Squeezes S8x64}
    {h1_15 : ∀ a, (![15, 0, 0] : Fin 3 → ℕ) a + S1x8x64.size a ≤ S16x8x64.size a} {h2_15 : ∀ a, (Rect.unit (s := S16x8x64) ![15, 0, 0] S1x8x64.size h1_15).stride a = 1} {h3_15 : S1x8x64.Squeezes S8x64}
    {g1_0 : ∀ a, (![(laneI m d L off inb 0 hs_0 hp_0).toNat, 0, 0] : Fin 3 → ℕ) a + S1x8x64.size a ≤ S125000x8x64.size a} {g2_0 : ∀ a, (Rect.unit (s := S125000x8x64) ![(laneI m d L off inb 0 hs_0 hp_0).toNat, 0, 0] S1x8x64.size g1_0).stride a = 1}
    {g1_1 : ∀ a, (![(laneI m d L off inb 1 hs_1 hp_1).toNat, 0, 0] : Fin 3 → ℕ) a + S1x8x64.size a ≤ S125000x8x64.size a} {g2_1 : ∀ a, (Rect.unit (s := S125000x8x64) ![(laneI m d L off inb 1 hs_1 hp_1).toNat, 0, 0] S1x8x64.size g1_1).stride a = 1}
    {g1_2 : ∀ a, (![(laneI m d L off inb 2 hs_2 hp_2).toNat, 0, 0] : Fin 3 → ℕ) a + S1x8x64.size a ≤ S125000x8x64.size a} {g2_2 : ∀ a, (Rect.unit (s := S125000x8x64) ![(laneI m d L off inb 2 hs_2 hp_2).toNat, 0, 0] S1x8x64.size g1_2).stride a = 1}
    {g1_3 : ∀ a, (![(laneI m d L off inb 3 hs_3 hp_3).toNat, 0, 0] : Fin 3 → ℕ) a + S1x8x64.size a ≤ S125000x8x64.size a} {g2_3 : ∀ a, (Rect.unit (s := S125000x8x64) ![(laneI m d L off inb 3 hs_3 hp_3).toNat, 0, 0] S1x8x64.size g1_3).stride a = 1}
    {g1_4 : ∀ a, (![(laneI m d L off inb 4 hs_4 hp_4).toNat, 0, 0] : Fin 3 → ℕ) a + S1x8x64.size a ≤ S125000x8x64.size a} {g2_4 : ∀ a, (Rect.unit (s := S125000x8x64) ![(laneI m d L off inb 4 hs_4 hp_4).toNat, 0, 0] S1x8x64.size g1_4).stride a = 1}
    {g1_5 : ∀ a, (![(laneI m d L off inb 5 hs_5 hp_5).toNat, 0, 0] : Fin 3 → ℕ) a + S1x8x64.size a ≤ S125000x8x64.size a} {g2_5 : ∀ a, (Rect.unit (s := S125000x8x64) ![(laneI m d L off inb 5 hs_5 hp_5).toNat, 0, 0] S1x8x64.size g1_5).stride a = 1}
    {g1_6 : ∀ a, (![(laneI m d L off inb 6 hs_6 hp_6).toNat, 0, 0] : Fin 3 → ℕ) a + S1x8x64.size a ≤ S125000x8x64.size a} {g2_6 : ∀ a, (Rect.unit (s := S125000x8x64) ![(laneI m d L off inb 6 hs_6 hp_6).toNat, 0, 0] S1x8x64.size g1_6).stride a = 1}
    {g1_7 : ∀ a, (![(laneI m d L off inb 7 hs_7 hp_7).toNat, 0, 0] : Fin 3 → ℕ) a + S1x8x64.size a ≤ S125000x8x64.size a} {g2_7 : ∀ a, (Rect.unit (s := S125000x8x64) ![(laneI m d L off inb 7 hs_7 hp_7).toNat, 0, 0] S1x8x64.size g1_7).stride a = 1}
    {g1_8 : ∀ a, (![(laneI m d L off inb 8 hs_8 hp_8).toNat, 0, 0] : Fin 3 → ℕ) a + S1x8x64.size a ≤ S125000x8x64.size a} {g2_8 : ∀ a, (Rect.unit (s := S125000x8x64) ![(laneI m d L off inb 8 hs_8 hp_8).toNat, 0, 0] S1x8x64.size g1_8).stride a = 1}
    {g1_9 : ∀ a, (![(laneI m d L off inb 9 hs_9 hp_9).toNat, 0, 0] : Fin 3 → ℕ) a + S1x8x64.size a ≤ S125000x8x64.size a} {g2_9 : ∀ a, (Rect.unit (s := S125000x8x64) ![(laneI m d L off inb 9 hs_9 hp_9).toNat, 0, 0] S1x8x64.size g1_9).stride a = 1}
    {g1_10 : ∀ a, (![(laneI m d L off inb 10 hs_10 hp_10).toNat, 0, 0] : Fin 3 → ℕ) a + S1x8x64.size a ≤ S125000x8x64.size a} {g2_10 : ∀ a, (Rect.unit (s := S125000x8x64) ![(laneI m d L off inb 10 hs_10 hp_10).toNat, 0, 0] S1x8x64.size g1_10).stride a = 1}
    {g1_11 : ∀ a, (![(laneI m d L off inb 11 hs_11 hp_11).toNat, 0, 0] : Fin 3 → ℕ) a + S1x8x64.size a ≤ S125000x8x64.size a} {g2_11 : ∀ a, (Rect.unit (s := S125000x8x64) ![(laneI m d L off inb 11 hs_11 hp_11).toNat, 0, 0] S1x8x64.size g1_11).stride a = 1}
    {g1_12 : ∀ a, (![(laneI m d L off inb 12 hs_12 hp_12).toNat, 0, 0] : Fin 3 → ℕ) a + S1x8x64.size a ≤ S125000x8x64.size a} {g2_12 : ∀ a, (Rect.unit (s := S125000x8x64) ![(laneI m d L off inb 12 hs_12 hp_12).toNat, 0, 0] S1x8x64.size g1_12).stride a = 1}
    {g1_13 : ∀ a, (![(laneI m d L off inb 13 hs_13 hp_13).toNat, 0, 0] : Fin 3 → ℕ) a + S1x8x64.size a ≤ S125000x8x64.size a} {g2_13 : ∀ a, (Rect.unit (s := S125000x8x64) ![(laneI m d L off inb 13 hs_13 hp_13).toNat, 0, 0] S1x8x64.size g1_13).stride a = 1}
    {g1_14 : ∀ a, (![(laneI m d L off inb 14 hs_14 hp_14).toNat, 0, 0] : Fin 3 → ℕ) a + S1x8x64.size a ≤ S125000x8x64.size a} {g2_14 : ∀ a, (Rect.unit (s := S125000x8x64) ![(laneI m d L off inb 14 hs_14 hp_14).toNat, 0, 0] S1x8x64.size g1_14).stride a = 1}
    {g1_15 : ∀ a, (![(laneI m d L off inb 15 hs_15 hp_15).toNat, 0, 0] : Fin 3 → ℕ) a + S1x8x64.size a ≤ S125000x8x64.size a} {g2_15 : ∀ a, (Rect.unit (s := S125000x8x64) ![(laneI m d L off inb 15 hs_15 hp_15).toNat, 0, 0] S1x8x64.size g1_15).stride a = 1}
    {prior : (slotV sIA 0 h1_0 h2_0 h3_0).ty.Contents (Elt F)} :
    LandedI m d L c
      (View.write (Elt F) (slotV sIA 15 h1_15 h2_15 h3_15) (View.write (Elt F) (slotV sIA 14 h1_14 h2_14 h3_14) (View.write (Elt F) (slotV sIA 13 h1_13 h2_13 h3_13) (View.write (Elt F) (slotV sIA 12 h1_12 h2_12 h3_12) (View.write (Elt F) (slotV sIA 11 h1_11 h2_11 h3_11) (View.write (Elt F) (slotV sIA 10 h1_10 h2_10 h3_10) (View.write (Elt F) (slotV sIA 9 h1_9 h2_9 h3_9) (View.write (Elt F) (slotV sIA 8 h1_8 h2_8 h3_8) (View.write (Elt F) (slotV sIA 7 h1_7 h2_7 h3_7) (View.write (Elt F) (slotV sIA 6 h1_6 h2_6 h3_6) (View.write (Elt F) (slotV sIA 5 h1_5 h2_5 h3_5) (View.write (Elt F) (slotV sIA 4 h1_4 h2_4 h3_4) (View.write (Elt F) (slotV sIA 3 h1_3 h2_3 h3_3) (View.write (Elt F) (slotV sIA 2 h1_2 h2_2 h3_2) (View.write (Elt F) (slotV sIA 1 h1_1 h2_1 h3_1) (View.write (Elt F) (slotV sIA 0 h1_0 h2_0 h3_0) prior (ReadAs.same.apply ((rowV iwV (laneI m d L off inb 0 hs_0 hp_0).toNat g1_0 g2_0).view.read (Elt F) (W1 m d))) Finset.univ) (ReadAs.same.apply ((rowV iwV (laneI m d L off inb 1 hs_1 hp_1).toNat g1_1 g2_1).view.read (Elt F) (W1 m d))) Finset.univ) (ReadAs.same.apply ((rowV iwV (laneI m d L off inb 2 hs_2 hp_2).toNat g1_2 g2_2).view.read (Elt F) (W1 m d))) Finset.univ) (ReadAs.same.apply ((rowV iwV (laneI m d L off inb 3 hs_3 hp_3).toNat g1_3 g2_3).view.read (Elt F) (W1 m d))) Finset.univ) (ReadAs.same.apply ((rowV iwV (laneI m d L off inb 4 hs_4 hp_4).toNat g1_4 g2_4).view.read (Elt F) (W1 m d))) Finset.univ) (ReadAs.same.apply ((rowV iwV (laneI m d L off inb 5 hs_5 hp_5).toNat g1_5 g2_5).view.read (Elt F) (W1 m d))) Finset.univ) (ReadAs.same.apply ((rowV iwV (laneI m d L off inb 6 hs_6 hp_6).toNat g1_6 g2_6).view.read (Elt F) (W1 m d))) Finset.univ) (ReadAs.same.apply ((rowV iwV (laneI m d L off inb 7 hs_7 hp_7).toNat g1_7 g2_7).view.read (Elt F) (W1 m d))) Finset.univ) (ReadAs.same.apply ((rowV iwV (laneI m d L off inb 8 hs_8 hp_8).toNat g1_8 g2_8).view.read (Elt F) (W1 m d))) Finset.univ) (ReadAs.same.apply ((rowV iwV (laneI m d L off inb 9 hs_9 hp_9).toNat g1_9 g2_9).view.read (Elt F) (W1 m d))) Finset.univ) (ReadAs.same.apply ((rowV iwV (laneI m d L off inb 10 hs_10 hp_10).toNat g1_10 g2_10).view.read (Elt F) (W1 m d))) Finset.univ) (ReadAs.same.apply ((rowV iwV (laneI m d L off inb 11 hs_11 hp_11).toNat g1_11 g2_11).view.read (Elt F) (W1 m d))) Finset.univ) (ReadAs.same.apply ((rowV iwV (laneI m d L off inb 12 hs_12 hp_12).toNat g1_12 g2_12).view.read (Elt F) (W1 m d))) Finset.univ) (ReadAs.same.apply ((rowV iwV (laneI m d L off inb 13 hs_13 hp_13).toNat g1_13 g2_13).view.read (Elt F) (W1 m d))) Finset.univ) (ReadAs.same.apply ((rowV iwV (laneI m d L off inb 14 hs_14 hp_14).toNat g1_14 g2_14).view.read (Elt F) (W1 m d))) Finset.univ) (ReadAs.same.apply ((rowV iwV (laneI m d L off inb 15 hs_15 hp_15).toNat g1_15 g2_15).view.read (Elt F) (W1 m d))) Finset.univ) := by
  have hw : ∀ s : Fin 16, (![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s = (CI m d L (pos c s)) >>> 3 := by
    intro s
    fin_cases s
    · exact laneI_eq m d L c hc off ho inb 0 (by decide) hs_0 hp_0
    · exact laneI_eq m d L c hc off ho inb 1 (by decide) hs_1 hp_1
    · exact laneI_eq m d L c hc off ho inb 2 (by decide) hs_2 hp_2
    · exact laneI_eq m d L c hc off ho inb 3 (by decide) hs_3 hp_3
    · exact laneI_eq m d L c hc off ho inb 4 (by decide) hs_4 hp_4
    · exact laneI_eq m d L c hc off ho inb 5 (by decide) hs_5 hp_5
    · exact laneI_eq m d L c hc off ho inb 6 (by decide) hs_6 hp_6
    · exact laneI_eq m d L c hc off ho inb 7 (by decide) hs_7 hp_7
    · exact laneI_eq m d L c hc off ho inb 8 (by decide) hs_8 hp_8
    · exact laneI_eq m d L c hc off ho inb 9 (by decide) hs_9 hp_9
    · exact laneI_eq m d L c hc off ho inb 10 (by decide) hs_10 hp_10
    · exact laneI_eq m d L c hc off ho inb 11 (by decide) hs_11 hp_11
    · exact laneI_eq m d L c hc off ho inb 12 (by decide) hs_12 hp_12
    · exact laneI_eq m d L c hc off ho inb 13 (by decide) hs_13 hp_13
    · exact laneI_eq m d L c hc off ho inb 14 (by decide) hs_14 hp_14
    · exact laneI_eq m d L c hc off ho inb 15 (by decide) hs_15 hp_15
  have hb : ∀ s : Fin 16, ((![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s).toNat < 125000 := fun s => by
    rw [hw s]; exact shr3_lt (v := CI m d L (pos c s)) (hpre d _).2
  intro s r f
  refine (landed_of_nest_IA_word (F := F) d (![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) hb (W1 m d)
    h1_0 h2_0 h3_0 h1_1 h2_1 h3_1 h1_2 h2_2 h3_2 h1_3 h2_3 h3_3 h1_4 h2_4 h3_4 h1_5 h2_5 h3_5 h1_6 h2_6 h3_6 h1_7 h2_7 h3_7 h1_8 h2_8 h3_8 h1_9 h2_9 h3_9 h1_10 h2_10 h3_10 h1_11 h2_11 h3_11 h1_12 h2_12 h3_12 h1_13 h2_13 h3_13 h1_14 h2_14 h3_14 h1_15 h2_15 h3_15
    g1_0 g2_0 g1_1 g2_1 g1_2 g2_2 g1_3 g2_3 g1_4 g2_4 g1_5 g2_5 g1_6 g2_6 g1_7 g2_7 g1_8 g2_8 g1_9 g2_9 g1_10 g2_10 g1_11 g2_11 g1_12 g2_12 g1_13 g2_13 g1_14 g2_14 g1_15 g2_15 prior s r f).trans ?_
  refine congrArg (fun b => W1 m d (ValueIdx.ix3 (n0 := 125000) (n1 := 8) (n2 := 64) b r f)) (Fin.ext ?_)
  show ((![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s).toNat = ((CI m d L (pos c s)) >>> 3).toNat % 125000
  rw [hw s]
  exact (shr3_mod (v := CI m d L (pos c s)) (hpre d _).2).symm

end Cert.Proof.Kernel

end
-- ==== Proof.K.OutStep.lean ====
/-
  One trip of the loop stores two 16-lane pieces into the output scratch, at positions `32 k` and `32 k + 16`.  If the
  first `32 k` positions held their specified values before, and each stored lane is the specified value of its position,
  then the first `32 (k + 1)` positions hold their specified values after.
-/
import proofs.«203884_g41704132444582_cont_8to1_b_1290_16_alg».proof.Proof.K.BodyDefs

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

omit [FloatOps F] in
/-- Lane `x` of the 16 positions from `16 c` is position `16 c + x` of the tile's 512. -/
theorem unit_emb_pos (c : ℕ) (hc : c < 32) (off : Fin 1 → ℕ) (ho : off = ![16 * c]) (inb : ∀ a, off a + S16.size a ≤ S512.size a) (x : S16.Idx) :
    (Rect.unit (s := S512) off S16.size inb).emb x = pos c ⟨(x 0).val, (x 0).isLt⟩ := by
  subst ho
  have hx : (x 0).val < 16 := (x 0).isLt
  funext a
  match a with
  | ⟨0, _⟩ =>
    refine Fin.ext ?_
    show 16 * c + 1 * (x 0).val = (16 * c + (x 0).val) % 512
    rw [Nat.mod_eq_of_lt (by omega)]; omega

/-- The output scratch after a trip's two stores. -/
theorem outOK_step (d : Dev nD) (L : grid0.Coords) (k : ℕ) (hk : k < 16)
    (fo : Buf (Elt F) ((thrV d L).loc cc0_scratch6)) (hfo : OutOK m d L k fo)
    (offA offB : Fin 1 → ℕ) (inbA : ∀ a, offA a + S16.size a ≤ S512.size a) (inbB : ∀ a, offB a + S16.size a ≤ S512.size a)
    (hoA : offA = ![32 * k]) (hoB : offB = ![32 * k + 16])
    (wA wB : S16.Idx → Elt F .f32)
    (T : List (View.Piece (Elt F) S512 .f32)) (hT : T = [⟨Rect.unit (s := S512) offA S16.size inbA, wA⟩])
    (hA : ∀ l : S16.Idx, wA l = Gout m d ((oSlice L).view.emb (pos (2 * k) ⟨(l 0).val, (l 0).isLt⟩)))
    (hB : ∀ l : S16.Idx, wB l = Gout m d ((oSlice L).view.emb (pos (2 * k + 1) ⟨(l 0).val, (l 0).isLt⟩))) :
    OutOK m d L (k + 1) ((sO : Memref sig .scVector .vmem S512 .f32).view.writes (Elt F) fo (⟨Rect.unit (s := S512) offB S16.size inbB, wB⟩ :: T)) := by
  subst hT
  intro p hp
  have hp0 : (p 0).val < 512 := (p 0).isLt
  have eA : offA 0 = 32 * k := by rw [hoA]; rfl
  have eB : offB 0 = 32 * k + 16 := by rw [hoB]; rfl
  by_cases h1 : (p 0).val < 32 * k
  · have e := View.read_writes_apply_of_forall_not_mem (sO : Memref sig .scVector .vmem S512 .f32).view fo p
      [⟨Rect.unit (s := S512) offB S16.size inbB, wB⟩, ⟨Rect.unit (s := S512) offA S16.size inbA, wA⟩] (by
        intro q hq
        rcases List.mem_cons.mp hq with rfl | hq
        · intro hmem
          change p ∈ (Rect.unit (s := S512) offB S16.size inbB).set at hmem
          have := (Rect.mem_set_unit.mp hmem (0 : Fin 1)).1
          omega
        · rcases List.mem_cons.mp hq with rfl | hq
          · intro hmem
            change p ∈ (Rect.unit (s := S512) offA S16.size inbA).set at hmem
            have := (Rect.mem_set_unit.mp hmem (0 : Fin 1)).1
            omega
          · exact absurd hq List.not_mem_nil)
    exact e.trans (hfo p h1)
  · refine View.read_writes_apply_of_pieces (sO : Memref sig .scVector .vmem S512 .f32).view fo (fun y => Gout m d ((oSlice L).view.emb y))
      [⟨Rect.unit (s := S512) offB S16.size inbB, wB⟩, ⟨Rect.unit (s := S512) offA S16.size inbA, wA⟩] ?_ p ?_
    · intro q hq x
      rcases List.mem_cons.mp hq with rfl | hq
      · show wB x = Gout m d ((oSlice L).view.emb ((Rect.unit (s := S512) offB S16.size inbB).emb x))
        rw [unit_emb_pos (2 * k + 1) (by omega) offB (by rw [hoB]; congr 1; omega) inbB x]
        exact hB x
      · rcases List.mem_cons.mp hq with rfl | hq
        · show wA x = Gout m d ((oSlice L).view.emb ((Rect.unit (s := S512) offA S16.size inbA).emb x))
          rw [unit_emb_pos (2 * k) (by omega) offA (by rw [hoA]; congr 1; omega) inbA x]
          exact hA x
        · exact absurd hq List.not_mem_nil
    · by_cases h2 : (p 0).val < 32 * k + 16
      · refine ⟨⟨Rect.unit (s := S512) offA S16.size inbA, wA⟩, List.mem_cons_of_mem _ List.mem_cons_self, ?_⟩
        show p ∈ (Rect.unit (s := S512) offA S16.size inbA).set
        refine Rect.mem_set_unit.mpr fun a => ?_
        match a with
        | ⟨0, _⟩ => exact ⟨by show offA 0 ≤ (p 0).val; omega, by show (p 0).val < offA 0 + 16; omega⟩
      · refine ⟨⟨Rect.unit (s := S512) offB S16.size inbB, wB⟩, List.mem_cons_self, ?_⟩
        show p ∈ (Rect.unit (s := S512) offB S16.size inbB).set
        refine Rect.mem_set_unit.mpr fun a => ?_
        match a with
        | ⟨0, _⟩ => exact ⟨by show offB 0 ≤ (p 0).val; omega, by show (p 0).val < offB 0 + 16; omega⟩

end Cert.Proof.Kernel

end
-- ==== Proof.K.ChunkVal.lean ====
/-
  The value a chunk's accumulation leaves at a lane.  The accumulation over 64 features of the products of the two
  gathered vectors is, lane by lane, the inner product accumulated feature by feature; and when the two block buffers
  hold the table blocks that the chunk's indices name, lane `l` of chunk `c` is the specified value of position
  `16 c + l` of the tile's piece of the result.
-/
import proofs.«203884_g41704132444582_cont_8to1_b_1290_16_alg».proof.Proof.K.Acc

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## The accumulation at a lane -/

omit [FloatOps F] in
theorem ix3_congr {a a' : Fin 16} {b b' : Fin 8} {c c' : Fin 64} (ha : a.val = a'.val) (hb : b.val = b'.val) (hc : c.val = c'.val) :
    ValueIdx.ix3 (n0 := 16) (n1 := 8) (n2 := 64) a b c = ValueIdx.ix3 (n0 := 16) (n1 := 8) (n2 := 64) a' b' c' := by
  rw [Fin.ext ha, Fin.ext hb, Fin.ext hc]

/-- Lane `l` of the accumulation over the first `n` features: the inner product of the two staged rows the lane's index
    words name, accumulated feature by feature from the float zero. -/
theorem accL_apply (Cu Ci : S16x8x64.Idx → Elt F .f32) (g ur ir : IVec S16 32)
    (H : ∀ n, n < 64 → (∀ a x, ((![g, ur, broadcast S16 (BitVec.ofNat 32 n)] : Fin 3 → IVec S16 32) a x).toNat < S16x8x64.size a)
                     ∧ (∀ a x, ((![g, ir, broadcast S16 (BitVec.ofNat 32 n)] : Fin 3 → IVec S16 32) a x).toNat < S16x8x64.size a)) :
    ∀ (n : ℕ) (hn : n ≤ 64) (l : S16.Idx),
      accL Cu Ci g ur ir H n hn l
        = Cert.Spec.dotAcc (FloatOps.ofBits .f32 0x00000000#32)
            (fun f => Cu (ValueIdx.ix3 (n0 := 16) (n1 := 8) (n2 := 64) ⟨(g l).toNat % 16, Nat.mod_lt _ (by decide)⟩
              ⟨(ur l).toNat % 8, Nat.mod_lt _ (by decide)⟩ ⟨f % 64, Nat.mod_lt _ (by decide)⟩))
            (fun f => Ci (ValueIdx.ix3 (n0 := 16) (n1 := 8) (n2 := 64) ⟨(g l).toNat % 16, Nat.mod_lt _ (by decide)⟩
              ⟨(ir l).toNat % 8, Nat.mod_lt _ (by decide)⟩ ⟨f % 64, Nat.mod_lt _ (by decide)⟩)) n
  | 0, _, _ => rfl
  | n + 1, hn, l => by
    have hn' : n < 64 := hn
    have hg : (g l).toNat < 16 := (H n hn').1 0 l
    have hu : (ur l).toNat < 8 := (H n hn').1 1 l
    have hi : (ir l).toNat < 8 := (H n hn').2 1 l
    have hb : ((broadcast S16 (BitVec.ofNat 32 n) : IVec S16 32) l).toNat = n := by
      show (BitVec.ofNat 32 n).toNat = n
      rw [BitVec.toNat_ofNat]; omega
    show FloatOps.addf (accL Cu Ci g ur ir H n (Nat.le_of_succ_le hn) l)
        (FloatOps.mulf (loadIdx Cu ![g, ur, broadcast S16 (BitVec.ofNat 32 n)] (H n hn).1 l)
          (loadIdx Ci ![g, ir, broadcast S16 (BitVec.ofNat 32 n)] (H n hn).2 l)) = _
    rw [accL_apply Cu Ci g ur ir H n (Nat.le_of_succ_le hn) l, loadIdx_apply, loadIdx_apply]
    show _ = FloatOps.addf _ (FloatOps.mulf _ _)
    congr 2
    · exact congrArg Cu (ix3_congr (by show (g l).toNat = (g l).toNat % 16; omega) (by show (ur l).toNat = (ur l).toNat % 8; omega)
        (by show ((broadcast S16 (BitVec.ofNat 32 n) : IVec S16 32) l).toNat = n % 64; rw [hb]; omega))
    · exact congrArg Ci (ix3_congr (by show (g l).toNat = (g l).toNat % 16; omega) (by show (ir l).toNat = (ir l).toNat % 8; omega)
        (by show ((broadcast S16 (BitVec.ofNat 32 n) : IVec S16 32) l).toNat = n % 64; rw [hb]; omega))

/-! ## A chunk's lane is its position's specified value -/

omit [FloatOps F] in
/-- Lane `x` of the 16 positions from `16 c` is position `16 c + x` of the tile's 512. -/
theorem unit_idx_pos (c : ℕ) (hc : 16 * c + 16 ≤ 512) (off : Fin 1 → ℕ) (ho : off 0 = 16 * c) (inb : ∀ a, off a + S16.size a ≤ S512.size a) (x : S16.Idx) :
    (Rect.unit (s := S512) off S16.size inb).toLoadRect.idx x = pos c ⟨(x 0).val, (x 0).isLt⟩ := by
  have hx : (x 0).val < 16 := (x 0).isLt
  funext a
  match a with
  | ⟨0, _⟩ =>
    refine Fin.ext ?_
    show off 0 + 1 * (x 0).val = (16 * c + (x 0).val) % 512
    rw [Nat.mod_eq_of_lt (by omega), ho]; omega

/-- The chunk's row-in-block words: the index scratch read at the chunk, masked to three bits. -/
abbrev urOf (d : Dev nD) (L : grid0.Coords) (off : Fin 1 → ℕ) (inb : ∀ a, off a + S16.size a ≤ S512.size a) : IVec S16 32 :=
  andi ((sU : Memref sig .scVector .vmem S512 .i32).view.readAt (Elt F) (Rect.unit (s := S512) off S16.size inb).toLoadRect (CU m d L)) (broadcast S16 7#32)
abbrev irOf (d : Dev nD) (L : grid0.Coords) (off : Fin 1 → ℕ) (inb : ∀ a, off a + S16.size a ≤ S512.size a) : IVec S16 32 :=
  andi ((sI : Memref sig .scVector .vmem S512 .i32).view.readAt (Elt F) (Rect.unit (s := S512) off S16.size inb).toLoadRect (CI m d L)) (broadcast S16 7#32)

/-- With staged contents `Cu`, `Ci` that hold, slot by slot, the table blocks the chunk's indices name: lane `l` of
    the accumulation over all 64 features is the specified value of position `16 c + l`. -/
theorem chunk_val_of (d : Dev nD) (L : grid0.Coords) (c : ℕ) (hc : 16 * c + 16 ≤ 512)
    (Cu Ci : S16x8x64.Idx → Elt F .f32)
    (hU : ∀ (s : Fin 16) (r : Fin 8) (f : Fin 64), Cu (ValueIdx.ix3 (n0 := 16) (n1 := 8) (n2 := 64) s r f)
      = W0 m d (ValueIdx.ix3 (n0 := 125000) (n1 := 8) (n2 := 64) ⟨((CU m d L (pos c s)) >>> 3).toNat % 125000, Nat.mod_lt _ (by decide)⟩ r f))
    (hI : ∀ (s : Fin 16) (r : Fin 8) (f : Fin 64), Ci (ValueIdx.ix3 (n0 := 16) (n1 := 8) (n2 := 64) s r f)
      = W1 m d (ValueIdx.ix3 (n0 := 125000) (n1 := 8) (n2 := 64) ⟨((CI m d L (pos c s)) >>> 3).toNat % 125000, Nat.mod_lt _ (by decide)⟩ r f))
    (off : Fin 1 → ℕ) (ho : off 0 = 16 * c) (inb : ∀ a, off a + S16.size a ≤ S512.size a)
    (g : IVec S16 32) (hg : ∀ l : S16.Idx, (g l).toNat = (l 0).val)
    (H : ∀ n, n < 64 → (∀ a x, ((![g, urOf m d L off inb, broadcast S16 (BitVec.ofNat 32 n)] : Fin 3 → IVec S16 32) a x).toNat < S16x8x64.size a)
                     ∧ (∀ a x, ((![g, irOf m d L off inb, broadcast S16 (BitVec.ofNat 32 n)] : Fin 3 → IVec S16 32) a x).toNat < S16x8x64.size a))
    (l : S16.Idx) :
    accL Cu Ci g (urOf m d L off inb) (irOf m d L off inb) H 64 le_rfl l
      = Gout m d ((oSlice L).view.emb (pos c ⟨(l 0).val, (l 0).isLt⟩)) := by
  have hl : (l 0).val < 16 := (l 0).isLt
  have eu : urOf m d L off inb l = CU m d L (pos c ⟨(l 0).val, (l 0).isLt⟩) &&& 7#32 := by
    show IntOp.andi (CU m d L ((Rect.unit (s := S512) off S16.size inb).toLoadRect.idx l)) 7#32 = _
    rw [unit_idx_pos c hc off ho inb l]; rfl
  have ei : irOf m d L off inb l = CI m d L (pos c ⟨(l 0).val, (l 0).isLt⟩) &&& 7#32 := by
    show IntOp.andi (CI m d L ((Rect.unit (s := S512) off S16.size inb).toLoadRect.idx l)) 7#32 = _
    rw [unit_idx_pos c hc off ho inb l]; rfl
  have es : (⟨(g l).toNat % 16, Nat.mod_lt _ (by decide)⟩ : Fin 16) = ⟨(l 0).val, (l 0).isLt⟩ := Fin.ext (by show (g l).toNat % 16 = (l 0).val; rw [hg l]; omega)
  rw [accL_apply]
  show _ = Cert.Spec.dotAcc zeroF (fun f => W0 m d (Cert.Spec.blk3 (m (uLoc d) ((oSlice L).view.emb (pos c ⟨(l 0).val, (l 0).isLt⟩))) f))
    (fun f => W1 m d (Cert.Spec.blk3 (m (iLoc d) ((oSlice L).view.emb (pos c ⟨(l 0).val, (l 0).isLt⟩))) f)) 64
  have eU : m (uLoc d) ((oSlice L).view.emb (pos c ⟨(l 0).val, (l 0).isLt⟩)) = CU m d L (pos c ⟨(l 0).val, (l 0).isLt⟩) := by
    unfold CU; rw [emb_u_eq_emb_o]
  have eI : m (iLoc d) ((oSlice L).view.emb (pos c ⟨(l 0).val, (l 0).isLt⟩)) = CI m d L (pos c ⟨(l 0).val, (l 0).isLt⟩) := by
    unfold CI; rw [emb_i_eq_emb_o]
  rw [eU, eI]
  congr 1
  · funext f
    rw [hU, es, eu]; rfl
  · funext f
    rw [hI, es, ei]; rfl

omit [FloatOps F] in
theorem whole_idx (j : S16x8x64.Idx) : (LoadRect.whole S16x8x64).idx j = j := by
  funext a; exact Fin.ext (show 0 + 1 * (j a).val = (j a).val by omega)

/-- The same for the first buffer pair, its contents read whole. -/
theorem chunk_val (d : Dev nD) (L : grid0.Coords) (c : ℕ) (hc : 16 * c + 16 ≤ 512)
    (CUc : Buf (Elt F) ((thrV d L).loc cc0_scratch2)) (CIc : Buf (Elt F) ((thrV d L).loc cc0_scratch3))
    (hU : LandedU m d L c CUc) (hI : LandedI m d L c CIc)
    (off : Fin 1 → ℕ) (ho : off 0 = 16 * c) (inb : ∀ a, off a + S16.size a ≤ S512.size a)
    (g : IVec S16 32) (hg : ∀ l : S16.Idx, (g l).toNat = (l 0).val)
    (H : ∀ n, n < 64 → (∀ a x, ((![g, urOf m d L off inb, broadcast S16 (BitVec.ofNat 32 n)] : Fin 3 → IVec S16 32) a x).toNat < S16x8x64.size a)
                     ∧ (∀ a x, ((![g, irOf m d L off inb, broadcast S16 (BitVec.ofNat 32 n)] : Fin 3 → IVec S16 32) a x).toNat < S16x8x64.size a))
    (l : S16.Idx) :
    accL (View.readAt (Elt F) (sUA : Memref sig .scVector .vmem S16x8x64 .f32).view (LoadRect.whole S16x8x64) CUc)
        (View.readAt (Elt F) (sIA : Memref sig .scVector .vmem S16x8x64 .f32).view (LoadRect.whole S16x8x64) CIc)
        g (urOf m d L off inb) (irOf m d L off inb) H 64 le_rfl l
      = Gout m d ((oSlice L).view.emb (pos c ⟨(l 0).val, (l 0).isLt⟩)) :=
  chunk_val_of m d L c hc _ _
    (fun s r f => by
      show CUc ((LoadRect.whole S16x8x64).idx (ValueIdx.ix3 (n0 := 16) (n1 := 8) (n2 := 64) s r f)) = _
      rw [whole_idx]; exact hU s r f)
    (fun s r f => by
      show CIc ((LoadRect.whole S16x8x64).idx (ValueIdx.ix3 (n0 := 16) (n1 := 8) (n2 := 64) s r f)) = _
      rw [whole_idx]; exact hI s r f)
    off ho inb g hg H l

end Cert.Proof.Kernel

end
-- ==== Proof.K.LandedTripB.lean ====
/-
  The second block-buffer pair after the sixteen copies of one chunk, pointwise, and a whole-buffer load of it.
-/
import proofs.«203884_g41704132444582_cont_8to1_b_1290_16_alg».proof.Proof.K.LandedTrip

noncomputable section

namespace Cert.Proof.Kernel

open Cert.Kernel Cert.Kernel.Gen
open Idealize.ShloMosaic
open Idealize.ShloMosaic.SparseCore (S V T)

variable {F : FTy → Type} [FloatOps F]
variable (m : (ℓ : Loc nD τ sig) → Buf (Elt F) ℓ)

/-- `sUB` AFTER THE SIXTEEN COPIES OF CHUNK `c`, pointwise: position `(s, r, f)` holds the table at the block the chunk's
    lane `s` names. -/
theorem landedUB_trip (hpre : PreOK m) (d : Dev nD) (L : grid0.Coords) (c : ℕ) (hc : 16 * c + 16 ≤ 512) (off : Fin 1 → ℕ) (ho : off 0 = 16 * c)
    {inb : ∀ a, off a + S16.size a ≤ S512.size a}
    {hs_0 : S16.Slices ![0] S1} {hp_0 : ∀ a, (![0] : Fin 1 → ℕ) a < S1.size a}
    {hs_1 : S16.Slices ![1] S1} {hp_1 : ∀ a, (![0] : Fin 1 → ℕ) a < S1.size a}
    {hs_2 : S16.Slices ![2] S1} {hp_2 : ∀ a, (![0] : Fin 1 → ℕ) a < S1.size a}
    {hs_3 : S16.Slices ![3] S1} {hp_3 : ∀ a, (![0] : Fin 1 → ℕ) a < S1.size a}
    {hs_4 : S16.Slices ![4] S1} {hp_4 : ∀ a, (![0] : Fin 1 → ℕ) a < S1.size a}
    {hs_5 : S16.Slices ![5] S1} {hp_5 : ∀ a, (![0] : Fin 1 → ℕ) a < S1.size a}
    {hs_6 : S16.Slices ![6] S1} {hp_6 : ∀ a, (![0] : Fin 1 → ℕ) a < S1.size a}
    {hs_7 : S16.Slices ![7] S1} {hp_7 : ∀ a, (![0] : Fin 1 → ℕ) a < S1.size a}
    {hs_8 : S16.Slices ![8] S1} {hp_8 : ∀ a, (![0] : Fin 1 → ℕ) a < S1.size a}
    {hs_9 : S16.Slices ![9] S1} {hp_9 : ∀ a, (![0] : Fin 1 → ℕ) a < S1.size a}
    {hs_10 : S16.Slices ![10] S1} {hp_10 : ∀ a, (![0] : Fin 1 → ℕ) a < S1.size a}
    {hs_11 : S16.Slices ![11] S1} {hp_11 : ∀ a, (![0] : Fin 1 → ℕ) a < S1.size a}
    {hs_12 : S16.Slices ![12] S1} {hp_12 : ∀ a, (![0] : Fin 1 → ℕ) a < S1.size a}
    {hs_13 : S16.Slices ![13] S1} {hp_13 : ∀ a, (![0] : Fin 1 → ℕ) a < S1.size a}
    {hs_14 : S16.Slices ![14] S1} {hp_14 : ∀ a, (![0] : Fin 1 → ℕ) a < S1.size a}
    {hs_15 : S16.Slices ![15] S1} {hp_15 : ∀ a, (![0] : Fin 1 → ℕ) a < S1.size a}
    {h1_0 : ∀ a, (![0, 0, 0] : Fin 3 → ℕ) a + S1x8x64.size a ≤ S16x8x64.size a} {h2_0 : ∀ a, (Rect.unit (s := S16x8x64) ![0, 0, 0] S1x8x64.size h1_0).stride a = 1} {h3_0 : S1x8x64.Squeezes S8x64}
    {h1_1 : ∀ a, (![1, 0, 0] : Fin 3 → ℕ) a + S1x8x64.size a ≤ S16x8x64.size a} {h2_1 : ∀ a, (Rect.unit (s := S16x8x64) ![1, 0, 0] S1x8x64.size h1_1).stride a = 1} {h3_1 : S1x8x64.Squeezes S8x64}
    {h1_2 : ∀ a, (![2, 0, 0] : Fin 3 → ℕ) a + S1x8x64.size a ≤ S16x8x64.size a} {h2_2 : ∀ a, (Rect.unit (s := S16x8x64) ![2, 0, 0] S1x8x64.size h1_2).stride a = 1} {h3_2 : S1x8x64.Squeezes S8x64}
    {h1_3 : ∀ a, (![3, 0, 0] : Fin 3 → ℕ) a + S1x8x64.size a ≤ S16x8x64.size a} {h2_3 : ∀ a, (Rect.unit (s := S16x8x64) ![3, 0, 0] S1x8x64.size h1_3).stride a = 1} {h3_3 : S1x8x64.Squeezes S8x64}
    {h1_4 : ∀ a, (![4, 0, 0] : Fin 3 → ℕ) a + S1x8x64.size a ≤ S16x8x64.size a} {h2_4 : ∀ a, (Rect.unit (s := S16x8x64) ![4, 0, 0] S1x8x64.size h1_4).stride a = 1} {h3_4 : S1x8x64.Squeezes S8x64}
    {h1_5 : ∀ a, (![5, 0, 0] : Fin 3 → ℕ) a + S1x8x64.size a ≤ S16x8x64.size a} {h2_5 : ∀ a, (Rect.unit (s := S16x8x64) ![5, 0, 0] S1x8x64.size h1_5).stride a = 1} {h3_5 : S1x8x64.Squeezes S8x64}
    {h1_6 : ∀ a, (![6, 0, 0] : Fin 3 → ℕ) a + S1x8x64.size a ≤ S16x8x64.size a} {h2_6 : ∀ a, (Rect.unit (s := S16x8x64) ![6, 0, 0] S1x8x64.size h1_6).stride a = 1} {h3_6 : S1x8x64.Squeezes S8x64}
    {h1_7 : ∀ a, (![7, 0, 0] : Fin 3 → ℕ) a + S1x8x64.size a ≤ S16x8x64.size a} {h2_7 : ∀ a, (Rect.unit (s := S16x8x64) ![7, 0, 0] S1x8x64.size h1_7).stride a = 1} {h3_7 : S1x8x64.Squeezes S8x64}
    {h1_8 : ∀ a, (![8, 0, 0] : Fin 3 → ℕ) a + S1x8x64.size a ≤ S16x8x64.size a} {h2_8 : ∀ a, (Rect.unit (s := S16x8x64) ![8, 0, 0] S1x8x64.size h1_8).stride a = 1} {h3_8 : S1x8x64.Squeezes S8x64}
    {h1_9 : ∀ a, (![9, 0, 0] : Fin 3 → ℕ) a + S1x8x64.size a ≤ S16x8x64.size a} {h2_9 : ∀ a, (Rect.unit (s := S16x8x64) ![9, 0, 0] S1x8x64.size h1_9).stride a = 1} {h3_9 : S1x8x64.Squeezes S8x64}
    {h1_10 : ∀ a, (![10, 0, 0] : Fin 3 → ℕ) a + S1x8x64.size a ≤ S16x8x64.size a} {h2_10 : ∀ a, (Rect.unit (s := S16x8x64) ![10, 0, 0] S1x8x64.size h1_10).stride a = 1} {h3_10 : S1x8x64.Squeezes S8x64}
    {h1_11 : ∀ a, (![11, 0, 0] : Fin 3 → ℕ) a + S1x8x64.size a ≤ S16x8x64.size a} {h2_11 : ∀ a, (Rect.unit (s := S16x8x64) ![11, 0, 0] S1x8x64.size h1_11).stride a = 1} {h3_11 : S1x8x64.Squeezes S8x64}
    {h1_12 : ∀ a, (![12, 0, 0] : Fin 3 → ℕ) a + S1x8x64.size a ≤ S16x8x64.size a} {h2_12 : ∀ a, (Rect.unit (s := S16x8x64) ![12, 0, 0] S1x8x64.size h1_12).stride a = 1} {h3_12 : S1x8x64.Squeezes S8x64}
    {h1_13 : ∀ a, (![13, 0, 0] : Fin 3 → ℕ) a + S1x8x64.size a ≤ S16x8x64.size a} {h2_13 : ∀ a, (Rect.unit (s := S16x8x64) ![13, 0, 0] S1x8x64.size h1_13).stride a = 1} {h3_13 : S1x8x64.Squeezes S8x64}
    {h1_14 : ∀ a, (![14, 0, 0] : Fin 3 → ℕ) a + S1x8x64.size a ≤ S16x8x64.size a} {h2_14 : ∀ a, (Rect.unit (s := S16x8x64) ![14, 0, 0] S1x8x64.size h1_14).stride a = 1} {h3_14 : S1x8x64.Squeezes S8x64}
    {h1_15 : ∀ a, (![15, 0, 0] : Fin 3 → ℕ) a + S1x8x64.size a ≤ S16x8x64.size a} {h2_15 : ∀ a, (Rect.unit (s := S16x8x64) ![15, 0, 0] S1x8x64.size h1_15).stride a = 1} {h3_15 : S1x8x64.Squeezes S8x64}
    {g1_0 : ∀ a, (![(laneU m d L off inb 0 hs_0 hp_0).toNat, 0, 0] : Fin 3 → ℕ) a + S1x8x64.size a ≤ S125000x8x64.size a} {g2_0 : ∀ a, (Rect.unit (s := S125000x8x64) ![(laneU m d L off inb 0 hs_0 hp_0).toNat, 0, 0] S1x8x64.size g1_0).stride a = 1}
    {g1_1 : ∀ a, (![(laneU m d L off inb 1 hs_1 hp_1).toNat, 0, 0] : Fin 3 → ℕ) a + S1x8x64.size a ≤ S125000x8x64.size a} {g2_1 : ∀ a, (Rect.unit (s := S125000x8x64) ![(laneU m d L off inb 1 hs_1 hp_1).toNat, 0, 0] S1x8x64.size g1_1).stride a = 1}
    {g1_2 : ∀ a, (![(laneU m d L off inb 2 hs_2 hp_2).toNat, 0, 0] : Fin 3 → ℕ) a + S1x8x64.size a ≤ S125000x8x64.size a} {g2_2 : ∀ a, (Rect.unit (s := S125000x8x64) ![(laneU m d L off inb 2 hs_2 hp_2).toNat, 0, 0] S1x8x64.size g1_2).stride a = 1}
    {g1_3 : ∀ a, (![(laneU m d L off inb 3 hs_3 hp_3).toNat, 0, 0] : Fin 3 → ℕ) a + S1x8x64.size a ≤ S125000x8x64.size a} {g2_3 : ∀ a, (Rect.unit (s := S125000x8x64) ![(laneU m d L off inb 3 hs_3 hp_3).toNat, 0, 0] S1x8x64.size g1_3).stride a = 1}
    {g1_4 : ∀ a, (![(laneU m d L off inb 4 hs_4 hp_4).toNat, 0, 0] : Fin 3 → ℕ) a + S1x8x64.size a ≤ S125000x8x64.size a} {g2_4 : ∀ a, (Rect.unit (s := S125000x8x64) ![(laneU m d L off inb 4 hs_4 hp_4).toNat, 0, 0] S1x8x64.size g1_4).stride a = 1}
    {g1_5 : ∀ a, (![(laneU m d L off inb 5 hs_5 hp_5).toNat, 0, 0] : Fin 3 → ℕ) a + S1x8x64.size a ≤ S125000x8x64.size a} {g2_5 : ∀ a, (Rect.unit (s := S125000x8x64) ![(laneU m d L off inb 5 hs_5 hp_5).toNat, 0, 0] S1x8x64.size g1_5).stride a = 1}
    {g1_6 : ∀ a, (![(laneU m d L off inb 6 hs_6 hp_6).toNat, 0, 0] : Fin 3 → ℕ) a + S1x8x64.size a ≤ S125000x8x64.size a} {g2_6 : ∀ a, (Rect.unit (s := S125000x8x64) ![(laneU m d L off inb 6 hs_6 hp_6).toNat, 0, 0] S1x8x64.size g1_6).stride a = 1}
    {g1_7 : ∀ a, (![(laneU m d L off inb 7 hs_7 hp_7).toNat, 0, 0] : Fin 3 → ℕ) a + S1x8x64.size a ≤ S125000x8x64.size a} {g2_7 : ∀ a, (Rect.unit (s := S125000x8x64) ![(laneU m d L off inb 7 hs_7 hp_7).toNat, 0, 0] S1x8x64.size g1_7).stride a = 1}
    {g1_8 : ∀ a, (![(laneU m d L off inb 8 hs_8 hp_8).toNat, 0, 0] : Fin 3 → ℕ) a + S1x8x64.size a ≤ S125000x8x64.size a} {g2_8 : ∀ a, (Rect.unit (s := S125000x8x64) ![(laneU m d L off inb 8 hs_8 hp_8).toNat, 0, 0] S1x8x64.size g1_8).stride a = 1}
    {g1_9 : ∀ a, (![(laneU m d L off inb 9 hs_9 hp_9).toNat, 0, 0] : Fin 3 → ℕ) a + S1x8x64.size a ≤ S125000x8x64.size a} {g2_9 : ∀ a, (Rect.unit (s := S125000x8x64) ![(laneU m d L off inb 9 hs_9 hp_9).toNat, 0, 0] S1x8x64.size g1_9).stride a = 1}
    {g1_10 : ∀ a, (![(laneU m d L off inb 10 hs_10 hp_10).toNat, 0, 0] : Fin 3 → ℕ) a + S1x8x64.size a ≤ S125000x8x64.size a} {g2_10 : ∀ a, (Rect.unit (s := S125000x8x64) ![(laneU m d L off inb 10 hs_10 hp_10).toNat, 0, 0] S1x8x64.size g1_10).stride a = 1}
    {g1_11 : ∀ a, (![(laneU m d L off inb 11 hs_11 hp_11).toNat, 0, 0] : Fin 3 → ℕ) a + S1x8x64.size a ≤ S125000x8x64.size a} {g2_11 : ∀ a, (Rect.unit (s := S125000x8x64) ![(laneU m d L off inb 11 hs_11 hp_11).toNat, 0, 0] S1x8x64.size g1_11).stride a = 1}
    {g1_12 : ∀ a, (![(laneU m d L off inb 12 hs_12 hp_12).toNat, 0, 0] : Fin 3 → ℕ) a + S1x8x64.size a ≤ S125000x8x64.size a} {g2_12 : ∀ a, (Rect.unit (s := S125000x8x64) ![(laneU m d L off inb 12 hs_12 hp_12).toNat, 0, 0] S1x8x64.size g1_12).stride a = 1}
    {g1_13 : ∀ a, (![(laneU m d L off inb 13 hs_13 hp_13).toNat, 0, 0] : Fin 3 → ℕ) a + S1x8x64.size a ≤ S125000x8x64.size a} {g2_13 : ∀ a, (Rect.unit (s := S125000x8x64) ![(laneU m d L off inb 13 hs_13 hp_13).toNat, 0, 0] S1x8x64.size g1_13).stride a = 1}
    {g1_14 : ∀ a, (![(laneU m d L off inb 14 hs_14 hp_14).toNat, 0, 0] : Fin 3 → ℕ) a + S1x8x64.size a ≤ S125000x8x64.size a} {g2_14 : ∀ a, (Rect.unit (s := S125000x8x64) ![(laneU m d L off inb 14 hs_14 hp_14).toNat, 0, 0] S1x8x64.size g1_14).stride a = 1}
    {g1_15 : ∀ a, (![(laneU m d L off inb 15 hs_15 hp_15).toNat, 0, 0] : Fin 3 → ℕ) a + S1x8x64.size a ≤ S125000x8x64.size a} {g2_15 : ∀ a, (Rect.unit (s := S125000x8x64) ![(laneU m d L off inb 15 hs_15 hp_15).toNat, 0, 0] S1x8x64.size g1_15).stride a = 1}
    {prior : (slotV sUB 0 h1_0 h2_0 h3_0).ty.Contents (Elt F)} (s : Fin 16) (r : Fin 8) (f : Fin 64) :
    (View.write (Elt F) (slotV sUB 15 h1_15 h2_15 h3_15) (View.write (Elt F) (slotV sUB 14 h1_14 h2_14 h3_14) (View.write (Elt F) (slotV sUB 13 h1_13 h2_13 h3_13) (View.write (Elt F) (slotV sUB 12 h1_12 h2_12 h3_12) (View.write (Elt F) (slotV sUB 11 h1_11 h2_11 h3_11) (View.write (Elt F) (slotV sUB 10 h1_10 h2_10 h3_10) (View.write (Elt F) (slotV sUB 9 h1_9 h2_9 h3_9) (View.write (Elt F) (slotV sUB 8 h1_8 h2_8 h3_8) (View.write (Elt F) (slotV sUB 7 h1_7 h2_7 h3_7) (View.write (Elt F) (slotV sUB 6 h1_6 h2_6 h3_6) (View.write (Elt F) (slotV sUB 5 h1_5 h2_5 h3_5) (View.write (Elt F) (slotV sUB 4 h1_4 h2_4 h3_4) (View.write (Elt F) (slotV sUB 3 h1_3 h2_3 h3_3) (View.write (Elt F) (slotV sUB 2 h1_2 h2_2 h3_2) (View.write (Elt F) (slotV sUB 1 h1_1 h2_1 h3_1) (View.write (Elt F) (slotV sUB 0 h1_0 h2_0 h3_0) prior (ReadAs.same.apply ((rowV uwV (laneU m d L off inb 0 hs_0 hp_0).toNat g1_0 g2_0).view.read (Elt F) (W0 m d))) Finset.univ) (ReadAs.same.apply ((rowV uwV (laneU m d L off inb 1 hs_1 hp_1).toNat g1_1 g2_1).view.read (Elt F) (W0 m d))) Finset.univ) (ReadAs.same.apply ((rowV uwV (laneU m d L off inb 2 hs_2 hp_2).toNat g1_2 g2_2).view.read (Elt F) (W0 m d))) Finset.univ) (ReadAs.same.apply ((rowV uwV (laneU m d L off inb 3 hs_3 hp_3).toNat g1_3 g2_3).view.read (Elt F) (W0 m d))) Finset.univ) (ReadAs.same.apply ((rowV uwV (laneU m d L off inb 4 hs_4 hp_4).toNat g1_4 g2_4).view.read (Elt F) (W0 m d))) Finset.univ) (ReadAs.same.apply ((rowV uwV (laneU m d L off inb 5 hs_5 hp_5).toNat g1_5 g2_5).view.read (Elt F) (W0 m d))) Finset.univ) (ReadAs.same.apply ((rowV uwV (laneU m d L off inb 6 hs_6 hp_6).toNat g1_6 g2_6).view.read (Elt F) (W0 m d))) Finset.univ) (ReadAs.same.apply ((rowV uwV (laneU m d L off inb 7 hs_7 hp_7).toNat g1_7 g2_7).view.read (Elt F) (W0 m d))) Finset.univ) (ReadAs.same.apply ((rowV uwV (laneU m d L off inb 8 hs_8 hp_8).toNat g1_8 g2_8).view.read (Elt F) (W0 m d))) Finset.univ) (ReadAs.same.apply ((rowV uwV (laneU m d L off inb 9 hs_9 hp_9).toNat g1_9 g2_9).view.read (Elt F) (W0 m d))) Finset.univ) (ReadAs.same.apply ((rowV uwV (laneU m d L off inb 10 hs_10 hp_10).toNat g1_10 g2_10).view.read (Elt F) (W0 m d))) Finset.univ) (ReadAs.same.apply ((rowV uwV (laneU m d L off inb 11 hs_11 hp_11).toNat g1_11 g2_11).view.read (Elt F) (W0 m d))) Finset.univ) (ReadAs.same.apply ((rowV uwV (laneU m d L off inb 12 hs_12 hp_12).toNat g1_12 g2_12).view.read (Elt F) (W0 m d))) Finset.univ) (ReadAs.same.apply ((rowV uwV (laneU m d L off inb 13 hs_13 hp_13).toNat g1_13 g2_13).view.read (Elt F) (W0 m d))) Finset.univ) (ReadAs.same.apply ((rowV uwV (laneU m d L off inb 14 hs_14 hp_14).toNat g1_14 g2_14).view.read (Elt F) (W0 m d))) Finset.univ) (ReadAs.same.apply ((rowV uwV (laneU m d L off inb 15 hs_15 hp_15).toNat g1_15 g2_15).view.read (Elt F) (W0 m d))) Finset.univ)
        (ValueIdx.ix3 (n0 := 16) (n1 := 8) (n2 := 64) s r f)
      = W0 m d (ValueIdx.ix3 (n0 := 125000) (n1 := 8) (n2 := 64) ⟨((CU m d L (pos c s)) >>> 3).toNat % 125000, Nat.mod_lt _ (by decide)⟩ r f) := by
  have hw : ∀ s : Fin 16, (![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s = (CU m d L (pos c s)) >>> 3 := by
    intro s
    fin_cases s
    · exact laneU_eq m d L c hc off ho inb 0 (by decide) hs_0 hp_0
    · exact laneU_eq m d L c hc off ho inb 1 (by decide) hs_1 hp_1
    · exact laneU_eq m d L c hc off ho inb 2 (by decide) hs_2 hp_2
    · exact laneU_eq m d L c hc off ho inb 3 (by decide) hs_3 hp_3
    · exact laneU_eq m d L c hc off ho inb 4 (by decide) hs_4 hp_4
    · exact laneU_eq m d L c hc off ho inb 5 (by decide) hs_5 hp_5
    · exact laneU_eq m d L c hc off ho inb 6 (by decide) hs_6 hp_6
    · exact laneU_eq m d L c hc off ho inb 7 (by decide) hs_7 hp_7
    · exact laneU_eq m d L c hc off ho inb 8 (by decide) hs_8 hp_8
    · exact laneU_eq m d L c hc off ho inb 9 (by decide) hs_9 hp_9
    · exact laneU_eq m d L c hc off ho inb 10 (by decide) hs_10 hp_10
    · exact laneU_eq m d L c hc off ho inb 11 (by decide) hs_11 hp_11
    · exact laneU_eq m d L c hc off ho inb 12 (by decide) hs_12 hp_12
    · exact laneU_eq m d L c hc off ho inb 13 (by decide) hs_13 hp_13
    · exact laneU_eq m d L c hc off ho inb 14 (by decide) hs_14 hp_14
    · exact laneU_eq m d L c hc off ho inb 15 (by decide) hs_15 hp_15
  have hb : ∀ s : Fin 16, ((![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s).toNat < 125000 := fun s => by
    rw [hw s]; exact shr3_lt (v := CU m d L (pos c s)) (hpre d _).1
  refine (landed_of_nest_UB_word (F := F) d (![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) hb (W0 m d)
    h1_0 h2_0 h3_0 h1_1 h2_1 h3_1 h1_2 h2_2 h3_2 h1_3 h2_3 h3_3 h1_4 h2_4 h3_4 h1_5 h2_5 h3_5 h1_6 h2_6 h3_6 h1_7 h2_7 h3_7 h1_8 h2_8 h3_8 h1_9 h2_9 h3_9 h1_10 h2_10 h3_10 h1_11 h2_11 h3_11 h1_12 h2_12 h3_12 h1_13 h2_13 h3_13 h1_14 h2_14 h3_14 h1_15 h2_15 h3_15
    g1_0 g2_0 g1_1 g2_1 g1_2 g2_2 g1_3 g2_3 g1_4 g2_4 g1_5 g2_5 g1_6 g2_6 g1_7 g2_7 g1_8 g2_8 g1_9 g2_9 g1_10 g2_10 g1_11 g2_11 g1_12 g2_12 g1_13 g2_13 g1_14 g2_14 g1_15 g2_15 prior s r f).trans ?_
  refine congrArg (fun b => W0 m d (ValueIdx.ix3 (n0 := 125000) (n1 := 8) (n2 := 64) b r f)) (Fin.ext ?_)
  show ((![(laneU m d L off inb 0 hs_0 hp_0), (laneU m d L off inb 1 hs_1 hp_1), (laneU m d L off inb 2 hs_2 hp_2), (laneU m d L off inb 3 hs_3 hp_3), (laneU m d L off inb 4 hs_4 hp_4), (laneU m d L off inb 5 hs_5 hp_5), (laneU m d L off inb 6 hs_6 hp_6), (laneU m d L off inb 7 hs_7 hp_7), (laneU m d L off inb 8 hs_8 hp_8), (laneU m d L off inb 9 hs_9 hp_9), (laneU m d L off inb 10 hs_10 hp_10), (laneU m d L off inb 11 hs_11 hp_11), (laneU m d L off inb 12 hs_12 hp_12), (laneU m d L off inb 13 hs_13 hp_13), (laneU m d L off inb 14 hs_14 hp_14), (laneU m d L off inb 15 hs_15 hp_15)] : Fin 16 → BitVec 32) s).toNat = ((CU m d L (pos c s)) >>> 3).toNat % 125000
  rw [hw s]
  exact (shr3_mod (v := CU m d L (pos c s)) (hpre d _).1).symm

omit [FloatOps F] in
/-- A load of the whole of `sUB` reads its contents. -/
theorem readWhole_UB {d : Dev nD} {L : grid0.Coords} (C : Buf (Elt F) ((thrV d L).loc cc0_scratch4)) (x : S16x8x64.Idx) :
    ((sUB : Memref sig .scVector .vmem S16x8x64 .f32).view.readAt (Elt F) (LoadRect.whole S16x8x64) C) x = C x := by
  rw [View.readAt_apply]
  show C (fun a => ⟨0 + 1 * (x a).val, _⟩) = C x
  refine congrArg C ?_
  funext a
  exact Fin.ext (show 0 + 1 * (x a).val = (x a).val by omega)

/-- `sIB` AFTER THE SIXTEEN COPIES OF CHUNK `c`, pointwise: position `(s, r, f)` holds the table at the block the chunk's
    lane `s` names. -/
theorem landedIB_trip (hpre : PreOK m) (d : Dev nD) (L : grid0.Coords) (c : ℕ) (hc : 16 * c + 16 ≤ 512) (off : Fin 1 → ℕ) (ho : off 0 = 16 * c)
    {inb : ∀ a, off a + S16.size a ≤ S512.size a}
    {hs_0 : S16.Slices ![0] S1} {hp_0 : ∀ a, (![0] : Fin 1 → ℕ) a < S1.size a}
    {hs_1 : S16.Slices ![1] S1} {hp_1 : ∀ a, (![0] : Fin 1 → ℕ) a < S1.size a}
    {hs_2 : S16.Slices ![2] S1} {hp_2 : ∀ a, (![0] : Fin 1 → ℕ) a < S1.size a}
    {hs_3 : S16.Slices ![3] S1} {hp_3 : ∀ a, (![0] : Fin 1 → ℕ) a < S1.size a}
    {hs_4 : S16.Slices ![4] S1} {hp_4 : ∀ a, (![0] : Fin 1 → ℕ) a < S1.size a}
    {hs_5 : S16.Slices ![5] S1} {hp_5 : ∀ a, (![0] : Fin 1 → ℕ) a < S1.size a}
    {hs_6 : S16.Slices ![6] S1} {hp_6 : ∀ a, (![0] : Fin 1 → ℕ) a < S1.size a}
    {hs_7 : S16.Slices ![7] S1} {hp_7 : ∀ a, (![0] : Fin 1 → ℕ) a < S1.size a}
    {hs_8 : S16.Slices ![8] S1} {hp_8 : ∀ a, (![0] : Fin 1 → ℕ) a < S1.size a}
    {hs_9 : S16.Slices ![9] S1} {hp_9 : ∀ a, (![0] : Fin 1 → ℕ) a < S1.size a}
    {hs_10 : S16.Slices ![10] S1} {hp_10 : ∀ a, (![0] : Fin 1 → ℕ) a < S1.size a}
    {hs_11 : S16.Slices ![11] S1} {hp_11 : ∀ a, (![0] : Fin 1 → ℕ) a < S1.size a}
    {hs_12 : S16.Slices ![12] S1} {hp_12 : ∀ a, (![0] : Fin 1 → ℕ) a < S1.size a}
    {hs_13 : S16.Slices ![13] S1} {hp_13 : ∀ a, (![0] : Fin 1 → ℕ) a < S1.size a}
    {hs_14 : S16.Slices ![14] S1} {hp_14 : ∀ a, (![0] : Fin 1 → ℕ) a < S1.size a}
    {hs_15 : S16.Slices ![15] S1} {hp_15 : ∀ a, (![0] : Fin 1 → ℕ) a < S1.size a}
    {h1_0 : ∀ a, (![0, 0, 0] : Fin 3 → ℕ) a + S1x8x64.size a ≤ S16x8x64.size a} {h2_0 : ∀ a, (Rect.unit (s := S16x8x64) ![0, 0, 0] S1x8x64.size h1_0).stride a = 1} {h3_0 : S1x8x64.Squeezes S8x64}
    {h1_1 : ∀ a, (![1, 0, 0] : Fin 3 → ℕ) a + S1x8x64.size a ≤ S16x8x64.size a} {h2_1 : ∀ a, (Rect.unit (s := S16x8x64) ![1, 0, 0] S1x8x64.size h1_1).stride a = 1} {h3_1 : S1x8x64.Squeezes S8x64}
    {h1_2 : ∀ a, (![2, 0, 0] : Fin 3 → ℕ) a + S1x8x64.size a ≤ S16x8x64.size a} {h2_2 : ∀ a, (Rect.unit (s := S16x8x64) ![2, 0, 0] S1x8x64.size h1_2).stride a = 1} {h3_2 : S1x8x64.Squeezes S8x64}
    {h1_3 : ∀ a, (![3, 0, 0] : Fin 3 → ℕ) a + S1x8x64.size a ≤ S16x8x64.size a} {h2_3 : ∀ a, (Rect.unit (s := S16x8x64) ![3, 0, 0] S1x8x64.size h1_3).stride a = 1} {h3_3 : S1x8x64.Squeezes S8x64}
    {h1_4 : ∀ a, (![4, 0, 0] : Fin 3 → ℕ) a + S1x8x64.size a ≤ S16x8x64.size a} {h2_4 : ∀ a, (Rect.unit (s := S16x8x64) ![4, 0, 0] S1x8x64.size h1_4).stride a = 1} {h3_4 : S1x8x64.Squeezes S8x64}
    {h1_5 : ∀ a, (![5, 0, 0] : Fin 3 → ℕ) a + S1x8x64.size a ≤ S16x8x64.size a} {h2_5 : ∀ a, (Rect.unit (s := S16x8x64) ![5, 0, 0] S1x8x64.size h1_5).stride a = 1} {h3_5 : S1x8x64.Squeezes S8x64}
    {h1_6 : ∀ a, (![6, 0, 0] : Fin 3 → ℕ) a + S1x8x64.size a ≤ S16x8x64.size a} {h2_6 : ∀ a, (Rect.unit (s := S16x8x64) ![6, 0, 0] S1x8x64.size h1_6).stride a = 1} {h3_6 : S1x8x64.Squeezes S8x64}
    {h1_7 : ∀ a, (![7, 0, 0] : Fin 3 → ℕ) a + S1x8x64.size a ≤ S16x8x64.size a} {h2_7 : ∀ a, (Rect.unit (s := S16x8x64) ![7, 0, 0] S1x8x64.size h1_7).stride a = 1} {h3_7 : S1x8x64.Squeezes S8x64}
    {h1_8 : ∀ a, (![8, 0, 0] : Fin 3 → ℕ) a + S1x8x64.size a ≤ S16x8x64.size a} {h2_8 : ∀ a, (Rect.unit (s := S16x8x64) ![8, 0, 0] S1x8x64.size h1_8).stride a = 1} {h3_8 : S1x8x64.Squeezes S8x64}
    {h1_9 : ∀ a, (![9, 0, 0] : Fin 3 → ℕ) a + S1x8x64.size a ≤ S16x8x64.size a} {h2_9 : ∀ a, (Rect.unit (s := S16x8x64) ![9, 0, 0] S1x8x64.size h1_9).stride a = 1} {h3_9 : S1x8x64.Squeezes S8x64}
    {h1_10 : ∀ a, (![10, 0, 0] : Fin 3 → ℕ) a + S1x8x64.size a ≤ S16x8x64.size a} {h2_10 : ∀ a, (Rect.unit (s := S16x8x64) ![10, 0, 0] S1x8x64.size h1_10).stride a = 1} {h3_10 : S1x8x64.Squeezes S8x64}
    {h1_11 : ∀ a, (![11, 0, 0] : Fin 3 → ℕ) a + S1x8x64.size a ≤ S16x8x64.size a} {h2_11 : ∀ a, (Rect.unit (s := S16x8x64) ![11, 0, 0] S1x8x64.size h1_11).stride a = 1} {h3_11 : S1x8x64.Squeezes S8x64}
    {h1_12 : ∀ a, (![12, 0, 0] : Fin 3 → ℕ) a + S1x8x64.size a ≤ S16x8x64.size a} {h2_12 : ∀ a, (Rect.unit (s := S16x8x64) ![12, 0, 0] S1x8x64.size h1_12).stride a = 1} {h3_12 : S1x8x64.Squeezes S8x64}
    {h1_13 : ∀ a, (![13, 0, 0] : Fin 3 → ℕ) a + S1x8x64.size a ≤ S16x8x64.size a} {h2_13 : ∀ a, (Rect.unit (s := S16x8x64) ![13, 0, 0] S1x8x64.size h1_13).stride a = 1} {h3_13 : S1x8x64.Squeezes S8x64}
    {h1_14 : ∀ a, (![14, 0, 0] : Fin 3 → ℕ) a + S1x8x64.size a ≤ S16x8x64.size a} {h2_14 : ∀ a, (Rect.unit (s := S16x8x64) ![14, 0, 0] S1x8x64.size h1_14).stride a = 1} {h3_14 : S1x8x64.Squeezes S8x64}
    {h1_15 : ∀ a, (![15, 0, 0] : Fin 3 → ℕ) a + S1x8x64.size a ≤ S16x8x64.size a} {h2_15 : ∀ a, (Rect.unit (s := S16x8x64) ![15, 0, 0] S1x8x64.size h1_15).stride a = 1} {h3_15 : S1x8x64.Squeezes S8x64}
    {g1_0 : ∀ a, (![(laneI m d L off inb 0 hs_0 hp_0).toNat, 0, 0] : Fin 3 → ℕ) a + S1x8x64.size a ≤ S125000x8x64.size a} {g2_0 : ∀ a, (Rect.unit (s := S125000x8x64) ![(laneI m d L off inb 0 hs_0 hp_0).toNat, 0, 0] S1x8x64.size g1_0).stride a = 1}
    {g1_1 : ∀ a, (![(laneI m d L off inb 1 hs_1 hp_1).toNat, 0, 0] : Fin 3 → ℕ) a + S1x8x64.size a ≤ S125000x8x64.size a} {g2_1 : ∀ a, (Rect.unit (s := S125000x8x64) ![(laneI m d L off inb 1 hs_1 hp_1).toNat, 0, 0] S1x8x64.size g1_1).stride a = 1}
    {g1_2 : ∀ a, (![(laneI m d L off inb 2 hs_2 hp_2).toNat, 0, 0] : Fin 3 → ℕ) a + S1x8x64.size a ≤ S125000x8x64.size a} {g2_2 : ∀ a, (Rect.unit (s := S125000x8x64) ![(laneI m d L off inb 2 hs_2 hp_2).toNat, 0, 0] S1x8x64.size g1_2).stride a = 1}
    {g1_3 : ∀ a, (![(laneI m d L off inb 3 hs_3 hp_3).toNat, 0, 0] : Fin 3 → ℕ) a + S1x8x64.size a ≤ S125000x8x64.size a} {g2_3 : ∀ a, (Rect.unit (s := S125000x8x64) ![(laneI m d L off inb 3 hs_3 hp_3).toNat, 0, 0] S1x8x64.size g1_3).stride a = 1}
    {g1_4 : ∀ a, (![(laneI m d L off inb 4 hs_4 hp_4).toNat, 0, 0] : Fin 3 → ℕ) a + S1x8x64.size a ≤ S125000x8x64.size a} {g2_4 : ∀ a, (Rect.unit (s := S125000x8x64) ![(laneI m d L off inb 4 hs_4 hp_4).toNat, 0, 0] S1x8x64.size g1_4).stride a = 1}
    {g1_5 : ∀ a, (![(laneI m d L off inb 5 hs_5 hp_5).toNat, 0, 0] : Fin 3 → ℕ) a + S1x8x64.size a ≤ S125000x8x64.size a} {g2_5 : ∀ a, (Rect.unit (s := S125000x8x64) ![(laneI m d L off inb 5 hs_5 hp_5).toNat, 0, 0] S1x8x64.size g1_5).stride a = 1}
    {g1_6 : ∀ a, (![(laneI m d L off inb 6 hs_6 hp_6).toNat, 0, 0] : Fin 3 → ℕ) a + S1x8x64.size a ≤ S125000x8x64.size a} {g2_6 : ∀ a, (Rect.unit (s := S125000x8x64) ![(laneI m d L off inb 6 hs_6 hp_6).toNat, 0, 0] S1x8x64.size g1_6).stride a = 1}
    {g1_7 : ∀ a, (![(laneI m d L off inb 7 hs_7 hp_7).toNat, 0, 0] : Fin 3 → ℕ) a + S1x8x64.size a ≤ S125000x8x64.size a} {g2_7 : ∀ a, (Rect.unit (s := S125000x8x64) ![(laneI m d L off inb 7 hs_7 hp_7).toNat, 0, 0] S1x8x64.size g1_7).stride a = 1}
    {g1_8 : ∀ a, (![(laneI m d L off inb 8 hs_8 hp_8).toNat, 0, 0] : Fin 3 → ℕ) a + S1x8x64.size a ≤ S125000x8x64.size a} {g2_8 : ∀ a, (Rect.unit (s := S125000x8x64) ![(laneI m d L off inb 8 hs_8 hp_8).toNat, 0, 0] S1x8x64.size g1_8).stride a = 1}
    {g1_9 : ∀ a, (![(laneI m d L off inb 9 hs_9 hp_9).toNat, 0, 0] : Fin 3 → ℕ) a + S1x8x64.size a ≤ S125000x8x64.size a} {g2_9 : ∀ a, (Rect.unit (s := S125000x8x64) ![(laneI m d L off inb 9 hs_9 hp_9).toNat, 0, 0] S1x8x64.size g1_9).stride a = 1}
    {g1_10 : ∀ a, (![(laneI m d L off inb 10 hs_10 hp_10).toNat, 0, 0] : Fin 3 → ℕ) a + S1x8x64.size a ≤ S125000x8x64.size a} {g2_10 : ∀ a, (Rect.unit (s := S125000x8x64) ![(laneI m d L off inb 10 hs_10 hp_10).toNat, 0, 0] S1x8x64.size g1_10).stride a = 1}
    {g1_11 : ∀ a, (![(laneI m d L off inb 11 hs_11 hp_11).toNat, 0, 0] : Fin 3 → ℕ) a + S1x8x64.size a ≤ S125000x8x64.size a} {g2_11 : ∀ a, (Rect.unit (s := S125000x8x64) ![(laneI m d L off inb 11 hs_11 hp_11).toNat, 0, 0] S1x8x64.size g1_11).stride a = 1}
    {g1_12 : ∀ a, (![(laneI m d L off inb 12 hs_12 hp_12).toNat, 0, 0] : Fin 3 → ℕ) a + S1x8x64.size a ≤ S125000x8x64.size a} {g2_12 : ∀ a, (Rect.unit (s := S125000x8x64) ![(laneI m d L off inb 12 hs_12 hp_12).toNat, 0, 0] S1x8x64.size g1_12).stride a = 1}
    {g1_13 : ∀ a, (![(laneI m d L off inb 13 hs_13 hp_13).toNat, 0, 0] : Fin 3 → ℕ) a + S1x8x64.size a ≤ S125000x8x64.size a} {g2_13 : ∀ a, (Rect.unit (s := S125000x8x64) ![(laneI m d L off inb 13 hs_13 hp_13).toNat, 0, 0] S1x8x64.size g1_13).stride a = 1}
    {g1_14 : ∀ a, (![(laneI m d L off inb 14 hs_14 hp_14).toNat, 0, 0] : Fin 3 → ℕ) a + S1x8x64.size a ≤ S125000x8x64.size a} {g2_14 : ∀ a, (Rect.unit (s := S125000x8x64) ![(laneI m d L off inb 14 hs_14 hp_14).toNat, 0, 0] S1x8x64.size g1_14).stride a = 1}
    {g1_15 : ∀ a, (![(laneI m d L off inb 15 hs_15 hp_15).toNat, 0, 0] : Fin 3 → ℕ) a + S1x8x64.size a ≤ S125000x8x64.size a} {g2_15 : ∀ a, (Rect.unit (s := S125000x8x64) ![(laneI m d L off inb 15 hs_15 hp_15).toNat, 0, 0] S1x8x64.size g1_15).stride a = 1}
    {prior : (slotV sIB 0 h1_0 h2_0 h3_0).ty.Contents (Elt F)} (s : Fin 16) (r : Fin 8) (f : Fin 64) :
    (View.write (Elt F) (slotV sIB 15 h1_15 h2_15 h3_15) (View.write (Elt F) (slotV sIB 14 h1_14 h2_14 h3_14) (View.write (Elt F) (slotV sIB 13 h1_13 h2_13 h3_13) (View.write (Elt F) (slotV sIB 12 h1_12 h2_12 h3_12) (View.write (Elt F) (slotV sIB 11 h1_11 h2_11 h3_11) (View.write (Elt F) (slotV sIB 10 h1_10 h2_10 h3_10) (View.write (Elt F) (slotV sIB 9 h1_9 h2_9 h3_9) (View.write (Elt F) (slotV sIB 8 h1_8 h2_8 h3_8) (View.write (Elt F) (slotV sIB 7 h1_7 h2_7 h3_7) (View.write (Elt F) (slotV sIB 6 h1_6 h2_6 h3_6) (View.write (Elt F) (slotV sIB 5 h1_5 h2_5 h3_5) (View.write (Elt F) (slotV sIB 4 h1_4 h2_4 h3_4) (View.write (Elt F) (slotV sIB 3 h1_3 h2_3 h3_3) (View.write (Elt F) (slotV sIB 2 h1_2 h2_2 h3_2) (View.write (Elt F) (slotV sIB 1 h1_1 h2_1 h3_1) (View.write (Elt F) (slotV sIB 0 h1_0 h2_0 h3_0) prior (ReadAs.same.apply ((rowV iwV (laneI m d L off inb 0 hs_0 hp_0).toNat g1_0 g2_0).view.read (Elt F) (W1 m d))) Finset.univ) (ReadAs.same.apply ((rowV iwV (laneI m d L off inb 1 hs_1 hp_1).toNat g1_1 g2_1).view.read (Elt F) (W1 m d))) Finset.univ) (ReadAs.same.apply ((rowV iwV (laneI m d L off inb 2 hs_2 hp_2).toNat g1_2 g2_2).view.read (Elt F) (W1 m d))) Finset.univ) (ReadAs.same.apply ((rowV iwV (laneI m d L off inb 3 hs_3 hp_3).toNat g1_3 g2_3).view.read (Elt F) (W1 m d))) Finset.univ) (ReadAs.same.apply ((rowV iwV (laneI m d L off inb 4 hs_4 hp_4).toNat g1_4 g2_4).view.read (Elt F) (W1 m d))) Finset.univ) (ReadAs.same.apply ((rowV iwV (laneI m d L off inb 5 hs_5 hp_5).toNat g1_5 g2_5).view.read (Elt F) (W1 m d))) Finset.univ) (ReadAs.same.apply ((rowV iwV (laneI m d L off inb 6 hs_6 hp_6).toNat g1_6 g2_6).view.read (Elt F) (W1 m d))) Finset.univ) (ReadAs.same.apply ((rowV iwV (laneI m d L off inb 7 hs_7 hp_7).toNat g1_7 g2_7).view.read (Elt F) (W1 m d))) Finset.univ) (ReadAs.same.apply ((rowV iwV (laneI m d L off inb 8 hs_8 hp_8).toNat g1_8 g2_8).view.read (Elt F) (W1 m d))) Finset.univ) (ReadAs.same.apply ((rowV iwV (laneI m d L off inb 9 hs_9 hp_9).toNat g1_9 g2_9).view.read (Elt F) (W1 m d))) Finset.univ) (ReadAs.same.apply ((rowV iwV (laneI m d L off inb 10 hs_10 hp_10).toNat g1_10 g2_10).view.read (Elt F) (W1 m d))) Finset.univ) (ReadAs.same.apply ((rowV iwV (laneI m d L off inb 11 hs_11 hp_11).toNat g1_11 g2_11).view.read (Elt F) (W1 m d))) Finset.univ) (ReadAs.same.apply ((rowV iwV (laneI m d L off inb 12 hs_12 hp_12).toNat g1_12 g2_12).view.read (Elt F) (W1 m d))) Finset.univ) (ReadAs.same.apply ((rowV iwV (laneI m d L off inb 13 hs_13 hp_13).toNat g1_13 g2_13).view.read (Elt F) (W1 m d))) Finset.univ) (ReadAs.same.apply ((rowV iwV (laneI m d L off inb 14 hs_14 hp_14).toNat g1_14 g2_14).view.read (Elt F) (W1 m d))) Finset.univ) (ReadAs.same.apply ((rowV iwV (laneI m d L off inb 15 hs_15 hp_15).toNat g1_15 g2_15).view.read (Elt F) (W1 m d))) Finset.univ)
        (ValueIdx.ix3 (n0 := 16) (n1 := 8) (n2 := 64) s r f)
      = W1 m d (ValueIdx.ix3 (n0 := 125000) (n1 := 8) (n2 := 64) ⟨((CI m d L (pos c s)) >>> 3).toNat % 125000, Nat.mod_lt _ (by decide)⟩ r f) := by
  have hw : ∀ s : Fin 16, (![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s = (CI m d L (pos c s)) >>> 3 := by
    intro s
    fin_cases s
    · exact laneI_eq m d L c hc off ho inb 0 (by decide) hs_0 hp_0
    · exact laneI_eq m d L c hc off ho inb 1 (by decide) hs_1 hp_1
    · exact laneI_eq m d L c hc off ho inb 2 (by decide) hs_2 hp_2
    · exact laneI_eq m d L c hc off ho inb 3 (by decide) hs_3 hp_3
    · exact laneI_eq m d L c hc off ho inb 4 (by decide) hs_4 hp_4
    · exact laneI_eq m d L c hc off ho inb 5 (by decide) hs_5 hp_5
    · exact laneI_eq m d L c hc off ho inb 6 (by decide) hs_6 hp_6
    · exact laneI_eq m d L c hc off ho inb 7 (by decide) hs_7 hp_7
    · exact laneI_eq m d L c hc off ho inb 8 (by decide) hs_8 hp_8
    · exact laneI_eq m d L c hc off ho inb 9 (by decide) hs_9 hp_9
    · exact laneI_eq m d L c hc off ho inb 10 (by decide) hs_10 hp_10
    · exact laneI_eq m d L c hc off ho inb 11 (by decide) hs_11 hp_11
    · exact laneI_eq m d L c hc off ho inb 12 (by decide) hs_12 hp_12
    · exact laneI_eq m d L c hc off ho inb 13 (by decide) hs_13 hp_13
    · exact laneI_eq m d L c hc off ho inb 14 (by decide) hs_14 hp_14
    · exact laneI_eq m d L c hc off ho inb 15 (by decide) hs_15 hp_15
  have hb : ∀ s : Fin 16, ((![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s).toNat < 125000 := fun s => by
    rw [hw s]; exact shr3_lt (v := CI m d L (pos c s)) (hpre d _).2
  refine (landed_of_nest_IB_word (F := F) d (![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) hb (W1 m d)
    h1_0 h2_0 h3_0 h1_1 h2_1 h3_1 h1_2 h2_2 h3_2 h1_3 h2_3 h3_3 h1_4 h2_4 h3_4 h1_5 h2_5 h3_5 h1_6 h2_6 h3_6 h1_7 h2_7 h3_7 h1_8 h2_8 h3_8 h1_9 h2_9 h3_9 h1_10 h2_10 h3_10 h1_11 h2_11 h3_11 h1_12 h2_12 h3_12 h1_13 h2_13 h3_13 h1_14 h2_14 h3_14 h1_15 h2_15 h3_15
    g1_0 g2_0 g1_1 g2_1 g1_2 g2_2 g1_3 g2_3 g1_4 g2_4 g1_5 g2_5 g1_6 g2_6 g1_7 g2_7 g1_8 g2_8 g1_9 g2_9 g1_10 g2_10 g1_11 g2_11 g1_12 g2_12 g1_13 g2_13 g1_14 g2_14 g1_15 g2_15 prior s r f).trans ?_
  refine congrArg (fun b => W1 m d (ValueIdx.ix3 (n0 := 125000) (n1 := 8) (n2 := 64) b r f)) (Fin.ext ?_)
  show ((![(laneI m d L off inb 0 hs_0 hp_0), (laneI m d L off inb 1 hs_1 hp_1), (laneI m d L off inb 2 hs_2 hp_2), (laneI m d L off inb 3 hs_3 hp_3), (laneI m d L off inb 4 hs_4 hp_4), (laneI m d L off inb 5 hs_5 hp_5), (laneI m d L off inb 6 hs_6 hp_6), (laneI m d L off inb 7 hs_7 hp_7), (laneI m d L off inb 8 hs_8 hp_8), (laneI m d L off inb 9 hs_9 hp_9), (laneI m d L off inb 10 hs_10 hp_10), (laneI m d L off inb 11 hs_11 hp_11), (laneI m d L off inb 12 hs_12 hp_12), (laneI m d L off inb 13 hs_13 hp_13), (laneI m d L off inb 14 hs_14 hp_14), (laneI m d L off inb 15 hs_15 hp_15)] : Fin 16 → BitVec 32) s).toNat = ((CI m d L (pos c s)) >>> 3).toNat % 125000
  rw [hw s]
  exact (shr3_mod (v := CI m d L (pos c s)) (hpre d _).2).symm

omit [FloatOps F] in
/-- A load of the whole of `sIB` reads its contents. -/
theorem readWhole_IB {d : Dev nD} {L : grid0.Coords} (C : Buf (Elt F) ((thrV d L).loc cc0_scratch5)) (x : S16x8x64.Idx) :
    ((sIB : Memref sig .scVector .vmem S16x8x64 .f32).view.readAt (Elt F) (LoadRect.whole S16x8x64) C) x = C x := by
  rw [View.readAt_apply]
  show C (fun a => ⟨0 + 1 * (x a).val, _⟩) = C x
  refine congrArg C ?_
  funext a
  exact Fin.ext (show 0 + 1 * (x a).val = (x a).val by omega)

end Cert.Proof.Kernel

end
-- ==== Proof.K.Trip.lean ====
/-
  One trip of the tile's loop, at a symbolic trip number `k`.

  Before the trip the first buffer pair's sixteen + sixteen row-block copies for chunk `2 k` are pending.  The trip
  starts the second pair's copies for chunk `2 k + 1`, awaits the first pair's, accumulates chunk `2 k`'s sixteen inner
  products out of the landed blocks (64 gathered features each), starts the first pair's copies for chunk `2 k + 2`
  unless this is the last trip, awaits the second pair's, accumulates chunk `2 k + 1`, and stores both results.  So the
  invariant is re-established one trip on: 32 more positions of the output scratch hold their specified inner products,
  and what is pending is chunk `2 (k + 1)`'s copies, whose landing is stated by `DrainU` / `DrainI`.
-/
import proofs.«203884_g41704132444582_cont_8to1_b_1290_16_alg».proof.Proof.K.Acc
import proofs.«203884_g41704132444582_cont_8to1_b_1290_16_alg».proof.Proof.K.LandedTrip
import proofs.«203884_g41704132444582_cont_8to1_b_1290_16_alg».proof.Proof.K.OutStep
import proofs.«203884_g41704132444582_cont_8to1_b_1290_16_alg».proof.Proof.K.ChunkVal
import proofs.«203884_g41704132444582_cont_8to1_b_1290_16_alg».proof.Proof.K.LandedTripB

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

omit [FloatOps F] in
/-- A constant feature number below 64, at every lane. -/
theorem bc_lt (c : BitVec 32) (hc : c.toNat < 64) (x : S16.Idx) : ((broadcast S16 c : IVec S16 32) x).toNat < 64 := hc

omit [FloatOps F] in
theorem cond_lt : ∀ k : Fin k0_t1_loop.trips, k0_cond1 k = 1#1 → ¬ (k.val + 1 = 16) := by decide
omit [FloatOps F] in
theorem ncond_eq : ∀ k : Fin k0_t1_loop.trips, ¬ (k0_cond1 k = 1#1) → ¬ (k.val + 1 < 16) := by decide

attribute [local sl_canon] vli_bind

set_option maxHeartbeats 4000000 in
set_option sl_exec.dischHeartbeats 40000 in
theorem trip (hpre : PreOK m) (d : Dev nD) (L : grid0.Coords) (q : PosShare TreeShare) (O : CellTallies nD τ sig (HIx 1)) (W : Waits sig (HIx 1))
    (k : Fin k0_t1_loop.trips) :
    inv m d L q O W k.val ⟨⟩ ⊢ wp frame (wpE (defs₀ (F := F)) 𝒱₀ (thrV d L) none) Set.univ
      (k0_t1_body L uV (Memref.isWhole_whole _) iV (Memref.isWhole_whole _) uwV (Memref.isWhole_whole _) iwV (Memref.isWhole_whole _) oV (Memref.isWhole_whole _) sU (Memref.isWhole_whole _) sI (Memref.isWhole_whole _) sUA (Memref.isWhole_whole _) sIA (Memref.isWhole_whole _) sUB (Memref.isWhole_whole _) sIB (Memref.isWhole_whole _) sO (Memref.isWhole_whole _) cc0_scratch7 cc0_scratch8 cc0_scratch9 cc0_scratch10 cc0_scoped0 cc0_scoped1 cc0_scoped2 k ⟨⟩) (inv m d L q O W (k.val + 1)) := by
  have planUA : Transfers.BatchOf (thrV d L) (SemLoc.dma (sig := sig) cc0_scratch7.sem) 16 (windows := true) := trivial
  have planIA : Transfers.BatchOf (thrV d L) (SemLoc.dma (sig := sig) cc0_scratch8.sem) 16 (windows := true) := trivial
  have planUB : Transfers.BatchOf (thrV d L) (SemLoc.dma (sig := sig) cc0_scratch9.sem) 16 (windows := true) := trivial
  have planIB : Transfers.BatchOf (thrV d L) (SemLoc.dma (sig := sig) cc0_scratch10.sem) 16 (windows := true) := trivial
  unfold inv freeU freeI
  iintro ⟨Hmw, Hu, Hi, Ho, H0, H1, ⟨%f4, H4⟩, ⟨%f5, H5⟩, ⟨%fo, H6, %hfo⟩, S9, S10, T0, T1, T2, ⟨%a0, %a1, %a2, %a3, %a4, %a5, %a6, %a7, %a8, %a9, %a10, %a11, %a12, %a13, %a14, %a15, Uw0, Uw1, Uw2, Uw3, Uw4, Uw5, Uw6, Uw7, Uw8, Uw9, Uw10, Uw11, Uw12, Uw13, Uw14, Uw15⟩, ⟨%b0, %b1, %b2, %b3, %b4, %b5, %b6, %b7, %b8, %b9, %b10, %b11, %b12, %b13, %b14, %b15, Iw0, Iw1, Iw2, Iw3, Iw4, Iw5, Iw6, Iw7, Iw8, Iw9, Iw10, Iw11, Iw12, Iw13, Iw14, Iw15⟩, ⟨%W', HO, %hW'⟩, ⟨%XU, HXU, %hXUd, %hXUi⟩, ⟨%XI, HXI, %hXId, %hXIi⟩⟩
  have hk16 : k.val < 16 := lt_of_lt_of_le k.isLt k0_t1_abs.2.1
  sl_exec_parts (disch := first | (refine blk_lane _ _ _ _ (shr3v_lt _ ?_); first | with_reducible exact rdCU m hpre d L _ _ | with_reducible exact rdCI m hpre d L _ _) | (intro _; (refine blk_lane _ _ _ _ (shr3v_lt _ ?_); first | with_reducible exact rdCU m hpre d L _ _ | with_reducible exact rdCI m hpre d L _ _)) | exact ⟨gidx_ok _ _ _ (gs_lt _) (and7v_lt _) (bc_lt _ (by decide)), gidx_ok _ _ _ (gs_lt _) (and7v_lt _) (bc_lt _ (by decide))⟩ | (intro _; exact ⟨gidx_ok _ _ _ (gs_lt _) (and7v_lt _) (bc_lt _ (by decide)), gidx_ok _ _ _ (gs_lt _) (and7v_lt _) (bc_lt _ (by decide))⟩) | (refine blk_any _ ?_; first | exact shr3v_lt _ (rdCI m hpre d L _ _) _ | exact shr3v_lt _ (rdCU m hpre d L _ _) _) | (intro _; (refine blk_any _ ?_; first | exact shr3v_lt _ (rdCI m hpre d L _ _) _ | exact shr3v_lt _ (rdCU m hpre d L _ _) _)))
  iapply (hXUd hk16 _ _ _ _) $$ [HXU Hmw HO]
  · isplitl [HXU]; · iexact HXU
    isplitl [Hmw]; · iexact Hmw
    iexact HO
  iintro ⟨⟨%CUA, H2, %hCUA⟩, S7, HfreeU, Hmw, ⟨%W'', HO, %hW''⟩⟩
  sl_exec
  iapply (hXId hk16 _ _ _ _) $$ [HXI Hmw HO]
  · isplitl [HXI]; · iexact HXI
    isplitl [Hmw]; · iexact Hmw
    iexact HO
  iintro ⟨⟨%CIA, H3, %hCIA⟩, S8, HfreeI, Hmw, ⟨%W3, HO, %hW3⟩⟩
  unfold freeU freeI
  icases HfreeU with ⟨%c0, %c1, %c2, %c3, %c4, %c5, %c6, %c7, %c8, %c9, %c10, %c11, %c12, %c13, %c14, %c15, Uw16, Uw17, Uw18, Uw19, Uw20, Uw21, Uw22, Uw23, Uw24, Uw25, Uw26, Uw27, Uw28, Uw29, Uw30, Uw31⟩
  icases HfreeI with ⟨%e0, %e1, %e2, %e3, %e4, %e5, %e6, %e7, %e8, %e9, %e10, %e11, %e12, %e13, %e14, %e15, Iw16, Iw17, Iw18, Iw19, Iw20, Iw21, Iw22, Iw23, Iw24, Iw25, Iw26, Iw27, Iw28, Iw29, Iw30, Iw31⟩
  by_cases hc : k0_cond1 k = 1#1
  · sl_exec_parts (disch := first | (refine blk_lane _ _ _ _ (shr3v_lt _ ?_); first | with_reducible exact rdCU m hpre d L _ _ | with_reducible exact rdCI m hpre d L _ _) | (intro _; (refine blk_lane _ _ _ _ (shr3v_lt _ ?_); first | with_reducible exact rdCU m hpre d L _ _ | with_reducible exact rdCI m hpre d L _ _)) | exact ⟨gidx_ok _ _ _ (gs_lt _) (and7v_lt _) (bc_lt _ (by decide)), gidx_ok _ _ _ (gs_lt _) (and7v_lt _) (bc_lt _ (by decide))⟩ | (intro _; exact ⟨gidx_ok _ _ _ (gs_lt _) (and7v_lt _) (bc_lt _ (by decide)), gidx_ok _ _ _ (gs_lt _) (and7v_lt _) (bc_lt _ (by decide))⟩) | (refine blk_any _ ?_; first | exact shr3v_lt _ (rdCI m hpre d L _ _) _ | exact shr3v_lt _ (rdCU m hpre d L _ _) _) | (intro _; (refine blk_any _ ?_; first | exact shr3v_lt _ (rdCI m hpre d L _ _) _ | exact shr3v_lt _ (rdCU m hpre d L _ _) _)))
    sl_step
    isplitl [Hmw]; · iexact Hmw
    isplitl [Hu]; · iexact Hu
    isplitl [Hi]; · iexact Hi
    isplitl [Ho]; · iexact Ho
    isplitl [H0]; · iexact H0
    isplitl [H1]; · iexact H1
    isplitl [H4]; · iexists _; iexact H4
    isplitl [H5]; · iexists _; iexact H5
    isplitl [H6]
    · iexists _; isplitl [H6]; · iexact H6
      ipureintro
      refine outOK_step m d L k.val hk16 fo hfo _ _ ?inbA1 _ (k0_off68_eq k) (k0_off103_eq k) ?wA1 _ _ ?hT1 ?hA1 ?hB1
      case hT1 => rfl
      case hA1 =>
        intro l
        have HA : ∀ n, n < 64 → (∀ a x, ((![k0_pay70, urOf m d L (k0_off67 k) (k0_off67_inb k), broadcast S16 (BitVec.ofNat 32 n)] : Fin 3 → IVec S16 32) a x).toNat < S16x8x64.size a) ∧ (∀ a x, ((![k0_pay70, irOf m d L (k0_off67 k) (k0_off67_inb k), broadcast S16 (BitVec.ofNat 32 n)] : Fin 3 → IVec S16 32) a x).toNat < S16x8x64.size a) :=
          fun n hn => ⟨gidx_ok _ _ _ (gs_lt _) (and7v_lt _) (feat_lt n hn), gidx_ok _ _ _ (gs_lt _) (and7v_lt _) (feat_lt n hn)⟩
        refine Eq.trans (show _ = accL (View.readAt (Elt F) (sUA : Memref sig .scVector .vmem S16x8x64 .f32).view (LoadRect.whole S16x8x64) CUA) (View.readAt (Elt F) (sIA : Memref sig .scVector .vmem S16x8x64 .f32).view (LoadRect.whole S16x8x64) CIA) k0_pay70 (urOf m d L (k0_off67 k) (k0_off67_inb k)) (irOf m d L (k0_off67 k) (k0_off67_inb k)) HA 64 le_rfl l from rfl) ?_
        exact chunk_val m d L (2 * k.val) (by omega) CUA CIA hCUA hCIA (k0_off67 k) (by rw [k0_off67_eq]; show 32 * k.val = 16 * (2 * k.val); omega) (k0_off67_inb k) k0_pay70 (fun l => laneIdx_toNat _ l) HA l
      case hB1 =>
        intro l
        have HB : ∀ n, n < 64 → (∀ a x, ((![k0_pay86, urOf m d L (k0_off102 k) (k0_off102_inb k), broadcast S16 (BitVec.ofNat 32 n)] : Fin 3 → IVec S16 32) a x).toNat < S16x8x64.size a) ∧ (∀ a x, ((![k0_pay86, irOf m d L (k0_off102 k) (k0_off102_inb k), broadcast S16 (BitVec.ofNat 32 n)] : Fin 3 → IVec S16 32) a x).toNat < S16x8x64.size a) :=
          fun n hn => ⟨gidx_ok _ _ _ (gs_lt _) (and7v_lt _) (feat_lt n hn), gidx_ok _ _ _ (gs_lt _) (and7v_lt _) (feat_lt n hn)⟩
        have hFU : ∀ (s : Fin 16) (r : Fin 8) (f : Fin 64), (trip.sl.f m hpre d L k f4) (ValueIdx.ix3 (n0 := 16) (n1 := 8) (n2 := 64) s r f) = W0 m d (ValueIdx.ix3 (n0 := 125000) (n1 := 8) (n2 := 64) ⟨((CU m d L (pos (2 * k.val + 1) s)) >>> 3).toNat % 125000, Nat.mod_lt _ (by decide)⟩ r f) := by
          intro s r f
          unfold trip.sl.f
          refine (readWhole_UB (F := F) (d := d) (L := L) _ _).trans ?_
          exact landedUB_trip m hpre d L (2 * k.val + 1) (by omega) (k0_off34 k) (by rw [k0_off34_eq]; show 32 * k.val + 16 = _; omega) (hs_0 := by decide) (hs_1 := by decide) (hs_2 := by decide) (hs_3 := by decide) (hs_4 := by decide) (hs_5 := by decide) (hs_6 := by decide) (hs_7 := by decide) (hs_8 := by decide) (hs_9 := by decide) (hs_10 := by decide) (hs_11 := by decide) (hs_12 := by decide) (hs_13 := by decide) (hs_14 := by decide) (hs_15 := by decide) s r f
        have hFI : ∀ (s : Fin 16) (r : Fin 8) (f : Fin 64), (trip.sl.f_1 m hpre d L k f5) (ValueIdx.ix3 (n0 := 16) (n1 := 8) (n2 := 64) s r f) = W1 m d (ValueIdx.ix3 (n0 := 125000) (n1 := 8) (n2 := 64) ⟨((CI m d L (pos (2 * k.val + 1) s)) >>> 3).toNat % 125000, Nat.mod_lt _ (by decide)⟩ r f) := by
          intro s r f
          unfold trip.sl.f_1
          refine (readWhole_IB (F := F) (d := d) (L := L) _ _).trans ?_
          exact landedIB_trip m hpre d L (2 * k.val + 1) (by omega) (k0_off34 k) (by rw [k0_off34_eq]; show 32 * k.val + 16 = _; omega) (hs_0 := by decide) (hs_1 := by decide) (hs_2 := by decide) (hs_3 := by decide) (hs_4 := by decide) (hs_5 := by decide) (hs_6 := by decide) (hs_7 := by decide) (hs_8 := by decide) (hs_9 := by decide) (hs_10 := by decide) (hs_11 := by decide) (hs_12 := by decide) (hs_13 := by decide) (hs_14 := by decide) (hs_15 := by decide) s r f
        refine Eq.trans (show _ = accL (trip.sl.f m hpre d L k f4) (trip.sl.f_1 m hpre d L k f5) k0_pay86 (urOf m d L (k0_off102 k) (k0_off102_inb k)) (irOf m d L (k0_off102 k) (k0_off102_inb k)) HB 64 le_rfl l from rfl) ?_
        exact chunk_val_of m d L (2 * k.val + 1) (by omega) _ _ hFU hFI (k0_off102 k) (by rw [k0_off102_eq]; show 32 * k.val + 16 = 16 * (2 * k.val + 1); omega) (k0_off102_inb k) k0_pay86 (fun l => laneIdx_toNat _ l) HB l
    isplitl [S9]; · iexact S9
    isplitl [S10]; · iexact S10
    isplitl [T0]; · iexact T0
    isplitl [T1]; · iexact T1
    isplitl [T2]; · iexact T2
    isplitl [Uw0 Uw1 Uw2 Uw3 Uw4 Uw5 Uw6 Uw7 Uw8 Uw9 Uw10 Uw11 Uw12 Uw13 Uw14 Uw15]
    · iexists _, _, _, _, _, _, _, _, _, _, _, _, _, _, _, _
      isplitl [Uw0]; · iexact Uw0
      isplitl [Uw1]; · iexact Uw1
      isplitl [Uw2]; · iexact Uw2
      isplitl [Uw3]; · iexact Uw3
      isplitl [Uw4]; · iexact Uw4
      isplitl [Uw5]; · iexact Uw5
      isplitl [Uw6]; · iexact Uw6
      isplitl [Uw7]; · iexact Uw7
      isplitl [Uw8]; · iexact Uw8
      isplitl [Uw9]; · iexact Uw9
      isplitl [Uw10]; · iexact Uw10
      isplitl [Uw11]; · iexact Uw11
      isplitl [Uw12]; · iexact Uw12
      isplitl [Uw13]; · iexact Uw13
      isplitl [Uw14]; · iexact Uw14
      iexact Uw15
    isplitl [Iw0 Iw1 Iw2 Iw3 Iw4 Iw5 Iw6 Iw7 Iw8 Iw9 Iw10 Iw11 Iw12 Iw13 Iw14 Iw15]
    · iexists _, _, _, _, _, _, _, _, _, _, _, _, _, _, _, _
      isplitl [Iw0]; · iexact Iw0
      isplitl [Iw1]; · iexact Iw1
      isplitl [Iw2]; · iexact Iw2
      isplitl [Iw3]; · iexact Iw3
      isplitl [Iw4]; · iexact Iw4
      isplitl [Iw5]; · iexact Iw5
      isplitl [Iw6]; · iexact Iw6
      isplitl [Iw7]; · iexact Iw7
      isplitl [Iw8]; · iexact Iw8
      isplitl [Iw9]; · iexact Iw9
      isplitl [Iw10]; · iexact Iw10
      isplitl [Iw11]; · iexact Iw11
      isplitl [Iw12]; · iexact Iw12
      isplitl [Iw13]; · iexact Iw13
      isplitl [Iw14]; · iexact Iw14
      iexact Iw15
    isplitl [HO]
    · iexists _; isplitl [HO]; · iexact HO
      ipureintro; intro p hp
      rcases Finset.mem_insert.mp hp with rfl | hp
      · exact .inr rfl
      rcases Finset.mem_insert.mp hp with rfl | hp
      · exact .inr rfl
      rcases hW3 p hp with hp | hp
      · rcases hW'' p hp with hp | hp
        · exact hW' p hp
        · exact .inr hp
      · exact .inr hp
    isplitl [H2 S7 Uw31 Uw16 Uw17 Uw18 Uw19 Uw20 Uw21 Uw22 Uw23 Uw24 Uw25 Uw26 Uw27 Uw28 Uw29 Uw30 Uw16_kept Uw17_kept Uw18_kept Uw19_kept Uw20_kept Uw21_kept Uw22_kept Uw23_kept Uw24_kept Uw25_kept Uw26_kept Uw27_kept Uw28_kept Uw29_kept Uw30_kept]
    · icombine H2 S7 Uw31 Uw16 Uw17 Uw18 Uw19 Uw20 Uw21 Uw22 Uw23 Uw24 Uw25 Uw26 Uw27 Uw28 Uw29 Uw30 Uw16_kept Uw17_kept Uw18_kept Uw19_kept Uw20_kept Uw21_kept Uw22_kept Uw23_kept Uw24_kept Uw25_kept Uw26_kept Uw27_kept Uw28_kept Uw29_kept Uw30_kept as HXU
      iexists _; isplitl [HXU]; · iexact HXU
      isplitr
      · ipureintro; intro _
        intro α kont Q W2
        iintro ⟨HX, Hmw, HO⟩ Hk
        icases HX with ⟨H2, S7, Uw31, Uw16, Uw17, Uw18, Uw19, Uw20, Uw21, Uw22, Uw23, Uw24, Uw25, Uw26, Uw27, Uw28, Uw29, Uw30, Uw16_kept, Uw17_kept, Uw18_kept, Uw19_kept, Uw20_kept, Uw21_kept, Uw22_kept, Uw23_kept, Uw24_kept, Uw25_kept, Uw26_kept, Uw27_kept, Uw28_kept, Uw29_kept, Uw30_kept⟩
        sl_exec
        iapply Hk
        isplitl [H2]
        · iexists _; isplitl [H2]; · iexact H2
          ipureintro; exact landedU_trip m hpre d L (2 * (k.val + 1)) (by have := cond_lt k hc; omega) (k0_off69 k) (by rw [k0_off69_eq]; show 32 * k.val + 32 = _; omega)
        isplitl [S7]; · iexact S7
        isplitl [Uw16 Uw17 Uw18 Uw19 Uw20 Uw21 Uw22 Uw23 Uw24 Uw25 Uw26 Uw27 Uw28 Uw29 Uw30 Uw31]
        · unfold freeU
          iexists _, _, _, _, _, _, _, _, _, _, _, _, _, _, _, _
          isplitl [Uw16]; · iexact Uw16
          isplitl [Uw17]; · iexact Uw17
          isplitl [Uw18]; · iexact Uw18
          isplitl [Uw19]; · iexact Uw19
          isplitl [Uw20]; · iexact Uw20
          isplitl [Uw21]; · iexact Uw21
          isplitl [Uw22]; · iexact Uw22
          isplitl [Uw23]; · iexact Uw23
          isplitl [Uw24]; · iexact Uw24
          isplitl [Uw25]; · iexact Uw25
          isplitl [Uw26]; · iexact Uw26
          isplitl [Uw27]; · iexact Uw27
          isplitl [Uw28]; · iexact Uw28
          isplitl [Uw29]; · iexact Uw29
          isplitl [Uw30]; · iexact Uw30
          iexact Uw31
        isplitl [Hmw]; · iexact Hmw
        iexists _; isplitl [HO]; · iexact HO
        ipureintro; intro p hp
        rcases Finset.mem_insert.mp hp with rfl | hp
        · exact .inr rfl
        exact .inl hp
      · ipureintro; intro h; exact absurd h (cond_lt k hc)
    · icombine H3 S8 Iw31 Iw16 Iw17 Iw18 Iw19 Iw20 Iw21 Iw22 Iw23 Iw24 Iw25 Iw26 Iw27 Iw28 Iw29 Iw30 Iw16_kept Iw17_kept Iw18_kept Iw19_kept Iw20_kept Iw21_kept Iw22_kept Iw23_kept Iw24_kept Iw25_kept Iw26_kept Iw27_kept Iw28_kept Iw29_kept Iw30_kept as HXI
      iexists _; isplitl [HXI]; · iexact HXI
      isplitr
      · ipureintro; intro _
        intro α kont Q W2
        iintro ⟨HX, Hmw, HO⟩ Hk
        icases HX with ⟨H3, S8, Iw31, Iw16, Iw17, Iw18, Iw19, Iw20, Iw21, Iw22, Iw23, Iw24, Iw25, Iw26, Iw27, Iw28, Iw29, Iw30, Iw16_kept, Iw17_kept, Iw18_kept, Iw19_kept, Iw20_kept, Iw21_kept, Iw22_kept, Iw23_kept, Iw24_kept, Iw25_kept, Iw26_kept, Iw27_kept, Iw28_kept, Iw29_kept, Iw30_kept⟩
        sl_exec
        iapply Hk
        isplitl [H3]
        · iexists _; isplitl [H3]; · iexact H3
          ipureintro; exact landedI_trip m hpre d L (2 * (k.val + 1)) (by have := cond_lt k hc; omega) (k0_off69 k) (by rw [k0_off69_eq]; show 32 * k.val + 32 = _; omega) (hs_0 := by decide) (hs_1 := by decide) (hs_2 := by decide) (hs_3 := by decide) (hs_4 := by decide) (hs_5 := by decide) (hs_6 := by decide) (hs_7 := by decide) (hs_8 := by decide) (hs_9 := by decide) (hs_10 := by decide) (hs_11 := by decide) (hs_12 := by decide) (hs_13 := by decide) (hs_14 := by decide) (hs_15 := by decide)
        isplitl [S8]; · iexact S8
        isplitl [Iw16 Iw17 Iw18 Iw19 Iw20 Iw21 Iw22 Iw23 Iw24 Iw25 Iw26 Iw27 Iw28 Iw29 Iw30 Iw31]
        · unfold freeI
          iexists _, _, _, _, _, _, _, _, _, _, _, _, _, _, _, _
          isplitl [Iw16]; · iexact Iw16
          isplitl [Iw17]; · iexact Iw17
          isplitl [Iw18]; · iexact Iw18
          isplitl [Iw19]; · iexact Iw19
          isplitl [Iw20]; · iexact Iw20
          isplitl [Iw21]; · iexact Iw21
          isplitl [Iw22]; · iexact Iw22
          isplitl [Iw23]; · iexact Iw23
          isplitl [Iw24]; · iexact Iw24
          isplitl [Iw25]; · iexact Iw25
          isplitl [Iw26]; · iexact Iw26
          isplitl [Iw27]; · iexact Iw27
          isplitl [Iw28]; · iexact Iw28
          isplitl [Iw29]; · iexact Iw29
          isplitl [Iw30]; · iexact Iw30
          iexact Iw31
        isplitl [Hmw]; · iexact Hmw
        iexists _; isplitl [HO]; · iexact HO
        ipureintro; intro p hp
        rcases Finset.mem_insert.mp hp with rfl | hp
        · exact .inr rfl
        exact .inl hp
      · ipureintro; intro h; exact absurd h (cond_lt k hc)
  · sl_exec_parts (disch := first | (refine blk_lane _ _ _ _ (shr3v_lt _ ?_); first | with_reducible exact rdCU m hpre d L _ _ | with_reducible exact rdCI m hpre d L _ _) | (intro _; (refine blk_lane _ _ _ _ (shr3v_lt _ ?_); first | with_reducible exact rdCU m hpre d L _ _ | with_reducible exact rdCI m hpre d L _ _)) | exact ⟨gidx_ok _ _ _ (gs_lt _) (and7v_lt _) (bc_lt _ (by decide)), gidx_ok _ _ _ (gs_lt _) (and7v_lt _) (bc_lt _ (by decide))⟩ | (intro _; exact ⟨gidx_ok _ _ _ (gs_lt _) (and7v_lt _) (bc_lt _ (by decide)), gidx_ok _ _ _ (gs_lt _) (and7v_lt _) (bc_lt _ (by decide))⟩) | (refine blk_any _ ?_; first | exact shr3v_lt _ (rdCI m hpre d L _ _) _ | exact shr3v_lt _ (rdCU m hpre d L _ _) _) | (intro _; (refine blk_any _ ?_; first | exact shr3v_lt _ (rdCI m hpre d L _ _) _ | exact shr3v_lt _ (rdCU m hpre d L _ _) _)))
    sl_step
    isplitl [Hmw]; · iexact Hmw
    isplitl [Hu]; · iexact Hu
    isplitl [Hi]; · iexact Hi
    isplitl [Ho]; · iexact Ho
    isplitl [H0]; · iexact H0
    isplitl [H1]; · iexact H1
    isplitl [H4]; · iexists _; iexact H4
    isplitl [H5]; · iexists _; iexact H5
    isplitl [H6]
    · iexists _; isplitl [H6]; · iexact H6
      ipureintro
      refine outOK_step m d L k.val hk16 fo hfo _ _ ?inbA2 _ (k0_off68_eq k) (k0_off103_eq k) ?wA2 _ _ ?hT2 ?hA2 ?hB2
      case hT2 => rfl
      case hA2 =>
        intro l
        have HA : ∀ n, n < 64 → (∀ a x, ((![k0_pay70, urOf m d L (k0_off67 k) (k0_off67_inb k), broadcast S16 (BitVec.ofNat 32 n)] : Fin 3 → IVec S16 32) a x).toNat < S16x8x64.size a) ∧ (∀ a x, ((![k0_pay70, irOf m d L (k0_off67 k) (k0_off67_inb k), broadcast S16 (BitVec.ofNat 32 n)] : Fin 3 → IVec S16 32) a x).toNat < S16x8x64.size a) :=
          fun n hn => ⟨gidx_ok _ _ _ (gs_lt _) (and7v_lt _) (feat_lt n hn), gidx_ok _ _ _ (gs_lt _) (and7v_lt _) (feat_lt n hn)⟩
        refine Eq.trans (show _ = accL (View.readAt (Elt F) (sUA : Memref sig .scVector .vmem S16x8x64 .f32).view (LoadRect.whole S16x8x64) CUA) (View.readAt (Elt F) (sIA : Memref sig .scVector .vmem S16x8x64 .f32).view (LoadRect.whole S16x8x64) CIA) k0_pay70 (urOf m d L (k0_off67 k) (k0_off67_inb k)) (irOf m d L (k0_off67 k) (k0_off67_inb k)) HA 64 le_rfl l from rfl) ?_
        exact chunk_val m d L (2 * k.val) (by omega) CUA CIA hCUA hCIA (k0_off67 k) (by rw [k0_off67_eq]; show 32 * k.val = 16 * (2 * k.val); omega) (k0_off67_inb k) k0_pay70 (fun l => laneIdx_toNat _ l) HA l
      case hB2 =>
        intro l
        have HB : ∀ n, n < 64 → (∀ a x, ((![k0_pay86, urOf m d L (k0_off102 k) (k0_off102_inb k), broadcast S16 (BitVec.ofNat 32 n)] : Fin 3 → IVec S16 32) a x).toNat < S16x8x64.size a) ∧ (∀ a x, ((![k0_pay86, irOf m d L (k0_off102 k) (k0_off102_inb k), broadcast S16 (BitVec.ofNat 32 n)] : Fin 3 → IVec S16 32) a x).toNat < S16x8x64.size a) :=
          fun n hn => ⟨gidx_ok _ _ _ (gs_lt _) (and7v_lt _) (feat_lt n hn), gidx_ok _ _ _ (gs_lt _) (and7v_lt _) (feat_lt n hn)⟩
        have hFU : ∀ (s : Fin 16) (r : Fin 8) (f : Fin 64), (trip.sl.f_2 m hpre d L k f4) (ValueIdx.ix3 (n0 := 16) (n1 := 8) (n2 := 64) s r f) = W0 m d (ValueIdx.ix3 (n0 := 125000) (n1 := 8) (n2 := 64) ⟨((CU m d L (pos (2 * k.val + 1) s)) >>> 3).toNat % 125000, Nat.mod_lt _ (by decide)⟩ r f) := by
          intro s r f
          unfold trip.sl.f_2
          refine (readWhole_UB (F := F) (d := d) (L := L) _ _).trans ?_
          exact landedUB_trip m hpre d L (2 * k.val + 1) (by omega) (k0_off34 k) (by rw [k0_off34_eq]; show 32 * k.val + 16 = _; omega) (hs_0 := by decide) (hs_1 := by decide) (hs_2 := by decide) (hs_3 := by decide) (hs_4 := by decide) (hs_5 := by decide) (hs_6 := by decide) (hs_7 := by decide) (hs_8 := by decide) (hs_9 := by decide) (hs_10 := by decide) (hs_11 := by decide) (hs_12 := by decide) (hs_13 := by decide) (hs_14 := by decide) (hs_15 := by decide) s r f
        have hFI : ∀ (s : Fin 16) (r : Fin 8) (f : Fin 64), (trip.sl.f_3 m hpre d L k f5) (ValueIdx.ix3 (n0 := 16) (n1 := 8) (n2 := 64) s r f) = W1 m d (ValueIdx.ix3 (n0 := 125000) (n1 := 8) (n2 := 64) ⟨((CI m d L (pos (2 * k.val + 1) s)) >>> 3).toNat % 125000, Nat.mod_lt _ (by decide)⟩ r f) := by
          intro s r f
          unfold trip.sl.f_3
          refine (readWhole_IB (F := F) (d := d) (L := L) _ _).trans ?_
          exact landedIB_trip m hpre d L (2 * k.val + 1) (by omega) (k0_off34 k) (by rw [k0_off34_eq]; show 32 * k.val + 16 = _; omega) (hs_0 := by decide) (hs_1 := by decide) (hs_2 := by decide) (hs_3 := by decide) (hs_4 := by decide) (hs_5 := by decide) (hs_6 := by decide) (hs_7 := by decide) (hs_8 := by decide) (hs_9 := by decide) (hs_10 := by decide) (hs_11 := by decide) (hs_12 := by decide) (hs_13 := by decide) (hs_14 := by decide) (hs_15 := by decide) s r f
        refine Eq.trans (show _ = accL (trip.sl.f_2 m hpre d L k f4) (trip.sl.f_3 m hpre d L k f5) k0_pay86 (urOf m d L (k0_off102 k) (k0_off102_inb k)) (irOf m d L (k0_off102 k) (k0_off102_inb k)) HB 64 le_rfl l from rfl) ?_
        exact chunk_val_of m d L (2 * k.val + 1) (by omega) _ _ hFU hFI (k0_off102 k) (by rw [k0_off102_eq]; show 32 * k.val + 16 = 16 * (2 * k.val + 1); omega) (k0_off102_inb k) k0_pay86 (fun l => laneIdx_toNat _ l) HB l
    isplitl [S9]; · iexact S9
    isplitl [S10]; · iexact S10
    isplitl [T0]; · iexact T0
    isplitl [T1]; · iexact T1
    isplitl [T2]; · iexact T2
    isplitl [Uw0 Uw1 Uw2 Uw3 Uw4 Uw5 Uw6 Uw7 Uw8 Uw9 Uw10 Uw11 Uw12 Uw13 Uw14 Uw15]
    · iexists _, _, _, _, _, _, _, _, _, _, _, _, _, _, _, _
      isplitl [Uw0]; · iexact Uw0
      isplitl [Uw1]; · iexact Uw1
      isplitl [Uw2]; · iexact Uw2
      isplitl [Uw3]; · iexact Uw3
      isplitl [Uw4]; · iexact Uw4
      isplitl [Uw5]; · iexact Uw5
      isplitl [Uw6]; · iexact Uw6
      isplitl [Uw7]; · iexact Uw7
      isplitl [Uw8]; · iexact Uw8
      isplitl [Uw9]; · iexact Uw9
      isplitl [Uw10]; · iexact Uw10
      isplitl [Uw11]; · iexact Uw11
      isplitl [Uw12]; · iexact Uw12
      isplitl [Uw13]; · iexact Uw13
      isplitl [Uw14]; · iexact Uw14
      iexact Uw15
    isplitl [Iw0 Iw1 Iw2 Iw3 Iw4 Iw5 Iw6 Iw7 Iw8 Iw9 Iw10 Iw11 Iw12 Iw13 Iw14 Iw15]
    · iexists _, _, _, _, _, _, _, _, _, _, _, _, _, _, _, _
      isplitl [Iw0]; · iexact Iw0
      isplitl [Iw1]; · iexact Iw1
      isplitl [Iw2]; · iexact Iw2
      isplitl [Iw3]; · iexact Iw3
      isplitl [Iw4]; · iexact Iw4
      isplitl [Iw5]; · iexact Iw5
      isplitl [Iw6]; · iexact Iw6
      isplitl [Iw7]; · iexact Iw7
      isplitl [Iw8]; · iexact Iw8
      isplitl [Iw9]; · iexact Iw9
      isplitl [Iw10]; · iexact Iw10
      isplitl [Iw11]; · iexact Iw11
      isplitl [Iw12]; · iexact Iw12
      isplitl [Iw13]; · iexact Iw13
      isplitl [Iw14]; · iexact Iw14
      iexact Iw15
    isplitl [HO]
    · iexists _; isplitl [HO]; · iexact HO
      ipureintro; intro p hp
      rcases Finset.mem_insert.mp hp with rfl | hp
      · exact .inr rfl
      rcases Finset.mem_insert.mp hp with rfl | hp
      · exact .inr rfl
      rcases hW3 p hp with hp | hp
      · rcases hW'' p hp with hp | hp
        · exact hW' p hp
        · exact .inr hp
      · exact .inr hp
    isplitl [H2 S7]
    · icombine H2 S7 as HXU
      iexists _; isplitl [HXU]; · iexact HXU
      isplitr
      · ipureintro; intro h; exact absurd h (ncond_eq k hc)
      · ipureintro; intro _
        iintro ⟨H2, S7⟩
        isplitl [H2]; · iexists _; iexact H2
        iexact S7
    · icombine H3 S8 as HXI
      iexists _; isplitl [HXI]; · iexact HXI
      isplitr
      · ipureintro; intro h; exact absurd h (ncond_eq k hc)
      · ipureintro; intro _
        iintro ⟨H3, S8⟩
        isplitl [H3]; · iexists _; iexact H3
        iexact S8

end Cert.Proof.Kernel

end
-- ==== Proof.K.LandedLane.lean ====
/-
  One landed block.

  A row copy's source block is named by one lane of a chunk of sixteen index words, each shifted right by 3 (a row
  number's block).  What the copy lands, read at `(r, f)`, is the blocked table at `(block, r, f)`, the block being
  that of the index the lane holds.
-/
import proofs.«203884_g41704132444582_cont_8to1_b_1290_16_alg».proof.Proof.K.Landed

noncomputable section

namespace Cert.Proof.Kernel

open Cert.Kernel Cert.Kernel.Gen
open Idealize.ShloMosaic

variable {F : FTy → Type}

/-- One landed block of the first table, read at `(r, f)`: the copy's source block is named by lane `j` of the chunk of
    index words at offset `o`, shifted right by 3; what lands is the table at the block of the index at position `o + j`. -/
theorem lane_landed_U (d : Dev nD) (Cc Cc' : S512.Idx → BitVec 32) (e : Cc = Cc') (hC : ∀ j, (Cc' j).toNat < 1000000)
    (o : ℕ) (inb : ∀ a, (![o] : Fin 1 → ℕ) a + S16.size a ≤ S512.size a) (j : ℕ) (hj : j < 16) (hs : S16.Slices ![j] S1)
    (hp : ∀ a, (![0] : Fin 1 → ℕ) a < S1.size a) (off : Fin 3 → ℕ)
    (hoff : off = ![(extractAt ![0] (extractStridedSlice (s := S16) S1 ![j] (shrui (s := S16) (((sU : Memref sig .scVector .vmem S512 .i32).view.readAt (Elt F)
        (Rect.unit (s := S512) ![o] S16.size inb).toLoadRect Cc : IVec S16 32)) (broadcast S16 3#32)) hs) hp).toNat, 0, 0])
    (g1 : ∀ a, off a + S1x8x64.size a ≤ S125000x8x64.size a)
    (g2 : ∀ a, (Rect.unit (s := S125000x8x64) off S1x8x64.size g1).stride a = 1) (g3 : S1x8x64.Squeezes S8x64)
    (Wc : Buf (Elt F) (uwLoc d)) (p : S512.Idx) (hp' : p = ValueIdx.ix1 (n := 512) ⟨o + j, lane_lt inb hj⟩) (r : Fin 8) (f : Fin 64) :
    ReadAs.same.apply (View.read (Elt F) (((uwV : Memref sig .scVector .hbm S125000x8x64 .f32).slice (Rect.unit (s := S125000x8x64) off S1x8x64.size g1) g2).squeeze S8x64 g3).view Wc)
        (ValueIdx.ix2 (n0 := 8) (n1 := 64) r f)
      = Wc (ValueIdx.ix3 (n0 := 125000) (n1 := 8) (n2 := 64) ⟨((Cc' p) >>> 3).toNat % 125000, Nat.mod_lt _ (by decide)⟩ r f) := by
  subst e hp'
  have hw := lane_val_U (F := F) Cc o inb j hj hs hp
  rw [hw] at hoff
  subst hoff
  have hlt := shr3_lt (hC (ValueIdx.ix1 (n := 512) ⟨o + j, lane_lt inb hj⟩))
  refine (row_read_apply d _ hlt g1 g2 Wc r f).trans ?_
  exact congrArg (fun b : Fin 125000 => Wc (ValueIdx.ix3 (n0 := 125000) (n1 := 8) (n2 := 64) b r f))
    (Fin.ext (shr3_mod (hC (ValueIdx.ix1 (n := 512) ⟨o + j, lane_lt inb hj⟩))).symm)

/-- One landed block of the second table, read at `(r, f)`: the copy's source block is named by lane `j` of the chunk of
    index words at offset `o`, shifted right by 3; what lands is the table at the block of the index at position `o + j`. -/
theorem lane_landed_I (d : Dev nD) (Cc Cc' : S512.Idx → BitVec 32) (e : Cc = Cc') (hC : ∀ j, (Cc' j).toNat < 1000000)
    (o : ℕ) (inb : ∀ a, (![o] : Fin 1 → ℕ) a + S16.size a ≤ S512.size a) (j : ℕ) (hj : j < 16) (hs : S16.Slices ![j] S1)
    (hp : ∀ a, (![0] : Fin 1 → ℕ) a < S1.size a) (off : Fin 3 → ℕ)
    (hoff : off = ![(extractAt ![0] (extractStridedSlice (s := S16) S1 ![j] (shrui (s := S16) (((sI : Memref sig .scVector .vmem S512 .i32).view.readAt (Elt F)
        (Rect.unit (s := S512) ![o] S16.size inb).toLoadRect Cc : IVec S16 32)) (broadcast S16 3#32)) hs) hp).toNat, 0, 0])
    (g1 : ∀ a, off a + S1x8x64.size a ≤ S125000x8x64.size a)
    (g2 : ∀ a, (Rect.unit (s := S125000x8x64) off S1x8x64.size g1).stride a = 1) (g3 : S1x8x64.Squeezes S8x64)
    (Wc : Buf (Elt F) (iwLoc d)) (p : S512.Idx) (hp' : p = ValueIdx.ix1 (n := 512) ⟨o + j, lane_lt inb hj⟩) (r : Fin 8) (f : Fin 64) :
    ReadAs.same.apply (View.read (Elt F) (((iwV : Memref sig .scVector .hbm S125000x8x64 .f32).slice (Rect.unit (s := S125000x8x64) off S1x8x64.size g1) g2).squeeze S8x64 g3).view Wc)
        (ValueIdx.ix2 (n0 := 8) (n1 := 64) r f)
      = Wc (ValueIdx.ix3 (n0 := 125000) (n1 := 8) (n2 := 64) ⟨((Cc' p) >>> 3).toNat % 125000, Nat.mod_lt _ (by decide)⟩ r f) := by
  subst e hp'
  have hw := lane_val_I (F := F) Cc o inb j hj hs hp
  rw [hw] at hoff
  subst hoff
  have hlt := shr3_lt (hC (ValueIdx.ix1 (n := 512) ⟨o + j, lane_lt inb hj⟩))
  refine (row_read_apply' d _ hlt g1 g2 Wc r f).trans ?_
  exact congrArg (fun b : Fin 125000 => Wc (ValueIdx.ix3 (n0 := 125000) (n1 := 8) (n2 := 64) b r f))
    (Fin.ext (shr3_mod (hC (ValueIdx.ix1 (n := 512) ⟨o + j, lane_lt inb hj⟩))).symm)

end Cert.Proof.Kernel

end
-- ==== Proof.K.Body.lean ====
/-
  One tile's task.

  A tile owns 512 consecutive batch positions.  It first copies its 512 user indices and its 512 item indices into
  two scratch buffers.  The positions are then treated in 32 chunks of 16.  For a chunk, sixteen row copies per table
  bring, for each of its positions, the whole table block `[8, 64]` that position's index names (block `v / 8` of
  the blocked table) into slot `s` of a block buffer; two pairs of block buffers alternate, so the copies of one chunk
  overlap the arithmetic of the previous one.

  The proof follows the program: the two index copies; the first chunk's 32 row copies, after which each of the two
  block buffers holds, in slot `s`, the table block of position `s` of chunk 0, whatever it held before; the loop of
  16 trips, each treating two chunks, by an invariant that records which buffers have landed for which chunk and
  that the first `32 k` positions of the output scratch hold their specified values; and the write-out of the output
  scratch to the tile's 512 positions of the result, which then hold the accumulated inner products the
  specification names.
-/
import proofs.«203884_g41704132444582_cont_8to1_b_1290_16_alg».proof.Proof.K.BodyDefs
import proofs.«203884_g41704132444582_cont_8to1_b_1290_16_alg».proof.Proof.K.Trip
import proofs.«203884_g41704132444582_cont_8to1_b_1290_16_alg».proof.Proof.K.LandedLane

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

omit [FloatOps F] in
theorem owes_ex_swap {thr : Thread nD τ} {O : CellTallies nD τ sig (HIx 1)} {P : Waits sig (HIx 1) → Prop} :
    (iprop(∃ W', owes thr O W' ∗ ⌜P W'⌝) : sProp 𝕄) ⊢ iprop(∃ W', ⌜P W'⌝ ∗ owes thr O W') := by
  iintro ⟨%W', HO, %h⟩
  iexists W'; isplitr
  · ipureintro; exact h
  · iexact HO

set_option maxHeartbeats 4000000 in
set_option sl_exec.dischHeartbeats 40000 in
theorem tile_core (hpre : PreOK m) : TileCore (F := F) m := by
  intro d L q O W f0 f1 f2 f3 f4 f5 f6
  have planUA : Transfers.BatchOf (thrV d L) (SemLoc.dma (sig := sig) cc0_scratch7.sem) 16 (windows := true) := trivial
  have planIA : Transfers.BatchOf (thrV d L) (SemLoc.dma (sig := sig) cc0_scratch8.sem) 16 (windows := true) := trivial
  have planUB : Transfers.BatchOf (thrV d L) (SemLoc.dma (sig := sig) cc0_scratch9.sem) 16 (windows := true) := trivial
  have planIB : Transfers.BatchOf (thrV d L) (SemLoc.dma (sig := sig) cc0_scratch10.sem) 16 (windows := true) := trivial
  simp only [cc0__bprmf_sc_eq_skeleton]; unfold cc0__bprmf_sc_skel
  unfold goRes
  iintro ⟨Hmw, ⟨Hu, Hi, Huw, Hiw, Ho⟩, H0, H1, H2, H3, H4, H5, H6, S7, S8, S9, S10, T0, T1, T2, HO⟩
  ihave Hu := (Entails.of_eq (pts_u (F := F) d L q _).symm) $$ Hu
  ihave Hi := (Entails.of_eq (pts_i (F := F) d L q _).symm) $$ Hi
  ihave Huw := (Entails.of_eq (pts_uw (F := F) d L q _).symm) $$ Huw
  ihave Hiw := (Entails.of_eq (pts_iw (F := F) d L q _).symm) $$ Hiw
  ihave Ho := (Entails.of_eq (pts_o (F := F) d L _).symm) $$ Ho
  ihave H0 := (Entails.of_eq (pts_s0 (F := F) d L _).symm) $$ H0
  ihave H1 := (Entails.of_eq (pts_s1 (F := F) d L _).symm) $$ H1
  ihave H2 := (Entails.of_eq (pts_s2 (F := F) d L _).symm) $$ H2
  ihave H3 := (Entails.of_eq (pts_s3 (F := F) d L _).symm) $$ H3
  ihave H4 := (Entails.of_eq (pts_s4 (F := F) d L _).symm) $$ H4
  ihave H5 := (Entails.of_eq (pts_s5 (F := F) d L _).symm) $$ H5
  ihave H6 := (Entails.of_eq (pts_s6 (F := F) d L _).symm) $$ H6
  ihave Huw := (split32 (F := F) q) $$ Huw
  ihave Hiw := (split32 (F := F) q) $$ Hiw
  icases Huw with ⟨Uw31, Uw30, Uw29, Uw28, Uw27, Uw26, Uw25, Uw24, Uw23, Uw22, Uw21, Uw20, Uw19, Uw18, Uw17, Uw16, Uw15, Uw14, Uw13, Uw12, Uw11, Uw10, Uw9, Uw8, Uw7, Uw6, Uw5, Uw4, Uw3, Uw2, Uw1, Uw0, -⟩
  icases Hiw with ⟨Iw31, Iw30, Iw29, Iw28, Iw27, Iw26, Iw25, Iw24, Iw23, Iw22, Iw21, Iw20, Iw19, Iw18, Iw17, Iw16, Iw15, Iw14, Iw13, Iw12, Iw11, Iw10, Iw9, Iw8, Iw7, Iw6, Iw5, Iw4, Iw3, Iw2, Iw1, Iw0, -⟩
  sl_exec_parts
  have hfU : ∀ j : S512.Idx, ((View.write (Elt F) (sU : Memref sig .scVector .vmem S512 .i32).view f0 (tile_core.sl.dma0 m d L) Finset.univ) j).toNat < 1000000 := by
    intro j
    have e : (View.write (Elt F) (sU : Memref sig .scVector .vmem S512 .i32).view f0 (tile_core.sl.dma0 m d L) Finset.univ) j = m (uLoc d) (((uV : Memref sig .scVector .hbm S16384 .i32).slice (Rect.unit (s := S16384) (k0_off1 L) S512.size (k0_off1_inb L)) (fun _ => rfl)).view.emb j) := by
      refine (congrFun (View.write_whole_univ (Val := Elt F) (cc0_scratch0 : Ref sig .scVector) f0 (tile_core.sl.dma0 m d L)) j).trans ?_
      unfold tile_core.sl.dma0; exact (View.read_apply _ _).trans (cast_eq _ _)
    rw [e]; exact (hpre d _).1
  have hfI : ∀ j : S512.Idx, ((View.write (Elt F) (sI : Memref sig .scVector .vmem S512 .i32).view f1 (tile_core.sl.dma0_1 m d L) Finset.univ) j).toNat < 1000000 := by
    intro j
    have e : (View.write (Elt F) (sI : Memref sig .scVector .vmem S512 .i32).view f1 (tile_core.sl.dma0_1 m d L) Finset.univ) j = m (iLoc d) (((iV : Memref sig .scVector .hbm S16384 .i32).slice (Rect.unit (s := S16384) (k0_off1 L) S512.size (k0_off1_inb L)) (fun _ => rfl)).view.emb j) := by
      refine (congrFun (View.write_whole_univ (Val := Elt F) (cc0_scratch1 : Ref sig .scVector) f1 (tile_core.sl.dma0_1 m d L)) j).trans ?_
      unfold tile_core.sl.dma0_1; exact (View.read_apply _ _).trans (cast_eq _ _)
    rw [e]; exact (hpre d _).2
  have rdU : ∀ (r : LoadRect S512) (j : r.shape.Idx), (((sU : Memref sig .scVector .vmem S512 .i32).view.readAt (Elt F) r (View.write (Elt F) (sU : Memref sig .scVector .vmem S512 .i32).view f0 (tile_core.sl.dma0 m d L) Finset.univ)) j).toNat < 1000000 := by
    intro r j; simp only [View.readAt_apply, Memref.view_whole, View.read_whole]; exact hfU _
  have rdI : ∀ (r : LoadRect S512) (j : r.shape.Idx), (((sI : Memref sig .scVector .vmem S512 .i32).view.readAt (Elt F) r (View.write (Elt F) (sI : Memref sig .scVector .vmem S512 .i32).view f1 (tile_core.sl.dma0_1 m d L) Finset.univ)) j).toNat < 1000000 := by
    intro r j; simp only [View.readAt_apply, Memref.view_whole, View.read_whole]; exact hfI _
  have rdU' : ∀ (off : Fin 1 → ℕ) (inb : ∀ a, off a + S16.size a ≤ S512.size a) (j : S16.Idx), (((sU : Memref sig .scVector .vmem S512 .i32).view.readAt (Elt F) (Rect.unit (s := S512) off S16.size inb).toLoadRect (View.write (Elt F) (sU : Memref sig .scVector .vmem S512 .i32).view f0 (tile_core.sl.dma0 m d L) Finset.univ)) j).toNat < 1000000 := fun off inb j => rdU (Rect.unit (s := S512) off S16.size inb).toLoadRect j
  have rdI' : ∀ (off : Fin 1 → ℕ) (inb : ∀ a, off a + S16.size a ≤ S512.size a) (j : S16.Idx), (((sI : Memref sig .scVector .vmem S512 .i32).view.readAt (Elt F) (Rect.unit (s := S512) off S16.size inb).toLoadRect (View.write (Elt F) (sI : Memref sig .scVector .vmem S512 .i32).view f1 (tile_core.sl.dma0_1 m d L) Finset.univ)) j).toNat < 1000000 := fun off inb j => rdI (Rect.unit (s := S512) off S16.size inb).toLoadRect j
  sl_exec_parts (disch := first | (refine blk_lane _ _ _ _ (shr3v_lt _ ?_); first | with_reducible exact rdU' _ _ | with_reducible exact rdI' _ _) | (refine blk_any _ ?_; first | exact shr3v_lt _ (rdI' _ _) _ | exact shr3v_lt _ (rdU' _ _) _))
  have e0 : View.write (Elt F) (sU : Memref sig .scVector .vmem S512 .i32).view f0 (tile_core.sl.dma0 m d L) Finset.univ = CU m d L := funext fun j => by
    refine (congrFun (View.write_whole_univ (Val := Elt F) (cc0_scratch0 : Ref sig .scVector) f0 (tile_core.sl.dma0 m d L)) j).trans ?_
    unfold tile_core.sl.dma0; exact (View.read_apply _ _).trans (cast_eq _ _)
  have e1 : View.write (Elt F) (sI : Memref sig .scVector .vmem S512 .i32).view f1 (tile_core.sl.dma0_1 m d L) Finset.univ = CI m d L := funext fun j => by
    refine (congrFun (View.write_whole_univ (Val := Elt F) (cc0_scratch1 : Ref sig .scVector) f1 (tile_core.sl.dma0_1 m d L)) j).trans ?_
    unfold tile_core.sl.dma0_1; exact (View.read_apply _ _).trans (cast_eq _ _)
  ihave H0 := (Entails.of_eq (congrArg (fun c => ((sU : Memref sig .scVector .vmem S512 .i32).view.loc (thrV d L) ↦{fullShare} c : sProp 𝕄)) e0)) $$ H0
  ihave H1 := (Entails.of_eq (congrArg (fun c => ((sI : Memref sig .scVector .vmem S512 .i32).view.loc (thrV d L) ↦{fullShare} c : sProp 𝕄)) e1)) $$ H1
  icombine H2 S7 Uw31 Uw30 Uw29 Uw28 Uw27 Uw26 Uw25 Uw24 Uw23 Uw22 Uw21 Uw20 Uw19 Uw18 Uw17 Uw16 Uw31_kept Uw30_kept Uw29_kept Uw28_kept Uw27_kept Uw26_kept Uw25_kept Uw24_kept Uw23_kept Uw22_kept Uw21_kept Uw20_kept Uw19_kept Uw18_kept Uw17_kept as HXU
  icombine H3 S8 Iw31 Iw30 Iw29 Iw28 Iw27 Iw26 Iw25 Iw24 Iw23 Iw22 Iw21 Iw20 Iw19 Iw18 Iw17 Iw16 Iw31_kept Iw30_kept Iw29_kept Iw28_kept Iw27_kept Iw26_kept Iw25_kept Iw24_kept Iw23_kept Iw22_kept Iw21_kept Iw20_kept Iw19_kept Iw18_kept Iw17_kept as HXI
  sl_for (inv m d L q O W) $$ [Hmw Hu Hi Ho H0 H1 H4 H5 H6 S9 S10 T0 T1 T2 Uw0 Uw1 Uw2 Uw3 Uw4 Uw5 Uw6 Uw7 Uw8 Uw9 Uw10 Uw11 Uw12 Uw13 Uw14 Uw15 Iw0 Iw1 Iw2 Iw3 Iw4 Iw5 Iw6 Iw7 Iw8 Iw9 Iw10 Iw11 Iw12 Iw13 Iw14 Iw15 HO HXU HXI]
  case region =>
    intro k _
    exact trip m hpre d L q O W k
  · unfold inv
    isplitl [Hmw]; · iexact Hmw
    isplitl [Hu]; · iexact Hu
    isplitl [Hi]; · iexact Hi
    isplitl [Ho]; · iexact Ho
    isplitl [H0]; · iexact H0
    isplitl [H1]; · iexact H1
    isplitl [H4]; · iexists _; iexact H4
    isplitl [H5]; · iexists _; iexact H5
    isplitl [H6]
    · iexists _; isplitl [H6]; · iexact H6
      ipureintro; intro p hp; exact absurd hp (by omega)
    isplitl [S9]; · iexact S9
    isplitl [S10]; · iexact S10
    isplitl [T0]; · iexact T0
    isplitl [T1]; · iexact T1
    isplitl [T2]; · iexact T2
    isplitl [Uw0 Uw1 Uw2 Uw3 Uw4 Uw5 Uw6 Uw7 Uw8 Uw9 Uw10 Uw11 Uw12 Uw13 Uw14 Uw15]
    · unfold freeU
      iexists _, _, _, _, _, _, _, _, _, _, _, _, _, _, _, _
      isplitl [Uw0]; · iexact Uw0
      isplitl [Uw1]; · iexact Uw1
      isplitl [Uw2]; · iexact Uw2
      isplitl [Uw3]; · iexact Uw3
      isplitl [Uw4]; · iexact Uw4
      isplitl [Uw5]; · iexact Uw5
      isplitl [Uw6]; · iexact Uw6
      isplitl [Uw7]; · iexact Uw7
      isplitl [Uw8]; · iexact Uw8
      isplitl [Uw9]; · iexact Uw9
      isplitl [Uw10]; · iexact Uw10
      isplitl [Uw11]; · iexact Uw11
      isplitl [Uw12]; · iexact Uw12
      isplitl [Uw13]; · iexact Uw13
      isplitl [Uw14]; · iexact Uw14
      iexact Uw15
    isplitl [Iw0 Iw1 Iw2 Iw3 Iw4 Iw5 Iw6 Iw7 Iw8 Iw9 Iw10 Iw11 Iw12 Iw13 Iw14 Iw15]
    · unfold freeI
      iexists _, _, _, _, _, _, _, _, _, _, _, _, _, _, _, _
      isplitl [Iw0]; · iexact Iw0
      isplitl [Iw1]; · iexact Iw1
      isplitl [Iw2]; · iexact Iw2
      isplitl [Iw3]; · iexact Iw3
      isplitl [Iw4]; · iexact Iw4
      isplitl [Iw5]; · iexact Iw5
      isplitl [Iw6]; · iexact Iw6
      isplitl [Iw7]; · iexact Iw7
      isplitl [Iw8]; · iexact Iw8
      isplitl [Iw9]; · iexact Iw9
      isplitl [Iw10]; · iexact Iw10
      isplitl [Iw11]; · iexact Iw11
      isplitl [Iw12]; · iexact Iw12
      isplitl [Iw13]; · iexact Iw13
      isplitl [Iw14]; · iexact Iw14
      iexact Iw15
    isplitl [HO]
    · iexists _; isplitl [HO]; · iexact HO
      ipureintro; intro p hp
      rcases Finset.mem_insert.mp hp with rfl | hp
      · exact .inr rfl
      rcases Finset.mem_insert.mp hp with rfl | hp
      · exact .inr rfl
      exact .inl hp
    isplitl [HXU]
    · iexists _; isplitl [HXU]; · iexact HXU
      isplitr
      · ipureintro; intro _
        intro α kont Q W2
        iintro ⟨HX, Hmw, HO⟩ Hk
        icases HX with ⟨H2, S7, Uw31, Uw30, Uw29, Uw28, Uw27, Uw26, Uw25, Uw24, Uw23, Uw22, Uw21, Uw20, Uw19, Uw18, Uw17, Uw16, Uw31_kept, Uw30_kept, Uw29_kept, Uw28_kept, Uw27_kept, Uw26_kept, Uw25_kept, Uw24_kept, Uw23_kept, Uw22_kept, Uw21_kept, Uw20_kept, Uw19_kept, Uw18_kept, Uw17_kept⟩
        sl_exec
        iapply Hk
        isplitl [H2]
        · iexists _; isplitl [H2]; · iexact H2
          ipureintro
          intro s r f
          refine (nest16_apply_UA (F := F) (s := s) (r := r) (f := f) ..).trans ?_
          fin_cases s
          · show tile_core.sl.dma0_2 m d L f0 rdU' (ValueIdx.ix2 r f) = _
            unfold tile_core.sl.dma0_2
            exact lane_landed_U (F := F) d _ (CU m d L) e0 (fun j => (hpre d _).1) 0 (by decide) 0 (by decide) (by decide) (by decide) _ (by rfl) _ _ _ (W0 m d) _ (by rfl) r f
          · show tile_core.sl.dma2 m d L f0 rdU' (ValueIdx.ix2 r f) = _
            unfold tile_core.sl.dma2
            exact lane_landed_U (F := F) d _ (CU m d L) e0 (fun j => (hpre d _).1) 0 (by decide) 1 (by decide) (by decide) (by decide) _ (by rfl) _ _ _ (W0 m d) _ (by rfl) r f
          · show tile_core.sl.dma4 m d L f0 rdU' (ValueIdx.ix2 r f) = _
            unfold tile_core.sl.dma4
            exact lane_landed_U (F := F) d _ (CU m d L) e0 (fun j => (hpre d _).1) 0 (by decide) 2 (by decide) (by decide) (by decide) _ (by rfl) _ _ _ (W0 m d) _ (by rfl) r f
          · show tile_core.sl.dma6 m d L f0 rdU' (ValueIdx.ix2 r f) = _
            unfold tile_core.sl.dma6
            exact lane_landed_U (F := F) d _ (CU m d L) e0 (fun j => (hpre d _).1) 0 (by decide) 3 (by decide) (by decide) (by decide) _ (by rfl) _ _ _ (W0 m d) _ (by rfl) r f
          · show tile_core.sl.dma8 m d L f0 rdU' (ValueIdx.ix2 r f) = _
            unfold tile_core.sl.dma8
            exact lane_landed_U (F := F) d _ (CU m d L) e0 (fun j => (hpre d _).1) 0 (by decide) 4 (by decide) (by decide) (by decide) _ (by rfl) _ _ _ (W0 m d) _ (by rfl) r f
          · show tile_core.sl.dma10 m d L f0 rdU' (ValueIdx.ix2 r f) = _
            unfold tile_core.sl.dma10
            exact lane_landed_U (F := F) d _ (CU m d L) e0 (fun j => (hpre d _).1) 0 (by decide) 5 (by decide) (by decide) (by decide) _ (by rfl) _ _ _ (W0 m d) _ (by rfl) r f
          · show tile_core.sl.dma12 m d L f0 rdU' (ValueIdx.ix2 r f) = _
            unfold tile_core.sl.dma12
            exact lane_landed_U (F := F) d _ (CU m d L) e0 (fun j => (hpre d _).1) 0 (by decide) 6 (by decide) (by decide) (by decide) _ (by rfl) _ _ _ (W0 m d) _ (by rfl) r f
          · show tile_core.sl.dma14 m d L f0 rdU' (ValueIdx.ix2 r f) = _
            unfold tile_core.sl.dma14
            exact lane_landed_U (F := F) d _ (CU m d L) e0 (fun j => (hpre d _).1) 0 (by decide) 7 (by decide) (by decide) (by decide) _ (by rfl) _ _ _ (W0 m d) _ (by rfl) r f
          · show tile_core.sl.dma16 m d L f0 rdU' (ValueIdx.ix2 r f) = _
            unfold tile_core.sl.dma16
            exact lane_landed_U (F := F) d _ (CU m d L) e0 (fun j => (hpre d _).1) 0 (by decide) 8 (by decide) (by decide) (by decide) _ (by rfl) _ _ _ (W0 m d) _ (by rfl) r f
          · show tile_core.sl.dma18 m d L f0 rdU' (ValueIdx.ix2 r f) = _
            unfold tile_core.sl.dma18
            exact lane_landed_U (F := F) d _ (CU m d L) e0 (fun j => (hpre d _).1) 0 (by decide) 9 (by decide) (by decide) (by decide) _ (by rfl) _ _ _ (W0 m d) _ (by rfl) r f
          · show tile_core.sl.dma20 m d L f0 rdU' (ValueIdx.ix2 r f) = _
            unfold tile_core.sl.dma20
            exact lane_landed_U (F := F) d _ (CU m d L) e0 (fun j => (hpre d _).1) 0 (by decide) 10 (by decide) (by decide) (by decide) _ (by rfl) _ _ _ (W0 m d) _ (by rfl) r f
          · show tile_core.sl.dma22 m d L f0 rdU' (ValueIdx.ix2 r f) = _
            unfold tile_core.sl.dma22
            exact lane_landed_U (F := F) d _ (CU m d L) e0 (fun j => (hpre d _).1) 0 (by decide) 11 (by decide) (by decide) (by decide) _ (by rfl) _ _ _ (W0 m d) _ (by rfl) r f
          · show tile_core.sl.dma24 m d L f0 rdU' (ValueIdx.ix2 r f) = _
            unfold tile_core.sl.dma24
            exact lane_landed_U (F := F) d _ (CU m d L) e0 (fun j => (hpre d _).1) 0 (by decide) 12 (by decide) (by decide) (by decide) _ (by rfl) _ _ _ (W0 m d) _ (by rfl) r f
          · show tile_core.sl.dma26 m d L f0 rdU' (ValueIdx.ix2 r f) = _
            unfold tile_core.sl.dma26
            exact lane_landed_U (F := F) d _ (CU m d L) e0 (fun j => (hpre d _).1) 0 (by decide) 13 (by decide) (by decide) (by decide) _ (by rfl) _ _ _ (W0 m d) _ (by rfl) r f
          · show tile_core.sl.dma28 m d L f0 rdU' (ValueIdx.ix2 r f) = _
            unfold tile_core.sl.dma28
            exact lane_landed_U (F := F) d _ (CU m d L) e0 (fun j => (hpre d _).1) 0 (by decide) 14 (by decide) (by decide) (by decide) _ (by rfl) _ _ _ (W0 m d) _ (by rfl) r f
          · show tile_core.sl.dma30 m d L f0 rdU' (ValueIdx.ix2 r f) = _
            unfold tile_core.sl.dma30
            exact lane_landed_U (F := F) d _ (CU m d L) e0 (fun j => (hpre d _).1) 0 (by decide) 15 (by decide) (by decide) (by decide) _ (by rfl) _ _ _ (W0 m d) _ (by rfl) r f
        isplitl [S7]; · iexact S7
        isplitl [Uw16 Uw17 Uw18 Uw19 Uw20 Uw21 Uw22 Uw23 Uw24 Uw25 Uw26 Uw27 Uw28 Uw29 Uw30 Uw31]
        · unfold freeU
          iexists _, _, _, _, _, _, _, _, _, _, _, _, _, _, _, _
          isplitl [Uw16]; · iexact Uw16
          isplitl [Uw17]; · iexact Uw17
          isplitl [Uw18]; · iexact Uw18
          isplitl [Uw19]; · iexact Uw19
          isplitl [Uw20]; · iexact Uw20
          isplitl [Uw21]; · iexact Uw21
          isplitl [Uw22]; · iexact Uw22
          isplitl [Uw23]; · iexact Uw23
          isplitl [Uw24]; · iexact Uw24
          isplitl [Uw25]; · iexact Uw25
          isplitl [Uw26]; · iexact Uw26
          isplitl [Uw27]; · iexact Uw27
          isplitl [Uw28]; · iexact Uw28
          isplitl [Uw29]; · iexact Uw29
          isplitl [Uw30]; · iexact Uw30
          iexact Uw31
        isplitl [Hmw]; · iexact Hmw
        iexists _; isplitl [HO]; · iexact HO
        ipureintro; intro p hp
        rcases Finset.mem_insert.mp hp with rfl | hp
        · exact .inr rfl
        exact .inl hp
      · ipureintro; intro h; omega
    iexists _; isplitl [HXI]; · iexact HXI
    isplitr
    · ipureintro; intro _
      intro α kont Q W2
      iintro ⟨HX, Hmw, HO⟩ Hk
      icases HX with ⟨H3, S8, Iw31, Iw30, Iw29, Iw28, Iw27, Iw26, Iw25, Iw24, Iw23, Iw22, Iw21, Iw20, Iw19, Iw18, Iw17, Iw16, Iw31_kept, Iw30_kept, Iw29_kept, Iw28_kept, Iw27_kept, Iw26_kept, Iw25_kept, Iw24_kept, Iw23_kept, Iw22_kept, Iw21_kept, Iw20_kept, Iw19_kept, Iw18_kept, Iw17_kept⟩
      sl_exec
      iapply Hk
      isplitl [H3]
      · iexists _; isplitl [H3]; · iexact H3
        ipureintro
        intro s r f
        refine (nest16_apply_IA (F := F) (s := s) (r := r) (f := f) ..).trans ?_
        fin_cases s
        · show tile_core.sl.dma1 m d L f1 rdI' (ValueIdx.ix2 r f) = _
          unfold tile_core.sl.dma1
          exact lane_landed_I (F := F) d _ (CI m d L) e1 (fun j => (hpre d _).2) 0 (by decide) 0 (by decide) (by decide) (by decide) _ (by rfl) _ _ _ (W1 m d) _ (by rfl) r f
        · show tile_core.sl.dma3 m d L f1 rdI' (ValueIdx.ix2 r f) = _
          unfold tile_core.sl.dma3
          exact lane_landed_I (F := F) d _ (CI m d L) e1 (fun j => (hpre d _).2) 0 (by decide) 1 (by decide) (by decide) (by decide) _ (by rfl) _ _ _ (W1 m d) _ (by rfl) r f
        · show tile_core.sl.dma5 m d L f1 rdI' (ValueIdx.ix2 r f) = _
          unfold tile_core.sl.dma5
          exact lane_landed_I (F := F) d _ (CI m d L) e1 (fun j => (hpre d _).2) 0 (by decide) 2 (by decide) (by decide) (by decide) _ (by rfl) _ _ _ (W1 m d) _ (by rfl) r f
        · show tile_core.sl.dma7 m d L f1 rdI' (ValueIdx.ix2 r f) = _
          unfold tile_core.sl.dma7
          exact lane_landed_I (F := F) d _ (CI m d L) e1 (fun j => (hpre d _).2) 0 (by decide) 3 (by decide) (by decide) (by decide) _ (by rfl) _ _ _ (W1 m d) _ (by rfl) r f
        · show tile_core.sl.dma9 m d L f1 rdI' (ValueIdx.ix2 r f) = _
          unfold tile_core.sl.dma9
          exact lane_landed_I (F := F) d _ (CI m d L) e1 (fun j => (hpre d _).2) 0 (by decide) 4 (by decide) (by decide) (by decide) _ (by rfl) _ _ _ (W1 m d) _ (by rfl) r f
        · show tile_core.sl.dma11 m d L f1 rdI' (ValueIdx.ix2 r f) = _
          unfold tile_core.sl.dma11
          exact lane_landed_I (F := F) d _ (CI m d L) e1 (fun j => (hpre d _).2) 0 (by decide) 5 (by decide) (by decide) (by decide) _ (by rfl) _ _ _ (W1 m d) _ (by rfl) r f
        · show tile_core.sl.dma13 m d L f1 rdI' (ValueIdx.ix2 r f) = _
          unfold tile_core.sl.dma13
          exact lane_landed_I (F := F) d _ (CI m d L) e1 (fun j => (hpre d _).2) 0 (by decide) 6 (by decide) (by decide) (by decide) _ (by rfl) _ _ _ (W1 m d) _ (by rfl) r f
        · show tile_core.sl.dma15 m d L f1 rdI' (ValueIdx.ix2 r f) = _
          unfold tile_core.sl.dma15
          exact lane_landed_I (F := F) d _ (CI m d L) e1 (fun j => (hpre d _).2) 0 (by decide) 7 (by decide) (by decide) (by decide) _ (by rfl) _ _ _ (W1 m d) _ (by rfl) r f
        · show tile_core.sl.dma17 m d L f1 rdI' (ValueIdx.ix2 r f) = _
          unfold tile_core.sl.dma17
          exact lane_landed_I (F := F) d _ (CI m d L) e1 (fun j => (hpre d _).2) 0 (by decide) 8 (by decide) (by decide) (by decide) _ (by rfl) _ _ _ (W1 m d) _ (by rfl) r f
        · show tile_core.sl.dma19 m d L f1 rdI' (ValueIdx.ix2 r f) = _
          unfold tile_core.sl.dma19
          exact lane_landed_I (F := F) d _ (CI m d L) e1 (fun j => (hpre d _).2) 0 (by decide) 9 (by decide) (by decide) (by decide) _ (by rfl) _ _ _ (W1 m d) _ (by rfl) r f
        · show tile_core.sl.dma21 m d L f1 rdI' (ValueIdx.ix2 r f) = _
          unfold tile_core.sl.dma21
          exact lane_landed_I (F := F) d _ (CI m d L) e1 (fun j => (hpre d _).2) 0 (by decide) 10 (by decide) (by decide) (by decide) _ (by rfl) _ _ _ (W1 m d) _ (by rfl) r f
        · show tile_core.sl.dma23 m d L f1 rdI' (ValueIdx.ix2 r f) = _
          unfold tile_core.sl.dma23
          exact lane_landed_I (F := F) d _ (CI m d L) e1 (fun j => (hpre d _).2) 0 (by decide) 11 (by decide) (by decide) (by decide) _ (by rfl) _ _ _ (W1 m d) _ (by rfl) r f
        · show tile_core.sl.dma25 m d L f1 rdI' (ValueIdx.ix2 r f) = _
          unfold tile_core.sl.dma25
          exact lane_landed_I (F := F) d _ (CI m d L) e1 (fun j => (hpre d _).2) 0 (by decide) 12 (by decide) (by decide) (by decide) _ (by rfl) _ _ _ (W1 m d) _ (by rfl) r f
        · show tile_core.sl.dma27 m d L f1 rdI' (ValueIdx.ix2 r f) = _
          unfold tile_core.sl.dma27
          exact lane_landed_I (F := F) d _ (CI m d L) e1 (fun j => (hpre d _).2) 0 (by decide) 13 (by decide) (by decide) (by decide) _ (by rfl) _ _ _ (W1 m d) _ (by rfl) r f
        · show tile_core.sl.dma29 m d L f1 rdI' (ValueIdx.ix2 r f) = _
          unfold tile_core.sl.dma29
          exact lane_landed_I (F := F) d _ (CI m d L) e1 (fun j => (hpre d _).2) 0 (by decide) 14 (by decide) (by decide) (by decide) _ (by rfl) _ _ _ (W1 m d) _ (by rfl) r f
        · show tile_core.sl.dma31 m d L f1 rdI' (ValueIdx.ix2 r f) = _
          unfold tile_core.sl.dma31
          exact lane_landed_I (F := F) d _ (CI m d L) e1 (fun j => (hpre d _).2) 0 (by decide) 15 (by decide) (by decide) (by decide) _ (by rfl) _ _ _ (W1 m d) _ (by rfl) r f
      isplitl [S8]; · iexact S8
      isplitl [Iw16 Iw17 Iw18 Iw19 Iw20 Iw21 Iw22 Iw23 Iw24 Iw25 Iw26 Iw27 Iw28 Iw29 Iw30 Iw31]
      · unfold freeI
        iexists _, _, _, _, _, _, _, _, _, _, _, _, _, _, _, _
        isplitl [Iw16]; · iexact Iw16
        isplitl [Iw17]; · iexact Iw17
        isplitl [Iw18]; · iexact Iw18
        isplitl [Iw19]; · iexact Iw19
        isplitl [Iw20]; · iexact Iw20
        isplitl [Iw21]; · iexact Iw21
        isplitl [Iw22]; · iexact Iw22
        isplitl [Iw23]; · iexact Iw23
        isplitl [Iw24]; · iexact Iw24
        isplitl [Iw25]; · iexact Iw25
        isplitl [Iw26]; · iexact Iw26
        isplitl [Iw27]; · iexact Iw27
        isplitl [Iw28]; · iexact Iw28
        isplitl [Iw29]; · iexact Iw29
        isplitl [Iw30]; · iexact Iw30
        iexact Iw31
      isplitl [Hmw]; · iexact Hmw
      iexists _; isplitl [HO]; · iexact HO
      ipureintro; intro p hp
      rcases Finset.mem_insert.mp hp with rfl | hp
      · exact .inr rfl
      exact .inl hp
    · ipureintro; intro h; omega
  iintro %_ HI
  unfold inv
  icases HI with ⟨Hmw, Hu, Hi, Ho, H0, H1, ⟨%f4, H4⟩, ⟨%f5, H5⟩, ⟨%fo, H6, %hfo⟩, S9, S10, T0, T1, T2, -, -, ⟨%W', HO, %hW'⟩, ⟨%XU, HXU, -, %hXUi⟩, ⟨%XI, HXI, -, %hXIi⟩⟩
  ihave HA := (hXUi (by decide)) $$ HXU
  icases HA with ⟨⟨%f2', H2⟩, S7⟩
  ihave HB := (hXIi (by decide)) $$ HXI
  icases HB with ⟨⟨%f3', H3⟩, S8⟩
  have hfo' : ∀ p : S512.Idx, fo p = Gout m d ((oSlice L).view.emb p) :=
    fun p => hfo p (lt_of_lt_of_le (p 0).isLt (by decide))
  sl_exec
  sl_step
  isplitl [Ho]
  · have hg : ∀ p : S512.Idx, ((oSlice L).view.writes (Elt F) (m (oLoc d)) [⟨Rect.whole S512, tile_core.sl.dma0_3 d L fo⟩]) ((oSlice L).view.emb p) = Gout m d ((oSlice L).view.emb p) := by
      intro p
      have h1 : View.read (Elt F) (oSlice L).view ((oSlice L).view.writes (Elt F) (m (oLoc d)) [⟨Rect.whole S512, tile_core.sl.dma0_3 d L fo⟩]) ((Rect.whole S512).emb p) = tile_core.sl.dma0_3 d L fo p :=
        View.read_writes_cons_emb (oSlice L).view (m (oLoc d)) (Rect.whole S512) (tile_core.sl.dma0_3 d L fo) [] p
      rw [Rect.emb_whole_apply] at h1
      have h2 : tile_core.sl.dma0_3 d L fo p = fo p := by
        unfold tile_core.sl.dma0_3
        exact (View.read_apply _ _).trans (cast_eq _ _)
      exact ((View.read_apply _ _).trans (cast_eq _ _)).symm.trans (h1.trans (h2.trans (hfo' p)))
    set_option maxHeartbeats 400000 in
    iapply (out_piece_of m d L _ hg)
    set_option maxHeartbeats 400000 in
    iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [S7]; · iexact S7
  isplitl [S8]; · iexact S8
  isplitl [S9]; · iexact S9
  isplitl [S10]; · iexact S10
  isplitl [T0]; · iexact T0
  isplitl [T1]; · iexact T1
  isplitl [T2]; · iexact T2
  iapply owes_ex_swap
  iexists _; isplitl [HO]; · iexact HO
  ipureintro; intro p hp
  rcases Finset.mem_insert.mp hp with rfl | hp
  · exact .inr rfl
  exact hW' p hp

end Cert.Proof.Kernel

end
-- ==== Proof.lean ====
/-
  The certificate's claim, assembled.

  The kernel: thirty-two tiles each take 512 consecutive batch positions; a tile copies its user and item indices into
  scratch, fetches for every index the [8, 64] block of the blocked user table and of the blocked item table that holds
  the index's row (sixteen blocks per table and chunk, on one semaphore, awaited together), gathers the row out of the
  block feature by feature, and accumulates the products; the 512 results are written out in one copy.  The reference
  takes the two rows from the unblocked tables and sums their products over the 64 features.

  Both sides compute, at every batch position, the inner product of user row `u` and item row `i`: block `v / 8`, row
  `v % 8` of the blocked table is row `v` of the table, and a sum of extended reals does not depend on its order.

  One tile's task (`tile_core`), the launch over the thirty-two tiles (`run_main`), the reference's run (`Ref.run`) and the
  assembly of the five conjuncts (`Assemble.claim_of`) are in the modules imported here.
-/
import proofs.«203884_g41704132444582_cont_8to1_b_1290_16_alg».proof.Defs
import proofs.«203884_g41704132444582_cont_8to1_b_1290_16_alg».proof.Proof.Gen.Kernel
import proofs.«203884_g41704132444582_cont_8to1_b_1290_16_alg».proof.Proof.Gen.Kernel.Skeleton
import proofs.«203884_g41704132444582_cont_8to1_b_1290_16_alg».proof.Proof.Gen.KernelIdeal
import proofs.«203884_g41704132444582_cont_8to1_b_1290_16_alg».proof.Proof.Gen.KernelIdeal.Skeleton
import proofs.«203884_g41704132444582_cont_8to1_b_1290_16_alg».proof.Proof.Gen.ReferenceIdeal
import proofs.«203884_g41704132444582_cont_8to1_b_1290_16_alg».proof.Proof.Gen.Pre_input_domain
import proofs.«203884_g41704132444582_cont_8to1_b_1290_16_alg».proof.Proof.Assemble
import proofs.«203884_g41704132444582_cont_8to1_b_1290_16_alg».proof.Proof.RefRun
import proofs.«203884_g41704132444582_cont_8to1_b_1290_16_alg».proof.Proof.KI.Launch
import proofs.«203884_g41704132444582_cont_8to1_b_1290_16_alg».proof.Proof.KI.Body
import proofs.«203884_g41704132444582_cont_8to1_b_1290_16_alg».proof.Proof.K.Launch
import proofs.«203884_g41704132444582_cont_8to1_b_1290_16_alg».proof.Proof.K.Body
import Idealize.ShloMosaic.Adequacy
import Idealize.ShloMosaic.Init

noncomputable section

namespace Cert.Proof

open Idealize.ShloMosaic Idealize.SL.Sem

theorem claim : Cert.Claim :=
  Cert.Proof.Assemble.claim_of
    (fun m ρ hok => Cert.Proof.Kernel.run_main m ρ (Cert.Proof.Kernel.tile_core m hok))
    (fun m ρ hok => Cert.Proof.KernelIdeal.run_main m ρ (Cert.Proof.KernelIdeal.tile_core m hok))
    Cert.Proof.Ref.run

end Cert.Proof

end
